-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v196)) (v1 : (c : Dev Cert.KernelIdeal.nD) → Buf (Elt Ideal) ((c.tc : Thread Cert.KernelIdeal.nD Cert.KernelIdeal.τ).loc Cert.KernelIdeal.main_v220)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v196) = v0 c
          ∧ r.2.mem ((c.tc : Thread Cert.KernelIdeal.nD Cert.KernelIdeal.τ).loc Cert.KernelIdeal.main_v220) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_v303) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x128x128 : Shape := ⟨3, ![4, 128, 128]⟩
abbrev S4x128 : Shape := ⟨2, ![4, 128]⟩
abbrev S4 : Shape := ⟨1, ![4]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1024x256 : Shape := ⟨2, ![1024, 256]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S2x100000 : Shape := ⟨2, ![2, 100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S1024x256 : S_.BroadcastsInDim S1024x256 (![] : Fin 0 → Fin S1024x256.rank)
  reducesTo_S1024x256_S_d0_1 : S1024x256.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1 .f32) (main_v98 : IVec S_ 1) (main_v101 : IVec S128x1 1) (main_c_39 : IVec S_ 1) : IVec S_ 1 :=
  let main_v102 : IVec S_ 1 := (fun x v => Host.reduce IntOp.andi x v reducesTo_S128x1_S_d0_1 h_S_) main_v101 main_c_39
  let main_v103 : IVec S_ 1 := andi main_v98 main_v102
  let main_v104 : FVec F S1 .f32 := Host.absf main_arg21
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg18 : FVec F S256x128 .f32) (main_arg19 : FVec F S128 .f32) (main_arg20 : FVec F S128x1 .f32) (main_arg21 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x128 .f32 := Host.absf main_arg18
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x1 .f32 := Host.absf main_arg20
  let main_cst_38 : FVec F S_ .f32 := constant S_ .f32 0x7F800000#32
  let main_v100 : FVec F S128x1 .f32 := broadcastInDim S128x1 ![] bcast_S_S128x1 main_cst_38
  let main_v101 : IVec S128x1 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S128x16 .f32) (main_arg15 : FVec F S16 .f32) (main_arg16 : FVec F S1024x256 .f32) (main_arg17 : FVec F S256 .f32) (main_arg18 : FVec F S256x128 .f32) (main_arg19 : FVec F S128 .f32) (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S128x16 .f32 := Host.absf main_arg14
  let main_cst_26 : FVec F S_ .f32 := constant S_ .f32 0x7F800000#32
  let main_v70 : FVec F S128x16 .f32 := broadcastInDim S128x16 ![] bcast_S_S128x16 main_cst_26
  let main_v71 : IVec S128x16 1 := cmpf .olt main_v69 main_v70
  let main_c_27 : IVec S_ 1 := constantI S_ 1 1#1
  let main_v72 : IVec S_ 1 := (fun x v => Host.reduce IntOp.andi x v reducesTo_S128x16_S_d0_1 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S1024x256 .f32 := Host.absf main_arg16
  let main_cst_30 : FVec F S_ .f32 := constant S_ .f32 0x7F800000#32
  let main_v80 : FVec F S1024x256 .f32 := broadcastInDim S1024x256 ![] bcast_S_S1024x256 main_cst_30
  let main_v81 : IVec S1024x256 1 := cmpf .olt main_v79 main_v80
  let main_c_31 : IVec S_ 1 := constantI S_ 1 1#1
  let main_v82 : IVec S_ 1 := (fun x v => Host.reduce IntOp.andi x v reducesTo_S1024x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S128 .f32) (main_arg12 : FVec F S128x128 .f32) (main_arg13 : FVec F S128 .f32) (main_arg14 : FVec F S128x16 .f32) (main_arg15 : FVec F S16 .f32) (main_arg16 : FVec F S1024x256 .f32) (main_arg17 : FVec F S256 .f32) (main_arg18 : FVec F S256x128 .f32) (main_arg19 : FVec F S128 .f32) (main_arg20 : FVec F S128x1 .f32) (main_arg21 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S4 .f32) (main_arg8 : FVec F S512x256 .f32) (main_arg9 : FVec F S256 .f32) (main_arg10 : FVec F S256x128 .f32) (main_arg11 : FVec F S128 .f32) (main_arg12 : FVec F S128x128 .f32) (main_arg13 : FVec F S128 .f32) (main_arg14 : FVec F S128x16 .f32) (main_arg15 : FVec F S16 .f32) (main_arg16 : FVec F S1024x256 .f32) (main_arg17 : FVec F S256 .f32) (main_arg18 : FVec F S256x128 .f32) (main_arg19 : FVec F S128 .f32) (main_arg20 : FVec F S128x1 .f32) (main_arg21 : FVec F S1 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S512x256 .f32 := Host.absf main_arg8
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S4x128 .f32) (main_arg5 : FVec F S4x128 .f32) (main_arg6 : FVec F S4x128 .f32) (main_arg7 : FVec F S4 .f32) (main_arg8 : FVec F S512x256 .f32) (main_arg9 : FVec F S256 .f32) (main_arg10 : FVec F S256x128 .f32) (main_arg11 : FVec F S128 .f32) (main_arg12 : FVec F S128x128 .f32) (main_arg13 : FVec F S128 .f32) (main_arg14 : FVec F S128x16 .f32) (main_arg15 : FVec F S16 .f32) (main_arg16 : FVec F S1024x256 .f32) (main_arg17 : FVec F S256 .f32) (main_arg18 : FVec F S256x128 .f32) (main_arg19 : FVec F S128 .f32) (main_arg20 : FVec F S128x1 .f32) (main_arg21 : FVec F S1 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : FVec F S4x128x128 .f32) (main_arg2 : FVec F S4x128 .f32) (main_arg3 : FVec F S4x128x128 .f32) (main_arg4 : FVec F S4x128 .f32) (main_arg5 : FVec F S4x128 .f32) (main_arg6 : FVec F S4x128 .f32) (main_arg7 : FVec F S4 .f32) (main_arg8 : FVec F S512x256 .f32) (main_arg9 : FVec F S256 .f32) (main_arg10 : FVec F S256x128 .f32) (main_arg11 : FVec F S128 .f32) (main_arg12 : FVec F S128x128 .f32) (main_arg13 : FVec F S128 .f32) (main_arg14 : FVec F S128x16 .f32) (main_arg15 : FVec F S16 .f32) (main_arg16 : FVec F S1024x256 .f32) (main_arg17 : FVec F S256 .f32) (main_arg18 : FVec F S256x128 .f32) (main_arg19 : FVec F S128 .f32) (main_arg20 : FVec F S128x1 .f32) (main_arg21 : FVec F S1 .f32) (main_arg22 : IVec S2x1600000 32) (main_arg23 : IVec S100000 32) (main_arg24 : IVec S2x100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S4x128x128 : Shape := ⟨3, ![4, 128, 128]⟩
abbrev S4x128 : Shape := ⟨2, ![4, 128]⟩
abbrev S4 : Shape := ⟨1, ![4]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1024x256 : Shape := ⟨2, ![1024, 256]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S2x100000 : Shape := ⟨2, ![2, 100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S5000x128 : Shape := ⟨2, ![5000, 128]⟩
abbrev S10000x128 : Shape := ⟨2, ![10000, 128]⟩
abbrev S100000x512 : Shape := ⟨2, ![100000, 512]⟩
abbrev S64x512 : Shape := ⟨2, ![64, 512]⟩
abbrev S100000x1 : Shape := ⟨2, ![100000, 1]⟩
abbrev S64x1 : Shape := ⟨2, ![64, 1]⟩
abbrev S1x256 : Shape := ⟨2, ![1, 256]⟩
abbrev S1x16 : Shape := ⟨2, ![1, 16]⟩
abbrev S64x16 : Shape := ⟨2, ![64, 16]⟩
abbrev S64x256 : Shape := ⟨2, ![64, 256]⟩
abbrev S64x128 : Shape := ⟨2, ![64, 128]⟩
abbrev S64 : Shape := ⟨1, ![64]⟩
abbrev S1x100000 : Shape := ⟨2, ![1, 100000]⟩
abbrev S100000x1024 : Shape := ⟨2, ![100000, 1024]⟩
abbrev S1x1 : Shape := ⟨2, ![1, 1]⟩
abbrev S2000x1024 : Shape := ⟨2, ![2000, 1024]⟩
abbrev S2000x1 : Shape := ⟨2, ![2000, 1]⟩
abbrev S2000x256 : Shape := ⟨2, ![2000, 256]⟩
abbrev S2000x128 : Shape := ⟨2, ![2000, 128]⟩

abbrev nBuf : Space → Nat
  | .hbm => 286
  | .vmem => 100
  | .smem => 0
  | _ => 0

abbrev hbmTy0_0 (i : Nat) : BufTy := match i % 128 with
  | 0 => ⟨S100000x128, .f32⟩
  | 1 => ⟨S4x128x128, .f32⟩
  | 2 => ⟨S4x128, .f32⟩
  | 3 => ⟨S4x128x128, .f32⟩
  | 4 => ⟨S4x128, .f32⟩
  | 5 => ⟨S4x128, .f32⟩
  | 6 => ⟨S4x128, .f32⟩
  | 7 => ⟨S4, .f32⟩
  | 8 => ⟨S512x256, .f32⟩
  | 9 => ⟨S256, .f32⟩
  | 10 => ⟨S256x128, .f32⟩
  | 11 => ⟨S128, .f32⟩
  | 12 => ⟨S128x128, .f32⟩
  | 13 => ⟨S128, .f32⟩
  | 14 => ⟨S128x16, .f32⟩
  | 15 => ⟨S16, .f32⟩
  | 16 => ⟨S1024x256, .f32⟩
  | 17 => ⟨S256, .f32⟩
  | 18 => ⟨S256x128, .f32⟩
  | 19 => ⟨S128, .f32⟩
  | 20 => ⟨S128x1, .f32⟩
  | 21 => ⟨S1, .f32⟩
  | 22 => ⟨S2x1600000, .i32⟩
  | 23 => ⟨S100000, .i32⟩
  | 24 => ⟨S2x100000, .i32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S1, .f32⟩
  | 43 => ⟨S_, .f32⟩
  | 44 => ⟨S_, .f32⟩
  | 45 => ⟨S_, .f32⟩
  | 46 => ⟨S100000x128, .f32⟩
  | 47 => ⟨S100000x128, .f32⟩
  | 48 => ⟨S100000x128, .f32⟩
  | 49 => ⟨S1x128x128, .f32⟩
  | 50 => ⟨S128x128, .f32⟩
  | 51 => ⟨S1x128, .f32⟩
  | 52 => ⟨S128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S1x128, .f32⟩
  | 59 => ⟨S100000x128, .f32⟩
  | 60 => ⟨S1x128, .f32⟩
  | 61 => ⟨S1x128, .f32⟩
  | 62 => ⟨S128, .f32⟩
  | 63 => ⟨S_, .f32⟩
  | 64 => ⟨S128, .f32⟩
  | 65 => ⟨S128, .f32⟩
  | 66 => ⟨S128, .f32⟩
  | 67 => ⟨S_, .f32⟩
  | 68 => ⟨S128, .f32⟩
  | 69 => ⟨S128, .f32⟩
  | 70 => ⟨S128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S1x128, .f32⟩
  | 78 => ⟨S1x128, .f32⟩
  | 79 => ⟨S1x128, .f32⟩
  | 80 => ⟨S100000x128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S1, .f32⟩
  | 95 => ⟨S_, .f32⟩
  | 96 => ⟨S_, .f32⟩
  | 97 => ⟨S_, .f32⟩
  | 98 => ⟨S100000x128, .f32⟩
  | 99 => ⟨S100000x128, .f32⟩
  | 100 => ⟨S100000x128, .f32⟩
  | 101 => ⟨S1x128x128, .f32⟩
  | 102 => ⟨S128x128, .f32⟩
  | 103 => ⟨S1x128, .f32⟩
  | 104 => ⟨S128, .f32⟩
  | 105 => ⟨S1x128x128, .f32⟩
  | 106 => ⟨S128x128, .f32⟩
  | 107 => ⟨S1x128, .f32⟩
  | 108 => ⟨S128, .f32⟩
  | 109 => ⟨S1x128, .f32⟩
  | 110 => ⟨S1x128, .f32⟩
  | 111 => ⟨S100000x128, .f32⟩
  | 112 => ⟨S1x128, .f32⟩
  | 113 => ⟨S1x128, .f32⟩
  | 114 => ⟨S128, .f32⟩
  | 115 => ⟨S_, .f32⟩
  | 116 => ⟨S128, .f32⟩
  | 117 => ⟨S128, .f32⟩
  | 118 => ⟨S128, .f32⟩
  | 119 => ⟨S_, .f32⟩
  | 120 => ⟨S128, .f32⟩
  | 121 => ⟨S128, .f32⟩
  | 122 => ⟨S128, .f32⟩
  | 123 => ⟨S128, .f32⟩
  | 124 => ⟨S1x128, .f32⟩
  | 125 => ⟨S128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S100000x128, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x128, .f32⟩
  | 14 => ⟨S_, .f32⟩
  | 15 => ⟨S100000x128, .f32⟩
  | 16 => ⟨S1600000x1, .i32⟩
  | 17 => ⟨S100000x128, .f32⟩
  | 18 => ⟨S1, .f32⟩
  | 19 => ⟨S_, .f32⟩
  | 20 => ⟨S_, .f32⟩
  | 21 => ⟨S_, .f32⟩
  | 22 => ⟨S100000x128, .f32⟩
  | 23 => ⟨S100000x128, .f32⟩
  | 24 => ⟨S100000x128, .f32⟩
  | 25 => ⟨S1x128x128, .f32⟩
  | 26 => ⟨S128x128, .f32⟩
  | 27 => ⟨S1x128, .f32⟩
  | 28 => ⟨S128, .f32⟩
  | 29 => ⟨S1x128x128, .f32⟩
  | 30 => ⟨S128x128, .f32⟩
  | 31 => ⟨S1x128, .f32⟩
  | 32 => ⟨S128, .f32⟩
  | 33 => ⟨S1x128, .f32⟩
  | 34 => ⟨S1x128, .f32⟩
  | 35 => ⟨S100000x128, .f32⟩
  | 36 => ⟨S1x128, .f32⟩
  | 37 => ⟨S1x128, .f32⟩
  | 38 => ⟨S128, .f32⟩
  | 39 => ⟨S_, .f32⟩
  | 40 => ⟨S128, .f32⟩
  | 41 => ⟨S128, .f32⟩
  | 42 => ⟨S128, .f32⟩
  | 43 => ⟨S_, .f32⟩
  | 44 => ⟨S128, .f32⟩
  | 45 => ⟨S128, .f32⟩
  | 46 => ⟨S128, .f32⟩
  | 47 => ⟨S128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S1x128, .f32⟩
  | 54 => ⟨S1x128, .f32⟩
  | 55 => ⟨S1x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S1, .f32⟩
  | 71 => ⟨S_, .f32⟩
  | 72 => ⟨S_, .f32⟩
  | 73 => ⟨S_, .f32⟩
  | 74 => ⟨S100000x128, .f32⟩
  | 75 => ⟨S100000x128, .f32⟩
  | 76 => ⟨S100000x128, .f32⟩
  | 77 => ⟨S1x128x128, .f32⟩
  | 78 => ⟨S128x128, .f32⟩
  | 79 => ⟨S1x128, .f32⟩
  | 80 => ⟨S128, .f32⟩
  | 81 => ⟨S1x128x128, .f32⟩
  | 82 => ⟨S128x128, .f32⟩
  | 83 => ⟨S1x128, .f32⟩
  | 84 => ⟨S128, .f32⟩
  | 85 => ⟨S1x128, .f32⟩
  | 86 => ⟨S1x128, .f32⟩
  | 87 => ⟨S100000x128, .f32⟩
  | 88 => ⟨S1x128, .f32⟩
  | 89 => ⟨S1x128, .f32⟩
  | 90 => ⟨S128, .f32⟩
  | 91 => ⟨S_, .f32⟩
  | 92 => ⟨S128, .f32⟩
  | 93 => ⟨S128, .f32⟩
  | 94 => ⟨S128, .f32⟩
  | 95 => ⟨S_, .f32⟩
  | 96 => ⟨S128, .f32⟩
  | 97 => ⟨S128, .f32⟩
  | 98 => ⟨S128, .f32⟩
  | 99 => ⟨S128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S1x128, .f32⟩
  | 106 => ⟨S1x128, .f32⟩
  | 107 => ⟨S1x128, .f32⟩
  | 108 => ⟨S100000x128, .f32⟩
  | 109 => ⟨S100000x512, .f32⟩
  | 110 => ⟨S_, .f32⟩
  | 111 => ⟨S64x512, .f32⟩
  | 112 => ⟨S100000x1, .i32⟩
  | 113 => ⟨S64x512, .f32⟩
  | 114 => ⟨S_, .f32⟩
  | 115 => ⟨S100000x1, .f32⟩
  | 116 => ⟨S_, .f32⟩
  | 117 => ⟨S64x1, .f32⟩
  | 118 => ⟨S100000x1, .i32⟩
  | 119 => ⟨S64x1, .f32⟩
  | 120 => ⟨S_, .f32⟩
  | 121 => ⟨S64x1, .f32⟩
  | 122 => ⟨S64x1, .f32⟩
  | 123 => ⟨S64x512, .f32⟩
  | 124 => ⟨S64x512, .f32⟩
  | 125 => ⟨S1x256, .f32⟩
  | 126 => ⟨S1x128, .f32⟩
  | 127 => ⟨S1x128, .f32⟩
  | _ => ⟨S100000x128, .f32⟩

abbrev hbmTy0_2 (i : Nat) : BufTy := match i % 128 with
  | 0 => ⟨S1x16, .f32⟩
  | 1 => ⟨S64x16, .f32⟩
  | 2 => ⟨S1x100000, .i32⟩
  | 3 => ⟨S100000, .i32⟩
  | 4 => ⟨S_, .i32⟩
  | 5 => ⟨S100000, .i32⟩
  | 6 => ⟨S100000, .i1⟩
  | 7 => ⟨S_, .i32⟩
  | 8 => ⟨S100000, .i32⟩
  | 9 => ⟨S100000, .i32⟩
  | 10 => ⟨S100000, .i32⟩
  | 11 => ⟨S100000x1, .i32⟩
  | 12 => ⟨S100000x512, .f32⟩
  | 13 => ⟨S1x100000, .i32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x512, .f32⟩
  | 24 => ⟨S100000x1024, .f32⟩
  | 25 => ⟨S1x256, .f32⟩
  | 26 => ⟨S1x128, .f32⟩
  | 27 => ⟨S1x1, .f32⟩
  | 28 => ⟨S100000x1, .f32⟩
  | 29 => ⟨S100000, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S10000x128, .f32⟩
  | .local _ .vmem, ⟨33, _⟩ => ⟨S10000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S10000x128, .f32⟩
  | .local _ .vmem, ⟨53, _⟩ => ⟨S10000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S10000x128, .f32⟩
  | .local _ .vmem, ⟨59, _⟩ => ⟨S10000x128, .f32⟩
  | .local _ .vmem, ⟨60, _⟩ => ⟨S5000x128, .f32⟩
  | .local _ .vmem, ⟨61, _⟩ => ⟨S5000x128, .f32⟩
  | .local _ .vmem, ⟨62, _⟩ => ⟨S128x128, .f32⟩
  | .local _ .vmem, ⟨63, _⟩ => ⟨S1x128, .f32⟩
  | .local _ .vmem, ⟨64, _⟩ => ⟨S128x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S10000x128, .f32⟩
  | .local _ .vmem, ⟨73, _⟩ => ⟨S10000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S10000x128, .f32⟩
  | .local _ .vmem, ⟨79, _⟩ => ⟨S10000x128, .f32⟩
  | .local _ .vmem, ⟨80, _⟩ => ⟨S64x512, .f32⟩
  | .local _ .vmem, ⟨81, _⟩ => ⟨S512x256, .f32⟩
  | .local _ .vmem, ⟨82, _⟩ => ⟨S1x256, .f32⟩
  | .local _ .vmem, ⟨83, _⟩ => ⟨S256x128, .f32⟩
  | .local _ .vmem, ⟨84, _⟩ => ⟨S1x128, .f32⟩
  | .local _ .vmem, ⟨85, _⟩ => ⟨S128x128, .f32⟩
  | .local _ .vmem, ⟨86, _⟩ => ⟨S1x128, .f32⟩
  | .local _ .vmem, ⟨87, _⟩ => ⟨S128x16, .f32⟩
  | .local _ .vmem, ⟨88, _⟩ => ⟨S1x16, .f32⟩
  | .local _ .vmem, ⟨89, _⟩ => ⟨S64x16, .f32⟩
  | .local _ .vmem, ⟨90, _⟩ => ⟨S2000x1024, .f32⟩
  | .local _ .vmem, ⟨91, _⟩ => ⟨S2000x1024, .f32⟩
  | .local _ .vmem, ⟨92, _⟩ => ⟨S1024x256, .f32⟩
  | .local _ .vmem, ⟨93, _⟩ => ⟨S1x256, .f32⟩
  | .local _ .vmem, ⟨94, _⟩ => ⟨S256x128, .f32⟩
  | .local _ .vmem, ⟨95, _⟩ => ⟨S1x128, .f32⟩
  | .local _ .vmem, ⟨96, _⟩ => ⟨S128x1, .f32⟩
  | .local _ .vmem, ⟨97, _⟩ => ⟨S1x1, .f32⟩
  | .local _ .vmem, ⟨98, _⟩ => ⟨S2000x1, .f32⟩
  | .local _ .vmem, ⟨99, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30_0 : Ref sig .tc := ⟨.hbm, 59, rfl⟩
abbrev main_v30_1 : Ref sig .tc := ⟨.hbm, 60, rfl⟩
abbrev main_v30_2 : Ref sig .tc := ⟨.hbm, 61, rfl⟩
abbrev main_v31 : Ref sig .tc := ⟨.hbm, 62, rfl⟩
abbrev main_cst_2 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_4 : Ref sig .tc := ⟨.hbm, 81, rfl⟩
abbrev main_v48 : Ref sig .tc := ⟨.hbm, 82, rfl⟩
abbrev main_v49 : Ref sig .tc := ⟨.hbm, 83, rfl⟩
abbrev main_c_5 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_6 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_7 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74_0 : Ref sig .tc := ⟨.hbm, 111, rfl⟩
abbrev main_v74_1 : Ref sig .tc := ⟨.hbm, 112, rfl⟩
abbrev main_v74_2 : Ref sig .tc := ⟨.hbm, 113, rfl⟩
abbrev main_v75 : Ref sig .tc := ⟨.hbm, 114, rfl⟩
abbrev main_cst_8 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_9 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_10 : Ref sig .tc := ⟨.hbm, 133, rfl⟩
abbrev main_v92 : Ref sig .tc := ⟨.hbm, 134, rfl⟩
abbrev main_v93 : Ref sig .tc := ⟨.hbm, 135, rfl⟩
abbrev main_c_11 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_12 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_13 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118_0 : Ref sig .tc := ⟨.hbm, 163, rfl⟩
abbrev main_v118_1 : Ref sig .tc := ⟨.hbm, 164, rfl⟩
abbrev main_v118_2 : Ref sig .tc := ⟨.hbm, 165, rfl⟩
abbrev main_v119 : Ref sig .tc := ⟨.hbm, 166, rfl⟩
abbrev main_cst_14 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_15 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_c_16 : Ref sig .tc := ⟨.hbm, 185, rfl⟩
abbrev main_v136 : Ref sig .tc := ⟨.hbm, 186, rfl⟩
abbrev main_v137 : Ref sig .tc := ⟨.hbm, 187, rfl⟩
abbrev main_c_17 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_18 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_19 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162_0 : Ref sig .tc := ⟨.hbm, 215, rfl⟩
abbrev main_v162_1 : Ref sig .tc := ⟨.hbm, 216, rfl⟩
abbrev main_v162_2 : Ref sig .tc := ⟨.hbm, 217, rfl⟩
abbrev main_v163 : Ref sig .tc := ⟨.hbm, 218, rfl⟩
abbrev main_cst_20 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_21 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_cst_22 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_23 : Ref sig .tc := ⟨.hbm, 242, rfl⟩
abbrev main_v184 : Ref sig .tc := ⟨.hbm, 243, rfl⟩
abbrev main_cst_24 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_cst_25 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_c_26 : Ref sig .tc := ⟨.hbm, 260, rfl⟩
abbrev main_v199 : Ref sig .tc := ⟨.hbm, 261, rfl⟩
abbrev main_v200 : Ref sig .tc := ⟨.hbm, 262, rfl⟩
abbrev main_c_27 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_c_28 : Ref sig .tc := ⟨.hbm, 271, rfl⟩
abbrev main_v208 : Ref sig .tc := ⟨.hbm, 272, rfl⟩
abbrev main_v209 : Ref sig .tc := ⟨.hbm, 273, rfl⟩
abbrev main_c_29 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg7_0 : Ref sig .tc := ⟨.vmem, 49, rfl⟩
abbrev cc4_scratch0 : Ref sig .tc := ⟨.vmem, 50, rfl⟩
abbrev cc4_scratch1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg5_1 : Ref sig .tc := ⟨.vmem, 67, rfl⟩
abbrev cc6_stg6_0 : Ref sig .tc := ⟨.vmem, 68, rfl⟩
abbrev cc6_stg7_0 : Ref sig .tc := ⟨.vmem, 69, rfl⟩
abbrev cc6_scratch0 : Ref sig .tc := ⟨.vmem, 70, rfl⟩
abbrev cc6_scratch1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc8_stg0_0 : Ref sig .tc := ⟨.vmem, 80, rfl⟩
abbrev cc8_stg1_0 : Ref sig .tc := ⟨.vmem, 81, rfl⟩
abbrev cc8_stg2_0 : Ref sig .tc := ⟨.vmem, 82, rfl⟩
abbrev cc8_stg3_0 : Ref sig .tc := ⟨.vmem, 83, rfl⟩
abbrev cc8_stg4_0 : Ref sig .tc := ⟨.vmem, 84, rfl⟩
abbrev cc8_stg5_0 : Ref sig .tc := ⟨.vmem, 85, rfl⟩
abbrev cc8_stg6_0 : Ref sig .tc := ⟨.vmem, 86, rfl⟩
abbrev cc8_stg7_0 : Ref sig .tc := ⟨.vmem, 87, rfl⟩
abbrev cc8_stg8_0 : Ref sig .tc := ⟨.vmem, 88, rfl⟩
abbrev cc8_stg9_0 : Ref sig .tc := ⟨.vmem, 89, rfl⟩
abbrev cc9_stg0_0 : Ref sig .tc := ⟨.vmem, 90, rfl⟩
abbrev cc9_stg0_1 : Ref sig .tc := ⟨.vmem, 91, rfl⟩
abbrev cc9_stg1_0 : Ref sig .tc := ⟨.vmem, 92, rfl⟩
abbrev cc9_stg2_0 : Ref sig .tc := ⟨.vmem, 93, rfl⟩
abbrev cc9_stg3_0 : Ref sig .tc := ⟨.vmem, 94, rfl⟩
abbrev cc9_stg4_0 : Ref sig .tc := ⟨.vmem, 95, rfl⟩
abbrev cc9_stg5_0 : Ref sig .tc := ⟨.vmem, 96, rfl⟩
abbrev cc9_stg6_0 : Ref sig .tc := ⟨.vmem, 97, rfl⟩
abbrev cc9_stg7_0 : Ref sig .tc := ⟨.vmem, 98, rfl⟩
abbrev cc9_stg7_1 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem7_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem1_0 : DmaSem sig := 73
abbrev cc8_sem2_0 : DmaSem sig := 74
abbrev cc8_sem3_0 : DmaSem sig := 75
abbrev cc8_sem4_0 : DmaSem sig := 76
abbrev cc8_sem5_0 : DmaSem sig := 77
abbrev cc8_sem6_0 : DmaSem sig := 78
abbrev cc8_sem7_0 : DmaSem sig := 79
abbrev cc8_sem8_0 : DmaSem sig := 80
abbrev cc8_sem9_0 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem6_0 : DmaSem sig := 89
abbrev cc9_sem7_0 : DmaSem sig := 90
abbrev cc9_sem7_1 : DmaSem sig := 91

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S64x512 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S512x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x16 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x16 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S64x16 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1024x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x1 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x1 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S2000x1 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  bcast_S_S128 : S_.BroadcastsInDim S128 (![] : Fin 0 → Fin S128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  concatenates_S100000x128_S100000x128_S100000x128_S100000x128_S100000x512_d1 : Shape.Concatenates [S100000x128, S100000x128, S100000x128, S100000x128] S100000x512 1
  bcast_S_S64x512 : S_.BroadcastsInDim S64x512 (![] : Fin 0 → Fin S64x512.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  shapeCasts_S256_S1x256 : S256.ShapeCasts S1x256
  shapeCasts_S16_S1x16 : S16.ShapeCasts S1x16
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S256x128_S256x128_0_0 : ∀ a, (![0, 0] : Fin 2 → Nat) a + S256x128.size a ≤ S256x128.size a
  h_S256x128 : 0 < S256x128.numel
  broadcasts_S1x128_S64x128 : S1x128.Broadcasts S64x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  reduces_S64x16_S64 : S64x16.Reduces [1] S64
  shapeCasts_S64_S64x1 : S64.ShapeCasts S64x1
  broadcasts_S64x1_S64x16 : S64x1.Broadcasts S64x16
  inb_S64x16_S64x16_0_0 : ∀ a, (![0, 0] : Fin 2 → Nat) a + S64x16.size a ≤ S64x16.size a
  h_S64x16 : 0 < S64x16.numel
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  slices_S2x100000_S1x100000_1_0 : S2x100000.Slices ![1, 0] S1x100000
  concatenates_S100000x512_S100000x512_S100000x1024_d1 : Shape.Concatenates [S100000x512, S100000x512] S100000x1024 1
  shapeCasts_S1_S1x1 : S1.ShapeCasts S1x1
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S1024x256_S1024x256_0_0 : ∀ a, (![0, 0] : Fin 2 → Nat) a + S1024x256.size a ≤ S1024x256.size a
  h_S1024x256 : 0 < S1024x256.numel
  broadcasts_S1x256_S2000x256 : S1x256.Broadcasts S2000x256
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64x512_S100000x1_S100000x512_1_0_0_1_wf : ScatterDims.WF S64x512 S100000x1 S100000x512 [1] [0] [0] 1
  scatter_S64x1_S100000x1_S100000x1_1_0_0_1_wf : ScatterDims.WF S64x1 S100000x1 S100000x1 [1] [0] [0] 1
  dot_S64x512_S512x256_S64x256_1_0_0_1_n_n_wf : DotDims.WF S64x512 S512x256 S64x256 [1] [0] [0] [1] [] []
  dot_S64x256_S256x128_S64x128_1_0_0_1_n_n_wf : DotDims.WF S64x256 S256x128 S64x128 [1] [0] [0] [1] [] []
  dot_S64x128_S128x128_S64x128_1_0_0_1_n_n_wf : DotDims.WF S64x128 S128x128 S64x128 [1] [0] [0] [1] [] []
  dot_S64x128_S128x16_S64x16_1_0_0_1_n_n_wf : DotDims.WF S64x128 S128x16 S64x16 [1] [0] [0] [1] [] []
  gather_S100000x512_S100000x1_S100000x512_1_0_n_n_0_1_1512_wf : GatherDims.WF S100000x512 S100000x1 S100000x512 [1] [0] [] [0] [] 1 ![1, 512]
  dot_S2000x1024_S1024x256_S2000x256_1_0_0_1_n_n_wf : DotDims.WF S2000x1024 S1024x256 S2000x256 [1] [0] [0] [1] [] []
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x128.size a ≤ S100000x128.size a
  hwx7_5 : ∀ i : grid7.Coords, EltTy.bits .f32 = 32 ∨ (Rect.block (s := S100000x128) S10000x128.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S64x512.size a ≤ S64x512.size a
  hwx8_0 : ∀ i : grid8.Coords, EltTy.bits .f32 = 32 ∨ (Rect.block (s := S64x512) S64x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x256.size a ≤ S512x256.size a
  hwx8_1 : ∀ i : grid8.Coords, EltTy.bits .f32 = 32 ∨ (Rect.block (s := S512x256) S512x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x128.size a ≤ S256x128.size a
  hwx8_3 : ∀ i : grid8.Coords, EltTy.bits .f32 = 32 ∨ (Rect.block (s := S256x128) S256x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S128x16.size a ≤ S128x16.size a
  hwx8_7 : ∀ i : grid8.Coords, EltTy.bits .f32 = 32 ∨ (Rect.block (s := S128x16) S128x16.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x16.size a ≤ S1x16.size a
  hwx8_8 : ∀ i : grid8.Coords, EltTy.bits .f32 = 32 ∨ (Rect.block (s := S1x16) S1x16.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S64x16.size a ≤ S64x16.size a
  hwx8_9 : ∀ i : grid8.Coords, EltTy.bits .f32 = 32 ∨ (Rect.block (s := S64x16) S64x16.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x1024.size a ≤ S100000x1024.size a
  hwx9_0 : ∀ i : grid9.Coords, EltTy.bits .f32 = 32 ∨ (Rect.block (s := S100000x1024) S2000x1024.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1024x256.size a ≤ S1024x256.size a
  hwx9_1 : ∀ i : grid9.Coords, EltTy.bits .f32 = 32 ∨ (Rect.block (s := S1024x256) S1024x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x128.size a ≤ S256x128.size a
  hwx9_3 : ∀ i : grid9.Coords, EltTy.bits .f32 = 32 ∨ (Rect.block (s := S256x128) S256x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x1.size a ≤ S128x1.size a
  hwx9_5 : ∀ i : grid9.Coords, EltTy.bits .f32 = 32 ∨ (Rect.block (s := S128x1) S128x1.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x1.size a ≤ S1x1.size a
  hwx9_6 : ∀ i : grid9.Coords, EltTy.bits .f32 = 32 ∨ (Rect.block (s := S1x1) S1x1.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S2000x1.size a ≤ S100000x1.size a
  hwx9_7 : ∀ i : grid9.Coords, EltTy.bits .f32 = 32 ∨ (Rect.block (s := S100000x1) S2000x1.size (cc9_transform_7 i) (hinb9_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x512_S100000x1_S100000x512_1_0_0_1 : ScatterDims S64x512 S100000x1 S100000x512 where
  updateWindowDims := [1]
  insertedWindowDims := [0]
  scatterDimsToOperandDims := [0]
  indexVectorDim := 1
  wf := scatter_S64x512_S100000x1_S100000x512_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf
def gather_S100000x512_S100000x1_S100000x512_1_0_n_n_0_1_1512 : GatherDims S100000x512 S100000x1 S100000x512 where
  offsetDims := [1]
  collapsedSliceDims := [0]
  operandBatchingDims := []
  startIndicesBatchingDims := []
  startIndexMap := [0]
  indexVectorDim := 1
  sliceSizes := ![1, 512]
  wf := gather_S100000x512_S100000x1_S100000x512_1_0_n_n_0_1_1512_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v74_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v74_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v74_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v107) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v116) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v113) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v117) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v118_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v118_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v118_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v118_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v131) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v132) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v133) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v134) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v135) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v151) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v153) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v160) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v157) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v161) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v162_0) S5000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v162_1) S1x128.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v162_2) S1x128.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v162_0) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v175) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v176) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v177) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v178) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v179) S10000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v191) S64x512.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg8) S512x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v192) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg10) S256x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v193) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg12) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v194) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_arg14) S128x16.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v195) S1x16.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v196) S64x16.size cc8_transform_9 reads8_9 true true 1 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v215) S2000x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg16) S1024x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v216) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg18) S256x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v217) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg20) S128x1.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v218) S1x1.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v219) S2000x1.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S100000x128 : Shape := ⟨2, ![100000, 128]⟩
abbrev S4x128x128 : Shape := ⟨3, ![4, 128, 128]⟩
abbrev S4x128 : Shape := ⟨2, ![4, 128]⟩
abbrev S4 : Shape := ⟨1, ![4]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1024x256 : Shape := ⟨2, ![1024, 256]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S2x100000 : Shape := ⟨2, ![2, 100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S100000x512 : Shape := ⟨2, ![100000, 512]⟩
abbrev S64x512 : Shape := ⟨2, ![64, 512]⟩
abbrev S100000x1 : Shape := ⟨2, ![100000, 1]⟩
abbrev S64x1 : Shape := ⟨2, ![64, 1]⟩
abbrev S64x256 : Shape := ⟨2, ![64, 256]⟩
abbrev S1x256 : Shape := ⟨2, ![1, 256]⟩
abbrev S64x128 : Shape := ⟨2, ![64, 128]⟩
abbrev S64x16 : Shape := ⟨2, ![64, 16]⟩
abbrev S1x16 : Shape := ⟨2, ![1, 16]⟩
abbrev S64 : Shape := ⟨1, ![64]⟩
abbrev S1x100000 : Shape := ⟨2, ![1, 100000]⟩
abbrev S100000x1024 : Shape := ⟨2, ![100000, 1024]⟩
abbrev S100000x256 : Shape := ⟨2, ![100000, 256]⟩
abbrev S1x1 : Shape := ⟨2, ![1, 1]⟩

abbrev nBuf : Space → Nat
  | .hbm => 495
  | .vmem => 0
  | .smem => 0
  | _ => 0

abbrev hbmTy0_0 (i : Nat) : BufTy := match i % 128 with
  | 0 => ⟨S100000x128, .f32⟩
  | 1 => ⟨S4x128x128, .f32⟩
  | 2 => ⟨S4x128, .f32⟩
  | 3 => ⟨S4x128x128, .f32⟩
  | 4 => ⟨S4x128, .f32⟩
  | 5 => ⟨S4x128, .f32⟩
  | 6 => ⟨S4x128, .f32⟩
  | 7 => ⟨S4, .f32⟩
  | 8 => ⟨S512x256, .f32⟩
  | 9 => ⟨S256, .f32⟩
  | 10 => ⟨S256x128, .f32⟩
  | 11 => ⟨S128, .f32⟩
  | 12 => ⟨S128x128, .f32⟩
  | 13 => ⟨S128, .f32⟩
  | 14 => ⟨S128x16, .f32⟩
  | 15 => ⟨S16, .f32⟩
  | 16 => ⟨S1024x256, .f32⟩
  | 17 => ⟨S256, .f32⟩
  | 18 => ⟨S256x128, .f32⟩
  | 19 => ⟨S128, .f32⟩
  | 20 => ⟨S128x1, .f32⟩
  | 21 => ⟨S1, .f32⟩
  | 22 => ⟨S2x1600000, .i32⟩
  | 23 => ⟨S100000, .i32⟩
  | 24 => ⟨S2x100000, .i32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S1, .f32⟩
  | 43 => ⟨S_, .f32⟩
  | 44 => ⟨S_, .f32⟩
  | 45 => ⟨S_, .f32⟩
  | 46 => ⟨S100000x128, .f32⟩
  | 47 => ⟨S100000x128, .f32⟩
  | 48 => ⟨S100000x128, .f32⟩
  | 49 => ⟨S1x128x128, .f32⟩
  | 50 => ⟨S128x128, .f32⟩
  | 51 => ⟨S100000x128, .f32⟩
  | 52 => ⟨S1x128, .f32⟩
  | 53 => ⟨S128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S1x128x128, .f32⟩
  | 61 => ⟨S128x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S100000x128, .f32⟩
  | 84 => ⟨S100000x128, .f32⟩
  | 85 => ⟨S100000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x128, .f32⟩

abbrev hbmTy0_1 (i : Nat) : BufTy := match i % 128 with
  | 0 => ⟨S_, .f32⟩
  | 1 => ⟨S100000x128, .f32⟩
  | 2 => ⟨S1600000x1, .i32⟩
  | 3 => ⟨S100000x128, .f32⟩
  | 4 => ⟨S1, .f32⟩
  | 5 => ⟨S_, .f32⟩
  | 6 => ⟨S_, .f32⟩
  | 7 => ⟨S_, .f32⟩
  | 8 => ⟨S100000x128, .f32⟩
  | 9 => ⟨S100000x128, .f32⟩
  | 10 => ⟨S100000x128, .f32⟩
  | 11 => ⟨S1x128x128, .f32⟩
  | 12 => ⟨S128x128, .f32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S1x128x128, .f32⟩
  | 23 => ⟨S128x128, .f32⟩
  | 24 => ⟨S100000x128, .f32⟩
  | 25 => ⟨S1x128, .f32⟩
  | 26 => ⟨S128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S_, .f32⟩
  | 34 => ⟨S128, .f32⟩
  | 35 => ⟨S_, .f32⟩
  | 36 => ⟨S128, .f32⟩
  | 37 => ⟨S128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S100000x128, .f32⟩
  | 46 => ⟨S100000x128, .f32⟩
  | 47 => ⟨S100000x128, .f32⟩
  | 48 => ⟨S_, .f32⟩
  | 49 => ⟨S_, .f32⟩
  | 50 => ⟨S_, .f32⟩
  | 51 => ⟨S_, .f32⟩
  | 52 => ⟨S128, .f32⟩
  | 53 => ⟨S128, .f32⟩
  | 54 => ⟨S128, .f32⟩
  | 55 => ⟨S_, .f32⟩
  | 56 => ⟨S_, .i1⟩
  | 57 => ⟨S_, .f32⟩
  | 58 => ⟨S_, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S_, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S128, .f32⟩
  | 78 => ⟨S1x128, .f32⟩
  | 79 => ⟨S100000x128, .f32⟩
  | 80 => ⟨S100000x128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S1, .f32⟩
  | 95 => ⟨S_, .f32⟩
  | 96 => ⟨S_, .f32⟩
  | 97 => ⟨S_, .f32⟩
  | 98 => ⟨S100000x128, .f32⟩
  | 99 => ⟨S100000x128, .f32⟩
  | 100 => ⟨S100000x128, .f32⟩
  | 101 => ⟨S1x128x128, .f32⟩
  | 102 => ⟨S128x128, .f32⟩
  | 103 => ⟨S100000x128, .f32⟩
  | 104 => ⟨S1x128, .f32⟩
  | 105 => ⟨S128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S1x128x128, .f32⟩
  | 113 => ⟨S128x128, .f32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S_, .f32⟩
  | 124 => ⟨S128, .f32⟩
  | 125 => ⟨S_, .f32⟩
  | 126 => ⟨S128, .f32⟩
  | 127 => ⟨S128, .f32⟩
  | _ => ⟨S100000x128, .f32⟩

abbrev hbmTy0_2 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S100000x128, .f32⟩
  | 8 => ⟨S100000x128, .f32⟩
  | 9 => ⟨S100000x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S100000x128, .f32⟩
  | 25 => ⟨S100000x128, .f32⟩
  | 26 => ⟨S_, .f32⟩
  | 27 => ⟨S128, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S1x128, .f32⟩
  | 39 => ⟨S128, .f32⟩
  | 40 => ⟨S1x128, .f32⟩
  | 41 => ⟨S100000x128, .f32⟩
  | 42 => ⟨S100000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S1, .f32⟩
  | 57 => ⟨S_, .f32⟩
  | 58 => ⟨S_, .f32⟩
  | 59 => ⟨S_, .f32⟩
  | 60 => ⟨S100000x128, .f32⟩
  | 61 => ⟨S100000x128, .f32⟩
  | 62 => ⟨S100000x128, .f32⟩
  | 63 => ⟨S1x128x128, .f32⟩
  | 64 => ⟨S128x128, .f32⟩
  | 65 => ⟨S100000x128, .f32⟩
  | 66 => ⟨S1x128, .f32⟩
  | 67 => ⟨S128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S_, .f32⟩
  | 86 => ⟨S128, .f32⟩
  | 87 => ⟨S_, .f32⟩
  | 88 => ⟨S128, .f32⟩
  | 89 => ⟨S128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S100000x128, .f32⟩
  | 98 => ⟨S100000x128, .f32⟩
  | 99 => ⟨S100000x128, .f32⟩
  | 100 => ⟨S_, .f32⟩
  | 101 => ⟨S_, .f32⟩
  | 102 => ⟨S_, .f32⟩
  | 103 => ⟨S_, .f32⟩
  | 104 => ⟨S128, .f32⟩
  | 105 => ⟨S128, .f32⟩
  | 106 => ⟨S128, .f32⟩
  | 107 => ⟨S_, .f32⟩
  | 108 => ⟨S_, .i1⟩
  | 109 => ⟨S_, .f32⟩
  | 110 => ⟨S_, .f32⟩
  | 111 => ⟨S128, .f32⟩
  | 112 => ⟨S128, .f32⟩
  | 113 => ⟨S1x128, .f32⟩
  | 114 => ⟨S100000x128, .f32⟩
  | 115 => ⟨S100000x128, .f32⟩
  | 116 => ⟨S_, .f32⟩
  | 117 => ⟨S128, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S128, .f32⟩
  | 125 => ⟨S1x128, .f32⟩
  | 126 => ⟨S100000x128, .f32⟩
  | 127 => ⟨S100000x128, .f32⟩
  | _ => ⟨S100000x128, .f32⟩

abbrev hbmTy0_3 (i : Nat) : BufTy := match i % 128 with
  | 0 => ⟨S1x128, .f32⟩
  | 1 => ⟨S128, .f32⟩
  | 2 => ⟨S1x128, .f32⟩
  | 3 => ⟨S100000x128, .f32⟩
  | 4 => ⟨S100000x128, .f32⟩
  | 5 => ⟨S100000x512, .f32⟩
  | 6 => ⟨S_, .f32⟩
  | 7 => ⟨S64x512, .f32⟩
  | 8 => ⟨S100000x1, .i32⟩
  | 9 => ⟨S64x512, .f32⟩
  | 10 => ⟨S_, .f32⟩
  | 11 => ⟨S100000x1, .f32⟩
  | 12 => ⟨S_, .f32⟩
  | 13 => ⟨S64x1, .f32⟩
  | 14 => ⟨S100000x1, .i32⟩
  | 15 => ⟨S64x1, .f32⟩
  | 16 => ⟨S_, .f32⟩
  | 17 => ⟨S64x1, .f32⟩
  | 18 => ⟨S64x1, .f32⟩
  | 19 => ⟨S64x512, .f32⟩
  | 20 => ⟨S64x512, .f32⟩
  | 21 => ⟨S64x256, .f32⟩
  | 22 => ⟨S1x256, .f32⟩
  | 23 => ⟨S64x256, .f32⟩
  | 24 => ⟨S64x256, .f32⟩
  | 25 => ⟨S_, .f32⟩
  | 26 => ⟨S64x256, .f32⟩
  | 27 => ⟨S64x256, .f32⟩
  | 28 => ⟨S64x128, .f32⟩
  | 29 => ⟨S1x128, .f32⟩
  | 30 => ⟨S64x128, .f32⟩
  | 31 => ⟨S64x128, .f32⟩
  | 32 => ⟨S_, .f32⟩
  | 33 => ⟨S64x128, .f32⟩
  | 34 => ⟨S64x128, .f32⟩
  | 35 => ⟨S64x128, .f32⟩
  | 36 => ⟨S1x128, .f32⟩
  | 37 => ⟨S64x128, .f32⟩
  | 38 => ⟨S64x128, .f32⟩
  | 39 => ⟨S_, .f32⟩
  | 40 => ⟨S64x128, .f32⟩
  | 41 => ⟨S64x128, .f32⟩
  | 42 => ⟨S64x16, .f32⟩
  | 43 => ⟨S1x16, .f32⟩
  | 44 => ⟨S64x16, .f32⟩
  | 45 => ⟨S64x16, .f32⟩
  | 46 => ⟨S_, .f32⟩
  | 47 => ⟨S64, .f32⟩
  | 48 => ⟨S_, .f32⟩
  | 49 => ⟨S64, .f32⟩
  | 50 => ⟨S64, .f32⟩
  | 51 => ⟨S64x1, .f32⟩
  | 52 => ⟨S64x16, .f32⟩
  | 53 => ⟨S64x16, .f32⟩
  | 54 => ⟨S64x16, .f32⟩
  | 55 => ⟨S_, .f32⟩
  | 56 => ⟨S64, .f32⟩
  | 57 => ⟨S64x1, .f32⟩
  | 58 => ⟨S64x1, .f32⟩
  | 59 => ⟨S64x16, .f32⟩
  | 60 => ⟨S64x16, .f32⟩
  | 61 => ⟨S1x100000, .i32⟩
  | 62 => ⟨S100000, .i32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000x512, .f32⟩
  | 72 => ⟨S1x100000, .i32⟩
  | 73 => ⟨S100000, .i32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x512, .f32⟩
  | 83 => ⟨S100000x1024, .f32⟩
  | 84 => ⟨S100000x256, .f32⟩
  | 85 => ⟨S1x256, .f32⟩
  | 86 => ⟨S100000x256, .f32⟩
  | 87 => ⟨S100000x256, .f32⟩
  | 88 => ⟨S_, .f32⟩
  | 89 => ⟨S100000x256, .f32⟩
  | 90 => ⟨S100000x256, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x1, .f32⟩
  | 99 => ⟨S1x1, .f32⟩
  | 100 => ⟨S100000x1, .f32⟩
  | 101 => ⟨S100000x1, .f32⟩
  | 102 => ⟨S100000, .f32⟩
  | 103 => ⟨S100000, .f32⟩
  | 104 => ⟨S100000, .f32⟩
  | 105 => ⟨S_, .f32⟩
  | 106 => ⟨S100000, .f32⟩
  | 107 => ⟨S100000, .f32⟩
  | 108 => ⟨S_, .f32⟩
  | 109 => ⟨S100000, .f32⟩
  | 110 => ⟨S100000, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_call0_cst : Ref sig .tc := ⟨.hbm, 57, rfl⟩
abbrev main_call0_v0 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call1_cst : Ref sig .tc := ⟨.hbm, 68, rfl⟩
abbrev main_call1_v0 : Ref sig .tc := ⟨.hbm, 69, rfl⟩
abbrev main_v37 : Ref sig .tc := ⟨.hbm, 70, rfl⟩
abbrev main_cst_2 : Ref sig .tc := ⟨.hbm, 71, rfl⟩
abbrev main_v38 : Ref sig .tc := ⟨.hbm, 72, rfl⟩
abbrev main_cst_3 : Ref sig .tc := ⟨.hbm, 73, rfl⟩
abbrev main_v39 : Ref sig .tc := ⟨.hbm, 74, rfl⟩
abbrev main_v40 : Ref sig .tc := ⟨.hbm, 75, rfl⟩
abbrev main_c_4 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_cst_3 : Ref sig .tc := ⟨.hbm, 93, rfl⟩
abbrev main_call2_v12 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_cst_5 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_c_6 : Ref sig .tc := ⟨.hbm, 119, rfl⟩
abbrev main_v61 : Ref sig .tc := ⟨.hbm, 120, rfl⟩
abbrev main_v62 : Ref sig .tc := ⟨.hbm, 121, rfl⟩
abbrev main_c_7 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_cst_8 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_cst_9 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_call3_cst : Ref sig .tc := ⟨.hbm, 147, rfl⟩
abbrev main_call3_v0 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_call4_cst : Ref sig .tc := ⟨.hbm, 158, rfl⟩
abbrev main_call4_v0 : Ref sig .tc := ⟨.hbm, 159, rfl⟩
abbrev main_v94 : Ref sig .tc := ⟨.hbm, 160, rfl⟩
abbrev main_cst_10 : Ref sig .tc := ⟨.hbm, 161, rfl⟩
abbrev main_v95 : Ref sig .tc := ⟨.hbm, 162, rfl⟩
abbrev main_cst_11 : Ref sig .tc := ⟨.hbm, 163, rfl⟩
abbrev main_v96 : Ref sig .tc := ⟨.hbm, 164, rfl⟩
abbrev main_v97 : Ref sig .tc := ⟨.hbm, 165, rfl⟩
abbrev main_c_12 : Ref sig .tc := ⟨.hbm, 166, rfl⟩
abbrev main_call5_cst : Ref sig .tc := ⟨.hbm, 167, rfl⟩
abbrev main_call5_v0 : Ref sig .tc := ⟨.hbm, 168, rfl⟩
abbrev main_call5_v1 : Ref sig .tc := ⟨.hbm, 169, rfl⟩
abbrev main_call5_cst_0 : Ref sig .tc := ⟨.hbm, 170, rfl⟩
abbrev main_call5_v2 : Ref sig .tc := ⟨.hbm, 171, rfl⟩
abbrev main_call5_v3 : Ref sig .tc := ⟨.hbm, 172, rfl⟩
abbrev main_call5_v4 : Ref sig .tc := ⟨.hbm, 173, rfl⟩
abbrev main_call5_v5 : Ref sig .tc := ⟨.hbm, 174, rfl⟩
abbrev main_call5_v6 : Ref sig .tc := ⟨.hbm, 175, rfl⟩
abbrev main_call5_v7 : Ref sig .tc := ⟨.hbm, 176, rfl⟩
abbrev main_call5_cst_1 : Ref sig .tc := ⟨.hbm, 177, rfl⟩
abbrev main_call5_v8 : Ref sig .tc := ⟨.hbm, 178, rfl⟩
abbrev main_call5_cst_2 : Ref sig .tc := ⟨.hbm, 179, rfl⟩
abbrev main_call5_v9 : Ref sig .tc := ⟨.hbm, 180, rfl⟩
abbrev main_call5_v10 : Ref sig .tc := ⟨.hbm, 181, rfl⟩
abbrev main_call5_v11 : Ref sig .tc := ⟨.hbm, 182, rfl⟩
abbrev main_call5_cst_3 : Ref sig .tc := ⟨.hbm, 183, rfl⟩
abbrev main_call5_v12 : Ref sig .tc := ⟨.hbm, 184, rfl⟩
abbrev main_call5_cst_4 : Ref sig .tc := ⟨.hbm, 185, rfl⟩
abbrev main_call5_call0_v0 : Ref sig .tc := ⟨.hbm, 186, rfl⟩
abbrev main_call5_call0_v1 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_cst_13 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_c_14 : Ref sig .tc := ⟨.hbm, 209, rfl⟩
abbrev main_v118 : Ref sig .tc := ⟨.hbm, 210, rfl⟩
abbrev main_v119 : Ref sig .tc := ⟨.hbm, 211, rfl⟩
abbrev main_c_15 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_cst_16 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_cst_17 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_call6_cst : Ref sig .tc := ⟨.hbm, 237, rfl⟩
abbrev main_call6_v0 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_call7_cst : Ref sig .tc := ⟨.hbm, 248, rfl⟩
abbrev main_call7_v0 : Ref sig .tc := ⟨.hbm, 249, rfl⟩
abbrev main_v151 : Ref sig .tc := ⟨.hbm, 250, rfl⟩
abbrev main_cst_18 : Ref sig .tc := ⟨.hbm, 251, rfl⟩
abbrev main_v152 : Ref sig .tc := ⟨.hbm, 252, rfl⟩
abbrev main_cst_19 : Ref sig .tc := ⟨.hbm, 253, rfl⟩
abbrev main_v153 : Ref sig .tc := ⟨.hbm, 254, rfl⟩
abbrev main_v154 : Ref sig .tc := ⟨.hbm, 255, rfl⟩
abbrev main_c_20 : Ref sig .tc := ⟨.hbm, 256, rfl⟩
abbrev main_call8_cst : Ref sig .tc := ⟨.hbm, 257, rfl⟩
abbrev main_call8_v0 : Ref sig .tc := ⟨.hbm, 258, rfl⟩
abbrev main_call8_v1 : Ref sig .tc := ⟨.hbm, 259, rfl⟩
abbrev main_call8_cst_0 : Ref sig .tc := ⟨.hbm, 260, rfl⟩
abbrev main_call8_v2 : Ref sig .tc := ⟨.hbm, 261, rfl⟩
abbrev main_call8_v3 : Ref sig .tc := ⟨.hbm, 262, rfl⟩
abbrev main_call8_v4 : Ref sig .tc := ⟨.hbm, 263, rfl⟩
abbrev main_call8_v5 : Ref sig .tc := ⟨.hbm, 264, rfl⟩
abbrev main_call8_v6 : Ref sig .tc := ⟨.hbm, 265, rfl⟩
abbrev main_call8_v7 : Ref sig .tc := ⟨.hbm, 266, rfl⟩
abbrev main_call8_cst_1 : Ref sig .tc := ⟨.hbm, 267, rfl⟩
abbrev main_call8_v8 : Ref sig .tc := ⟨.hbm, 268, rfl⟩
abbrev main_call8_cst_2 : Ref sig .tc := ⟨.hbm, 269, rfl⟩
abbrev main_call8_v9 : Ref sig .tc := ⟨.hbm, 270, rfl⟩
abbrev main_call8_v10 : Ref sig .tc := ⟨.hbm, 271, rfl⟩
abbrev main_call8_v11 : Ref sig .tc := ⟨.hbm, 272, rfl⟩
abbrev main_call8_cst_3 : Ref sig .tc := ⟨.hbm, 273, rfl⟩
abbrev main_call8_v12 : Ref sig .tc := ⟨.hbm, 274, rfl⟩
abbrev main_call8_cst_4 : Ref sig .tc := ⟨.hbm, 275, rfl⟩
abbrev main_call8_call0_v0 : Ref sig .tc := ⟨.hbm, 276, rfl⟩
abbrev main_call8_call0_v1 : Ref sig .tc := ⟨.hbm, 277, rfl⟩
abbrev main_v155 : Ref sig .tc := ⟨.hbm, 278, rfl⟩
abbrev main_v156 : Ref sig .tc := ⟨.hbm, 279, rfl⟩
abbrev main_v157 : Ref sig .tc := ⟨.hbm, 280, rfl⟩
abbrev main_v158 : Ref sig .tc := ⟨.hbm, 281, rfl⟩
abbrev main_cst_21 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_v163 : Ref sig .tc := ⟨.hbm, 287, rfl⟩
abbrev main_v164 : Ref sig .tc := ⟨.hbm, 288, rfl⟩
abbrev main_v165 : Ref sig .tc := ⟨.hbm, 289, rfl⟩
abbrev main_v166 : Ref sig .tc := ⟨.hbm, 290, rfl⟩
abbrev main_v167 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_v174 : Ref sig .tc := ⟨.hbm, 298, rfl⟩
abbrev main_c_22 : Ref sig .tc := ⟨.hbm, 299, rfl⟩
abbrev main_v175 : Ref sig .tc := ⟨.hbm, 300, rfl⟩
abbrev main_v176 : Ref sig .tc := ⟨.hbm, 301, rfl⟩
abbrev main_c_23 : Ref sig .tc := ⟨.hbm, 302, rfl⟩
abbrev main_v177 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_cst_24 : Ref sig .tc := ⟨.hbm, 308, rfl⟩
abbrev main_v182 : Ref sig .tc := ⟨.hbm, 309, rfl⟩
abbrev main_v183 : Ref sig .tc := ⟨.hbm, 310, rfl⟩
abbrev main_v184 : Ref sig .tc := ⟨.hbm, 311, rfl⟩
abbrev main_v185 : Ref sig .tc := ⟨.hbm, 312, rfl⟩
abbrev main_v186 : Ref sig .tc := ⟨.hbm, 313, rfl⟩
abbrev main_cst_25 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩
abbrev main_v195 : Ref sig .tc := ⟨.hbm, 323, rfl⟩
abbrev main_v196 : Ref sig .tc := ⟨.hbm, 324, rfl⟩
abbrev main_v197 : Ref sig .tc := ⟨.hbm, 325, rfl⟩
abbrev main_v198 : Ref sig .tc := ⟨.hbm, 326, rfl⟩
abbrev main_call9_cst : Ref sig .tc := ⟨.hbm, 327, rfl⟩
abbrev main_call9_v0 : Ref sig .tc := ⟨.hbm, 328, rfl⟩
abbrev main_v199 : Ref sig .tc := ⟨.hbm, 329, rfl⟩
abbrev main_v200 : Ref sig .tc := ⟨.hbm, 330, rfl⟩
abbrev main_v201 : Ref sig .tc := ⟨.hbm, 331, rfl⟩
abbrev main_v202 : Ref sig .tc := ⟨.hbm, 332, rfl⟩
abbrev main_v203 : Ref sig .tc := ⟨.hbm, 333, rfl⟩
abbrev main_v204 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_call10_cst : Ref sig .tc := ⟨.hbm, 338, rfl⟩
abbrev main_call10_v0 : Ref sig .tc := ⟨.hbm, 339, rfl⟩
abbrev main_v208 : Ref sig .tc := ⟨.hbm, 340, rfl⟩
abbrev main_cst_26 : Ref sig .tc := ⟨.hbm, 341, rfl⟩
abbrev main_v209 : Ref sig .tc := ⟨.hbm, 342, rfl⟩
abbrev main_cst_27 : Ref sig .tc := ⟨.hbm, 343, rfl⟩
abbrev main_v210 : Ref sig .tc := ⟨.hbm, 344, rfl⟩
abbrev main_v211 : Ref sig .tc := ⟨.hbm, 345, rfl⟩
abbrev main_c_28 : Ref sig .tc := ⟨.hbm, 346, rfl⟩
abbrev main_call11_cst : Ref sig .tc := ⟨.hbm, 347, rfl⟩
abbrev main_call11_v0 : Ref sig .tc := ⟨.hbm, 348, rfl⟩
abbrev main_call11_v1 : Ref sig .tc := ⟨.hbm, 349, rfl⟩
abbrev main_call11_cst_0 : Ref sig .tc := ⟨.hbm, 350, rfl⟩
abbrev main_call11_v2 : Ref sig .tc := ⟨.hbm, 351, rfl⟩
abbrev main_call11_v3 : Ref sig .tc := ⟨.hbm, 352, rfl⟩
abbrev main_call11_v4 : Ref sig .tc := ⟨.hbm, 353, rfl⟩
abbrev main_call11_v5 : Ref sig .tc := ⟨.hbm, 354, rfl⟩
abbrev main_call11_v6 : Ref sig .tc := ⟨.hbm, 355, rfl⟩
abbrev main_call11_v7 : Ref sig .tc := ⟨.hbm, 356, rfl⟩
abbrev main_call11_cst_1 : Ref sig .tc := ⟨.hbm, 357, rfl⟩
abbrev main_call11_v8 : Ref sig .tc := ⟨.hbm, 358, rfl⟩
abbrev main_call11_cst_2 : Ref sig .tc := ⟨.hbm, 359, rfl⟩
abbrev main_call11_v9 : Ref sig .tc := ⟨.hbm, 360, rfl⟩
abbrev main_call11_v10 : Ref sig .tc := ⟨.hbm, 361, rfl⟩
abbrev main_call11_v11 : Ref sig .tc := ⟨.hbm, 362, rfl⟩
abbrev main_call11_cst_3 : Ref sig .tc := ⟨.hbm, 363, rfl⟩
abbrev main_call11_v12 : Ref sig .tc := ⟨.hbm, 364, rfl⟩
abbrev main_call11_cst_4 : Ref sig .tc := ⟨.hbm, 365, rfl⟩
abbrev main_call11_call0_v0 : Ref sig .tc := ⟨.hbm, 366, rfl⟩
abbrev main_call11_call0_v1 : Ref sig .tc := ⟨.hbm, 367, rfl⟩
abbrev main_v212 : Ref sig .tc := ⟨.hbm, 368, rfl⟩
abbrev main_v213 : Ref sig .tc := ⟨.hbm, 369, rfl⟩
abbrev main_v214 : Ref sig .tc := ⟨.hbm, 370, rfl⟩
abbrev main_v215 : Ref sig .tc := ⟨.hbm, 371, rfl⟩
abbrev main_cst_29 : Ref sig .tc := ⟨.hbm, 372, rfl⟩
abbrev main_v216 : Ref sig .tc := ⟨.hbm, 373, rfl⟩
abbrev main_v217 : Ref sig .tc := ⟨.hbm, 374, rfl⟩
abbrev main_v218 : Ref sig .tc := ⟨.hbm, 375, rfl⟩
abbrev main_v219 : Ref sig .tc := ⟨.hbm, 376, rfl⟩
abbrev main_v220 : Ref sig .tc := ⟨.hbm, 377, rfl⟩
abbrev main_v221 : Ref sig .tc := ⟨.hbm, 378, rfl⟩
abbrev main_v222 : Ref sig .tc := ⟨.hbm, 379, rfl⟩
abbrev main_v223 : Ref sig .tc := ⟨.hbm, 380, rfl⟩
abbrev main_v224 : Ref sig .tc := ⟨.hbm, 381, rfl⟩
abbrev main_v225 : Ref sig .tc := ⟨.hbm, 382, rfl⟩
abbrev main_v226 : Ref sig .tc := ⟨.hbm, 383, rfl⟩
abbrev main_v227 : Ref sig .tc := ⟨.hbm, 384, rfl⟩
abbrev main_v228 : Ref sig .tc := ⟨.hbm, 385, rfl⟩
abbrev main_v229 : Ref sig .tc := ⟨.hbm, 386, rfl⟩
abbrev main_v230 : Ref sig .tc := ⟨.hbm, 387, rfl⟩
abbrev main_v231 : Ref sig .tc := ⟨.hbm, 388, rfl⟩
abbrev main_v232 : Ref sig .tc := ⟨.hbm, 389, rfl⟩
abbrev main_cst_30 : Ref sig .tc := ⟨.hbm, 390, rfl⟩
abbrev main_v233 : Ref sig .tc := ⟨.hbm, 391, rfl⟩
abbrev main_v234 : Ref sig .tc := ⟨.hbm, 392, rfl⟩
abbrev main_v235 : Ref sig .tc := ⟨.hbm, 393, rfl⟩
abbrev main_cst_31 : Ref sig .tc := ⟨.hbm, 394, rfl⟩
abbrev main_v236 : Ref sig .tc := ⟨.hbm, 395, rfl⟩
abbrev main_cst_32 : Ref sig .tc := ⟨.hbm, 396, rfl⟩
abbrev main_v237 : Ref sig .tc := ⟨.hbm, 397, rfl⟩
abbrev main_v238 : Ref sig .tc := ⟨.hbm, 398, rfl⟩
abbrev main_v239 : Ref sig .tc := ⟨.hbm, 399, rfl⟩
abbrev main_cst_33 : Ref sig .tc := ⟨.hbm, 400, rfl⟩
abbrev main_v240 : Ref sig .tc := ⟨.hbm, 401, rfl⟩
abbrev main_v241 : Ref sig .tc := ⟨.hbm, 402, rfl⟩
abbrev main_v242 : Ref sig .tc := ⟨.hbm, 403, rfl⟩
abbrev main_v243 : Ref sig .tc := ⟨.hbm, 404, rfl⟩
abbrev main_v244 : Ref sig .tc := ⟨.hbm, 405, rfl⟩
abbrev main_v245 : Ref sig .tc := ⟨.hbm, 406, rfl⟩
abbrev main_v246 : Ref sig .tc := ⟨.hbm, 407, rfl⟩
abbrev main_v247 : Ref sig .tc := ⟨.hbm, 408, rfl⟩
abbrev main_call12_cst : Ref sig .tc := ⟨.hbm, 409, rfl⟩
abbrev main_call12_v0 : Ref sig .tc := ⟨.hbm, 410, rfl⟩
abbrev main_v248 : Ref sig .tc := ⟨.hbm, 411, rfl⟩
abbrev main_v249 : Ref sig .tc := ⟨.hbm, 412, rfl⟩
abbrev main_v250 : Ref sig .tc := ⟨.hbm, 413, rfl⟩
abbrev main_v251 : Ref sig .tc := ⟨.hbm, 414, rfl⟩
abbrev main_v252 : Ref sig .tc := ⟨.hbm, 415, rfl⟩
abbrev main_call13_cst : Ref sig .tc := ⟨.hbm, 416, rfl⟩
abbrev main_call13_v0 : Ref sig .tc := ⟨.hbm, 417, rfl⟩
abbrev main_v253 : Ref sig .tc := ⟨.hbm, 418, rfl⟩
abbrev main_v254 : Ref sig .tc := ⟨.hbm, 419, rfl⟩
abbrev main_v255 : Ref sig .tc := ⟨.hbm, 420, rfl⟩
abbrev main_v256 : Ref sig .tc := ⟨.hbm, 421, rfl⟩
abbrev main_v257 : Ref sig .tc := ⟨.hbm, 422, rfl⟩
abbrev main_call14_cst : Ref sig .tc := ⟨.hbm, 423, rfl⟩
abbrev main_call14_v0 : Ref sig .tc := ⟨.hbm, 424, rfl⟩
abbrev main_v258 : Ref sig .tc := ⟨.hbm, 425, rfl⟩
abbrev main_v259 : Ref sig .tc := ⟨.hbm, 426, rfl⟩
abbrev main_v260 : Ref sig .tc := ⟨.hbm, 427, rfl⟩
abbrev main_v261 : Ref sig .tc := ⟨.hbm, 428, rfl⟩
abbrev main_v262 : Ref sig .tc := ⟨.hbm, 429, rfl⟩
abbrev main_call15_cst : Ref sig .tc := ⟨.hbm, 430, rfl⟩
abbrev main_call15_v0 : Ref sig .tc := ⟨.hbm, 431, rfl⟩
abbrev main_call15_cst_0 : Ref sig .tc := ⟨.hbm, 432, rfl⟩
abbrev main_call15_v1 : Ref sig .tc := ⟨.hbm, 433, rfl⟩
abbrev main_call15_v2 : Ref sig .tc := ⟨.hbm, 434, rfl⟩
abbrev main_call15_v3 : Ref sig .tc := ⟨.hbm, 435, rfl⟩
abbrev main_call15_v4 : Ref sig .tc := ⟨.hbm, 436, rfl⟩
abbrev main_call15_v5 : Ref sig .tc := ⟨.hbm, 437, rfl⟩
abbrev main_call15_v6 : Ref sig .tc := ⟨.hbm, 438, rfl⟩
abbrev main_call15_cst_1 : Ref sig .tc := ⟨.hbm, 439, rfl⟩
abbrev main_call15_v7 : Ref sig .tc := ⟨.hbm, 440, rfl⟩
abbrev main_call15_v8 : Ref sig .tc := ⟨.hbm, 441, rfl⟩
abbrev main_call15_v9 : Ref sig .tc := ⟨.hbm, 442, rfl⟩
abbrev main_call15_v10 : Ref sig .tc := ⟨.hbm, 443, rfl⟩
abbrev main_v263 : Ref sig .tc := ⟨.hbm, 444, rfl⟩
abbrev main_v264 : Ref sig .tc := ⟨.hbm, 445, rfl⟩
abbrev main_v265 : Ref sig .tc := ⟨.hbm, 446, rfl⟩
abbrev main_c_34 : Ref sig .tc := ⟨.hbm, 447, rfl⟩
abbrev main_v266 : Ref sig .tc := ⟨.hbm, 448, rfl⟩
abbrev main_v267 : Ref sig .tc := ⟨.hbm, 449, rfl⟩
abbrev main_c_35 : Ref sig .tc := ⟨.hbm, 450, rfl⟩
abbrev main_v268 : Ref sig .tc := ⟨.hbm, 451, rfl⟩
abbrev main_v269 : Ref sig .tc := ⟨.hbm, 452, rfl⟩
abbrev main_v270 : Ref sig .tc := ⟨.hbm, 453, rfl⟩
abbrev main_v271 : Ref sig .tc := ⟨.hbm, 454, rfl⟩
abbrev main_v272 : Ref sig .tc := ⟨.hbm, 455, rfl⟩
abbrev main_v273 : Ref sig .tc := ⟨.hbm, 456, rfl⟩
abbrev main_v274 : Ref sig .tc := ⟨.hbm, 457, rfl⟩
abbrev main_c_36 : Ref sig .tc := ⟨.hbm, 458, rfl⟩
abbrev main_v275 : Ref sig .tc := ⟨.hbm, 459, rfl⟩
abbrev main_v276 : Ref sig .tc := ⟨.hbm, 460, rfl⟩
abbrev main_c_37 : Ref sig .tc := ⟨.hbm, 461, rfl⟩
abbrev main_v277 : Ref sig .tc := ⟨.hbm, 462, rfl⟩
abbrev main_v278 : Ref sig .tc := ⟨.hbm, 463, rfl⟩
abbrev main_v279 : Ref sig .tc := ⟨.hbm, 464, rfl⟩
abbrev main_v280 : Ref sig .tc := ⟨.hbm, 465, rfl⟩
abbrev main_v281 : Ref sig .tc := ⟨.hbm, 466, rfl⟩
abbrev main_v282 : Ref sig .tc := ⟨.hbm, 467, rfl⟩
abbrev main_v283 : Ref sig .tc := ⟨.hbm, 468, rfl⟩
abbrev main_v284 : Ref sig .tc := ⟨.hbm, 469, rfl⟩
abbrev main_v285 : Ref sig .tc := ⟨.hbm, 470, rfl⟩
abbrev main_v286 : Ref sig .tc := ⟨.hbm, 471, rfl⟩
abbrev main_call16_cst : Ref sig .tc := ⟨.hbm, 472, rfl⟩
abbrev main_call16_v0 : Ref sig .tc := ⟨.hbm, 473, rfl⟩
abbrev main_v287 : Ref sig .tc := ⟨.hbm, 474, rfl⟩
abbrev main_v288 : Ref sig .tc := ⟨.hbm, 475, rfl⟩
abbrev main_v289 : Ref sig .tc := ⟨.hbm, 476, rfl⟩
abbrev main_v290 : Ref sig .tc := ⟨.hbm, 477, rfl⟩
abbrev main_v291 : Ref sig .tc := ⟨.hbm, 478, rfl⟩
abbrev main_call17_cst : Ref sig .tc := ⟨.hbm, 479, rfl⟩
abbrev main_call17_v0 : Ref sig .tc := ⟨.hbm, 480, rfl⟩
abbrev main_v292 : Ref sig .tc := ⟨.hbm, 481, rfl⟩
abbrev main_v293 : Ref sig .tc := ⟨.hbm, 482, rfl⟩
abbrev main_v294 : Ref sig .tc := ⟨.hbm, 483, rfl⟩
abbrev main_v295 : Ref sig .tc := ⟨.hbm, 484, rfl⟩
abbrev main_v296 : Ref sig .tc := ⟨.hbm, 485, rfl⟩
abbrev main_v297 : Ref sig .tc := ⟨.hbm, 486, rfl⟩
abbrev main_v298 : Ref sig .tc := ⟨.hbm, 487, rfl⟩
abbrev main_v299 : Ref sig .tc := ⟨.hbm, 488, rfl⟩
abbrev main_cst_38 : Ref sig .tc := ⟨.hbm, 489, rfl⟩
abbrev main_v300 : Ref sig .tc := ⟨.hbm, 490, rfl⟩
abbrev main_v301 : Ref sig .tc := ⟨.hbm, 491, rfl⟩
abbrev main_cst_39 : Ref sig .tc := ⟨.hbm, 492, rfl⟩
abbrev main_v302 : Ref sig .tc := ⟨.hbm, 493, rfl⟩
abbrev main_v303 : Ref sig .tc := ⟨.hbm, 494, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  concatenates_S100000x128_S100000x128_S100000x128_S100000x128_S100000x512_d1 : Shape.Concatenates [S100000x128, S100000x128, S100000x128, S100000x128] S100000x512 1
  bcast_S_S64x512 : S_.BroadcastsInDim S64x512 (![] : Fin 0 → Fin S64x512.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  reducesTo_S64x16_S64_d1 : S64x16.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  slices_S2x100000_S1x100000_1_0 : S2x100000.Slices ![1, 0] S1x100000
  concatenates_S100000x512_S100000x512_S100000x1024_d1 : Shape.Concatenates [S100000x512, S100000x512] S100000x1024 1
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x512_S100000x1_S100000x512_1_0_0_1_wf : ScatterDims.WF S64x512 S100000x1 S100000x512 [1] [0] [0] 1
  scatter_S64x1_S100000x1_S100000x1_1_0_0_1_wf : ScatterDims.WF S64x1 S100000x1 S100000x1 [1] [0] [0] 1
  dot_S64x512_S512x256_S64x256_1_0_0_1_n_n_wf : DotDims.WF S64x512 S512x256 S64x256 [1] [0] [0] [1] [] []
  dot_S64x256_S256x128_S64x128_1_0_0_1_n_n_wf : DotDims.WF S64x256 S256x128 S64x128 [1] [0] [0] [1] [] []
  dot_S64x128_S128x128_S64x128_1_0_0_1_n_n_wf : DotDims.WF S64x128 S128x128 S64x128 [1] [0] [0] [1] [] []
  dot_S64x128_S128x16_S64x16_1_0_0_1_n_n_wf : DotDims.WF S64x128 S128x16 S64x16 [1] [0] [0] [1] [] []
  gather_S100000x512_S100000x1_S100000x512_1_0_n_n_0_1_1512_wf : GatherDims.WF S100000x512 S100000x1 S100000x512 [1] [0] [] [0] [] 1 ![1, 512]
  dot_S100000x1024_S1024x256_S100000x256_1_0_0_1_n_n_wf : DotDims.WF S100000x1024 S1024x256 S100000x256 [1] [0] [0] [1] [] []
  dot_S100000x256_S256x128_S100000x128_1_0_0_1_n_n_wf : DotDims.WF S100000x256 S256x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x512_S100000x1_S100000x512_1_0_0_1 : ScatterDims S64x512 S100000x1 S100000x512 where
  updateWindowDims := [1]
  insertedWindowDims := [0]
  scatterDimsToOperandDims := [0]
  indexVectorDim := 1
  wf := scatter_S64x512_S100000x1_S100000x512_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf
def gather_S100000x512_S100000x1_S100000x512_1_0_n_n_0_1_1512 : GatherDims S100000x512 S100000x1 S100000x512 where
  offsetDims := [1]
  collapsedSliceDims := [0]
  operandBatchingDims := []
  startIndicesBatchingDims := []
  startIndexMap := [0]
  indexVectorDim := 1
  sliceSizes := ![1, 512]
  wf := gather_S100000x512_S100000x1_S100000x512_1_0_n_n_0_1_1512_wf
def dot_S100000x1024_S1024x256_S100000x256_1_0_0_1_n_n : DotDims S100000x1024 S1024x256 S100000x256 where
  lhsContracting := [1]
  rhsContracting := [0]
  lhsNonContracting := [0]
  rhsNonContracting := [1]
  lhsBatch := []
  rhsBatch := []
  wf := dot_S100000x1024_S1024x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.K.Reg0.Runs.lean ====
/- Region 0 (the two-layer perceptron with running column sums): what its two control cases share — the
    windows' blocks as the region finds them, the branch condition in closed form, the staging and scratch
    memrefs, and the region's entry resources with the two accumulators split out. -/
import proofs.«118347_j18940805776024_1_alg».proof.Proof.Gen.Kernel.Launch
import proofs.«118347_j18940805776024_1_alg».proof.Proof.Gen.Kernel.Skeleton
import proofs.«118347_j18940805776024_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    input's block index has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    input's block index has not moved. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    input's block index has not moved. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched
    input's block index has not moved. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: an unfetched
    input's block index has not moved. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region0

/-- The body's one branch condition (is this the first grid point?), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- No window is idle at any point. -/
theorem liveAt0 : ∀ (w : Fin cfg0.W) (t : Fin cfg0.N), cfg0.idle w (grid0.coords t) = false := fun _ _ => rfl

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two accumulators: whole scoped buffers of the kernel's own, passed beside the windows. -/
abbrev scM0_0 : Memref sig .tc .vmem S1x128 .f32 := Memref.whole cc0_scratch0
abbrev scM0_1 : Memref sig .tc .vmem S1x128 .f32 := Memref.whole cc0_scratch1
/-- One staging buffer of each output window and the accumulators as views: contents are stated through them. -/
abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev VS0_0 : View sig .tc .vmem S1x128 .f32 := scM0_0.view
abbrev VS0_1 : View sig .tc .vmem S1x128 .f32 := scM0_1.view

/-- The scoped buffers no window of this region stages, other than its two accumulators. -/
abbrev restBut0 (c : Dev nD) : sProp 𝕄 :=
  Pipeline.scopedRestBut (Ix := Unit) (Name := ℕ) (U := Pipeline.UD sig nD τ) (Lvl := ℕ) (Val := Elt F) spec0 c [cc0_scratch0, cc0_scratch1]

/-- The region's entry resources with the accumulators as memrefs owned at some contents. -/
theorem scopedRest0_owns (c : Dev nD) :
    (Pipeline.scopedRest (Ix := Unit) (Name := ℕ) (U := Pipeline.UD sig nD τ) (Lvl := ℕ) (Val := Elt F) spec0 c : sProp 𝕄)
      = iprop(iprop((∃ d, owns (c : Thread nD τ) scM0_0 fullShare d) ∗ (∃ d, owns (c : Thread nD τ) scM0_1 fullShare d)) ∗ restBut0 c) := by
  rw [scopedRest0_split]; simp only [scM0_0, scM0_1, owns_whole]; try rfl

end Cert.Kernel

end
-- ==== Proof.K.Reg0.RunA.lean ====
/- Region 0, the body's symbolic run at the first grid point. -/
import proofs.«118347_j18940805776024_1_alg».proof.Proof.K.Reg0.Runs

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AT THE FIRST POINT (the accumulators are zeroed first): on whole memrefs — the five inputs' at
    their contents, the three outputs' and the two accumulators' at anything — the body runs to the continuation holding
    the inputs' as they were and every other buffer with its stores written, as lists of pieces (last first) that the
    symbolic run finds. -/
noncomputable def kernelRun0_A (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__gin_mm_kernel_eq_skeleton]; unfold cc0__gin_mm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel

end
-- ==== Proof.K.Reg0.RunB.lean ====
/- Region 0, the body's symbolic run after the first grid point. -/
import proofs.«118347_j18940805776024_1_alg».proof.Proof.K.Reg0.RunA

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AFTER THE FIRST POINT (the accumulators are carried): on whole memrefs — the five inputs' at
    their contents, the three outputs' at anything, the two accumulators' at what the point before left (`xs0`, `xs1`) —
    the body runs to the continuation holding the inputs' as they were and every other buffer with its stores written,
    as lists of pieces (last first) that the symbolic run finds. -/
noncomputable def kernelRun0_B (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__gin_mm_kernel_eq_skeleton]; unfold cc0__gin_mm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel

end
-- ==== Proof.K.Reg0.lean ====
/- Region 0 (the two-layer perceptron with running column sums) at the buffer contents `V` the region is entered
   with: what each output window's staging buffer and the two accumulators hold after every grid point, the pipeline's
   proof data over an invariant that carries the accumulators from point to point, and the body obligation. -/
import proofs.«118347_j18940805776024_1_alg».proof.Proof.K.Reg0.RunB

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves in the outputs' staging buffers and in the accumulators -/

/-- The stores of case A into output window 5's staging buffer cover it (each is of the whole buffer). -/
theorem cover0_A_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4).1 S5000x128.size (by sl_kernel_rfl) y

/-- What case A leaves in output window 5's staging buffer: its stores overlaid, the last on top. -/
def out0_A_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) : Vec F S5000x128 .f32 :=
  View.canon (kernelRun0_A c i arg1 harg1 arg2 harg2 arg3 harg3 arg4 harg4 arg5 harg5 arg6 harg6 arg7 harg7 arg8 harg8 arg9 harg9 arg10 harg10 hc0 x0 x1 x2 x3 x4).1

/-- The stores of case A into output window 6's staging buffer cover it (each is of the whole buffer). -/
theorem cover0_A_6 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4).2.1 S1x128.size (by sl_kernel_rfl) y

/-- What case A leaves in output window 6's staging buffer: its stores overlaid, the last on top. -/
def out0_A_6 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun0_A c i arg1 harg1 arg2 harg2 arg3 harg3 arg4 harg4 arg5 harg5 arg6 harg6 arg7 harg7 arg8 harg8 arg9 harg9 arg10 harg10 hc0 x0 x1 x2 x3 x4).2.1

/-- The stores of case A into output window 7's staging buffer cover it (each is of the whole buffer). -/
theorem cover0_A_7 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4).2.2.1 S1x128.size (by sl_kernel_rfl) y

/-- What case A leaves in output window 7's staging buffer: its stores overlaid, the last on top. -/
def out0_A_7 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun0_A c i arg1 harg1 arg2 harg2 arg3 harg3 arg4 harg4 arg5 harg5 arg6 harg6 arg7 harg7 arg8 harg8 arg9 harg9 arg10 harg10 hc0 x0 x1 x2 x3 x4).2.2.1

/-- The stores of case A into accumulator 0 cover it (each is of the whole buffer). -/
theorem scover0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4).2.2.2.1 S1x128.size (by sl_kernel_rfl) y

/-- What case A leaves in accumulator 0: its stores overlaid, the last on top. -/
def sout0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun0_A c i arg1 harg1 arg2 harg2 arg3 harg3 arg4 harg4 arg5 harg5 arg6 harg6 arg7 harg7 arg8 harg8 arg9 harg9 arg10 harg10 hc0 x0 x1 x2 x3 x4).2.2.2.1

/-- The stores of case A into accumulator 1 cover it (each is of the whole buffer). -/
theorem scover0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4).2.2.2.2.1 S1x128.size (by sl_kernel_rfl) y

/-- What case A leaves in accumulator 1: its stores overlaid, the last on top. -/
def sout0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun0_A c i arg1 harg1 arg2 harg2 arg3 harg3 arg4 harg4 arg5 harg5 arg6 harg6 arg7 harg7 arg8 harg8 arg9 harg9 arg10 harg10 hc0 x0 x1 x2 x3 x4).2.2.2.2.1

/-- The stores of case B into output window 5's staging buffer cover it (each is of the whole buffer). -/
theorem cover0_B_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 xs0 xs1).1 S5000x128.size (by sl_kernel_rfl) y

/-- What case B leaves in output window 5's staging buffer: its stores overlaid, the last on top. -/
def out0_B_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  View.canon (kernelRun0_B c i arg1 harg1 arg2 harg2 arg3 harg3 arg4 harg4 arg5 harg5 arg6 harg6 arg7 harg7 arg8 harg8 arg9 harg9 arg10 harg10 hc0 x0 x1 x2 x3 x4 xs0 xs1).1

/-- The stores of case B into output window 6's staging buffer cover it (each is of the whole buffer). -/
theorem cover0_B_6 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 xs0 xs1).2.1 S1x128.size (by sl_kernel_rfl) y

/-- What case B leaves in output window 6's staging buffer: its stores overlaid, the last on top. -/
def out0_B_6 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun0_B c i arg1 harg1 arg2 harg2 arg3 harg3 arg4 harg4 arg5 harg5 arg6 harg6 arg7 harg7 arg8 harg8 arg9 harg9 arg10 harg10 hc0 x0 x1 x2 x3 x4 xs0 xs1).2.1

/-- The stores of case B into output window 7's staging buffer cover it (each is of the whole buffer). -/
theorem cover0_B_7 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 xs0 xs1).2.2.1 S1x128.size (by sl_kernel_rfl) y

/-- What case B leaves in output window 7's staging buffer: its stores overlaid, the last on top. -/
def out0_B_7 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun0_B c i arg1 harg1 arg2 harg2 arg3 harg3 arg4 harg4 arg5 harg5 arg6 harg6 arg7 harg7 arg8 harg8 arg9 harg9 arg10 harg10 hc0 x0 x1 x2 x3 x4 xs0 xs1).2.2.1

/-- The stores of case B into accumulator 0 cover it (each is of the whole buffer). -/
theorem scover0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 xs0 xs1).2.2.2.1 S1x128.size (by sl_kernel_rfl) y

/-- What case B leaves in accumulator 0: its stores overlaid, the last on top. -/
def sout0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun0_B c i arg1 harg1 arg2 harg2 arg3 harg3 arg4 harg4 arg5 harg5 arg6 harg6 arg7 harg7 arg8 harg8 arg9 harg9 arg10 harg10 hc0 x0 x1 x2 x3 x4 xs0 xs1).2.2.2.1

/-- The stores of case B into accumulator 1 cover it (each is of the whole buffer). -/
theorem scover0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 xs0 xs1).2.2.2.2.1 S1x128.size (by sl_kernel_rfl) y

/-- What case B leaves in accumulator 1: its stores overlaid, the last on top. -/
def sout0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun0_B c i arg1 harg1 arg2 harg2 arg3 harg3 arg4 harg4 arg5 harg5 arg6 harg6 arg7 harg7 arg8 harg8 arg9 harg9 arg10 harg10 hc0 x0 x1 x2 x3 x4 xs0 xs1).2.2.2.2.1

section Region0
variable (V : (c : Dev nD) → (b : Ref sig .tc) → Buf (Elt F) ((c : Thread nD τ).loc b))

/-! ## What the outputs and the accumulators hold after each point -/

/-- THE ACCUMULATION. After the body at position `n`: output windows 5, 6, 7's staging buffers, then the two
    accumulators. The first point runs the zeroing case from the point's input blocks; every later point runs the
    carrying case from its input blocks and the accumulators as the point before left them. -/
def outsAt0 (c : Dev nD) : (n : ℕ) → n < cfg0.N → Vec F S5000x128 .f32 × Vec F S1x128 .f32 × Vec F S1x128 .f32 × Vec F S1x128 .f32 × Vec F S1x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
      out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn => (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

/-- `outsAt0` at the first point. -/
theorem outsAt0_A (c : Dev nD) (t : Fin cfg0.N) (hz : t.val = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr hz) (iblk0 V c 0 t) (iblk0 V c 1 t) (iblk0 V c 2 t) (iblk0 V c 3 t) (iblk0 V c 4 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr hz) (iblk0 V c 0 t) (iblk0 V c 1 t) (iblk0 V c 2 t) (iblk0 V c 3 t) (iblk0 V c 4 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr hz) (iblk0 V c 0 t) (iblk0 V c 1 t) (iblk0 V c 2 t) (iblk0 V c 3 t) (iblk0 V c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr hz) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr hz) (iblk0 V c 0 t) (iblk0 V c 1 t) (iblk0 V c 2 t) (iblk0 V c 3 t) (iblk0 V c 4 t)) := by
  obtain ⟨n, hn⟩ := t
  cases n with
  | zero => rfl
  | succ n => exact absurd hz (Nat.succ_ne_zero n)

/-- `outsAt0` at a later point, over what the point before left. -/
theorem outsAt0_B (c : Dev nD) (t : Fin cfg0.N) (hz : t.val ≠ 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => hz ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => hz ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => hz ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => hz ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => hz ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl hz
  | succ n => rfl

/-! ## The invariant: the accumulators carried between points -/

/-- The region's invariant before position `n`: before the first point what the region is entered with (the generator
    register at some state and every scoped buffer no window stages at anything); afterwards the two accumulators at what
    the point before left in them, the other such buffers unopened, and the register. -/
def PhiS0 (c : Dev nD) : (n : ℕ) → n ≤ cfg0.N → sProp 𝕄
  | 0, _ => iprop((∃ r, prngReg c r) ∗ Pipeline.scopedRest spec0 c)
  | n + 1, hn => iprop(iprop(owns (c : Thread nD τ) scM0_0 fullShare ((outsAt0 V c n hn).2.2.2.1) ∗ owns (c : Thread nD τ) scM0_1 fullShare ((outsAt0 V c n hn).2.2.2.2)) ∗ restBut0 c ∗ (∃ r, prngReg c r))

theorem PhiS0_zero (c : Dev nD) (n : ℕ) (h : n ≤ cfg0.N) (hz : n = 0) :
    PhiS0 V c n h = iprop((∃ r, prngReg c r) ∗ Pipeline.scopedRest spec0 c) := by
  subst hz; rfl

theorem PhiS0_succ (c : Dev nD) (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2)) ∗ restBut0 c ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2)) ∗ restBut0 c ∗ (∃ r, prngReg c r)) := by
  cases n with
  | zero => exact absurd rfl hz
  | succ n => rfl

/-! ## The pipeline's proof data -/

/-- The proof data of pipeline 0 on core `c`: the arrays as the region finds them; after the body at point `t` each
    input's buffer at its block and each output's at `outsAt0`'s component; the invariant `PhiS0`; nothing owed; full
    shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4000000 in
/-- The body at any point: the inputs' memrefs hold their blocks; the point is the first or a later one, so the matching
    run applies; the invariant hands the body the accumulators (at anything at the first point, at what the point before
    left afterwards) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7]
  by_cases hz : t.val = 0
  · rw [outsAt0_A V c t hz]
    unfold out0_A_5 out0_A_6 out0_A_7 sout0_A_0 sout0_A_1; dsimp only
    rw [PhiS0_castSucc V c t, PhiS0_zero V c _ _ hz, scopedRest0_owns]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr hz) (iblk0 V c 0 t) (iblk0 V c 1 t) (iblk0 V c 2 t) (iblk0 V c 3 t) (iblk0 V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover0_A_0 c _ _ _ _ _ _ _ _ _ _ _ _ _ _ _ _ _ _ _ _ _ _ _ _ _ _ _)
        · unfold owns; iexists _; isplitr
          swap; · iexact HS1
          ipureintro; exact View.read_writes_eq_canon _ _ _ (scover0_A_1 c _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover0_A_5 c _ _ _ _ _ _ _ _ _ _ _ _ _ _ _ _ _ _ _ _ _ _ _ _ _ _ _)
    isplitl [H6]
    · unfold owns; iexists _; isplitr
      swap; · iexact H6
      ipureintro; exact View.read_writes_eq_canon _ _ _ (cover0_A_6 c _ _ _ _ _ _ _ _ _ _ _ _ _ _ _ _ _ _ _ _ _ _ _ _ _ _ _)
    · unfold owns; iexists _; isplitr
      swap; · iexact H7
      ipureintro; exact View.read_writes_eq_canon _ _ _ (cover0_A_7 c _ _ _ _ _ _ _ _ _ _ _ _ _ _ _ _ _ _ _ _ _ _ _ _ _ _ _)
  · rw [outsAt0_B V c t hz]
    unfold out0_B_5 out0_B_6 out0_B_7 sout0_B_0 sout0_B_1; dsimp only
    rw [PhiS0_castSucc V c t, PhiS0_pos V c _ _ hz]
    iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ (fun h => hz ((hcond0_0 t).mp h)) (iblk0 V c 0 t) (iblk0 V c 1 t) (iblk0 V c 2 t) (iblk0 V c 3 t) (iblk0 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover0_B_0 c _ _ _ _ _ _ _ _ _ _ _ _ _ _ _ _ _ _ _ _ _ _ _ _ _ _ _ _ _)
        · unfold owns; iexists _; isplitr
          swap; · iexact HS1
          ipureintro; exact View.read_writes_eq_canon _ _ _ (scover0_B_1 c _ _ _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover0_B_5 c _ _ _ _ _ _ _ _ _ _ _ _ _ _ _ _ _ _ _ _ _ _ _ _ _ _ _ _ _)
    isplitl [H6]
    · unfold owns; iexists _; isplitr
      swap; · iexact H6
      ipureintro; exact View.read_writes_eq_canon _ _ _ (cover0_B_6 c _ _ _ _ _ _ _ _ _ _ _ _ _ _ _ _ _ _ _ _ _ _ _ _ _ _ _ _ _)
    · unfold owns; iexists _; isplitr
      swap; · iexact H7
      ipureintro; exact View.read_writes_eq_canon _ _ _ (cover0_B_7 c _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem Phi0_in (c : Dev nD) : iprop((∃ r, prngReg c r) ∗ Pipeline.scopedRest spec0 c) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the entry resources back: the accumulators' contents are forgotten. -/
theorem Phi0_out (c : Dev nD) : (dat0 V c).Φ (Fin.last _) ⊢ iprop((∃ r, prngReg c r) ∗ Pipeline.scopedRest spec0 c) := by
  rw [show (dat0 V c).Φ (Fin.last _) = PhiS0 V c (Fin.last cfg0.N).val (Nat.le_of_lt_succ (Fin.last cfg0.N).isLt) from rfl,
    PhiS0_pos V c _ _ (by rw [Fin.val_last]; have : cfg0.N = 20 := N_0; omega), scopedRest0_owns]
  iintro ⟨⟨HS0, HS1⟩, HR, Hg⟩
  isplitl [Hg]; · iexact Hg
  isplitl [HS0 HS1]
  · isplitl [HS0]
    · iexists _; iexact HS0
    · iexists _; iexact HS1
  iexact HR

end Region0

end Cert.Kernel

end
-- ==== Proof.K.Reg1.lean ====
import proofs.«118347_j18940805776024_1_alg».proof.Proof.Gen.Kernel.Launch
import proofs.«118347_j18940805776024_1_alg».proof.Proof.Gen.Kernel.Skeleton
import proofs.«118347_j18940805776024_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 1: `cc1__gin_bn_kernel` on a grid of 10 row blocks

Each point normalises one block of 10000 rows of `z` (window 0) lane by lane with the four row vectors `mu`, `var`,
`gamma`, `beta` (windows 1–4, whose single block is the whole array) and writes the block of `h` (window 5):
`h = (z − mu) · rsqrt(var + ε) · gamma + beta`. The body reads every input through its whole staging buffer and
stores the whole output buffer once, so what it leaves there is a function of the five input blocks alone. -/

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, whether or not the pipeline fetched
    it there: an unfetched input's block index has not moved, so the block kept from the point before is this point's. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every point, whether or not the pipeline fetched
    it there: an unfetched input's block index has not moved, so the block kept from the point before is this point's. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every point, whether or not the pipeline fetched
    it there: an unfetched input's block index has not moved, so the block kept from the point before is this point's. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the window's block at every point, whether or not the pipeline fetched
    it there: an unfetched input's block index has not moved, so the block kept from the point before is this point's. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds the window's block at every point, whether or not the pipeline fetched
    it there: an unfetched input's block index has not moved, so the block kept from the point before is this point's. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 10000×128 buffer as a rectangle, and the whole 1×128 one. -/
abbrev r1_z : Rect S10000x128 := Rect.unit (s := S10000x128) ![0, 0] S10000x128.size inb_S10000x128_S10000x128_0_0
abbrev r1_v : Rect S1x128 := Rect.unit (s := S1x128) ![0, 0] S1x128.size inb_S1x128_S1x128_0_0

/-- The output block after the body, from the five input blocks: the one store's value laid over the buffer. -/
def out1_5 (x0 : Vec F S10000x128 .f32) (x1 x2 x3 x4 : Vec F S1x128 .f32) : Vec F S10000x128 .f32 :=
  View.canon [⟨r1_z, k1_pay1 (View.ld x0 r1_z) (View.ld x1 r1_v) (View.ld x2 r1_v) (View.ld x3 r1_v) (View.ld x4 r1_v)⟩]

/-- The one store is of the whole buffer, so it covers every index. -/
theorem cover1_5 (p0 : Vec F S10000x128 .f32) (y : S10000x128.Idx) :
    ∃ pc ∈ ([⟨r1_z, p0⟩] : List (View.Piece (Elt F) S10000x128 .f32)), y ∈ pc.1.set :=
  View.cover_of_tiled [⟨r1_z, p0⟩] S10000x128.size (by rfl) y

set_option maxHeartbeats 1000000 in
/-- The body on whole staging buffers: the inputs read `x0 … x4`, the output holds anything; it ends with the inputs
    as they were and the output at `out1_5` of the inputs. -/
theorem sound_kernel1 (c : Dev nD) (E : Set ℕ) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__gin_bn_kernel i arg1 harg1 arg2 harg2 arg3 harg3 arg4 harg4 arg5 harg5 arg6 harg6) K := by
  simp only [cc1__gin_bn_kernel_eq_skeleton]; unfold cc1__gin_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as the region finds them; after the body at point `t` each
    input buffer still at its block and the output buffer at `out1_5` of the input blocks; the invariant that leaves
    the scoped rest and the generator register alone; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents (the definition projected, never unfolded further). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's launch, at every point. -/
theorem body_obligation1 (c : Dev nD) : BodyObligation (dat1 (F := F) V c) (defs₀ (F := F)) Variants.none () Set.univ := fun t => by
  rw [bigSep_W1, bigSep_W1]
  exact sound_body1 V c t

end Cert.Kernel

end
-- ==== Proof.K.Reg2.Runs.lean ====
/- Region 2 (the two-layer perceptron with running column sums): what its two control cases share — the
    windows' blocks as the region finds them, the branch condition in closed form, the staging and scratch
    memrefs, and the region's entry resources with the two accumulators split out. -/
import proofs.«118347_j18940805776024_1_alg».proof.Proof.Gen.Kernel.Launch
import proofs.«118347_j18940805776024_1_alg».proof.Proof.Gen.Kernel.Skeleton
import proofs.«118347_j18940805776024_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    input's block index has not moved. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    input's block index has not moved. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    input's block index has not moved. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched
    input's block index has not moved. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an unfetched
    input's block index has not moved. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region2

/-- The body's one branch condition (is this the first grid point?), from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- No window is idle at any point. -/
theorem liveAt2 : ∀ (w : Fin cfg2.W) (t : Fin cfg2.N), cfg2.idle w (grid2.coords t) = false := fun _ _ => rfl

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
/-- The two accumulators: whole scoped buffers of the kernel's own, passed beside the windows. -/
abbrev scM2_0 : Memref sig .tc .vmem S1x128 .f32 := Memref.whole cc2_scratch0
abbrev scM2_1 : Memref sig .tc .vmem S1x128 .f32 := Memref.whole cc2_scratch1
/-- One staging buffer of each output window and the accumulators as views: contents are stated through them. -/
abbrev VO2_5 : View sig .tc .vmem S5000x128 .f32 := (Memref.whole cc2_stg5_0 : Memref sig .tc .vmem S5000x128 .f32).view
abbrev VO2_6 : View sig .tc .vmem S1x128 .f32 := (Memref.whole cc2_stg6_0 : Memref sig .tc .vmem S1x128 .f32).view
abbrev VO2_7 : View sig .tc .vmem S1x128 .f32 := (Memref.whole cc2_stg7_0 : Memref sig .tc .vmem S1x128 .f32).view
abbrev VS2_0 : View sig .tc .vmem S1x128 .f32 := scM2_0.view
abbrev VS2_1 : View sig .tc .vmem S1x128 .f32 := scM2_1.view

/-- The scoped buffers no window of this region stages, other than its two accumulators. -/
abbrev restBut2 (c : Dev nD) : sProp 𝕄 :=
  Pipeline.scopedRestBut (Ix := Unit) (Name := ℕ) (U := Pipeline.UD sig nD τ) (Lvl := ℕ) (Val := Elt F) spec2 c [cc2_scratch0, cc2_scratch1]

/-- The region's entry resources with the accumulators as memrefs owned at some contents. -/
theorem scopedRest2_owns (c : Dev nD) :
    (Pipeline.scopedRest (Ix := Unit) (Name := ℕ) (U := Pipeline.UD sig nD τ) (Lvl := ℕ) (Val := Elt F) spec2 c : sProp 𝕄)
      = iprop(iprop((∃ d, owns (c : Thread nD τ) scM2_0 fullShare d) ∗ (∃ d, owns (c : Thread nD τ) scM2_1 fullShare d)) ∗ restBut2 c) := by
  rw [scopedRest2_split]; simp only [scM2_0, scM2_1, owns_whole]; try rfl

end Cert.Kernel

end
-- ==== Proof.K.Reg2.RunA.lean ====
/- Region 2, the body's symbolic run at the first grid point. -/
import proofs.«118347_j18940805776024_1_alg».proof.Proof.K.Reg2.Runs

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AT THE FIRST POINT (the accumulators are zeroed first): on whole memrefs — the five inputs' at
    their contents, the three outputs' and the two accumulators' at anything — the body runs to the continuation holding
    the inputs' as they were and every other buffer with its stores written, as lists of pieces (last first) that the
    symbolic run finds. -/
noncomputable def kernelRun2_A (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__gin_mm_kernel_eq_skeleton]; unfold cc2__gin_mm_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel

end
-- ==== Proof.K.Reg2.RunB.lean ====
/- Region 2, the body's symbolic run after the first grid point. -/
import proofs.«118347_j18940805776024_1_alg».proof.Proof.K.Reg2.RunA

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AFTER THE FIRST POINT (the accumulators are carried): on whole memrefs — the five inputs' at
    their contents, the three outputs' at anything, the two accumulators' at what the point before left (`xs0`, `xs1`) —
    the body runs to the continuation holding the inputs' as they were and every other buffer with its stores written,
    as lists of pieces (last first) that the symbolic run finds. -/
noncomputable def kernelRun2_B (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__gin_mm_kernel_eq_skeleton]; unfold cc2__gin_mm_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel

end
-- ==== Proof.K.Reg2.lean ====
/- Region 2 (the two-layer perceptron with running column sums) at the buffer contents `V` the region is entered
   with: what each output window's staging buffer and the two accumulators hold after every grid point, the pipeline's
   proof data over an invariant that carries the accumulators from point to point, and the body obligation. -/
import proofs.«118347_j18940805776024_1_alg».proof.Proof.K.Reg2.RunB

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves in the outputs' staging buffers and in the accumulators -/

/-- The stores of case A into output window 5's staging buffer cover it (each is of the whole buffer). -/
theorem cover2_A_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4).1 S5000x128.size (by sl_kernel_rfl) y

/-- What case A leaves in output window 5's staging buffer: its stores overlaid, the last on top. -/
def out2_A_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) : Vec F S5000x128 .f32 :=
  View.canon (kernelRun2_A c i arg1 harg1 arg2 harg2 arg3 harg3 arg4 harg4 arg5 harg5 arg6 harg6 arg7 harg7 arg8 harg8 arg9 harg9 arg10 harg10 hc0 x0 x1 x2 x3 x4).1

/-- The stores of case A into output window 6's staging buffer cover it (each is of the whole buffer). -/
theorem cover2_A_6 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4).2.1 S1x128.size (by sl_kernel_rfl) y

/-- What case A leaves in output window 6's staging buffer: its stores overlaid, the last on top. -/
def out2_A_6 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun2_A c i arg1 harg1 arg2 harg2 arg3 harg3 arg4 harg4 arg5 harg5 arg6 harg6 arg7 harg7 arg8 harg8 arg9 harg9 arg10 harg10 hc0 x0 x1 x2 x3 x4).2.1

/-- The stores of case A into output window 7's staging buffer cover it (each is of the whole buffer). -/
theorem cover2_A_7 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4).2.2.1 S1x128.size (by sl_kernel_rfl) y

/-- What case A leaves in output window 7's staging buffer: its stores overlaid, the last on top. -/
def out2_A_7 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun2_A c i arg1 harg1 arg2 harg2 arg3 harg3 arg4 harg4 arg5 harg5 arg6 harg6 arg7 harg7 arg8 harg8 arg9 harg9 arg10 harg10 hc0 x0 x1 x2 x3 x4).2.2.1

/-- The stores of case A into accumulator 0 cover it (each is of the whole buffer). -/
theorem scover2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4).2.2.2.1 S1x128.size (by sl_kernel_rfl) y

/-- What case A leaves in accumulator 0: its stores overlaid, the last on top. -/
def sout2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun2_A c i arg1 harg1 arg2 harg2 arg3 harg3 arg4 harg4 arg5 harg5 arg6 harg6 arg7 harg7 arg8 harg8 arg9 harg9 arg10 harg10 hc0 x0 x1 x2 x3 x4).2.2.2.1

/-- The stores of case A into accumulator 1 cover it (each is of the whole buffer). -/
theorem scover2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4).2.2.2.2.1 S1x128.size (by sl_kernel_rfl) y

/-- What case A leaves in accumulator 1: its stores overlaid, the last on top. -/
def sout2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun2_A c i arg1 harg1 arg2 harg2 arg3 harg3 arg4 harg4 arg5 harg5 arg6 harg6 arg7 harg7 arg8 harg8 arg9 harg9 arg10 harg10 hc0 x0 x1 x2 x3 x4).2.2.2.2.1

/-- The stores of case B into output window 5's staging buffer cover it (each is of the whole buffer). -/
theorem cover2_B_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 xs0 xs1).1 S5000x128.size (by sl_kernel_rfl) y

/-- What case B leaves in output window 5's staging buffer: its stores overlaid, the last on top. -/
def out2_B_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  View.canon (kernelRun2_B c i arg1 harg1 arg2 harg2 arg3 harg3 arg4 harg4 arg5 harg5 arg6 harg6 arg7 harg7 arg8 harg8 arg9 harg9 arg10 harg10 hc0 x0 x1 x2 x3 x4 xs0 xs1).1

/-- The stores of case B into output window 6's staging buffer cover it (each is of the whole buffer). -/
theorem cover2_B_6 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 xs0 xs1).2.1 S1x128.size (by sl_kernel_rfl) y

/-- What case B leaves in output window 6's staging buffer: its stores overlaid, the last on top. -/
def out2_B_6 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun2_B c i arg1 harg1 arg2 harg2 arg3 harg3 arg4 harg4 arg5 harg5 arg6 harg6 arg7 harg7 arg8 harg8 arg9 harg9 arg10 harg10 hc0 x0 x1 x2 x3 x4 xs0 xs1).2.1

/-- The stores of case B into output window 7's staging buffer cover it (each is of the whole buffer). -/
theorem cover2_B_7 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 xs0 xs1).2.2.1 S1x128.size (by sl_kernel_rfl) y

/-- What case B leaves in output window 7's staging buffer: its stores overlaid, the last on top. -/
def out2_B_7 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun2_B c i arg1 harg1 arg2 harg2 arg3 harg3 arg4 harg4 arg5 harg5 arg6 harg6 arg7 harg7 arg8 harg8 arg9 harg9 arg10 harg10 hc0 x0 x1 x2 x3 x4 xs0 xs1).2.2.1

/-- The stores of case B into accumulator 0 cover it (each is of the whole buffer). -/
theorem scover2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 xs0 xs1).2.2.2.1 S1x128.size (by sl_kernel_rfl) y

/-- What case B leaves in accumulator 0: its stores overlaid, the last on top. -/
def sout2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun2_B c i arg1 harg1 arg2 harg2 arg3 harg3 arg4 harg4 arg5 harg5 arg6 harg6 arg7 harg7 arg8 harg8 arg9 harg9 arg10 harg10 hc0 x0 x1 x2 x3 x4 xs0 xs1).2.2.2.1

/-- The stores of case B into accumulator 1 cover it (each is of the whole buffer). -/
theorem scover2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 xs0 xs1).2.2.2.2.1 S1x128.size (by sl_kernel_rfl) y

/-- What case B leaves in accumulator 1: its stores overlaid, the last on top. -/
def sout2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun2_B c i arg1 harg1 arg2 harg2 arg3 harg3 arg4 harg4 arg5 harg5 arg6 harg6 arg7 harg7 arg8 harg8 arg9 harg9 arg10 harg10 hc0 x0 x1 x2 x3 x4 xs0 xs1).2.2.2.2.1

section Region2
variable (V : (c : Dev nD) → (b : Ref sig .tc) → Buf (Elt F) ((c : Thread nD τ).loc b))

/-! ## What the outputs and the accumulators hold after each point -/

/-- THE ACCUMULATION. After the body at position `n`: output windows 5, 6, 7's staging buffers, then the two
    accumulators. The first point runs the zeroing case from the point's input blocks; every later point runs the
    carrying case from its input blocks and the accumulators as the point before left them. -/
def outsAt2 (c : Dev nD) : (n : ℕ) → n < cfg2.N → Vec F S5000x128 .f32 × Vec F S1x128 .f32 × Vec F S1x128 .f32 × Vec F S1x128 .f32 × Vec F S1x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩),
      out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩),
      out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn => (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)

/-- `outsAt2` at the first point. -/
theorem outsAt2_A (c : Dev nD) (t : Fin cfg2.N) (hz : t.val = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr hz) (iblk2 V c 0 t) (iblk2 V c 1 t) (iblk2 V c 2 t) (iblk2 V c 3 t) (iblk2 V c 4 t),
      out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr hz) (iblk2 V c 0 t) (iblk2 V c 1 t) (iblk2 V c 2 t) (iblk2 V c 3 t) (iblk2 V c 4 t),
      out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr hz) (iblk2 V c 0 t) (iblk2 V c 1 t) (iblk2 V c 2 t) (iblk2 V c 3 t) (iblk2 V c 4 t),
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr hz) (iblk2 V c 0 t) (iblk2 V c 1 t) (iblk2 V c 2 t) (iblk2 V c 3 t) (iblk2 V c 4 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr hz) (iblk2 V c 0 t) (iblk2 V c 1 t) (iblk2 V c 2 t) (iblk2 V c 3 t) (iblk2 V c 4 t)) := by
  obtain ⟨n, hn⟩ := t
  cases n with
  | zero => rfl
  | succ n => exact absurd hz (Nat.succ_ne_zero n)

/-- `outsAt2` at a later point, over what the point before left. -/
theorem outsAt2_B (c : Dev nD) (t : Fin cfg2.N) (hz : t.val ≠ 0) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => hz ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => hz ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => hz ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => hz ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => hz ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl hz
  | succ n => rfl

/-! ## The invariant: the accumulators carried between points -/

/-- The region's invariant before position `n`: before the first point what the region is entered with (the generator
    register at some state and every scoped buffer no window stages at anything); afterwards the two accumulators at what
    the point before left in them, the other such buffers unopened, and the register. -/
def PhiS2 (c : Dev nD) : (n : ℕ) → n ≤ cfg2.N → sProp 𝕄
  | 0, _ => iprop((∃ r, prngReg c r) ∗ Pipeline.scopedRest spec2 c)
  | n + 1, hn => iprop(iprop(owns (c : Thread nD τ) scM2_0 fullShare ((outsAt2 V c n hn).2.2.2.1) ∗ owns (c : Thread nD τ) scM2_1 fullShare ((outsAt2 V c n hn).2.2.2.2)) ∗ restBut2 c ∗ (∃ r, prngReg c r))

theorem PhiS2_zero (c : Dev nD) (n : ℕ) (h : n ≤ cfg2.N) (hz : n = 0) :
    PhiS2 V c n h = iprop((∃ r, prngReg c r) ∗ Pipeline.scopedRest spec2 c) := by
  subst hz; rfl

theorem PhiS2_succ (c : Dev nD) (n : ℕ) (hn : n < cfg2.N) :
    PhiS2 V c (n + 1) hn = iprop(iprop(owns (c : Thread nD τ) scM2_0 fullShare ((outsAt2 V c n hn).2.2.2.1) ∗ owns (c : Thread nD τ) scM2_1 fullShare ((outsAt2 V c n hn).2.2.2.2)) ∗ restBut2 c ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2.2.1) ∗ owns (c : Thread nD τ) scM2_1 fullShare ((outsAt2 V c (n - 1) (by omega)).2.2.2.2)) ∗ restBut2 c ∗ (∃ r, prngReg c r)) := by
  cases n with
  | zero => exact absurd rfl hz
  | succ n => rfl

/-! ## The pipeline's proof data -/

/-- The proof data of pipeline 2 on core `c`: the arrays as the region finds them; after the body at point `t` each
    input's buffer at its block and each output's at `outsAt2`'s component; the invariant `PhiS2`; nothing owed; full
    shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 4000000 in
/-- The body at any point: the inputs' memrefs hold their blocks; the point is the first or a later one, so the matching
    run applies; the invariant hands the body the accumulators (at anything at the first point, at what the point before
    left afterwards) and takes them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7]
  by_cases hz : t.val = 0
  · rw [outsAt2_A V c t hz]
    unfold out2_A_5 out2_A_6 out2_A_7 sout2_A_0 sout2_A_1; dsimp only
    rw [PhiS2_castSucc V c t, PhiS2_zero V c _ _ hz, scopedRest2_owns]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ _ _ _ _ ((hcond2_0 t).mpr hz) (iblk2 V c 0 t) (iblk2 V c 1 t) (iblk2 V c 2 t) (iblk2 V c 3 t) (iblk2 V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover2_A_0 c _ _ _ _ _ _ _ _ _ _ _ _ _ _ _ _ _ _ _ _ _ _ _ _ _ _ _)
        · unfold owns; iexists _; isplitr
          swap; · iexact HS1
          ipureintro; exact View.read_writes_eq_canon _ _ _ (scover2_A_1 c _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover2_A_5 c _ _ _ _ _ _ _ _ _ _ _ _ _ _ _ _ _ _ _ _ _ _ _ _ _ _ _)
    isplitl [H6]
    · unfold owns; iexists _; isplitr
      swap; · iexact H6
      ipureintro; exact View.read_writes_eq_canon _ _ _ (cover2_A_6 c _ _ _ _ _ _ _ _ _ _ _ _ _ _ _ _ _ _ _ _ _ _ _ _ _ _ _)
    · unfold owns; iexists _; isplitr
      swap; · iexact H7
      ipureintro; exact View.read_writes_eq_canon _ _ _ (cover2_A_7 c _ _ _ _ _ _ _ _ _ _ _ _ _ _ _ _ _ _ _ _ _ _ _ _ _ _ _)
  · rw [outsAt2_B V c t hz]
    unfold out2_B_5 out2_B_6 out2_B_7 sout2_B_0 sout2_B_1; dsimp only
    rw [PhiS2_castSucc V c t, PhiS2_pos V c _ _ hz]
    iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_B c (grid2.coords t) _ _ _ _ _ _ _ _ _ _ _ _ _ _ _ _ _ _ _ _ (fun h => hz ((hcond2_0 t).mp h)) (iblk2 V c 0 t) (iblk2 V c 1 t) (iblk2 V c 2 t) (iblk2 V c 3 t) (iblk2 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover2_B_0 c _ _ _ _ _ _ _ _ _ _ _ _ _ _ _ _ _ _ _ _ _ _ _ _ _ _ _ _ _)
        · unfold owns; iexists _; isplitr
          swap; · iexact HS1
          ipureintro; exact View.read_writes_eq_canon _ _ _ (scover2_B_1 c _ _ _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover2_B_5 c _ _ _ _ _ _ _ _ _ _ _ _ _ _ _ _ _ _ _ _ _ _ _ _ _ _ _ _ _)
    isplitl [H6]
    · unfold owns; iexists _; isplitr
      swap; · iexact H6
      ipureintro; exact View.read_writes_eq_canon _ _ _ (cover2_B_6 c _ _ _ _ _ _ _ _ _ _ _ _ _ _ _ _ _ _ _ _ _ _ _ _ _ _ _ _ _)
    · unfold owns; iexists _; isplitr
      swap; · iexact H7
      ipureintro; exact View.read_writes_eq_canon _ _ _ (cover2_B_7 c _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem Phi2_in (c : Dev nD) : iprop((∃ r, prngReg c r) ∗ Pipeline.scopedRest spec2 c) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the entry resources back: the accumulators' contents are forgotten. -/
theorem Phi2_out (c : Dev nD) : (dat2 V c).Φ (Fin.last _) ⊢ iprop((∃ r, prngReg c r) ∗ Pipeline.scopedRest spec2 c) := by
  rw [show (dat2 V c).Φ (Fin.last _) = PhiS2 V c (Fin.last cfg2.N).val (Nat.le_of_lt_succ (Fin.last cfg2.N).isLt) from rfl,
    PhiS2_pos V c _ _ (by rw [Fin.val_last]; have : cfg2.N = 20 := N_2; omega), scopedRest2_owns]
  iintro ⟨⟨HS0, HS1⟩, HR, Hg⟩
  isplitl [Hg]; · iexact Hg
  isplitl [HS0 HS1]
  · isplitl [HS0]
    · iexists _; iexact HS0
    · iexists _; iexact HS1
  iexact HR

end Region2

end Cert.Kernel

end
-- ==== Proof.K.Reg3.lean ====
import proofs.«118347_j18940805776024_1_alg».proof.Proof.Gen.Kernel.Launch
import proofs.«118347_j18940805776024_1_alg».proof.Proof.Gen.Kernel.Skeleton
import proofs.«118347_j18940805776024_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 3: `cc3__gin_bn_kernel` on a grid of 10 row blocks

Each point normalises one block of 10000 rows of `z` (window 0) lane by lane with the four row vectors `mu`, `var`,
`gamma`, `beta` (windows 1–4, whose single block is the whole array) and writes the block of `h` (window 5):
`h = (z − mu) · rsqrt(var + ε) · gamma + beta`. The body reads every input through its whole staging buffer and
stores the whole output buffer once, so what it leaves there is a function of the five input blocks alone. -/

/-- Window `w`'s block at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every point, whether or not the pipeline fetched
    it there: an unfetched input's block index has not moved, so the block kept from the point before is this point's. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds the window's block at every point, whether or not the pipeline fetched
    it there: an unfetched input's block index has not moved, so the block kept from the point before is this point's. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds the window's block at every point, whether or not the pipeline fetched
    it there: an unfetched input's block index has not moved, so the block kept from the point before is this point's. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds the window's block at every point, whether or not the pipeline fetched
    it there: an unfetched input's block index has not moved, so the block kept from the point before is this point's. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds the window's block at every point, whether or not the pipeline fetched
    it there: an unfetched input's block index has not moved, so the block kept from the point before is this point's. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole 10000×128 buffer as a rectangle, and the whole 1×128 one. -/
abbrev r3_z : Rect S10000x128 := Rect.unit (s := S10000x128) ![0, 0] S10000x128.size inb_S10000x128_S10000x128_0_0
abbrev r3_v : Rect S1x128 := Rect.unit (s := S1x128) ![0, 0] S1x128.size inb_S1x128_S1x128_0_0

/-- The output block after the body, from the five input blocks: the one store's value laid over the buffer. -/
def out3_5 (x0 : Vec F S10000x128 .f32) (x1 x2 x3 x4 : Vec F S1x128 .f32) : Vec F S10000x128 .f32 :=
  View.canon [⟨r3_z, k3_pay1 (View.ld x0 r3_z) (View.ld x1 r3_v) (View.ld x2 r3_v) (View.ld x3 r3_v) (View.ld x4 r3_v)⟩]

/-- The one store is of the whole buffer, so it covers every index. -/
theorem cover3_5 (p0 : Vec F S10000x128 .f32) (y : S10000x128.Idx) :
    ∃ pc ∈ ([⟨r3_z, p0⟩] : List (View.Piece (Elt F) S10000x128 .f32)), y ∈ pc.1.set :=
  View.cover_of_tiled [⟨r3_z, p0⟩] S10000x128.size (by rfl) y

set_option maxHeartbeats 1000000 in
/-- The body on whole staging buffers: the inputs read `x0 … x4`, the output holds anything; it ends with the inputs
    as they were and the output at `out3_5` of the inputs. -/
theorem sound_kernel3 (c : Dev nD) (E : Set ℕ) (i : grid3.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__gin_bn_kernel i arg1 harg1 arg2 harg2 arg3 harg3 arg4 harg4 arg5 harg5 arg6 harg6) K := by
  simp only [cc3__gin_bn_kernel_eq_skeleton]; unfold cc3__gin_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The region's proof data on core `c`: the arrays as the region finds them; after the body at point `t` each
    input buffer still at its block and the output buffer at `out3_5` of the input blocks; the invariant that leaves
    the scoped rest and the generator register alone; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents (the definition projected, never unfolded further). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

/-- Each input's staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's launch, at every point. -/
theorem body_obligation3 (c : Dev nD) : BodyObligation (dat3 (F := F) V c) (defs₀ (F := F)) Variants.none () Set.univ := fun t => by
  rw [bigSep_W3, bigSep_W3]
  exact sound_body3 V c t

end Cert.Kernel

end
-- ==== Proof.K.Reg4.Runs.lean ====
/- Region 4 (the two-layer perceptron with running column sums): what its two control cases share — the
    windows' blocks as the region finds them, the branch condition in closed form, the staging and scratch
    memrefs, and the region's entry resources with the two accumulators split out. -/
import proofs.«118347_j18940805776024_1_alg».proof.Proof.Gen.Kernel.Launch
import proofs.«118347_j18940805776024_1_alg».proof.Proof.Gen.Kernel.Skeleton
import proofs.«118347_j18940805776024_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region4
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: an unfetched
    input's block index has not moved. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: an unfetched
    input's block index has not moved. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: an unfetched
    input's block index has not moved. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not: an unfetched
    input's block index has not moved. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not: an unfetched
    input's block index has not moved. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

end Region4

/-- The body's one branch condition (is this the first grid point?), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- No window is idle at any point. -/
theorem liveAt4 : ∀ (w : Fin cfg4.W) (t : Fin cfg4.N), cfg4.idle w (grid4.coords t) = false := fun _ _ => rfl

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
/-- The two accumulators: whole scoped buffers of the kernel's own, passed beside the windows. -/
abbrev scM4_0 : Memref sig .tc .vmem S1x128 .f32 := Memref.whole cc4_scratch0
abbrev scM4_1 : Memref sig .tc .vmem S1x128 .f32 := Memref.whole cc4_scratch1
/-- One staging buffer of each output window and the accumulators as views: contents are stated through them. -/
abbrev VO4_5 : View sig .tc .vmem S5000x128 .f32 := (Memref.whole cc4_stg5_0 : Memref sig .tc .vmem S5000x128 .f32).view
abbrev VO4_6 : View sig .tc .vmem S1x128 .f32 := (Memref.whole cc4_stg6_0 : Memref sig .tc .vmem S1x128 .f32).view
abbrev VO4_7 : View sig .tc .vmem S1x128 .f32 := (Memref.whole cc4_stg7_0 : Memref sig .tc .vmem S1x128 .f32).view
abbrev VS4_0 : View sig .tc .vmem S1x128 .f32 := scM4_0.view
abbrev VS4_1 : View sig .tc .vmem S1x128 .f32 := scM4_1.view

/-- The scoped buffers no window of this region stages, other than its two accumulators. -/
abbrev restBut4 (c : Dev nD) : sProp 𝕄 :=
  Pipeline.scopedRestBut (Ix := Unit) (Name := ℕ) (U := Pipeline.UD sig nD τ) (Lvl := ℕ) (Val := Elt F) spec4 c [cc4_scratch0, cc4_scratch1]

/-- The region's entry resources with the accumulators as memrefs owned at some contents. -/
theorem scopedRest4_owns (c : Dev nD) :
    (Pipeline.scopedRest (Ix := Unit) (Name := ℕ) (U := Pipeline.UD sig nD τ) (Lvl := ℕ) (Val := Elt F) spec4 c : sProp 𝕄)
      = iprop(iprop((∃ d, owns (c : Thread nD τ) scM4_0 fullShare d) ∗ (∃ d, owns (c : Thread nD τ) scM4_1 fullShare d)) ∗ restBut4 c) := by
  rw [scopedRest4_split]; simp only [scM4_0, scM4_1, owns_whole]; try rfl

end Cert.Kernel

end
-- ==== Proof.K.Reg4.RunA.lean ====
/- Region 4, the body's symbolic run at the first grid point. -/
import proofs.«118347_j18940805776024_1_alg».proof.Proof.K.Reg4.Runs

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AT THE FIRST POINT (the accumulators are zeroed first): on whole memrefs — the five inputs' at
    their contents, the three outputs' and the two accumulators' at anything — the body runs to the continuation holding
    the inputs' as they were and every other buffer with its stores written, as lists of pieces (last first) that the
    symbolic run finds. -/
noncomputable def kernelRun4_A (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__gin_mm_kernel_eq_skeleton]; unfold cc4__gin_mm_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel

end
-- ==== Proof.K.Reg4.RunB.lean ====
/- Region 4, the body's symbolic run after the first grid point. -/
import proofs.«118347_j18940805776024_1_alg».proof.Proof.K.Reg4.RunA

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AFTER THE FIRST POINT (the accumulators are carried): on whole memrefs — the five inputs' at
    their contents, the three outputs' at anything, the two accumulators' at what the point before left (`xs0`, `xs1`) —
    the body runs to the continuation holding the inputs' as they were and every other buffer with its stores written,
    as lists of pieces (last first) that the symbolic run finds. -/
noncomputable def kernelRun4_B (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__gin_mm_kernel_eq_skeleton]; unfold cc4__gin_mm_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel

end
-- ==== Proof.K.Reg4.lean ====
/- Region 4 (the two-layer perceptron with running column sums) at the buffer contents `V` the region is entered
   with: what each output window's staging buffer and the two accumulators hold after every grid point, the pipeline's
   proof data over an invariant that carries the accumulators from point to point, and the body obligation. -/
import proofs.«118347_j18940805776024_1_alg».proof.Proof.K.Reg4.RunB

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves in the outputs' staging buffers and in the accumulators -/

/-- The stores of case A into output window 5's staging buffer cover it (each is of the whole buffer). -/
theorem cover4_A_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4).1 S5000x128.size (by sl_kernel_rfl) y

/-- What case A leaves in output window 5's staging buffer: its stores overlaid, the last on top. -/
def out4_A_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) : Vec F S5000x128 .f32 :=
  View.canon (kernelRun4_A c i arg1 harg1 arg2 harg2 arg3 harg3 arg4 harg4 arg5 harg5 arg6 harg6 arg7 harg7 arg8 harg8 arg9 harg9 arg10 harg10 hc0 x0 x1 x2 x3 x4).1

/-- The stores of case A into output window 6's staging buffer cover it (each is of the whole buffer). -/
theorem cover4_A_6 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4).2.1 S1x128.size (by sl_kernel_rfl) y

/-- What case A leaves in output window 6's staging buffer: its stores overlaid, the last on top. -/
def out4_A_6 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun4_A c i arg1 harg1 arg2 harg2 arg3 harg3 arg4 harg4 arg5 harg5 arg6 harg6 arg7 harg7 arg8 harg8 arg9 harg9 arg10 harg10 hc0 x0 x1 x2 x3 x4).2.1

/-- The stores of case A into output window 7's staging buffer cover it (each is of the whole buffer). -/
theorem cover4_A_7 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4).2.2.1 S1x128.size (by sl_kernel_rfl) y

/-- What case A leaves in output window 7's staging buffer: its stores overlaid, the last on top. -/
def out4_A_7 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun4_A c i arg1 harg1 arg2 harg2 arg3 harg3 arg4 harg4 arg5 harg5 arg6 harg6 arg7 harg7 arg8 harg8 arg9 harg9 arg10 harg10 hc0 x0 x1 x2 x3 x4).2.2.1

/-- The stores of case A into accumulator 0 cover it (each is of the whole buffer). -/
theorem scover4_A_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4).2.2.2.1 S1x128.size (by sl_kernel_rfl) y

/-- What case A leaves in accumulator 0: its stores overlaid, the last on top. -/
def sout4_A_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun4_A c i arg1 harg1 arg2 harg2 arg3 harg3 arg4 harg4 arg5 harg5 arg6 harg6 arg7 harg7 arg8 harg8 arg9 harg9 arg10 harg10 hc0 x0 x1 x2 x3 x4).2.2.2.1

/-- The stores of case A into accumulator 1 cover it (each is of the whole buffer). -/
theorem scover4_A_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4).2.2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4).2.2.2.2.1 S1x128.size (by sl_kernel_rfl) y

/-- What case A leaves in accumulator 1: its stores overlaid, the last on top. -/
def sout4_A_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun4_A c i arg1 harg1 arg2 harg2 arg3 harg3 arg4 harg4 arg5 harg5 arg6 harg6 arg7 harg7 arg8 harg8 arg9 harg9 arg10 harg10 hc0 x0 x1 x2 x3 x4).2.2.2.2.1

/-- The stores of case B into output window 5's staging buffer cover it (each is of the whole buffer). -/
theorem cover4_B_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 xs0 xs1).1 S5000x128.size (by sl_kernel_rfl) y

/-- What case B leaves in output window 5's staging buffer: its stores overlaid, the last on top. -/
def out4_B_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  View.canon (kernelRun4_B c i arg1 harg1 arg2 harg2 arg3 harg3 arg4 harg4 arg5 harg5 arg6 harg6 arg7 harg7 arg8 harg8 arg9 harg9 arg10 harg10 hc0 x0 x1 x2 x3 x4 xs0 xs1).1

/-- The stores of case B into output window 6's staging buffer cover it (each is of the whole buffer). -/
theorem cover4_B_6 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 xs0 xs1).2.1 S1x128.size (by sl_kernel_rfl) y

/-- What case B leaves in output window 6's staging buffer: its stores overlaid, the last on top. -/
def out4_B_6 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun4_B c i arg1 harg1 arg2 harg2 arg3 harg3 arg4 harg4 arg5 harg5 arg6 harg6 arg7 harg7 arg8 harg8 arg9 harg9 arg10 harg10 hc0 x0 x1 x2 x3 x4 xs0 xs1).2.1

/-- The stores of case B into output window 7's staging buffer cover it (each is of the whole buffer). -/
theorem cover4_B_7 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 xs0 xs1).2.2.1 S1x128.size (by sl_kernel_rfl) y

/-- What case B leaves in output window 7's staging buffer: its stores overlaid, the last on top. -/
def out4_B_7 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun4_B c i arg1 harg1 arg2 harg2 arg3 harg3 arg4 harg4 arg5 harg5 arg6 harg6 arg7 harg7 arg8 harg8 arg9 harg9 arg10 harg10 hc0 x0 x1 x2 x3 x4 xs0 xs1).2.2.1

/-- The stores of case B into accumulator 0 cover it (each is of the whole buffer). -/
theorem scover4_B_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 xs0 xs1).2.2.2.1 S1x128.size (by sl_kernel_rfl) y

/-- What case B leaves in accumulator 0: its stores overlaid, the last on top. -/
def sout4_B_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun4_B c i arg1 harg1 arg2 harg2 arg3 harg3 arg4 harg4 arg5 harg5 arg6 harg6 arg7 harg7 arg8 harg8 arg9 harg9 arg10 harg10 hc0 x0 x1 x2 x3 x4 xs0 xs1).2.2.2.1

/-- The stores of case B into accumulator 1 cover it (each is of the whole buffer). -/
theorem scover4_B_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 xs0 xs1).2.2.2.2.1 S1x128.size (by sl_kernel_rfl) y

/-- What case B leaves in accumulator 1: its stores overlaid, the last on top. -/
def sout4_B_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun4_B c i arg1 harg1 arg2 harg2 arg3 harg3 arg4 harg4 arg5 harg5 arg6 harg6 arg7 harg7 arg8 harg8 arg9 harg9 arg10 harg10 hc0 x0 x1 x2 x3 x4 xs0 xs1).2.2.2.2.1

section Region4
variable (V : (c : Dev nD) → (b : Ref sig .tc) → Buf (Elt F) ((c : Thread nD τ).loc b))

/-! ## What the outputs and the accumulators hold after each point -/

/-- THE ACCUMULATION. After the body at position `n`: output windows 5, 6, 7's staging buffers, then the two
    accumulators. The first point runs the zeroing case from the point's input blocks; every later point runs the
    carrying case from its input blocks and the accumulators as the point before left them. -/
def outsAt4 (c : Dev nD) : (n : ℕ) → n < cfg4.N → Vec F S5000x128 .f32 × Vec F S1x128 .f32 × Vec F S1x128 .f32 × Vec F S1x128 .f32 × Vec F S1x128 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩),
      out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩),
      out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn => (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)

/-- `outsAt4` at the first point. -/
theorem outsAt4_A (c : Dev nD) (t : Fin cfg4.N) (hz : t.val = 0) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr hz) (iblk4 V c 0 t) (iblk4 V c 1 t) (iblk4 V c 2 t) (iblk4 V c 3 t) (iblk4 V c 4 t),
      out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr hz) (iblk4 V c 0 t) (iblk4 V c 1 t) (iblk4 V c 2 t) (iblk4 V c 3 t) (iblk4 V c 4 t),
      out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr hz) (iblk4 V c 0 t) (iblk4 V c 1 t) (iblk4 V c 2 t) (iblk4 V c 3 t) (iblk4 V c 4 t),
      sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr hz) (iblk4 V c 0 t) (iblk4 V c 1 t) (iblk4 V c 2 t) (iblk4 V c 3 t) (iblk4 V c 4 t),
      sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr hz) (iblk4 V c 0 t) (iblk4 V c 1 t) (iblk4 V c 2 t) (iblk4 V c 3 t) (iblk4 V c 4 t)) := by
  obtain ⟨n, hn⟩ := t
  cases n with
  | zero => rfl
  | succ n => exact absurd hz (Nat.succ_ne_zero n)

/-- `outsAt4` at a later point, over what the point before left. -/
theorem outsAt4_B (c : Dev nD) (t : Fin cfg4.N) (hz : t.val ≠ 0) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => hz ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => hz ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => hz ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => hz ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => hz ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl hz
  | succ n => rfl

/-! ## The invariant: the accumulators carried between points -/

/-- The region's invariant before position `n`: before the first point what the region is entered with (the generator
    register at some state and every scoped buffer no window stages at anything); afterwards the two accumulators at what
    the point before left in them, the other such buffers unopened, and the register. -/
def PhiS4 (c : Dev nD) : (n : ℕ) → n ≤ cfg4.N → sProp 𝕄
  | 0, _ => iprop((∃ r, prngReg c r) ∗ Pipeline.scopedRest spec4 c)
  | n + 1, hn => iprop(iprop(owns (c : Thread nD τ) scM4_0 fullShare ((outsAt4 V c n hn).2.2.2.1) ∗ owns (c : Thread nD τ) scM4_1 fullShare ((outsAt4 V c n hn).2.2.2.2)) ∗ restBut4 c ∗ (∃ r, prngReg c r))

theorem PhiS4_zero (c : Dev nD) (n : ℕ) (h : n ≤ cfg4.N) (hz : n = 0) :
    PhiS4 V c n h = iprop((∃ r, prngReg c r) ∗ Pipeline.scopedRest spec4 c) := by
  subst hz; rfl

theorem PhiS4_succ (c : Dev nD) (n : ℕ) (hn : n < cfg4.N) :
    PhiS4 V c (n + 1) hn = iprop(iprop(owns (c : Thread nD τ) scM4_0 fullShare ((outsAt4 V c n hn).2.2.2.1) ∗ owns (c : Thread nD τ) scM4_1 fullShare ((outsAt4 V c n hn).2.2.2.2)) ∗ restBut4 c ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2.2.2.1) ∗ owns (c : Thread nD τ) scM4_1 fullShare ((outsAt4 V c (n - 1) (by omega)).2.2.2.2)) ∗ restBut4 c ∗ (∃ r, prngReg c r)) := by
  cases n with
  | zero => exact absurd rfl hz
  | succ n => rfl

/-! ## The pipeline's proof data -/

/-- The proof data of pipeline 4 on core `c`: the arrays as the region finds them; after the body at point `t` each
    input's buffer at its block and each output's at `outsAt4`'s component; the invariant `PhiS4`; nothing owed; full
    shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t))

set_option maxHeartbeats 4000000 in
/-- The body at any point: the inputs' memrefs hold their blocks; the point is the first or a later one, so the matching
    run applies; the invariant hands the body the accumulators (at anything at the first point, at what the point before
    left afterwards) and takes them back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [after4_0, after4_1, after4_2, after4_3, after4_4, after4_5, after4_6, after4_7]
  by_cases hz : t.val = 0
  · rw [outsAt4_A V c t hz]
    unfold out4_A_5 out4_A_6 out4_A_7 sout4_A_0 sout4_A_1; dsimp only
    rw [PhiS4_castSucc V c t, PhiS4_zero V c _ _ hz, scopedRest4_owns]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ _ _ _ _ ((hcond4_0 t).mpr hz) (iblk4 V c 0 t) (iblk4 V c 1 t) (iblk4 V c 2 t) (iblk4 V c 3 t) (iblk4 V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover4_A_0 c _ _ _ _ _ _ _ _ _ _ _ _ _ _ _ _ _ _ _ _ _ _ _ _ _ _ _)
        · unfold owns; iexists _; isplitr
          swap; · iexact HS1
          ipureintro; exact View.read_writes_eq_canon _ _ _ (scover4_A_1 c _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover4_A_5 c _ _ _ _ _ _ _ _ _ _ _ _ _ _ _ _ _ _ _ _ _ _ _ _ _ _ _)
    isplitl [H6]
    · unfold owns; iexists _; isplitr
      swap; · iexact H6
      ipureintro; exact View.read_writes_eq_canon _ _ _ (cover4_A_6 c _ _ _ _ _ _ _ _ _ _ _ _ _ _ _ _ _ _ _ _ _ _ _ _ _ _ _)
    · unfold owns; iexists _; isplitr
      swap; · iexact H7
      ipureintro; exact View.read_writes_eq_canon _ _ _ (cover4_A_7 c _ _ _ _ _ _ _ _ _ _ _ _ _ _ _ _ _ _ _ _ _ _ _ _ _ _ _)
  · rw [outsAt4_B V c t hz]
    unfold out4_B_5 out4_B_6 out4_B_7 sout4_B_0 sout4_B_1; dsimp only
    rw [PhiS4_castSucc V c t, PhiS4_pos V c _ _ hz]
    iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_B c (grid4.coords t) _ _ _ _ _ _ _ _ _ _ _ _ _ _ _ _ _ _ _ _ (fun h => hz ((hcond4_0 t).mp h)) (iblk4 V c 0 t) (iblk4 V c 1 t) (iblk4 V c 2 t) (iblk4 V c 3 t) (iblk4 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover4_B_0 c _ _ _ _ _ _ _ _ _ _ _ _ _ _ _ _ _ _ _ _ _ _ _ _ _ _ _ _ _)
        · unfold owns; iexists _; isplitr
          swap; · iexact HS1
          ipureintro; exact View.read_writes_eq_canon _ _ _ (scover4_B_1 c _ _ _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover4_B_5 c _ _ _ _ _ _ _ _ _ _ _ _ _ _ _ _ _ _ _ _ _ _ _ _ _ _ _ _ _)
    isplitl [H6]
    · unfold owns; iexists _; isplitr
      swap; · iexact H6
      ipureintro; exact View.read_writes_eq_canon _ _ _ (cover4_B_6 c _ _ _ _ _ _ _ _ _ _ _ _ _ _ _ _ _ _ _ _ _ _ _ _ _ _ _ _ _)
    · unfold owns; iexists _; isplitr
      swap; · iexact H7
      ipureintro; exact View.read_writes_eq_canon _ _ _ (cover4_B_7 c _ _ _ _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem Phi4_in (c : Dev nD) : iprop((∃ r, prngReg c r) ∗ Pipeline.scopedRest spec4 c) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the entry resources back: the accumulators' contents are forgotten. -/
theorem Phi4_out (c : Dev nD) : (dat4 V c).Φ (Fin.last _) ⊢ iprop((∃ r, prngReg c r) ∗ Pipeline.scopedRest spec4 c) := by
  rw [show (dat4 V c).Φ (Fin.last _) = PhiS4 V c (Fin.last cfg4.N).val (Nat.le_of_lt_succ (Fin.last cfg4.N).isLt) from rfl,
    PhiS4_pos V c _ _ (by rw [Fin.val_last]; have : cfg4.N = 20 := N_4; omega), scopedRest4_owns]
  iintro ⟨⟨HS0, HS1⟩, HR, Hg⟩
  isplitl [Hg]; · iexact Hg
  isplitl [HS0 HS1]
  · isplitl [HS0]
    · iexists _; iexact HS0
    · iexists _; iexact HS1
  iexact HR

end Region4

end Cert.Kernel

end
-- ==== Proof.K.Reg5.lean ====
import proofs.«118347_j18940805776024_1_alg».proof.Proof.Gen.Kernel.Launch
import proofs.«118347_j18940805776024_1_alg».proof.Proof.Gen.Kernel.Skeleton
import proofs.«118347_j18940805776024_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 5: `cc5__gin_bn_kernel` on a grid of 10 row blocks

Each point normalises one block of 10000 rows of `z` (window 0) lane by lane with the four row vectors `mu`, `var`,
`gamma`, `beta` (windows 1–4, whose single block is the whole array) and writes the block of `h` (window 5):
`h = (z − mu) · rsqrt(var + ε) · gamma + beta`. The body reads every input through its whole staging buffer and
stores the whole output buffer once, so what it leaves there is a function of the five input blocks alone. -/

/-- Window `w`'s block at point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the window's block at every point, whether or not the pipeline fetched
    it there: an unfetched input's block index has not moved, so the block kept from the point before is this point's. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds the window's block at every point, whether or not the pipeline fetched
    it there: an unfetched input's block index has not moved, so the block kept from the point before is this point's. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds the window's block at every point, whether or not the pipeline fetched
    it there: an unfetched input's block index has not moved, so the block kept from the point before is this point's. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds the window's block at every point, whether or not the pipeline fetched
    it there: an unfetched input's block index has not moved, so the block kept from the point before is this point's. -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds the window's block at every point, whether or not the pipeline fetched
    it there: an unfetched input's block index has not moved, so the block kept from the point before is this point's. -/
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole 10000×128 buffer as a rectangle, and the whole 1×128 one. -/
abbrev r5_z : Rect S10000x128 := Rect.unit (s := S10000x128) ![0, 0] S10000x128.size inb_S10000x128_S10000x128_0_0
abbrev r5_v : Rect S1x128 := Rect.unit (s := S1x128) ![0, 0] S1x128.size inb_S1x128_S1x128_0_0

/-- The output block after the body, from the five input blocks: the one store's value laid over the buffer. -/
def out5_5 (x0 : Vec F S10000x128 .f32) (x1 x2 x3 x4 : Vec F S1x128 .f32) : Vec F S10000x128 .f32 :=
  View.canon [⟨r5_z, k5_pay1 (View.ld x0 r5_z) (View.ld x1 r5_v) (View.ld x2 r5_v) (View.ld x3 r5_v) (View.ld x4 r5_v)⟩]

/-- The one store is of the whole buffer, so it covers every index. -/
theorem cover5_5 (p0 : Vec F S10000x128 .f32) (y : S10000x128.Idx) :
    ∃ pc ∈ ([⟨r5_z, p0⟩] : List (View.Piece (Elt F) S10000x128 .f32)), y ∈ pc.1.set :=
  View.cover_of_tiled [⟨r5_z, p0⟩] S10000x128.size (by rfl) y

set_option maxHeartbeats 1000000 in
/-- The body on whole staging buffers: the inputs read `x0 … x4`, the output holds anything; it ends with the inputs
    as they were and the output at `out5_5` of the inputs. -/
theorem sound_kernel5 (c : Dev nD) (E : Set ℕ) (i : grid5.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__gin_bn_kernel i arg1 harg1 arg2 harg2 arg3 harg3 arg4 harg4 arg5 harg5 arg6 harg6) K := by
  simp only [cc5__gin_bn_kernel_eq_skeleton]; unfold cc5__gin_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The region's proof data on core `c`: the arrays as the region finds them; after the body at point `t` each
    input buffer still at its block and the output buffer at `out5_5` of the input blocks; the invariant that leaves
    the scoped rest and the generator register alone; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the entry contents (the definition projected, never unfolded further). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5_5 (iblk5 V c 0 t) (iblk5 V c 1 t) (iblk5 V c 2 t) (iblk5 V c 3 t) (iblk5 V c 4 t) := by dsimp only [dat5]

/-- Each input's staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's launch, at every point. -/
theorem body_obligation5 (c : Dev nD) : BodyObligation (dat5 (F := F) V c) (defs₀ (F := F)) Variants.none () Set.univ := fun t => by
  rw [bigSep_W5, bigSep_W5]
  exact sound_body5 V c t

end Cert.Kernel

end
-- ==== Proof.K.Reg6.Runs.lean ====
/- Region 6 (the two-layer perceptron with running column sums): what its two control cases share — the
    windows' blocks as the region finds them, the branch condition in closed form, the staging and scratch
    memrefs, and the region's entry resources with the two accumulators split out. -/
import proofs.«118347_j18940805776024_1_alg».proof.Proof.Gen.Kernel.Launch
import proofs.«118347_j18940805776024_1_alg».proof.Proof.Gen.Kernel.Skeleton
import proofs.«118347_j18940805776024_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region6
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not: an unfetched
    input's block index has not moved. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not: an unfetched
    input's block index has not moved. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not: an unfetched
    input's block index has not moved. -/
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not: an unfetched
    input's block index has not moved. -/
theorem before6_3_of {c : Dev nD} (dat : Dat τ (Elt F) Unit ℕ (Pipeline.UD sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not: an unfetched
    input's block index has not moved. -/
theorem before6_4_of {c : Dev nD} (dat : Dat τ (Elt F) Unit ℕ (Pipeline.UD sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

end Region6

/-- The body's one branch condition (is this the first grid point?), from the grid coordinates. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- No window is idle at any point. -/
theorem liveAt6 : ∀ (w : Fin cfg6.W) (t : Fin cfg6.N), cfg6.idle w (grid6.coords t) = false := fun _ _ => rfl

abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S128x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S5000x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
/-- The two accumulators: whole scoped buffers of the kernel's own, passed beside the windows. -/
abbrev scM6_0 : Memref sig .tc .vmem S1x128 .f32 := Memref.whole cc6_scratch0
abbrev scM6_1 : Memref sig .tc .vmem S1x128 .f32 := Memref.whole cc6_scratch1
/-- One staging buffer of each output window and the accumulators as views: contents are stated through them. -/
abbrev VO6_5 : View sig .tc .vmem S5000x128 .f32 := (Memref.whole cc6_stg5_0 : Memref sig .tc .vmem S5000x128 .f32).view
abbrev VO6_6 : View sig .tc .vmem S1x128 .f32 := (Memref.whole cc6_stg6_0 : Memref sig .tc .vmem S1x128 .f32).view
abbrev VO6_7 : View sig .tc .vmem S1x128 .f32 := (Memref.whole cc6_stg7_0 : Memref sig .tc .vmem S1x128 .f32).view
abbrev VS6_0 : View sig .tc .vmem S1x128 .f32 := scM6_0.view
abbrev VS6_1 : View sig .tc .vmem S1x128 .f32 := scM6_1.view

/-- The scoped buffers no window of this region stages, other than its two accumulators. -/
abbrev restBut6 (c : Dev nD) : sProp 𝕄 :=
  Pipeline.scopedRestBut (Ix := Unit) (Name := ℕ) (U := Pipeline.UD sig nD τ) (Lvl := ℕ) (Val := Elt F) spec6 c [cc6_scratch0, cc6_scratch1]

/-- The region's entry resources with the accumulators as memrefs owned at some contents. -/
theorem scopedRest6_owns (c : Dev nD) :
    (Pipeline.scopedRest (Ix := Unit) (Name := ℕ) (U := Pipeline.UD sig nD τ) (Lvl := ℕ) (Val := Elt F) spec6 c : sProp 𝕄)
      = iprop(iprop((∃ d, owns (c : Thread nD τ) scM6_0 fullShare d) ∗ (∃ d, owns (c : Thread nD τ) scM6_1 fullShare d)) ∗ restBut6 c) := by
  rw [scopedRest6_split]; simp only [scM6_0, scM6_1, owns_whole]; try rfl

end Cert.Kernel

end
-- ==== Proof.K.Reg6.RunA.lean ====
/- Region 6, the body's symbolic run at the first grid point. -/
import proofs.«118347_j18940805776024_1_alg».proof.Proof.K.Reg6.Runs

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AT THE FIRST POINT (the accumulators are zeroed first): on whole memrefs — the five inputs' at
    their contents, the three outputs' and the two accumulators' at anything — the body runs to the continuation holding
    the inputs' as they were and every other buffer with its stores written, as lists of pieces (last first) that the
    symbolic run finds. -/
noncomputable def kernelRun6_A (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc6__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc6__gin_mm_kernel_eq_skeleton]; unfold cc6__gin_mm_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel

end
-- ==== Proof.K.Reg6.RunB.lean ====
/- Region 6, the body's symbolic run after the first grid point. -/
import proofs.«118347_j18940805776024_1_alg».proof.Proof.K.Reg6.RunA

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AFTER THE FIRST POINT (the accumulators are carried): on whole memrefs — the five inputs' at
    their contents, the three outputs' at anything, the two accumulators' at what the point before left (`xs0`, `xs1`) —
    the body runs to the continuation holding the inputs' as they were and every other buffer with its stores written,
    as lists of pieces (last first) that the symbolic run finds. -/
noncomputable def kernelRun6_B (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc6__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc6__gin_mm_kernel_eq_skeleton]; unfold cc6__gin_mm_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel

end
-- ==== Proof.K.Reg6.lean ====
/- Region 6 (the two-layer perceptron with running column sums) at the buffer contents `V` the region is entered
   with: what each output window's staging buffer and the two accumulators hold after every grid point, the pipeline's
   proof data over an invariant that carries the accumulators from point to point, and the body obligation. -/
import proofs.«118347_j18940805776024_1_alg».proof.Proof.K.Reg6.RunB

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves in the outputs' staging buffers and in the accumulators -/

/-- The stores of case A into output window 5's staging buffer cover it (each is of the whole buffer). -/
theorem cover6_A_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun6_A c i arg1 harg1 arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun6_A c i arg1 harg1 arg2 harg2 arg3 harg3 arg4 harg4 arg5 harg5 arg6 harg6 arg7 harg7 arg8 harg8 arg9 harg9 arg10 harg10 hc0 x0 x1 x2 x3 x4).1 S5000x128.size (by sl_kernel_rfl) y

/-- What case A leaves in output window 5's staging buffer: its stores overlaid, the last on top. -/
def out6_A_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) : Vec F S5000x128 .f32 :=
  View.canon (kernelRun6_A c i arg1 harg1 arg2 harg2 arg3 harg3 arg4 harg4 arg5 harg5 arg6 harg6 arg7 harg7 arg8 harg8 arg9 harg9 arg10 harg10 hc0 x0 x1 x2 x3 x4).1

/-- The stores of case A into output window 6's staging buffer cover it (each is of the whole buffer). -/
theorem cover6_A_6 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun6_A c i arg1 harg1 arg2 harg2 arg3 harg3 arg4 harg4 arg5 harg5 arg6 harg6 arg7 harg7 arg8 harg8 arg9 harg9 arg10 harg10 hc0 x0 x1 x2 x3 x4).2.1 S1x128.size (by sl_kernel_rfl) y

/-- What case A leaves in output window 6's staging buffer: its stores overlaid, the last on top. -/
def out6_A_6 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun6_A c i arg1 harg1 arg2 harg2 arg3 harg3 arg4 harg4 arg5 harg5 arg6 harg6 arg7 harg7 arg8 harg8 arg9 harg9 arg10 harg10 hc0 x0 x1 x2 x3 x4).2.1

/-- The stores of case A into output window 7's staging buffer cover it (each is of the whole buffer). -/
theorem cover6_A_7 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun6_A c i arg1 harg1 arg2 harg2 arg3 harg3 arg4 harg4 arg5 harg5 arg6 harg6 arg7 harg7 arg8 harg8 arg9 harg9 arg10 harg10 hc0 x0 x1 x2 x3 x4).2.2.1 S1x128.size (by sl_kernel_rfl) y

/-- What case A leaves in output window 7's staging buffer: its stores overlaid, the last on top. -/
def out6_A_7 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun6_A c i arg1 harg1 arg2 harg2 arg3 harg3 arg4 harg4 arg5 harg5 arg6 harg6 arg7 harg7 arg8 harg8 arg9 harg9 arg10 harg10 hc0 x0 x1 x2 x3 x4).2.2.1

/-- The stores of case A into accumulator 0 cover it (each is of the whole buffer). -/
theorem scover6_A_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun6_A c i arg1 harg1 arg2 harg2 arg3 harg3 arg4 harg4 arg5 harg5 arg6 harg6 arg7 harg7 arg8 harg8 arg9 harg9 arg10 harg10 hc0 x0 x1 x2 x3 x4).2.2.2.1 S1x128.size (by sl_kernel_rfl) y

/-- What case A leaves in accumulator 0: its stores overlaid, the last on top. -/
def sout6_A_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun6_A c i arg1 harg1 arg2 harg2 arg3 harg3 arg4 harg4 arg5 harg5 arg6 harg6 arg7 harg7 arg8 harg8 arg9 harg9 arg10 harg10 hc0 x0 x1 x2 x3 x4).2.2.2.1

/-- The stores of case A into accumulator 1 cover it (each is of the whole buffer). -/
theorem scover6_A_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 hc0 x0 x1 x2 x3 x4).2.2.2.2.1, y ∈ pc.1.set :=
  View.cover_of_tiledL (kernelRun6_A c i arg1 harg1 arg2 harg2 arg3 harg3 arg4 harg4 arg5 harg5 arg6 harg6 arg7 harg7 arg8 harg8 arg9 harg9 arg10 harg10 hc0 x0 x1 x2 x3 x4).2.2.2.2.1 S1x128.size (by sl_kernel_rfl) y

/-- What case A leaves in accumulator 1: its stores overlaid, the last on top. -/
def sout6_A_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun6_A c i arg1 harg1 arg2 harg2 arg3 harg3 arg4 harg4 arg5 harg5 arg6 harg6 arg7 harg7 arg8 harg8 arg9 harg9 arg10 harg10 hc0 x0 x1 x2 x3 x4).2.2.2.2.1

/-- The stores of case B into output window 5's staging buffer cover it (each is of the whole buffer). -/
theorem cover6_B_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun6_B c i arg1 harg1 arg2 harg2 arg3 harg3 arg4 harg4 arg5 harg5 arg6 harg6 arg7 harg7 arg8 harg8 arg9 harg9 arg10 harg10 hc0 x0 x1 x2 x3 x4 xs0 xs1).1, y ∈ pc.1.set :=
  View.cover_of_tiledL (kernelRun6_B c i arg1 harg1 arg2 harg2 arg3 harg3 arg4 harg4 arg5 harg5 arg6 harg6 arg7 harg7 arg8 harg8 arg9 harg9 arg10 harg10 hc0 x0 x1 x2 x3 x4 xs0 xs1).1 S5000x128.size (by sl_kernel_rfl) y

/-- What case B leaves in output window 5's staging buffer: its stores overlaid, the last on top. -/
def out6_B_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  View.canon (kernelRun6_B c i arg1 harg1 arg2 harg2 arg3 harg3 arg4 harg4 arg5 harg5 arg6 harg6 arg7 harg7 arg8 harg8 arg9 harg9 arg10 harg10 hc0 x0 x1 x2 x3 x4 xs0 xs1).1

/-- The stores of case B into output window 6's staging buffer cover it (each is of the whole buffer). -/
theorem cover6_B_6 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 hc0 x0 x1 x2 x3 x4 xs0 xs1).2.1, y ∈ pc.1.set :=
  View.cover_of_tiledL (kernelRun6_B c i arg1 harg1 arg2 harg2 arg3 harg3 arg4 harg4 arg5 harg5 arg6 harg6 arg7 harg7 arg8 harg8 arg9 harg9 arg10 harg10 hc0 x0 x1 x2 x3 x4 xs0 xs1).2.1 S1x128.size (by sl_kernel_rfl) y

/-- What case B leaves in output window 6's staging buffer: its stores overlaid, the last on top. -/
def out6_B_6 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun6_B c i arg1 harg1 arg2 harg2 arg3 harg3 arg4 harg4 arg5 harg5 arg6 harg6 arg7 harg7 arg8 harg8 arg9 harg9 arg10 harg10 hc0 x0 x1 x2 x3 x4 xs0 xs1).2.1

/-- The stores of case B into output window 7's staging buffer cover it (each is of the whole buffer). -/
theorem cover6_B_7 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 hc0 x0 x1 x2 x3 x4 xs0 xs1).2.2.1, y ∈ pc.1.set :=
  View.cover_of_tiledL (kernelRun6_B c i arg1 harg1 arg2 harg2 arg3 harg3 arg4 harg4 arg5 harg5 arg6 harg6 arg7 harg7 arg8 harg8 arg9 harg9 arg10 harg10 hc0 x0 x1 x2 x3 x4 xs0 xs1).2.2.1 S1x128.size (by sl_kernel_rfl) y

/-- What case B leaves in output window 7's staging buffer: its stores overlaid, the last on top. -/
def out6_B_7 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun6_B c i arg1 harg1 arg2 harg2 arg3 harg3 arg4 harg4 arg5 harg5 arg6 harg6 arg7 harg7 arg8 harg8 arg9 harg9 arg10 harg10 hc0 x0 x1 x2 x3 x4 xs0 xs1).2.2.1

/-- The stores of case B into accumulator 0 cover it (each is of the whole buffer). -/
theorem scover6_B_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 hc0 x0 x1 x2 x3 x4 xs0 xs1).2.2.2.1, y ∈ pc.1.set :=
  View.cover_of_tiledL (kernelRun6_B c i arg1 harg1 arg2 harg2 arg3 harg3 arg4 harg4 arg5 harg5 arg6 harg6 arg7 harg7 arg8 harg8 arg9 harg9 arg10 harg10 hc0 x0 x1 x2 x3 x4 xs0 xs1).2.2.2.1 S1x128.size (by sl_kernel_rfl) y

/-- What case B leaves in accumulator 0: its stores overlaid, the last on top. -/
def sout6_B_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun6_B c i arg1 harg1 arg2 harg2 arg3 harg3 arg4 harg4 arg5 harg5 arg6 harg6 arg7 harg7 arg8 harg8 arg9 harg9 arg10 harg10 hc0 x0 x1 x2 x3 x4 xs0 xs1).2.2.2.1

/-- The stores of case B into accumulator 1 cover it (each is of the whole buffer). -/
theorem scover6_B_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 hc0 x0 x1 x2 x3 x4 xs0 xs1).2.2.2.2.1, y ∈ pc.1.set :=
  View.cover_of_tiledL (kernelRun6_B c i arg1 harg1 arg2 harg2 arg3 harg3 arg4 harg4 arg5 harg5 arg6 harg6 arg7 harg7 arg8 harg8 arg9 harg9 arg10 harg10 hc0 x0 x1 x2 x3 x4 xs0 xs1).2.2.2.2.1 S1x128.size (by sl_kernel_rfl) y

/-- What case B leaves in accumulator 1: its stores overlaid, the last on top. -/
def sout6_B_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun6_B c i arg1 harg1 arg2 harg2 arg3 harg3 arg4 harg4 arg5 harg5 arg6 harg6 arg7 harg7 arg8 harg8 arg9 harg9 arg10 harg10 hc0 x0 x1 x2 x3 x4 xs0 xs1).2.2.2.2.1

section Region6
variable (V : (c : Dev nD) → (b : Ref sig .tc) → Buf (Elt F) ((c : Thread nD τ).loc b))

/-! ## What the outputs and the accumulators hold after each point -/

/-- THE ACCUMULATION. After the body at position `n`: output windows 5, 6, 7's staging buffers, then the two
    accumulators. The first point runs the zeroing case from the point's input blocks; every later point runs the
    carrying case from its input blocks and the accumulators as the point before left them. -/
def outsAt6 (c : Dev nD) : (n : ℕ) → n < cfg6.N → Vec F S5000x128 .f32 × Vec F S1x128 .f32 × Vec F S1x128 .f32 × Vec F S1x128 .f32 × Vec F S1x128 .f32
  | 0, hn => (out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (iblk6 V c 0 ⟨0, hn⟩) (iblk6 V c 1 ⟨0, hn⟩) (iblk6 V c 2 ⟨0, hn⟩) (iblk6 V c 3 ⟨0, hn⟩) (iblk6 V c 4 ⟨0, hn⟩),
      out6_A_6 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (iblk6 V c 0 ⟨0, hn⟩) (iblk6 V c 1 ⟨0, hn⟩) (iblk6 V c 2 ⟨0, hn⟩) (iblk6 V c 3 ⟨0, hn⟩) (iblk6 V c 4 ⟨0, hn⟩),
      out6_A_7 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (iblk6 V c 0 ⟨0, hn⟩) (iblk6 V c 1 ⟨0, hn⟩) (iblk6 V c 2 ⟨0, hn⟩) (iblk6 V c 3 ⟨0, hn⟩) (iblk6 V c 4 ⟨0, hn⟩),
      sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (iblk6 V c 0 ⟨0, hn⟩) (iblk6 V c 1 ⟨0, hn⟩) (iblk6 V c 2 ⟨0, hn⟩) (iblk6 V c 3 ⟨0, hn⟩) (iblk6 V c 4 ⟨0, hn⟩),
      sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn => (out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => Nat.succ_ne_zero n ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
      out6_B_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => Nat.succ_ne_zero n ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
      out6_B_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => Nat.succ_ne_zero n ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
      sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => Nat.succ_ne_zero n ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
      sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => Nat.succ_ne_zero n ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2)

/-- `outsAt6` at the first point. -/
theorem outsAt6_A (c : Dev nD) (t : Fin cfg6.N) (hz : t.val = 0) :
    outsAt6 V c t.val t.isLt = (out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr hz) (iblk6 V c 0 t) (iblk6 V c 1 t) (iblk6 V c 2 t) (iblk6 V c 3 t) (iblk6 V c 4 t),
      out6_A_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr hz) (iblk6 V c 0 t) (iblk6 V c 1 t) (iblk6 V c 2 t) (iblk6 V c 3 t) (iblk6 V c 4 t),
      out6_A_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr hz) (iblk6 V c 0 t) (iblk6 V c 1 t) (iblk6 V c 2 t) (iblk6 V c 3 t) (iblk6 V c 4 t),
      sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr hz) (iblk6 V c 0 t) (iblk6 V c 1 t) (iblk6 V c 2 t) (iblk6 V c 3 t) (iblk6 V c 4 t),
      sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr hz) (iblk6 V c 0 t) (iblk6 V c 1 t) (iblk6 V c 2 t) (iblk6 V c 3 t) (iblk6 V c 4 t)) := by
  obtain ⟨n, hn⟩ := t
  cases n with
  | zero => rfl
  | succ n => exact absurd hz (Nat.succ_ne_zero n)

/-- `outsAt6` at a later point, over what the point before left. -/
theorem outsAt6_B (c : Dev nD) (t : Fin cfg6.N) (hz : t.val ≠ 0) :
    outsAt6 V c t.val t.isLt = (out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => hz ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => hz ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => hz ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => hz ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => hz ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl hz
  | succ n => rfl

/-! ## The invariant: the accumulators carried between points -/

/-- The region's invariant before position `n`: before the first point what the region is entered with (the generator
    register at some state and every scoped buffer no window stages at anything); afterwards the two accumulators at what
    the point before left in them, the other such buffers unopened, and the register. -/
def PhiS6 (c : Dev nD) : (n : ℕ) → n ≤ cfg6.N → sProp 𝕄
  | 0, _ => iprop((∃ r, prngReg c r) ∗ Pipeline.scopedRest spec6 c)
  | n + 1, hn => iprop(iprop(owns (c : Thread nD τ) scM6_0 fullShare ((outsAt6 V c n hn).2.2.2.1) ∗ owns (c : Thread nD τ) scM6_1 fullShare ((outsAt6 V c n hn).2.2.2.2)) ∗ restBut6 c ∗ (∃ r, prngReg c r))

theorem PhiS6_zero (c : Dev nD) (n : ℕ) (h : n ≤ cfg6.N) (hz : n = 0) :
    PhiS6 V c n h = iprop((∃ r, prngReg c r) ∗ Pipeline.scopedRest spec6 c) := by
  subst hz; rfl

theorem PhiS6_succ (c : Dev nD) (n : ℕ) (hn : n < cfg6.N) :
    PhiS6 V c (n + 1) hn = iprop(iprop(owns (c : Thread nD τ) scM6_0 fullShare ((outsAt6 V c n hn).2.2.2.1) ∗ owns (c : Thread nD τ) scM6_1 fullShare ((outsAt6 V c n hn).2.2.2.2)) ∗ restBut6 c ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2.2.2.1) ∗ owns (c : Thread nD τ) scM6_1 fullShare ((outsAt6 V c (n - 1) (by omega)).2.2.2.2)) ∗ restBut6 c ∗ (∃ r, prngReg c r)) := by
  cases n with
  | zero => exact absurd rfl hz
  | succ n => rfl

/-! ## The pipeline's proof data -/

/-- The proof data of pipeline 6 on core `c`: the arrays as the region finds them; after the body at point `t` each
    input's buffer at its block and each output's at `outsAt6`'s component; the invariant `PhiS6`; nothing owed; full
    shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
    | ⟨6, _⟩ => (outsAt6 V c t.val t.isLt).2.1
    | ⟨7, _⟩ => (outsAt6 V c t.val t.isLt).2.2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]
theorem after6_6 (c : Dev nD) (t : Fin cfg6.N) : (dat6 V c).after 6 t = (outsAt6 V c t.val t.isLt).2.1 := by dsimp only [dat6]
theorem after6_7 (c : Dev nD) (t : Fin cfg6.N) : (dat6 V c).after 7 t = (outsAt6 V c t.val t.isLt).2.2.1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t)
    ∗ owns (c : Thread nD τ) (ms6_7 t) fullShare ((dat6 V c).after 7 t))

set_option maxHeartbeats 4000000 in
/-- The body at any point: the inputs' memrefs hold their blocks; the point is the first or a later one, so the matching
    run applies; the invariant hands the body the accumulators (at anything at the first point, at what the point before
    left afterwards) and takes them back at this point's contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = PhiS6 V c (t.val + 1) t.isLt from rfl, PhiS6_succ]
  rw [after6_0, after6_1, after6_2, after6_3, after6_4, after6_5, after6_6, after6_7]
  by_cases hz : t.val = 0
  · rw [outsAt6_A V c t hz]
    unfold out6_A_5 out6_A_6 out6_A_7 sout6_A_0 sout6_A_1; dsimp only
    rw [PhiS6_castSucc V c t, PhiS6_zero V c _ _ hz, scopedRest6_owns]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun6_A c (grid6.coords t) _ _ _ _ _ _ _ _ _ _ _ _ _ _ _ _ _ _ _ _ ((hcond6_0 t).mpr hz) (iblk6 V c 0 t) (iblk6 V c 1 t) (iblk6 V c 2 t) (iblk6 V c 3 t) (iblk6 V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover6_A_0 c _ _ _ _ _ _ _ _ _ _ _ _ _ _ _ _ _ _ _ _ _ _ _ _ _ _ _)
        · unfold owns; iexists _; isplitr
          swap; · iexact HS1
          ipureintro; exact View.read_writes_eq_canon _ _ _ (scover6_A_1 c _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover6_A_5 c _ _ _ _ _ _ _ _ _ _ _ _ _ _ _ _ _ _ _ _ _ _ _ _ _ _ _)
    isplitl [H6]
    · unfold owns; iexists _; isplitr
      swap; · iexact H6
      ipureintro; exact View.read_writes_eq_canon _ _ _ (cover6_A_6 c _ _ _ _ _ _ _ _ _ _ _ _ _ _ _ _ _ _ _ _ _ _ _ _ _ _ _)
    · unfold owns; iexists _; isplitr
      swap; · iexact H7
      ipureintro; exact View.read_writes_eq_canon _ _ _ (cover6_A_7 c _ _ _ _ _ _ _ _ _ _ _ _ _ _ _ _ _ _ _ _ _ _ _ _ _ _ _)
  · rw [outsAt6_B V c t hz]
    unfold out6_B_5 out6_B_6 out6_B_7 sout6_B_0 sout6_B_1; dsimp only
    rw [PhiS6_castSucc V c t, PhiS6_pos V c _ _ hz]
    iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun6_B c (grid6.coords t) _ _ _ _ _ _ _ _ _ _ _ _ _ _ _ _ _ _ _ _ (fun h => hz ((hcond6_0 t).mp h)) (iblk6 V c 0 t) (iblk6 V c 1 t) (iblk6 V c 2 t) (iblk6 V c 3 t) (iblk6 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover6_B_0 c _ _ _ _ _ _ _ _ _ _ _ _ _ _ _ _ _ _ _ _ _ _ _ _ _ _ _ _ _)
        · unfold owns; iexists _; isplitr
          swap; · iexact HS1
          ipureintro; exact View.read_writes_eq_canon _ _ _ (scover6_B_1 c _ _ _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover6_B_5 c _ _ _ _ _ _ _ _ _ _ _ _ _ _ _ _ _ _ _ _ _ _ _ _ _ _ _ _ _)
    isplitl [H6]
    · unfold owns; iexists _; isplitr
      swap; · iexact H6
      ipureintro; exact View.read_writes_eq_canon _ _ _ (cover6_B_6 c _ _ _ _ _ _ _ _ _ _ _ _ _ _ _ _ _ _ _ _ _ _ _ _ _ _ _ _ _)
    · unfold owns; iexists _; isplitr
      swap; · iexact H7
      ipureintro; exact View.read_writes_eq_canon _ _ _ (cover6_B_7 c _ _ _ _ _ _ _ _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the region is entered with is the invariant before the first point. -/
theorem Phi6_in (c : Dev nD) : iprop((∃ r, prngReg c r) ∗ Pipeline.scopedRest spec6 c) ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the entry resources back: the accumulators' contents are forgotten. -/
theorem Phi6_out (c : Dev nD) : (dat6 V c).Φ (Fin.last _) ⊢ iprop((∃ r, prngReg c r) ∗ Pipeline.scopedRest spec6 c) := by
  rw [show (dat6 V c).Φ (Fin.last _) = PhiS6 V c (Fin.last cfg6.N).val (Nat.le_of_lt_succ (Fin.last cfg6.N).isLt) from rfl,
    PhiS6_pos V c _ _ (by rw [Fin.val_last]; have : cfg6.N = 20 := N_6; omega), scopedRest6_owns]
  iintro ⟨⟨HS0, HS1⟩, HR, Hg⟩
  isplitl [Hg]; · iexact Hg
  isplitl [HS0 HS1]
  · isplitl [HS0]
    · iexists _; iexact HS0
    · iexists _; iexact HS1
  iexact HR

end Region6

end Cert.Kernel

end
-- ==== Proof.K.Reg7.lean ====
import proofs.«118347_j18940805776024_1_alg».proof.Proof.Gen.Kernel.Launch
import proofs.«118347_j18940805776024_1_alg».proof.Proof.Gen.Kernel.Skeleton
import proofs.«118347_j18940805776024_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 7: `cc7__gin_bn_kernel` on a grid of 10 row blocks

Each point normalises one block of 10000 rows of `z` (window 0) lane by lane with the four row vectors `mu`, `var`,
`gamma`, `beta` (windows 1–4, whose single block is the whole array) and writes the block of `h` (window 5):
`h = (z − mu) · rsqrt(var + ε) · gamma + beta`. The body reads every input through its whole staging buffer and
stores the whole output buffer once, so what it leaves there is a function of the five input blocks alone. -/

/-- Window `w`'s block at point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds the window's block at every point, whether or not the pipeline fetched
    it there: an unfetched input's block index has not moved, so the block kept from the point before is this point's. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds the window's block at every point, whether or not the pipeline fetched
    it there: an unfetched input's block index has not moved, so the block kept from the point before is this point's. -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds the window's block at every point, whether or not the pipeline fetched
    it there: an unfetched input's block index has not moved, so the block kept from the point before is this point's. -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds the window's block at every point, whether or not the pipeline fetched
    it there: an unfetched input's block index has not moved, so the block kept from the point before is this point's. -/
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds the window's block at every point, whether or not the pipeline fetched
    it there: an unfetched input's block index has not moved, so the block kept from the point before is this point's. -/
theorem before7_4_of {c : Dev nD} (dat : Dat τ (Elt F) Unit ℕ (Pipeline.UD sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The whole 10000×128 buffer as a rectangle, and the whole 1×128 one. -/
abbrev r7_z : Rect S10000x128 := Rect.unit (s := S10000x128) ![0, 0] S10000x128.size inb_S10000x128_S10000x128_0_0
abbrev r7_v : Rect S1x128 := Rect.unit (s := S1x128) ![0, 0] S1x128.size inb_S1x128_S1x128_0_0

/-- The output block after the body, from the five input blocks: the one store's value laid over the buffer. -/
def out7_5 (x0 : Vec F S10000x128 .f32) (x1 x2 x3 x4 : Vec F S1x128 .f32) : Vec F S10000x128 .f32 :=
  View.canon [⟨r7_z, k7_pay1 (View.ld x0 r7_z) (View.ld x1 r7_v) (View.ld x2 r7_v) (View.ld x3 r7_v) (View.ld x4 r7_v)⟩]

/-- The one store is of the whole buffer, so it covers every index. -/
theorem cover7_5 (p0 : Vec F S10000x128 .f32) (y : S10000x128.Idx) :
    ∃ pc ∈ ([⟨r7_z, p0⟩] : List (View.Piece (Elt F) S10000x128 .f32)), y ∈ pc.1.set :=
  View.cover_of_tiled [⟨r7_z, p0⟩] S10000x128.size (by rfl) y

set_option maxHeartbeats 1000000 in
/-- The body on whole staging buffers: the inputs read `x0 … x4`, the output holds anything; it ends with the inputs
    as they were and the output at `out7_5` of the inputs. -/
theorem sound_kernel7 (c : Dev nD) (E : Set ℕ) (i : grid7.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__gin_bn_kernel i arg1 harg1 arg2 harg2 arg3 harg3 arg4 harg4 arg5 harg5 arg6 harg6) K := by
  simp only [cc7__gin_bn_kernel_eq_skeleton]; unfold cc7__gin_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The region's proof data on core `c`: the arrays as the region finds them; after the body at point `t` each
    input buffer still at its block and the output buffer at `out7_5` of the input blocks; the invariant that leaves
    the scoped rest and the generator register alone; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the entry contents (the definition projected, never unfolded further). -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t =
    out7_5 (iblk7 V c 0 t) (iblk7 V c 1 t) (iblk7 V c 2 t) (iblk7 V c 3 t) (iblk7 V c 4 t) := by dsimp only [dat7]

/-- Each input's staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so the body's triple applies; the invariant and
    the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's launch, at every point. -/
theorem body_obligation7 (c : Dev nD) : BodyObligation (dat7 (F := F) V c) (defs₀ (F := F)) Variants.none () Set.univ := fun t => by
  rw [bigSep_W7, bigSep_W7]
  exact sound_body7 V c t

end Cert.Kernel

end
-- ==== Proof.K.Reg8.lean ====
import proofs.«118347_j18940805776024_1_alg».proof.Proof.Gen.Kernel.Launch
import proofs.«118347_j18940805776024_1_alg».proof.Proof.Gen.Kernel.Skeleton
import proofs.«118347_j18940805776024_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The node-classification region 8: `cc8__node_cls_kernel` at its single grid point

The one point takes the 64 pooled graph rows (window 0) and the weights and biases of four dense layers (windows 1–8)
and writes the 64×16 table of class log-probabilities (window 9): three layers with `relu`, a fourth without, then
`log_softmax` along the 16 classes. The body reads every input through its whole staging buffer and stores the whole
output buffer once, so what it leaves there is a function of the nine input blocks alone. -/

/-- Window `w`'s block at point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds the window's block at every point, whether or not the pipeline fetched
    it there: an unfetched input's block index has not moved, so the block kept from the point before is this point's. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds the window's block at every point, whether or not the pipeline fetched
    it there: an unfetched input's block index has not moved, so the block kept from the point before is this point's. -/
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds the window's block at every point, whether or not the pipeline fetched
    it there: an unfetched input's block index has not moved, so the block kept from the point before is this point's. -/
theorem before8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds the window's block at every point, whether or not the pipeline fetched
    it there: an unfetched input's block index has not moved, so the block kept from the point before is this point's. -/
theorem before8_3_of {c : Dev nD} (dat : Dat τ (Elt F) Unit ℕ (Pipeline.UD sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds the window's block at every point, whether or not the pipeline fetched
    it there: an unfetched input's block index has not moved, so the block kept from the point before is this point's. -/
theorem before8_4_of {c : Dev nD} (dat : Dat τ (Elt F) Unit ℕ (Pipeline.UD sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's staging buffer holds the window's block at every point, whether or not the pipeline fetched
    it there: an unfetched input's block index has not moved, so the block kept from the point before is this point's. -/
theorem before8_5_of {c : Dev nD} (dat : Dat τ (Elt F) Unit ℕ (Pipeline.UD sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's staging buffer holds the window's block at every point, whether or not the pipeline fetched
    it there: an unfetched input's block index has not moved, so the block kept from the point before is this point's. -/
theorem before8_6_of {c : Dev nD} (dat : Dat τ (Elt F) Unit ℕ (Pipeline.UD sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's staging buffer holds the window's block at every point, whether or not the pipeline fetched
    it there: an unfetched input's block index has not moved, so the block kept from the point before is this point's. -/
theorem before8_7_of {c : Dev nD} (dat : Dat τ (Elt F) Unit ℕ (Pipeline.UD sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's staging buffer holds the window's block at every point, whether or not the pipeline fetched
    it there: an unfetched input's block index has not moved, so the block kept from the point before is this point's. -/
theorem before8_8_of {c : Dev nD} (dat : Dat τ (Elt F) Unit ℕ (Pipeline.UD sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-- Each staging buffer as one whole rectangle: the body reads and writes nothing smaller. -/
abbrev r8_S64x512 : Rect S64x512 := Rect.unit (s := S64x512) ![0, 0] S64x512.size inb_S64x512_S64x512_0_0
abbrev r8_S512x256 : Rect S512x256 := Rect.unit (s := S512x256) ![0, 0] S512x256.size inb_S512x256_S512x256_0_0
abbrev r8_S1x256 : Rect S1x256 := Rect.unit (s := S1x256) ![0, 0] S1x256.size inb_S1x256_S1x256_0_0
abbrev r8_S256x128 : Rect S256x128 := Rect.unit (s := S256x128) ![0, 0] S256x128.size inb_S256x128_S256x128_0_0
abbrev r8_S1x128 : Rect S1x128 := Rect.unit (s := S1x128) ![0, 0] S1x128.size inb_S1x128_S1x128_0_0
abbrev r8_S128x128 : Rect S128x128 := Rect.unit (s := S128x128) ![0, 0] S128x128.size inb_S128x128_S128x128_0_0
abbrev r8_S128x16 : Rect S128x16 := Rect.unit (s := S128x16) ![0, 0] S128x16.size inb_S128x16_S128x16_0_0
abbrev r8_S1x16 : Rect S1x16 := Rect.unit (s := S1x16) ![0, 0] S1x16.size inb_S1x16_S1x16_0_0
abbrev r8_S64x16 : Rect S64x16 := Rect.unit (s := S64x16) ![0, 0] S64x16.size inb_S64x16_S64x16_0_0

/-- The output block after the body, from the input blocks: the one store's value laid over the buffer. -/
def out8_9 (x0 : Vec F S64x512 .f32) (x1 : Vec F S512x256 .f32) (x2 : Vec F S1x256 .f32) (x3 : Vec F S256x128 .f32) (x4 : Vec F S1x128 .f32) (x5 : Vec F S128x128 .f32) (x6 : Vec F S1x128 .f32) (x7 : Vec F S128x16 .f32) (x8 : Vec F S1x16 .f32) : Vec F S64x16 .f32 :=
  View.canon [⟨r8_S64x16, k8_pay1 (k8_pay2 (View.ld x0 r8_S64x512) (View.ld x1 r8_S512x256) (View.ld x2 r8_S1x256) (View.ld x3 r8_S256x128) (View.ld x4 r8_S1x128) (View.ld x5 r8_S128x128) (View.ld x6 r8_S1x128) (View.ld x7 r8_S128x16)) (View.ld x8 r8_S1x16)⟩]

/-- The one store is of the whole buffer, so it covers every index. -/
theorem cover8_9 (p0 : Vec F S64x16 .f32) (y : S64x16.Idx) :
    ∃ pc ∈ ([⟨r8_S64x16, p0⟩] : List (View.Piece (Elt F) S64x16 .f32)), y ∈ pc.1.set :=
  View.cover_of_tiled [⟨r8_S64x16, p0⟩] S64x16.size (by rfl) y

set_option maxHeartbeats 1000000 in
/-- The body on whole staging buffers: the inputs read `x0 … x8`, the output holds anything; it ends with the inputs
    as they were and the output at `out8_9` of the inputs. -/
theorem sound_kernel8 (c : Dev nD) (E : Set ℕ) (i : grid8.Coords)
    (arg1 : Memref sig .tc .vmem S64x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S64x16 .f32) (harg10 : arg10.IsWhole)
    (x0 : Vec F S64x512 .f32) (x1 : Vec F S512x256 .f32) (x2 : Vec F S1x256 .f32) (x3 : Vec F S256x128 .f32) (x4 : Vec F S1x128 .f32) (x5 : Vec F S128x128 .f32) (x6 : Vec F S1x128 .f32) (x7 : Vec F S128x16 .f32) (x8 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out8_9 x0 x1 x2 x3 x4 x5 x6 x7 x8)) -∗ K ⟨⟩))
      ⊢ wp frame (wpE (defs₀ (F := F)) Variants.none c none) E (cc8__node_cls_kernel i arg1 harg1 arg2 harg2 arg3 harg3 arg4 harg4 arg5 harg5 arg6 harg6 arg7 harg7 arg8 harg8 arg9 harg9 arg10 harg10) K := by
  simp only [cc8__node_cls_kernel_eq_skeleton]; unfold cc8__node_cls_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover8_9 _)

/-- The region's proof data on core `c`: the arrays as the region finds them; after the body at point `t` each
    input buffer still at its block and the output buffer at `out8_9` of the input blocks; the invariant that leaves
    the scoped rest and the generator register alone; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

/-- The proof data's arrays are the entry contents (the definition projected, never unfolded further). -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t =
    out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

/-- Each input's staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' buffers hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ (grid8.coords t) _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the region's launch, at every point. -/
theorem body_obligation8 (c : Dev nD) : BodyObligation (dat8 (F := F) V c) (defs₀ (F := F)) Variants.none () Set.univ := fun t => by
  rw [bigSep_W8, bigSep_W8]
  exact sound_body8 V c t

end Cert.Kernel

end
-- ==== Proof.K.Reg9.lean ====
import proofs.«118347_j18940805776024_1_alg».proof.Proof.Gen.Kernel.Launch
import proofs.«118347_j18940805776024_1_alg».proof.Proof.Gen.Kernel.Skeleton
import proofs.«118347_j18940805776024_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The edge-prediction region 9: `cc9__edge_pred_kernel` on a grid of 50 blocks of 2000 edges

Each point takes one block of 2000 rows of edge features (window 0) and the weights and biases of three dense layers
(windows 1–6, whose single block is the whole array), and writes the block of 2000 edge scores (window 7):
`logistic(relu(relu(e·W₁ + b₁)·W₂ + b₂)·W₃ + b₃)`. The body reads every input through its whole staging buffer and
stores the whole output buffer once, so what it leaves there is a function of the seven input blocks alone. -/

/-- Window `w`'s block at point `t`, read off the window's array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds the window's block at every point, whether or not the pipeline fetched
    it there: an unfetched input's block index has not moved, so the block kept from the point before is this point's. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds the window's block at every point, whether or not the pipeline fetched
    it there: an unfetched input's block index has not moved, so the block kept from the point before is this point's. -/
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds the window's block at every point, whether or not the pipeline fetched
    it there: an unfetched input's block index has not moved, so the block kept from the point before is this point's. -/
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer holds the window's block at every point, whether or not the pipeline fetched
    it there: an unfetched input's block index has not moved, so the block kept from the point before is this point's. -/
theorem before9_3_of {c : Dev nD} (dat : Dat τ (Elt F) Unit ℕ (Pipeline.UD sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's staging buffer holds the window's block at every point, whether or not the pipeline fetched
    it there: an unfetched input's block index has not moved, so the block kept from the point before is this point's. -/
theorem before9_4_of {c : Dev nD} (dat : Dat τ (Elt F) Unit ℕ (Pipeline.UD sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's staging buffer holds the window's block at every point, whether or not the pipeline fetched
    it there: an unfetched input's block index has not moved, so the block kept from the point before is this point's. -/
theorem before9_5_of {c : Dev nD} (dat : Dat τ (Elt F) Unit ℕ (Pipeline.UD sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- Input window 6's staging buffer holds the window's block at every point, whether or not the pipeline fetched
    it there: an unfetched input's block index has not moved, so the block kept from the point before is this point's. -/
theorem before9_6_of {c : Dev nD} (dat : Dat τ (Elt F) Unit ℕ (Pipeline.UD sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-- Each staging buffer as one whole rectangle: the body reads and writes nothing smaller. -/
abbrev r9_S2000x1024 : Rect S2000x1024 := Rect.unit (s := S2000x1024) ![0, 0] S2000x1024.size inb_S2000x1024_S2000x1024_0_0
abbrev r9_S1024x256 : Rect S1024x256 := Rect.unit (s := S1024x256) ![0, 0] S1024x256.size inb_S1024x256_S1024x256_0_0
abbrev r9_S1x256 : Rect S1x256 := Rect.unit (s := S1x256) ![0, 0] S1x256.size inb_S1x256_S1x256_0_0
abbrev r9_S256x128 : Rect S256x128 := Rect.unit (s := S256x128) ![0, 0] S256x128.size inb_S256x128_S256x128_0_0
abbrev r9_S1x128 : Rect S1x128 := Rect.unit (s := S1x128) ![0, 0] S1x128.size inb_S1x128_S1x128_0_0
abbrev r9_S128x1 : Rect S128x1 := Rect.unit (s := S128x1) ![0, 0] S128x1.size inb_S128x1_S128x1_0_0
abbrev r9_S1x1 : Rect S1x1 := Rect.unit (s := S1x1) ![0, 0] S1x1.size inb_S1x1_S1x1_0_0
abbrev r9_S2000x1 : Rect S2000x1 := Rect.unit (s := S2000x1) ![0, 0] S2000x1.size inb_S2000x1_S2000x1_0_0

/-- The output block after the body, from the input blocks: the one store's value laid over the buffer. -/
def out9_7 (x0 : Vec F S2000x1024 .f32) (x1 : Vec F S1024x256 .f32) (x2 : Vec F S1x256 .f32) (x3 : Vec F S256x128 .f32) (x4 : Vec F S1x128 .f32) (x5 : Vec F S128x1 .f32) (x6 : Vec F S1x1 .f32) : Vec F S2000x1 .f32 :=
  View.canon [⟨r9_S2000x1, k9_pay1 (View.ld x0 r9_S2000x1024) (View.ld x1 r9_S1024x256) (View.ld x2 r9_S1x256) (View.ld x3 r9_S256x128) (View.ld x4 r9_S1x128) (View.ld x5 r9_S128x1) (View.ld x6 r9_S1x1)⟩]

/-- The one store is of the whole buffer, so it covers every index. -/
theorem cover9_7 (p0 : Vec F S2000x1 .f32) (y : S2000x1.Idx) :
    ∃ pc ∈ ([⟨r9_S2000x1, p0⟩] : List (View.Piece (Elt F) S2000x1 .f32)), y ∈ pc.1.set :=
  View.cover_of_tiled [⟨r9_S2000x1, p0⟩] S2000x1.size (by rfl) y

set_option maxHeartbeats 1000000 in
/-- The body on whole staging buffers: the inputs read `x0 … x6`, the output holds anything; it ends with the inputs
    as they were and the output at `out9_7` of the inputs. -/
theorem sound_kernel9 (c : Dev nD) (E : Set ℕ) (i : grid9.Coords)
    (arg1 : Memref sig .tc .vmem S2000x1024 .f32) (harg1 : arg1.IsWhole) (arg2 : Memref sig .tc .vmem S1024x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S2000x1 .f32) (harg8 : arg8.IsWhole)
    (x0 : Vec F S2000x1024 .f32) (x1 : Vec F S1024x256 .f32) (x2 : Vec F S1x256 .f32) (x3 : Vec F S256x128 .f32) (x4 : Vec F S1x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out9_7 x0 x1 x2 x3 x4 x5 x6)) -∗ K ⟨⟩))
      ⊢ wp frame (wpE (defs₀ (F := F)) Variants.none c none) E (cc9__edge_pred_kernel i arg1 harg1 arg2 harg2 arg3 harg3 arg4 harg4 arg5 harg5 arg6 harg6 arg7 harg7 arg8 harg8) K := by
  simp only [cc9__edge_pred_kernel_eq_skeleton]; unfold cc9__edge_pred_kernel_skel

  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover9_7 _)

/-- The region's proof data on core `c`: the arrays as the region finds them; after the body at point `t` each
    input buffer still at its block and the output buffer at `out9_7` of the input blocks; the invariant that leaves
    the scoped rest and the generator register alone; nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

/-- The proof data's arrays are the entry contents (the definition projected, never unfolded further). -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t =
    out9_7 (iblk9 V c 0 t) (iblk9 V c 1 t) (iblk9 V c 2 t) (iblk9 V c 3 t) (iblk9 V c 4 t) (iblk9 V c 5 t) (iblk9 V c 6 t) := by dsimp only [dat9]

/-- Each input's staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' buffers hold their blocks, so the body's triple applies; the invariant and
    the core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ (grid9.coords t) _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region's launch, at every point. -/
theorem body_obligation9 (c : Dev nD) : BodyObligation (dat9 (F := F) V c) (defs₀ (F := F)) Variants.none () Set.univ := fun t => by
  rw [bigSep_W9, bigSep_W9]
  exact sound_body9 V c t

end Cert.Kernel

end
-- ==== Proof.K.Asm.Vals.lean ====
/- The kernel program between its regions: the contents of every buffer at every boundary of @main, from the launch
   memory through each host stretch and each region's outputs; what each item leaves unchanged; the proof data family of
   the ten pipelines. -/
import proofs.«118347_j18940805776024_1_alg».proof.Proof.Gen.Kernel.Regions
import proofs.«118347_j18940805776024_1_alg».proof.Proof.K.Reg0
import proofs.«118347_j18940805776024_1_alg».proof.Proof.K.Reg1
import proofs.«118347_j18940805776024_1_alg».proof.Proof.K.Reg2
import proofs.«118347_j18940805776024_1_alg».proof.Proof.K.Reg3
import proofs.«118347_j18940805776024_1_alg».proof.Proof.K.Reg4
import proofs.«118347_j18940805776024_1_alg».proof.Proof.K.Reg5
import proofs.«118347_j18940805776024_1_alg».proof.Proof.K.Reg6
import proofs.«118347_j18940805776024_1_alg».proof.Proof.K.Reg7
import proofs.«118347_j18940805776024_1_alg».proof.Proof.K.Reg8
import proofs.«118347_j18940805776024_1_alg».proof.Proof.K.Reg9
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

/-- The contents of a TensorCore's buffers read at its references. -/
abbrev VT (F : FTy → Type) [FloatOps F] := (c : Dev nD) → (b : Ref sig .tc) → Buf (Elt F) ((c : Thread nD τ).loc b)

/-- Region 1's pipeline invariant is the class invariant: the scoped buffers no window stages beside the generator register. -/
theorem Phi1_in (V : VT F) (c : Dev nD) : (iprop((∃ r, prngReg c r) ∗ Pipeline.scopedRest spec1 c) : sProp 𝕄) ⊢ (dat1 V c).Φ 0 := by
  rw [show (dat1 V c).Φ 0 = Pipeline.ΦA spec1 c from rfl]; unfold Pipeline.ΦA
  iintro ⟨Hp, Hr⟩
  isplitl [Hr]; · iexact Hr
  iexact Hp
theorem Phi1_out (V : VT F) (c : Dev nD) : (dat1 V c).Φ (Fin.last _) ⊢ (iprop((∃ r, prngReg c r) ∗ Pipeline.scopedRest spec1 c) : sProp 𝕄) := by
  rw [show (dat1 V c).Φ (Fin.last _) = Pipeline.ΦA spec1 c from rfl]; unfold Pipeline.ΦA
  iintro ⟨Hr, Hp⟩
  isplitl [Hp]; · iexact Hp
  iexact Hr
/-- Region 3's pipeline invariant is the class invariant: the scoped buffers no window stages beside the generator register. -/
theorem Phi3_in (V : VT F) (c : Dev nD) : (iprop((∃ r, prngReg c r) ∗ Pipeline.scopedRest spec3 c) : sProp 𝕄) ⊢ (dat3 V c).Φ 0 := by
  rw [show (dat3 V c).Φ 0 = Pipeline.ΦA spec3 c from rfl]; unfold Pipeline.ΦA
  iintro ⟨Hp, Hr⟩
  isplitl [Hr]; · iexact Hr
  iexact Hp
theorem Phi3_out (V : VT F) (c : Dev nD) : (dat3 V c).Φ (Fin.last _) ⊢ (iprop((∃ r, prngReg c r) ∗ Pipeline.scopedRest spec3 c) : sProp 𝕄) := by
  rw [show (dat3 V c).Φ (Fin.last _) = Pipeline.ΦA spec3 c from rfl]; unfold Pipeline.ΦA
  iintro ⟨Hr, Hp⟩
  isplitl [Hp]; · iexact Hp
  iexact Hr
/-- Region 5's pipeline invariant is the class invariant: the scoped buffers no window stages beside the generator register. -/
theorem Phi5_in (V : VT F) (c : Dev nD) : (iprop((∃ r, prngReg c r) ∗ Pipeline.scopedRest spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp
theorem Phi5_out (V : VT F) (c : Dev nD) : (dat5 V c).Φ (Fin.last _) ⊢ (iprop((∃ r, prngReg c r) ∗ Pipeline.scopedRest spec5 c) : sProp 𝕄) := by
  rw [show (dat5 V c).Φ (Fin.last _) = Pipeline.ΦA spec5 c from rfl]; unfold Pipeline.ΦA
  iintro ⟨Hr, Hp⟩
  isplitl [Hp]; · iexact Hp
  iexact Hr
/-- Region 7's pipeline invariant is the class invariant: the scoped buffers no window stages beside the generator register. -/
theorem Phi7_in (V : VT F) (c : Dev nD) : (iprop((∃ r, prngReg c r) ∗ Pipeline.scopedRest spec7 c) : sProp 𝕄) ⊢ (dat7 V c).Φ 0 := by
  rw [show (dat7 V c).Φ 0 = Pipeline.ΦA spec7 c from rfl]; unfold Pipeline.ΦA
  iintro ⟨Hp, Hr⟩
  isplitl [Hr]; · iexact Hr
  iexact Hp
theorem Phi7_out (V : VT F) (c : Dev nD) : (dat7 V c).Φ (Fin.last _) ⊢ (iprop((∃ r, prngReg c r) ∗ Pipeline.scopedRest spec7 c) : sProp 𝕄) := by
  rw [show (dat7 V c).Φ (Fin.last _) = Pipeline.ΦA spec7 c from rfl]; unfold Pipeline.ΦA
  iintro ⟨Hr, Hp⟩
  isplitl [Hp]; · iexact Hp
  iexact Hr
/-- Region 8's pipeline invariant is the class invariant: the scoped buffers no window stages beside the generator register. -/
theorem Phi8_in (V : VT F) (c : Dev nD) : (iprop((∃ r, prngReg c r) ∗ Pipeline.scopedRest spec8 c) : sProp 𝕄) ⊢ (dat8 V c).Φ 0 := by
  rw [show (dat8 V c).Φ 0 = Pipeline.ΦA spec8 c from rfl]; unfold Pipeline.ΦA
  iintro ⟨Hp, Hr⟩
  isplitl [Hr]; · iexact Hr
  iexact Hp
theorem Phi8_out (V : VT F) (c : Dev nD) : (dat8 V c).Φ (Fin.last _) ⊢ (iprop((∃ r, prngReg c r) ∗ Pipeline.scopedRest spec8 c) : sProp 𝕄) := by
  rw [show (dat8 V c).Φ (Fin.last _) = Pipeline.ΦA spec8 c from rfl]; unfold Pipeline.ΦA
  iintro ⟨Hr, Hp⟩
  isplitl [Hp]; · iexact Hp
  iexact Hr
/-- Region 9's pipeline invariant is the class invariant: the scoped buffers no window stages beside the generator register. -/
theorem Phi9_in (V : VT F) (c : Dev nD) : (iprop((∃ r, prngReg c r) ∗ Pipeline.scopedRest spec9 c) : sProp 𝕄) ⊢ (dat9 V c).Φ 0 := by
  rw [show (dat9 V c).Φ 0 = Pipeline.ΦA spec9 c from rfl]; unfold Pipeline.ΦA
  iintro ⟨Hp, Hr⟩
  isplitl [Hr]; · iexact Hr
  iexact Hp
theorem Phi9_out (V : VT F) (c : Dev nD) : (dat9 V c).Φ (Fin.last _) ⊢ (iprop((∃ r, prngReg c r) ∗ Pipeline.scopedRest spec9 c) : sProp 𝕄) := by
  rw [show (dat9 V c).Φ (Fin.last _) = Pipeline.ΦA spec9 c from rfl]; unfold Pipeline.ΦA
  iintro ⟨Hr, Hp⟩
  isplitl [Hp]; · iexact Hp
  iexact Hr

variable (m : (ℓ : Loc nD τ sig) → Buf (Elt F) ℓ)

/-! ## The buffers' contents at every boundary of @main

From the launch memory, through each host stretch and each region. What a region leaves in an output array has a name
of its own, opened only by its defining equation. -/

def U1 (c : Dev nD) : Valuation τ sig (Elt F) := StableHlo.after hostOps0 (V0 m c)
abbrev Uv1 : VT F := fun c b => U1 m c b
/-- What region 0 leaves in its output window 5's array. -/
@[irreducible] def o2_5 (c : Dev nD) : Buf (Elt F) ((c : Thread nD τ).loc main_v30_0) := (dat0 (Uv1 m) c).arrAt 5 cfg0.N
theorem o2_5_eq (c : Dev nD) : o2_5 m c = (dat0 (Uv1 m) c).arrAt 5 cfg0.N := by unfold o2_5; rfl
/-- What region 0 leaves in its output window 6's array. -/
@[irreducible] def o2_6 (c : Dev nD) : Buf (Elt F) ((c : Thread nD τ).loc main_v30_1) := (dat0 (Uv1 m) c).arrAt 6 cfg0.N
theorem o2_6_eq (c : Dev nD) : o2_6 m c = (dat0 (Uv1 m) c).arrAt 6 cfg0.N := by unfold o2_6; rfl
/-- What region 0 leaves in its output window 7's array. -/
@[irreducible] def o2_7 (c : Dev nD) : Buf (Elt F) ((c : Thread nD τ).loc main_v30_2) := (dat0 (Uv1 m) c).arrAt 7 cfg0.N
theorem o2_7_eq (c : Dev nD) : o2_7 m c = (dat0 (Uv1 m) c).arrAt 7 cfg0.N := by unfold o2_7; rfl
def U2 (c : Dev nD) : Valuation τ sig (Elt F) :=
  (Function.update (Function.update (Function.update (U1 m c) main_v30_0 (o2_5 m c)) main_v30_1 (o2_6 m c)) main_v30_2 (o2_7 m c))
abbrev Uv2 : VT F := fun c b => U2 m c b
def U3 (c : Dev nD) : Valuation τ sig (Elt F) := StableHlo.after hostOps1 (U2 m c)
abbrev Uv3 : VT F := fun c b => U3 m c b
/-- What region 1 leaves in its output window 5's array. -/
@[irreducible] def o4_5 (c : Dev nD) : Buf (Elt F) ((c : Thread nD τ).loc main_v47) := (dat1 (Uv3 m) c).arrAt 5 cfg1.N
theorem o4_5_eq (c : Dev nD) : o4_5 m c = (dat1 (Uv3 m) c).arrAt 5 cfg1.N := by unfold o4_5; rfl
def U4 (c : Dev nD) : Valuation τ sig (Elt F) :=
  (Function.update (U3 m c) main_v47 (o4_5 m c))
abbrev Uv4 : VT F := fun c b => U4 m c b
def U5 (c : Dev nD) : Valuation τ sig (Elt F) := StableHlo.after hostOps2 (U4 m c)
abbrev Uv5 : VT F := fun c b => U5 m c b
/-- What region 2 leaves in its output window 5's array. -/
@[irreducible] def o6_5 (c : Dev nD) : Buf (Elt F) ((c : Thread nD τ).loc main_v74_0) := (dat2 (Uv5 m) c).arrAt 5 cfg2.N
theorem o6_5_eq (c : Dev nD) : o6_5 m c = (dat2 (Uv5 m) c).arrAt 5 cfg2.N := by unfold o6_5; rfl
/-- What region 2 leaves in its output window 6's array. -/
@[irreducible] def o6_6 (c : Dev nD) : Buf (Elt F) ((c : Thread nD τ).loc main_v74_1) := (dat2 (Uv5 m) c).arrAt 6 cfg2.N
theorem o6_6_eq (c : Dev nD) : o6_6 m c = (dat2 (Uv5 m) c).arrAt 6 cfg2.N := by unfold o6_6; rfl
/-- What region 2 leaves in its output window 7's array. -/
@[irreducible] def o6_7 (c : Dev nD) : Buf (Elt F) ((c : Thread nD τ).loc main_v74_2) := (dat2 (Uv5 m) c).arrAt 7 cfg2.N
theorem o6_7_eq (c : Dev nD) : o6_7 m c = (dat2 (Uv5 m) c).arrAt 7 cfg2.N := by unfold o6_7; rfl
def U6 (c : Dev nD) : Valuation τ sig (Elt F) :=
  (Function.update (Function.update (Function.update (U5 m c) main_v74_0 (o6_5 m c)) main_v74_1 (o6_6 m c)) main_v74_2 (o6_7 m c))
abbrev Uv6 : VT F := fun c b => U6 m c b
def U7 (c : Dev nD) : Valuation τ sig (Elt F) := StableHlo.after hostOps3 (U6 m c)
abbrev Uv7 : VT F := fun c b => U7 m c b
/-- What region 3 leaves in its output window 5's array. -/
@[irreducible] def o8_5 (c : Dev nD) : Buf (Elt F) ((c : Thread nD τ).loc main_v91) := (dat3 (Uv7 m) c).arrAt 5 cfg3.N
theorem o8_5_eq (c : Dev nD) : o8_5 m c = (dat3 (Uv7 m) c).arrAt 5 cfg3.N := by unfold o8_5; rfl
def U8 (c : Dev nD) : Valuation τ sig (Elt F) :=
  (Function.update (U7 m c) main_v91 (o8_5 m c))
abbrev Uv8 : VT F := fun c b => U8 m c b
def U9 (c : Dev nD) : Valuation τ sig (Elt F) := StableHlo.after hostOps4 (U8 m c)
abbrev Uv9 : VT F := fun c b => U9 m c b
/-- What region 4 leaves in its output window 5's array. -/
@[irreducible] def o10_5 (c : Dev nD) : Buf (Elt F) ((c : Thread nD τ).loc main_v118_0) := (dat4 (Uv9 m) c).arrAt 5 cfg4.N
theorem o10_5_eq (c : Dev nD) : o10_5 m c = (dat4 (Uv9 m) c).arrAt 5 cfg4.N := by unfold o10_5; rfl
/-- What region 4 leaves in its output window 6's array. -/
@[irreducible] def o10_6 (c : Dev nD) : Buf (Elt F) ((c : Thread nD τ).loc main_v118_1) := (dat4 (Uv9 m) c).arrAt 6 cfg4.N
theorem o10_6_eq (c : Dev nD) : o10_6 m c = (dat4 (Uv9 m) c).arrAt 6 cfg4.N := by unfold o10_6; rfl
/-- What region 4 leaves in its output window 7's array. -/
@[irreducible] def o10_7 (c : Dev nD) : Buf (Elt F) ((c : Thread nD τ).loc main_v118_2) := (dat4 (Uv9 m) c).arrAt 7 cfg4.N
theorem o10_7_eq (c : Dev nD) : o10_7 m c = (dat4 (Uv9 m) c).arrAt 7 cfg4.N := by unfold o10_7; rfl
def U10 (c : Dev nD) : Valuation τ sig (Elt F) :=
  (Function.update (Function.update (Function.update (U9 m c) main_v118_0 (o10_5 m c)) main_v118_1 (o10_6 m c)) main_v118_2 (o10_7 m c))
abbrev Uv10 : VT F := fun c b => U10 m c b
def U11 (c : Dev nD) : Valuation τ sig (Elt F) := StableHlo.after hostOps5 (U10 m c)
abbrev Uv11 : VT F := fun c b => U11 m c b
/-- What region 5 leaves in its output window 5's array. -/
@[irreducible] def o12_5 (c : Dev nD) : Buf (Elt F) ((c : Thread nD τ).loc main_v135) := (dat5 (Uv11 m) c).arrAt 5 cfg5.N
theorem o12_5_eq (c : Dev nD) : o12_5 m c = (dat5 (Uv11 m) c).arrAt 5 cfg5.N := by unfold o12_5; rfl
def U12 (c : Dev nD) : Valuation τ sig (Elt F) :=
  (Function.update (U11 m c) main_v135 (o12_5 m c))
abbrev Uv12 : VT F := fun c b => U12 m c b
def U13 (c : Dev nD) : Valuation τ sig (Elt F) := StableHlo.after hostOps6 (U12 m c)
abbrev Uv13 : VT F := fun c b => U13 m c b
/-- What region 6 leaves in its output window 5's array. -/
@[irreducible] def o14_5 (c : Dev nD) : Buf (Elt F) ((c : Thread nD τ).loc main_v162_0) := (dat6 (Uv13 m) c).arrAt 5 cfg6.N
theorem o14_5_eq (c : Dev nD) : o14_5 m c = (dat6 (Uv13 m) c).arrAt 5 cfg6.N := by unfold o14_5; rfl
/-- What region 6 leaves in its output window 6's array. -/
@[irreducible] def o14_6 (c : Dev nD) : Buf (Elt F) ((c : Thread nD τ).loc main_v162_1) := (dat6 (Uv13 m) c).arrAt 6 cfg6.N
theorem o14_6_eq (c : Dev nD) : o14_6 m c = (dat6 (Uv13 m) c).arrAt 6 cfg6.N := by unfold o14_6; rfl
/-- What region 6 leaves in its output window 7's array. -/
@[irreducible] def o14_7 (c : Dev nD) : Buf (Elt F) ((c : Thread nD τ).loc main_v162_2) := (dat6 (Uv13 m) c).arrAt 7 cfg6.N
theorem o14_7_eq (c : Dev nD) : o14_7 m c = (dat6 (Uv13 m) c).arrAt 7 cfg6.N := by unfold o14_7; rfl
def U14 (c : Dev nD) : Valuation τ sig (Elt F) :=
  (Function.update (Function.update (Function.update (U13 m c) main_v162_0 (o14_5 m c)) main_v162_1 (o14_6 m c)) main_v162_2 (o14_7 m c))
abbrev Uv14 : VT F := fun c b => U14 m c b
def U15 (c : Dev nD) : Valuation τ sig (Elt F) := StableHlo.after hostOps7 (U14 m c)
abbrev Uv15 : VT F := fun c b => U15 m c b
/-- What region 7 leaves in its output window 5's array. -/
@[irreducible] def o16_5 (c : Dev nD) : Buf (Elt F) ((c : Thread nD τ).loc main_v179) := (dat7 (Uv15 m) c).arrAt 5 cfg7.N
theorem o16_5_eq (c : Dev nD) : o16_5 m c = (dat7 (Uv15 m) c).arrAt 5 cfg7.N := by unfold o16_5; rfl
def U16 (c : Dev nD) : Valuation τ sig (Elt F) :=
  (Function.update (U15 m c) main_v179 (o16_5 m c))
abbrev Uv16 : VT F := fun c b => U16 m c b
def U17 (c : Dev nD) : Valuation τ sig (Elt F) := StableHlo.after hostOps8 (U16 m c)
abbrev Uv17 : VT F := fun c b => U17 m c b
/-- What region 8 leaves in its output window 9's array. -/
@[irreducible] def o18_9 (c : Dev nD) : Buf (Elt F) ((c : Thread nD τ).loc main_v196) := (dat8 (Uv17 m) c).arrAt 9 cfg8.N
theorem o18_9_eq (c : Dev nD) : o18_9 m c = (dat8 (Uv17 m) c).arrAt 9 cfg8.N := by unfold o18_9; rfl
def U18 (c : Dev nD) : Valuation τ sig (Elt F) :=
  (Function.update (U17 m c) main_v196 (o18_9 m c))
abbrev Uv18 : VT F := fun c b => U18 m c b
def U19 (c : Dev nD) : Valuation τ sig (Elt F) := StableHlo.after hostOps9 (U18 m c)
abbrev Uv19 : VT F := fun c b => U19 m c b
/-- What region 9 leaves in its output window 7's array. -/
@[irreducible] def o20_7 (c : Dev nD) : Buf (Elt F) ((c : Thread nD τ).loc main_v219) := (dat9 (Uv19 m) c).arrAt 7 cfg9.N
theorem o20_7_eq (c : Dev nD) : o20_7 m c = (dat9 (Uv19 m) c).arrAt 7 cfg9.N := by unfold o20_7; rfl
def U20 (c : Dev nD) : Valuation τ sig (Elt F) :=
  (Function.update (U19 m c) main_v219 (o20_7 m c))
abbrev Uv20 : VT F := fun c b => U20 m c b
def U21 (c : Dev nD) : Valuation τ sig (Elt F) := StableHlo.after hostOps10 (U20 m c)
abbrev Uv21 : VT F := fun c b => U21 m c b

/-! ## What each item leaves unchanged -/

/-- A buffer a host stretch does not write holds after it what it held before. -/
theorem hkeepH0 (c : Dev nD) (r : Ref sig .tc) (h : r ∉ hostOps0_W) : U1 m c r = V0 m c r := by
  unfold U1; exact StableHlo.after_of_writes_sub hostOps0 _ hostOps0_writes h
theorem hkeepH1 (c : Dev nD) (r : Ref sig .tc) (h : r ∉ hostOps1_W) : U3 m c r = U2 m c r := by
  unfold U3; exact StableHlo.after_of_writes_sub hostOps1 _ hostOps1_writes h
theorem hkeepH2 (c : Dev nD) (r : Ref sig .tc) (h : r ∉ hostOps2_W) : U5 m c r = U4 m c r := by
  unfold U5; exact StableHlo.after_of_writes_sub hostOps2 _ hostOps2_writes h
theorem hkeepH3 (c : Dev nD) (r : Ref sig .tc) (h : r ∉ hostOps3_W) : U7 m c r = U6 m c r := by
  unfold U7; exact StableHlo.after_of_writes_sub hostOps3 _ hostOps3_writes h
theorem hkeepH4 (c : Dev nD) (r : Ref sig .tc) (h : r ∉ hostOps4_W) : U9 m c r = U8 m c r := by
  unfold U9; exact StableHlo.after_of_writes_sub hostOps4 _ hostOps4_writes h
theorem hkeepH5 (c : Dev nD) (r : Ref sig .tc) (h : r ∉ hostOps5_W) : U11 m c r = U10 m c r := by
  unfold U11; exact StableHlo.after_of_writes_sub hostOps5 _ hostOps5_writes h
theorem hkeepH6 (c : Dev nD) (r : Ref sig .tc) (h : r ∉ hostOps6_W) : U13 m c r = U12 m c r := by
  unfold U13; exact StableHlo.after_of_writes_sub hostOps6 _ hostOps6_writes h
theorem hkeepH7 (c : Dev nD) (r : Ref sig .tc) (h : r ∉ hostOps7_W) : U15 m c r = U14 m c r := by
  unfold U15; exact StableHlo.after_of_writes_sub hostOps7 _ hostOps7_writes h
theorem hkeepH8 (c : Dev nD) (r : Ref sig .tc) (h : r ∉ hostOps8_W) : U17 m c r = U16 m c r := by
  unfold U17; exact StableHlo.after_of_writes_sub hostOps8 _ hostOps8_writes h
theorem hkeepH9 (c : Dev nD) (r : Ref sig .tc) (h : r ∉ hostOps9_W) : U19 m c r = U18 m c r := by
  unfold U19; exact StableHlo.after_of_writes_sub hostOps9 _ hostOps9_writes h
theorem hkeepH10 (c : Dev nD) (r : Ref sig .tc) (h : r ∉ hostOps10_W) : U21 m c r = U20 m c r := by
  unfold U21; exact StableHlo.after_of_writes_sub hostOps10 _ hostOps10_writes h
/-- A buffer region 0 may not change holds at its exit what it held at its entry. -/
theorem hkeep0 (c : Dev nD) (r : Ref sig .tc) (h : r ∉ ([main_v30_0, main_v30_1, main_v30_2] : List (Ref sig .tc))) : U2 m c r = U1 m c r := by
  unfold U2
  rw [Function.update_of_ne (StableHlo.devRef_ne_of_ne (List.ne_of_not_mem_cons (List.not_mem_of_not_mem_cons (List.not_mem_of_not_mem_cons h))) : (Proc.devRef .tc r : DevRef τ sig) ≠ Proc.devRef .tc main_v30_2),
    Function.update_of_ne (StableHlo.devRef_ne_of_ne (List.ne_of_not_mem_cons (List.not_mem_of_not_mem_cons h)) : (Proc.devRef .tc r : DevRef τ sig) ≠ Proc.devRef .tc main_v30_1),
    Function.update_of_ne (StableHlo.devRef_ne_of_ne (List.ne_of_not_mem_cons h) : (Proc.devRef .tc r : DevRef τ sig) ≠ Proc.devRef .tc main_v30_0)]
/-- A buffer region 1 may not change holds at its exit what it held at its entry. -/
theorem hkeep1 (c : Dev nD) (r : Ref sig .tc) (h : r ∉ ([main_v47] : List (Ref sig .tc))) : U4 m c r = U3 m c r := by
  unfold U4
  rw [Function.update_of_ne (StableHlo.devRef_ne_of_ne (List.ne_of_not_mem_cons h) : (Proc.devRef .tc r : DevRef τ sig) ≠ Proc.devRef .tc main_v47)]
/-- A buffer region 2 may not change holds at its exit what it held at its entry. -/
theorem hkeep2 (c : Dev nD) (r : Ref sig .tc) (h : r ∉ ([main_v74_0, main_v74_1, main_v74_2] : List (Ref sig .tc))) : U6 m c r = U5 m c r := by
  unfold U6
  rw [Function.update_of_ne (StableHlo.devRef_ne_of_ne (List.ne_of_not_mem_cons (List.not_mem_of_not_mem_cons (List.not_mem_of_not_mem_cons h))) : (Proc.devRef .tc r : DevRef τ sig) ≠ Proc.devRef .tc main_v74_2),
    Function.update_of_ne (StableHlo.devRef_ne_of_ne (List.ne_of_not_mem_cons (List.not_mem_of_not_mem_cons h)) : (Proc.devRef .tc r : DevRef τ sig) ≠ Proc.devRef .tc main_v74_1),
    Function.update_of_ne (StableHlo.devRef_ne_of_ne (List.ne_of_not_mem_cons h) : (Proc.devRef .tc r : DevRef τ sig) ≠ Proc.devRef .tc main_v74_0)]
/-- A buffer region 3 may not change holds at its exit what it held at its entry. -/
theorem hkeep3 (c : Dev nD) (r : Ref sig .tc) (h : r ∉ ([main_v91] : List (Ref sig .tc))) : U8 m c r = U7 m c r := by
  unfold U8
  rw [Function.update_of_ne (StableHlo.devRef_ne_of_ne (List.ne_of_not_mem_cons h) : (Proc.devRef .tc r : DevRef τ sig) ≠ Proc.devRef .tc main_v91)]
/-- A buffer region 4 may not change holds at its exit what it held at its entry. -/
theorem hkeep4 (c : Dev nD) (r : Ref sig .tc) (h : r ∉ ([main_v118_0, main_v118_1, main_v118_2] : List (Ref sig .tc))) : U10 m c r = U9 m c r := by
  unfold U10
  rw [Function.update_of_ne (StableHlo.devRef_ne_of_ne (List.ne_of_not_mem_cons (List.not_mem_of_not_mem_cons (List.not_mem_of_not_mem_cons h))) : (Proc.devRef .tc r : DevRef τ sig) ≠ Proc.devRef .tc main_v118_2),
    Function.update_of_ne (StableHlo.devRef_ne_of_ne (List.ne_of_not_mem_cons (List.not_mem_of_not_mem_cons h)) : (Proc.devRef .tc r : DevRef τ sig) ≠ Proc.devRef .tc main_v118_1),
    Function.update_of_ne (StableHlo.devRef_ne_of_ne (List.ne_of_not_mem_cons h) : (Proc.devRef .tc r : DevRef τ sig) ≠ Proc.devRef .tc main_v118_0)]
/-- A buffer region 5 may not change holds at its exit what it held at its entry. -/
theorem hkeep5 (c : Dev nD) (r : Ref sig .tc) (h : r ∉ ([main_v135] : List (Ref sig .tc))) : U12 m c r = U11 m c r := by
  unfold U12
  rw [Function.update_of_ne (StableHlo.devRef_ne_of_ne (List.ne_of_not_mem_cons h) : (Proc.devRef .tc r : DevRef τ sig) ≠ Proc.devRef .tc main_v135)]
/-- A buffer region 6 may not change holds at its exit what it held at its entry. -/
theorem hkeep6 (c : Dev nD) (r : Ref sig .tc) (h : r ∉ ([main_v162_0, main_v162_1, main_v162_2] : List (Ref sig .tc))) : U14 m c r = U13 m c r := by
  unfold U14
  rw [Function.update_of_ne (StableHlo.devRef_ne_of_ne (List.ne_of_not_mem_cons (List.not_mem_of_not_mem_cons (List.not_mem_of_not_mem_cons h))) : (Proc.devRef .tc r : DevRef τ sig) ≠ Proc.devRef .tc main_v162_2),
    Function.update_of_ne (StableHlo.devRef_ne_of_ne (List.ne_of_not_mem_cons (List.not_mem_of_not_mem_cons h)) : (Proc.devRef .tc r : DevRef τ sig) ≠ Proc.devRef .tc main_v162_1),
    Function.update_of_ne (StableHlo.devRef_ne_of_ne (List.ne_of_not_mem_cons h) : (Proc.devRef .tc r : DevRef τ sig) ≠ Proc.devRef .tc main_v162_0)]
/-- A buffer region 7 may not change holds at its exit what it held at its entry. -/
theorem hkeep7 (c : Dev nD) (r : Ref sig .tc) (h : r ∉ ([main_v179] : List (Ref sig .tc))) : U16 m c r = U15 m c r := by
  unfold U16
  rw [Function.update_of_ne (StableHlo.devRef_ne_of_ne (List.ne_of_not_mem_cons h) : (Proc.devRef .tc r : DevRef τ sig) ≠ Proc.devRef .tc main_v179)]
/-- A buffer region 8 may not change holds at its exit what it held at its entry. -/
theorem hkeep8 (c : Dev nD) (r : Ref sig .tc) (h : r ∉ ([main_v196] : List (Ref sig .tc))) : U18 m c r = U17 m c r := by
  unfold U18
  rw [Function.update_of_ne (StableHlo.devRef_ne_of_ne (List.ne_of_not_mem_cons h) : (Proc.devRef .tc r : DevRef τ sig) ≠ Proc.devRef .tc main_v196)]
/-- A buffer region 9 may not change holds at its exit what it held at its entry. -/
theorem hkeep9 (c : Dev nD) (r : Ref sig .tc) (h : r ∉ ([main_v219] : List (Ref sig .tc))) : U20 m c r = U19 m c r := by
  unfold U20
  rw [Function.update_of_ne (StableHlo.devRef_ne_of_ne (List.ne_of_not_mem_cons h) : (Proc.devRef .tc r : DevRef τ sig) ≠ Proc.devRef .tc main_v219)]

/-! ## The proof data family and the thread state -/

/-- Every pipeline's proof data, each at its region's entry contents. -/
def pdats : (p : Fin 10) → (c : Dev nD) → Dat τ (Elt F) Unit ℕ (Pipeline.UD sig nD τ) ℕ (cfgs p) c
  | ⟨0, _⟩ => fun c => dat0 (Uv1 m) c
  | ⟨1, _⟩ => fun c => dat1 (Uv3 m) c
  | ⟨2, _⟩ => fun c => dat2 (Uv5 m) c
  | ⟨3, _⟩ => fun c => dat3 (Uv7 m) c
  | ⟨4, _⟩ => fun c => dat4 (Uv9 m) c
  | ⟨5, _⟩ => fun c => dat5 (Uv11 m) c
  | ⟨6, _⟩ => fun c => dat6 (Uv13 m) c
  | ⟨7, _⟩ => fun c => dat7 (Uv15 m) c
  | ⟨8, _⟩ => fun c => dat8 (Uv17 m) c
  | ⟨9, _⟩ => fun c => dat9 (Uv19 m) c

abbrev L₀ : GSem nD τ sig → Finset Unit := fun _ => ∅
abbrev lv₀ : GSem nD τ sig → Unit → ℕ := fun _ _ => 0
/-- What rides beside the buffers through every segment: the core's generator register at some state and its dues, at nothing. -/
abbrev Rst (c : Dev nD) : sProp 𝕄 := iprop((∃ r, prngReg c r) ∗ ∃ W, owes (c : Thread nD τ) (0 : CellTallies nD τ sig Unit) W)

end Cert.Kernel.Hand

end
-- ==== Proof.K.Asm.R0.lean ====
/- Region 0 of the kernel program as a segment of the run of @main. -/
import proofs.«118347_j18940805776024_1_alg».proof.Proof.K.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

-- the accumulators' point-by-point contents are never opened here
attribute [local irreducible] outsAt0 PhiS0

/-- At region 0's exit each of its windows' arrays holds what the pipeline leaves there: an input's its entry contents, an output's its write-backs. -/
theorem hF0 (c : Dev nD) (w : Fin cfg0.W) : (dat0 (Uv1 m) c).arrAt w cfg0.N = Uv2 m c (Pipeline.arrRef spec0 w) := by
  obtain ⟨i, hi⟩ := w
  have hi' : i < 8 := hi
  interval_cases i
  · exact ((dat0 (Uv1 m) c).arrAt_in _ rfl _).trans ((A_eq0 (Uv1 m) c _).trans (hkeep0 m c _ (show Pipeline.arrRef spec0 (⟨0, by decide⟩ : Fin cfg0.W) ∉ ([main_v30_0, main_v30_1, main_v30_2] : List (Ref sig .tc)) from by decide)).symm)
  · exact ((dat0 (Uv1 m) c).arrAt_in _ rfl _).trans ((A_eq0 (Uv1 m) c _).trans (hkeep0 m c _ (show Pipeline.arrRef spec0 (⟨1, by decide⟩ : Fin cfg0.W) ∉ ([main_v30_0, main_v30_1, main_v30_2] : List (Ref sig .tc)) from by decide)).symm)
  · exact ((dat0 (Uv1 m) c).arrAt_in _ rfl _).trans ((A_eq0 (Uv1 m) c _).trans (hkeep0 m c _ (show Pipeline.arrRef spec0 (⟨2, by decide⟩ : Fin cfg0.W) ∉ ([main_v30_0, main_v30_1, main_v30_2] : List (Ref sig .tc)) from by decide)).symm)
  · exact ((dat0 (Uv1 m) c).arrAt_in _ rfl _).trans ((A_eq0 (Uv1 m) c _).trans (hkeep0 m c _ (show Pipeline.arrRef spec0 (⟨3, by decide⟩ : Fin cfg0.W) ∉ ([main_v30_0, main_v30_1, main_v30_2] : List (Ref sig .tc)) from by decide)).symm)
  · exact ((dat0 (Uv1 m) c).arrAt_in _ rfl _).trans ((A_eq0 (Uv1 m) c _).trans (hkeep0 m c _ (show Pipeline.arrRef spec0 (⟨4, by decide⟩ : Fin cfg0.W) ∉ ([main_v30_0, main_v30_1, main_v30_2] : List (Ref sig .tc)) from by decide)).symm)
  · show _ = U2 m c main_v30_0
    unfold U2; rw [Function.update_of_ne (by decide), Function.update_of_ne (by decide), Function.update_self, o2_5_eq]; rfl
  · show _ = U2 m c main_v30_1
    unfold U2; rw [Function.update_of_ne (by decide), Function.update_self, o2_6_eq]; rfl
  · show _ = U2 m c main_v30_2
    unfold U2; rw [Function.update_self, o2_7_eq]; rfl
theorem hrest0 (c : Dev nD) : ∀ b, b ∉ Finset.univ.image (Pipeline.arrRef spec0) → Uv2 m c b = Uv1 m c b := fun b hb => by
  refine hkeep0 m c b fun hmem => hb ?_
  simp only [List.mem_cons, List.not_mem_nil, or_false] at hmem
  rcases hmem with rfl | rfl | rfl
  · exact Finset.mem_image.mpr ⟨5, Finset.mem_univ _, rfl⟩
  · exact Finset.mem_image.mpr ⟨6, Finset.mem_univ _, rfl⟩
  · exact Finset.mem_image.mpr ⟨7, Finset.mem_univ _, rfl⟩

set_option backward.isDefEq.respectTransparency.types false in
/-- REGION 0 over the thread state: entered from every unscoped buffer at boundary 1's contents, left at boundary 2's. Its
    arrays are split out of the unscoped buffers and put back at the exit contents; the generator register and the scoped
    buffers no window stages go into the pipeline's invariant and come back; nothing owed; no semaphore of the kernel's own. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (Uv1 m) c).loose
  hwaits := Pipeline.hwaits_of_owed_zero _ _ _ _ L₀ lv₀ 0 fun _ _ => rfl
  pre c := iprop(StableHlo.held (c : Thread nD τ) (Pipeline.ucRefs τ sig) (U1 m c) ∗ Rst c)
  post c := iprop(StableHlo.held (c : Thread nD τ) (Pipeline.ucRefs τ sig) (U2 m c) ∗ Rst c)
  X c := iprop(∃ r, prngReg c r)
  Y c := iprop(∃ r, prngReg c r)
  Z c := Pipeline.unscopedRest (Ix := Unit) (Name := ℕ) (U := Pipeline.UD sig nD τ) (Lvl := ℕ) spec0 c (Uv1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Uv1 m c) fun w => A_eq0 (Uv1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Uv1 m) c).Φ 0 from rfl]
    iintro ⟨Hp, -, Hr⟩
    iapply (Phi0_in (Uv1 m) c)
    isplitl [Hp]; · iexact Hp
    iexact Hr
  hout c := by
    rw [Pipeline.ownSems0_none, show (pdats m 0 c).Φ (Fin.last _) = (dat0 (Uv1 m) c).Φ (Fin.last _) from rfl]
    iintro H
    ihave H' := (Phi0_out (Uv1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Uv1 m c) (Uv2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Asm.R1.lean ====
/- Region 1 of the kernel program as a segment of the run of @main. -/
import proofs.«118347_j18940805776024_1_alg».proof.Proof.K.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- At region 1's exit each of its windows' arrays holds what the pipeline leaves there: an input's its entry contents, an output's its write-backs. -/
theorem hF1 (c : Dev nD) (w : Fin cfg1.W) : (dat1 (Uv3 m) c).arrAt w cfg1.N = Uv4 m c (Pipeline.arrRef spec1 w) := by
  obtain ⟨i, hi⟩ := w
  have hi' : i < 6 := hi
  interval_cases i
  · exact ((dat1 (Uv3 m) c).arrAt_in _ rfl _).trans ((A_eq1 (Uv3 m) c _).trans (hkeep1 m c _ (show Pipeline.arrRef spec1 (⟨0, by decide⟩ : Fin cfg1.W) ∉ ([main_v47] : List (Ref sig .tc)) from by decide)).symm)
  · exact ((dat1 (Uv3 m) c).arrAt_in _ rfl _).trans ((A_eq1 (Uv3 m) c _).trans (hkeep1 m c _ (show Pipeline.arrRef spec1 (⟨1, by decide⟩ : Fin cfg1.W) ∉ ([main_v47] : List (Ref sig .tc)) from by decide)).symm)
  · exact ((dat1 (Uv3 m) c).arrAt_in _ rfl _).trans ((A_eq1 (Uv3 m) c _).trans (hkeep1 m c _ (show Pipeline.arrRef spec1 (⟨2, by decide⟩ : Fin cfg1.W) ∉ ([main_v47] : List (Ref sig .tc)) from by decide)).symm)
  · exact ((dat1 (Uv3 m) c).arrAt_in _ rfl _).trans ((A_eq1 (Uv3 m) c _).trans (hkeep1 m c _ (show Pipeline.arrRef spec1 (⟨3, by decide⟩ : Fin cfg1.W) ∉ ([main_v47] : List (Ref sig .tc)) from by decide)).symm)
  · exact ((dat1 (Uv3 m) c).arrAt_in _ rfl _).trans ((A_eq1 (Uv3 m) c _).trans (hkeep1 m c _ (show Pipeline.arrRef spec1 (⟨4, by decide⟩ : Fin cfg1.W) ∉ ([main_v47] : List (Ref sig .tc)) from by decide)).symm)
  · show _ = U4 m c main_v47
    unfold U4; rw [Function.update_self, o4_5_eq]; rfl
theorem hrest1 (c : Dev nD) : ∀ b, b ∉ Finset.univ.image (Pipeline.arrRef spec1) → Uv4 m c b = Uv3 m c b := fun b hb => by
  refine hkeep1 m c b fun hmem => hb ?_
  simp only [List.mem_cons, List.not_mem_nil, or_false] at hmem
  rcases hmem with rfl
  · exact Finset.mem_image.mpr ⟨5, Finset.mem_univ _, rfl⟩

set_option backward.isDefEq.respectTransparency.types false in
/-- REGION 1 over the thread state: entered from every unscoped buffer at boundary 3's contents, left at boundary 4's. Its
    arrays are split out of the unscoped buffers and put back at the exit contents; the generator register and the scoped
    buffers no window stages go into the pipeline's invariant and come back; nothing owed; no semaphore of the kernel's own. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (Uv3 m) c).loose
  hwaits := Pipeline.hwaits_of_owed_zero _ _ _ _ L₀ lv₀ 1 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := Pipeline.UD sig nD τ) (Lvl := ℕ) spec1 c (Uv3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Uv3 m c) fun w => A_eq1 (Uv3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Uv3 m) c).Φ 0 from rfl]
    iintro ⟨Hp, -, Hr⟩
    iapply (Phi1_in (Uv3 m) c)
    isplitl [Hp]; · iexact Hp
    iexact Hr
  hout c := by
    rw [Pipeline.ownSems0_none, show (pdats m 1 c).Φ (Fin.last _) = (dat1 (Uv3 m) c).Φ (Fin.last _) from rfl]
    iintro H
    ihave H' := (Phi1_out (Uv3 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Uv3 m c) (Uv4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Asm.R2.lean ====
/- Region 2 of the kernel program as a segment of the run of @main. -/
import proofs.«118347_j18940805776024_1_alg».proof.Proof.K.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

-- the accumulators' point-by-point contents are never opened here
attribute [local irreducible] outsAt2 PhiS2

/-- At region 2's exit each of its windows' arrays holds what the pipeline leaves there: an input's its entry contents, an output's its write-backs. -/
theorem hF2 (c : Dev nD) (w : Fin cfg2.W) : (dat2 (Uv5 m) c).arrAt w cfg2.N = Uv6 m c (Pipeline.arrRef spec2 w) := by
  obtain ⟨i, hi⟩ := w
  have hi' : i < 8 := hi
  interval_cases i
  · exact ((dat2 (Uv5 m) c).arrAt_in _ rfl _).trans ((A_eq2 (Uv5 m) c _).trans (hkeep2 m c _ (show Pipeline.arrRef spec2 (⟨0, by decide⟩ : Fin cfg2.W) ∉ ([main_v74_0, main_v74_1, main_v74_2] : List (Ref sig .tc)) from by decide)).symm)
  · exact ((dat2 (Uv5 m) c).arrAt_in _ rfl _).trans ((A_eq2 (Uv5 m) c _).trans (hkeep2 m c _ (show Pipeline.arrRef spec2 (⟨1, by decide⟩ : Fin cfg2.W) ∉ ([main_v74_0, main_v74_1, main_v74_2] : List (Ref sig .tc)) from by decide)).symm)
  · exact ((dat2 (Uv5 m) c).arrAt_in _ rfl _).trans ((A_eq2 (Uv5 m) c _).trans (hkeep2 m c _ (show Pipeline.arrRef spec2 (⟨2, by decide⟩ : Fin cfg2.W) ∉ ([main_v74_0, main_v74_1, main_v74_2] : List (Ref sig .tc)) from by decide)).symm)
  · exact ((dat2 (Uv5 m) c).arrAt_in _ rfl _).trans ((A_eq2 (Uv5 m) c _).trans (hkeep2 m c _ (show Pipeline.arrRef spec2 (⟨3, by decide⟩ : Fin cfg2.W) ∉ ([main_v74_0, main_v74_1, main_v74_2] : List (Ref sig .tc)) from by decide)).symm)
  · exact ((dat2 (Uv5 m) c).arrAt_in _ rfl _).trans ((A_eq2 (Uv5 m) c _).trans (hkeep2 m c _ (show Pipeline.arrRef spec2 (⟨4, by decide⟩ : Fin cfg2.W) ∉ ([main_v74_0, main_v74_1, main_v74_2] : List (Ref sig .tc)) from by decide)).symm)
  · show _ = U6 m c main_v74_0
    unfold U6; rw [Function.update_of_ne (by decide), Function.update_of_ne (by decide), Function.update_self, o6_5_eq]; rfl
  · show _ = U6 m c main_v74_1
    unfold U6; rw [Function.update_of_ne (by decide), Function.update_self, o6_6_eq]; rfl
  · show _ = U6 m c main_v74_2
    unfold U6; rw [Function.update_self, o6_7_eq]; rfl
theorem hrest2 (c : Dev nD) : ∀ b, b ∉ Finset.univ.image (Pipeline.arrRef spec2) → Uv6 m c b = Uv5 m c b := fun b hb => by
  refine hkeep2 m c b fun hmem => hb ?_
  simp only [List.mem_cons, List.not_mem_nil, or_false] at hmem
  rcases hmem with rfl | rfl | rfl
  · exact Finset.mem_image.mpr ⟨5, Finset.mem_univ _, rfl⟩
  · exact Finset.mem_image.mpr ⟨6, Finset.mem_univ _, rfl⟩
  · exact Finset.mem_image.mpr ⟨7, Finset.mem_univ _, rfl⟩

set_option backward.isDefEq.respectTransparency.types false in
/-- REGION 2 over the thread state: entered from every unscoped buffer at boundary 5's contents, left at boundary 6's. Its
    arrays are split out of the unscoped buffers and put back at the exit contents; the generator register and the scoped
    buffers no window stages go into the pipeline's invariant and come back; nothing owed; no semaphore of the kernel's own. -/
def reg2 : Pipeline.RegionSeg (pcfgs (F := F)) adm (pdats m) () defs₀ Variants.none L₀ lv₀ 2 where
  win := launch2.win.to₀
  block_pos := launch2.block_pos
  stage_whole := launch2.stage_whole
  K := PEmpty
  osem k := k.elim
  ho := Pipeline.OwnSemFacts.none _
  hbody c := (body_obligation2 (Uv5 m) c).loose
  hwaits := Pipeline.hwaits_of_owed_zero _ _ _ _ L₀ lv₀ 2 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := Pipeline.UD sig nD τ) (Lvl := ℕ) spec2 c (Uv5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Uv5 m c) fun w => A_eq2 (Uv5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Uv5 m) c).Φ 0 from rfl]
    iintro ⟨Hp, -, Hr⟩
    iapply (Phi2_in (Uv5 m) c)
    isplitl [Hp]; · iexact Hp
    iexact Hr
  hout c := by
    rw [Pipeline.ownSems0_none, show (pdats m 2 c).Φ (Fin.last _) = (dat2 (Uv5 m) c).Φ (Fin.last _) from rfl]
    iintro H
    ihave H' := (Phi2_out (Uv5 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (Uv5 m c) (Uv6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Asm.R3.lean ====
/- Region 3 of the kernel program as a segment of the run of @main. -/
import proofs.«118347_j18940805776024_1_alg».proof.Proof.K.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- At region 3's exit each of its windows' arrays holds what the pipeline leaves there: an input's its entry contents, an output's its write-backs. -/
theorem hF3 (c : Dev nD) (w : Fin cfg3.W) : (dat3 (Uv7 m) c).arrAt w cfg3.N = Uv8 m c (Pipeline.arrRef spec3 w) := by
  obtain ⟨i, hi⟩ := w
  have hi' : i < 6 := hi
  interval_cases i
  · exact ((dat3 (Uv7 m) c).arrAt_in _ rfl _).trans ((A_eq3 (Uv7 m) c _).trans (hkeep3 m c _ (show Pipeline.arrRef spec3 (⟨0, by decide⟩ : Fin cfg3.W) ∉ ([main_v91] : List (Ref sig .tc)) from by decide)).symm)
  · exact ((dat3 (Uv7 m) c).arrAt_in _ rfl _).trans ((A_eq3 (Uv7 m) c _).trans (hkeep3 m c _ (show Pipeline.arrRef spec3 (⟨1, by decide⟩ : Fin cfg3.W) ∉ ([main_v91] : List (Ref sig .tc)) from by decide)).symm)
  · exact ((dat3 (Uv7 m) c).arrAt_in _ rfl _).trans ((A_eq3 (Uv7 m) c _).trans (hkeep3 m c _ (show Pipeline.arrRef spec3 (⟨2, by decide⟩ : Fin cfg3.W) ∉ ([main_v91] : List (Ref sig .tc)) from by decide)).symm)
  · exact ((dat3 (Uv7 m) c).arrAt_in _ rfl _).trans ((A_eq3 (Uv7 m) c _).trans (hkeep3 m c _ (show Pipeline.arrRef spec3 (⟨3, by decide⟩ : Fin cfg3.W) ∉ ([main_v91] : List (Ref sig .tc)) from by decide)).symm)
  · exact ((dat3 (Uv7 m) c).arrAt_in _ rfl _).trans ((A_eq3 (Uv7 m) c _).trans (hkeep3 m c _ (show Pipeline.arrRef spec3 (⟨4, by decide⟩ : Fin cfg3.W) ∉ ([main_v91] : List (Ref sig .tc)) from by decide)).symm)
  · show _ = U8 m c main_v91
    unfold U8; rw [Function.update_self, o8_5_eq]; rfl
theorem hrest3 (c : Dev nD) : ∀ b, b ∉ Finset.univ.image (Pipeline.arrRef spec3) → Uv8 m c b = Uv7 m c b := fun b hb => by
  refine hkeep3 m c b fun hmem => hb ?_
  simp only [List.mem_cons, List.not_mem_nil, or_false] at hmem
  rcases hmem with rfl
  · exact Finset.mem_image.mpr ⟨5, Finset.mem_univ _, rfl⟩

set_option backward.isDefEq.respectTransparency.types false in
/-- REGION 3 over the thread state: entered from every unscoped buffer at boundary 7's contents, left at boundary 8's. Its
    arrays are split out of the unscoped buffers and put back at the exit contents; the generator register and the scoped
    buffers no window stages go into the pipeline's invariant and come back; nothing owed; no semaphore of the kernel's own. -/
def reg3 : Pipeline.RegionSeg (pcfgs (F := F)) adm (pdats m) () defs₀ Variants.none L₀ lv₀ 3 where
  win := launch3.win.to₀
  block_pos := launch3.block_pos
  stage_whole := launch3.stage_whole
  K := PEmpty
  osem k := k.elim
  ho := Pipeline.OwnSemFacts.none _
  hbody c := (body_obligation3 (Uv7 m) c).loose
  hwaits := Pipeline.hwaits_of_owed_zero _ _ _ _ L₀ lv₀ 3 fun _ _ => rfl
  pre c := iprop(StableHlo.held (c : Thread nD τ) (Pipeline.ucRefs τ sig) (U7 m c) ∗ Rst c)
  post c := iprop(StableHlo.held (c : Thread nD τ) (Pipeline.ucRefs τ sig) (U8 m c) ∗ Rst c)
  X c := iprop(∃ r, prngReg c r)
  Y c := iprop(∃ r, prngReg c r)
  Z c := Pipeline.unscopedRest (Ix := Unit) (Name := ℕ) (U := Pipeline.UD sig nD τ) (Lvl := ℕ) spec3 c (Uv7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Uv7 m c) fun w => A_eq3 (Uv7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Uv7 m) c).Φ 0 from rfl]
    iintro ⟨Hp, -, Hr⟩
    iapply (Phi3_in (Uv7 m) c)
    isplitl [Hp]; · iexact Hp
    iexact Hr
  hout c := by
    rw [Pipeline.ownSems0_none, show (pdats m 3 c).Φ (Fin.last _) = (dat3 (Uv7 m) c).Φ (Fin.last _) from rfl]
    iintro H
    ihave H' := (Phi3_out (Uv7 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (Uv7 m c) (Uv8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Asm.R4.lean ====
/- Region 4 of the kernel program as a segment of the run of @main. -/
import proofs.«118347_j18940805776024_1_alg».proof.Proof.K.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

-- the accumulators' point-by-point contents are never opened here
attribute [local irreducible] outsAt4 PhiS4

/-- At region 4's exit each of its windows' arrays holds what the pipeline leaves there: an input's its entry contents, an output's its write-backs. -/
theorem hF4 (c : Dev nD) (w : Fin cfg4.W) : (dat4 (Uv9 m) c).arrAt w cfg4.N = Uv10 m c (Pipeline.arrRef spec4 w) := by
  obtain ⟨i, hi⟩ := w
  have hi' : i < 8 := hi
  interval_cases i
  · exact ((dat4 (Uv9 m) c).arrAt_in _ rfl _).trans ((A_eq4 (Uv9 m) c _).trans (hkeep4 m c _ (show Pipeline.arrRef spec4 (⟨0, by decide⟩ : Fin cfg4.W) ∉ ([main_v118_0, main_v118_1, main_v118_2] : List (Ref sig .tc)) from by decide)).symm)
  · exact ((dat4 (Uv9 m) c).arrAt_in _ rfl _).trans ((A_eq4 (Uv9 m) c _).trans (hkeep4 m c _ (show Pipeline.arrRef spec4 (⟨1, by decide⟩ : Fin cfg4.W) ∉ ([main_v118_0, main_v118_1, main_v118_2] : List (Ref sig .tc)) from by decide)).symm)
  · exact ((dat4 (Uv9 m) c).arrAt_in _ rfl _).trans ((A_eq4 (Uv9 m) c _).trans (hkeep4 m c _ (show Pipeline.arrRef spec4 (⟨2, by decide⟩ : Fin cfg4.W) ∉ ([main_v118_0, main_v118_1, main_v118_2] : List (Ref sig .tc)) from by decide)).symm)
  · exact ((dat4 (Uv9 m) c).arrAt_in _ rfl _).trans ((A_eq4 (Uv9 m) c _).trans (hkeep4 m c _ (show Pipeline.arrRef spec4 (⟨3, by decide⟩ : Fin cfg4.W) ∉ ([main_v118_0, main_v118_1, main_v118_2] : List (Ref sig .tc)) from by decide)).symm)
  · exact ((dat4 (Uv9 m) c).arrAt_in _ rfl _).trans ((A_eq4 (Uv9 m) c _).trans (hkeep4 m c _ (show Pipeline.arrRef spec4 (⟨4, by decide⟩ : Fin cfg4.W) ∉ ([main_v118_0, main_v118_1, main_v118_2] : List (Ref sig .tc)) from by decide)).symm)
  · show _ = U10 m c main_v118_0
    unfold U10; rw [Function.update_of_ne (by decide), Function.update_of_ne (by decide), Function.update_self, o10_5_eq]; rfl
  · show _ = U10 m c main_v118_1
    unfold U10; rw [Function.update_of_ne (by decide), Function.update_self, o10_6_eq]; rfl
  · show _ = U10 m c main_v118_2
    unfold U10; rw [Function.update_self, o10_7_eq]; rfl
theorem hrest4 (c : Dev nD) : ∀ b, b ∉ Finset.univ.image (Pipeline.arrRef spec4) → Uv10 m c b = Uv9 m c b := fun b hb => by
  refine hkeep4 m c b fun hmem => hb ?_
  simp only [List.mem_cons, List.not_mem_nil, or_false] at hmem
  rcases hmem with rfl | rfl | rfl
  · exact Finset.mem_image.mpr ⟨5, Finset.mem_univ _, rfl⟩
  · exact Finset.mem_image.mpr ⟨6, Finset.mem_univ _, rfl⟩
  · exact Finset.mem_image.mpr ⟨7, Finset.mem_univ _, rfl⟩

set_option backward.isDefEq.respectTransparency.types false in
/-- REGION 4 over the thread state: entered from every unscoped buffer at boundary 9's contents, left at boundary 10's. Its
    arrays are split out of the unscoped buffers and put back at the exit contents; the generator register and the scoped
    buffers no window stages go into the pipeline's invariant and come back; nothing owed; no semaphore of the kernel's own. -/
def reg4 : Pipeline.RegionSeg (pcfgs (F := F)) adm (pdats m) () defs₀ Variants.none L₀ lv₀ 4 where
  win := launch4.win.to₀
  block_pos := launch4.block_pos
  stage_whole := launch4.stage_whole
  K := PEmpty
  osem k := k.elim
  ho := Pipeline.OwnSemFacts.none _
  hbody c := (body_obligation4 (Uv9 m) c).loose
  hwaits := Pipeline.hwaits_of_owed_zero _ _ _ _ L₀ lv₀ 4 fun _ _ => rfl
  pre c := iprop(StableHlo.held (c : Thread nD τ) (Pipeline.ucRefs τ sig) (U9 m c) ∗ Rst c)
  post c := iprop(StableHlo.held (c : Thread nD τ) (Pipeline.ucRefs τ sig) (U10 m c) ∗ Rst c)
  X c := iprop(∃ r, prngReg c r)
  Y c := iprop(∃ r, prngReg c r)
  Z c := Pipeline.unscopedRest (Ix := Unit) (Name := ℕ) (U := Pipeline.UD sig nD τ) (Lvl := ℕ) spec4 c (Uv9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Uv9 m c) fun w => A_eq4 (Uv9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Uv9 m) c).Φ 0 from rfl]
    iintro ⟨Hp, -, Hr⟩
    iapply (Phi4_in (Uv9 m) c)
    isplitl [Hp]; · iexact Hp
    iexact Hr
  hout c := by
    rw [Pipeline.ownSems0_none, show (pdats m 4 c).Φ (Fin.last _) = (dat4 (Uv9 m) c).Φ (Fin.last _) from rfl]
    iintro H
    ihave H' := (Phi4_out (Uv9 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (Uv9 m c) (Uv10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Asm.R5.lean ====
/- Region 5 of the kernel program as a segment of the run of @main. -/
import proofs.«118347_j18940805776024_1_alg».proof.Proof.K.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- At region 5's exit each of its windows' arrays holds what the pipeline leaves there: an input's its entry contents, an output's its write-backs. -/
theorem hF5 (c : Dev nD) (w : Fin cfg5.W) : (dat5 (Uv11 m) c).arrAt w cfg5.N = Uv12 m c (Pipeline.arrRef spec5 w) := by
  obtain ⟨i, hi⟩ := w
  have hi' : i < 6 := hi
  interval_cases i
  · exact ((dat5 (Uv11 m) c).arrAt_in _ rfl _).trans ((A_eq5 (Uv11 m) c _).trans (hkeep5 m c _ (show Pipeline.arrRef spec5 (⟨0, by decide⟩ : Fin cfg5.W) ∉ ([main_v135] : List (Ref sig .tc)) from by decide)).symm)
  · exact ((dat5 (Uv11 m) c).arrAt_in _ rfl _).trans ((A_eq5 (Uv11 m) c _).trans (hkeep5 m c _ (show Pipeline.arrRef spec5 (⟨1, by decide⟩ : Fin cfg5.W) ∉ ([main_v135] : List (Ref sig .tc)) from by decide)).symm)
  · exact ((dat5 (Uv11 m) c).arrAt_in _ rfl _).trans ((A_eq5 (Uv11 m) c _).trans (hkeep5 m c _ (show Pipeline.arrRef spec5 (⟨2, by decide⟩ : Fin cfg5.W) ∉ ([main_v135] : List (Ref sig .tc)) from by decide)).symm)
  · exact ((dat5 (Uv11 m) c).arrAt_in _ rfl _).trans ((A_eq5 (Uv11 m) c _).trans (hkeep5 m c _ (show Pipeline.arrRef spec5 (⟨3, by decide⟩ : Fin cfg5.W) ∉ ([main_v135] : List (Ref sig .tc)) from by decide)).symm)
  · exact ((dat5 (Uv11 m) c).arrAt_in _ rfl _).trans ((A_eq5 (Uv11 m) c _).trans (hkeep5 m c _ (show Pipeline.arrRef spec5 (⟨4, by decide⟩ : Fin cfg5.W) ∉ ([main_v135] : List (Ref sig .tc)) from by decide)).symm)
  · show _ = U12 m c main_v135
    unfold U12; rw [Function.update_self, o12_5_eq]; rfl
theorem hrest5 (c : Dev nD) : ∀ b, b ∉ Finset.univ.image (Pipeline.arrRef spec5) → Uv12 m c b = Uv11 m c b := fun b hb => by
  refine hkeep5 m c b fun hmem => hb ?_
  simp only [List.mem_cons, List.not_mem_nil, or_false] at hmem
  rcases hmem with rfl
  · exact Finset.mem_image.mpr ⟨5, Finset.mem_univ _, rfl⟩

set_option backward.isDefEq.respectTransparency.types false in
/-- REGION 5 over the thread state: entered from every unscoped buffer at boundary 11's contents, left at boundary 12's. Its
    arrays are split out of the unscoped buffers and put back at the exit contents; the generator register and the scoped
    buffers no window stages go into the pipeline's invariant and come back; nothing owed; no semaphore of the kernel's own. -/
def reg5 : Pipeline.RegionSeg (pcfgs (F := F)) adm (pdats m) () defs₀ Variants.none L₀ lv₀ 5 where
  win := launch5.win.to₀
  block_pos := launch5.block_pos
  stage_whole := launch5.stage_whole
  K := PEmpty
  osem k := k.elim
  ho := Pipeline.OwnSemFacts.none _
  hbody c := (body_obligation5 (Uv11 m) c).loose
  hwaits := Pipeline.hwaits_of_owed_zero _ _ _ _ L₀ lv₀ 5 fun _ _ => rfl
  pre c := iprop(StableHlo.held (c : Thread nD τ) (Pipeline.ucRefs τ sig) (U11 m c) ∗ Rst c)
  post c := iprop(StableHlo.held (c : Thread nD τ) (Pipeline.ucRefs τ sig) (U12 m c) ∗ Rst c)
  X c := iprop(∃ r, prngReg c r)
  Y c := iprop(∃ r, prngReg c r)
  Z c := Pipeline.unscopedRest (Ix := Unit) (Name := ℕ) (U := Pipeline.UD sig nD τ) (Lvl := ℕ) spec5 c (Uv11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Uv11 m c) fun w => A_eq5 (Uv11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (Uv11 m) c).Φ 0 from rfl]
    iintro ⟨Hp, -, Hr⟩
    iapply (Phi5_in (Uv11 m) c)
    isplitl [Hp]; · iexact Hp
    iexact Hr
  hout c := by
    rw [Pipeline.ownSems0_none, show (pdats m 5 c).Φ (Fin.last _) = (dat5 (Uv11 m) c).Φ (Fin.last _) from rfl]
    iintro H
    ihave H' := (Phi5_out (Uv11 m) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (Uv11 m c) (Uv12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Asm.R6.lean ====
/- Region 6 of the kernel program as a segment of the run of @main. -/
import proofs.«118347_j18940805776024_1_alg».proof.Proof.K.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

-- the accumulators' point-by-point contents are never opened here
attribute [local irreducible] outsAt6 PhiS6

/-- At region 6's exit each of its windows' arrays holds what the pipeline leaves there: an input's its entry contents, an output's its write-backs. -/
theorem hF6 (c : Dev nD) (w : Fin cfg6.W) : (dat6 (Uv13 m) c).arrAt w cfg6.N = Uv14 m c (Pipeline.arrRef spec6 w) := by
  obtain ⟨i, hi⟩ := w
  have hi' : i < 8 := hi
  interval_cases i
  · exact ((dat6 (Uv13 m) c).arrAt_in _ rfl _).trans ((A_eq6 (Uv13 m) c _).trans (hkeep6 m c _ (show Pipeline.arrRef spec6 (⟨0, by decide⟩ : Fin cfg6.W) ∉ ([main_v162_0, main_v162_1, main_v162_2] : List (Ref sig .tc)) from by decide)).symm)
  · exact ((dat6 (Uv13 m) c).arrAt_in _ rfl _).trans ((A_eq6 (Uv13 m) c _).trans (hkeep6 m c _ (show Pipeline.arrRef spec6 (⟨1, by decide⟩ : Fin cfg6.W) ∉ ([main_v162_0, main_v162_1, main_v162_2] : List (Ref sig .tc)) from by decide)).symm)
  · exact ((dat6 (Uv13 m) c).arrAt_in _ rfl _).trans ((A_eq6 (Uv13 m) c _).trans (hkeep6 m c _ (show Pipeline.arrRef spec6 (⟨2, by decide⟩ : Fin cfg6.W) ∉ ([main_v162_0, main_v162_1, main_v162_2] : List (Ref sig .tc)) from by decide)).symm)
  · exact ((dat6 (Uv13 m) c).arrAt_in _ rfl _).trans ((A_eq6 (Uv13 m) c _).trans (hkeep6 m c _ (show Pipeline.arrRef spec6 (⟨3, by decide⟩ : Fin cfg6.W) ∉ ([main_v162_0, main_v162_1, main_v162_2] : List (Ref sig .tc)) from by decide)).symm)
  · exact ((dat6 (Uv13 m) c).arrAt_in _ rfl _).trans ((A_eq6 (Uv13 m) c _).trans (hkeep6 m c _ (show Pipeline.arrRef spec6 (⟨4, by decide⟩ : Fin cfg6.W) ∉ ([main_v162_0, main_v162_1, main_v162_2] : List (Ref sig .tc)) from by decide)).symm)
  · show _ = U14 m c main_v162_0
    unfold U14; rw [Function.update_of_ne (by decide), Function.update_of_ne (by decide), Function.update_self, o14_5_eq]; rfl
  · show _ = U14 m c main_v162_1
    unfold U14; rw [Function.update_of_ne (by decide), Function.update_self, o14_6_eq]; rfl
  · show _ = U14 m c main_v162_2
    unfold U14; rw [Function.update_self, o14_7_eq]; rfl
theorem hrest6 (c : Dev nD) : ∀ b, b ∉ Finset.univ.image (Pipeline.arrRef spec6) → Uv14 m c b = Uv13 m c b := fun b hb => by
  refine hkeep6 m c b fun hmem => hb ?_
  simp only [List.mem_cons, List.not_mem_nil, or_false] at hmem
  rcases hmem with rfl | rfl | rfl
  · exact Finset.mem_image.mpr ⟨5, Finset.mem_univ _, rfl⟩
  · exact Finset.mem_image.mpr ⟨6, Finset.mem_univ _, rfl⟩
  · exact Finset.mem_image.mpr ⟨7, Finset.mem_univ _, rfl⟩

set_option backward.isDefEq.respectTransparency.types false in
/-- REGION 6 over the thread state: entered from every unscoped buffer at boundary 13's contents, left at boundary 14's. Its
    arrays are split out of the unscoped buffers and put back at the exit contents; the generator register and the scoped
    buffers no window stages go into the pipeline's invariant and come back; nothing owed; no semaphore of the kernel's own. -/
def reg6 : Pipeline.RegionSeg (pcfgs (F := F)) adm (pdats m) () defs₀ Variants.none L₀ lv₀ 6 where
  win := launch6.win.to₀
  block_pos := launch6.block_pos
  stage_whole := launch6.stage_whole
  K := PEmpty
  osem k := k.elim
  ho := Pipeline.OwnSemFacts.none _
  hbody c := (body_obligation6 (Uv13 m) c).loose
  hwaits := Pipeline.hwaits_of_owed_zero _ _ _ _ L₀ lv₀ 6 fun _ _ => rfl
  pre c := iprop(StableHlo.held (c : Thread nD τ) (Pipeline.ucRefs τ sig) (U13 m c) ∗ Rst c)
  post c := iprop(StableHlo.held (c : Thread nD τ) (Pipeline.ucRefs τ sig) (U14 m c) ∗ Rst c)
  X c := iprop(∃ r, prngReg c r)
  Y c := iprop(∃ r, prngReg c r)
  Z c := Pipeline.unscopedRest (Ix := Unit) (Name := ℕ) (U := Pipeline.UD sig nD τ) (Lvl := ℕ) spec6 c (Uv13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Uv13 m c) fun w => A_eq6 (Uv13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (Uv13 m) c).Φ 0 from rfl]
    iintro ⟨Hp, -, Hr⟩
    iapply (Phi6_in (Uv13 m) c)
    isplitl [Hp]; · iexact Hp
    iexact Hr
  hout c := by
    rw [Pipeline.ownSems0_none, show (pdats m 6 c).Φ (Fin.last _) = (dat6 (Uv13 m) c).Φ (Fin.last _) from rfl]
    iintro H
    ihave H' := (Phi6_out (Uv13 m) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (Uv13 m c) (Uv14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Asm.R7.lean ====
/- Region 7 of the kernel program as a segment of the run of @main. -/
import proofs.«118347_j18940805776024_1_alg».proof.Proof.K.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- At region 7's exit each of its windows' arrays holds what the pipeline leaves there: an input's its entry contents, an output's its write-backs. -/
theorem hF7 (c : Dev nD) (w : Fin cfg7.W) : (dat7 (Uv15 m) c).arrAt w cfg7.N = Uv16 m c (Pipeline.arrRef spec7 w) := by
  obtain ⟨i, hi⟩ := w
  have hi' : i < 6 := hi
  interval_cases i
  · exact ((dat7 (Uv15 m) c).arrAt_in _ rfl _).trans ((A_eq7 (Uv15 m) c _).trans (hkeep7 m c _ (show Pipeline.arrRef spec7 (⟨0, by decide⟩ : Fin cfg7.W) ∉ ([main_v179] : List (Ref sig .tc)) from by decide)).symm)
  · exact ((dat7 (Uv15 m) c).arrAt_in _ rfl _).trans ((A_eq7 (Uv15 m) c _).trans (hkeep7 m c _ (show Pipeline.arrRef spec7 (⟨1, by decide⟩ : Fin cfg7.W) ∉ ([main_v179] : List (Ref sig .tc)) from by decide)).symm)
  · exact ((dat7 (Uv15 m) c).arrAt_in _ rfl _).trans ((A_eq7 (Uv15 m) c _).trans (hkeep7 m c _ (show Pipeline.arrRef spec7 (⟨2, by decide⟩ : Fin cfg7.W) ∉ ([main_v179] : List (Ref sig .tc)) from by decide)).symm)
  · exact ((dat7 (Uv15 m) c).arrAt_in _ rfl _).trans ((A_eq7 (Uv15 m) c _).trans (hkeep7 m c _ (show Pipeline.arrRef spec7 (⟨3, by decide⟩ : Fin cfg7.W) ∉ ([main_v179] : List (Ref sig .tc)) from by decide)).symm)
  · exact ((dat7 (Uv15 m) c).arrAt_in _ rfl _).trans ((A_eq7 (Uv15 m) c _).trans (hkeep7 m c _ (show Pipeline.arrRef spec7 (⟨4, by decide⟩ : Fin cfg7.W) ∉ ([main_v179] : List (Ref sig .tc)) from by decide)).symm)
  · show _ = U16 m c main_v179
    unfold U16; rw [Function.update_self, o16_5_eq]; rfl
theorem hrest7 (c : Dev nD) : ∀ b, b ∉ Finset.univ.image (Pipeline.arrRef spec7) → Uv16 m c b = Uv15 m c b := fun b hb => by
  refine hkeep7 m c b fun hmem => hb ?_
  simp only [List.mem_cons, List.not_mem_nil, or_false] at hmem
  rcases hmem with rfl
  · exact Finset.mem_image.mpr ⟨5, Finset.mem_univ _, rfl⟩

set_option backward.isDefEq.respectTransparency.types false in
/-- REGION 7 over the thread state: entered from every unscoped buffer at boundary 15's contents, left at boundary 16's. Its
    arrays are split out of the unscoped buffers and put back at the exit contents; the generator register and the scoped
    buffers no window stages go into the pipeline's invariant and come back; nothing owed; no semaphore of the kernel's own. -/
def reg7 : Pipeline.RegionSeg (pcfgs (F := F)) adm (pdats m) () defs₀ Variants.none L₀ lv₀ 7 where
  win := launch7.win.to₀
  block_pos := launch7.block_pos
  stage_whole := launch7.stage_whole
  K := PEmpty
  osem k := k.elim
  ho := Pipeline.OwnSemFacts.none _
  hbody c := (body_obligation7 (Uv15 m) c).loose
  hwaits := Pipeline.hwaits_of_owed_zero _ _ _ _ L₀ lv₀ 7 fun _ _ => rfl
  pre c := iprop(StableHlo.held (c : Thread nD τ) (Pipeline.ucRefs τ sig) (U15 m c) ∗ Rst c)
  post c := iprop(StableHlo.held (c : Thread nD τ) (Pipeline.ucRefs τ sig) (U16 m c) ∗ Rst c)
  X c := iprop(∃ r, prngReg c r)
  Y c := iprop(∃ r, prngReg c r)
  Z c := Pipeline.unscopedRest (Ix := Unit) (Name := ℕ) (U := Pipeline.UD sig nD τ) (Lvl := ℕ) spec7 c (Uv15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Uv15 m c) fun w => A_eq7 (Uv15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (Uv15 m) c).Φ 0 from rfl]
    iintro ⟨Hp, -, Hr⟩
    iapply (Phi7_in (Uv15 m) c)
    isplitl [Hp]; · iexact Hp
    iexact Hr
  hout c := by
    rw [Pipeline.ownSems0_none, show (pdats m 7 c).Φ (Fin.last _) = (dat7 (Uv15 m) c).Φ (Fin.last _) from rfl]
    iintro H
    ihave H' := (Phi7_out (Uv15 m) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (Uv15 m c) (Uv16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Asm.R8.lean ====
/- Region 8 of the kernel program as a segment of the run of @main. -/
import proofs.«118347_j18940805776024_1_alg».proof.Proof.K.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- At region 8's exit each of its windows' arrays holds what the pipeline leaves there: an input's its entry contents, an output's its write-backs. -/
theorem hF8 (c : Dev nD) (w : Fin cfg8.W) : (dat8 (Uv17 m) c).arrAt w cfg8.N = Uv18 m c (Pipeline.arrRef spec8 w) := by
  obtain ⟨i, hi⟩ := w
  have hi' : i < 10 := hi
  interval_cases i
  · exact ((dat8 (Uv17 m) c).arrAt_in _ rfl _).trans ((A_eq8 (Uv17 m) c _).trans (hkeep8 m c _ (show Pipeline.arrRef spec8 (⟨0, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨1, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨2, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨3, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨4, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨5, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨6, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨7, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨8, by decide⟩ : Fin cfg8.W) ∉ ([main_v196] : List (Ref sig .tc)) from by decide)).symm)
  · show _ = U18 m c main_v196
    unfold U18; rw [Function.update_self, o18_9_eq]; rfl
theorem hrest8 (c : Dev nD) : ∀ b, b ∉ Finset.univ.image (Pipeline.arrRef spec8) → Uv18 m c b = Uv17 m c b := fun b hb => by
  refine hkeep8 m c b fun hmem => hb ?_
  simp only [List.mem_cons, List.not_mem_nil, or_false] at hmem
  rcases hmem with rfl
  · exact Finset.mem_image.mpr ⟨9, Finset.mem_univ _, rfl⟩

set_option backward.isDefEq.respectTransparency.types false in
/-- REGION 8 over the thread state: entered from every unscoped buffer at boundary 17's contents, left at boundary 18's. Its
    arrays are split out of the unscoped buffers and put back at the exit contents; the generator register and the scoped
    buffers no window stages go into the pipeline's invariant and come back; nothing owed; no semaphore of the kernel's own. -/
def reg8 : Pipeline.RegionSeg (pcfgs (F := F)) adm (pdats m) () defs₀ Variants.none L₀ lv₀ 8 where
  win := launch8.win.to₀
  block_pos := launch8.block_pos
  stage_whole := launch8.stage_whole
  K := PEmpty
  osem k := k.elim
  ho := Pipeline.OwnSemFacts.none _
  hbody c := (body_obligation8 (Uv17 m) c).loose
  hwaits := Pipeline.hwaits_of_owed_zero _ _ _ _ L₀ lv₀ 8 fun _ _ => rfl
  pre c := iprop(StableHlo.held (c : Thread nD τ) (Pipeline.ucRefs τ sig) (U17 m c) ∗ Rst c)
  post c := iprop(StableHlo.held (c : Thread nD τ) (Pipeline.ucRefs τ sig) (U18 m c) ∗ Rst c)
  X c := iprop(∃ r, prngReg c r)
  Y c := iprop(∃ r, prngReg c r)
  Z c := Pipeline.unscopedRest (Ix := Unit) (Name := ℕ) (U := Pipeline.UD sig nD τ) (Lvl := ℕ) spec8 c (Uv17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Uv17 m c) fun w => A_eq8 (Uv17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (Uv17 m) c).Φ 0 from rfl]
    iintro ⟨Hp, -, Hr⟩
    iapply (Phi8_in (Uv17 m) c)
    isplitl [Hp]; · iexact Hp
    iexact Hr
  hout c := by
    rw [Pipeline.ownSems0_none, show (pdats m 8 c).Φ (Fin.last _) = (dat8 (Uv17 m) c).Φ (Fin.last _) from rfl]
    iintro H
    ihave H' := (Phi8_out (Uv17 m) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (Uv17 m c) (Uv18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Asm.R9.lean ====
/- Region 9 of the kernel program as a segment of the run of @main. -/
import proofs.«118347_j18940805776024_1_alg».proof.Proof.K.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- At region 9's exit each of its windows' arrays holds what the pipeline leaves there: an input's its entry contents, an output's its write-backs. -/
theorem hF9 (c : Dev nD) (w : Fin cfg9.W) : (dat9 (Uv19 m) c).arrAt w cfg9.N = Uv20 m c (Pipeline.arrRef spec9 w) := by
  obtain ⟨i, hi⟩ := w
  have hi' : i < 8 := hi
  interval_cases i
  · exact ((dat9 (Uv19 m) c).arrAt_in _ rfl _).trans ((A_eq9 (Uv19 m) c _).trans (hkeep9 m c _ (show Pipeline.arrRef spec9 (⟨0, by decide⟩ : Fin cfg9.W) ∉ ([main_v219] : List (Ref sig .tc)) from by decide)).symm)
  · exact ((dat9 (Uv19 m) c).arrAt_in _ rfl _).trans ((A_eq9 (Uv19 m) c _).trans (hkeep9 m c _ (show Pipeline.arrRef spec9 (⟨1, by decide⟩ : Fin cfg9.W) ∉ ([main_v219] : List (Ref sig .tc)) from by decide)).symm)
  · exact ((dat9 (Uv19 m) c).arrAt_in _ rfl _).trans ((A_eq9 (Uv19 m) c _).trans (hkeep9 m c _ (show Pipeline.arrRef spec9 (⟨2, by decide⟩ : Fin cfg9.W) ∉ ([main_v219] : List (Ref sig .tc)) from by decide)).symm)
  · exact ((dat9 (Uv19 m) c).arrAt_in _ rfl _).trans ((A_eq9 (Uv19 m) c _).trans (hkeep9 m c _ (show Pipeline.arrRef spec9 (⟨3, by decide⟩ : Fin cfg9.W) ∉ ([main_v219] : List (Ref sig .tc)) from by decide)).symm)
  · exact ((dat9 (Uv19 m) c).arrAt_in _ rfl _).trans ((A_eq9 (Uv19 m) c _).trans (hkeep9 m c _ (show Pipeline.arrRef spec9 (⟨4, by decide⟩ : Fin cfg9.W) ∉ ([main_v219] : List (Ref sig .tc)) from by decide)).symm)
  · exact ((dat9 (Uv19 m) c).arrAt_in _ rfl _).trans ((A_eq9 (Uv19 m) c _).trans (hkeep9 m c _ (show Pipeline.arrRef spec9 (⟨5, by decide⟩ : Fin cfg9.W) ∉ ([main_v219] : List (Ref sig .tc)) from by decide)).symm)
  · exact ((dat9 (Uv19 m) c).arrAt_in _ rfl _).trans ((A_eq9 (Uv19 m) c _).trans (hkeep9 m c _ (show Pipeline.arrRef spec9 (⟨6, by decide⟩ : Fin cfg9.W) ∉ ([main_v219] : List (Ref sig .tc)) from by decide)).symm)
  · show _ = U20 m c main_v219
    unfold U20; rw [Function.update_self, o20_7_eq]; rfl
theorem hrest9 (c : Dev nD) : ∀ b, b ∉ Finset.univ.image (Pipeline.arrRef spec9) → Uv20 m c b = Uv19 m c b := fun b hb => by
  refine hkeep9 m c b fun hmem => hb ?_
  simp only [List.mem_cons, List.not_mem_nil, or_false] at hmem
  rcases hmem with rfl
  · exact Finset.mem_image.mpr ⟨7, Finset.mem_univ _, rfl⟩

set_option backward.isDefEq.respectTransparency.types false in
/-- REGION 9 over the thread state: entered from every unscoped buffer at boundary 19's contents, left at boundary 20's. Its
    arrays are split out of the unscoped buffers and put back at the exit contents; the generator register and the scoped
    buffers no window stages go into the pipeline's invariant and come back; nothing owed; no semaphore of the kernel's own. -/
def reg9 : Pipeline.RegionSeg (pcfgs (F := F)) adm (pdats m) () defs₀ Variants.none L₀ lv₀ 9 where
  win := launch9.win.to₀
  block_pos := launch9.block_pos
  stage_whole := launch9.stage_whole
  K := PEmpty
  osem k := k.elim
  ho := Pipeline.OwnSemFacts.none _
  hbody c := (body_obligation9 (Uv19 m) c).loose
  hwaits := Pipeline.hwaits_of_owed_zero _ _ _ _ L₀ lv₀ 9 fun _ _ => rfl
  pre c := iprop(StableHlo.held (c : Thread nD τ) (Pipeline.ucRefs τ sig) (U19 m c) ∗ Rst c)
  post c := iprop(StableHlo.held (c : Thread nD τ) (Pipeline.ucRefs τ sig) (U20 m c) ∗ Rst c)
  X c := iprop(∃ r, prngReg c r)
  Y c := iprop(∃ r, prngReg c r)
  Z c := Pipeline.unscopedRest (Ix := Unit) (Name := ℕ) (U := Pipeline.UD sig nD τ) (Lvl := ℕ) spec9 c (Uv19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Uv19 m c) fun w => A_eq9 (Uv19 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (Uv19 m) c).Φ 0 from rfl]
    iintro ⟨Hp, -, Hr⟩
    iapply (Phi9_in (Uv19 m) c)
    isplitl [Hp]; · iexact Hp
    iexact Hr
  hout c := by
    rw [Pipeline.ownSems0_none, show (pdats m 9 c).Φ (Fin.last _) = (dat9 (Uv19 m) c).Φ (Fin.last _) from rfl]
    iintro H
    ihave H' := (Phi9_out (Uv19 m) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (Uv19 m c) (Uv20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Asm.Outs.lean ====
/- What each region of the kernel program leaves in its output arrays. -/
import proofs.«118347_j18940805776024_1_alg».proof.Proof.K.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-! What each region leaves in each of its output arrays: the boundary's contents at that array, opened to the pipeline's
    last write-back fold. -/
theorem U2_v30_0 (c : Dev nD) : U2 m c main_v30_0 = (dat0 (Uv1 m) c).arrAt 5 cfg0.N := by
  unfold U2; rw [Function.update_of_ne (by decide), Function.update_of_ne (by decide), Function.update_self, o2_5_eq]
theorem U2_v30_1 (c : Dev nD) : U2 m c main_v30_1 = (dat0 (Uv1 m) c).arrAt 6 cfg0.N := by
  unfold U2; rw [Function.update_of_ne (by decide), Function.update_self, o2_6_eq]
theorem U2_v30_2 (c : Dev nD) : U2 m c main_v30_2 = (dat0 (Uv1 m) c).arrAt 7 cfg0.N := by
  unfold U2; rw [Function.update_self, o2_7_eq]
theorem U4_v47 (c : Dev nD) : U4 m c main_v47 = (dat1 (Uv3 m) c).arrAt 5 cfg1.N := by
  unfold U4; rw [Function.update_self, o4_5_eq]
theorem U6_v74_0 (c : Dev nD) : U6 m c main_v74_0 = (dat2 (Uv5 m) c).arrAt 5 cfg2.N := by
  unfold U6; rw [Function.update_of_ne (by decide), Function.update_of_ne (by decide), Function.update_self, o6_5_eq]
theorem U6_v74_1 (c : Dev nD) : U6 m c main_v74_1 = (dat2 (Uv5 m) c).arrAt 6 cfg2.N := by
  unfold U6; rw [Function.update_of_ne (by decide), Function.update_self, o6_6_eq]
theorem U6_v74_2 (c : Dev nD) : U6 m c main_v74_2 = (dat2 (Uv5 m) c).arrAt 7 cfg2.N := by
  unfold U6; rw [Function.update_self, o6_7_eq]
theorem U8_v91 (c : Dev nD) : U8 m c main_v91 = (dat3 (Uv7 m) c).arrAt 5 cfg3.N := by
  unfold U8; rw [Function.update_self, o8_5_eq]
theorem U10_v118_0 (c : Dev nD) : U10 m c main_v118_0 = (dat4 (Uv9 m) c).arrAt 5 cfg4.N := by
  unfold U10; rw [Function.update_of_ne (by decide), Function.update_of_ne (by decide), Function.update_self, o10_5_eq]
theorem U10_v118_1 (c : Dev nD) : U10 m c main_v118_1 = (dat4 (Uv9 m) c).arrAt 6 cfg4.N := by
  unfold U10; rw [Function.update_of_ne (by decide), Function.update_self, o10_6_eq]
theorem U10_v118_2 (c : Dev nD) : U10 m c main_v118_2 = (dat4 (Uv9 m) c).arrAt 7 cfg4.N := by
  unfold U10; rw [Function.update_self, o10_7_eq]
theorem U12_v135 (c : Dev nD) : U12 m c main_v135 = (dat5 (Uv11 m) c).arrAt 5 cfg5.N := by
  unfold U12; rw [Function.update_self, o12_5_eq]
theorem U14_v162_0 (c : Dev nD) : U14 m c main_v162_0 = (dat6 (Uv13 m) c).arrAt 5 cfg6.N := by
  unfold U14; rw [Function.update_of_ne (by decide), Function.update_of_ne (by decide), Function.update_self, o14_5_eq]
theorem U14_v162_1 (c : Dev nD) : U14 m c main_v162_1 = (dat6 (Uv13 m) c).arrAt 6 cfg6.N := by
  unfold U14; rw [Function.update_of_ne (by decide), Function.update_self, o14_6_eq]
theorem U14_v162_2 (c : Dev nD) : U14 m c main_v162_2 = (dat6 (Uv13 m) c).arrAt 7 cfg6.N := by
  unfold U14; rw [Function.update_self, o14_7_eq]
theorem U16_v179 (c : Dev nD) : U16 m c main_v179 = (dat7 (Uv15 m) c).arrAt 5 cfg7.N := by
  unfold U16; rw [Function.update_self, o16_5_eq]
theorem U18_v196 (c : Dev nD) : U18 m c main_v196 = (dat8 (Uv17 m) c).arrAt 9 cfg8.N := by
  unfold U18; rw [Function.update_self, o18_9_eq]
theorem U20_v219 (c : Dev nD) : U20 m c main_v219 = (dat9 (Uv19 m) c).arrAt 7 cfg9.N := by
  unfold U20; rw [Function.update_self, o20_7_eq]

end Cert.Kernel.Hand

end
-- ==== Proof.K.Assemble.lean ====
/- The run of the kernel program from its ten regions' segment records: every unscoped buffer of every final memory is
   the last boundary's; hence the frame, and the two results read off that boundary. -/
import proofs.«118347_j18940805776024_1_alg».proof.Proof.K.Asm.R0
import proofs.«118347_j18940805776024_1_alg».proof.Proof.K.Asm.R1
import proofs.«118347_j18940805776024_1_alg».proof.Proof.K.Asm.R2
import proofs.«118347_j18940805776024_1_alg».proof.Proof.K.Asm.R3
import proofs.«118347_j18940805776024_1_alg».proof.Proof.K.Asm.R4
import proofs.«118347_j18940805776024_1_alg».proof.Proof.K.Asm.R5
import proofs.«118347_j18940805776024_1_alg».proof.Proof.K.Asm.R6
import proofs.«118347_j18940805776024_1_alg».proof.Proof.K.Asm.R7
import proofs.«118347_j18940805776024_1_alg».proof.Proof.K.Asm.R8
import proofs.«118347_j18940805776024_1_alg».proof.Proof.K.Asm.R9
import proofs.«118347_j18940805776024_1_alg».proof.Proof.K.Asm.Outs
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- A host stretch as a segment of the run: over the unscoped references from the contents W, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Ix := Unit) (Name := ℕ) (U := Pipeline.UD sig nD τ) (Lvl := ℕ) (pcfgs (F := F)) defs₀ Variants.none L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- @main's items in order: a host segment per stretch from its boundary's contents, a region per kernel. -/
abbrev segsU : List (Seg (pcfgs (F := F)) adm (pdats m) () defs₀ Variants.none L₀ lv₀) :=
  [ .host (hseg hostOps0 hostOps0_sub hostOps0_fresh (V0 m)),
    .region (reg0 m),
    .host (hseg hostOps1 hostOps1_sub hostOps1_fresh (U2 m)),
    .region (reg1 m),
    .host (hseg hostOps2 hostOps2_sub hostOps2_fresh (U4 m)),
    .region (reg2 m),
    .host (hseg hostOps3 hostOps3_sub hostOps3_fresh (U6 m)),
    .region (reg3 m),
    .host (hseg hostOps4 hostOps4_sub hostOps4_fresh (U8 m)),
    .region (reg4 m),
    .host (hseg hostOps5 hostOps5_sub hostOps5_fresh (U10 m)),
    .region (reg5 m),
    .host (hseg hostOps6 hostOps6_sub hostOps6_fresh (U12 m)),
    .region (reg6 m),
    .host (hseg hostOps7 hostOps7_sub hostOps7_fresh (U14 m)),
    .region (reg7 m),
    .host (hseg hostOps8 hostOps8_sub hostOps8_fresh (U16 m)),
    .region (reg8 m),
    .host (hseg hostOps9 hostOps9_sub hostOps9_fresh (U18 m)),
    .region (reg9 m),
    .host (hseg hostOps10 hostOps10_sub hostOps10_fresh (U20 m)) ]

set_option backward.isDefEq.respectTransparency.types false in
/-- From any launch memory every weakly fair execution of @main terminates without a fault, and every unscoped buffer of
    every final memory holds what the last boundary's contents say. -/
theorem run_vals (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U21 m c b) := by
  refine Pipeline.θ_run_regions_kit_dev (pcfgs (F := F)) adm (pdats m) () cellOf_inj embL defs₀ Variants.none L₀ lv₀ m ρ main
    (fun _ => segsU m)
    (fun c Q => by
      rewrite [main_chain c, Seg.run_eq_chain,
        show (segsU m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10 ] from rfl]
      exact .rfl)
    (fun c => by simp only [segsU, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (U21 m c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl (by iintro ⟨-, HO⟩; iexact HO)⟩)
    (hinit := ?_) (QY := fun c s => ∀ b ∈ Pipeline.ucRefs τ sig, s.mem ((c : Thread nD τ).1, b) = U21 m c b)
    (hfin := fun c s' => ?_) (hQ := fun _ h => h)
  · -- the launch: every core holds its unscoped buffers at the launch memory, its generator register and nothing owed
    refine Pipeline.initEach L₀ lv₀ fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last boundary's contents
    unfold StableHlo.held
    iintro ⟨Hh, HSI⟩
    imodintro
    iapply (pointsTo_read_all (Pipeline.ucRefs τ sig) (fun b => ((c : Thread nD τ).1, b)) (U21 m c) s')
    isplitl [Hh] <;> iassumption

/-- An unscoped TensorCore reference is among those whose buffers the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! Every argument array reaches the last boundary as launched: no host stretch writes one, no region may change one. -/
theorem U21_arg0 (c : Dev nD) : U21 m c main_arg0 = m ((c.tc : Thread nD τ).loc main_arg0) :=
  (hkeepH10 m c main_arg0 (by decide)).trans <| (hkeep9 m c main_arg0 (by decide)).trans <| (hkeepH9 m c main_arg0 (by decide)).trans <| (hkeep8 m c main_arg0 (by decide)).trans <| (hkeepH8 m c main_arg0 (by decide)).trans <| (hkeep7 m c main_arg0 (by decide)).trans <| (hkeepH7 m c main_arg0 (by decide)).trans <| (hkeep6 m c main_arg0 (by decide)).trans <| (hkeepH6 m c main_arg0 (by decide)).trans <| (hkeep5 m c main_arg0 (by decide)).trans <| (hkeepH5 m c main_arg0 (by decide)).trans <| (hkeep4 m c main_arg0 (by decide)).trans <| (hkeepH4 m c main_arg0 (by decide)).trans <| (hkeep3 m c main_arg0 (by decide)).trans <| (hkeepH3 m c main_arg0 (by decide)).trans <| (hkeep2 m c main_arg0 (by decide)).trans <| (hkeepH2 m c main_arg0 (by decide)).trans <| (hkeep1 m c main_arg0 (by decide)).trans <| (hkeepH1 m c main_arg0 (by decide)).trans <| (hkeep0 m c main_arg0 (by decide)).trans <| (hkeepH0 m c main_arg0 (by decide))
theorem U21_arg1 (c : Dev nD) : U21 m c main_arg1 = m ((c.tc : Thread nD τ).loc main_arg1) :=
  (hkeepH10 m c main_arg1 (by decide)).trans <| (hkeep9 m c main_arg1 (by decide)).trans <| (hkeepH9 m c main_arg1 (by decide)).trans <| (hkeep8 m c main_arg1 (by decide)).trans <| (hkeepH8 m c main_arg1 (by decide)).trans <| (hkeep7 m c main_arg1 (by decide)).trans <| (hkeepH7 m c main_arg1 (by decide)).trans <| (hkeep6 m c main_arg1 (by decide)).trans <| (hkeepH6 m c main_arg1 (by decide)).trans <| (hkeep5 m c main_arg1 (by decide)).trans <| (hkeepH5 m c main_arg1 (by decide)).trans <| (hkeep4 m c main_arg1 (by decide)).trans <| (hkeepH4 m c main_arg1 (by decide)).trans <| (hkeep3 m c main_arg1 (by decide)).trans <| (hkeepH3 m c main_arg1 (by decide)).trans <| (hkeep2 m c main_arg1 (by decide)).trans <| (hkeepH2 m c main_arg1 (by decide)).trans <| (hkeep1 m c main_arg1 (by decide)).trans <| (hkeepH1 m c main_arg1 (by decide)).trans <| (hkeep0 m c main_arg1 (by decide)).trans <| (hkeepH0 m c main_arg1 (by decide))
theorem U21_arg2 (c : Dev nD) : U21 m c main_arg2 = m ((c.tc : Thread nD τ).loc main_arg2) :=
  (hkeepH10 m c main_arg2 (by decide)).trans <| (hkeep9 m c main_arg2 (by decide)).trans <| (hkeepH9 m c main_arg2 (by decide)).trans <| (hkeep8 m c main_arg2 (by decide)).trans <| (hkeepH8 m c main_arg2 (by decide)).trans <| (hkeep7 m c main_arg2 (by decide)).trans <| (hkeepH7 m c main_arg2 (by decide)).trans <| (hkeep6 m c main_arg2 (by decide)).trans <| (hkeepH6 m c main_arg2 (by decide)).trans <| (hkeep5 m c main_arg2 (by decide)).trans <| (hkeepH5 m c main_arg2 (by decide)).trans <| (hkeep4 m c main_arg2 (by decide)).trans <| (hkeepH4 m c main_arg2 (by decide)).trans <| (hkeep3 m c main_arg2 (by decide)).trans <| (hkeepH3 m c main_arg2 (by decide)).trans <| (hkeep2 m c main_arg2 (by decide)).trans <| (hkeepH2 m c main_arg2 (by decide)).trans <| (hkeep1 m c main_arg2 (by decide)).trans <| (hkeepH1 m c main_arg2 (by decide)).trans <| (hkeep0 m c main_arg2 (by decide)).trans <| (hkeepH0 m c main_arg2 (by decide))
theorem U21_arg3 (c : Dev nD) : U21 m c main_arg3 = m ((c.tc : Thread nD τ).loc main_arg3) :=
  (hkeepH10 m c main_arg3 (by decide)).trans <| (hkeep9 m c main_arg3 (by decide)).trans <| (hkeepH9 m c main_arg3 (by decide)).trans <| (hkeep8 m c main_arg3 (by decide)).trans <| (hkeepH8 m c main_arg3 (by decide)).trans <| (hkeep7 m c main_arg3 (by decide)).trans <| (hkeepH7 m c main_arg3 (by decide)).trans <| (hkeep6 m c main_arg3 (by decide)).trans <| (hkeepH6 m c main_arg3 (by decide)).trans <| (hkeep5 m c main_arg3 (by decide)).trans <| (hkeepH5 m c main_arg3 (by decide)).trans <| (hkeep4 m c main_arg3 (by decide)).trans <| (hkeepH4 m c main_arg3 (by decide)).trans <| (hkeep3 m c main_arg3 (by decide)).trans <| (hkeepH3 m c main_arg3 (by decide)).trans <| (hkeep2 m c main_arg3 (by decide)).trans <| (hkeepH2 m c main_arg3 (by decide)).trans <| (hkeep1 m c main_arg3 (by decide)).trans <| (hkeepH1 m c main_arg3 (by decide)).trans <| (hkeep0 m c main_arg3 (by decide)).trans <| (hkeepH0 m c main_arg3 (by decide))
theorem U21_arg4 (c : Dev nD) : U21 m c main_arg4 = m ((c.tc : Thread nD τ).loc main_arg4) :=
  (hkeepH10 m c main_arg4 (by decide)).trans <| (hkeep9 m c main_arg4 (by decide)).trans <| (hkeepH9 m c main_arg4 (by decide)).trans <| (hkeep8 m c main_arg4 (by decide)).trans <| (hkeepH8 m c main_arg4 (by decide)).trans <| (hkeep7 m c main_arg4 (by decide)).trans <| (hkeepH7 m c main_arg4 (by decide)).trans <| (hkeep6 m c main_arg4 (by decide)).trans <| (hkeepH6 m c main_arg4 (by decide)).trans <| (hkeep5 m c main_arg4 (by decide)).trans <| (hkeepH5 m c main_arg4 (by decide)).trans <| (hkeep4 m c main_arg4 (by decide)).trans <| (hkeepH4 m c main_arg4 (by decide)).trans <| (hkeep3 m c main_arg4 (by decide)).trans <| (hkeepH3 m c main_arg4 (by decide)).trans <| (hkeep2 m c main_arg4 (by decide)).trans <| (hkeepH2 m c main_arg4 (by decide)).trans <| (hkeep1 m c main_arg4 (by decide)).trans <| (hkeepH1 m c main_arg4 (by decide)).trans <| (hkeep0 m c main_arg4 (by decide)).trans <| (hkeepH0 m c main_arg4 (by decide))
theorem U21_arg5 (c : Dev nD) : U21 m c main_arg5 = m ((c.tc : Thread nD τ).loc main_arg5) :=
  (hkeepH10 m c main_arg5 (by decide)).trans <| (hkeep9 m c main_arg5 (by decide)).trans <| (hkeepH9 m c main_arg5 (by decide)).trans <| (hkeep8 m c main_arg5 (by decide)).trans <| (hkeepH8 m c main_arg5 (by decide)).trans <| (hkeep7 m c main_arg5 (by decide)).trans <| (hkeepH7 m c main_arg5 (by decide)).trans <| (hkeep6 m c main_arg5 (by decide)).trans <| (hkeepH6 m c main_arg5 (by decide)).trans <| (hkeep5 m c main_arg5 (by decide)).trans <| (hkeepH5 m c main_arg5 (by decide)).trans <| (hkeep4 m c main_arg5 (by decide)).trans <| (hkeepH4 m c main_arg5 (by decide)).trans <| (hkeep3 m c main_arg5 (by decide)).trans <| (hkeepH3 m c main_arg5 (by decide)).trans <| (hkeep2 m c main_arg5 (by decide)).trans <| (hkeepH2 m c main_arg5 (by decide)).trans <| (hkeep1 m c main_arg5 (by decide)).trans <| (hkeepH1 m c main_arg5 (by decide)).trans <| (hkeep0 m c main_arg5 (by decide)).trans <| (hkeepH0 m c main_arg5 (by decide))
theorem U21_arg6 (c : Dev nD) : U21 m c main_arg6 = m ((c.tc : Thread nD τ).loc main_arg6) :=
  (hkeepH10 m c main_arg6 (by decide)).trans <| (hkeep9 m c main_arg6 (by decide)).trans <| (hkeepH9 m c main_arg6 (by decide)).trans <| (hkeep8 m c main_arg6 (by decide)).trans <| (hkeepH8 m c main_arg6 (by decide)).trans <| (hkeep7 m c main_arg6 (by decide)).trans <| (hkeepH7 m c main_arg6 (by decide)).trans <| (hkeep6 m c main_arg6 (by decide)).trans <| (hkeepH6 m c main_arg6 (by decide)).trans <| (hkeep5 m c main_arg6 (by decide)).trans <| (hkeepH5 m c main_arg6 (by decide)).trans <| (hkeep4 m c main_arg6 (by decide)).trans <| (hkeepH4 m c main_arg6 (by decide)).trans <| (hkeep3 m c main_arg6 (by decide)).trans <| (hkeepH3 m c main_arg6 (by decide)).trans <| (hkeep2 m c main_arg6 (by decide)).trans <| (hkeepH2 m c main_arg6 (by decide)).trans <| (hkeep1 m c main_arg6 (by decide)).trans <| (hkeepH1 m c main_arg6 (by decide)).trans <| (hkeep0 m c main_arg6 (by decide)).trans <| (hkeepH0 m c main_arg6 (by decide))
theorem U21_arg7 (c : Dev nD) : U21 m c main_arg7 = m ((c.tc : Thread nD τ).loc main_arg7) :=
  (hkeepH10 m c main_arg7 (by decide)).trans <| (hkeep9 m c main_arg7 (by decide)).trans <| (hkeepH9 m c main_arg7 (by decide)).trans <| (hkeep8 m c main_arg7 (by decide)).trans <| (hkeepH8 m c main_arg7 (by decide)).trans <| (hkeep7 m c main_arg7 (by decide)).trans <| (hkeepH7 m c main_arg7 (by decide)).trans <| (hkeep6 m c main_arg7 (by decide)).trans <| (hkeepH6 m c main_arg7 (by decide)).trans <| (hkeep5 m c main_arg7 (by decide)).trans <| (hkeepH5 m c main_arg7 (by decide)).trans <| (hkeep4 m c main_arg7 (by decide)).trans <| (hkeepH4 m c main_arg7 (by decide)).trans <| (hkeep3 m c main_arg7 (by decide)).trans <| (hkeepH3 m c main_arg7 (by decide)).trans <| (hkeep2 m c main_arg7 (by decide)).trans <| (hkeepH2 m c main_arg7 (by decide)).trans <| (hkeep1 m c main_arg7 (by decide)).trans <| (hkeepH1 m c main_arg7 (by decide)).trans <| (hkeep0 m c main_arg7 (by decide)).trans <| (hkeepH0 m c main_arg7 (by decide))
theorem U21_arg8 (c : Dev nD) : U21 m c main_arg8 = m ((c.tc : Thread nD τ).loc main_arg8) :=
  (hkeepH10 m c main_arg8 (by decide)).trans <| (hkeep9 m c main_arg8 (by decide)).trans <| (hkeepH9 m c main_arg8 (by decide)).trans <| (hkeep8 m c main_arg8 (by decide)).trans <| (hkeepH8 m c main_arg8 (by decide)).trans <| (hkeep7 m c main_arg8 (by decide)).trans <| (hkeepH7 m c main_arg8 (by decide)).trans <| (hkeep6 m c main_arg8 (by decide)).trans <| (hkeepH6 m c main_arg8 (by decide)).trans <| (hkeep5 m c main_arg8 (by decide)).trans <| (hkeepH5 m c main_arg8 (by decide)).trans <| (hkeep4 m c main_arg8 (by decide)).trans <| (hkeepH4 m c main_arg8 (by decide)).trans <| (hkeep3 m c main_arg8 (by decide)).trans <| (hkeepH3 m c main_arg8 (by decide)).trans <| (hkeep2 m c main_arg8 (by decide)).trans <| (hkeepH2 m c main_arg8 (by decide)).trans <| (hkeep1 m c main_arg8 (by decide)).trans <| (hkeepH1 m c main_arg8 (by decide)).trans <| (hkeep0 m c main_arg8 (by decide)).trans <| (hkeepH0 m c main_arg8 (by decide))
theorem U21_arg9 (c : Dev nD) : U21 m c main_arg9 = m ((c.tc : Thread nD τ).loc main_arg9) :=
  (hkeepH10 m c main_arg9 (by decide)).trans <| (hkeep9 m c main_arg9 (by decide)).trans <| (hkeepH9 m c main_arg9 (by decide)).trans <| (hkeep8 m c main_arg9 (by decide)).trans <| (hkeepH8 m c main_arg9 (by decide)).trans <| (hkeep7 m c main_arg9 (by decide)).trans <| (hkeepH7 m c main_arg9 (by decide)).trans <| (hkeep6 m c main_arg9 (by decide)).trans <| (hkeepH6 m c main_arg9 (by decide)).trans <| (hkeep5 m c main_arg9 (by decide)).trans <| (hkeepH5 m c main_arg9 (by decide)).trans <| (hkeep4 m c main_arg9 (by decide)).trans <| (hkeepH4 m c main_arg9 (by decide)).trans <| (hkeep3 m c main_arg9 (by decide)).trans <| (hkeepH3 m c main_arg9 (by decide)).trans <| (hkeep2 m c main_arg9 (by decide)).trans <| (hkeepH2 m c main_arg9 (by decide)).trans <| (hkeep1 m c main_arg9 (by decide)).trans <| (hkeepH1 m c main_arg9 (by decide)).trans <| (hkeep0 m c main_arg9 (by decide)).trans <| (hkeepH0 m c main_arg9 (by decide))
theorem U21_arg10 (c : Dev nD) : U21 m c main_arg10 = m ((c.tc : Thread nD τ).loc main_arg10) :=
  (hkeepH10 m c main_arg10 (by decide)).trans <| (hkeep9 m c main_arg10 (by decide)).trans <| (hkeepH9 m c main_arg10 (by decide)).trans <| (hkeep8 m c main_arg10 (by decide)).trans <| (hkeepH8 m c main_arg10 (by decide)).trans <| (hkeep7 m c main_arg10 (by decide)).trans <| (hkeepH7 m c main_arg10 (by decide)).trans <| (hkeep6 m c main_arg10 (by decide)).trans <| (hkeepH6 m c main_arg10 (by decide)).trans <| (hkeep5 m c main_arg10 (by decide)).trans <| (hkeepH5 m c main_arg10 (by decide)).trans <| (hkeep4 m c main_arg10 (by decide)).trans <| (hkeepH4 m c main_arg10 (by decide)).trans <| (hkeep3 m c main_arg10 (by decide)).trans <| (hkeepH3 m c main_arg10 (by decide)).trans <| (hkeep2 m c main_arg10 (by decide)).trans <| (hkeepH2 m c main_arg10 (by decide)).trans <| (hkeep1 m c main_arg10 (by decide)).trans <| (hkeepH1 m c main_arg10 (by decide)).trans <| (hkeep0 m c main_arg10 (by decide)).trans <| (hkeepH0 m c main_arg10 (by decide))
theorem U21_arg11 (c : Dev nD) : U21 m c main_arg11 = m ((c.tc : Thread nD τ).loc main_arg11) :=
  (hkeepH10 m c main_arg11 (by decide)).trans <| (hkeep9 m c main_arg11 (by decide)).trans <| (hkeepH9 m c main_arg11 (by decide)).trans <| (hkeep8 m c main_arg11 (by decide)).trans <| (hkeepH8 m c main_arg11 (by decide)).trans <| (hkeep7 m c main_arg11 (by decide)).trans <| (hkeepH7 m c main_arg11 (by decide)).trans <| (hkeep6 m c main_arg11 (by decide)).trans <| (hkeepH6 m c main_arg11 (by decide)).trans <| (hkeep5 m c main_arg11 (by decide)).trans <| (hkeepH5 m c main_arg11 (by decide)).trans <| (hkeep4 m c main_arg11 (by decide)).trans <| (hkeepH4 m c main_arg11 (by decide)).trans <| (hkeep3 m c main_arg11 (by decide)).trans <| (hkeepH3 m c main_arg11 (by decide)).trans <| (hkeep2 m c main_arg11 (by decide)).trans <| (hkeepH2 m c main_arg11 (by decide)).trans <| (hkeep1 m c main_arg11 (by decide)).trans <| (hkeepH1 m c main_arg11 (by decide)).trans <| (hkeep0 m c main_arg11 (by decide)).trans <| (hkeepH0 m c main_arg11 (by decide))
theorem U21_arg12 (c : Dev nD) : U21 m c main_arg12 = m ((c.tc : Thread nD τ).loc main_arg12) :=
  (hkeepH10 m c main_arg12 (by decide)).trans <| (hkeep9 m c main_arg12 (by decide)).trans <| (hkeepH9 m c main_arg12 (by decide)).trans <| (hkeep8 m c main_arg12 (by decide)).trans <| (hkeepH8 m c main_arg12 (by decide)).trans <| (hkeep7 m c main_arg12 (by decide)).trans <| (hkeepH7 m c main_arg12 (by decide)).trans <| (hkeep6 m c main_arg12 (by decide)).trans <| (hkeepH6 m c main_arg12 (by decide)).trans <| (hkeep5 m c main_arg12 (by decide)).trans <| (hkeepH5 m c main_arg12 (by decide)).trans <| (hkeep4 m c main_arg12 (by decide)).trans <| (hkeepH4 m c main_arg12 (by decide)).trans <| (hkeep3 m c main_arg12 (by decide)).trans <| (hkeepH3 m c main_arg12 (by decide)).trans <| (hkeep2 m c main_arg12 (by decide)).trans <| (hkeepH2 m c main_arg12 (by decide)).trans <| (hkeep1 m c main_arg12 (by decide)).trans <| (hkeepH1 m c main_arg12 (by decide)).trans <| (hkeep0 m c main_arg12 (by decide)).trans <| (hkeepH0 m c main_arg12 (by decide))
theorem U21_arg13 (c : Dev nD) : U21 m c main_arg13 = m ((c.tc : Thread nD τ).loc main_arg13) :=
  (hkeepH10 m c main_arg13 (by decide)).trans <| (hkeep9 m c main_arg13 (by decide)).trans <| (hkeepH9 m c main_arg13 (by decide)).trans <| (hkeep8 m c main_arg13 (by decide)).trans <| (hkeepH8 m c main_arg13 (by decide)).trans <| (hkeep7 m c main_arg13 (by decide)).trans <| (hkeepH7 m c main_arg13 (by decide)).trans <| (hkeep6 m c main_arg13 (by decide)).trans <| (hkeepH6 m c main_arg13 (by decide)).trans <| (hkeep5 m c main_arg13 (by decide)).trans <| (hkeepH5 m c main_arg13 (by decide)).trans <| (hkeep4 m c main_arg13 (by decide)).trans <| (hkeepH4 m c main_arg13 (by decide)).trans <| (hkeep3 m c main_arg13 (by decide)).trans <| (hkeepH3 m c main_arg13 (by decide)).trans <| (hkeep2 m c main_arg13 (by decide)).trans <| (hkeepH2 m c main_arg13 (by decide)).trans <| (hkeep1 m c main_arg13 (by decide)).trans <| (hkeepH1 m c main_arg13 (by decide)).trans <| (hkeep0 m c main_arg13 (by decide)).trans <| (hkeepH0 m c main_arg13 (by decide))
theorem U21_arg14 (c : Dev nD) : U21 m c main_arg14 = m ((c.tc : Thread nD τ).loc main_arg14) :=
  (hkeepH10 m c main_arg14 (by decide)).trans <| (hkeep9 m c main_arg14 (by decide)).trans <| (hkeepH9 m c main_arg14 (by decide)).trans <| (hkeep8 m c main_arg14 (by decide)).trans <| (hkeepH8 m c main_arg14 (by decide)).trans <| (hkeep7 m c main_arg14 (by decide)).trans <| (hkeepH7 m c main_arg14 (by decide)).trans <| (hkeep6 m c main_arg14 (by decide)).trans <| (hkeepH6 m c main_arg14 (by decide)).trans <| (hkeep5 m c main_arg14 (by decide)).trans <| (hkeepH5 m c main_arg14 (by decide)).trans <| (hkeep4 m c main_arg14 (by decide)).trans <| (hkeepH4 m c main_arg14 (by decide)).trans <| (hkeep3 m c main_arg14 (by decide)).trans <| (hkeepH3 m c main_arg14 (by decide)).trans <| (hkeep2 m c main_arg14 (by decide)).trans <| (hkeepH2 m c main_arg14 (by decide)).trans <| (hkeep1 m c main_arg14 (by decide)).trans <| (hkeepH1 m c main_arg14 (by decide)).trans <| (hkeep0 m c main_arg14 (by decide)).trans <| (hkeepH0 m c main_arg14 (by decide))
theorem U21_arg15 (c : Dev nD) : U21 m c main_arg15 = m ((c.tc : Thread nD τ).loc main_arg15) :=
  (hkeepH10 m c main_arg15 (by decide)).trans <| (hkeep9 m c main_arg15 (by decide)).trans <| (hkeepH9 m c main_arg15 (by decide)).trans <| (hkeep8 m c main_arg15 (by decide)).trans <| (hkeepH8 m c main_arg15 (by decide)).trans <| (hkeep7 m c main_arg15 (by decide)).trans <| (hkeepH7 m c main_arg15 (by decide)).trans <| (hkeep6 m c main_arg15 (by decide)).trans <| (hkeepH6 m c main_arg15 (by decide)).trans <| (hkeep5 m c main_arg15 (by decide)).trans <| (hkeepH5 m c main_arg15 (by decide)).trans <| (hkeep4 m c main_arg15 (by decide)).trans <| (hkeepH4 m c main_arg15 (by decide)).trans <| (hkeep3 m c main_arg15 (by decide)).trans <| (hkeepH3 m c main_arg15 (by decide)).trans <| (hkeep2 m c main_arg15 (by decide)).trans <| (hkeepH2 m c main_arg15 (by decide)).trans <| (hkeep1 m c main_arg15 (by decide)).trans <| (hkeepH1 m c main_arg15 (by decide)).trans <| (hkeep0 m c main_arg15 (by decide)).trans <| (hkeepH0 m c main_arg15 (by decide))
theorem U21_arg16 (c : Dev nD) : U21 m c main_arg16 = m ((c.tc : Thread nD τ).loc main_arg16) :=
  (hkeepH10 m c main_arg16 (by decide)).trans <| (hkeep9 m c main_arg16 (by decide)).trans <| (hkeepH9 m c main_arg16 (by decide)).trans <| (hkeep8 m c main_arg16 (by decide)).trans <| (hkeepH8 m c main_arg16 (by decide)).trans <| (hkeep7 m c main_arg16 (by decide)).trans <| (hkeepH7 m c main_arg16 (by decide)).trans <| (hkeep6 m c main_arg16 (by decide)).trans <| (hkeepH6 m c main_arg16 (by decide)).trans <| (hkeep5 m c main_arg16 (by decide)).trans <| (hkeepH5 m c main_arg16 (by decide)).trans <| (hkeep4 m c main_arg16 (by decide)).trans <| (hkeepH4 m c main_arg16 (by decide)).trans <| (hkeep3 m c main_arg16 (by decide)).trans <| (hkeepH3 m c main_arg16 (by decide)).trans <| (hkeep2 m c main_arg16 (by decide)).trans <| (hkeepH2 m c main_arg16 (by decide)).trans <| (hkeep1 m c main_arg16 (by decide)).trans <| (hkeepH1 m c main_arg16 (by decide)).trans <| (hkeep0 m c main_arg16 (by decide)).trans <| (hkeepH0 m c main_arg16 (by decide))
theorem U21_arg17 (c : Dev nD) : U21 m c main_arg17 = m ((c.tc : Thread nD τ).loc main_arg17) :=
  (hkeepH10 m c main_arg17 (by decide)).trans <| (hkeep9 m c main_arg17 (by decide)).trans <| (hkeepH9 m c main_arg17 (by decide)).trans <| (hkeep8 m c main_arg17 (by decide)).trans <| (hkeepH8 m c main_arg17 (by decide)).trans <| (hkeep7 m c main_arg17 (by decide)).trans <| (hkeepH7 m c main_arg17 (by decide)).trans <| (hkeep6 m c main_arg17 (by decide)).trans <| (hkeepH6 m c main_arg17 (by decide)).trans <| (hkeep5 m c main_arg17 (by decide)).trans <| (hkeepH5 m c main_arg17 (by decide)).trans <| (hkeep4 m c main_arg17 (by decide)).trans <| (hkeepH4 m c main_arg17 (by decide)).trans <| (hkeep3 m c main_arg17 (by decide)).trans <| (hkeepH3 m c main_arg17 (by decide)).trans <| (hkeep2 m c main_arg17 (by decide)).trans <| (hkeepH2 m c main_arg17 (by decide)).trans <| (hkeep1 m c main_arg17 (by decide)).trans <| (hkeepH1 m c main_arg17 (by decide)).trans <| (hkeep0 m c main_arg17 (by decide)).trans <| (hkeepH0 m c main_arg17 (by decide))
theorem U21_arg18 (c : Dev nD) : U21 m c main_arg18 = m ((c.tc : Thread nD τ).loc main_arg18) :=
  (hkeepH10 m c main_arg18 (by decide)).trans <| (hkeep9 m c main_arg18 (by decide)).trans <| (hkeepH9 m c main_arg18 (by decide)).trans <| (hkeep8 m c main_arg18 (by decide)).trans <| (hkeepH8 m c main_arg18 (by decide)).trans <| (hkeep7 m c main_arg18 (by decide)).trans <| (hkeepH7 m c main_arg18 (by decide)).trans <| (hkeep6 m c main_arg18 (by decide)).trans <| (hkeepH6 m c main_arg18 (by decide)).trans <| (hkeep5 m c main_arg18 (by decide)).trans <| (hkeepH5 m c main_arg18 (by decide)).trans <| (hkeep4 m c main_arg18 (by decide)).trans <| (hkeepH4 m c main_arg18 (by decide)).trans <| (hkeep3 m c main_arg18 (by decide)).trans <| (hkeepH3 m c main_arg18 (by decide)).trans <| (hkeep2 m c main_arg18 (by decide)).trans <| (hkeepH2 m c main_arg18 (by decide)).trans <| (hkeep1 m c main_arg18 (by decide)).trans <| (hkeepH1 m c main_arg18 (by decide)).trans <| (hkeep0 m c main_arg18 (by decide)).trans <| (hkeepH0 m c main_arg18 (by decide))
theorem U21_arg19 (c : Dev nD) : U21 m c main_arg19 = m ((c.tc : Thread nD τ).loc main_arg19) :=
  (hkeepH10 m c main_arg19 (by decide)).trans <| (hkeep9 m c main_arg19 (by decide)).trans <| (hkeepH9 m c main_arg19 (by decide)).trans <| (hkeep8 m c main_arg19 (by decide)).trans <| (hkeepH8 m c main_arg19 (by decide)).trans <| (hkeep7 m c main_arg19 (by decide)).trans <| (hkeepH7 m c main_arg19 (by decide)).trans <| (hkeep6 m c main_arg19 (by decide)).trans <| (hkeepH6 m c main_arg19 (by decide)).trans <| (hkeep5 m c main_arg19 (by decide)).trans <| (hkeepH5 m c main_arg19 (by decide)).trans <| (hkeep4 m c main_arg19 (by decide)).trans <| (hkeepH4 m c main_arg19 (by decide)).trans <| (hkeep3 m c main_arg19 (by decide)).trans <| (hkeepH3 m c main_arg19 (by decide)).trans <| (hkeep2 m c main_arg19 (by decide)).trans <| (hkeepH2 m c main_arg19 (by decide)).trans <| (hkeep1 m c main_arg19 (by decide)).trans <| (hkeepH1 m c main_arg19 (by decide)).trans <| (hkeep0 m c main_arg19 (by decide)).trans <| (hkeepH0 m c main_arg19 (by decide))
theorem U21_arg20 (c : Dev nD) : U21 m c main_arg20 = m ((c.tc : Thread nD τ).loc main_arg20) :=
  (hkeepH10 m c main_arg20 (by decide)).trans <| (hkeep9 m c main_arg20 (by decide)).trans <| (hkeepH9 m c main_arg20 (by decide)).trans <| (hkeep8 m c main_arg20 (by decide)).trans <| (hkeepH8 m c main_arg20 (by decide)).trans <| (hkeep7 m c main_arg20 (by decide)).trans <| (hkeepH7 m c main_arg20 (by decide)).trans <| (hkeep6 m c main_arg20 (by decide)).trans <| (hkeepH6 m c main_arg20 (by decide)).trans <| (hkeep5 m c main_arg20 (by decide)).trans <| (hkeepH5 m c main_arg20 (by decide)).trans <| (hkeep4 m c main_arg20 (by decide)).trans <| (hkeepH4 m c main_arg20 (by decide)).trans <| (hkeep3 m c main_arg20 (by decide)).trans <| (hkeepH3 m c main_arg20 (by decide)).trans <| (hkeep2 m c main_arg20 (by decide)).trans <| (hkeepH2 m c main_arg20 (by decide)).trans <| (hkeep1 m c main_arg20 (by decide)).trans <| (hkeepH1 m c main_arg20 (by decide)).trans <| (hkeep0 m c main_arg20 (by decide)).trans <| (hkeepH0 m c main_arg20 (by decide))
theorem U21_arg21 (c : Dev nD) : U21 m c main_arg21 = m ((c.tc : Thread nD τ).loc main_arg21) :=
  (hkeepH10 m c main_arg21 (by decide)).trans <| (hkeep9 m c main_arg21 (by decide)).trans <| (hkeepH9 m c main_arg21 (by decide)).trans <| (hkeep8 m c main_arg21 (by decide)).trans <| (hkeepH8 m c main_arg21 (by decide)).trans <| (hkeep7 m c main_arg21 (by decide)).trans <| (hkeepH7 m c main_arg21 (by decide)).trans <| (hkeep6 m c main_arg21 (by decide)).trans <| (hkeepH6 m c main_arg21 (by decide)).trans <| (hkeep5 m c main_arg21 (by decide)).trans <| (hkeepH5 m c main_arg21 (by decide)).trans <| (hkeep4 m c main_arg21 (by decide)).trans <| (hkeepH4 m c main_arg21 (by decide)).trans <| (hkeep3 m c main_arg21 (by decide)).trans <| (hkeepH3 m c main_arg21 (by decide)).trans <| (hkeep2 m c main_arg21 (by decide)).trans <| (hkeepH2 m c main_arg21 (by decide)).trans <| (hkeep1 m c main_arg21 (by decide)).trans <| (hkeepH1 m c main_arg21 (by decide)).trans <| (hkeep0 m c main_arg21 (by decide)).trans <| (hkeepH0 m c main_arg21 (by decide))
theorem U21_arg22 (c : Dev nD) : U21 m c main_arg22 = m ((c.tc : Thread nD τ).loc main_arg22) :=
  (hkeepH10 m c main_arg22 (by decide)).trans <| (hkeep9 m c main_arg22 (by decide)).trans <| (hkeepH9 m c main_arg22 (by decide)).trans <| (hkeep8 m c main_arg22 (by decide)).trans <| (hkeepH8 m c main_arg22 (by decide)).trans <| (hkeep7 m c main_arg22 (by decide)).trans <| (hkeepH7 m c main_arg22 (by decide)).trans <| (hkeep6 m c main_arg22 (by decide)).trans <| (hkeepH6 m c main_arg22 (by decide)).trans <| (hkeep5 m c main_arg22 (by decide)).trans <| (hkeepH5 m c main_arg22 (by decide)).trans <| (hkeep4 m c main_arg22 (by decide)).trans <| (hkeepH4 m c main_arg22 (by decide)).trans <| (hkeep3 m c main_arg22 (by decide)).trans <| (hkeepH3 m c main_arg22 (by decide)).trans <| (hkeep2 m c main_arg22 (by decide)).trans <| (hkeepH2 m c main_arg22 (by decide)).trans <| (hkeep1 m c main_arg22 (by decide)).trans <| (hkeepH1 m c main_arg22 (by decide)).trans <| (hkeep0 m c main_arg22 (by decide)).trans <| (hkeepH0 m c main_arg22 (by decide))
theorem U21_arg23 (c : Dev nD) : U21 m c main_arg23 = m ((c.tc : Thread nD τ).loc main_arg23) :=
  (hkeepH10 m c main_arg23 (by decide)).trans <| (hkeep9 m c main_arg23 (by decide)).trans <| (hkeepH9 m c main_arg23 (by decide)).trans <| (hkeep8 m c main_arg23 (by decide)).trans <| (hkeepH8 m c main_arg23 (by decide)).trans <| (hkeep7 m c main_arg23 (by decide)).trans <| (hkeepH7 m c main_arg23 (by decide)).trans <| (hkeep6 m c main_arg23 (by decide)).trans <| (hkeepH6 m c main_arg23 (by decide)).trans <| (hkeep5 m c main_arg23 (by decide)).trans <| (hkeepH5 m c main_arg23 (by decide)).trans <| (hkeep4 m c main_arg23 (by decide)).trans <| (hkeepH4 m c main_arg23 (by decide)).trans <| (hkeep3 m c main_arg23 (by decide)).trans <| (hkeepH3 m c main_arg23 (by decide)).trans <| (hkeep2 m c main_arg23 (by decide)).trans <| (hkeepH2 m c main_arg23 (by decide)).trans <| (hkeep1 m c main_arg23 (by decide)).trans <| (hkeepH1 m c main_arg23 (by decide)).trans <| (hkeep0 m c main_arg23 (by decide)).trans <| (hkeepH0 m c main_arg23 (by decide))
theorem U21_arg24 (c : Dev nD) : U21 m c main_arg24 = m ((c.tc : Thread nD τ).loc main_arg24) :=
  (hkeepH10 m c main_arg24 (by decide)).trans <| (hkeep9 m c main_arg24 (by decide)).trans <| (hkeepH9 m c main_arg24 (by decide)).trans <| (hkeep8 m c main_arg24 (by decide)).trans <| (hkeepH8 m c main_arg24 (by decide)).trans <| (hkeep7 m c main_arg24 (by decide)).trans <| (hkeepH7 m c main_arg24 (by decide)).trans <| (hkeep6 m c main_arg24 (by decide)).trans <| (hkeepH6 m c main_arg24 (by decide)).trans <| (hkeep5 m c main_arg24 (by decide)).trans <| (hkeepH5 m c main_arg24 (by decide)).trans <| (hkeep4 m c main_arg24 (by decide)).trans <| (hkeepH4 m c main_arg24 (by decide)).trans <| (hkeep3 m c main_arg24 (by decide)).trans <| (hkeepH3 m c main_arg24 (by decide)).trans <| (hkeep2 m c main_arg24 (by decide)).trans <| (hkeepH2 m c main_arg24 (by decide)).trans <| (hkeep1 m c main_arg24 (by decide)).trans <| (hkeepH1 m c main_arg24 (by decide)).trans <| (hkeep0 m c main_arg24 (by decide)).trans <| (hkeepH0 m c main_arg24 (by decide))
/-- THE FRAME: every weakly fair execution of @main terminates without a fault and every argument array ends as launched. -/
theorem run_frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (U21_arg0 m c),
     (h c _ (mem_uc main_arg1 (by decide))).trans (U21_arg1 m c),
     (h c _ (mem_uc main_arg2 (by decide))).trans (U21_arg2 m c),
     (h c _ (mem_uc main_arg3 (by decide))).trans (U21_arg3 m c),
     (h c _ (mem_uc main_arg4 (by decide))).trans (U21_arg4 m c),
     (h c _ (mem_uc main_arg5 (by decide))).trans (U21_arg5 m c),
     (h c _ (mem_uc main_arg6 (by decide))).trans (U21_arg6 m c),
     (h c _ (mem_uc main_arg7 (by decide))).trans (U21_arg7 m c),
     (h c _ (mem_uc main_arg8 (by decide))).trans (U21_arg8 m c),
     (h c _ (mem_uc main_arg9 (by decide))).trans (U21_arg9 m c),
     (h c _ (mem_uc main_arg10 (by decide))).trans (U21_arg10 m c),
     (h c _ (mem_uc main_arg11 (by decide))).trans (U21_arg11 m c),
     (h c _ (mem_uc main_arg12 (by decide))).trans (U21_arg12 m c),
     (h c _ (mem_uc main_arg13 (by decide))).trans (U21_arg13 m c),
     (h c _ (mem_uc main_arg14 (by decide))).trans (U21_arg14 m c),
     (h c _ (mem_uc main_arg15 (by decide))).trans (U21_arg15 m c),
     (h c _ (mem_uc main_arg16 (by decide))).trans (U21_arg16 m c),
     (h c _ (mem_uc main_arg17 (by decide))).trans (U21_arg17 m c),
     (h c _ (mem_uc main_arg18 (by decide))).trans (U21_arg18 m c),
     (h c _ (mem_uc main_arg19 (by decide))).trans (U21_arg19 m c),
     (h c _ (mem_uc main_arg20 (by decide))).trans (U21_arg20 m c),
     (h c _ (mem_uc main_arg21 (by decide))).trans (U21_arg21 m c),
     (h c _ (mem_uc main_arg22 (by decide))).trans (U21_arg22 m c),
     (h c _ (mem_uc main_arg23 (by decide))).trans (U21_arg23 m c),
     (h c _ (mem_uc main_arg24 (by decide))).trans (U21_arg24 m c)⟩) (run_vals m ρ)

/-- The same run with the two results read off the last boundary as well. -/
theorem run_res (ρ : Dev nD → PrngReg) :
    θ_run defs (onTc (τ := τ) (main (F := F))) ⟨m, fun _ => 0, ρ⟩ (fun r => ∀ c : Dev nD,
      r.2.mem ((c.tc : Thread nD τ).loc main_v196) = U21 m c main_v196
      ∧ r.2.mem ((c.tc : Thread nD τ).loc main_v220) = U21 m c main_v220
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨h c _ (mem_uc main_v196 (by decide)), h c _ (mem_uc main_v220 (by decide)),
     (h c _ (mem_uc main_arg0 (by decide))).trans (U21_arg0 m c),
     (h c _ (mem_uc main_arg1 (by decide))).trans (U21_arg1 m c),
     (h c _ (mem_uc main_arg2 (by decide))).trans (U21_arg2 m c),
     (h c _ (mem_uc main_arg3 (by decide))).trans (U21_arg3 m c),
     (h c _ (mem_uc main_arg4 (by decide))).trans (U21_arg4 m c),
     (h c _ (mem_uc main_arg5 (by decide))).trans (U21_arg5 m c),
     (h c _ (mem_uc main_arg6 (by decide))).trans (U21_arg6 m c),
     (h c _ (mem_uc main_arg7 (by decide))).trans (U21_arg7 m c),
     (h c _ (mem_uc main_arg8 (by decide))).trans (U21_arg8 m c),
     (h c _ (mem_uc main_arg9 (by decide))).trans (U21_arg9 m c),
     (h c _ (mem_uc main_arg10 (by decide))).trans (U21_arg10 m c),
     (h c _ (mem_uc main_arg11 (by decide))).trans (U21_arg11 m c),
     (h c _ (mem_uc main_arg12 (by decide))).trans (U21_arg12 m c),
     (h c _ (mem_uc main_arg13 (by decide))).trans (U21_arg13 m c),
     (h c _ (mem_uc main_arg14 (by decide))).trans (U21_arg14 m c),
     (h c _ (mem_uc main_arg15 (by decide))).trans (U21_arg15 m c),
     (h c _ (mem_uc main_arg16 (by decide))).trans (U21_arg16 m c),
     (h c _ (mem_uc main_arg17 (by decide))).trans (U21_arg17 m c),
     (h c _ (mem_uc main_arg18 (by decide))).trans (U21_arg18 m c),
     (h c _ (mem_uc main_arg19 (by decide))).trans (U21_arg19 m c),
     (h c _ (mem_uc main_arg20 (by decide))).trans (U21_arg20 m c),
     (h c _ (mem_uc main_arg21 (by decide))).trans (U21_arg21 m c),
     (h c _ (mem_uc main_arg22 (by decide))).trans (U21_arg22 m c),
     (h c _ (mem_uc main_arg23 (by decide))).trans (U21_arg23 m c),
     (h c _ (mem_uc main_arg24 (by decide))).trans (U21_arg24 m c)⟩) (run_vals m ρ)

end Cert.Kernel.Hand

end
-- ==== Proof.KI.Reg0.Runs.lean ====
/- Region 0 (the two-layer perceptron with running column sums): what its two control cases share — the
    windows' blocks as the region finds them, the branch condition in closed form, the staging and scratch
    memrefs, and the region's entry resources with the two accumulators split out. -/
import proofs.«118347_j18940805776024_1_alg».proof.Proof.Gen.KernelIdeal.Launch
import proofs.«118347_j18940805776024_1_alg».proof.Proof.Gen.KernelIdeal.Skeleton
import proofs.«118347_j18940805776024_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    input's block index has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    input's block index has not moved. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    input's block index has not moved. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched
    input's block index has not moved. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: an unfetched
    input's block index has not moved. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region0

/-- The body's one branch condition (is this the first grid point?), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- No window is idle at any point. -/
theorem liveAt0 : ∀ (w : Fin cfg0.W) (t : Fin cfg0.N), cfg0.idle w (grid0.coords t) = false := fun _ _ => rfl

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two accumulators: whole scoped buffers of the kernel's own, passed beside the windows. -/
abbrev scM0_0 : Memref sig .tc .vmem S1x128 .f32 := Memref.whole cc0_scratch0
abbrev scM0_1 : Memref sig .tc .vmem S1x128 .f32 := Memref.whole cc0_scratch1
/-- One staging buffer of each output window and the accumulators as views: contents are stated through them. -/
abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev VS0_0 : View sig .tc .vmem S1x128 .f32 := scM0_0.view
abbrev VS0_1 : View sig .tc .vmem S1x128 .f32 := scM0_1.view

/-- The scoped buffers no window of this region stages, other than its two accumulators. -/
abbrev restBut0 (c : Dev nD) : sProp 𝕄 :=
  Pipeline.scopedRestBut (Ix := Unit) (Name := ℕ) (U := Pipeline.UD sig nD τ) (Lvl := ℕ) (Val := Elt F) spec0 c [cc0_scratch0, cc0_scratch1]

/-- The region's entry resources with the accumulators as memrefs owned at some contents. -/
theorem scopedRest0_owns (c : Dev nD) :
    (Pipeline.scopedRest (Ix := Unit) (Name := ℕ) (U := Pipeline.UD sig nD τ) (Lvl := ℕ) (Val := Elt F) spec0 c : sProp 𝕄)
      = iprop(iprop((∃ d, owns (c : Thread nD τ) scM0_0 fullShare d) ∗ (∃ d, owns (c : Thread nD τ) scM0_1 fullShare d)) ∗ restBut0 c) := by
  rw [scopedRest0_split]; simp only [scM0_0, scM0_1, owns_whole]; try rfl

end Cert.KernelIdeal

end
-- ==== Proof.KI.Reg0.RunA.lean ====
/- Region 0, the body's symbolic run at the first grid point. -/
import proofs.«118347_j18940805776024_1_alg».proof.Proof.KI.Reg0.Runs

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AT THE FIRST POINT (the accumulators are zeroed first): on whole memrefs — the five inputs' at
    their contents, the three outputs' and the two accumulators' at anything — the body runs to the continuation holding
    the inputs' as they were and every other buffer with its stores written, as lists of pieces (last first) that the
    symbolic run finds. -/
noncomputable def kernelRun0_A (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__gin_mm_kernel_eq_skeleton]; unfold cc0__gin_mm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal

end
-- ==== Proof.KI.Reg0.RunB.lean ====
/- Region 0, the body's symbolic run after the first grid point. -/
import proofs.«118347_j18940805776024_1_alg».proof.Proof.KI.Reg0.RunA

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AFTER THE FIRST POINT (the accumulators are carried): on whole memrefs — the five inputs' at
    their contents, the three outputs' at anything, the two accumulators' at what the point before left (`xs0`, `xs1`) —
    the body runs to the continuation holding the inputs' as they were and every other buffer with its stores written,
    as lists of pieces (last first) that the symbolic run finds. -/
noncomputable def kernelRun0_B (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__gin_mm_kernel_eq_skeleton]; unfold cc0__gin_mm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal

end
-- ==== Proof.KI.Reg0.lean ====
/- Region 0 (the two-layer perceptron with running column sums) at the buffer contents `V` the region is entered
   with: what each output window's staging buffer and the two accumulators hold after every grid point, the pipeline's
   proof data over an invariant that carries the accumulators from point to point, and the body obligation. -/
import proofs.«118347_j18940805776024_1_alg».proof.Proof.KI.Reg0.RunB

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves in the outputs' staging buffers and in the accumulators -/

/-- The stores of case A into output window 5's staging buffer cover it (each is of the whole buffer). -/
theorem cover0_A_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4).1 S5000x128.size (by sl_kernel_rfl) y

/-- What case A leaves in output window 5's staging buffer: its stores overlaid, the last on top. -/
def out0_A_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) : Vec F S5000x128 .f32 :=
  View.canon (kernelRun0_A c i arg1 harg1 arg2 harg2 arg3 harg3 arg4 harg4 arg5 harg5 arg6 harg6 arg7 harg7 arg8 harg8 arg9 harg9 arg10 harg10 hc0 x0 x1 x2 x3 x4).1

/-- The stores of case A into output window 6's staging buffer cover it (each is of the whole buffer). -/
theorem cover0_A_6 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4).2.1 S1x128.size (by sl_kernel_rfl) y

/-- What case A leaves in output window 6's staging buffer: its stores overlaid, the last on top. -/
def out0_A_6 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun0_A c i arg1 harg1 arg2 harg2 arg3 harg3 arg4 harg4 arg5 harg5 arg6 harg6 arg7 harg7 arg8 harg8 arg9 harg9 arg10 harg10 hc0 x0 x1 x2 x3 x4).2.1

/-- The stores of case A into output window 7's staging buffer cover it (each is of the whole buffer). -/
theorem cover0_A_7 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4).2.2.1 S1x128.size (by sl_kernel_rfl) y

/-- What case A leaves in output window 7's staging buffer: its stores overlaid, the last on top. -/
def out0_A_7 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun0_A c i arg1 harg1 arg2 harg2 arg3 harg3 arg4 harg4 arg5 harg5 arg6 harg6 arg7 harg7 arg8 harg8 arg9 harg9 arg10 harg10 hc0 x0 x1 x2 x3 x4).2.2.1

/-- The stores of case A into accumulator 0 cover it (each is of the whole buffer). -/
theorem scover0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4).2.2.2.1 S1x128.size (by sl_kernel_rfl) y

/-- What case A leaves in accumulator 0: its stores overlaid, the last on top. -/
def sout0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun0_A c i arg1 harg1 arg2 harg2 arg3 harg3 arg4 harg4 arg5 harg5 arg6 harg6 arg7 harg7 arg8 harg8 arg9 harg9 arg10 harg10 hc0 x0 x1 x2 x3 x4).2.2.2.1

/-- The stores of case A into accumulator 1 cover it (each is of the whole buffer). -/
theorem scover0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4).2.2.2.2.1 S1x128.size (by sl_kernel_rfl) y

/-- What case A leaves in accumulator 1: its stores overlaid, the last on top. -/
def sout0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun0_A c i arg1 harg1 arg2 harg2 arg3 harg3 arg4 harg4 arg5 harg5 arg6 harg6 arg7 harg7 arg8 harg8 arg9 harg9 arg10 harg10 hc0 x0 x1 x2 x3 x4).2.2.2.2.1

/-- The stores of case B into output window 5's staging buffer cover it (each is of the whole buffer). -/
theorem cover0_B_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 xs0 xs1).1 S5000x128.size (by sl_kernel_rfl) y

/-- What case B leaves in output window 5's staging buffer: its stores overlaid, the last on top. -/
def out0_B_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  View.canon (kernelRun0_B c i arg1 harg1 arg2 harg2 arg3 harg3 arg4 harg4 arg5 harg5 arg6 harg6 arg7 harg7 arg8 harg8 arg9 harg9 arg10 harg10 hc0 x0 x1 x2 x3 x4 xs0 xs1).1

/-- The stores of case B into output window 6's staging buffer cover it (each is of the whole buffer). -/
theorem cover0_B_6 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 xs0 xs1).2.1 S1x128.size (by sl_kernel_rfl) y

/-- What case B leaves in output window 6's staging buffer: its stores overlaid, the last on top. -/
def out0_B_6 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun0_B c i arg1 harg1 arg2 harg2 arg3 harg3 arg4 harg4 arg5 harg5 arg6 harg6 arg7 harg7 arg8 harg8 arg9 harg9 arg10 harg10 hc0 x0 x1 x2 x3 x4 xs0 xs1).2.1

/-- The stores of case B into output window 7's staging buffer cover it (each is of the whole buffer). -/
theorem cover0_B_7 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 xs0 xs1).2.2.1 S1x128.size (by sl_kernel_rfl) y

/-- What case B leaves in output window 7's staging buffer: its stores overlaid, the last on top. -/
def out0_B_7 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun0_B c i arg1 harg1 arg2 harg2 arg3 harg3 arg4 harg4 arg5 harg5 arg6 harg6 arg7 harg7 arg8 harg8 arg9 harg9 arg10 harg10 hc0 x0 x1 x2 x3 x4 xs0 xs1).2.2.1

/-- The stores of case B into accumulator 0 cover it (each is of the whole buffer). -/
theorem scover0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 xs0 xs1).2.2.2.1 S1x128.size (by sl_kernel_rfl) y

/-- What case B leaves in accumulator 0: its stores overlaid, the last on top. -/
def sout0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun0_B c i arg1 harg1 arg2 harg2 arg3 harg3 arg4 harg4 arg5 harg5 arg6 harg6 arg7 harg7 arg8 harg8 arg9 harg9 arg10 harg10 hc0 x0 x1 x2 x3 x4 xs0 xs1).2.2.2.1

/-- The stores of case B into accumulator 1 cover it (each is of the whole buffer). -/
theorem scover0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 xs0 xs1).2.2.2.2.1 S1x128.size (by sl_kernel_rfl) y

/-- What case B leaves in accumulator 1: its stores overlaid, the last on top. -/
def sout0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun0_B c i arg1 harg1 arg2 harg2 arg3 harg3 arg4 harg4 arg5 harg5 arg6 harg6 arg7 harg7 arg8 harg8 arg9 harg9 arg10 harg10 hc0 x0 x1 x2 x3 x4 xs0 xs1).2.2.2.2.1

section Region0
variable (V : (c : Dev nD) → (b : Ref sig .tc) → Buf (Elt F) ((c : Thread nD τ).loc b))

/-! ## What the outputs and the accumulators hold after each point -/

/-- THE ACCUMULATION. After the body at position `n`: output windows 5, 6, 7's staging buffers, then the two
    accumulators. The first point runs the zeroing case from the point's input blocks; every later point runs the
    carrying case from its input blocks and the accumulators as the point before left them. -/
def outsAt0 (c : Dev nD) : (n : ℕ) → n < cfg0.N → Vec F S5000x128 .f32 × Vec F S1x128 .f32 × Vec F S1x128 .f32 × Vec F S1x128 .f32 × Vec F S1x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
      out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn => (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

/-- `outsAt0` at the first point. -/
theorem outsAt0_A (c : Dev nD) (t : Fin cfg0.N) (hz : t.val = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr hz) (iblk0 V c 0 t) (iblk0 V c 1 t) (iblk0 V c 2 t) (iblk0 V c 3 t) (iblk0 V c 4 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr hz) (iblk0 V c 0 t) (iblk0 V c 1 t) (iblk0 V c 2 t) (iblk0 V c 3 t) (iblk0 V c 4 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr hz) (iblk0 V c 0 t) (iblk0 V c 1 t) (iblk0 V c 2 t) (iblk0 V c 3 t) (iblk0 V c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr hz) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr hz) (iblk0 V c 0 t) (iblk0 V c 1 t) (iblk0 V c 2 t) (iblk0 V c 3 t) (iblk0 V c 4 t)) := by
  obtain ⟨n, hn⟩ := t
  cases n with
  | zero => rfl
  | succ n => exact absurd hz (Nat.succ_ne_zero n)

/-- `outsAt0` at a later point, over what the point before left. -/
theorem outsAt0_B (c : Dev nD) (t : Fin cfg0.N) (hz : t.val ≠ 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => hz ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => hz ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => hz ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => hz ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => hz ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl hz
  | succ n => rfl

/-! ## The invariant: the accumulators carried between points -/

/-- The region's invariant before position `n`: before the first point what the region is entered with (the generator
    register at some state and every scoped buffer no window stages at anything); afterwards the two accumulators at what
    the point before left in them, the other such buffers unopened, and the register. -/
def PhiS0 (c : Dev nD) : (n : ℕ) → n ≤ cfg0.N → sProp 𝕄
  | 0, _ => iprop((∃ r, prngReg c r) ∗ Pipeline.scopedRest spec0 c)
  | n + 1, hn => iprop(iprop(owns (c : Thread nD τ) scM0_0 fullShare ((outsAt0 V c n hn).2.2.2.1) ∗ owns (c : Thread nD τ) scM0_1 fullShare ((outsAt0 V c n hn).2.2.2.2)) ∗ restBut0 c ∗ (∃ r, prngReg c r))

theorem PhiS0_zero (c : Dev nD) (n : ℕ) (h : n ≤ cfg0.N) (hz : n = 0) :
    PhiS0 V c n h = iprop((∃ r, prngReg c r) ∗ Pipeline.scopedRest spec0 c) := by
  subst hz; rfl

theorem PhiS0_succ (c : Dev nD) (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2)) ∗ restBut0 c ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2)) ∗ restBut0 c ∗ (∃ r, prngReg c r)) := by
  cases n with
  | zero => exact absurd rfl hz
  | succ n => rfl

/-! ## The pipeline's proof data -/

/-- The proof data of pipeline 0 on core `c`: the arrays as the region finds them; after the body at point `t` each
    input's buffer at its block and each output's at `outsAt0`'s component; the invariant `PhiS0`; nothing owed; full
    shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4000000 in
/-- The body at any point: the inputs' memrefs hold their blocks; the point is the first or a later one, so the matching
    run applies; the invariant hands the body the accumulators (at anything at the first point, at what the point before
    left afterwards) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7]
  by_cases hz : t.val = 0
  · rw [outsAt0_A V c t hz]
    unfold out0_A_5 out0_A_6 out0_A_7 sout0_A_0 sout0_A_1; dsimp only
    rw [PhiS0_castSucc V c t, PhiS0_zero V c _ _ hz, scopedRest0_owns]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr hz) (iblk0 V c 0 t) (iblk0 V c 1 t) (iblk0 V c 2 t) (iblk0 V c 3 t) (iblk0 V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover0_A_0 c _ _ _ _ _ _ _ _ _ _ _ _ _ _ _ _ _ _ _ _ _ _ _ _ _ _ _)
        · unfold owns; iexists _; isplitr
          swap; · iexact HS1
          ipureintro; exact View.read_writes_eq_canon _ _ _ (scover0_A_1 c _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover0_A_5 c _ _ _ _ _ _ _ _ _ _ _ _ _ _ _ _ _ _ _ _ _ _ _ _ _ _ _)
    isplitl [H6]
    · unfold owns; iexists _; isplitr
      swap; · iexact H6
      ipureintro; exact View.read_writes_eq_canon _ _ _ (cover0_A_6 c _ _ _ _ _ _ _ _ _ _ _ _ _ _ _ _ _ _ _ _ _ _ _ _ _ _ _)
    · unfold owns; iexists _; isplitr
      swap; · iexact H7
      ipureintro; exact View.read_writes_eq_canon _ _ _ (cover0_A_7 c _ _ _ _ _ _ _ _ _ _ _ _ _ _ _ _ _ _ _ _ _ _ _ _ _ _ _)
  · rw [outsAt0_B V c t hz]
    unfold out0_B_5 out0_B_6 out0_B_7 sout0_B_0 sout0_B_1; dsimp only
    rw [PhiS0_castSucc V c t, PhiS0_pos V c _ _ hz]
    iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ (fun h => hz ((hcond0_0 t).mp h)) (iblk0 V c 0 t) (iblk0 V c 1 t) (iblk0 V c 2 t) (iblk0 V c 3 t) (iblk0 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover0_B_0 c _ _ _ _ _ _ _ _ _ _ _ _ _ _ _ _ _ _ _ _ _ _ _ _ _ _ _ _ _)
        · unfold owns; iexists _; isplitr
          swap; · iexact HS1
          ipureintro; exact View.read_writes_eq_canon _ _ _ (scover0_B_1 c _ _ _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover0_B_5 c _ _ _ _ _ _ _ _ _ _ _ _ _ _ _ _ _ _ _ _ _ _ _ _ _ _ _ _ _)
    isplitl [H6]
    · unfold owns; iexists _; isplitr
      swap; · iexact H6
      ipureintro; exact View.read_writes_eq_canon _ _ _ (cover0_B_6 c _ _ _ _ _ _ _ _ _ _ _ _ _ _ _ _ _ _ _ _ _ _ _ _ _ _ _ _ _)
    · unfold owns; iexists _; isplitr
      swap; · iexact H7
      ipureintro; exact View.read_writes_eq_canon _ _ _ (cover0_B_7 c _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem Phi0_in (c : Dev nD) : iprop((∃ r, prngReg c r) ∗ Pipeline.scopedRest spec0 c) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the entry resources back: the accumulators' contents are forgotten. -/
theorem Phi0_out (c : Dev nD) : (dat0 V c).Φ (Fin.last _) ⊢ iprop((∃ r, prngReg c r) ∗ Pipeline.scopedRest spec0 c) := by
  rw [show (dat0 V c).Φ (Fin.last _) = PhiS0 V c (Fin.last cfg0.N).val (Nat.le_of_lt_succ (Fin.last cfg0.N).isLt) from rfl,
    PhiS0_pos V c _ _ (by rw [Fin.val_last]; have : cfg0.N = 20 := N_0; omega), scopedRest0_owns]
  iintro ⟨⟨HS0, HS1⟩, HR, Hg⟩
  isplitl [Hg]; · iexact Hg
  isplitl [HS0 HS1]
  · isplitl [HS0]
    · iexists _; iexact HS0
    · iexists _; iexact HS1
  iexact HR

end Region0

end Cert.KernelIdeal

end
-- ==== Proof.KI.Reg1.lean ====
import proofs.«118347_j18940805776024_1_alg».proof.Proof.Gen.KernelIdeal.Launch
import proofs.«118347_j18940805776024_1_alg».proof.Proof.Gen.KernelIdeal.Skeleton
import proofs.«118347_j18940805776024_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 1: `cc1__gin_bn_kernel` on a grid of 10 row blocks

Each point normalises one block of 10000 rows of `z` (window 0) lane by lane with the four row vectors `mu`, `var`,
`gamma`, `beta` (windows 1–4, whose single block is the whole array) and writes the block of `h` (window 5):
`h = (z − mu) · rsqrt(var + ε) · gamma + beta`. The body reads every input through its whole staging buffer and
stores the whole output buffer once, so what it leaves there is a function of the five input blocks alone. -/

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, whether or not the pipeline fetched
    it there: an unfetched input's block index has not moved, so the block kept from the point before is this point's. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every point, whether or not the pipeline fetched
    it there: an unfetched input's block index has not moved, so the block kept from the point before is this point's. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every point, whether or not the pipeline fetched
    it there: an unfetched input's block index has not moved, so the block kept from the point before is this point's. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the window's block at every point, whether or not the pipeline fetched
    it there: an unfetched input's block index has not moved, so the block kept from the point before is this point's. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds the window's block at every point, whether or not the pipeline fetched
    it there: an unfetched input's block index has not moved, so the block kept from the point before is this point's. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole 10000×128 buffer as a rectangle, and the whole 1×128 one. -/
abbrev r1_z : Rect S10000x128 := Rect.unit (s := S10000x128) ![0, 0] S10000x128.size inb_S10000x128_S10000x128_0_0
abbrev r1_v : Rect S1x128 := Rect.unit (s := S1x128) ![0, 0] S1x128.size inb_S1x128_S1x128_0_0

/-- The output block after the body, from the five input blocks: the one store's value laid over the buffer. -/
def out1_5 (x0 : Vec F S10000x128 .f32) (x1 x2 x3 x4 : Vec F S1x128 .f32) : Vec F S10000x128 .f32 :=
  View.canon [⟨r1_z, k1_pay1 (View.ld x0 r1_z) (View.ld x1 r1_v) (View.ld x2 r1_v) (View.ld x3 r1_v) (View.ld x4 r1_v)⟩]

/-- The one store is of the whole buffer, so it covers every index. -/
theorem cover1_5 (p0 : Vec F S10000x128 .f32) (y : S10000x128.Idx) :
    ∃ pc ∈ ([⟨r1_z, p0⟩] : List (View.Piece (Elt F) S10000x128 .f32)), y ∈ pc.1.set :=
  View.cover_of_tiled [⟨r1_z, p0⟩] S10000x128.size (by rfl) y

set_option maxHeartbeats 1000000 in
/-- The body on whole staging buffers: the inputs read `x0 … x4`, the output holds anything; it ends with the inputs
    as they were and the output at `out1_5` of the inputs. -/
theorem sound_kernel1 (c : Dev nD) (E : Set ℕ) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__gin_bn_kernel i arg1 harg1 arg2 harg2 arg3 harg3 arg4 harg4 arg5 harg5 arg6 harg6) K := by
  simp only [cc1__gin_bn_kernel_eq_skeleton]; unfold cc1__gin_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as the region finds them; after the body at point `t` each
    input buffer still at its block and the output buffer at `out1_5` of the input blocks; the invariant that leaves
    the scoped rest and the generator register alone; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents (the definition projected, never unfolded further). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's launch, at every point. -/
theorem body_obligation1 (c : Dev nD) : BodyObligation (dat1 (F := F) V c) (defs₀ (F := F)) Variants.none () Set.univ := fun t => by
  rw [bigSep_W1, bigSep_W1]
  exact sound_body1 V c t

end Cert.KernelIdeal

end
-- ==== Proof.KI.Reg2.Runs.lean ====
/- Region 2 (the two-layer perceptron with running column sums): what its two control cases share — the
    windows' blocks as the region finds them, the branch condition in closed form, the staging and scratch
    memrefs, and the region's entry resources with the two accumulators split out. -/
import proofs.«118347_j18940805776024_1_alg».proof.Proof.Gen.KernelIdeal.Launch
import proofs.«118347_j18940805776024_1_alg».proof.Proof.Gen.KernelIdeal.Skeleton
import proofs.«118347_j18940805776024_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    input's block index has not moved. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    input's block index has not moved. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    input's block index has not moved. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched
    input's block index has not moved. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an unfetched
    input's block index has not moved. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region2

/-- The body's one branch condition (is this the first grid point?), from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- No window is idle at any point. -/
theorem liveAt2 : ∀ (w : Fin cfg2.W) (t : Fin cfg2.N), cfg2.idle w (grid2.coords t) = false := fun _ _ => rfl

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
/-- The two accumulators: whole scoped buffers of the kernel's own, passed beside the windows. -/
abbrev scM2_0 : Memref sig .tc .vmem S1x128 .f32 := Memref.whole cc2_scratch0
abbrev scM2_1 : Memref sig .tc .vmem S1x128 .f32 := Memref.whole cc2_scratch1
/-- One staging buffer of each output window and the accumulators as views: contents are stated through them. -/
abbrev VO2_5 : View sig .tc .vmem S5000x128 .f32 := (Memref.whole cc2_stg5_0 : Memref sig .tc .vmem S5000x128 .f32).view
abbrev VO2_6 : View sig .tc .vmem S1x128 .f32 := (Memref.whole cc2_stg6_0 : Memref sig .tc .vmem S1x128 .f32).view
abbrev VO2_7 : View sig .tc .vmem S1x128 .f32 := (Memref.whole cc2_stg7_0 : Memref sig .tc .vmem S1x128 .f32).view
abbrev VS2_0 : View sig .tc .vmem S1x128 .f32 := scM2_0.view
abbrev VS2_1 : View sig .tc .vmem S1x128 .f32 := scM2_1.view

/-- The scoped buffers no window of this region stages, other than its two accumulators. -/
abbrev restBut2 (c : Dev nD) : sProp 𝕄 :=
  Pipeline.scopedRestBut (Ix := Unit) (Name := ℕ) (U := Pipeline.UD sig nD τ) (Lvl := ℕ) (Val := Elt F) spec2 c [cc2_scratch0, cc2_scratch1]

/-- The region's entry resources with the accumulators as memrefs owned at some contents. -/
theorem scopedRest2_owns (c : Dev nD) :
    (Pipeline.scopedRest (Ix := Unit) (Name := ℕ) (U := Pipeline.UD sig nD τ) (Lvl := ℕ) (Val := Elt F) spec2 c : sProp 𝕄)
      = iprop(iprop((∃ d, owns (c : Thread nD τ) scM2_0 fullShare d) ∗ (∃ d, owns (c : Thread nD τ) scM2_1 fullShare d)) ∗ restBut2 c) := by
  rw [scopedRest2_split]; simp only [scM2_0, scM2_1, owns_whole]; try rfl

end Cert.KernelIdeal

end
-- ==== Proof.KI.Reg2.RunA.lean ====
/- Region 2, the body's symbolic run at the first grid point. -/
import proofs.«118347_j18940805776024_1_alg».proof.Proof.KI.Reg2.Runs

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AT THE FIRST POINT (the accumulators are zeroed first): on whole memrefs — the five inputs' at
    their contents, the three outputs' and the two accumulators' at anything — the body runs to the continuation holding
    the inputs' as they were and every other buffer with its stores written, as lists of pieces (last first) that the
    symbolic run finds. -/
noncomputable def kernelRun2_A (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__gin_mm_kernel_eq_skeleton]; unfold cc2__gin_mm_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal

end
-- ==== Proof.KI.Reg2.RunB.lean ====
/- Region 2, the body's symbolic run after the first grid point. -/
import proofs.«118347_j18940805776024_1_alg».proof.Proof.KI.Reg2.RunA

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AFTER THE FIRST POINT (the accumulators are carried): on whole memrefs — the five inputs' at
    their contents, the three outputs' at anything, the two accumulators' at what the point before left (`xs0`, `xs1`) —
    the body runs to the continuation holding the inputs' as they were and every other buffer with its stores written,
    as lists of pieces (last first) that the symbolic run finds. -/
noncomputable def kernelRun2_B (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__gin_mm_kernel_eq_skeleton]; unfold cc2__gin_mm_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal

end
-- ==== Proof.KI.Reg2.lean ====
/- Region 2 (the two-layer perceptron with running column sums) at the buffer contents `V` the region is entered
   with: what each output window's staging buffer and the two accumulators hold after every grid point, the pipeline's
   proof data over an invariant that carries the accumulators from point to point, and the body obligation. -/
import proofs.«118347_j18940805776024_1_alg».proof.Proof.KI.Reg2.RunB

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves in the outputs' staging buffers and in the accumulators -/

/-- The stores of case A into output window 5's staging buffer cover it (each is of the whole buffer). -/
theorem cover2_A_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4).1 S5000x128.size (by sl_kernel_rfl) y

/-- What case A leaves in output window 5's staging buffer: its stores overlaid, the last on top. -/
def out2_A_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) : Vec F S5000x128 .f32 :=
  View.canon (kernelRun2_A c i arg1 harg1 arg2 harg2 arg3 harg3 arg4 harg4 arg5 harg5 arg6 harg6 arg7 harg7 arg8 harg8 arg9 harg9 arg10 harg10 hc0 x0 x1 x2 x3 x4).1

/-- The stores of case A into output window 6's staging buffer cover it (each is of the whole buffer). -/
theorem cover2_A_6 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4).2.1 S1x128.size (by sl_kernel_rfl) y

/-- What case A leaves in output window 6's staging buffer: its stores overlaid, the last on top. -/
def out2_A_6 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun2_A c i arg1 harg1 arg2 harg2 arg3 harg3 arg4 harg4 arg5 harg5 arg6 harg6 arg7 harg7 arg8 harg8 arg9 harg9 arg10 harg10 hc0 x0 x1 x2 x3 x4).2.1

/-- The stores of case A into output window 7's staging buffer cover it (each is of the whole buffer). -/
theorem cover2_A_7 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4).2.2.1 S1x128.size (by sl_kernel_rfl) y

/-- What case A leaves in output window 7's staging buffer: its stores overlaid, the last on top. -/
def out2_A_7 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun2_A c i arg1 harg1 arg2 harg2 arg3 harg3 arg4 harg4 arg5 harg5 arg6 harg6 arg7 harg7 arg8 harg8 arg9 harg9 arg10 harg10 hc0 x0 x1 x2 x3 x4).2.2.1

/-- The stores of case A into accumulator 0 cover it (each is of the whole buffer). -/
theorem scover2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4).2.2.2.1 S1x128.size (by sl_kernel_rfl) y

/-- What case A leaves in accumulator 0: its stores overlaid, the last on top. -/
def sout2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun2_A c i arg1 harg1 arg2 harg2 arg3 harg3 arg4 harg4 arg5 harg5 arg6 harg6 arg7 harg7 arg8 harg8 arg9 harg9 arg10 harg10 hc0 x0 x1 x2 x3 x4).2.2.2.1

/-- The stores of case A into accumulator 1 cover it (each is of the whole buffer). -/
theorem scover2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4).2.2.2.2.1 S1x128.size (by sl_kernel_rfl) y

/-- What case A leaves in accumulator 1: its stores overlaid, the last on top. -/
def sout2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun2_A c i arg1 harg1 arg2 harg2 arg3 harg3 arg4 harg4 arg5 harg5 arg6 harg6 arg7 harg7 arg8 harg8 arg9 harg9 arg10 harg10 hc0 x0 x1 x2 x3 x4).2.2.2.2.1

/-- The stores of case B into output window 5's staging buffer cover it (each is of the whole buffer). -/
theorem cover2_B_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 xs0 xs1).1 S5000x128.size (by sl_kernel_rfl) y

/-- What case B leaves in output window 5's staging buffer: its stores overlaid, the last on top. -/
def out2_B_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  View.canon (kernelRun2_B c i arg1 harg1 arg2 harg2 arg3 harg3 arg4 harg4 arg5 harg5 arg6 harg6 arg7 harg7 arg8 harg8 arg9 harg9 arg10 harg10 hc0 x0 x1 x2 x3 x4 xs0 xs1).1

/-- The stores of case B into output window 6's staging buffer cover it (each is of the whole buffer). -/
theorem cover2_B_6 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 xs0 xs1).2.1 S1x128.size (by sl_kernel_rfl) y

/-- What case B leaves in output window 6's staging buffer: its stores overlaid, the last on top. -/
def out2_B_6 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun2_B c i arg1 harg1 arg2 harg2 arg3 harg3 arg4 harg4 arg5 harg5 arg6 harg6 arg7 harg7 arg8 harg8 arg9 harg9 arg10 harg10 hc0 x0 x1 x2 x3 x4 xs0 xs1).2.1

/-- The stores of case B into output window 7's staging buffer cover it (each is of the whole buffer). -/
theorem cover2_B_7 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 xs0 xs1).2.2.1 S1x128.size (by sl_kernel_rfl) y

/-- What case B leaves in output window 7's staging buffer: its stores overlaid, the last on top. -/
def out2_B_7 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun2_B c i arg1 harg1 arg2 harg2 arg3 harg3 arg4 harg4 arg5 harg5 arg6 harg6 arg7 harg7 arg8 harg8 arg9 harg9 arg10 harg10 hc0 x0 x1 x2 x3 x4 xs0 xs1).2.2.1

/-- The stores of case B into accumulator 0 cover it (each is of the whole buffer). -/
theorem scover2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 xs0 xs1).2.2.2.1 S1x128.size (by sl_kernel_rfl) y

/-- What case B leaves in accumulator 0: its stores overlaid, the last on top. -/
def sout2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun2_B c i arg1 harg1 arg2 harg2 arg3 harg3 arg4 harg4 arg5 harg5 arg6 harg6 arg7 harg7 arg8 harg8 arg9 harg9 arg10 harg10 hc0 x0 x1 x2 x3 x4 xs0 xs1).2.2.2.1

/-- The stores of case B into accumulator 1 cover it (each is of the whole buffer). -/
theorem scover2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 xs0 xs1).2.2.2.2.1 S1x128.size (by sl_kernel_rfl) y

/-- What case B leaves in accumulator 1: its stores overlaid, the last on top. -/
def sout2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun2_B c i arg1 harg1 arg2 harg2 arg3 harg3 arg4 harg4 arg5 harg5 arg6 harg6 arg7 harg7 arg8 harg8 arg9 harg9 arg10 harg10 hc0 x0 x1 x2 x3 x4 xs0 xs1).2.2.2.2.1

section Region2
variable (V : (c : Dev nD) → (b : Ref sig .tc) → Buf (Elt F) ((c : Thread nD τ).loc b))

/-! ## What the outputs and the accumulators hold after each point -/

/-- THE ACCUMULATION. After the body at position `n`: output windows 5, 6, 7's staging buffers, then the two
    accumulators. The first point runs the zeroing case from the point's input blocks; every later point runs the
    carrying case from its input blocks and the accumulators as the point before left them. -/
def outsAt2 (c : Dev nD) : (n : ℕ) → n < cfg2.N → Vec F S5000x128 .f32 × Vec F S1x128 .f32 × Vec F S1x128 .f32 × Vec F S1x128 .f32 × Vec F S1x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩),
      out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩),
      out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn => (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => Nat.succ_ne_zero n ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)

/-- `outsAt2` at the first point. -/
theorem outsAt2_A (c : Dev nD) (t : Fin cfg2.N) (hz : t.val = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr hz) (iblk2 V c 0 t) (iblk2 V c 1 t) (iblk2 V c 2 t) (iblk2 V c 3 t) (iblk2 V c 4 t),
      out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr hz) (iblk2 V c 0 t) (iblk2 V c 1 t) (iblk2 V c 2 t) (iblk2 V c 3 t) (iblk2 V c 4 t),
      out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr hz) (iblk2 V c 0 t) (iblk2 V c 1 t) (iblk2 V c 2 t) (iblk2 V c 3 t) (iblk2 V c 4 t),
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr hz) (iblk2 V c 0 t) (iblk2 V c 1 t) (iblk2 V c 2 t) (iblk2 V c 3 t) (iblk2 V c 4 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr hz) (iblk2 V c 0 t) (iblk2 V c 1 t) (iblk2 V c 2 t) (iblk2 V c 3 t) (iblk2 V c 4 t)) := by
  obtain ⟨n, hn⟩ := t
  cases n with
  | zero => rfl
  | succ n => exact absurd hz (Nat.succ_ne_zero n)

/-- `outsAt2` at a later point, over what the point before left. -/
theorem outsAt2_B (c : Dev nD) (t : Fin cfg2.N) (hz : t.val ≠ 0) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => hz ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => hz ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => hz ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => hz ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => hz ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl hz
  | succ n => rfl

/-! ## The invariant: the accumulators carried between points -/

/-- The region's invariant before position `n`: before the first point what the region is entered with (the generator
    register at some state and every scoped buffer no window stages at anything); afterwards the two accumulators at what
    the point before left in them, the other such buffers unopened, and the register. -/
def PhiS2 (c : Dev nD) : (n : ℕ) → n ≤ cfg2.N → sProp 𝕄
  | 0, _ => iprop((∃ r, prngReg c r) ∗ Pipeline.scopedRest spec2 c)
  | n + 1, hn => iprop(iprop(owns (c : Thread nD τ) scM2_0 fullShare ((outsAt2 V c n hn).2.2.2.1) ∗ owns (c : Thread nD τ) scM2_1 fullShare ((outsAt2 V c n hn).2.2.2.2)) ∗ restBut2 c ∗ (∃ r, prngReg c r))

theorem PhiS2_zero (c : Dev nD) (n : ℕ) (h : n ≤ cfg2.N) (hz : n = 0) :
    PhiS2 V c n h = iprop((∃ r, prngReg c r) ∗ Pipeline.scopedRest spec2 c) := by
  subst hz; rfl

theorem PhiS2_succ (c : Dev nD) (n : ℕ) (hn : n < cfg2.N) :
    PhiS2 V c (n + 1) hn = iprop(iprop(owns (c : Thread nD τ) scM2_0 fullShare ((outsAt2 V c n hn).2.2.2.1) ∗ owns (c : Thread nD τ) scM2_1 fullShare ((outsAt2 V c n hn).2.2.2.2)) ∗ restBut2 c ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2.2.1) ∗ owns (c : Thread nD τ) scM2_1 fullShare ((outsAt2 V c (n - 1) (by omega)).2.2.2.2)) ∗ restBut2 c ∗ (∃ r, prngReg c r)) := by
  cases n with
  | zero => exact absurd rfl hz
  | succ n => rfl

/-! ## The pipeline's proof data -/

/-- The proof data of pipeline 2 on core `c`: the arrays as the region finds them; after the body at point `t` each
    input's buffer at its block and each output's at `outsAt2`'s component; the invariant `PhiS2`; nothing owed; full
    shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 4000000 in
/-- The body at any point: the inputs' memrefs hold their blocks; the point is the first or a later one, so the matching
    run applies; the invariant hands the body the accumulators (at anything at the first point, at what the point before
    left afterwards) and takes them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7]
  by_cases hz : t.val = 0
  · rw [outsAt2_A V c t hz]
    unfold out2_A_5 out2_A_6 out2_A_7 sout2_A_0 sout2_A_1; dsimp only
    rw [PhiS2_castSucc V c t, PhiS2_zero V c _ _ hz, scopedRest2_owns]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ _ _ _ _ ((hcond2_0 t).mpr hz) (iblk2 V c 0 t) (iblk2 V c 1 t) (iblk2 V c 2 t) (iblk2 V c 3 t) (iblk2 V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover2_A_0 c _ _ _ _ _ _ _ _ _ _ _ _ _ _ _ _ _ _ _ _ _ _ _ _ _ _ _)
        · unfold owns; iexists _; isplitr
          swap; · iexact HS1
          ipureintro; exact View.read_writes_eq_canon _ _ _ (scover2_A_1 c _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover2_A_5 c _ _ _ _ _ _ _ _ _ _ _ _ _ _ _ _ _ _ _ _ _ _ _ _ _ _ _)
    isplitl [H6]
    · unfold owns; iexists _; isplitr
      swap; · iexact H6
      ipureintro; exact View.read_writes_eq_canon _ _ _ (cover2_A_6 c _ _ _ _ _ _ _ _ _ _ _ _ _ _ _ _ _ _ _ _ _ _ _ _ _ _ _)
    · unfold owns; iexists _; isplitr
      swap; · iexact H7
      ipureintro; exact View.read_writes_eq_canon _ _ _ (cover2_A_7 c _ _ _ _ _ _ _ _ _ _ _ _ _ _ _ _ _ _ _ _ _ _ _ _ _ _ _)
  · rw [outsAt2_B V c t hz]
    unfold out2_B_5 out2_B_6 out2_B_7 sout2_B_0 sout2_B_1; dsimp only
    rw [PhiS2_castSucc V c t, PhiS2_pos V c _ _ hz]
    iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_B c (grid2.coords t) _ _ _ _ _ _ _ _ _ _ _ _ _ _ _ _ _ _ _ _ (fun h => hz ((hcond2_0 t).mp h)) (iblk2 V c 0 t) (iblk2 V c 1 t) (iblk2 V c 2 t) (iblk2 V c 3 t) (iblk2 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover2_B_0 c _ _ _ _ _ _ _ _ _ _ _ _ _ _ _ _ _ _ _ _ _ _ _ _ _ _ _ _ _)
        · unfold owns; iexists _; isplitr
          swap; · iexact HS1
          ipureintro; exact View.read_writes_eq_canon _ _ _ (scover2_B_1 c _ _ _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover2_B_5 c _ _ _ _ _ _ _ _ _ _ _ _ _ _ _ _ _ _ _ _ _ _ _ _ _ _ _ _ _)
    isplitl [H6]
    · unfold owns; iexists _; isplitr
      swap; · iexact H6
      ipureintro; exact View.read_writes_eq_canon _ _ _ (cover2_B_6 c _ _ _ _ _ _ _ _ _ _ _ _ _ _ _ _ _ _ _ _ _ _ _ _ _ _ _ _ _)
    · unfold owns; iexists _; isplitr
      swap; · iexact H7
      ipureintro; exact View.read_writes_eq_canon _ _ _ (cover2_B_7 c _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem Phi2_in (c : Dev nD) : iprop((∃ r, prngReg c r) ∗ Pipeline.scopedRest spec2 c) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the entry resources back: the accumulators' contents are forgotten. -/
theorem Phi2_out (c : Dev nD) : (dat2 V c).Φ (Fin.last _) ⊢ iprop((∃ r, prngReg c r) ∗ Pipeline.scopedRest spec2 c) := by
  rw [show (dat2 V c).Φ (Fin.last _) = PhiS2 V c (Fin.last cfg2.N).val (Nat.le_of_lt_succ (Fin.last cfg2.N).isLt) from rfl,
    PhiS2_pos V c _ _ (by rw [Fin.val_last]; have : cfg2.N = 20 := N_2; omega), scopedRest2_owns]
  iintro ⟨⟨HS0, HS1⟩, HR, Hg⟩
  isplitl [Hg]; · iexact Hg
  isplitl [HS0 HS1]
  · isplitl [HS0]
    · iexists _; iexact HS0
    · iexists _; iexact HS1
  iexact HR

end Region2

end Cert.KernelIdeal

end
-- ==== Proof.KI.Reg3.lean ====
import proofs.«118347_j18940805776024_1_alg».proof.Proof.Gen.KernelIdeal.Launch
import proofs.«118347_j18940805776024_1_alg».proof.Proof.Gen.KernelIdeal.Skeleton
import proofs.«118347_j18940805776024_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 3: `cc3__gin_bn_kernel` on a grid of 10 row blocks

Each point normalises one block of 10000 rows of `z` (window 0) lane by lane with the four row vectors `mu`, `var`,
`gamma`, `beta` (windows 1–4, whose single block is the whole array) and writes the block of `h` (window 5):
`h = (z − mu) · rsqrt(var + ε) · gamma + beta`. The body reads every input through its whole staging buffer and
stores the whole output buffer once, so what it leaves there is a function of the five input blocks alone. -/

/-- Window `w`'s block at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every point, whether or not the pipeline fetched
    it there: an unfetched input's block index has not moved, so the block kept from the point before is this point's. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds the window's block at every point, whether or not the pipeline fetched
    it there: an unfetched input's block index has not moved, so the block kept from the point before is this point's. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds the window's block at every point, whether or not the pipeline fetched
    it there: an unfetched input's block index has not moved, so the block kept from the point before is this point's. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds the window's block at every point, whether or not the pipeline fetched
    it there: an unfetched input's block index has not moved, so the block kept from the point before is this point's. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds the window's block at every point, whether or not the pipeline fetched
    it there: an unfetched input's block index has not moved, so the block kept from the point before is this point's. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole 10000×128 buffer as a rectangle, and the whole 1×128 one. -/
abbrev r3_z : Rect S10000x128 := Rect.unit (s := S10000x128) ![0, 0] S10000x128.size inb_S10000x128_S10000x128_0_0
abbrev r3_v : Rect S1x128 := Rect.unit (s := S1x128) ![0, 0] S1x128.size inb_S1x128_S1x128_0_0

/-- The output block after the body, from the five input blocks: the one store's value laid over the buffer. -/
def out3_5 (x0 : Vec F S10000x128 .f32) (x1 x2 x3 x4 : Vec F S1x128 .f32) : Vec F S10000x128 .f32 :=
  View.canon [⟨r3_z, k3_pay1 (View.ld x0 r3_z) (View.ld x1 r3_v) (View.ld x2 r3_v) (View.ld x3 r3_v) (View.ld x4 r3_v)⟩]

/-- The one store is of the whole buffer, so it covers every index. -/
theorem cover3_5 (p0 : Vec F S10000x128 .f32) (y : S10000x128.Idx) :
    ∃ pc ∈ ([⟨r3_z, p0⟩] : List (View.Piece (Elt F) S10000x128 .f32)), y ∈ pc.1.set :=
  View.cover_of_tiled [⟨r3_z, p0⟩] S10000x128.size (by rfl) y

set_option maxHeartbeats 1000000 in
/-- The body on whole staging buffers: the inputs read `x0 … x4`, the output holds anything; it ends with the inputs
    as they were and the output at `out3_5` of the inputs. -/
theorem sound_kernel3 (c : Dev nD) (E : Set ℕ) (i : grid3.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__gin_bn_kernel i arg1 harg1 arg2 harg2 arg3 harg3 arg4 harg4 arg5 harg5 arg6 harg6) K := by
  simp only [cc3__gin_bn_kernel_eq_skeleton]; unfold cc3__gin_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The region's proof data on core `c`: the arrays as the region finds them; after the body at point `t` each
    input buffer still at its block and the output buffer at `out3_5` of the input blocks; the invariant that leaves
    the scoped rest and the generator register alone; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents (the definition projected, never unfolded further). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

/-- Each input's staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's launch, at every point. -/
theorem body_obligation3 (c : Dev nD) : BodyObligation (dat3 (F := F) V c) (defs₀ (F := F)) Variants.none () Set.univ := fun t => by
  rw [bigSep_W3, bigSep_W3]
  exact sound_body3 V c t

end Cert.KernelIdeal

end
-- ==== Proof.KI.Reg4.Runs.lean ====
/- Region 4 (the two-layer perceptron with running column sums): what its two control cases share — the
    windows' blocks as the region finds them, the branch condition in closed form, the staging and scratch
    memrefs, and the region's entry resources with the two accumulators split out. -/
import proofs.«118347_j18940805776024_1_alg».proof.Proof.Gen.KernelIdeal.Launch
import proofs.«118347_j18940805776024_1_alg».proof.Proof.Gen.KernelIdeal.Skeleton
import proofs.«118347_j18940805776024_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region4
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: an unfetched
    input's block index has not moved. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: an unfetched
    input's block index has not moved. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: an unfetched
    input's block index has not moved. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not: an unfetched
    input's block index has not moved. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not: an unfetched
    input's block index has not moved. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

end Region4

/-- The body's one branch condition (is this the first grid point?), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- No window is idle at any point. -/
theorem liveAt4 : ∀ (w : Fin cfg4.W) (t : Fin cfg4.N), cfg4.idle w (grid4.coords t) = false := fun _ _ => rfl

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
/-- The two accumulators: whole scoped buffers of the kernel's own, passed beside the windows. -/
abbrev scM4_0 : Memref sig .tc .vmem S1x128 .f32 := Memref.whole cc4_scratch0
abbrev scM4_1 : Memref sig .tc .vmem S1x128 .f32 := Memref.whole cc4_scratch1
/-- One staging buffer of each output window and the accumulators as views: contents are stated through them. -/
abbrev VO4_5 : View sig .tc .vmem S5000x128 .f32 := (Memref.whole cc4_stg5_0 : Memref sig .tc .vmem S5000x128 .f32).view
abbrev VO4_6 : View sig .tc .vmem S1x128 .f32 := (Memref.whole cc4_stg6_0 : Memref sig .tc .vmem S1x128 .f32).view
abbrev VO4_7 : View sig .tc .vmem S1x128 .f32 := (Memref.whole cc4_stg7_0 : Memref sig .tc .vmem S1x128 .f32).view
abbrev VS4_0 : View sig .tc .vmem S1x128 .f32 := scM4_0.view
abbrev VS4_1 : View sig .tc .vmem S1x128 .f32 := scM4_1.view

/-- The scoped buffers no window of this region stages, other than its two accumulators. -/
abbrev restBut4 (c : Dev nD) : sProp 𝕄 :=
  Pipeline.scopedRestBut (Ix := Unit) (Name := ℕ) (U := Pipeline.UD sig nD τ) (Lvl := ℕ) (Val := Elt F) spec4 c [cc4_scratch0, cc4_scratch1]

/-- The region's entry resources with the accumulators as memrefs owned at some contents. -/
theorem scopedRest4_owns (c : Dev nD) :
    (Pipeline.scopedRest (Ix := Unit) (Name := ℕ) (U := Pipeline.UD sig nD τ) (Lvl := ℕ) (Val := Elt F) spec4 c : sProp 𝕄)
      = iprop(iprop((∃ d, owns (c : Thread nD τ) scM4_0 fullShare d) ∗ (∃ d, owns (c : Thread nD τ) scM4_1 fullShare d)) ∗ restBut4 c) := by
  rw [scopedRest4_split]; simp only [scM4_0, scM4_1, owns_whole]; try rfl

end Cert.KernelIdeal

end
-- ==== Proof.KI.Reg4.RunA.lean ====
/- Region 4, the body's symbolic run at the first grid point. -/
import proofs.«118347_j18940805776024_1_alg».proof.Proof.KI.Reg4.Runs

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AT THE FIRST POINT (the accumulators are zeroed first): on whole memrefs — the five inputs' at
    their contents, the three outputs' and the two accumulators' at anything — the body runs to the continuation holding
    the inputs' as they were and every other buffer with its stores written, as lists of pieces (last first) that the
    symbolic run finds. -/
noncomputable def kernelRun4_A (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__gin_mm_kernel_eq_skeleton]; unfold cc4__gin_mm_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal

end
-- ==== Proof.KI.Reg4.RunB.lean ====
/- Region 4, the body's symbolic run after the first grid point. -/
import proofs.«118347_j18940805776024_1_alg».proof.Proof.KI.Reg4.RunA

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AFTER THE FIRST POINT (the accumulators are carried): on whole memrefs — the five inputs' at
    their contents, the three outputs' at anything, the two accumulators' at what the point before left (`xs0`, `xs1`) —
    the body runs to the continuation holding the inputs' as they were and every other buffer with its stores written,
    as lists of pieces (last first) that the symbolic run finds. -/
noncomputable def kernelRun4_B (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__gin_mm_kernel_eq_skeleton]; unfold cc4__gin_mm_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal

end
-- ==== Proof.KI.Reg4.lean ====
/- Region 4 (the two-layer perceptron with running column sums) at the buffer contents `V` the region is entered
   with: what each output window's staging buffer and the two accumulators hold after every grid point, the pipeline's
   proof data over an invariant that carries the accumulators from point to point, and the body obligation. -/
import proofs.«118347_j18940805776024_1_alg».proof.Proof.KI.Reg4.RunB

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves in the outputs' staging buffers and in the accumulators -/

/-- The stores of case A into output window 5's staging buffer cover it (each is of the whole buffer). -/
theorem cover4_A_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4).1 S5000x128.size (by sl_kernel_rfl) y

/-- What case A leaves in output window 5's staging buffer: its stores overlaid, the last on top. -/
def out4_A_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) : Vec F S5000x128 .f32 :=
  View.canon (kernelRun4_A c i arg1 harg1 arg2 harg2 arg3 harg3 arg4 harg4 arg5 harg5 arg6 harg6 arg7 harg7 arg8 harg8 arg9 harg9 arg10 harg10 hc0 x0 x1 x2 x3 x4).1

/-- The stores of case A into output window 6's staging buffer cover it (each is of the whole buffer). -/
theorem cover4_A_6 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4).2.1 S1x128.size (by sl_kernel_rfl) y

/-- What case A leaves in output window 6's staging buffer: its stores overlaid, the last on top. -/
def out4_A_6 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun4_A c i arg1 harg1 arg2 harg2 arg3 harg3 arg4 harg4 arg5 harg5 arg6 harg6 arg7 harg7 arg8 harg8 arg9 harg9 arg10 harg10 hc0 x0 x1 x2 x3 x4).2.1

/-- The stores of case A into output window 7's staging buffer cover it (each is of the whole buffer). -/
theorem cover4_A_7 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4).2.2.1 S1x128.size (by sl_kernel_rfl) y

/-- What case A leaves in output window 7's staging buffer: its stores overlaid, the last on top. -/
def out4_A_7 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun4_A c i arg1 harg1 arg2 harg2 arg3 harg3 arg4 harg4 arg5 harg5 arg6 harg6 arg7 harg7 arg8 harg8 arg9 harg9 arg10 harg10 hc0 x0 x1 x2 x3 x4).2.2.1

/-- The stores of case A into accumulator 0 cover it (each is of the whole buffer). -/
theorem scover4_A_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4).2.2.2.1 S1x128.size (by sl_kernel_rfl) y

/-- What case A leaves in accumulator 0: its stores overlaid, the last on top. -/
def sout4_A_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun4_A c i arg1 harg1 arg2 harg2 arg3 harg3 arg4 harg4 arg5 harg5 arg6 harg6 arg7 harg7 arg8 harg8 arg9 harg9 arg10 harg10 hc0 x0 x1 x2 x3 x4).2.2.2.1

/-- The stores of case A into accumulator 1 cover it (each is of the whole buffer). -/
theorem scover4_A_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 x0 x1 x2 x3 x4).2.2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 x0 x1 x2 x3 x4).2.2.2.2.1 S1x128.size (by sl_kernel_rfl) y

/-- What case A leaves in accumulator 1: its stores overlaid, the last on top. -/
def sout4_A_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun4_A c i arg1 harg1 arg2 harg2 arg3 harg3 arg4 harg4 arg5 harg5 arg6 harg6 arg7 harg7 arg8 harg8 arg9 harg9 arg10 harg10 hc0 x0 x1 x2 x3 x4).2.2.2.2.1

/-- The stores of case B into output window 5's staging buffer cover it (each is of the whole buffer). -/
theorem cover4_B_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 xs0 xs1).1 S5000x128.size (by sl_kernel_rfl) y

/-- What case B leaves in output window 5's staging buffer: its stores overlaid, the last on top. -/
def out4_B_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  View.canon (kernelRun4_B c i arg1 harg1 arg2 harg2 arg3 harg3 arg4 harg4 arg5 harg5 arg6 harg6 arg7 harg7 arg8 harg8 arg9 harg9 arg10 harg10 hc0 x0 x1 x2 x3 x4 xs0 xs1).1

/-- The stores of case B into output window 6's staging buffer cover it (each is of the whole buffer). -/
theorem cover4_B_6 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 xs0 xs1).2.1 S1x128.size (by sl_kernel_rfl) y

/-- What case B leaves in output window 6's staging buffer: its stores overlaid, the last on top. -/
def out4_B_6 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun4_B c i arg1 harg1 arg2 harg2 arg3 harg3 arg4 harg4 arg5 harg5 arg6 harg6 arg7 harg7 arg8 harg8 arg9 harg9 arg10 harg10 hc0 x0 x1 x2 x3 x4 xs0 xs1).2.1

/-- The stores of case B into output window 7's staging buffer cover it (each is of the whole buffer). -/
theorem cover4_B_7 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 xs0 xs1).2.2.1 S1x128.size (by sl_kernel_rfl) y

/-- What case B leaves in output window 7's staging buffer: its stores overlaid, the last on top. -/
def out4_B_7 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun4_B c i arg1 harg1 arg2 harg2 arg3 harg3 arg4 harg4 arg5 harg5 arg6 harg6 arg7 harg7 arg8 harg8 arg9 harg9 arg10 harg10 hc0 x0 x1 x2 x3 x4 xs0 xs1).2.2.1

/-- The stores of case B into accumulator 0 cover it (each is of the whole buffer). -/
theorem scover4_B_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 xs0 xs1).2.2.2.1 S1x128.size (by sl_kernel_rfl) y

/-- What case B leaves in accumulator 0: its stores overlaid, the last on top. -/
def sout4_B_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun4_B c i arg1 harg1 arg2 harg2 arg3 harg3 arg4 harg4 arg5 harg5 arg6 harg6 arg7 harg7 arg8 harg8 arg9 harg9 arg10 harg10 hc0 x0 x1 x2 x3 x4 xs0 xs1).2.2.2.1

/-- The stores of case B into accumulator 1 cover it (each is of the whole buffer). -/
theorem scover4_B_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 x0 x1 x2 x3 x4 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 x0 x1 x2 x3 x4 xs0 xs1).2.2.2.2.1 S1x128.size (by sl_kernel_rfl) y

/-- What case B leaves in accumulator 1: its stores overlaid, the last on top. -/
def sout4_B_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun4_B c i arg1 harg1 arg2 harg2 arg3 harg3 arg4 harg4 arg5 harg5 arg6 harg6 arg7 harg7 arg8 harg8 arg9 harg9 arg10 harg10 hc0 x0 x1 x2 x3 x4 xs0 xs1).2.2.2.2.1

section Region4
variable (V : (c : Dev nD) → (b : Ref sig .tc) → Buf (Elt F) ((c : Thread nD τ).loc b))

/-! ## What the outputs and the accumulators hold after each point -/

/-- THE ACCUMULATION. After the body at position `n`: output windows 5, 6, 7's staging buffers, then the two
    accumulators. The first point runs the zeroing case from the point's input blocks; every later point runs the
    carrying case from its input blocks and the accumulators as the point before left them. -/
def outsAt4 (c : Dev nD) : (n : ℕ) → n < cfg4.N → Vec F S5000x128 .f32 × Vec F S1x128 .f32 × Vec F S1x128 .f32 × Vec F S1x128 .f32 × Vec F S1x128 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩),
      out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩),
      out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn => (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => Nat.succ_ne_zero n ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)

/-- `outsAt4` at the first point. -/
theorem outsAt4_A (c : Dev nD) (t : Fin cfg4.N) (hz : t.val = 0) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr hz) (iblk4 V c 0 t) (iblk4 V c 1 t) (iblk4 V c 2 t) (iblk4 V c 3 t) (iblk4 V c 4 t),
      out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr hz) (iblk4 V c 0 t) (iblk4 V c 1 t) (iblk4 V c 2 t) (iblk4 V c 3 t) (iblk4 V c 4 t),
      out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr hz) (iblk4 V c 0 t) (iblk4 V c 1 t) (iblk4 V c 2 t) (iblk4 V c 3 t) (iblk4 V c 4 t),
      sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr hz) (iblk4 V c 0 t) (iblk4 V c 1 t) (iblk4 V c 2 t) (iblk4 V c 3 t) (iblk4 V c 4 t),
      sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr hz) (iblk4 V c 0 t) (iblk4 V c 1 t) (iblk4 V c 2 t) (iblk4 V c 3 t) (iblk4 V c 4 t)) := by
  obtain ⟨n, hn⟩ := t
  cases n with
  | zero => rfl
  | succ n => exact absurd hz (Nat.succ_ne_zero n)

/-- `outsAt4` at a later point, over what the point before left. -/
theorem outsAt4_B (c : Dev nD) (t : Fin cfg4.N) (hz : t.val ≠ 0) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => hz ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => hz ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => hz ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => hz ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => hz ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl hz
  | succ n => rfl

/-! ## The invariant: the accumulators carried between points -/

/-- The region's invariant before position `n`: before the first point what the region is entered with (the generator
    register at some state and every scoped buffer no window stages at anything); afterwards the two accumulators at what
    the point before left in them, the other such buffers unopened, and the register. -/
def PhiS4 (c : Dev nD) : (n : ℕ) → n ≤ cfg4.N → sProp 𝕄
  | 0, _ => iprop((∃ r, prngReg c r) ∗ Pipeline.scopedRest spec4 c)
  | n + 1, hn => iprop(iprop(owns (c : Thread nD τ) scM4_0 fullShare ((outsAt4 V c n hn).2.2.2.1) ∗ owns (c : Thread nD τ) scM4_1 fullShare ((outsAt4 V c n hn).2.2.2.2)) ∗ restBut4 c ∗ (∃ r, prngReg c r))

theorem PhiS4_zero (c : Dev nD) (n : ℕ) (h : n ≤ cfg4.N) (hz : n = 0) :
    PhiS4 V c n h = iprop((∃ r, prngReg c r) ∗ Pipeline.scopedRest spec4 c) := by
  subst hz; rfl

theorem PhiS4_succ (c : Dev nD) (n : ℕ) (hn : n < cfg4.N) :
    PhiS4 V c (n + 1) hn = iprop(iprop(owns (c : Thread nD τ) scM4_0 fullShare ((outsAt4 V c n hn).2.2.2.1) ∗ owns (c : Thread nD τ) scM4_1 fullShare ((outsAt4 V c n hn).2.2.2.2)) ∗ restBut4 c ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2.2.2.1) ∗ owns (c : Thread nD τ) scM4_1 fullShare ((outsAt4 V c (n - 1) (by omega)).2.2.2.2)) ∗ restBut4 c ∗ (∃ r, prngReg c r)) := by
  cases n with
  | zero => exact absurd rfl hz
  | succ n => rfl

/-! ## The pipeline's proof data -/

/-- The proof data of pipeline 4 on core `c`: the arrays as the region finds them; after the body at point `t` each
    input's buffer at its block and each output's at `outsAt4`'s component; the invariant `PhiS4`; nothing owed; full
    shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t))

set_option maxHeartbeats 4000000 in
/-- The body at any point: the inputs' memrefs hold their blocks; the point is the first or a later one, so the matching
    run applies; the invariant hands the body the accumulators (at anything at the first point, at what the point before
    left afterwards) and takes them back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [after4_0, after4_1, after4_2, after4_3, after4_4, after4_5, after4_6, after4_7]
  by_cases hz : t.val = 0
  · rw [outsAt4_A V c t hz]
    unfold out4_A_5 out4_A_6 out4_A_7 sout4_A_0 sout4_A_1; dsimp only
    rw [PhiS4_castSucc V c t, PhiS4_zero V c _ _ hz, scopedRest4_owns]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ _ _ _ _ ((hcond4_0 t).mpr hz) (iblk4 V c 0 t) (iblk4 V c 1 t) (iblk4 V c 2 t) (iblk4 V c 3 t) (iblk4 V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover4_A_0 c _ _ _ _ _ _ _ _ _ _ _ _ _ _ _ _ _ _ _ _ _ _ _ _ _ _ _)
        · unfold owns; iexists _; isplitr
          swap; · iexact HS1
          ipureintro; exact View.read_writes_eq_canon _ _ _ (scover4_A_1 c _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover4_A_5 c _ _ _ _ _ _ _ _ _ _ _ _ _ _ _ _ _ _ _ _ _ _ _ _ _ _ _)
    isplitl [H6]
    · unfold owns; iexists _; isplitr
      swap; · iexact H6
      ipureintro; exact View.read_writes_eq_canon _ _ _ (cover4_A_6 c _ _ _ _ _ _ _ _ _ _ _ _ _ _ _ _ _ _ _ _ _ _ _ _ _ _ _)
    · unfold owns; iexists _; isplitr
      swap; · iexact H7
      ipureintro; exact View.read_writes_eq_canon _ _ _ (cover4_A_7 c _ _ _ _ _ _ _ _ _ _ _ _ _ _ _ _ _ _ _ _ _ _ _ _ _ _ _)
  · rw [outsAt4_B V c t hz]
    unfold out4_B_5 out4_B_6 out4_B_7 sout4_B_0 sout4_B_1; dsimp only
    rw [PhiS4_castSucc V c t, PhiS4_pos V c _ _ hz]
    iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_B c (grid4.coords t) _ _ _ _ _ _ _ _ _ _ _ _ _ _ _ _ _ _ _ _ (fun h => hz ((hcond4_0 t).mp h)) (iblk4 V c 0 t) (iblk4 V c 1 t) (iblk4 V c 2 t) (iblk4 V c 3 t) (iblk4 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover4_B_0 c _ _ _ _ _ _ _ _ _ _ _ _ _ _ _ _ _ _ _ _ _ _ _ _ _ _ _ _ _)
        · unfold owns; iexists _; isplitr
          swap; · iexact HS1
          ipureintro; exact View.read_writes_eq_canon _ _ _ (scover4_B_1 c _ _ _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover4_B_5 c _ _ _ _ _ _ _ _ _ _ _ _ _ _ _ _ _ _ _ _ _ _ _ _ _ _ _ _ _)
    isplitl [H6]
    · unfold owns; iexists _; isplitr
      swap; · iexact H6
      ipureintro; exact View.read_writes_eq_canon _ _ _ (cover4_B_6 c _ _ _ _ _ _ _ _ _ _ _ _ _ _ _ _ _ _ _ _ _ _ _ _ _ _ _ _ _)
    · unfold owns; iexists _; isplitr
      swap; · iexact H7
      ipureintro; exact View.read_writes_eq_canon _ _ _ (cover4_B_7 c _ _ _ _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem Phi4_in (c : Dev nD) : iprop((∃ r, prngReg c r) ∗ Pipeline.scopedRest spec4 c) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the entry resources back: the accumulators' contents are forgotten. -/
theorem Phi4_out (c : Dev nD) : (dat4 V c).Φ (Fin.last _) ⊢ iprop((∃ r, prngReg c r) ∗ Pipeline.scopedRest spec4 c) := by
  rw [show (dat4 V c).Φ (Fin.last _) = PhiS4 V c (Fin.last cfg4.N).val (Nat.le_of_lt_succ (Fin.last cfg4.N).isLt) from rfl,
    PhiS4_pos V c _ _ (by rw [Fin.val_last]; have : cfg4.N = 20 := N_4; omega), scopedRest4_owns]
  iintro ⟨⟨HS0, HS1⟩, HR, Hg⟩
  isplitl [Hg]; · iexact Hg
  isplitl [HS0 HS1]
  · isplitl [HS0]
    · iexists _; iexact HS0
    · iexists _; iexact HS1
  iexact HR

end Region4

end Cert.KernelIdeal

end
-- ==== Proof.KI.Reg5.lean ====
import proofs.«118347_j18940805776024_1_alg».proof.Proof.Gen.KernelIdeal.Launch
import proofs.«118347_j18940805776024_1_alg».proof.Proof.Gen.KernelIdeal.Skeleton
import proofs.«118347_j18940805776024_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 5: `cc5__gin_bn_kernel` on a grid of 10 row blocks

Each point normalises one block of 10000 rows of `z` (window 0) lane by lane with the four row vectors `mu`, `var`,
`gamma`, `beta` (windows 1–4, whose single block is the whole array) and writes the block of `h` (window 5):
`h = (z − mu) · rsqrt(var + ε) · gamma + beta`. The body reads every input through its whole staging buffer and
stores the whole output buffer once, so what it leaves there is a function of the five input blocks alone. -/

/-- Window `w`'s block at point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the window's block at every point, whether or not the pipeline fetched
    it there: an unfetched input's block index has not moved, so the block kept from the point before is this point's. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds the window's block at every point, whether or not the pipeline fetched
    it there: an unfetched input's block index has not moved, so the block kept from the point before is this point's. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds the window's block at every point, whether or not the pipeline fetched
    it there: an unfetched input's block index has not moved, so the block kept from the point before is this point's. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds the window's block at every point, whether or not the pipeline fetched
    it there: an unfetched input's block index has not moved, so the block kept from the point before is this point's. -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds the window's block at every point, whether or not the pipeline fetched
    it there: an unfetched input's block index has not moved, so the block kept from the point before is this point's. -/
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole 10000×128 buffer as a rectangle, and the whole 1×128 one. -/
abbrev r5_z : Rect S10000x128 := Rect.unit (s := S10000x128) ![0, 0] S10000x128.size inb_S10000x128_S10000x128_0_0
abbrev r5_v : Rect S1x128 := Rect.unit (s := S1x128) ![0, 0] S1x128.size inb_S1x128_S1x128_0_0

/-- The output block after the body, from the five input blocks: the one store's value laid over the buffer. -/
def out5_5 (x0 : Vec F S10000x128 .f32) (x1 x2 x3 x4 : Vec F S1x128 .f32) : Vec F S10000x128 .f32 :=
  View.canon [⟨r5_z, k5_pay1 (View.ld x0 r5_z) (View.ld x1 r5_v) (View.ld x2 r5_v) (View.ld x3 r5_v) (View.ld x4 r5_v)⟩]

/-- The one store is of the whole buffer, so it covers every index. -/
theorem cover5_5 (p0 : Vec F S10000x128 .f32) (y : S10000x128.Idx) :
    ∃ pc ∈ ([⟨r5_z, p0⟩] : List (View.Piece (Elt F) S10000x128 .f32)), y ∈ pc.1.set :=
  View.cover_of_tiled [⟨r5_z, p0⟩] S10000x128.size (by rfl) y

set_option maxHeartbeats 1000000 in
/-- The body on whole staging buffers: the inputs read `x0 … x4`, the output holds anything; it ends with the inputs
    as they were and the output at `out5_5` of the inputs. -/
theorem sound_kernel5 (c : Dev nD) (E : Set ℕ) (i : grid5.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__gin_bn_kernel i arg1 harg1 arg2 harg2 arg3 harg3 arg4 harg4 arg5 harg5 arg6 harg6) K := by
  simp only [cc5__gin_bn_kernel_eq_skeleton]; unfold cc5__gin_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The region's proof data on core `c`: the arrays as the region finds them; after the body at point `t` each
    input buffer still at its block and the output buffer at `out5_5` of the input blocks; the invariant that leaves
    the scoped rest and the generator register alone; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the entry contents (the definition projected, never unfolded further). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5_5 (iblk5 V c 0 t) (iblk5 V c 1 t) (iblk5 V c 2 t) (iblk5 V c 3 t) (iblk5 V c 4 t) := by dsimp only [dat5]

/-- Each input's staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's launch, at every point. -/
theorem body_obligation5 (c : Dev nD) : BodyObligation (dat5 (F := F) V c) (defs₀ (F := F)) Variants.none () Set.univ := fun t => by
  rw [bigSep_W5, bigSep_W5]
  exact sound_body5 V c t

end Cert.KernelIdeal

end
-- ==== Proof.KI.Reg6.Runs.lean ====
/- Region 6 (the two-layer perceptron with running column sums): what its two control cases share — the
    windows' blocks as the region finds them, the branch condition in closed form, the staging and scratch
    memrefs, and the region's entry resources with the two accumulators split out. -/
import proofs.«118347_j18940805776024_1_alg».proof.Proof.Gen.KernelIdeal.Launch
import proofs.«118347_j18940805776024_1_alg».proof.Proof.Gen.KernelIdeal.Skeleton
import proofs.«118347_j18940805776024_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region6
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not: an unfetched
    input's block index has not moved. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not: an unfetched
    input's block index has not moved. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not: an unfetched
    input's block index has not moved. -/
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not: an unfetched
    input's block index has not moved. -/
theorem before6_3_of {c : Dev nD} (dat : Dat τ (Elt F) Unit ℕ (Pipeline.UD sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not: an unfetched
    input's block index has not moved. -/
theorem before6_4_of {c : Dev nD} (dat : Dat τ (Elt F) Unit ℕ (Pipeline.UD sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

end Region6

/-- The body's one branch condition (is this the first grid point?), from the grid coordinates. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- No window is idle at any point. -/
theorem liveAt6 : ∀ (w : Fin cfg6.W) (t : Fin cfg6.N), cfg6.idle w (grid6.coords t) = false := fun _ _ => rfl

abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S128x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S5000x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
/-- The two accumulators: whole scoped buffers of the kernel's own, passed beside the windows. -/
abbrev scM6_0 : Memref sig .tc .vmem S1x128 .f32 := Memref.whole cc6_scratch0
abbrev scM6_1 : Memref sig .tc .vmem S1x128 .f32 := Memref.whole cc6_scratch1
/-- One staging buffer of each output window and the accumulators as views: contents are stated through them. -/
abbrev VO6_5 : View sig .tc .vmem S5000x128 .f32 := (Memref.whole cc6_stg5_0 : Memref sig .tc .vmem S5000x128 .f32).view
abbrev VO6_6 : View sig .tc .vmem S1x128 .f32 := (Memref.whole cc6_stg6_0 : Memref sig .tc .vmem S1x128 .f32).view
abbrev VO6_7 : View sig .tc .vmem S1x128 .f32 := (Memref.whole cc6_stg7_0 : Memref sig .tc .vmem S1x128 .f32).view
abbrev VS6_0 : View sig .tc .vmem S1x128 .f32 := scM6_0.view
abbrev VS6_1 : View sig .tc .vmem S1x128 .f32 := scM6_1.view

/-- The scoped buffers no window of this region stages, other than its two accumulators. -/
abbrev restBut6 (c : Dev nD) : sProp 𝕄 :=
  Pipeline.scopedRestBut (Ix := Unit) (Name := ℕ) (U := Pipeline.UD sig nD τ) (Lvl := ℕ) (Val := Elt F) spec6 c [cc6_scratch0, cc6_scratch1]

/-- The region's entry resources with the accumulators as memrefs owned at some contents. -/
theorem scopedRest6_owns (c : Dev nD) :
    (Pipeline.scopedRest (Ix := Unit) (Name := ℕ) (U := Pipeline.UD sig nD τ) (Lvl := ℕ) (Val := Elt F) spec6 c : sProp 𝕄)
      = iprop(iprop((∃ d, owns (c : Thread nD τ) scM6_0 fullShare d) ∗ (∃ d, owns (c : Thread nD τ) scM6_1 fullShare d)) ∗ restBut6 c) := by
  rw [scopedRest6_split]; simp only [scM6_0, scM6_1, owns_whole]; try rfl

end Cert.KernelIdeal

end
-- ==== Proof.KI.Reg6.RunA.lean ====
/- Region 6, the body's symbolic run at the first grid point. -/
import proofs.«118347_j18940805776024_1_alg».proof.Proof.KI.Reg6.Runs

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AT THE FIRST POINT (the accumulators are zeroed first): on whole memrefs — the five inputs' at
    their contents, the three outputs' and the two accumulators' at anything — the body runs to the continuation holding
    the inputs' as they were and every other buffer with its stores written, as lists of pieces (last first) that the
    symbolic run finds. -/
noncomputable def kernelRun6_A (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc6__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc6__gin_mm_kernel_eq_skeleton]; unfold cc6__gin_mm_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal

end
-- ==== Proof.KI.Reg6.RunB.lean ====
/- Region 6, the body's symbolic run after the first grid point. -/
import proofs.«118347_j18940805776024_1_alg».proof.Proof.KI.Reg6.RunA

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple AFTER THE FIRST POINT (the accumulators are carried): on whole memrefs — the five inputs' at
    their contents, the three outputs' at anything, the two accumulators' at what the point before left (`xs0`, `xs1`) —
    the body runs to the continuation holding the inputs' as they were and every other buffer with its stores written,
    as lists of pieces (last first) that the symbolic run finds. -/
noncomputable def kernelRun6_B (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc6__gin_mm_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc6__gin_mm_kernel_eq_skeleton]; unfold cc6__gin_mm_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal

end
-- ==== Proof.KI.Reg6.lean ====
/- Region 6 (the two-layer perceptron with running column sums) at the buffer contents `V` the region is entered
   with: what each output window's staging buffer and the two accumulators hold after every grid point, the pipeline's
   proof data over an invariant that carries the accumulators from point to point, and the body obligation. -/
import proofs.«118347_j18940805776024_1_alg».proof.Proof.KI.Reg6.RunB

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves in the outputs' staging buffers and in the accumulators -/

/-- The stores of case A into output window 5's staging buffer cover it (each is of the whole buffer). -/
theorem cover6_A_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun6_A c i arg1 harg1 arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun6_A c i arg1 harg1 arg2 harg2 arg3 harg3 arg4 harg4 arg5 harg5 arg6 harg6 arg7 harg7 arg8 harg8 arg9 harg9 arg10 harg10 hc0 x0 x1 x2 x3 x4).1 S5000x128.size (by sl_kernel_rfl) y

/-- What case A leaves in output window 5's staging buffer: its stores overlaid, the last on top. -/
def out6_A_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) : Vec F S5000x128 .f32 :=
  View.canon (kernelRun6_A c i arg1 harg1 arg2 harg2 arg3 harg3 arg4 harg4 arg5 harg5 arg6 harg6 arg7 harg7 arg8 harg8 arg9 harg9 arg10 harg10 hc0 x0 x1 x2 x3 x4).1

/-- The stores of case A into output window 6's staging buffer cover it (each is of the whole buffer). -/
theorem cover6_A_6 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 hc0 x0 x1 x2 x3 x4).2.1, y ∈ pc.1.set :=
  View.cover_of_tiledL (kernelRun6_A c i arg1 harg1 arg2 harg2 arg3 harg3 arg4 harg4 arg5 harg5 arg6 harg6 arg7 harg7 arg8 harg8 arg9 harg9 arg10 harg10 hc0 x0 x1 x2 x3 x4).2.1 S1x128.size (by sl_kernel_rfl) y

/-- What case A leaves in output window 6's staging buffer: its stores overlaid, the last on top. -/
def out6_A_6 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun6_A c i arg1 harg1 arg2 harg2 arg3 harg3 arg4 harg4 arg5 harg5 arg6 harg6 arg7 harg7 arg8 harg8 arg9 harg9 arg10 harg10 hc0 x0 x1 x2 x3 x4).2.1

/-- The stores of case A into output window 7's staging buffer cover it (each is of the whole buffer). -/
theorem cover6_A_7 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 hc0 x0 x1 x2 x3 x4).2.2.1, y ∈ pc.1.set :=
  View.cover_of_tiledL (kernelRun6_A c i arg1 harg1 arg2 harg2 arg3 harg3 arg4 harg4 arg5 harg5 arg6 harg6 arg7 harg7 arg8 harg8 arg9 harg9 arg10 harg10 hc0 x0 x1 x2 x3 x4).2.2.1 S1x128.size (by sl_kernel_rfl) y

/-- What case A leaves in output window 7's staging buffer: its stores overlaid, the last on top. -/
def out6_A_7 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun6_A c i arg1 harg1 arg2 harg2 arg3 harg3 arg4 harg4 arg5 harg5 arg6 harg6 arg7 harg7 arg8 harg8 arg9 harg9 arg10 harg10 hc0 x0 x1 x2 x3 x4).2.2.1

/-- The stores of case A into accumulator 0 cover it (each is of the whole buffer). -/
theorem scover6_A_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL (kernelRun6_A c i arg1 harg1 arg2 harg2 arg3 harg3 arg4 harg4 arg5 harg5 arg6 harg6 arg7 harg7 arg8 harg8 arg9 harg9 arg10 harg10 hc0 x0 x1 x2 x3 x4).2.2.2.1 S1x128.size (by sl_kernel_rfl) y

/-- What case A leaves in accumulator 0: its stores overlaid, the last on top. -/
def sout6_A_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun6_A c i arg1 harg1 arg2 harg2 arg3 harg3 arg4 harg4 arg5 harg5 arg6 harg6 arg7 harg7 arg8 harg8 arg9 harg9 arg10 harg10 hc0 x0 x1 x2 x3 x4).2.2.2.1

/-- The stores of case A into accumulator 1 cover it (each is of the whole buffer). -/
theorem scover6_A_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 hc0 x0 x1 x2 x3 x4).2.2.2.2.1, y ∈ pc.1.set :=
  View.cover_of_tiledL (kernelRun6_A c i arg1 harg1 arg2 harg2 arg3 harg3 arg4 harg4 arg5 harg5 arg6 harg6 arg7 harg7 arg8 harg8 arg9 harg9 arg10 harg10 hc0 x0 x1 x2 x3 x4).2.2.2.2.1 S1x128.size (by sl_kernel_rfl) y

/-- What case A leaves in accumulator 1: its stores overlaid, the last on top. -/
def sout6_A_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) : Vec F S1x128 .f32 :=
  View.canon (kernelRun6_A c i arg1 harg1 arg2 harg2 arg3 harg3 arg4 harg4 arg5 harg5 arg6 harg6 arg7 harg7 arg8 harg8 arg9 harg9 arg10 harg10 hc0 x0 x1 x2 x3 x4).2.2.2.2.1

/-- The stores of case B into output window 5's staging buffer cover it (each is of the whole buffer). -/
theorem cover6_B_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun6_B c i arg1 harg1 arg2 harg2 arg3 harg3 arg4 harg4 arg5 harg5 arg6 harg6 arg7 harg7 arg8 harg8 arg9 harg9 arg10 harg10 hc0 x0 x1 x2 x3 x4 xs0 xs1).1, y ∈ pc.1.set :=
  View.cover_of_tiledL (kernelRun6_B c i arg1 harg1 arg2 harg2 arg3 harg3 arg4 harg4 arg5 harg5 arg6 harg6 arg7 harg7 arg8 harg8 arg9 harg9 arg10 harg10 hc0 x0 x1 x2 x3 x4 xs0 xs1).1 S5000x128.size (by sl_kernel_rfl) y

/-- What case B leaves in output window 5's staging buffer: its stores overlaid, the last on top. -/
def out6_B_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  View.canon (kernelRun6_B c i arg1 harg1 arg2 harg2 arg3 harg3 arg4 harg4 arg5 harg5 arg6 harg6 arg7 harg7 arg8 harg8 arg9 harg9 arg10 harg10 hc0 x0 x1 x2 x3 x4 xs0 xs1).1

/-- The stores of case B into output window 6's staging buffer cover it (each is of the whole buffer). -/
theorem cover6_B_6 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 hc0 x0 x1 x2 x3 x4 xs0 xs1).2.1, y ∈ pc.1.set :=
  View.cover_of_tiledL (kernelRun6_B c i arg1 harg1 arg2 harg2 arg3 harg3 arg4 harg4 arg5 harg5 arg6 harg6 arg7 harg7 arg8 harg8 arg9 harg9 arg10 harg10 hc0 x0 x1 x2 x3 x4 xs0 xs1).2.1 S1x128.size (by sl_kernel_rfl) y

/-- What case B leaves in output window 6's staging buffer: its stores overlaid, the last on top. -/
def out6_B_6 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun6_B c i arg1 harg1 arg2 harg2 arg3 harg3 arg4 harg4 arg5 harg5 arg6 harg6 arg7 harg7 arg8 harg8 arg9 harg9 arg10 harg10 hc0 x0 x1 x2 x3 x4 xs0 xs1).2.1

/-- The stores of case B into output window 7's staging buffer cover it (each is of the whole buffer). -/
theorem cover6_B_7 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 hc0 x0 x1 x2 x3 x4 xs0 xs1).2.2.1, y ∈ pc.1.set :=
  View.cover_of_tiledL (kernelRun6_B c i arg1 harg1 arg2 harg2 arg3 harg3 arg4 harg4 arg5 harg5 arg6 harg6 arg7 harg7 arg8 harg8 arg9 harg9 arg10 harg10 hc0 x0 x1 x2 x3 x4 xs0 xs1).2.2.1 S1x128.size (by sl_kernel_rfl) y

/-- What case B leaves in output window 7's staging buffer: its stores overlaid, the last on top. -/
def out6_B_7 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun6_B c i arg1 harg1 arg2 harg2 arg3 harg3 arg4 harg4 arg5 harg5 arg6 harg6 arg7 harg7 arg8 harg8 arg9 harg9 arg10 harg10 hc0 x0 x1 x2 x3 x4 xs0 xs1).2.2.1

/-- The stores of case B into accumulator 0 cover it (each is of the whole buffer). -/
theorem scover6_B_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 hc0 x0 x1 x2 x3 x4 xs0 xs1).2.2.2.1, y ∈ pc.1.set :=
  View.cover_of_tiledL (kernelRun6_B c i arg1 harg1 arg2 harg2 arg3 harg3 arg4 harg4 arg5 harg5 arg6 harg6 arg7 harg7 arg8 harg8 arg9 harg9 arg10 harg10 hc0 x0 x1 x2 x3 x4 xs0 xs1).2.2.2.1 S1x128.size (by sl_kernel_rfl) y

/-- What case B leaves in accumulator 0: its stores overlaid, the last on top. -/
def sout6_B_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun6_B c i arg1 harg1 arg2 harg2 arg3 harg3 arg4 harg4 arg5 harg5 arg6 harg6 arg7 harg7 arg8 harg8 arg9 harg9 arg10 harg10 hc0 x0 x1 x2 x3 x4 xs0 xs1).2.2.2.1

/-- The stores of case B into accumulator 1 cover it (each is of the whole buffer). -/
theorem scover6_B_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 hc0 x0 x1 x2 x3 x4 xs0 xs1).2.2.2.2.1, y ∈ pc.1.set :=
  View.cover_of_tiledL (kernelRun6_B c i arg1 harg1 arg2 harg2 arg3 harg3 arg4 harg4 arg5 harg5 arg6 harg6 arg7 harg7 arg8 harg8 arg9 harg9 arg10 harg10 hc0 x0 x1 x2 x3 x4 xs0 xs1).2.2.2.2.1 S1x128.size (by sl_kernel_rfl) y

/-- What case B leaves in accumulator 1: its stores overlaid, the last on top. -/
def sout6_B_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  View.canon (kernelRun6_B c i arg1 harg1 arg2 harg2 arg3 harg3 arg4 harg4 arg5 harg5 arg6 harg6 arg7 harg7 arg8 harg8 arg9 harg9 arg10 harg10 hc0 x0 x1 x2 x3 x4 xs0 xs1).2.2.2.2.1

section Region6
variable (V : (c : Dev nD) → (b : Ref sig .tc) → Buf (Elt F) ((c : Thread nD τ).loc b))

/-! ## What the outputs and the accumulators hold after each point -/

/-- THE ACCUMULATION. After the body at position `n`: output windows 5, 6, 7's staging buffers, then the two
    accumulators. The first point runs the zeroing case from the point's input blocks; every later point runs the
    carrying case from its input blocks and the accumulators as the point before left them. -/
def outsAt6 (c : Dev nD) : (n : ℕ) → n < cfg6.N → Vec F S5000x128 .f32 × Vec F S1x128 .f32 × Vec F S1x128 .f32 × Vec F S1x128 .f32 × Vec F S1x128 .f32
  | 0, hn => (out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (iblk6 V c 0 ⟨0, hn⟩) (iblk6 V c 1 ⟨0, hn⟩) (iblk6 V c 2 ⟨0, hn⟩) (iblk6 V c 3 ⟨0, hn⟩) (iblk6 V c 4 ⟨0, hn⟩),
      out6_A_6 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (iblk6 V c 0 ⟨0, hn⟩) (iblk6 V c 1 ⟨0, hn⟩) (iblk6 V c 2 ⟨0, hn⟩) (iblk6 V c 3 ⟨0, hn⟩) (iblk6 V c 4 ⟨0, hn⟩),
      out6_A_7 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (iblk6 V c 0 ⟨0, hn⟩) (iblk6 V c 1 ⟨0, hn⟩) (iblk6 V c 2 ⟨0, hn⟩) (iblk6 V c 3 ⟨0, hn⟩) (iblk6 V c 4 ⟨0, hn⟩),
      sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (iblk6 V c 0 ⟨0, hn⟩) (iblk6 V c 1 ⟨0, hn⟩) (iblk6 V c 2 ⟨0, hn⟩) (iblk6 V c 3 ⟨0, hn⟩) (iblk6 V c 4 ⟨0, hn⟩),
      sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) scM6_0 (Memref.isWhole_whole _) scM6_1 (Memref.isWhole_whole _) ((hcond6_0 ⟨0, hn⟩).mpr rfl) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn => (out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => Nat.succ_ne_zero n ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
      out6_B_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => Nat.succ_ne_zero n ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
      out6_B_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => Nat.succ_ne_zero n ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
      sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => Nat.succ_ne_zero n ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2,
      sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) scM6_0 (Memref.isWhole_whole _) scM6_1 (Memref.isWhole_whole _) (fun h => Nat.succ_ne_zero n ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.2.2.1 (outsAt6 c n (Nat.lt_of_succ_lt hn)).2.2.2.2)

/-- `outsAt6` at the first point. -/
theorem outsAt6_A (c : Dev nD) (t : Fin cfg6.N) (hz : t.val = 0) :
    outsAt6 V c t.val t.isLt = (out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr hz) (iblk6 V c 0 t) (iblk6 V c 1 t) (iblk6 V c 2 t) (iblk6 V c 3 t) (iblk6 V c 4 t),
      out6_A_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr hz) (iblk6 V c 0 t) (iblk6 V c 1 t) (iblk6 V c 2 t) (iblk6 V c 3 t) (iblk6 V c 4 t),
      out6_A_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr hz) (iblk6 V c 0 t) (iblk6 V c 1 t) (iblk6 V c 2 t) (iblk6 V c 3 t) (iblk6 V c 4 t),
      sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr hz) (iblk6 V c 0 t) (iblk6 V c 1 t) (iblk6 V c 2 t) (iblk6 V c 3 t) (iblk6 V c 4 t),
      sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) ((hcond6_0 t).mpr hz) (iblk6 V c 0 t) (iblk6 V c 1 t) (iblk6 V c 2 t) (iblk6 V c 3 t) (iblk6 V c 4 t)) := by
  obtain ⟨n, hn⟩ := t
  cases n with
  | zero => rfl
  | succ n => exact absurd hz (Nat.succ_ne_zero n)

/-- `outsAt6` at a later point, over what the point before left. -/
theorem outsAt6_B (c : Dev nD) (t : Fin cfg6.N) (hz : t.val ≠ 0) :
    outsAt6 V c t.val t.isLt = (out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => hz ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => hz ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => hz ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => hz ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) scM6_0 (Memref.isWhole_whole _) scM6_1 (Memref.isWhole_whole _) (fun h => hz ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl hz
  | succ n => rfl

/-! ## The invariant: the accumulators carried between points -/

/-- The region's invariant before position `n`: before the first point what the region is entered with (the generator
    register at some state and every scoped buffer no window stages at anything); afterwards the two accumulators at what
    the point before left in them, the other such buffers unopened, and the register. -/
def PhiS6 (c : Dev nD) : (n : ℕ) → n ≤ cfg6.N → sProp 𝕄
  | 0, _ => iprop((∃ r, prngReg c r) ∗ Pipeline.scopedRest spec6 c)
  | n + 1, hn => iprop(iprop(owns (c : Thread nD τ) scM6_0 fullShare ((outsAt6 V c n hn).2.2.2.1) ∗ owns (c : Thread nD τ) scM6_1 fullShare ((outsAt6 V c n hn).2.2.2.2)) ∗ restBut6 c ∗ (∃ r, prngReg c r))

theorem PhiS6_zero (c : Dev nD) (n : ℕ) (h : n ≤ cfg6.N) (hz : n = 0) :
    PhiS6 V c n h = iprop((∃ r, prngReg c r) ∗ Pipeline.scopedRest spec6 c) := by
  subst hz; rfl

theorem PhiS6_succ (c : Dev nD) (n : ℕ) (hn : n < cfg6.N) :
    PhiS6 V c (n + 1) hn = iprop(iprop(owns (c : Thread nD τ) scM6_0 fullShare ((outsAt6 V c n hn).2.2.2.1) ∗ owns (c : Thread nD τ) scM6_1 fullShare ((outsAt6 V c n hn).2.2.2.2)) ∗ restBut6 c ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2.2.2.1) ∗ owns (c : Thread nD τ) scM6_1 fullShare ((outsAt6 V c (n - 1) (by omega)).2.2.2.2)) ∗ restBut6 c ∗ (∃ r, prngReg c r)) := by
  cases n with
  | zero => exact absurd rfl hz
  | succ n => rfl

/-! ## The pipeline's proof data -/

/-- The proof data of pipeline 6 on core `c`: the arrays as the region finds them; after the body at point `t` each
    input's buffer at its block and each output's at `outsAt6`'s component; the invariant `PhiS6`; nothing owed; full
    shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
    | ⟨6, _⟩ => (outsAt6 V c t.val t.isLt).2.1
    | ⟨7, _⟩ => (outsAt6 V c t.val t.isLt).2.2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]
theorem after6_6 (c : Dev nD) (t : Fin cfg6.N) : (dat6 V c).after 6 t = (outsAt6 V c t.val t.isLt).2.1 := by dsimp only [dat6]
theorem after6_7 (c : Dev nD) (t : Fin cfg6.N) : (dat6 V c).after 7 t = (outsAt6 V c t.val t.isLt).2.2.1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t)
    ∗ owns (c : Thread nD τ) (ms6_7 t) fullShare ((dat6 V c).after 7 t))

set_option maxHeartbeats 4000000 in
/-- The body at any point: the inputs' memrefs hold their blocks; the point is the first or a later one, so the matching
    run applies; the invariant hands the body the accumulators (at anything at the first point, at what the point before
    left afterwards) and takes them back at this point's contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = PhiS6 V c (t.val + 1) t.isLt from rfl, PhiS6_succ]
  rw [after6_0, after6_1, after6_2, after6_3, after6_4, after6_5, after6_6, after6_7]
  by_cases hz : t.val = 0
  · rw [outsAt6_A V c t hz]
    unfold out6_A_5 out6_A_6 out6_A_7 sout6_A_0 sout6_A_1; dsimp only
    rw [PhiS6_castSucc V c t, PhiS6_zero V c _ _ hz, scopedRest6_owns]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun6_A c (grid6.coords t) _ _ _ _ _ _ _ _ _ _ _ _ _ _ _ _ _ _ _ _ ((hcond6_0 t).mpr hz) (iblk6 V c 0 t) (iblk6 V c 1 t) (iblk6 V c 2 t) (iblk6 V c 3 t) (iblk6 V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover6_A_0 c _ _ _ _ _ _ _ _ _ _ _ _ _ _ _ _ _ _ _ _ _ _ _ _ _ _ _)
        · unfold owns; iexists _; isplitr
          swap; · iexact HS1
          ipureintro; exact View.read_writes_eq_canon _ _ _ (scover6_A_1 c _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover6_A_5 c _ _ _ _ _ _ _ _ _ _ _ _ _ _ _ _ _ _ _ _ _ _ _ _ _ _ _)
    isplitl [H6]
    · unfold owns; iexists _; isplitr
      swap; · iexact H6
      ipureintro; exact View.read_writes_eq_canon _ _ _ (cover6_A_6 c _ _ _ _ _ _ _ _ _ _ _ _ _ _ _ _ _ _ _ _ _ _ _ _ _ _ _)
    · unfold owns; iexists _; isplitr
      swap; · iexact H7
      ipureintro; exact View.read_writes_eq_canon _ _ _ (cover6_A_7 c _ _ _ _ _ _ _ _ _ _ _ _ _ _ _ _ _ _ _ _ _ _ _ _ _ _ _)
  · rw [outsAt6_B V c t hz]
    unfold out6_B_5 out6_B_6 out6_B_7 sout6_B_0 sout6_B_1; dsimp only
    rw [PhiS6_castSucc V c t, PhiS6_pos V c _ _ hz]
    iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun6_B c (grid6.coords t) _ _ _ _ _ _ _ _ _ _ _ _ _ _ _ _ _ _ _ _ (fun h => hz ((hcond6_0 t).mp h)) (iblk6 V c 0 t) (iblk6 V c 1 t) (iblk6 V c 2 t) (iblk6 V c 3 t) (iblk6 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (scover6_B_0 c _ _ _ _ _ _ _ _ _ _ _ _ _ _ _ _ _ _ _ _ _ _ _ _ _ _ _ _ _)
        · unfold owns; iexists _; isplitr
          swap; · iexact HS1
          ipureintro; exact View.read_writes_eq_canon _ _ _ (scover6_B_1 c _ _ _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (cover6_B_5 c _ _ _ _ _ _ _ _ _ _ _ _ _ _ _ _ _ _ _ _ _ _ _ _ _ _ _ _ _)
    isplitl [H6]
    · unfold owns; iexists _; isplitr
      swap; · iexact H6
      ipureintro; exact View.read_writes_eq_canon _ _ _ (cover6_B_6 c _ _ _ _ _ _ _ _ _ _ _ _ _ _ _ _ _ _ _ _ _ _ _ _ _ _ _ _ _)
    · unfold owns; iexists _; isplitr
      swap; · iexact H7
      ipureintro; exact View.read_writes_eq_canon _ _ _ (cover6_B_7 c _ _ _ _ _ _ _ _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the region is entered with is the invariant before the first point. -/
theorem Phi6_in (c : Dev nD) : iprop((∃ r, prngReg c r) ∗ Pipeline.scopedRest spec6 c) ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the entry resources back: the accumulators' contents are forgotten. -/
theorem Phi6_out (c : Dev nD) : (dat6 V c).Φ (Fin.last _) ⊢ iprop((∃ r, prngReg c r) ∗ Pipeline.scopedRest spec6 c) := by
  rw [show (dat6 V c).Φ (Fin.last _) = PhiS6 V c (Fin.last cfg6.N).val (Nat.le_of_lt_succ (Fin.last cfg6.N).isLt) from rfl,
    PhiS6_pos V c _ _ (by rw [Fin.val_last]; have : cfg6.N = 20 := N_6; omega), scopedRest6_owns]
  iintro ⟨⟨HS0, HS1⟩, HR, Hg⟩
  isplitl [Hg]; · iexact Hg
  isplitl [HS0 HS1]
  · isplitl [HS0]
    · iexists _; iexact HS0
    · iexists _; iexact HS1
  iexact HR

end Region6

end Cert.KernelIdeal

end
-- ==== Proof.KI.Reg7.lean ====
import proofs.«118347_j18940805776024_1_alg».proof.Proof.Gen.KernelIdeal.Launch
import proofs.«118347_j18940805776024_1_alg».proof.Proof.Gen.KernelIdeal.Skeleton
import proofs.«118347_j18940805776024_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 7: `cc7__gin_bn_kernel` on a grid of 10 row blocks

Each point normalises one block of 10000 rows of `z` (window 0) lane by lane with the four row vectors `mu`, `var`,
`gamma`, `beta` (windows 1–4, whose single block is the whole array) and writes the block of `h` (window 5):
`h = (z − mu) · rsqrt(var + ε) · gamma + beta`. The body reads every input through its whole staging buffer and
stores the whole output buffer once, so what it leaves there is a function of the five input blocks alone. -/

/-- Window `w`'s block at point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds the window's block at every point, whether or not the pipeline fetched
    it there: an unfetched input's block index has not moved, so the block kept from the point before is this point's. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds the window's block at every point, whether or not the pipeline fetched
    it there: an unfetched input's block index has not moved, so the block kept from the point before is this point's. -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds the window's block at every point, whether or not the pipeline fetched
    it there: an unfetched input's block index has not moved, so the block kept from the point before is this point's. -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds the window's block at every point, whether or not the pipeline fetched
    it there: an unfetched input's block index has not moved, so the block kept from the point before is this point's. -/
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds the window's block at every point, whether or not the pipeline fetched
    it there: an unfetched input's block index has not moved, so the block kept from the point before is this point's. -/
theorem before7_4_of {c : Dev nD} (dat : Dat τ (Elt F) Unit ℕ (Pipeline.UD sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The whole 10000×128 buffer as a rectangle, and the whole 1×128 one. -/
abbrev r7_z : Rect S10000x128 := Rect.unit (s := S10000x128) ![0, 0] S10000x128.size inb_S10000x128_S10000x128_0_0
abbrev r7_v : Rect S1x128 := Rect.unit (s := S1x128) ![0, 0] S1x128.size inb_S1x128_S1x128_0_0

/-- The output block after the body, from the five input blocks: the one store's value laid over the buffer. -/
def out7_5 (x0 : Vec F S10000x128 .f32) (x1 x2 x3 x4 : Vec F S1x128 .f32) : Vec F S10000x128 .f32 :=
  View.canon [⟨r7_z, k7_pay1 (View.ld x0 r7_z) (View.ld x1 r7_v) (View.ld x2 r7_v) (View.ld x3 r7_v) (View.ld x4 r7_v)⟩]

/-- The one store is of the whole buffer, so it covers every index. -/
theorem cover7_5 (p0 : Vec F S10000x128 .f32) (y : S10000x128.Idx) :
    ∃ pc ∈ ([⟨r7_z, p0⟩] : List (View.Piece (Elt F) S10000x128 .f32)), y ∈ pc.1.set :=
  View.cover_of_tiled [⟨r7_z, p0⟩] S10000x128.size (by rfl) y

set_option maxHeartbeats 1000000 in
/-- The body on whole staging buffers: the inputs read `x0 … x4`, the output holds anything; it ends with the inputs
    as they were and the output at `out7_5` of the inputs. -/
theorem sound_kernel7 (c : Dev nD) (E : Set ℕ) (i : grid7.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__gin_bn_kernel i arg1 harg1 arg2 harg2 arg3 harg3 arg4 harg4 arg5 harg5 arg6 harg6) K := by
  simp only [cc7__gin_bn_kernel_eq_skeleton]; unfold cc7__gin_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The region's proof data on core `c`: the arrays as the region finds them; after the body at point `t` each
    input buffer still at its block and the output buffer at `out7_5` of the input blocks; the invariant that leaves
    the scoped rest and the generator register alone; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the entry contents (the definition projected, never unfolded further). -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t =
    out7_5 (iblk7 V c 0 t) (iblk7 V c 1 t) (iblk7 V c 2 t) (iblk7 V c 3 t) (iblk7 V c 4 t) := by dsimp only [dat7]

/-- Each input's staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so the body's triple applies; the invariant and
    the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's launch, at every point. -/
theorem body_obligation7 (c : Dev nD) : BodyObligation (dat7 (F := F) V c) (defs₀ (F := F)) Variants.none () Set.univ := fun t => by
  rw [bigSep_W7, bigSep_W7]
  exact sound_body7 V c t

end Cert.KernelIdeal

end
-- ==== Proof.KI.Reg8.lean ====
import proofs.«118347_j18940805776024_1_alg».proof.Proof.Gen.KernelIdeal.Launch
import proofs.«118347_j18940805776024_1_alg».proof.Proof.Gen.KernelIdeal.Skeleton
import proofs.«118347_j18940805776024_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The node-classification region 8: `cc8__node_cls_kernel` at its single grid point

The one point takes the 64 pooled graph rows (window 0) and the weights and biases of four dense layers (windows 1–8)
and writes the 64×16 table of class log-probabilities (window 9): three layers with `relu`, a fourth without, then
`log_softmax` along the 16 classes. The body reads every input through its whole staging buffer and stores the whole
output buffer once, so what it leaves there is a function of the nine input blocks alone. -/

/-- Window `w`'s block at point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds the window's block at every point, whether or not the pipeline fetched
    it there: an unfetched input's block index has not moved, so the block kept from the point before is this point's. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds the window's block at every point, whether or not the pipeline fetched
    it there: an unfetched input's block index has not moved, so the block kept from the point before is this point's. -/
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds the window's block at every point, whether or not the pipeline fetched
    it there: an unfetched input's block index has not moved, so the block kept from the point before is this point's. -/
theorem before8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds the window's block at every point, whether or not the pipeline fetched
    it there: an unfetched input's block index has not moved, so the block kept from the point before is this point's. -/
theorem before8_3_of {c : Dev nD} (dat : Dat τ (Elt F) Unit ℕ (Pipeline.UD sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds the window's block at every point, whether or not the pipeline fetched
    it there: an unfetched input's block index has not moved, so the block kept from the point before is this point's. -/
theorem before8_4_of {c : Dev nD} (dat : Dat τ (Elt F) Unit ℕ (Pipeline.UD sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's staging buffer holds the window's block at every point, whether or not the pipeline fetched
    it there: an unfetched input's block index has not moved, so the block kept from the point before is this point's. -/
theorem before8_5_of {c : Dev nD} (dat : Dat τ (Elt F) Unit ℕ (Pipeline.UD sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's staging buffer holds the window's block at every point, whether or not the pipeline fetched
    it there: an unfetched input's block index has not moved, so the block kept from the point before is this point's. -/
theorem before8_6_of {c : Dev nD} (dat : Dat τ (Elt F) Unit ℕ (Pipeline.UD sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's staging buffer holds the window's block at every point, whether or not the pipeline fetched
    it there: an unfetched input's block index has not moved, so the block kept from the point before is this point's. -/
theorem before8_7_of {c : Dev nD} (dat : Dat τ (Elt F) Unit ℕ (Pipeline.UD sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's staging buffer holds the window's block at every point, whether or not the pipeline fetched
    it there: an unfetched input's block index has not moved, so the block kept from the point before is this point's. -/
theorem before8_8_of {c : Dev nD} (dat : Dat τ (Elt F) Unit ℕ (Pipeline.UD sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-- Each staging buffer as one whole rectangle: the body reads and writes nothing smaller. -/
abbrev r8_S64x512 : Rect S64x512 := Rect.unit (s := S64x512) ![0, 0] S64x512.size inb_S64x512_S64x512_0_0
abbrev r8_S512x256 : Rect S512x256 := Rect.unit (s := S512x256) ![0, 0] S512x256.size inb_S512x256_S512x256_0_0
abbrev r8_S1x256 : Rect S1x256 := Rect.unit (s := S1x256) ![0, 0] S1x256.size inb_S1x256_S1x256_0_0
abbrev r8_S256x128 : Rect S256x128 := Rect.unit (s := S256x128) ![0, 0] S256x128.size inb_S256x128_S256x128_0_0
abbrev r8_S1x128 : Rect S1x128 := Rect.unit (s := S1x128) ![0, 0] S1x128.size inb_S1x128_S1x128_0_0
abbrev r8_S128x128 : Rect S128x128 := Rect.unit (s := S128x128) ![0, 0] S128x128.size inb_S128x128_S128x128_0_0
abbrev r8_S128x16 : Rect S128x16 := Rect.unit (s := S128x16) ![0, 0] S128x16.size inb_S128x16_S128x16_0_0
abbrev r8_S1x16 : Rect S1x16 := Rect.unit (s := S1x16) ![0, 0] S1x16.size inb_S1x16_S1x16_0_0
abbrev r8_S64x16 : Rect S64x16 := Rect.unit (s := S64x16) ![0, 0] S64x16.size inb_S64x16_S64x16_0_0

/-- The output block after the body, from the input blocks: the one store's value laid over the buffer. -/
def out8_9 (x0 : Vec F S64x512 .f32) (x1 : Vec F S512x256 .f32) (x2 : Vec F S1x256 .f32) (x3 : Vec F S256x128 .f32) (x4 : Vec F S1x128 .f32) (x5 : Vec F S128x128 .f32) (x6 : Vec F S1x128 .f32) (x7 : Vec F S128x16 .f32) (x8 : Vec F S1x16 .f32) : Vec F S64x16 .f32 :=
  View.canon [⟨r8_S64x16, k8_pay1 (k8_pay2 (View.ld x0 r8_S64x512) (View.ld x1 r8_S512x256) (View.ld x2 r8_S1x256) (View.ld x3 r8_S256x128) (View.ld x4 r8_S1x128) (View.ld x5 r8_S128x128) (View.ld x6 r8_S1x128) (View.ld x7 r8_S128x16)) (View.ld x8 r8_S1x16)⟩]

/-- The one store is of the whole buffer, so it covers every index. -/
theorem cover8_9 (p0 : Vec F S64x16 .f32) (y : S64x16.Idx) :
    ∃ pc ∈ ([⟨r8_S64x16, p0⟩] : List (View.Piece (Elt F) S64x16 .f32)), y ∈ pc.1.set :=
  View.cover_of_tiled [⟨r8_S64x16, p0⟩] S64x16.size (by rfl) y

set_option maxHeartbeats 1000000 in
/-- The body on whole staging buffers: the inputs read `x0 … x8`, the output holds anything; it ends with the inputs
    as they were and the output at `out8_9` of the inputs. -/
theorem sound_kernel8 (c : Dev nD) (E : Set ℕ) (i : grid8.Coords)
    (arg1 : Memref sig .tc .vmem S64x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S64x16 .f32) (harg10 : arg10.IsWhole)
    (x0 : Vec F S64x512 .f32) (x1 : Vec F S512x256 .f32) (x2 : Vec F S1x256 .f32) (x3 : Vec F S256x128 .f32) (x4 : Vec F S1x128 .f32) (x5 : Vec F S128x128 .f32) (x6 : Vec F S1x128 .f32) (x7 : Vec F S128x16 .f32) (x8 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out8_9 x0 x1 x2 x3 x4 x5 x6 x7 x8)) -∗ K ⟨⟩))
      ⊢ wp frame (wpE (defs₀ (F := F)) Variants.none c none) E (cc8__node_cls_kernel i arg1 harg1 arg2 harg2 arg3 harg3 arg4 harg4 arg5 harg5 arg6 harg6 arg7 harg7 arg8 harg8 arg9 harg9 arg10 harg10) K := by
  simp only [cc8__node_cls_kernel_eq_skeleton]; unfold cc8__node_cls_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover8_9 _)

/-- The region's proof data on core `c`: the arrays as the region finds them; after the body at point `t` each
    input buffer still at its block and the output buffer at `out8_9` of the input blocks; the invariant that leaves
    the scoped rest and the generator register alone; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

/-- The proof data's arrays are the entry contents (the definition projected, never unfolded further). -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t =
    out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

/-- Each input's staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' buffers hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ (grid8.coords t) _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the region's launch, at every point. -/
theorem body_obligation8 (c : Dev nD) : BodyObligation (dat8 (F := F) V c) (defs₀ (F := F)) Variants.none () Set.univ := fun t => by
  rw [bigSep_W8, bigSep_W8]
  exact sound_body8 V c t

end Cert.KernelIdeal

end
-- ==== Proof.KI.Reg9.lean ====
import proofs.«118347_j18940805776024_1_alg».proof.Proof.Gen.KernelIdeal.Launch
import proofs.«118347_j18940805776024_1_alg».proof.Proof.Gen.KernelIdeal.Skeleton
import proofs.«118347_j18940805776024_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The edge-prediction region 9: `cc9__edge_pred_kernel` on a grid of 50 blocks of 2000 edges

Each point takes one block of 2000 rows of edge features (window 0) and the weights and biases of three dense layers
(windows 1–6, whose single block is the whole array), and writes the block of 2000 edge scores (window 7):
`logistic(relu(relu(e·W₁ + b₁)·W₂ + b₂)·W₃ + b₃)`. The body reads every input through its whole staging buffer and
stores the whole output buffer once, so what it leaves there is a function of the seven input blocks alone. -/

/-- Window `w`'s block at point `t`, read off the window's array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds the window's block at every point, whether or not the pipeline fetched
    it there: an unfetched input's block index has not moved, so the block kept from the point before is this point's. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds the window's block at every point, whether or not the pipeline fetched
    it there: an unfetched input's block index has not moved, so the block kept from the point before is this point's. -/
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds the window's block at every point, whether or not the pipeline fetched
    it there: an unfetched input's block index has not moved, so the block kept from the point before is this point's. -/
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer holds the window's block at every point, whether or not the pipeline fetched
    it there: an unfetched input's block index has not moved, so the block kept from the point before is this point's. -/
theorem before9_3_of {c : Dev nD} (dat : Dat τ (Elt F) Unit ℕ (Pipeline.UD sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's staging buffer holds the window's block at every point, whether or not the pipeline fetched
    it there: an unfetched input's block index has not moved, so the block kept from the point before is this point's. -/
theorem before9_4_of {c : Dev nD} (dat : Dat τ (Elt F) Unit ℕ (Pipeline.UD sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's staging buffer holds the window's block at every point, whether or not the pipeline fetched
    it there: an unfetched input's block index has not moved, so the block kept from the point before is this point's. -/
theorem before9_5_of {c : Dev nD} (dat : Dat τ (Elt F) Unit ℕ (Pipeline.UD sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- Input window 6's staging buffer holds the window's block at every point, whether or not the pipeline fetched
    it there: an unfetched input's block index has not moved, so the block kept from the point before is this point's. -/
theorem before9_6_of {c : Dev nD} (dat : Dat τ (Elt F) Unit ℕ (Pipeline.UD sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-- Each staging buffer as one whole rectangle: the body reads and writes nothing smaller. -/
abbrev r9_S2000x1024 : Rect S2000x1024 := Rect.unit (s := S2000x1024) ![0, 0] S2000x1024.size inb_S2000x1024_S2000x1024_0_0
abbrev r9_S1024x256 : Rect S1024x256 := Rect.unit (s := S1024x256) ![0, 0] S1024x256.size inb_S1024x256_S1024x256_0_0
abbrev r9_S1x256 : Rect S1x256 := Rect.unit (s := S1x256) ![0, 0] S1x256.size inb_S1x256_S1x256_0_0
abbrev r9_S256x128 : Rect S256x128 := Rect.unit (s := S256x128) ![0, 0] S256x128.size inb_S256x128_S256x128_0_0
abbrev r9_S1x128 : Rect S1x128 := Rect.unit (s := S1x128) ![0, 0] S1x128.size inb_S1x128_S1x128_0_0
abbrev r9_S128x1 : Rect S128x1 := Rect.unit (s := S128x1) ![0, 0] S128x1.size inb_S128x1_S128x1_0_0
abbrev r9_S1x1 : Rect S1x1 := Rect.unit (s := S1x1) ![0, 0] S1x1.size inb_S1x1_S1x1_0_0
abbrev r9_S2000x1 : Rect S2000x1 := Rect.unit (s := S2000x1) ![0, 0] S2000x1.size inb_S2000x1_S2000x1_0_0

/-- The output block after the body, from the input blocks: the one store's value laid over the buffer. -/
def out9_7 (x0 : Vec F S2000x1024 .f32) (x1 : Vec F S1024x256 .f32) (x2 : Vec F S1x256 .f32) (x3 : Vec F S256x128 .f32) (x4 : Vec F S1x128 .f32) (x5 : Vec F S128x1 .f32) (x6 : Vec F S1x1 .f32) : Vec F S2000x1 .f32 :=
  View.canon [⟨r9_S2000x1, k9_pay1 (View.ld x0 r9_S2000x1024) (View.ld x1 r9_S1024x256) (View.ld x2 r9_S1x256) (View.ld x3 r9_S256x128) (View.ld x4 r9_S1x128) (View.ld x5 r9_S128x1) (View.ld x6 r9_S1x1)⟩]

/-- The one store is of the whole buffer, so it covers every index. -/
theorem cover9_7 (p0 : Vec F S2000x1 .f32) (y : S2000x1.Idx) :
    ∃ pc ∈ ([⟨r9_S2000x1, p0⟩] : List (View.Piece (Elt F) S2000x1 .f32)), y ∈ pc.1.set :=
  View.cover_of_tiled [⟨r9_S2000x1, p0⟩] S2000x1.size (by rfl) y

set_option maxHeartbeats 1000000 in
/-- The body on whole staging buffers: the inputs read `x0 … x6`, the output holds anything; it ends with the inputs
    as they were and the output at `out9_7` of the inputs. -/
theorem sound_kernel9 (c : Dev nD) (E : Set ℕ) (i : grid9.Coords)
    (arg1 : Memref sig .tc .vmem S2000x1024 .f32) (harg1 : arg1.IsWhole) (arg2 : Memref sig .tc .vmem S1024x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S2000x1 .f32) (harg8 : arg8.IsWhole)
    (x0 : Vec F S2000x1024 .f32) (x1 : Vec F S1024x256 .f32) (x2 : Vec F S1x256 .f32) (x3 : Vec F S256x128 .f32) (x4 : Vec F S1x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out9_7 x0 x1 x2 x3 x4 x5 x6)) -∗ K ⟨⟩))
      ⊢ wp frame (wpE (defs₀ (F := F)) Variants.none c none) E (cc9__edge_pred_kernel i arg1 harg1 arg2 harg2 arg3 harg3 arg4 harg4 arg5 harg5 arg6 harg6 arg7 harg7 arg8 harg8) K := by
  simp only [cc9__edge_pred_kernel_eq_skeleton]; unfold cc9__edge_pred_kernel_skel

  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover9_7 _)

/-- The region's proof data on core `c`: the arrays as the region finds them; after the body at point `t` each
    input buffer still at its block and the output buffer at `out9_7` of the input blocks; the invariant that leaves
    the scoped rest and the generator register alone; nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

/-- The proof data's arrays are the entry contents (the definition projected, never unfolded further). -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t =
    out9_7 (iblk9 V c 0 t) (iblk9 V c 1 t) (iblk9 V c 2 t) (iblk9 V c 3 t) (iblk9 V c 4 t) (iblk9 V c 5 t) (iblk9 V c 6 t) := by dsimp only [dat9]

/-- Each input's staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' buffers hold their blocks, so the body's triple applies; the invariant and
    the core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ (grid9.coords t) _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region's launch, at every point. -/
theorem body_obligation9 (c : Dev nD) : BodyObligation (dat9 (F := F) V c) (defs₀ (F := F)) Variants.none () Set.univ := fun t => by
  rw [bigSep_W9, bigSep_W9]
  exact sound_body9 V c t

end Cert.KernelIdeal

end
-- ==== Proof.KI.Asm.Vals.lean ====
/- The kernel program between its regions: the contents of every buffer at every boundary of @main, from the launch
   memory through each host stretch and each region's outputs; what each item leaves unchanged; the proof data family of
   the ten pipelines. -/
import proofs.«118347_j18940805776024_1_alg».proof.Proof.Gen.KernelIdeal.Regions
import proofs.«118347_j18940805776024_1_alg».proof.Proof.KI.Reg0
import proofs.«118347_j18940805776024_1_alg».proof.Proof.KI.Reg1
import proofs.«118347_j18940805776024_1_alg».proof.Proof.KI.Reg2
import proofs.«118347_j18940805776024_1_alg».proof.Proof.KI.Reg3
import proofs.«118347_j18940805776024_1_alg».proof.Proof.KI.Reg4
import proofs.«118347_j18940805776024_1_alg».proof.Proof.KI.Reg5
import proofs.«118347_j18940805776024_1_alg».proof.Proof.KI.Reg6
import proofs.«118347_j18940805776024_1_alg».proof.Proof.KI.Reg7
import proofs.«118347_j18940805776024_1_alg».proof.Proof.KI.Reg8
import proofs.«118347_j18940805776024_1_alg».proof.Proof.KI.Reg9
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

/-- The contents of a TensorCore's buffers read at its references. -/
abbrev VT (F : FTy → Type) [FloatOps F] := (c : Dev nD) → (b : Ref sig .tc) → Buf (Elt F) ((c : Thread nD τ).loc b)

/-- Region 1's pipeline invariant is the class invariant: the scoped buffers no window stages beside the generator register. -/
theorem Phi1_in (V : VT F) (c : Dev nD) : (iprop((∃ r, prngReg c r) ∗ Pipeline.scopedRest spec1 c) : sProp 𝕄) ⊢ (dat1 V c).Φ 0 := by
  rw [show (dat1 V c).Φ 0 = Pipeline.ΦA spec1 c from rfl]; unfold Pipeline.ΦA
  iintro ⟨Hp, Hr⟩
  isplitl [Hr]; · iexact Hr
  iexact Hp
theorem Phi1_out (V : VT F) (c : Dev nD) : (dat1 V c).Φ (Fin.last _) ⊢ (iprop((∃ r, prngReg c r) ∗ Pipeline.scopedRest spec1 c) : sProp 𝕄) := by
  rw [show (dat1 V c).Φ (Fin.last _) = Pipeline.ΦA spec1 c from rfl]; unfold Pipeline.ΦA
  iintro ⟨Hr, Hp⟩
  isplitl [Hp]; · iexact Hp
  iexact Hr
/-- Region 3's pipeline invariant is the class invariant: the scoped buffers no window stages beside the generator register. -/
theorem Phi3_in (V : VT F) (c : Dev nD) : (iprop((∃ r, prngReg c r) ∗ Pipeline.scopedRest spec3 c) : sProp 𝕄) ⊢ (dat3 V c).Φ 0 := by
  rw [show (dat3 V c).Φ 0 = Pipeline.ΦA spec3 c from rfl]; unfold Pipeline.ΦA
  iintro ⟨Hp, Hr⟩
  isplitl [Hr]; · iexact Hr
  iexact Hp
theorem Phi3_out (V : VT F) (c : Dev nD) : (dat3 V c).Φ (Fin.last _) ⊢ (iprop((∃ r, prngReg c r) ∗ Pipeline.scopedRest spec3 c) : sProp 𝕄) := by
  rw [show (dat3 V c).Φ (Fin.last _) = Pipeline.ΦA spec3 c from rfl]; unfold Pipeline.ΦA
  iintro ⟨Hr, Hp⟩
  isplitl [Hp]; · iexact Hp
  iexact Hr
/-- Region 5's pipeline invariant is the class invariant: the scoped buffers no window stages beside the generator register. -/
theorem Phi5_in (V : VT F) (c : Dev nD) : (iprop((∃ r, prngReg c r) ∗ Pipeline.scopedRest spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp
theorem Phi5_out (V : VT F) (c : Dev nD) : (dat5 V c).Φ (Fin.last _) ⊢ (iprop((∃ r, prngReg c r) ∗ Pipeline.scopedRest spec5 c) : sProp 𝕄) := by
  rw [show (dat5 V c).Φ (Fin.last _) = Pipeline.ΦA spec5 c from rfl]; unfold Pipeline.ΦA
  iintro ⟨Hr, Hp⟩
  isplitl [Hp]; · iexact Hp
  iexact Hr
/-- Region 7's pipeline invariant is the class invariant: the scoped buffers no window stages beside the generator register. -/
theorem Phi7_in (V : VT F) (c : Dev nD) : (iprop((∃ r, prngReg c r) ∗ Pipeline.scopedRest spec7 c) : sProp 𝕄) ⊢ (dat7 V c).Φ 0 := by
  rw [show (dat7 V c).Φ 0 = Pipeline.ΦA spec7 c from rfl]; unfold Pipeline.ΦA
  iintro ⟨Hp, Hr⟩
  isplitl [Hr]; · iexact Hr
  iexact Hp
theorem Phi7_out (V : VT F) (c : Dev nD) : (dat7 V c).Φ (Fin.last _) ⊢ (iprop((∃ r, prngReg c r) ∗ Pipeline.scopedRest spec7 c) : sProp 𝕄) := by
  rw [show (dat7 V c).Φ (Fin.last _) = Pipeline.ΦA spec7 c from rfl]; unfold Pipeline.ΦA
  iintro ⟨Hr, Hp⟩
  isplitl [Hp]; · iexact Hp
  iexact Hr
/-- Region 8's pipeline invariant is the class invariant: the scoped buffers no window stages beside the generator register. -/
theorem Phi8_in (V : VT F) (c : Dev nD) : (iprop((∃ r, prngReg c r) ∗ Pipeline.scopedRest spec8 c) : sProp 𝕄) ⊢ (dat8 V c).Φ 0 := by
  rw [show (dat8 V c).Φ 0 = Pipeline.ΦA spec8 c from rfl]; unfold Pipeline.ΦA
  iintro ⟨Hp, Hr⟩
  isplitl [Hr]; · iexact Hr
  iexact Hp
theorem Phi8_out (V : VT F) (c : Dev nD) : (dat8 V c).Φ (Fin.last _) ⊢ (iprop((∃ r, prngReg c r) ∗ Pipeline.scopedRest spec8 c) : sProp 𝕄) := by
  rw [show (dat8 V c).Φ (Fin.last _) = Pipeline.ΦA spec8 c from rfl]; unfold Pipeline.ΦA
  iintro ⟨Hr, Hp⟩
  isplitl [Hp]; · iexact Hp
  iexact Hr
/-- Region 9's pipeline invariant is the class invariant: the scoped buffers no window stages beside the generator register. -/
theorem Phi9_in (V : VT F) (c : Dev nD) : (iprop((∃ r, prngReg c r) ∗ Pipeline.scopedRest spec9 c) : sProp 𝕄) ⊢ (dat9 V c).Φ 0 := by
  rw [show (dat9 V c).Φ 0 = Pipeline.ΦA spec9 c from rfl]; unfold Pipeline.ΦA
  iintro ⟨Hp, Hr⟩
  isplitl [Hr]; · iexact Hr
  iexact Hp
theorem Phi9_out (V : VT F) (c : Dev nD) : (dat9 V c).Φ (Fin.last _) ⊢ (iprop((∃ r, prngReg c r) ∗ Pipeline.scopedRest spec9 c) : sProp 𝕄) := by
  rw [show (dat9 V c).Φ (Fin.last _) = Pipeline.ΦA spec9 c from rfl]; unfold Pipeline.ΦA
  iintro ⟨Hr, Hp⟩
  isplitl [Hp]; · iexact Hp
  iexact Hr

variable (m : (ℓ : Loc nD τ sig) → Buf (Elt F) ℓ)

/-! ## The buffers' contents at every boundary of @main

From the launch memory, through each host stretch and each region. What a region leaves in an output array has a name
of its own, opened only by its defining equation. -/

def U1 (c : Dev nD) : Valuation τ sig (Elt F) := StableHlo.after hostOps0 (V0 m c)
abbrev Uv1 : VT F := fun c b => U1 m c b
/-- What region 0 leaves in its output window 5's array. -/
@[irreducible] def o2_5 (c : Dev nD) : Buf (Elt F) ((c : Thread nD τ).loc main_v30_0) := (dat0 (Uv1 m) c).arrAt 5 cfg0.N
theorem o2_5_eq (c : Dev nD) : o2_5 m c = (dat0 (Uv1 m) c).arrAt 5 cfg0.N := by unfold o2_5; rfl
/-- What region 0 leaves in its output window 6's array. -/
@[irreducible] def o2_6 (c : Dev nD) : Buf (Elt F) ((c : Thread nD τ).loc main_v30_1) := (dat0 (Uv1 m) c).arrAt 6 cfg0.N
theorem o2_6_eq (c : Dev nD) : o2_6 m c = (dat0 (Uv1 m) c).arrAt 6 cfg0.N := by unfold o2_6; rfl
/-- What region 0 leaves in its output window 7's array. -/
@[irreducible] def o2_7 (c : Dev nD) : Buf (Elt F) ((c : Thread nD τ).loc main_v30_2) := (dat0 (Uv1 m) c).arrAt 7 cfg0.N
theorem o2_7_eq (c : Dev nD) : o2_7 m c = (dat0 (Uv1 m) c).arrAt 7 cfg0.N := by unfold o2_7; rfl
def U2 (c : Dev nD) : Valuation τ sig (Elt F) :=
  (Function.update (Function.update (Function.update (U1 m c) main_v30_0 (o2_5 m c)) main_v30_1 (o2_6 m c)) main_v30_2 (o2_7 m c))
abbrev Uv2 : VT F := fun c b => U2 m c b
def U3 (c : Dev nD) : Valuation τ sig (Elt F) := StableHlo.after hostOps1 (U2 m c)
abbrev Uv3 : VT F := fun c b => U3 m c b
/-- What region 1 leaves in its output window 5's array. -/
@[irreducible] def o4_5 (c : Dev nD) : Buf (Elt F) ((c : Thread nD τ).loc main_v47) := (dat1 (Uv3 m) c).arrAt 5 cfg1.N
theorem o4_5_eq (c : Dev nD) : o4_5 m c = (dat1 (Uv3 m) c).arrAt 5 cfg1.N := by unfold o4_5; rfl
def U4 (c : Dev nD) : Valuation τ sig (Elt F) :=
  (Function.update (U3 m c) main_v47 (o4_5 m c))
abbrev Uv4 : VT F := fun c b => U4 m c b
def U5 (c : Dev nD) : Valuation τ sig (Elt F) := StableHlo.after hostOps2 (U4 m c)
abbrev Uv5 : VT F := fun c b => U5 m c b
/-- What region 2 leaves in its output window 5's array. -/
@[irreducible] def o6_5 (c : Dev nD) : Buf (Elt F) ((c : Thread nD τ).loc main_v74_0) := (dat2 (Uv5 m) c).arrAt 5 cfg2.N
theorem o6_5_eq (c : Dev nD) : o6_5 m c = (dat2 (Uv5 m) c).arrAt 5 cfg2.N := by unfold o6_5; rfl
/-- What region 2 leaves in its output window 6's array. -/
@[irreducible] def o6_6 (c : Dev nD) : Buf (Elt F) ((c : Thread nD τ).loc main_v74_1) := (dat2 (Uv5 m) c).arrAt 6 cfg2.N
theorem o6_6_eq (c : Dev nD) : o6_6 m c = (dat2 (Uv5 m) c).arrAt 6 cfg2.N := by unfold o6_6; rfl
/-- What region 2 leaves in its output window 7's array. -/
@[irreducible] def o6_7 (c : Dev nD) : Buf (Elt F) ((c : Thread nD τ).loc main_v74_2) := (dat2 (Uv5 m) c).arrAt 7 cfg2.N
theorem o6_7_eq (c : Dev nD) : o6_7 m c = (dat2 (Uv5 m) c).arrAt 7 cfg2.N := by unfold o6_7; rfl
def U6 (c : Dev nD) : Valuation τ sig (Elt F) :=
  (Function.update (Function.update (Function.update (U5 m c) main_v74_0 (o6_5 m c)) main_v74_1 (o6_6 m c)) main_v74_2 (o6_7 m c))
abbrev Uv6 : VT F := fun c b => U6 m c b
def U7 (c : Dev nD) : Valuation τ sig (Elt F) := StableHlo.after hostOps3 (U6 m c)
abbrev Uv7 : VT F := fun c b => U7 m c b
/-- What region 3 leaves in its output window 5's array. -/
@[irreducible] def o8_5 (c : Dev nD) : Buf (Elt F) ((c : Thread nD τ).loc main_v91) := (dat3 (Uv7 m) c).arrAt 5 cfg3.N
theorem o8_5_eq (c : Dev nD) : o8_5 m c = (dat3 (Uv7 m) c).arrAt 5 cfg3.N := by unfold o8_5; rfl
def U8 (c : Dev nD) : Valuation τ sig (Elt F) :=
  (Function.update (U7 m c) main_v91 (o8_5 m c))
abbrev Uv8 : VT F := fun c b => U8 m c b
def U9 (c : Dev nD) : Valuation τ sig (Elt F) := StableHlo.after hostOps4 (U8 m c)
abbrev Uv9 : VT F := fun c b => U9 m c b
/-- What region 4 leaves in its output window 5's array. -/
@[irreducible] def o10_5 (c : Dev nD) : Buf (Elt F) ((c : Thread nD τ).loc main_v118_0) := (dat4 (Uv9 m) c).arrAt 5 cfg4.N
theorem o10_5_eq (c : Dev nD) : o10_5 m c = (dat4 (Uv9 m) c).arrAt 5 cfg4.N := by unfold o10_5; rfl
/-- What region 4 leaves in its output window 6's array. -/
@[irreducible] def o10_6 (c : Dev nD) : Buf (Elt F) ((c : Thread nD τ).loc main_v118_1) := (dat4 (Uv9 m) c).arrAt 6 cfg4.N
theorem o10_6_eq (c : Dev nD) : o10_6 m c = (dat4 (Uv9 m) c).arrAt 6 cfg4.N := by unfold o10_6; rfl
/-- What region 4 leaves in its output window 7's array. -/
@[irreducible] def o10_7 (c : Dev nD) : Buf (Elt F) ((c : Thread nD τ).loc main_v118_2) := (dat4 (Uv9 m) c).arrAt 7 cfg4.N
theorem o10_7_eq (c : Dev nD) : o10_7 m c = (dat4 (Uv9 m) c).arrAt 7 cfg4.N := by unfold o10_7; rfl
def U10 (c : Dev nD) : Valuation τ sig (Elt F) :=
  (Function.update (Function.update (Function.update (U9 m c) main_v118_0 (o10_5 m c)) main_v118_1 (o10_6 m c)) main_v118_2 (o10_7 m c))
abbrev Uv10 : VT F := fun c b => U10 m c b
def U11 (c : Dev nD) : Valuation τ sig (Elt F) := StableHlo.after hostOps5 (U10 m c)
abbrev Uv11 : VT F := fun c b => U11 m c b
/-- What region 5 leaves in its output window 5's array. -/
@[irreducible] def o12_5 (c : Dev nD) : Buf (Elt F) ((c : Thread nD τ).loc main_v135) := (dat5 (Uv11 m) c).arrAt 5 cfg5.N
theorem o12_5_eq (c : Dev nD) : o12_5 m c = (dat5 (Uv11 m) c).arrAt 5 cfg5.N := by unfold o12_5; rfl
def U12 (c : Dev nD) : Valuation τ sig (Elt F) :=
  (Function.update (U11 m c) main_v135 (o12_5 m c))
abbrev Uv12 : VT F := fun c b => U12 m c b
def U13 (c : Dev nD) : Valuation τ sig (Elt F) := StableHlo.after hostOps6 (U12 m c)
abbrev Uv13 : VT F := fun c b => U13 m c b
/-- What region 6 leaves in its output window 5's array. -/
@[irreducible] def o14_5 (c : Dev nD) : Buf (Elt F) ((c : Thread nD τ).loc main_v162_0) := (dat6 (Uv13 m) c).arrAt 5 cfg6.N
theorem o14_5_eq (c : Dev nD) : o14_5 m c = (dat6 (Uv13 m) c).arrAt 5 cfg6.N := by unfold o14_5; rfl
/-- What region 6 leaves in its output window 6's array. -/
@[irreducible] def o14_6 (c : Dev nD) : Buf (Elt F) ((c : Thread nD τ).loc main_v162_1) := (dat6 (Uv13 m) c).arrAt 6 cfg6.N
theorem o14_6_eq (c : Dev nD) : o14_6 m c = (dat6 (Uv13 m) c).arrAt 6 cfg6.N := by unfold o14_6; rfl
/-- What region 6 leaves in its output window 7's array. -/
@[irreducible] def o14_7 (c : Dev nD) : Buf (Elt F) ((c : Thread nD τ).loc main_v162_2) := (dat6 (Uv13 m) c).arrAt 7 cfg6.N
theorem o14_7_eq (c : Dev nD) : o14_7 m c = (dat6 (Uv13 m) c).arrAt 7 cfg6.N := by unfold o14_7; rfl
def U14 (c : Dev nD) : Valuation τ sig (Elt F) :=
  (Function.update (Function.update (Function.update (U13 m c) main_v162_0 (o14_5 m c)) main_v162_1 (o14_6 m c)) main_v162_2 (o14_7 m c))
abbrev Uv14 : VT F := fun c b => U14 m c b
def U15 (c : Dev nD) : Valuation τ sig (Elt F) := StableHlo.after hostOps7 (U14 m c)
abbrev Uv15 : VT F := fun c b => U15 m c b
/-- What region 7 leaves in its output window 5's array. -/
@[irreducible] def o16_5 (c : Dev nD) : Buf (Elt F) ((c : Thread nD τ).loc main_v179) := (dat7 (Uv15 m) c).arrAt 5 cfg7.N
theorem o16_5_eq (c : Dev nD) : o16_5 m c = (dat7 (Uv15 m) c).arrAt 5 cfg7.N := by unfold o16_5; rfl
def U16 (c : Dev nD) : Valuation τ sig (Elt F) :=
  (Function.update (U15 m c) main_v179 (o16_5 m c))
abbrev Uv16 : VT F := fun c b => U16 m c b
def U17 (c : Dev nD) : Valuation τ sig (Elt F) := StableHlo.after hostOps8 (U16 m c)
abbrev Uv17 : VT F := fun c b => U17 m c b
/-- What region 8 leaves in its output window 9's array. -/
@[irreducible] def o18_9 (c : Dev nD) : Buf (Elt F) ((c : Thread nD τ).loc main_v196) := (dat8 (Uv17 m) c).arrAt 9 cfg8.N
theorem o18_9_eq (c : Dev nD) : o18_9 m c = (dat8 (Uv17 m) c).arrAt 9 cfg8.N := by unfold o18_9; rfl
def U18 (c : Dev nD) : Valuation τ sig (Elt F) :=
  (Function.update (U17 m c) main_v196 (o18_9 m c))
abbrev Uv18 : VT F := fun c b => U18 m c b
def U19 (c : Dev nD) : Valuation τ sig (Elt F) := StableHlo.after hostOps9 (U18 m c)
abbrev Uv19 : VT F := fun c b => U19 m c b
/-- What region 9 leaves in its output window 7's array. -/
@[irreducible] def o20_7 (c : Dev nD) : Buf (Elt F) ((c : Thread nD τ).loc main_v219) := (dat9 (Uv19 m) c).arrAt 7 cfg9.N
theorem o20_7_eq (c : Dev nD) : o20_7 m c = (dat9 (Uv19 m) c).arrAt 7 cfg9.N := by unfold o20_7; rfl
def U20 (c : Dev nD) : Valuation τ sig (Elt F) :=
  (Function.update (U19 m c) main_v219 (o20_7 m c))
abbrev Uv20 : VT F := fun c b => U20 m c b
def U21 (c : Dev nD) : Valuation τ sig (Elt F) := StableHlo.after hostOps10 (U20 m c)
abbrev Uv21 : VT F := fun c b => U21 m c b

/-! ## What each item leaves unchanged -/

/-- A buffer a host stretch does not write holds after it what it held before. -/
theorem hkeepH0 (c : Dev nD) (r : Ref sig .tc) (h : r ∉ hostOps0_W) : U1 m c r = V0 m c r := by
  unfold U1; exact StableHlo.after_of_writes_sub hostOps0 _ hostOps0_writes h
theorem hkeepH1 (c : Dev nD) (r : Ref sig .tc) (h : r ∉ hostOps1_W) : U3 m c r = U2 m c r := by
  unfold U3; exact StableHlo.after_of_writes_sub hostOps1 _ hostOps1_writes h
theorem hkeepH2 (c : Dev nD) (r : Ref sig .tc) (h : r ∉ hostOps2_W) : U5 m c r = U4 m c r := by
  unfold U5; exact StableHlo.after_of_writes_sub hostOps2 _ hostOps2_writes h
theorem hkeepH3 (c : Dev nD) (r : Ref sig .tc) (h : r ∉ hostOps3_W) : U7 m c r = U6 m c r := by
  unfold U7; exact StableHlo.after_of_writes_sub hostOps3 _ hostOps3_writes h
theorem hkeepH4 (c : Dev nD) (r : Ref sig .tc) (h : r ∉ hostOps4_W) : U9 m c r = U8 m c r := by
  unfold U9; exact StableHlo.after_of_writes_sub hostOps4 _ hostOps4_writes h
theorem hkeepH5 (c : Dev nD) (r : Ref sig .tc) (h : r ∉ hostOps5_W) : U11 m c r = U10 m c r := by
  unfold U11; exact StableHlo.after_of_writes_sub hostOps5 _ hostOps5_writes h
theorem hkeepH6 (c : Dev nD) (r : Ref sig .tc) (h : r ∉ hostOps6_W) : U13 m c r = U12 m c r := by
  unfold U13; exact StableHlo.after_of_writes_sub hostOps6 _ hostOps6_writes h
theorem hkeepH7 (c : Dev nD) (r : Ref sig .tc) (h : r ∉ hostOps7_W) : U15 m c r = U14 m c r := by
  unfold U15; exact StableHlo.after_of_writes_sub hostOps7 _ hostOps7_writes h
theorem hkeepH8 (c : Dev nD) (r : Ref sig .tc) (h : r ∉ hostOps8_W) : U17 m c r = U16 m c r := by
  unfold U17; exact StableHlo.after_of_writes_sub hostOps8 _ hostOps8_writes h
theorem hkeepH9 (c : Dev nD) (r : Ref sig .tc) (h : r ∉ hostOps9_W) : U19 m c r = U18 m c r := by
  unfold U19; exact StableHlo.after_of_writes_sub hostOps9 _ hostOps9_writes h
theorem hkeepH10 (c : Dev nD) (r : Ref sig .tc) (h : r ∉ hostOps10_W) : U21 m c r = U20 m c r := by
  unfold U21; exact StableHlo.after_of_writes_sub hostOps10 _ hostOps10_writes h
/-- A buffer region 0 may not change holds at its exit what it held at its entry. -/
theorem hkeep0 (c : Dev nD) (r : Ref sig .tc) (h : r ∉ ([main_v30_0, main_v30_1, main_v30_2] : List (Ref sig .tc))) : U2 m c r = U1 m c r := by
  unfold U2
  rw [Function.update_of_ne (StableHlo.devRef_ne_of_ne (List.ne_of_not_mem_cons (List.not_mem_of_not_mem_cons (List.not_mem_of_not_mem_cons h))) : (Proc.devRef .tc r : DevRef τ sig) ≠ Proc.devRef .tc main_v30_2),
    Function.update_of_ne (StableHlo.devRef_ne_of_ne (List.ne_of_not_mem_cons (List.not_mem_of_not_mem_cons h)) : (Proc.devRef .tc r : DevRef τ sig) ≠ Proc.devRef .tc main_v30_1),
    Function.update_of_ne (StableHlo.devRef_ne_of_ne (List.ne_of_not_mem_cons h) : (Proc.devRef .tc r : DevRef τ sig) ≠ Proc.devRef .tc main_v30_0)]
/-- A buffer region 1 may not change holds at its exit what it held at its entry. -/
theorem hkeep1 (c : Dev nD) (r : Ref sig .tc) (h : r ∉ ([main_v47] : List (Ref sig .tc))) : U4 m c r = U3 m c r := by
  unfold U4
  rw [Function.update_of_ne (StableHlo.devRef_ne_of_ne (List.ne_of_not_mem_cons h) : (Proc.devRef .tc r : DevRef τ sig) ≠ Proc.devRef .tc main_v47)]
/-- A buffer region 2 may not change holds at its exit what it held at its entry. -/
theorem hkeep2 (c : Dev nD) (r : Ref sig .tc) (h : r ∉ ([main_v74_0, main_v74_1, main_v74_2] : List (Ref sig .tc))) : U6 m c r = U5 m c r := by
  unfold U6
  rw [Function.update_of_ne (StableHlo.devRef_ne_of_ne (List.ne_of_not_mem_cons (List.not_mem_of_not_mem_cons (List.not_mem_of_not_mem_cons h))) : (Proc.devRef .tc r : DevRef τ sig) ≠ Proc.devRef .tc main_v74_2),
    Function.update_of_ne (StableHlo.devRef_ne_of_ne (List.ne_of_not_mem_cons (List.not_mem_of_not_mem_cons h)) : (Proc.devRef .tc r : DevRef τ sig) ≠ Proc.devRef .tc main_v74_1),
    Function.update_of_ne (StableHlo.devRef_ne_of_ne (List.ne_of_not_mem_cons h) : (Proc.devRef .tc r : DevRef τ sig) ≠ Proc.devRef .tc main_v74_0)]
/-- A buffer region 3 may not change holds at its exit what it held at its entry. -/
theorem hkeep3 (c : Dev nD) (r : Ref sig .tc) (h : r ∉ ([main_v91] : List (Ref sig .tc))) : U8 m c r = U7 m c r := by
  unfold U8
  rw [Function.update_of_ne (StableHlo.devRef_ne_of_ne (List.ne_of_not_mem_cons h) : (Proc.devRef .tc r : DevRef τ sig) ≠ Proc.devRef .tc main_v91)]
/-- A buffer region 4 may not change holds at its exit what it held at its entry. -/
theorem hkeep4 (c : Dev nD) (r : Ref sig .tc) (h : r ∉ ([main_v118_0, main_v118_1, main_v118_2] : List (Ref sig .tc))) : U10 m c r = U9 m c r := by
  unfold U10
  rw [Function.update_of_ne (StableHlo.devRef_ne_of_ne (List.ne_of_not_mem_cons (List.not_mem_of_not_mem_cons (List.not_mem_of_not_mem_cons h))) : (Proc.devRef .tc r : DevRef τ sig) ≠ Proc.devRef .tc main_v118_2),
    Function.update_of_ne (StableHlo.devRef_ne_of_ne (List.ne_of_not_mem_cons (List.not_mem_of_not_mem_cons h)) : (Proc.devRef .tc r : DevRef τ sig) ≠ Proc.devRef .tc main_v118_1),
    Function.update_of_ne (StableHlo.devRef_ne_of_ne (List.ne_of_not_mem_cons h) : (Proc.devRef .tc r : DevRef τ sig) ≠ Proc.devRef .tc main_v118_0)]
/-- A buffer region 5 may not change holds at its exit what it held at its entry. -/
theorem hkeep5 (c : Dev nD) (r : Ref sig .tc) (h : r ∉ ([main_v135] : List (Ref sig .tc))) : U12 m c r = U11 m c r := by
  unfold U12
  rw [Function.update_of_ne (StableHlo.devRef_ne_of_ne (List.ne_of_not_mem_cons h) : (Proc.devRef .tc r : DevRef τ sig) ≠ Proc.devRef .tc main_v135)]
/-- A buffer region 6 may not change holds at its exit what it held at its entry. -/
theorem hkeep6 (c : Dev nD) (r : Ref sig .tc) (h : r ∉ ([main_v162_0, main_v162_1, main_v162_2] : List (Ref sig .tc))) : U14 m c r = U13 m c r := by
  unfold U14
  rw [Function.update_of_ne (StableHlo.devRef_ne_of_ne (List.ne_of_not_mem_cons (List.not_mem_of_not_mem_cons (List.not_mem_of_not_mem_cons h))) : (Proc.devRef .tc r : DevRef τ sig) ≠ Proc.devRef .tc main_v162_2),
    Function.update_of_ne (StableHlo.devRef_ne_of_ne (List.ne_of_not_mem_cons (List.not_mem_of_not_mem_cons h)) : (Proc.devRef .tc r : DevRef τ sig) ≠ Proc.devRef .tc main_v162_1),
    Function.update_of_ne (StableHlo.devRef_ne_of_ne (List.ne_of_not_mem_cons h) : (Proc.devRef .tc r : DevRef τ sig) ≠ Proc.devRef .tc main_v162_0)]
/-- A buffer region 7 may not change holds at its exit what it held at its entry. -/
theorem hkeep7 (c : Dev nD) (r : Ref sig .tc) (h : r ∉ ([main_v179] : List (Ref sig .tc))) : U16 m c r = U15 m c r := by
  unfold U16
  rw [Function.update_of_ne (StableHlo.devRef_ne_of_ne (List.ne_of_not_mem_cons h) : (Proc.devRef .tc r : DevRef τ sig) ≠ Proc.devRef .tc main_v179)]
/-- A buffer region 8 may not change holds at its exit what it held at its entry. -/
theorem hkeep8 (c : Dev nD) (r : Ref sig .tc) (h : r ∉ ([main_v196] : List (Ref sig .tc))) : U18 m c r = U17 m c r := by
  unfold U18
  rw [Function.update_of_ne (StableHlo.devRef_ne_of_ne (List.ne_of_not_mem_cons h) : (Proc.devRef .tc r : DevRef τ sig) ≠ Proc.devRef .tc main_v196)]
/-- A buffer region 9 may not change holds at its exit what it held at its entry. -/
theorem hkeep9 (c : Dev nD) (r : Ref sig .tc) (h : r ∉ ([main_v219] : List (Ref sig .tc))) : U20 m c r = U19 m c r := by
  unfold U20
  rw [Function.update_of_ne (StableHlo.devRef_ne_of_ne (List.ne_of_not_mem_cons h) : (Proc.devRef .tc r : DevRef τ sig) ≠ Proc.devRef .tc main_v219)]

/-! ## The proof data family and the thread state -/

/-- Every pipeline's proof data, each at its region's entry contents. -/
def pdats : (p : Fin 10) → (c : Dev nD) → Dat τ (Elt F) Unit ℕ (Pipeline.UD sig nD τ) ℕ (cfgs p) c
  | ⟨0, _⟩ => fun c => dat0 (Uv1 m) c
  | ⟨1, _⟩ => fun c => dat1 (Uv3 m) c
  | ⟨2, _⟩ => fun c => dat2 (Uv5 m) c
  | ⟨3, _⟩ => fun c => dat3 (Uv7 m) c
  | ⟨4, _⟩ => fun c => dat4 (Uv9 m) c
  | ⟨5, _⟩ => fun c => dat5 (Uv11 m) c
  | ⟨6, _⟩ => fun c => dat6 (Uv13 m) c
  | ⟨7, _⟩ => fun c => dat7 (Uv15 m) c
  | ⟨8, _⟩ => fun c => dat8 (Uv17 m) c
  | ⟨9, _⟩ => fun c => dat9 (Uv19 m) c

abbrev L₀ : GSem nD τ sig → Finset Unit := fun _ => ∅
abbrev lv₀ : GSem nD τ sig → Unit → ℕ := fun _ _ => 0
/-- What rides beside the buffers through every segment: the core's generator register at some state and its dues, at nothing. -/
abbrev Rst (c : Dev nD) : sProp 𝕄 := iprop((∃ r, prngReg c r) ∗ ∃ W, owes (c : Thread nD τ) (0 : CellTallies nD τ sig Unit) W)

end Cert.KernelIdeal.Hand

end
-- ==== Proof.KI.Asm.R0.lean ====
/- Region 0 of the kernel program as a segment of the run of @main. -/
import proofs.«118347_j18940805776024_1_alg».proof.Proof.KI.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

-- the accumulators' point-by-point contents are never opened here
attribute [local irreducible] outsAt0 PhiS0

/-- At region 0's exit each of its windows' arrays holds what the pipeline leaves there: an input's its entry contents, an output's its write-backs. -/
theorem hF0 (c : Dev nD) (w : Fin cfg0.W) : (dat0 (Uv1 m) c).arrAt w cfg0.N = Uv2 m c (Pipeline.arrRef spec0 w) := by
  obtain ⟨i, hi⟩ := w
  have hi' : i < 8 := hi
  interval_cases i
  · exact ((dat0 (Uv1 m) c).arrAt_in _ rfl _).trans ((A_eq0 (Uv1 m) c _).trans (hkeep0 m c _ (show Pipeline.arrRef spec0 (⟨0, by decide⟩ : Fin cfg0.W) ∉ ([main_v30_0, main_v30_1, main_v30_2] : List (Ref sig .tc)) from by decide)).symm)
  · exact ((dat0 (Uv1 m) c).arrAt_in _ rfl _).trans ((A_eq0 (Uv1 m) c _).trans (hkeep0 m c _ (show Pipeline.arrRef spec0 (⟨1, by decide⟩ : Fin cfg0.W) ∉ ([main_v30_0, main_v30_1, main_v30_2] : List (Ref sig .tc)) from by decide)).symm)
  · exact ((dat0 (Uv1 m) c).arrAt_in _ rfl _).trans ((A_eq0 (Uv1 m) c _).trans (hkeep0 m c _ (show Pipeline.arrRef spec0 (⟨2, by decide⟩ : Fin cfg0.W) ∉ ([main_v30_0, main_v30_1, main_v30_2] : List (Ref sig .tc)) from by decide)).symm)
  · exact ((dat0 (Uv1 m) c).arrAt_in _ rfl _).trans ((A_eq0 (Uv1 m) c _).trans (hkeep0 m c _ (show Pipeline.arrRef spec0 (⟨3, by decide⟩ : Fin cfg0.W) ∉ ([main_v30_0, main_v30_1, main_v30_2] : List (Ref sig .tc)) from by decide)).symm)
  · exact ((dat0 (Uv1 m) c).arrAt_in _ rfl _).trans ((A_eq0 (Uv1 m) c _).trans (hkeep0 m c _ (show Pipeline.arrRef spec0 (⟨4, by decide⟩ : Fin cfg0.W) ∉ ([main_v30_0, main_v30_1, main_v30_2] : List (Ref sig .tc)) from by decide)).symm)
  · show _ = U2 m c main_v30_0
    unfold U2; rw [Function.update_of_ne (by decide), Function.update_of_ne (by decide), Function.update_self, o2_5_eq]; rfl
  · show _ = U2 m c main_v30_1
    unfold U2; rw [Function.update_of_ne (by decide), Function.update_self, o2_6_eq]; rfl
  · show _ = U2 m c main_v30_2
    unfold U2; rw [Function.update_self, o2_7_eq]; rfl
theorem hrest0 (c : Dev nD) : ∀ b, b ∉ Finset.univ.image (Pipeline.arrRef spec0) → Uv2 m c b = Uv1 m c b := fun b hb => by
  refine hkeep0 m c b fun hmem => hb ?_
  simp only [List.mem_cons, List.not_mem_nil, or_false] at hmem
  rcases hmem with rfl | rfl | rfl
  · exact Finset.mem_image.mpr ⟨5, Finset.mem_univ _, rfl⟩
  · exact Finset.mem_image.mpr ⟨6, Finset.mem_univ _, rfl⟩
  · exact Finset.mem_image.mpr ⟨7, Finset.mem_univ _, rfl⟩

set_option backward.isDefEq.respectTransparency.types false in
/-- REGION 0 over the thread state: entered from every unscoped buffer at boundary 1's contents, left at boundary 2's. Its
    arrays are split out of the unscoped buffers and put back at the exit contents; the generator register and the scoped
    buffers no window stages go into the pipeline's invariant and come back; nothing owed; no semaphore of the kernel's own. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (Uv1 m) c).loose
  hwaits := Pipeline.hwaits_of_owed_zero _ _ _ _ L₀ lv₀ 0 fun _ _ => rfl
  pre c := iprop(StableHlo.held (c : Thread nD τ) (Pipeline.ucRefs τ sig) (U1 m c) ∗ Rst c)
  post c := iprop(StableHlo.held (c : Thread nD τ) (Pipeline.ucRefs τ sig) (U2 m c) ∗ Rst c)
  X c := iprop(∃ r, prngReg c r)
  Y c := iprop(∃ r, prngReg c r)
  Z c := Pipeline.unscopedRest (Ix := Unit) (Name := ℕ) (U := Pipeline.UD sig nD τ) (Lvl := ℕ) spec0 c (Uv1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Uv1 m c) fun w => A_eq0 (Uv1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Uv1 m) c).Φ 0 from rfl]
    iintro ⟨Hp, -, Hr⟩
    iapply (Phi0_in (Uv1 m) c)
    isplitl [Hp]; · iexact Hp
    iexact Hr
  hout c := by
    rw [Pipeline.ownSems0_none, show (pdats m 0 c).Φ (Fin.last _) = (dat0 (Uv1 m) c).Φ (Fin.last _) from rfl]
    iintro H
    ihave H' := (Phi0_out (Uv1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Uv1 m c) (Uv2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Asm.R1.lean ====
/- Region 1 of the kernel program as a segment of the run of @main. -/
import proofs.«118347_j18940805776024_1_alg».proof.Proof.KI.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- At region 1's exit each of its windows' arrays holds what the pipeline leaves there: an input's its entry contents, an output's its write-backs. -/
theorem hF1 (c : Dev nD) (w : Fin cfg1.W) : (dat1 (Uv3 m) c).arrAt w cfg1.N = Uv4 m c (Pipeline.arrRef spec1 w) := by
  obtain ⟨i, hi⟩ := w
  have hi' : i < 6 := hi
  interval_cases i
  · exact ((dat1 (Uv3 m) c).arrAt_in _ rfl _).trans ((A_eq1 (Uv3 m) c _).trans (hkeep1 m c _ (show Pipeline.arrRef spec1 (⟨0, by decide⟩ : Fin cfg1.W) ∉ ([main_v47] : List (Ref sig .tc)) from by decide)).symm)
  · exact ((dat1 (Uv3 m) c).arrAt_in _ rfl _).trans ((A_eq1 (Uv3 m) c _).trans (hkeep1 m c _ (show Pipeline.arrRef spec1 (⟨1, by decide⟩ : Fin cfg1.W) ∉ ([main_v47] : List (Ref sig .tc)) from by decide)).symm)
  · exact ((dat1 (Uv3 m) c).arrAt_in _ rfl _).trans ((A_eq1 (Uv3 m) c _).trans (hkeep1 m c _ (show Pipeline.arrRef spec1 (⟨2, by decide⟩ : Fin cfg1.W) ∉ ([main_v47] : List (Ref sig .tc)) from by decide)).symm)
  · exact ((dat1 (Uv3 m) c).arrAt_in _ rfl _).trans ((A_eq1 (Uv3 m) c _).trans (hkeep1 m c _ (show Pipeline.arrRef spec1 (⟨3, by decide⟩ : Fin cfg1.W) ∉ ([main_v47] : List (Ref sig .tc)) from by decide)).symm)
  · exact ((dat1 (Uv3 m) c).arrAt_in _ rfl _).trans ((A_eq1 (Uv3 m) c _).trans (hkeep1 m c _ (show Pipeline.arrRef spec1 (⟨4, by decide⟩ : Fin cfg1.W) ∉ ([main_v47] : List (Ref sig .tc)) from by decide)).symm)
  · show _ = U4 m c main_v47
    unfold U4; rw [Function.update_self, o4_5_eq]; rfl
theorem hrest1 (c : Dev nD) : ∀ b, b ∉ Finset.univ.image (Pipeline.arrRef spec1) → Uv4 m c b = Uv3 m c b := fun b hb => by
  refine hkeep1 m c b fun hmem => hb ?_
  simp only [List.mem_cons, List.not_mem_nil, or_false] at hmem
  rcases hmem with rfl
  · exact Finset.mem_image.mpr ⟨5, Finset.mem_univ _, rfl⟩

set_option backward.isDefEq.respectTransparency.types false in
/-- REGION 1 over the thread state: entered from every unscoped buffer at boundary 3's contents, left at boundary 4's. Its
    arrays are split out of the unscoped buffers and put back at the exit contents; the generator register and the scoped
    buffers no window stages go into the pipeline's invariant and come back; nothing owed; no semaphore of the kernel's own. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (Uv3 m) c).loose
  hwaits := Pipeline.hwaits_of_owed_zero _ _ _ _ L₀ lv₀ 1 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := Pipeline.UD sig nD τ) (Lvl := ℕ) spec1 c (Uv3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Uv3 m c) fun w => A_eq1 (Uv3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Uv3 m) c).Φ 0 from rfl]
    iintro ⟨Hp, -, Hr⟩
    iapply (Phi1_in (Uv3 m) c)
    isplitl [Hp]; · iexact Hp
    iexact Hr
  hout c := by
    rw [Pipeline.ownSems0_none, show (pdats m 1 c).Φ (Fin.last _) = (dat1 (Uv3 m) c).Φ (Fin.last _) from rfl]
    iintro H
    ihave H' := (Phi1_out (Uv3 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Uv3 m c) (Uv4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Asm.R2.lean ====
/- Region 2 of the kernel program as a segment of the run of @main. -/
import proofs.«118347_j18940805776024_1_alg».proof.Proof.KI.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

-- the accumulators' point-by-point contents are never opened here
attribute [local irreducible] outsAt2 PhiS2

/-- At region 2's exit each of its windows' arrays holds what the pipeline leaves there: an input's its entry contents, an output's its write-backs. -/
theorem hF2 (c : Dev nD) (w : Fin cfg2.W) : (dat2 (Uv5 m) c).arrAt w cfg2.N = Uv6 m c (Pipeline.arrRef spec2 w) := by
  obtain ⟨i, hi⟩ := w
  have hi' : i < 8 := hi
  interval_cases i
  · exact ((dat2 (Uv5 m) c).arrAt_in _ rfl _).trans ((A_eq2 (Uv5 m) c _).trans (hkeep2 m c _ (show Pipeline.arrRef spec2 (⟨0, by decide⟩ : Fin cfg2.W) ∉ ([main_v74_0, main_v74_1, main_v74_2] : List (Ref sig .tc)) from by decide)).symm)
  · exact ((dat2 (Uv5 m) c).arrAt_in _ rfl _).trans ((A_eq2 (Uv5 m) c _).trans (hkeep2 m c _ (show Pipeline.arrRef spec2 (⟨1, by decide⟩ : Fin cfg2.W) ∉ ([main_v74_0, main_v74_1, main_v74_2] : List (Ref sig .tc)) from by decide)).symm)
  · exact ((dat2 (Uv5 m) c).arrAt_in _ rfl _).trans ((A_eq2 (Uv5 m) c _).trans (hkeep2 m c _ (show Pipeline.arrRef spec2 (⟨2, by decide⟩ : Fin cfg2.W) ∉ ([main_v74_0, main_v74_1, main_v74_2] : List (Ref sig .tc)) from by decide)).symm)
  · exact ((dat2 (Uv5 m) c).arrAt_in _ rfl _).trans ((A_eq2 (Uv5 m) c _).trans (hkeep2 m c _ (show Pipeline.arrRef spec2 (⟨3, by decide⟩ : Fin cfg2.W) ∉ ([main_v74_0, main_v74_1, main_v74_2] : List (Ref sig .tc)) from by decide)).symm)
  · exact ((dat2 (Uv5 m) c).arrAt_in _ rfl _).trans ((A_eq2 (Uv5 m) c _).trans (hkeep2 m c _ (show Pipeline.arrRef spec2 (⟨4, by decide⟩ : Fin cfg2.W) ∉ ([main_v74_0, main_v74_1, main_v74_2] : List (Ref sig .tc)) from by decide)).symm)
  · show _ = U6 m c main_v74_0
    unfold U6; rw [Function.update_of_ne (by decide), Function.update_of_ne (by decide), Function.update_self, o6_5_eq]; rfl
  · show _ = U6 m c main_v74_1
    unfold U6; rw [Function.update_of_ne (by decide), Function.update_self, o6_6_eq]; rfl
  · show _ = U6 m c main_v74_2
    unfold U6; rw [Function.update_self, o6_7_eq]; rfl
theorem hrest2 (c : Dev nD) : ∀ b, b ∉ Finset.univ.image (Pipeline.arrRef spec2) → Uv6 m c b = Uv5 m c b := fun b hb => by
  refine hkeep2 m c b fun hmem => hb ?_
  simp only [List.mem_cons, List.not_mem_nil, or_false] at hmem
  rcases hmem with rfl | rfl | rfl
  · exact Finset.mem_image.mpr ⟨5, Finset.mem_univ _, rfl⟩
  · exact Finset.mem_image.mpr ⟨6, Finset.mem_univ _, rfl⟩
  · exact Finset.mem_image.mpr ⟨7, Finset.mem_univ _, rfl⟩

set_option backward.isDefEq.respectTransparency.types false in
/-- REGION 2 over the thread state: entered from every unscoped buffer at boundary 5's contents, left at boundary 6's. Its
    arrays are split out of the unscoped buffers and put back at the exit contents; the generator register and the scoped
    buffers no window stages go into the pipeline's invariant and come back; nothing owed; no semaphore of the kernel's own. -/
def reg2 : Pipeline.RegionSeg (pcfgs (F := F)) adm (pdats m) () defs₀ Variants.none L₀ lv₀ 2 where
  win := launch2.win.to₀
  block_pos := launch2.block_pos
  stage_whole := launch2.stage_whole
  K := PEmpty
  osem k := k.elim
  ho := Pipeline.OwnSemFacts.none _
  hbody c := (body_obligation2 (Uv5 m) c).loose
  hwaits := Pipeline.hwaits_of_owed_zero _ _ _ _ L₀ lv₀ 2 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := Pipeline.UD sig nD τ) (Lvl := ℕ) spec2 c (Uv5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Uv5 m c) fun w => A_eq2 (Uv5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Uv5 m) c).Φ 0 from rfl]
    iintro ⟨Hp, -, Hr⟩
    iapply (Phi2_in (Uv5 m) c)
    isplitl [Hp]; · iexact Hp
    iexact Hr
  hout c := by
    rw [Pipeline.ownSems0_none, show (pdats m 2 c).Φ (Fin.last _) = (dat2 (Uv5 m) c).Φ (Fin.last _) from rfl]
    iintro H
    ihave H' := (Phi2_out (Uv5 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (Uv5 m c) (Uv6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Asm.R3.lean ====
/- Region 3 of the kernel program as a segment of the run of @main. -/
import proofs.«118347_j18940805776024_1_alg».proof.Proof.KI.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- At region 3's exit each of its windows' arrays holds what the pipeline leaves there: an input's its entry contents, an output's its write-backs. -/
theorem hF3 (c : Dev nD) (w : Fin cfg3.W) : (dat3 (Uv7 m) c).arrAt w cfg3.N = Uv8 m c (Pipeline.arrRef spec3 w) := by
  obtain ⟨i, hi⟩ := w
  have hi' : i < 6 := hi
  interval_cases i
  · exact ((dat3 (Uv7 m) c).arrAt_in _ rfl _).trans ((A_eq3 (Uv7 m) c _).trans (hkeep3 m c _ (show Pipeline.arrRef spec3 (⟨0, by decide⟩ : Fin cfg3.W) ∉ ([main_v91] : List (Ref sig .tc)) from by decide)).symm)
  · exact ((dat3 (Uv7 m) c).arrAt_in _ rfl _).trans ((A_eq3 (Uv7 m) c _).trans (hkeep3 m c _ (show Pipeline.arrRef spec3 (⟨1, by decide⟩ : Fin cfg3.W) ∉ ([main_v91] : List (Ref sig .tc)) from by decide)).symm)
  · exact ((dat3 (Uv7 m) c).arrAt_in _ rfl _).trans ((A_eq3 (Uv7 m) c _).trans (hkeep3 m c _ (show Pipeline.arrRef spec3 (⟨2, by decide⟩ : Fin cfg3.W) ∉ ([main_v91] : List (Ref sig .tc)) from by decide)).symm)
  · exact ((dat3 (Uv7 m) c).arrAt_in _ rfl _).trans ((A_eq3 (Uv7 m) c _).trans (hkeep3 m c _ (show Pipeline.arrRef spec3 (⟨3, by decide⟩ : Fin cfg3.W) ∉ ([main_v91] : List (Ref sig .tc)) from by decide)).symm)
  · exact ((dat3 (Uv7 m) c).arrAt_in _ rfl _).trans ((A_eq3 (Uv7 m) c _).trans (hkeep3 m c _ (show Pipeline.arrRef spec3 (⟨4, by decide⟩ : Fin cfg3.W) ∉ ([main_v91] : List (Ref sig .tc)) from by decide)).symm)
  · show _ = U8 m c main_v91
    unfold U8; rw [Function.update_self, o8_5_eq]; rfl
theorem hrest3 (c : Dev nD) : ∀ b, b ∉ Finset.univ.image (Pipeline.arrRef spec3) → Uv8 m c b = Uv7 m c b := fun b hb => by
  refine hkeep3 m c b fun hmem => hb ?_
  simp only [List.mem_cons, List.not_mem_nil, or_false] at hmem
  rcases hmem with rfl
  · exact Finset.mem_image.mpr ⟨5, Finset.mem_univ _, rfl⟩

set_option backward.isDefEq.respectTransparency.types false in
/-- REGION 3 over the thread state: entered from every unscoped buffer at boundary 7's contents, left at boundary 8's. Its
    arrays are split out of the unscoped buffers and put back at the exit contents; the generator register and the scoped
    buffers no window stages go into the pipeline's invariant and come back; nothing owed; no semaphore of the kernel's own. -/
def reg3 : Pipeline.RegionSeg (pcfgs (F := F)) adm (pdats m) () defs₀ Variants.none L₀ lv₀ 3 where
  win := launch3.win.to₀
  block_pos := launch3.block_pos
  stage_whole := launch3.stage_whole
  K := PEmpty
  osem k := k.elim
  ho := Pipeline.OwnSemFacts.none _
  hbody c := (body_obligation3 (Uv7 m) c).loose
  hwaits := Pipeline.hwaits_of_owed_zero _ _ _ _ L₀ lv₀ 3 fun _ _ => rfl
  pre c := iprop(StableHlo.held (c : Thread nD τ) (Pipeline.ucRefs τ sig) (U7 m c) ∗ Rst c)
  post c := iprop(StableHlo.held (c : Thread nD τ) (Pipeline.ucRefs τ sig) (U8 m c) ∗ Rst c)
  X c := iprop(∃ r, prngReg c r)
  Y c := iprop(∃ r, prngReg c r)
  Z c := Pipeline.unscopedRest (Ix := Unit) (Name := ℕ) (U := Pipeline.UD sig nD τ) (Lvl := ℕ) spec3 c (Uv7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Uv7 m c) fun w => A_eq3 (Uv7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Uv7 m) c).Φ 0 from rfl]
    iintro ⟨Hp, -, Hr⟩
    iapply (Phi3_in (Uv7 m) c)
    isplitl [Hp]; · iexact Hp
    iexact Hr
  hout c := by
    rw [Pipeline.ownSems0_none, show (pdats m 3 c).Φ (Fin.last _) = (dat3 (Uv7 m) c).Φ (Fin.last _) from rfl]
    iintro H
    ihave H' := (Phi3_out (Uv7 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (Uv7 m c) (Uv8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Asm.R4.lean ====
/- Region 4 of the kernel program as a segment of the run of @main. -/
import proofs.«118347_j18940805776024_1_alg».proof.Proof.KI.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

-- the accumulators' point-by-point contents are never opened here
attribute [local irreducible] outsAt4 PhiS4

/-- At region 4's exit each of its windows' arrays holds what the pipeline leaves there: an input's its entry contents, an output's its write-backs. -/
theorem hF4 (c : Dev nD) (w : Fin cfg4.W) : (dat4 (Uv9 m) c).arrAt w cfg4.N = Uv10 m c (Pipeline.arrRef spec4 w) := by
  obtain ⟨i, hi⟩ := w
  have hi' : i < 8 := hi
  interval_cases i
  · exact ((dat4 (Uv9 m) c).arrAt_in _ rfl _).trans ((A_eq4 (Uv9 m) c _).trans (hkeep4 m c _ (show Pipeline.arrRef spec4 (⟨0, by decide⟩ : Fin cfg4.W) ∉ ([main_v118_0, main_v118_1, main_v118_2] : List (Ref sig .tc)) from by decide)).symm)
  · exact ((dat4 (Uv9 m) c).arrAt_in _ rfl _).trans ((A_eq4 (Uv9 m) c _).trans (hkeep4 m c _ (show Pipeline.arrRef spec4 (⟨1, by decide⟩ : Fin cfg4.W) ∉ ([main_v118_0, main_v118_1, main_v118_2] : List (Ref sig .tc)) from by decide)).symm)
  · exact ((dat4 (Uv9 m) c).arrAt_in _ rfl _).trans ((A_eq4 (Uv9 m) c _).trans (hkeep4 m c _ (show Pipeline.arrRef spec4 (⟨2, by decide⟩ : Fin cfg4.W) ∉ ([main_v118_0, main_v118_1, main_v118_2] : List (Ref sig .tc)) from by decide)).symm)
  · exact ((dat4 (Uv9 m) c).arrAt_in _ rfl _).trans ((A_eq4 (Uv9 m) c _).trans (hkeep4 m c _ (show Pipeline.arrRef spec4 (⟨3, by decide⟩ : Fin cfg4.W) ∉ ([main_v118_0, main_v118_1, main_v118_2] : List (Ref sig .tc)) from by decide)).symm)
  · exact ((dat4 (Uv9 m) c).arrAt_in _ rfl _).trans ((A_eq4 (Uv9 m) c _).trans (hkeep4 m c _ (show Pipeline.arrRef spec4 (⟨4, by decide⟩ : Fin cfg4.W) ∉ ([main_v118_0, main_v118_1, main_v118_2] : List (Ref sig .tc)) from by decide)).symm)
  · show _ = U10 m c main_v118_0
    unfold U10; rw [Function.update_of_ne (by decide), Function.update_of_ne (by decide), Function.update_self, o10_5_eq]; rfl
  · show _ = U10 m c main_v118_1
    unfold U10; rw [Function.update_of_ne (by decide), Function.update_self, o10_6_eq]; rfl
  · show _ = U10 m c main_v118_2
    unfold U10; rw [Function.update_self, o10_7_eq]; rfl
theorem hrest4 (c : Dev nD) : ∀ b, b ∉ Finset.univ.image (Pipeline.arrRef spec4) → Uv10 m c b = Uv9 m c b := fun b hb => by
  refine hkeep4 m c b fun hmem => hb ?_
  simp only [List.mem_cons, List.not_mem_nil, or_false] at hmem
  rcases hmem with rfl | rfl | rfl
  · exact Finset.mem_image.mpr ⟨5, Finset.mem_univ _, rfl⟩
  · exact Finset.mem_image.mpr ⟨6, Finset.mem_univ _, rfl⟩
  · exact Finset.mem_image.mpr ⟨7, Finset.mem_univ _, rfl⟩

set_option backward.isDefEq.respectTransparency.types false in
/-- REGION 4 over the thread state: entered from every unscoped buffer at boundary 9's contents, left at boundary 10's. Its
    arrays are split out of the unscoped buffers and put back at the exit contents; the generator register and the scoped
    buffers no window stages go into the pipeline's invariant and come back; nothing owed; no semaphore of the kernel's own. -/
def reg4 : Pipeline.RegionSeg (pcfgs (F := F)) adm (pdats m) () defs₀ Variants.none L₀ lv₀ 4 where
  win := launch4.win.to₀
  block_pos := launch4.block_pos
  stage_whole := launch4.stage_whole
  K := PEmpty
  osem k := k.elim
  ho := Pipeline.OwnSemFacts.none _
  hbody c := (body_obligation4 (Uv9 m) c).loose
  hwaits := Pipeline.hwaits_of_owed_zero _ _ _ _ L₀ lv₀ 4 fun _ _ => rfl
  pre c := iprop(StableHlo.held (c : Thread nD τ) (Pipeline.ucRefs τ sig) (U9 m c) ∗ Rst c)
  post c := iprop(StableHlo.held (c : Thread nD τ) (Pipeline.ucRefs τ sig) (U10 m c) ∗ Rst c)
  X c := iprop(∃ r, prngReg c r)
  Y c := iprop(∃ r, prngReg c r)
  Z c := Pipeline.unscopedRest (Ix := Unit) (Name := ℕ) (U := Pipeline.UD sig nD τ) (Lvl := ℕ) spec4 c (Uv9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Uv9 m c) fun w => A_eq4 (Uv9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Uv9 m) c).Φ 0 from rfl]
    iintro ⟨Hp, -, Hr⟩
    iapply (Phi4_in (Uv9 m) c)
    isplitl [Hp]; · iexact Hp
    iexact Hr
  hout c := by
    rw [Pipeline.ownSems0_none, show (pdats m 4 c).Φ (Fin.last _) = (dat4 (Uv9 m) c).Φ (Fin.last _) from rfl]
    iintro H
    ihave H' := (Phi4_out (Uv9 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (Uv9 m c) (Uv10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Asm.R5.lean ====
/- Region 5 of the kernel program as a segment of the run of @main. -/
import proofs.«118347_j18940805776024_1_alg».proof.Proof.KI.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- At region 5's exit each of its windows' arrays holds what the pipeline leaves there: an input's its entry contents, an output's its write-backs. -/
theorem hF5 (c : Dev nD) (w : Fin cfg5.W) : (dat5 (Uv11 m) c).arrAt w cfg5.N = Uv12 m c (Pipeline.arrRef spec5 w) := by
  obtain ⟨i, hi⟩ := w
  have hi' : i < 6 := hi
  interval_cases i
  · exact ((dat5 (Uv11 m) c).arrAt_in _ rfl _).trans ((A_eq5 (Uv11 m) c _).trans (hkeep5 m c _ (show Pipeline.arrRef spec5 (⟨0, by decide⟩ : Fin cfg5.W) ∉ ([main_v135] : List (Ref sig .tc)) from by decide)).symm)
  · exact ((dat5 (Uv11 m) c).arrAt_in _ rfl _).trans ((A_eq5 (Uv11 m) c _).trans (hkeep5 m c _ (show Pipeline.arrRef spec5 (⟨1, by decide⟩ : Fin cfg5.W) ∉ ([main_v135] : List (Ref sig .tc)) from by decide)).symm)
  · exact ((dat5 (Uv11 m) c).arrAt_in _ rfl _).trans ((A_eq5 (Uv11 m) c _).trans (hkeep5 m c _ (show Pipeline.arrRef spec5 (⟨2, by decide⟩ : Fin cfg5.W) ∉ ([main_v135] : List (Ref sig .tc)) from by decide)).symm)
  · exact ((dat5 (Uv11 m) c).arrAt_in _ rfl _).trans ((A_eq5 (Uv11 m) c _).trans (hkeep5 m c _ (show Pipeline.arrRef spec5 (⟨3, by decide⟩ : Fin cfg5.W) ∉ ([main_v135] : List (Ref sig .tc)) from by decide)).symm)
  · exact ((dat5 (Uv11 m) c).arrAt_in _ rfl _).trans ((A_eq5 (Uv11 m) c _).trans (hkeep5 m c _ (show Pipeline.arrRef spec5 (⟨4, by decide⟩ : Fin cfg5.W) ∉ ([main_v135] : List (Ref sig .tc)) from by decide)).symm)
  · show _ = U12 m c main_v135
    unfold U12; rw [Function.update_self, o12_5_eq]; rfl
theorem hrest5 (c : Dev nD) : ∀ b, b ∉ Finset.univ.image (Pipeline.arrRef spec5) → Uv12 m c b = Uv11 m c b := fun b hb => by
  refine hkeep5 m c b fun hmem => hb ?_
  simp only [List.mem_cons, List.not_mem_nil, or_false] at hmem
  rcases hmem with rfl
  · exact Finset.mem_image.mpr ⟨5, Finset.mem_univ _, rfl⟩

set_option backward.isDefEq.respectTransparency.types false in
/-- REGION 5 over the thread state: entered from every unscoped buffer at boundary 11's contents, left at boundary 12's. Its
    arrays are split out of the unscoped buffers and put back at the exit contents; the generator register and the scoped
    buffers no window stages go into the pipeline's invariant and come back; nothing owed; no semaphore of the kernel's own. -/
def reg5 : Pipeline.RegionSeg (pcfgs (F := F)) adm (pdats m) () defs₀ Variants.none L₀ lv₀ 5 where
  win := launch5.win.to₀
  block_pos := launch5.block_pos
  stage_whole := launch5.stage_whole
  K := PEmpty
  osem k := k.elim
  ho := Pipeline.OwnSemFacts.none _
  hbody c := (body_obligation5 (Uv11 m) c).loose
  hwaits := Pipeline.hwaits_of_owed_zero _ _ _ _ L₀ lv₀ 5 fun _ _ => rfl
  pre c := iprop(StableHlo.held (c : Thread nD τ) (Pipeline.ucRefs τ sig) (U11 m c) ∗ Rst c)
  post c := iprop(StableHlo.held (c : Thread nD τ) (Pipeline.ucRefs τ sig) (U12 m c) ∗ Rst c)
  X c := iprop(∃ r, prngReg c r)
  Y c := iprop(∃ r, prngReg c r)
  Z c := Pipeline.unscopedRest (Ix := Unit) (Name := ℕ) (U := Pipeline.UD sig nD τ) (Lvl := ℕ) spec5 c (Uv11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Uv11 m c) fun w => A_eq5 (Uv11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (Uv11 m) c).Φ 0 from rfl]
    iintro ⟨Hp, -, Hr⟩
    iapply (Phi5_in (Uv11 m) c)
    isplitl [Hp]; · iexact Hp
    iexact Hr
  hout c := by
    rw [Pipeline.ownSems0_none, show (pdats m 5 c).Φ (Fin.last _) = (dat5 (Uv11 m) c).Φ (Fin.last _) from rfl]
    iintro H
    ihave H' := (Phi5_out (Uv11 m) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (Uv11 m c) (Uv12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Asm.R6.lean ====
/- Region 6 of the kernel program as a segment of the run of @main. -/
import proofs.«118347_j18940805776024_1_alg».proof.Proof.KI.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

-- the accumulators' point-by-point contents are never opened here
attribute [local irreducible] outsAt6 PhiS6

/-- At region 6's exit each of its windows' arrays holds what the pipeline leaves there: an input's its entry contents, an output's its write-backs. -/
theorem hF6 (c : Dev nD) (w : Fin cfg6.W) : (dat6 (Uv13 m) c).arrAt w cfg6.N = Uv14 m c (Pipeline.arrRef spec6 w) := by
  obtain ⟨i, hi⟩ := w
  have hi' : i < 8 := hi
  interval_cases i
  · exact ((dat6 (Uv13 m) c).arrAt_in _ rfl _).trans ((A_eq6 (Uv13 m) c _).trans (hkeep6 m c _ (show Pipeline.arrRef spec6 (⟨0, by decide⟩ : Fin cfg6.W) ∉ ([main_v162_0, main_v162_1, main_v162_2] : List (Ref sig .tc)) from by decide)).symm)
  · exact ((dat6 (Uv13 m) c).arrAt_in _ rfl _).trans ((A_eq6 (Uv13 m) c _).trans (hkeep6 m c _ (show Pipeline.arrRef spec6 (⟨1, by decide⟩ : Fin cfg6.W) ∉ ([main_v162_0, main_v162_1, main_v162_2] : List (Ref sig .tc)) from by decide)).symm)
  · exact ((dat6 (Uv13 m) c).arrAt_in _ rfl _).trans ((A_eq6 (Uv13 m) c _).trans (hkeep6 m c _ (show Pipeline.arrRef spec6 (⟨2, by decide⟩ : Fin cfg6.W) ∉ ([main_v162_0, main_v162_1, main_v162_2] : List (Ref sig .tc)) from by decide)).symm)
  · exact ((dat6 (Uv13 m) c).arrAt_in _ rfl _).trans ((A_eq6 (Uv13 m) c _).trans (hkeep6 m c _ (show Pipeline.arrRef spec6 (⟨3, by decide⟩ : Fin cfg6.W) ∉ ([main_v162_0, main_v162_1, main_v162_2] : List (Ref sig .tc)) from by decide)).symm)
  · exact ((dat6 (Uv13 m) c).arrAt_in _ rfl _).trans ((A_eq6 (Uv13 m) c _).trans (hkeep6 m c _ (show Pipeline.arrRef spec6 (⟨4, by decide⟩ : Fin cfg6.W) ∉ ([main_v162_0, main_v162_1, main_v162_2] : List (Ref sig .tc)) from by decide)).symm)
  · show _ = U14 m c main_v162_0
    unfold U14; rw [Function.update_of_ne (by decide), Function.update_of_ne (by decide), Function.update_self, o14_5_eq]; rfl
  · show _ = U14 m c main_v162_1
    unfold U14; rw [Function.update_of_ne (by decide), Function.update_self, o14_6_eq]; rfl
  · show _ = U14 m c main_v162_2
    unfold U14; rw [Function.update_self, o14_7_eq]; rfl
theorem hrest6 (c : Dev nD) : ∀ b, b ∉ Finset.univ.image (Pipeline.arrRef spec6) → Uv14 m c b = Uv13 m c b := fun b hb => by
  refine hkeep6 m c b fun hmem => hb ?_
  simp only [List.mem_cons, List.not_mem_nil, or_false] at hmem
  rcases hmem with rfl | rfl | rfl
  · exact Finset.mem_image.mpr ⟨5, Finset.mem_univ _, rfl⟩
  · exact Finset.mem_image.mpr ⟨6, Finset.mem_univ _, rfl⟩
  · exact Finset.mem_image.mpr ⟨7, Finset.mem_univ _, rfl⟩

set_option backward.isDefEq.respectTransparency.types false in
/-- REGION 6 over the thread state: entered from every unscoped buffer at boundary 13's contents, left at boundary 14's. Its
    arrays are split out of the unscoped buffers and put back at the exit contents; the generator register and the scoped
    buffers no window stages go into the pipeline's invariant and come back; nothing owed; no semaphore of the kernel's own. -/
def reg6 : Pipeline.RegionSeg (pcfgs (F := F)) adm (pdats m) () defs₀ Variants.none L₀ lv₀ 6 where
  win := launch6.win.to₀
  block_pos := launch6.block_pos
  stage_whole := launch6.stage_whole
  K := PEmpty
  osem k := k.elim
  ho := Pipeline.OwnSemFacts.none _
  hbody c := (body_obligation6 (Uv13 m) c).loose
  hwaits := Pipeline.hwaits_of_owed_zero _ _ _ _ L₀ lv₀ 6 fun _ _ => rfl
  pre c := iprop(StableHlo.held (c : Thread nD τ) (Pipeline.ucRefs τ sig) (U13 m c) ∗ Rst c)
  post c := iprop(StableHlo.held (c : Thread nD τ) (Pipeline.ucRefs τ sig) (U14 m c) ∗ Rst c)
  X c := iprop(∃ r, prngReg c r)
  Y c := iprop(∃ r, prngReg c r)
  Z c := Pipeline.unscopedRest (Ix := Unit) (Name := ℕ) (U := Pipeline.UD sig nD τ) (Lvl := ℕ) spec6 c (Uv13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Uv13 m c) fun w => A_eq6 (Uv13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (Uv13 m) c).Φ 0 from rfl]
    iintro ⟨Hp, -, Hr⟩
    iapply (Phi6_in (Uv13 m) c)
    isplitl [Hp]; · iexact Hp
    iexact Hr
  hout c := by
    rw [Pipeline.ownSems0_none, show (pdats m 6 c).Φ (Fin.last _) = (dat6 (Uv13 m) c).Φ (Fin.last _) from rfl]
    iintro H
    ihave H' := (Phi6_out (Uv13 m) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (Uv13 m c) (Uv14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Asm.R7.lean ====
/- Region 7 of the kernel program as a segment of the run of @main. -/
import proofs.«118347_j18940805776024_1_alg».proof.Proof.KI.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- At region 7's exit each of its windows' arrays holds what the pipeline leaves there: an input's its entry contents, an output's its write-backs. -/
theorem hF7 (c : Dev nD) (w : Fin cfg7.W) : (dat7 (Uv15 m) c).arrAt w cfg7.N = Uv16 m c (Pipeline.arrRef spec7 w) := by
  obtain ⟨i, hi⟩ := w
  have hi' : i < 6 := hi
  interval_cases i
  · exact ((dat7 (Uv15 m) c).arrAt_in _ rfl _).trans ((A_eq7 (Uv15 m) c _).trans (hkeep7 m c _ (show Pipeline.arrRef spec7 (⟨0, by decide⟩ : Fin cfg7.W) ∉ ([main_v179] : List (Ref sig .tc)) from by decide)).symm)
  · exact ((dat7 (Uv15 m) c).arrAt_in _ rfl _).trans ((A_eq7 (Uv15 m) c _).trans (hkeep7 m c _ (show Pipeline.arrRef spec7 (⟨1, by decide⟩ : Fin cfg7.W) ∉ ([main_v179] : List (Ref sig .tc)) from by decide)).symm)
  · exact ((dat7 (Uv15 m) c).arrAt_in _ rfl _).trans ((A_eq7 (Uv15 m) c _).trans (hkeep7 m c _ (show Pipeline.arrRef spec7 (⟨2, by decide⟩ : Fin cfg7.W) ∉ ([main_v179] : List (Ref sig .tc)) from by decide)).symm)
  · exact ((dat7 (Uv15 m) c).arrAt_in _ rfl _).trans ((A_eq7 (Uv15 m) c _).trans (hkeep7 m c _ (show Pipeline.arrRef spec7 (⟨3, by decide⟩ : Fin cfg7.W) ∉ ([main_v179] : List (Ref sig .tc)) from by decide)).symm)
  · exact ((dat7 (Uv15 m) c).arrAt_in _ rfl _).trans ((A_eq7 (Uv15 m) c _).trans (hkeep7 m c _ (show Pipeline.arrRef spec7 (⟨4, by decide⟩ : Fin cfg7.W) ∉ ([main_v179] : List (Ref sig .tc)) from by decide)).symm)
  · show _ = U16 m c main_v179
    unfold U16; rw [Function.update_self, o16_5_eq]; rfl
theorem hrest7 (c : Dev nD) : ∀ b, b ∉ Finset.univ.image (Pipeline.arrRef spec7) → Uv16 m c b = Uv15 m c b := fun b hb => by
  refine hkeep7 m c b fun hmem => hb ?_
  simp only [List.mem_cons, List.not_mem_nil, or_false] at hmem
  rcases hmem with rfl
  · exact Finset.mem_image.mpr ⟨5, Finset.mem_univ _, rfl⟩

set_option backward.isDefEq.respectTransparency.types false in
/-- REGION 7 over the thread state: entered from every unscoped buffer at boundary 15's contents, left at boundary 16's. Its
    arrays are split out of the unscoped buffers and put back at the exit contents; the generator register and the scoped
    buffers no window stages go into the pipeline's invariant and come back; nothing owed; no semaphore of the kernel's own. -/
def reg7 : Pipeline.RegionSeg (pcfgs (F := F)) adm (pdats m) () defs₀ Variants.none L₀ lv₀ 7 where
  win := launch7.win.to₀
  block_pos := launch7.block_pos
  stage_whole := launch7.stage_whole
  K := PEmpty
  osem k := k.elim
  ho := Pipeline.OwnSemFacts.none _
  hbody c := (body_obligation7 (Uv15 m) c).loose
  hwaits := Pipeline.hwaits_of_owed_zero _ _ _ _ L₀ lv₀ 7 fun _ _ => rfl
  pre c := iprop(StableHlo.held (c : Thread nD τ) (Pipeline.ucRefs τ sig) (U15 m c) ∗ Rst c)
  post c := iprop(StableHlo.held (c : Thread nD τ) (Pipeline.ucRefs τ sig) (U16 m c) ∗ Rst c)
  X c := iprop(∃ r, prngReg c r)
  Y c := iprop(∃ r, prngReg c r)
  Z c := Pipeline.unscopedRest (Ix := Unit) (Name := ℕ) (U := Pipeline.UD sig nD τ) (Lvl := ℕ) spec7 c (Uv15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Uv15 m c) fun w => A_eq7 (Uv15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (Uv15 m) c).Φ 0 from rfl]
    iintro ⟨Hp, -, Hr⟩
    iapply (Phi7_in (Uv15 m) c)
    isplitl [Hp]; · iexact Hp
    iexact Hr
  hout c := by
    rw [Pipeline.ownSems0_none, show (pdats m 7 c).Φ (Fin.last _) = (dat7 (Uv15 m) c).Φ (Fin.last _) from rfl]
    iintro H
    ihave H' := (Phi7_out (Uv15 m) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (Uv15 m c) (Uv16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Asm.R8.lean ====
/- Region 8 of the kernel program as a segment of the run of @main. -/
import proofs.«118347_j18940805776024_1_alg».proof.Proof.KI.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- At region 8's exit each of its windows' arrays holds what the pipeline leaves there: an input's its entry contents, an output's its write-backs. -/
theorem hF8 (c : Dev nD) (w : Fin cfg8.W) : (dat8 (Uv17 m) c).arrAt w cfg8.N = Uv18 m c (Pipeline.arrRef spec8 w) := by
  obtain ⟨i, hi⟩ := w
  have hi' : i < 10 := hi
  interval_cases i
  · exact ((dat8 (Uv17 m) c).arrAt_in _ rfl _).trans ((A_eq8 (Uv17 m) c _).trans (hkeep8 m c _ (show Pipeline.arrRef spec8 (⟨0, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨1, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨2, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨3, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨4, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨5, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨6, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨7, by decide⟩ : Fin cfg8.W) ∉ ([main_v196] : List (Ref sig .tc)) from by decide)).symm)
  · exact ((dat8 (Uv17 m) c).arrAt_in _ rfl _).trans ((A_eq8 (Uv17 m) c _).trans (hkeep8 m c _ (show Pipeline.arrRef spec8 (⟨8, by decide⟩ : Fin cfg8.W) ∉ ([main_v196] : List (Ref sig .tc)) from by decide)).symm)
  · show _ = U18 m c main_v196
    unfold U18; rw [Function.update_self, o18_9_eq]; rfl
theorem hrest8 (c : Dev nD) : ∀ b, b ∉ Finset.univ.image (Pipeline.arrRef spec8) → Uv18 m c b = Uv17 m c b := fun b hb => by
  refine hkeep8 m c b fun hmem => hb ?_
  simp only [List.mem_cons, List.not_mem_nil, or_false] at hmem
  rcases hmem with rfl
  · exact Finset.mem_image.mpr ⟨9, Finset.mem_univ _, rfl⟩

set_option backward.isDefEq.respectTransparency.types false in
/-- REGION 8 over the thread state: entered from every unscoped buffer at boundary 17's contents, left at boundary 18's. Its
    arrays are split out of the unscoped buffers and put back at the exit contents; the generator register and the scoped
    buffers no window stages go into the pipeline's invariant and come back; nothing owed; no semaphore of the kernel's own. -/
def reg8 : Pipeline.RegionSeg (pcfgs (F := F)) adm (pdats m) () defs₀ Variants.none L₀ lv₀ 8 where
  win := launch8.win.to₀
  block_pos := launch8.block_pos
  stage_whole := launch8.stage_whole
  K := PEmpty
  osem k := k.elim
  ho := Pipeline.OwnSemFacts.none _
  hbody c := (body_obligation8 (Uv17 m) c).loose
  hwaits := Pipeline.hwaits_of_owed_zero _ _ _ _ L₀ lv₀ 8 fun _ _ => rfl
  pre c := iprop(StableHlo.held (c : Thread nD τ) (Pipeline.ucRefs τ sig) (U17 m c) ∗ Rst c)
  post c := iprop(StableHlo.held (c : Thread nD τ) (Pipeline.ucRefs τ sig) (U18 m c) ∗ Rst c)
  X c := iprop(∃ r, prngReg c r)
  Y c := iprop(∃ r, prngReg c r)
  Z c := Pipeline.unscopedRest (Ix := Unit) (Name := ℕ) (U := Pipeline.UD sig nD τ) (Lvl := ℕ) spec8 c (Uv17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Uv17 m c) fun w => A_eq8 (Uv17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (Uv17 m) c).Φ 0 from rfl]
    iintro ⟨Hp, -, Hr⟩
    iapply (Phi8_in (Uv17 m) c)
    isplitl [Hp]; · iexact Hp
    iexact Hr
  hout c := by
    rw [Pipeline.ownSems0_none, show (pdats m 8 c).Φ (Fin.last _) = (dat8 (Uv17 m) c).Φ (Fin.last _) from rfl]
    iintro H
    ihave H' := (Phi8_out (Uv17 m) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (Uv17 m c) (Uv18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Asm.R9.lean ====
/- Region 9 of the kernel program as a segment of the run of @main. -/
import proofs.«118347_j18940805776024_1_alg».proof.Proof.KI.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- At region 9's exit each of its windows' arrays holds what the pipeline leaves there: an input's its entry contents, an output's its write-backs. -/
theorem hF9 (c : Dev nD) (w : Fin cfg9.W) : (dat9 (Uv19 m) c).arrAt w cfg9.N = Uv20 m c (Pipeline.arrRef spec9 w) := by
  obtain ⟨i, hi⟩ := w
  have hi' : i < 8 := hi
  interval_cases i
  · exact ((dat9 (Uv19 m) c).arrAt_in _ rfl _).trans ((A_eq9 (Uv19 m) c _).trans (hkeep9 m c _ (show Pipeline.arrRef spec9 (⟨0, by decide⟩ : Fin cfg9.W) ∉ ([main_v219] : List (Ref sig .tc)) from by decide)).symm)
  · exact ((dat9 (Uv19 m) c).arrAt_in _ rfl _).trans ((A_eq9 (Uv19 m) c _).trans (hkeep9 m c _ (show Pipeline.arrRef spec9 (⟨1, by decide⟩ : Fin cfg9.W) ∉ ([main_v219] : List (Ref sig .tc)) from by decide)).symm)
  · exact ((dat9 (Uv19 m) c).arrAt_in _ rfl _).trans ((A_eq9 (Uv19 m) c _).trans (hkeep9 m c _ (show Pipeline.arrRef spec9 (⟨2, by decide⟩ : Fin cfg9.W) ∉ ([main_v219] : List (Ref sig .tc)) from by decide)).symm)
  · exact ((dat9 (Uv19 m) c).arrAt_in _ rfl _).trans ((A_eq9 (Uv19 m) c _).trans (hkeep9 m c _ (show Pipeline.arrRef spec9 (⟨3, by decide⟩ : Fin cfg9.W) ∉ ([main_v219] : List (Ref sig .tc)) from by decide)).symm)
  · exact ((dat9 (Uv19 m) c).arrAt_in _ rfl _).trans ((A_eq9 (Uv19 m) c _).trans (hkeep9 m c _ (show Pipeline.arrRef spec9 (⟨4, by decide⟩ : Fin cfg9.W) ∉ ([main_v219] : List (Ref sig .tc)) from by decide)).symm)
  · exact ((dat9 (Uv19 m) c).arrAt_in _ rfl _).trans ((A_eq9 (Uv19 m) c _).trans (hkeep9 m c _ (show Pipeline.arrRef spec9 (⟨5, by decide⟩ : Fin cfg9.W) ∉ ([main_v219] : List (Ref sig .tc)) from by decide)).symm)
  · exact ((dat9 (Uv19 m) c).arrAt_in _ rfl _).trans ((A_eq9 (Uv19 m) c _).trans (hkeep9 m c _ (show Pipeline.arrRef spec9 (⟨6, by decide⟩ : Fin cfg9.W) ∉ ([main_v219] : List (Ref sig .tc)) from by decide)).symm)
  · show _ = U20 m c main_v219
    unfold U20; rw [Function.update_self, o20_7_eq]; rfl
theorem hrest9 (c : Dev nD) : ∀ b, b ∉ Finset.univ.image (Pipeline.arrRef spec9) → Uv20 m c b = Uv19 m c b := fun b hb => by
  refine hkeep9 m c b fun hmem => hb ?_
  simp only [List.mem_cons, List.not_mem_nil, or_false] at hmem
  rcases hmem with rfl
  · exact Finset.mem_image.mpr ⟨7, Finset.mem_univ _, rfl⟩

set_option backward.isDefEq.respectTransparency.types false in
/-- REGION 9 over the thread state: entered from every unscoped buffer at boundary 19's contents, left at boundary 20's. Its
    arrays are split out of the unscoped buffers and put back at the exit contents; the generator register and the scoped
    buffers no window stages go into the pipeline's invariant and come back; nothing owed; no semaphore of the kernel's own. -/
def reg9 : Pipeline.RegionSeg (pcfgs (F := F)) adm (pdats m) () defs₀ Variants.none L₀ lv₀ 9 where
  win := launch9.win.to₀
  block_pos := launch9.block_pos
  stage_whole := launch9.stage_whole
  K := PEmpty
  osem k := k.elim
  ho := Pipeline.OwnSemFacts.none _
  hbody c := (body_obligation9 (Uv19 m) c).loose
  hwaits := Pipeline.hwaits_of_owed_zero _ _ _ _ L₀ lv₀ 9 fun _ _ => rfl
  pre c := iprop(StableHlo.held (c : Thread nD τ) (Pipeline.ucRefs τ sig) (U19 m c) ∗ Rst c)
  post c := iprop(StableHlo.held (c : Thread nD τ) (Pipeline.ucRefs τ sig) (U20 m c) ∗ Rst c)
  X c := iprop(∃ r, prngReg c r)
  Y c := iprop(∃ r, prngReg c r)
  Z c := Pipeline.unscopedRest (Ix := Unit) (Name := ℕ) (U := Pipeline.UD sig nD τ) (Lvl := ℕ) spec9 c (Uv19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Uv19 m c) fun w => A_eq9 (Uv19 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (Uv19 m) c).Φ 0 from rfl]
    iintro ⟨Hp, -, Hr⟩
    iapply (Phi9_in (Uv19 m) c)
    isplitl [Hp]; · iexact Hp
    iexact Hr
  hout c := by
    rw [Pipeline.ownSems0_none, show (pdats m 9 c).Φ (Fin.last _) = (dat9 (Uv19 m) c).Φ (Fin.last _) from rfl]
    iintro H
    ihave H' := (Phi9_out (Uv19 m) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (Uv19 m c) (Uv20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Asm.Outs.lean ====
/- What each region of the kernel program leaves in its output arrays. -/
import proofs.«118347_j18940805776024_1_alg».proof.Proof.KI.Asm.Vals
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-! What each region leaves in each of its output arrays: the boundary's contents at that array, opened to the pipeline's
    last write-back fold. -/
theorem U2_v30_0 (c : Dev nD) : U2 m c main_v30_0 = (dat0 (Uv1 m) c).arrAt 5 cfg0.N := by
  unfold U2; rw [Function.update_of_ne (by decide), Function.update_of_ne (by decide), Function.update_self, o2_5_eq]
theorem U2_v30_1 (c : Dev nD) : U2 m c main_v30_1 = (dat0 (Uv1 m) c).arrAt 6 cfg0.N := by
  unfold U2; rw [Function.update_of_ne (by decide), Function.update_self, o2_6_eq]
theorem U2_v30_2 (c : Dev nD) : U2 m c main_v30_2 = (dat0 (Uv1 m) c).arrAt 7 cfg0.N := by
  unfold U2; rw [Function.update_self, o2_7_eq]
theorem U4_v47 (c : Dev nD) : U4 m c main_v47 = (dat1 (Uv3 m) c).arrAt 5 cfg1.N := by
  unfold U4; rw [Function.update_self, o4_5_eq]
theorem U6_v74_0 (c : Dev nD) : U6 m c main_v74_0 = (dat2 (Uv5 m) c).arrAt 5 cfg2.N := by
  unfold U6; rw [Function.update_of_ne (by decide), Function.update_of_ne (by decide), Function.update_self, o6_5_eq]
theorem U6_v74_1 (c : Dev nD) : U6 m c main_v74_1 = (dat2 (Uv5 m) c).arrAt 6 cfg2.N := by
  unfold U6; rw [Function.update_of_ne (by decide), Function.update_self, o6_6_eq]
theorem U6_v74_2 (c : Dev nD) : U6 m c main_v74_2 = (dat2 (Uv5 m) c).arrAt 7 cfg2.N := by
  unfold U6; rw [Function.update_self, o6_7_eq]
theorem U8_v91 (c : Dev nD) : U8 m c main_v91 = (dat3 (Uv7 m) c).arrAt 5 cfg3.N := by
  unfold U8; rw [Function.update_self, o8_5_eq]
theorem U10_v118_0 (c : Dev nD) : U10 m c main_v118_0 = (dat4 (Uv9 m) c).arrAt 5 cfg4.N := by
  unfold U10; rw [Function.update_of_ne (by decide), Function.update_of_ne (by decide), Function.update_self, o10_5_eq]
theorem U10_v118_1 (c : Dev nD) : U10 m c main_v118_1 = (dat4 (Uv9 m) c).arrAt 6 cfg4.N := by
  unfold U10; rw [Function.update_of_ne (by decide), Function.update_self, o10_6_eq]
theorem U10_v118_2 (c : Dev nD) : U10 m c main_v118_2 = (dat4 (Uv9 m) c).arrAt 7 cfg4.N := by
  unfold U10; rw [Function.update_self, o10_7_eq]
theorem U12_v135 (c : Dev nD) : U12 m c main_v135 = (dat5 (Uv11 m) c).arrAt 5 cfg5.N := by
  unfold U12; rw [Function.update_self, o12_5_eq]
theorem U14_v162_0 (c : Dev nD) : U14 m c main_v162_0 = (dat6 (Uv13 m) c).arrAt 5 cfg6.N := by
  unfold U14; rw [Function.update_of_ne (by decide), Function.update_of_ne (by decide), Function.update_self, o14_5_eq]
theorem U14_v162_1 (c : Dev nD) : U14 m c main_v162_1 = (dat6 (Uv13 m) c).arrAt 6 cfg6.N := by
  unfold U14; rw [Function.update_of_ne (by decide), Function.update_self, o14_6_eq]
theorem U14_v162_2 (c : Dev nD) : U14 m c main_v162_2 = (dat6 (Uv13 m) c).arrAt 7 cfg6.N := by
  unfold U14; rw [Function.update_self, o14_7_eq]
theorem U16_v179 (c : Dev nD) : U16 m c main_v179 = (dat7 (Uv15 m) c).arrAt 5 cfg7.N := by
  unfold U16; rw [Function.update_self, o16_5_eq]
theorem U18_v196 (c : Dev nD) : U18 m c main_v196 = (dat8 (Uv17 m) c).arrAt 9 cfg8.N := by
  unfold U18; rw [Function.update_self, o18_9_eq]
theorem U20_v219 (c : Dev nD) : U20 m c main_v219 = (dat9 (Uv19 m) c).arrAt 7 cfg9.N := by
  unfold U20; rw [Function.update_self, o20_7_eq]

end Cert.KernelIdeal.Hand

end
-- ==== Proof.KI.Assemble.lean ====
/- The run of the kernel program from its ten regions' segment records: every unscoped buffer of every final memory is
   the last boundary's; hence the frame, and the two results read off that boundary. -/
import proofs.«118347_j18940805776024_1_alg».proof.Proof.KI.Asm.R0
import proofs.«118347_j18940805776024_1_alg».proof.Proof.KI.Asm.R1
import proofs.«118347_j18940805776024_1_alg».proof.Proof.KI.Asm.R2
import proofs.«118347_j18940805776024_1_alg».proof.Proof.KI.Asm.R3
import proofs.«118347_j18940805776024_1_alg».proof.Proof.KI.Asm.R4
import proofs.«118347_j18940805776024_1_alg».proof.Proof.KI.Asm.R5
import proofs.«118347_j18940805776024_1_alg».proof.Proof.KI.Asm.R6
import proofs.«118347_j18940805776024_1_alg».proof.Proof.KI.Asm.R7
import proofs.«118347_j18940805776024_1_alg».proof.Proof.KI.Asm.R8
import proofs.«118347_j18940805776024_1_alg».proof.Proof.KI.Asm.R9
import proofs.«118347_j18940805776024_1_alg».proof.Proof.KI.Asm.Outs
import Idealize.ShloMosaic.Lib.Pipeline.FrameBody
import Idealize.ShloMosaic.Lib.Pipeline.RegionsLoop
import Idealize.ShloMosaic.Lib.Pipeline.FrameSuffix
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- A host stretch as a segment of the run: over the unscoped references from the contents W, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Ix := Unit) (Name := ℕ) (U := Pipeline.UD sig nD τ) (Lvl := ℕ) (pcfgs (F := F)) defs₀ Variants.none L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- @main's items in order: a host segment per stretch from its boundary's contents, a region per kernel. -/
abbrev segsU : List (Seg (pcfgs (F := F)) adm (pdats m) () defs₀ Variants.none L₀ lv₀) :=
  [ .host (hseg hostOps0 hostOps0_sub hostOps0_fresh (V0 m)),
    .region (reg0 m),
    .host (hseg hostOps1 hostOps1_sub hostOps1_fresh (U2 m)),
    .region (reg1 m),
    .host (hseg hostOps2 hostOps2_sub hostOps2_fresh (U4 m)),
    .region (reg2 m),
    .host (hseg hostOps3 hostOps3_sub hostOps3_fresh (U6 m)),
    .region (reg3 m),
    .host (hseg hostOps4 hostOps4_sub hostOps4_fresh (U8 m)),
    .region (reg4 m),
    .host (hseg hostOps5 hostOps5_sub hostOps5_fresh (U10 m)),
    .region (reg5 m),
    .host (hseg hostOps6 hostOps6_sub hostOps6_fresh (U12 m)),
    .region (reg6 m),
    .host (hseg hostOps7 hostOps7_sub hostOps7_fresh (U14 m)),
    .region (reg7 m),
    .host (hseg hostOps8 hostOps8_sub hostOps8_fresh (U16 m)),
    .region (reg8 m),
    .host (hseg hostOps9 hostOps9_sub hostOps9_fresh (U18 m)),
    .region (reg9 m),
    .host (hseg hostOps10 hostOps10_sub hostOps10_fresh (U20 m)) ]

set_option backward.isDefEq.respectTransparency.types false in
/-- From any launch memory every weakly fair execution of @main terminates without a fault, and every unscoped buffer of
    every final memory holds what the last boundary's contents say. -/
theorem run_vals (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U21 m c b) := by
  refine Pipeline.θ_run_regions_kit_dev (pcfgs (F := F)) adm (pdats m) () cellOf_inj embL defs₀ Variants.none L₀ lv₀ m ρ main
    (fun _ => segsU m)
    (fun c Q => by
      rewrite [main_chain c, Seg.run_eq_chain,
        show (segsU m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10 ] from rfl]
      exact .rfl)
    (fun c => by simp only [segsU, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (U21 m c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl (by iintro ⟨-, HO⟩; iexact HO)⟩)
    (hinit := ?_) (QY := fun c s => ∀ b ∈ Pipeline.ucRefs τ sig, s.mem ((c : Thread nD τ).1, b) = U21 m c b)
    (hfin := fun c s' => ?_) (hQ := fun _ h => h)
  · -- the launch: every core holds its unscoped buffers at the launch memory, its generator register and nothing owed
    refine Pipeline.initEach L₀ lv₀ fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last boundary's contents
    unfold StableHlo.held
    iintro ⟨Hh, HSI⟩
    imodintro
    iapply (pointsTo_read_all (Pipeline.ucRefs τ sig) (fun b => ((c : Thread nD τ).1, b)) (U21 m c) s')
    isplitl [Hh] <;> iassumption

/-- An unscoped TensorCore reference is among those whose buffers the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! Every argument array reaches the last boundary as launched: no host stretch writes one, no region may change one. -/
theorem U21_arg0 (c : Dev nD) : U21 m c main_arg0 = m ((c.tc : Thread nD τ).loc main_arg0) :=
  (hkeepH10 m c main_arg0 (by decide)).trans <| (hkeep9 m c main_arg0 (by decide)).trans <| (hkeepH9 m c main_arg0 (by decide)).trans <| (hkeep8 m c main_arg0 (by decide)).trans <| (hkeepH8 m c main_arg0 (by decide)).trans <| (hkeep7 m c main_arg0 (by decide)).trans <| (hkeepH7 m c main_arg0 (by decide)).trans <| (hkeep6 m c main_arg0 (by decide)).trans <| (hkeepH6 m c main_arg0 (by decide)).trans <| (hkeep5 m c main_arg0 (by decide)).trans <| (hkeepH5 m c main_arg0 (by decide)).trans <| (hkeep4 m c main_arg0 (by decide)).trans <| (hkeepH4 m c main_arg0 (by decide)).trans <| (hkeep3 m c main_arg0 (by decide)).trans <| (hkeepH3 m c main_arg0 (by decide)).trans <| (hkeep2 m c main_arg0 (by decide)).trans <| (hkeepH2 m c main_arg0 (by decide)).trans <| (hkeep1 m c main_arg0 (by decide)).trans <| (hkeepH1 m c main_arg0 (by decide)).trans <| (hkeep0 m c main_arg0 (by decide)).trans <| (hkeepH0 m c main_arg0 (by decide))
theorem U21_arg1 (c : Dev nD) : U21 m c main_arg1 = m ((c.tc : Thread nD τ).loc main_arg1) :=
  (hkeepH10 m c main_arg1 (by decide)).trans <| (hkeep9 m c main_arg1 (by decide)).trans <| (hkeepH9 m c main_arg1 (by decide)).trans <| (hkeep8 m c main_arg1 (by decide)).trans <| (hkeepH8 m c main_arg1 (by decide)).trans <| (hkeep7 m c main_arg1 (by decide)).trans <| (hkeepH7 m c main_arg1 (by decide)).trans <| (hkeep6 m c main_arg1 (by decide)).trans <| (hkeepH6 m c main_arg1 (by decide)).trans <| (hkeep5 m c main_arg1 (by decide)).trans <| (hkeepH5 m c main_arg1 (by decide)).trans <| (hkeep4 m c main_arg1 (by decide)).trans <| (hkeepH4 m c main_arg1 (by decide)).trans <| (hkeep3 m c main_arg1 (by decide)).trans <| (hkeepH3 m c main_arg1 (by decide)).trans <| (hkeep2 m c main_arg1 (by decide)).trans <| (hkeepH2 m c main_arg1 (by decide)).trans <| (hkeep1 m c main_arg1 (by decide)).trans <| (hkeepH1 m c main_arg1 (by decide)).trans <| (hkeep0 m c main_arg1 (by decide)).trans <| (hkeepH0 m c main_arg1 (by decide))
theorem U21_arg2 (c : Dev nD) : U21 m c main_arg2 = m ((c.tc : Thread nD τ).loc main_arg2) :=
  (hkeepH10 m c main_arg2 (by decide)).trans <| (hkeep9 m c main_arg2 (by decide)).trans <| (hkeepH9 m c main_arg2 (by decide)).trans <| (hkeep8 m c main_arg2 (by decide)).trans <| (hkeepH8 m c main_arg2 (by decide)).trans <| (hkeep7 m c main_arg2 (by decide)).trans <| (hkeepH7 m c main_arg2 (by decide)).trans <| (hkeep6 m c main_arg2 (by decide)).trans <| (hkeepH6 m c main_arg2 (by decide)).trans <| (hkeep5 m c main_arg2 (by decide)).trans <| (hkeepH5 m c main_arg2 (by decide)).trans <| (hkeep4 m c main_arg2 (by decide)).trans <| (hkeepH4 m c main_arg2 (by decide)).trans <| (hkeep3 m c main_arg2 (by decide)).trans <| (hkeepH3 m c main_arg2 (by decide)).trans <| (hkeep2 m c main_arg2 (by decide)).trans <| (hkeepH2 m c main_arg2 (by decide)).trans <| (hkeep1 m c main_arg2 (by decide)).trans <| (hkeepH1 m c main_arg2 (by decide)).trans <| (hkeep0 m c main_arg2 (by decide)).trans <| (hkeepH0 m c main_arg2 (by decide))
theorem U21_arg3 (c : Dev nD) : U21 m c main_arg3 = m ((c.tc : Thread nD τ).loc main_arg3) :=
  (hkeepH10 m c main_arg3 (by decide)).trans <| (hkeep9 m c main_arg3 (by decide)).trans <| (hkeepH9 m c main_arg3 (by decide)).trans <| (hkeep8 m c main_arg3 (by decide)).trans <| (hkeepH8 m c main_arg3 (by decide)).trans <| (hkeep7 m c main_arg3 (by decide)).trans <| (hkeepH7 m c main_arg3 (by decide)).trans <| (hkeep6 m c main_arg3 (by decide)).trans <| (hkeepH6 m c main_arg3 (by decide)).trans <| (hkeep5 m c main_arg3 (by decide)).trans <| (hkeepH5 m c main_arg3 (by decide)).trans <| (hkeep4 m c main_arg3 (by decide)).trans <| (hkeepH4 m c main_arg3 (by decide)).trans <| (hkeep3 m c main_arg3 (by decide)).trans <| (hkeepH3 m c main_arg3 (by decide)).trans <| (hkeep2 m c main_arg3 (by decide)).trans <| (hkeepH2 m c main_arg3 (by decide)).trans <| (hkeep1 m c main_arg3 (by decide)).trans <| (hkeepH1 m c main_arg3 (by decide)).trans <| (hkeep0 m c main_arg3 (by decide)).trans <| (hkeepH0 m c main_arg3 (by decide))
theorem U21_arg4 (c : Dev nD) : U21 m c main_arg4 = m ((c.tc : Thread nD τ).loc main_arg4) :=
  (hkeepH10 m c main_arg4 (by decide)).trans <| (hkeep9 m c main_arg4 (by decide)).trans <| (hkeepH9 m c main_arg4 (by decide)).trans <| (hkeep8 m c main_arg4 (by decide)).trans <| (hkeepH8 m c main_arg4 (by decide)).trans <| (hkeep7 m c main_arg4 (by decide)).trans <| (hkeepH7 m c main_arg4 (by decide)).trans <| (hkeep6 m c main_arg4 (by decide)).trans <| (hkeepH6 m c main_arg4 (by decide)).trans <| (hkeep5 m c main_arg4 (by decide)).trans <| (hkeepH5 m c main_arg4 (by decide)).trans <| (hkeep4 m c main_arg4 (by decide)).trans <| (hkeepH4 m c main_arg4 (by decide)).trans <| (hkeep3 m c main_arg4 (by decide)).trans <| (hkeepH3 m c main_arg4 (by decide)).trans <| (hkeep2 m c main_arg4 (by decide)).trans <| (hkeepH2 m c main_arg4 (by decide)).trans <| (hkeep1 m c main_arg4 (by decide)).trans <| (hkeepH1 m c main_arg4 (by decide)).trans <| (hkeep0 m c main_arg4 (by decide)).trans <| (hkeepH0 m c main_arg4 (by decide))
theorem U21_arg5 (c : Dev nD) : U21 m c main_arg5 = m ((c.tc : Thread nD τ).loc main_arg5) :=
  (hkeepH10 m c main_arg5 (by decide)).trans <| (hkeep9 m c main_arg5 (by decide)).trans <| (hkeepH9 m c main_arg5 (by decide)).trans <| (hkeep8 m c main_arg5 (by decide)).trans <| (hkeepH8 m c main_arg5 (by decide)).trans <| (hkeep7 m c main_arg5 (by decide)).trans <| (hkeepH7 m c main_arg5 (by decide)).trans <| (hkeep6 m c main_arg5 (by decide)).trans <| (hkeepH6 m c main_arg5 (by decide)).trans <| (hkeep5 m c main_arg5 (by decide)).trans <| (hkeepH5 m c main_arg5 (by decide)).trans <| (hkeep4 m c main_arg5 (by decide)).trans <| (hkeepH4 m c main_arg5 (by decide)).trans <| (hkeep3 m c main_arg5 (by decide)).trans <| (hkeepH3 m c main_arg5 (by decide)).trans <| (hkeep2 m c main_arg5 (by decide)).trans <| (hkeepH2 m c main_arg5 (by decide)).trans <| (hkeep1 m c main_arg5 (by decide)).trans <| (hkeepH1 m c main_arg5 (by decide)).trans <| (hkeep0 m c main_arg5 (by decide)).trans <| (hkeepH0 m c main_arg5 (by decide))
theorem U21_arg6 (c : Dev nD) : U21 m c main_arg6 = m ((c.tc : Thread nD τ).loc main_arg6) :=
  (hkeepH10 m c main_arg6 (by decide)).trans <| (hkeep9 m c main_arg6 (by decide)).trans <| (hkeepH9 m c main_arg6 (by decide)).trans <| (hkeep8 m c main_arg6 (by decide)).trans <| (hkeepH8 m c main_arg6 (by decide)).trans <| (hkeep7 m c main_arg6 (by decide)).trans <| (hkeepH7 m c main_arg6 (by decide)).trans <| (hkeep6 m c main_arg6 (by decide)).trans <| (hkeepH6 m c main_arg6 (by decide)).trans <| (hkeep5 m c main_arg6 (by decide)).trans <| (hkeepH5 m c main_arg6 (by decide)).trans <| (hkeep4 m c main_arg6 (by decide)).trans <| (hkeepH4 m c main_arg6 (by decide)).trans <| (hkeep3 m c main_arg6 (by decide)).trans <| (hkeepH3 m c main_arg6 (by decide)).trans <| (hkeep2 m c main_arg6 (by decide)).trans <| (hkeepH2 m c main_arg6 (by decide)).trans <| (hkeep1 m c main_arg6 (by decide)).trans <| (hkeepH1 m c main_arg6 (by decide)).trans <| (hkeep0 m c main_arg6 (by decide)).trans <| (hkeepH0 m c main_arg6 (by decide))
theorem U21_arg7 (c : Dev nD) : U21 m c main_arg7 = m ((c.tc : Thread nD τ).loc main_arg7) :=
  (hkeepH10 m c main_arg7 (by decide)).trans <| (hkeep9 m c main_arg7 (by decide)).trans <| (hkeepH9 m c main_arg7 (by decide)).trans <| (hkeep8 m c main_arg7 (by decide)).trans <| (hkeepH8 m c main_arg7 (by decide)).trans <| (hkeep7 m c main_arg7 (by decide)).trans <| (hkeepH7 m c main_arg7 (by decide)).trans <| (hkeep6 m c main_arg7 (by decide)).trans <| (hkeepH6 m c main_arg7 (by decide)).trans <| (hkeep5 m c main_arg7 (by decide)).trans <| (hkeepH5 m c main_arg7 (by decide)).trans <| (hkeep4 m c main_arg7 (by decide)).trans <| (hkeepH4 m c main_arg7 (by decide)).trans <| (hkeep3 m c main_arg7 (by decide)).trans <| (hkeepH3 m c main_arg7 (by decide)).trans <| (hkeep2 m c main_arg7 (by decide)).trans <| (hkeepH2 m c main_arg7 (by decide)).trans <| (hkeep1 m c main_arg7 (by decide)).trans <| (hkeepH1 m c main_arg7 (by decide)).trans <| (hkeep0 m c main_arg7 (by decide)).trans <| (hkeepH0 m c main_arg7 (by decide))
theorem U21_arg8 (c : Dev nD) : U21 m c main_arg8 = m ((c.tc : Thread nD τ).loc main_arg8) :=
  (hkeepH10 m c main_arg8 (by decide)).trans <| (hkeep9 m c main_arg8 (by decide)).trans <| (hkeepH9 m c main_arg8 (by decide)).trans <| (hkeep8 m c main_arg8 (by decide)).trans <| (hkeepH8 m c main_arg8 (by decide)).trans <| (hkeep7 m c main_arg8 (by decide)).trans <| (hkeepH7 m c main_arg8 (by decide)).trans <| (hkeep6 m c main_arg8 (by decide)).trans <| (hkeepH6 m c main_arg8 (by decide)).trans <| (hkeep5 m c main_arg8 (by decide)).trans <| (hkeepH5 m c main_arg8 (by decide)).trans <| (hkeep4 m c main_arg8 (by decide)).trans <| (hkeepH4 m c main_arg8 (by decide)).trans <| (hkeep3 m c main_arg8 (by decide)).trans <| (hkeepH3 m c main_arg8 (by decide)).trans <| (hkeep2 m c main_arg8 (by decide)).trans <| (hkeepH2 m c main_arg8 (by decide)).trans <| (hkeep1 m c main_arg8 (by decide)).trans <| (hkeepH1 m c main_arg8 (by decide)).trans <| (hkeep0 m c main_arg8 (by decide)).trans <| (hkeepH0 m c main_arg8 (by decide))
theorem U21_arg9 (c : Dev nD) : U21 m c main_arg9 = m ((c.tc : Thread nD τ).loc main_arg9) :=
  (hkeepH10 m c main_arg9 (by decide)).trans <| (hkeep9 m c main_arg9 (by decide)).trans <| (hkeepH9 m c main_arg9 (by decide)).trans <| (hkeep8 m c main_arg9 (by decide)).trans <| (hkeepH8 m c main_arg9 (by decide)).trans <| (hkeep7 m c main_arg9 (by decide)).trans <| (hkeepH7 m c main_arg9 (by decide)).trans <| (hkeep6 m c main_arg9 (by decide)).trans <| (hkeepH6 m c main_arg9 (by decide)).trans <| (hkeep5 m c main_arg9 (by decide)).trans <| (hkeepH5 m c main_arg9 (by decide)).trans <| (hkeep4 m c main_arg9 (by decide)).trans <| (hkeepH4 m c main_arg9 (by decide)).trans <| (hkeep3 m c main_arg9 (by decide)).trans <| (hkeepH3 m c main_arg9 (by decide)).trans <| (hkeep2 m c main_arg9 (by decide)).trans <| (hkeepH2 m c main_arg9 (by decide)).trans <| (hkeep1 m c main_arg9 (by decide)).trans <| (hkeepH1 m c main_arg9 (by decide)).trans <| (hkeep0 m c main_arg9 (by decide)).trans <| (hkeepH0 m c main_arg9 (by decide))
theorem U21_arg10 (c : Dev nD) : U21 m c main_arg10 = m ((c.tc : Thread nD τ).loc main_arg10) :=
  (hkeepH10 m c main_arg10 (by decide)).trans <| (hkeep9 m c main_arg10 (by decide)).trans <| (hkeepH9 m c main_arg10 (by decide)).trans <| (hkeep8 m c main_arg10 (by decide)).trans <| (hkeepH8 m c main_arg10 (by decide)).trans <| (hkeep7 m c main_arg10 (by decide)).trans <| (hkeepH7 m c main_arg10 (by decide)).trans <| (hkeep6 m c main_arg10 (by decide)).trans <| (hkeepH6 m c main_arg10 (by decide)).trans <| (hkeep5 m c main_arg10 (by decide)).trans <| (hkeepH5 m c main_arg10 (by decide)).trans <| (hkeep4 m c main_arg10 (by decide)).trans <| (hkeepH4 m c main_arg10 (by decide)).trans <| (hkeep3 m c main_arg10 (by decide)).trans <| (hkeepH3 m c main_arg10 (by decide)).trans <| (hkeep2 m c main_arg10 (by decide)).trans <| (hkeepH2 m c main_arg10 (by decide)).trans <| (hkeep1 m c main_arg10 (by decide)).trans <| (hkeepH1 m c main_arg10 (by decide)).trans <| (hkeep0 m c main_arg10 (by decide)).trans <| (hkeepH0 m c main_arg10 (by decide))
theorem U21_arg11 (c : Dev nD) : U21 m c main_arg11 = m ((c.tc : Thread nD τ).loc main_arg11) :=
  (hkeepH10 m c main_arg11 (by decide)).trans <| (hkeep9 m c main_arg11 (by decide)).trans <| (hkeepH9 m c main_arg11 (by decide)).trans <| (hkeep8 m c main_arg11 (by decide)).trans <| (hkeepH8 m c main_arg11 (by decide)).trans <| (hkeep7 m c main_arg11 (by decide)).trans <| (hkeepH7 m c main_arg11 (by decide)).trans <| (hkeep6 m c main_arg11 (by decide)).trans <| (hkeepH6 m c main_arg11 (by decide)).trans <| (hkeep5 m c main_arg11 (by decide)).trans <| (hkeepH5 m c main_arg11 (by decide)).trans <| (hkeep4 m c main_arg11 (by decide)).trans <| (hkeepH4 m c main_arg11 (by decide)).trans <| (hkeep3 m c main_arg11 (by decide)).trans <| (hkeepH3 m c main_arg11 (by decide)).trans <| (hkeep2 m c main_arg11 (by decide)).trans <| (hkeepH2 m c main_arg11 (by decide)).trans <| (hkeep1 m c main_arg11 (by decide)).trans <| (hkeepH1 m c main_arg11 (by decide)).trans <| (hkeep0 m c main_arg11 (by decide)).trans <| (hkeepH0 m c main_arg11 (by decide))
theorem U21_arg12 (c : Dev nD) : U21 m c main_arg12 = m ((c.tc : Thread nD τ).loc main_arg12) :=
  (hkeepH10 m c main_arg12 (by decide)).trans <| (hkeep9 m c main_arg12 (by decide)).trans <| (hkeepH9 m c main_arg12 (by decide)).trans <| (hkeep8 m c main_arg12 (by decide)).trans <| (hkeepH8 m c main_arg12 (by decide)).trans <| (hkeep7 m c main_arg12 (by decide)).trans <| (hkeepH7 m c main_arg12 (by decide)).trans <| (hkeep6 m c main_arg12 (by decide)).trans <| (hkeepH6 m c main_arg12 (by decide)).trans <| (hkeep5 m c main_arg12 (by decide)).trans <| (hkeepH5 m c main_arg12 (by decide)).trans <| (hkeep4 m c main_arg12 (by decide)).trans <| (hkeepH4 m c main_arg12 (by decide)).trans <| (hkeep3 m c main_arg12 (by decide)).trans <| (hkeepH3 m c main_arg12 (by decide)).trans <| (hkeep2 m c main_arg12 (by decide)).trans <| (hkeepH2 m c main_arg12 (by decide)).trans <| (hkeep1 m c main_arg12 (by decide)).trans <| (hkeepH1 m c main_arg12 (by decide)).trans <| (hkeep0 m c main_arg12 (by decide)).trans <| (hkeepH0 m c main_arg12 (by decide))
theorem U21_arg13 (c : Dev nD) : U21 m c main_arg13 = m ((c.tc : Thread nD τ).loc main_arg13) :=
  (hkeepH10 m c main_arg13 (by decide)).trans <| (hkeep9 m c main_arg13 (by decide)).trans <| (hkeepH9 m c main_arg13 (by decide)).trans <| (hkeep8 m c main_arg13 (by decide)).trans <| (hkeepH8 m c main_arg13 (by decide)).trans <| (hkeep7 m c main_arg13 (by decide)).trans <| (hkeepH7 m c main_arg13 (by decide)).trans <| (hkeep6 m c main_arg13 (by decide)).trans <| (hkeepH6 m c main_arg13 (by decide)).trans <| (hkeep5 m c main_arg13 (by decide)).trans <| (hkeepH5 m c main_arg13 (by decide)).trans <| (hkeep4 m c main_arg13 (by decide)).trans <| (hkeepH4 m c main_arg13 (by decide)).trans <| (hkeep3 m c main_arg13 (by decide)).trans <| (hkeepH3 m c main_arg13 (by decide)).trans <| (hkeep2 m c main_arg13 (by decide)).trans <| (hkeepH2 m c main_arg13 (by decide)).trans <| (hkeep1 m c main_arg13 (by decide)).trans <| (hkeepH1 m c main_arg13 (by decide)).trans <| (hkeep0 m c main_arg13 (by decide)).trans <| (hkeepH0 m c main_arg13 (by decide))
theorem U21_arg14 (c : Dev nD) : U21 m c main_arg14 = m ((c.tc : Thread nD τ).loc main_arg14) :=
  (hkeepH10 m c main_arg14 (by decide)).trans <| (hkeep9 m c main_arg14 (by decide)).trans <| (hkeepH9 m c main_arg14 (by decide)).trans <| (hkeep8 m c main_arg14 (by decide)).trans <| (hkeepH8 m c main_arg14 (by decide)).trans <| (hkeep7 m c main_arg14 (by decide)).trans <| (hkeepH7 m c main_arg14 (by decide)).trans <| (hkeep6 m c main_arg14 (by decide)).trans <| (hkeepH6 m c main_arg14 (by decide)).trans <| (hkeep5 m c main_arg14 (by decide)).trans <| (hkeepH5 m c main_arg14 (by decide)).trans <| (hkeep4 m c main_arg14 (by decide)).trans <| (hkeepH4 m c main_arg14 (by decide)).trans <| (hkeep3 m c main_arg14 (by decide)).trans <| (hkeepH3 m c main_arg14 (by decide)).trans <| (hkeep2 m c main_arg14 (by decide)).trans <| (hkeepH2 m c main_arg14 (by decide)).trans <| (hkeep1 m c main_arg14 (by decide)).trans <| (hkeepH1 m c main_arg14 (by decide)).trans <| (hkeep0 m c main_arg14 (by decide)).trans <| (hkeepH0 m c main_arg14 (by decide))
theorem U21_arg15 (c : Dev nD) : U21 m c main_arg15 = m ((c.tc : Thread nD τ).loc main_arg15) :=
  (hkeepH10 m c main_arg15 (by decide)).trans <| (hkeep9 m c main_arg15 (by decide)).trans <| (hkeepH9 m c main_arg15 (by decide)).trans <| (hkeep8 m c main_arg15 (by decide)).trans <| (hkeepH8 m c main_arg15 (by decide)).trans <| (hkeep7 m c main_arg15 (by decide)).trans <| (hkeepH7 m c main_arg15 (by decide)).trans <| (hkeep6 m c main_arg15 (by decide)).trans <| (hkeepH6 m c main_arg15 (by decide)).trans <| (hkeep5 m c main_arg15 (by decide)).trans <| (hkeepH5 m c main_arg15 (by decide)).trans <| (hkeep4 m c main_arg15 (by decide)).trans <| (hkeepH4 m c main_arg15 (by decide)).trans <| (hkeep3 m c main_arg15 (by decide)).trans <| (hkeepH3 m c main_arg15 (by decide)).trans <| (hkeep2 m c main_arg15 (by decide)).trans <| (hkeepH2 m c main_arg15 (by decide)).trans <| (hkeep1 m c main_arg15 (by decide)).trans <| (hkeepH1 m c main_arg15 (by decide)).trans <| (hkeep0 m c main_arg15 (by decide)).trans <| (hkeepH0 m c main_arg15 (by decide))
theorem U21_arg16 (c : Dev nD) : U21 m c main_arg16 = m ((c.tc : Thread nD τ).loc main_arg16) :=
  (hkeepH10 m c main_arg16 (by decide)).trans <| (hkeep9 m c main_arg16 (by decide)).trans <| (hkeepH9 m c main_arg16 (by decide)).trans <| (hkeep8 m c main_arg16 (by decide)).trans <| (hkeepH8 m c main_arg16 (by decide)).trans <| (hkeep7 m c main_arg16 (by decide)).trans <| (hkeepH7 m c main_arg16 (by decide)).trans <| (hkeep6 m c main_arg16 (by decide)).trans <| (hkeepH6 m c main_arg16 (by decide)).trans <| (hkeep5 m c main_arg16 (by decide)).trans <| (hkeepH5 m c main_arg16 (by decide)).trans <| (hkeep4 m c main_arg16 (by decide)).trans <| (hkeepH4 m c main_arg16 (by decide)).trans <| (hkeep3 m c main_arg16 (by decide)).trans <| (hkeepH3 m c main_arg16 (by decide)).trans <| (hkeep2 m c main_arg16 (by decide)).trans <| (hkeepH2 m c main_arg16 (by decide)).trans <| (hkeep1 m c main_arg16 (by decide)).trans <| (hkeepH1 m c main_arg16 (by decide)).trans <| (hkeep0 m c main_arg16 (by decide)).trans <| (hkeepH0 m c main_arg16 (by decide))
theorem U21_arg17 (c : Dev nD) : U21 m c main_arg17 = m ((c.tc : Thread nD τ).loc main_arg17) :=
  (hkeepH10 m c main_arg17 (by decide)).trans <| (hkeep9 m c main_arg17 (by decide)).trans <| (hkeepH9 m c main_arg17 (by decide)).trans <| (hkeep8 m c main_arg17 (by decide)).trans <| (hkeepH8 m c main_arg17 (by decide)).trans <| (hkeep7 m c main_arg17 (by decide)).trans <| (hkeepH7 m c main_arg17 (by decide)).trans <| (hkeep6 m c main_arg17 (by decide)).trans <| (hkeepH6 m c main_arg17 (by decide)).trans <| (hkeep5 m c main_arg17 (by decide)).trans <| (hkeepH5 m c main_arg17 (by decide)).trans <| (hkeep4 m c main_arg17 (by decide)).trans <| (hkeepH4 m c main_arg17 (by decide)).trans <| (hkeep3 m c main_arg17 (by decide)).trans <| (hkeepH3 m c main_arg17 (by decide)).trans <| (hkeep2 m c main_arg17 (by decide)).trans <| (hkeepH2 m c main_arg17 (by decide)).trans <| (hkeep1 m c main_arg17 (by decide)).trans <| (hkeepH1 m c main_arg17 (by decide)).trans <| (hkeep0 m c main_arg17 (by decide)).trans <| (hkeepH0 m c main_arg17 (by decide))
theorem U21_arg18 (c : Dev nD) : U21 m c main_arg18 = m ((c.tc : Thread nD τ).loc main_arg18) :=
  (hkeepH10 m c main_arg18 (by decide)).trans <| (hkeep9 m c main_arg18 (by decide)).trans <| (hkeepH9 m c main_arg18 (by decide)).trans <| (hkeep8 m c main_arg18 (by decide)).trans <| (hkeepH8 m c main_arg18 (by decide)).trans <| (hkeep7 m c main_arg18 (by decide)).trans <| (hkeepH7 m c main_arg18 (by decide)).trans <| (hkeep6 m c main_arg18 (by decide)).trans <| (hkeepH6 m c main_arg18 (by decide)).trans <| (hkeep5 m c main_arg18 (by decide)).trans <| (hkeepH5 m c main_arg18 (by decide)).trans <| (hkeep4 m c main_arg18 (by decide)).trans <| (hkeepH4 m c main_arg18 (by decide)).trans <| (hkeep3 m c main_arg18 (by decide)).trans <| (hkeepH3 m c main_arg18 (by decide)).trans <| (hkeep2 m c main_arg18 (by decide)).trans <| (hkeepH2 m c main_arg18 (by decide)).trans <| (hkeep1 m c main_arg18 (by decide)).trans <| (hkeepH1 m c main_arg18 (by decide)).trans <| (hkeep0 m c main_arg18 (by decide)).trans <| (hkeepH0 m c main_arg18 (by decide))
theorem U21_arg19 (c : Dev nD) : U21 m c main_arg19 = m ((c.tc : Thread nD τ).loc main_arg19) :=
  (hkeepH10 m c main_arg19 (by decide)).trans <| (hkeep9 m c main_arg19 (by decide)).trans <| (hkeepH9 m c main_arg19 (by decide)).trans <| (hkeep8 m c main_arg19 (by decide)).trans <| (hkeepH8 m c main_arg19 (by decide)).trans <| (hkeep7 m c main_arg19 (by decide)).trans <| (hkeepH7 m c main_arg19 (by decide)).trans <| (hkeep6 m c main_arg19 (by decide)).trans <| (hkeepH6 m c main_arg19 (by decide)).trans <| (hkeep5 m c main_arg19 (by decide)).trans <| (hkeepH5 m c main_arg19 (by decide)).trans <| (hkeep4 m c main_arg19 (by decide)).trans <| (hkeepH4 m c main_arg19 (by decide)).trans <| (hkeep3 m c main_arg19 (by decide)).trans <| (hkeepH3 m c main_arg19 (by decide)).trans <| (hkeep2 m c main_arg19 (by decide)).trans <| (hkeepH2 m c main_arg19 (by decide)).trans <| (hkeep1 m c main_arg19 (by decide)).trans <| (hkeepH1 m c main_arg19 (by decide)).trans <| (hkeep0 m c main_arg19 (by decide)).trans <| (hkeepH0 m c main_arg19 (by decide))
theorem U21_arg20 (c : Dev nD) : U21 m c main_arg20 = m ((c.tc : Thread nD τ).loc main_arg20) :=
  (hkeepH10 m c main_arg20 (by decide)).trans <| (hkeep9 m c main_arg20 (by decide)).trans <| (hkeepH9 m c main_arg20 (by decide)).trans <| (hkeep8 m c main_arg20 (by decide)).trans <| (hkeepH8 m c main_arg20 (by decide)).trans <| (hkeep7 m c main_arg20 (by decide)).trans <| (hkeepH7 m c main_arg20 (by decide)).trans <| (hkeep6 m c main_arg20 (by decide)).trans <| (hkeepH6 m c main_arg20 (by decide)).trans <| (hkeep5 m c main_arg20 (by decide)).trans <| (hkeepH5 m c main_arg20 (by decide)).trans <| (hkeep4 m c main_arg20 (by decide)).trans <| (hkeepH4 m c main_arg20 (by decide)).trans <| (hkeep3 m c main_arg20 (by decide)).trans <| (hkeepH3 m c main_arg20 (by decide)).trans <| (hkeep2 m c main_arg20 (by decide)).trans <| (hkeepH2 m c main_arg20 (by decide)).trans <| (hkeep1 m c main_arg20 (by decide)).trans <| (hkeepH1 m c main_arg20 (by decide)).trans <| (hkeep0 m c main_arg20 (by decide)).trans <| (hkeepH0 m c main_arg20 (by decide))
theorem U21_arg21 (c : Dev nD) : U21 m c main_arg21 = m ((c.tc : Thread nD τ).loc main_arg21) :=
  (hkeepH10 m c main_arg21 (by decide)).trans <| (hkeep9 m c main_arg21 (by decide)).trans <| (hkeepH9 m c main_arg21 (by decide)).trans <| (hkeep8 m c main_arg21 (by decide)).trans <| (hkeepH8 m c main_arg21 (by decide)).trans <| (hkeep7 m c main_arg21 (by decide)).trans <| (hkeepH7 m c main_arg21 (by decide)).trans <| (hkeep6 m c main_arg21 (by decide)).trans <| (hkeepH6 m c main_arg21 (by decide)).trans <| (hkeep5 m c main_arg21 (by decide)).trans <| (hkeepH5 m c main_arg21 (by decide)).trans <| (hkeep4 m c main_arg21 (by decide)).trans <| (hkeepH4 m c main_arg21 (by decide)).trans <| (hkeep3 m c main_arg21 (by decide)).trans <| (hkeepH3 m c main_arg21 (by decide)).trans <| (hkeep2 m c main_arg21 (by decide)).trans <| (hkeepH2 m c main_arg21 (by decide)).trans <| (hkeep1 m c main_arg21 (by decide)).trans <| (hkeepH1 m c main_arg21 (by decide)).trans <| (hkeep0 m c main_arg21 (by decide)).trans <| (hkeepH0 m c main_arg21 (by decide))
theorem U21_arg22 (c : Dev nD) : U21 m c main_arg22 = m ((c.tc : Thread nD τ).loc main_arg22) :=
  (hkeepH10 m c main_arg22 (by decide)).trans <| (hkeep9 m c main_arg22 (by decide)).trans <| (hkeepH9 m c main_arg22 (by decide)).trans <| (hkeep8 m c main_arg22 (by decide)).trans <| (hkeepH8 m c main_arg22 (by decide)).trans <| (hkeep7 m c main_arg22 (by decide)).trans <| (hkeepH7 m c main_arg22 (by decide)).trans <| (hkeep6 m c main_arg22 (by decide)).trans <| (hkeepH6 m c main_arg22 (by decide)).trans <| (hkeep5 m c main_arg22 (by decide)).trans <| (hkeepH5 m c main_arg22 (by decide)).trans <| (hkeep4 m c main_arg22 (by decide)).trans <| (hkeepH4 m c main_arg22 (by decide)).trans <| (hkeep3 m c main_arg22 (by decide)).trans <| (hkeepH3 m c main_arg22 (by decide)).trans <| (hkeep2 m c main_arg22 (by decide)).trans <| (hkeepH2 m c main_arg22 (by decide)).trans <| (hkeep1 m c main_arg22 (by decide)).trans <| (hkeepH1 m c main_arg22 (by decide)).trans <| (hkeep0 m c main_arg22 (by decide)).trans <| (hkeepH0 m c main_arg22 (by decide))
theorem U21_arg23 (c : Dev nD) : U21 m c main_arg23 = m ((c.tc : Thread nD τ).loc main_arg23) :=
  (hkeepH10 m c main_arg23 (by decide)).trans <| (hkeep9 m c main_arg23 (by decide)).trans <| (hkeepH9 m c main_arg23 (by decide)).trans <| (hkeep8 m c main_arg23 (by decide)).trans <| (hkeepH8 m c main_arg23 (by decide)).trans <| (hkeep7 m c main_arg23 (by decide)).trans <| (hkeepH7 m c main_arg23 (by decide)).trans <| (hkeep6 m c main_arg23 (by decide)).trans <| (hkeepH6 m c main_arg23 (by decide)).trans <| (hkeep5 m c main_arg23 (by decide)).trans <| (hkeepH5 m c main_arg23 (by decide)).trans <| (hkeep4 m c main_arg23 (by decide)).trans <| (hkeepH4 m c main_arg23 (by decide)).trans <| (hkeep3 m c main_arg23 (by decide)).trans <| (hkeepH3 m c main_arg23 (by decide)).trans <| (hkeep2 m c main_arg23 (by decide)).trans <| (hkeepH2 m c main_arg23 (by decide)).trans <| (hkeep1 m c main_arg23 (by decide)).trans <| (hkeepH1 m c main_arg23 (by decide)).trans <| (hkeep0 m c main_arg23 (by decide)).trans <| (hkeepH0 m c main_arg23 (by decide))
theorem U21_arg24 (c : Dev nD) : U21 m c main_arg24 = m ((c.tc : Thread nD τ).loc main_arg24) :=
  (hkeepH10 m c main_arg24 (by decide)).trans <| (hkeep9 m c main_arg24 (by decide)).trans <| (hkeepH9 m c main_arg24 (by decide)).trans <| (hkeep8 m c main_arg24 (by decide)).trans <| (hkeepH8 m c main_arg24 (by decide)).trans <| (hkeep7 m c main_arg24 (by decide)).trans <| (hkeepH7 m c main_arg24 (by decide)).trans <| (hkeep6 m c main_arg24 (by decide)).trans <| (hkeepH6 m c main_arg24 (by decide)).trans <| (hkeep5 m c main_arg24 (by decide)).trans <| (hkeepH5 m c main_arg24 (by decide)).trans <| (hkeep4 m c main_arg24 (by decide)).trans <| (hkeepH4 m c main_arg24 (by decide)).trans <| (hkeep3 m c main_arg24 (by decide)).trans <| (hkeepH3 m c main_arg24 (by decide)).trans <| (hkeep2 m c main_arg24 (by decide)).trans <| (hkeepH2 m c main_arg24 (by decide)).trans <| (hkeep1 m c main_arg24 (by decide)).trans <| (hkeepH1 m c main_arg24 (by decide)).trans <| (hkeep0 m c main_arg24 (by decide)).trans <| (hkeepH0 m c main_arg24 (by decide))
/-- THE FRAME: every weakly fair execution of @main terminates without a fault and every argument array ends as launched. -/
theorem run_frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (U21_arg0 m c),
     (h c _ (mem_uc main_arg1 (by decide))).trans (U21_arg1 m c),
     (h c _ (mem_uc main_arg2 (by decide))).trans (U21_arg2 m c),
     (h c _ (mem_uc main_arg3 (by decide))).trans (U21_arg3 m c),
     (h c _ (mem_uc main_arg4 (by decide))).trans (U21_arg4 m c),
     (h c _ (mem_uc main_arg5 (by decide))).trans (U21_arg5 m c),
     (h c _ (mem_uc main_arg6 (by decide))).trans (U21_arg6 m c),
     (h c _ (mem_uc main_arg7 (by decide))).trans (U21_arg7 m c),
     (h c _ (mem_uc main_arg8 (by decide))).trans (U21_arg8 m c),
     (h c _ (mem_uc main_arg9 (by decide))).trans (U21_arg9 m c),
     (h c _ (mem_uc main_arg10 (by decide))).trans (U21_arg10 m c),
     (h c _ (mem_uc main_arg11 (by decide))).trans (U21_arg11 m c),
     (h c _ (mem_uc main_arg12 (by decide))).trans (U21_arg12 m c),
     (h c _ (mem_uc main_arg13 (by decide))).trans (U21_arg13 m c),
     (h c _ (mem_uc main_arg14 (by decide))).trans (U21_arg14 m c),
     (h c _ (mem_uc main_arg15 (by decide))).trans (U21_arg15 m c),
     (h c _ (mem_uc main_arg16 (by decide))).trans (U21_arg16 m c),
     (h c _ (mem_uc main_arg17 (by decide))).trans (U21_arg17 m c),
     (h c _ (mem_uc main_arg18 (by decide))).trans (U21_arg18 m c),
     (h c _ (mem_uc main_arg19 (by decide))).trans (U21_arg19 m c),
     (h c _ (mem_uc main_arg20 (by decide))).trans (U21_arg20 m c),
     (h c _ (mem_uc main_arg21 (by decide))).trans (U21_arg21 m c),
     (h c _ (mem_uc main_arg22 (by decide))).trans (U21_arg22 m c),
     (h c _ (mem_uc main_arg23 (by decide))).trans (U21_arg23 m c),
     (h c _ (mem_uc main_arg24 (by decide))).trans (U21_arg24 m c)⟩) (run_vals m ρ)

/-- The same run with the two results read off the last boundary as well. -/
theorem run_res (ρ : Dev nD → PrngReg) :
    θ_run defs (onTc (τ := τ) (main (F := F))) ⟨m, fun _ => 0, ρ⟩ (fun r => ∀ c : Dev nD,
      r.2.mem ((c.tc : Thread nD τ).loc main_v196) = U21 m c main_v196
      ∧ r.2.mem ((c.tc : Thread nD τ).loc main_v220) = U21 m c main_v220
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨h c _ (mem_uc main_v196 (by decide)), h c _ (mem_uc main_v220 (by decide)),
     (h c _ (mem_uc main_arg0 (by decide))).trans (U21_arg0 m c),
     (h c _ (mem_uc main_arg1 (by decide))).trans (U21_arg1 m c),
     (h c _ (mem_uc main_arg2 (by decide))).trans (U21_arg2 m c),
     (h c _ (mem_uc main_arg3 (by decide))).trans (U21_arg3 m c),
     (h c _ (mem_uc main_arg4 (by decide))).trans (U21_arg4 m c),
     (h c _ (mem_uc main_arg5 (by decide))).trans (U21_arg5 m c),
     (h c _ (mem_uc main_arg6 (by decide))).trans (U21_arg6 m c),
     (h c _ (mem_uc main_arg7 (by decide))).trans (U21_arg7 m c),
     (h c _ (mem_uc main_arg8 (by decide))).trans (U21_arg8 m c),
     (h c _ (mem_uc main_arg9 (by decide))).trans (U21_arg9 m c),
     (h c _ (mem_uc main_arg10 (by decide))).trans (U21_arg10 m c),
     (h c _ (mem_uc main_arg11 (by decide))).trans (U21_arg11 m c),
     (h c _ (mem_uc main_arg12 (by decide))).trans (U21_arg12 m c),
     (h c _ (mem_uc main_arg13 (by decide))).trans (U21_arg13 m c),
     (h c _ (mem_uc main_arg14 (by decide))).trans (U21_arg14 m c),
     (h c _ (mem_uc main_arg15 (by decide))).trans (U21_arg15 m c),
     (h c _ (mem_uc main_arg16 (by decide))).trans (U21_arg16 m c),
     (h c _ (mem_uc main_arg17 (by decide))).trans (U21_arg17 m c),
     (h c _ (mem_uc main_arg18 (by decide))).trans (U21_arg18 m c),
     (h c _ (mem_uc main_arg19 (by decide))).trans (U21_arg19 m c),
     (h c _ (mem_uc main_arg20 (by decide))).trans (U21_arg20 m c),
     (h c _ (mem_uc main_arg21 (by decide))).trans (U21_arg21 m c),
     (h c _ (mem_uc main_arg22 (by decide))).trans (U21_arg22 m c),
     (h c _ (mem_uc main_arg23 (by decide))).trans (U21_arg23 m c),
     (h c _ (mem_uc main_arg24 (by decide))).trans (U21_arg24 m c)⟩) (run_vals m ρ)

end Cert.KernelIdeal.Hand

end
-- ==== Proof.Ref.Stages.lean ====
/- The reference program's computation as named stages. Each definition is the literal composition of the printed
   host operations of one stretch of the program, as a pure function of the arrays the stretch reads. -/
import proofs.«118347_j18940805776024_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
/-- The edge sources: row 0 of the edge list, as a vector. -/
def srcIdx (e : (⟨S2x1600000, .i32⟩ : BufTy).Contents (Elt F)) :
    (⟨S1600000, .i32⟩ : BufTy).Contents (Elt F) :=
  (shapeCast S1600000 (extractStridedSlice S1x1600000 ![0, 0] e slices_S2x1600000_S1x1600000_0_0) shapeCasts_S1x1600000_S1600000)

/-- The edge destinations: row 1 of the edge list, as a vector. -/
def dstIdx (e : (⟨S2x1600000, .i32⟩ : BufTy).Contents (Elt F)) :
    (⟨S1600000, .i32⟩ : BufTy).Contents (Elt F) :=
  (shapeCast S1600000 (extractStridedSlice S1x1600000 ![1, 0] e slices_S2x1600000_S1x1600000_1_0) shapeCasts_S1x1600000_S1600000)

/-- Layer `l`'s matrix out of a stack of four: the slice at `off`, as a matrix. -/
def matSlice (off : Fin 3 → Nat) (hs : S4x128x128.Slices off S1x128x128) (a : (⟨S4x128x128, .f32⟩ : BufTy).Contents (Elt F)) :
    (⟨S128x128, .f32⟩ : BufTy).Contents (Elt F) :=
  shapeCast S128x128 (extractStridedSlice S1x128x128 off a hs) shapeCasts_S1x128x128_S128x128

/-- Layer `l`'s vector out of a stack of four: the slice at `off`, as a vector. -/
def vecSlice (off : Fin 2 → Nat) (hs : S4x128.Slices off S1x128) (a : (⟨S4x128, .f32⟩ : BufTy).Contents (Elt F)) :
    (⟨S128, .f32⟩ : BufTy).Contents (Elt F) :=
  shapeCast S128 (extractStridedSlice S1x128 off a hs) shapeCasts_S1x128_S128

/-- Layer `l`'s scalar out of a vector of four: the slice at `off`, as a scalar. -/
def scalSlice (off : Fin 1 → Nat) (hs : S4.Slices off S1) (a : (⟨S4, .f32⟩ : BufTy).Contents (Elt F)) :
    (⟨S_, .f32⟩ : BufTy).Contents (Elt F) :=
  shapeCast S_ (extractStridedSlice S1 off a hs) shapeCasts_S1_S_

/-- The neighbourhood sum: each node's sum of its in-neighbours' rows (rows gathered at the edge sources, a negative source wrapped, scatter-added at the edge destinations into zeros). -/
def aggRef (h : (⟨S100000x128, .f32⟩ : BufTy).Contents (Elt F)) (src : (⟨S1600000, .i32⟩ : BufTy).Contents (Elt F)) (dst : (⟨S1600000, .i32⟩ : BufTy).Contents (Elt F)) :
    (⟨S100000x128, .f32⟩ : BufTy).Contents (Elt F) :=
  (Host.scatterAdd scatter_S100000x128_S1600000x1_S1600000x128_1_0_0_1 (broadcastInDim S100000x128 ![] bcast_S_S100000x128 (constant (F := F) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))

/-- The layer's input to its first matrix: `(1 + eps) * h` plus the neighbourhood sum. -/
def preRef (h : (⟨S100000x128, .f32⟩ : BufTy).Contents (Elt F)) (eps : (⟨S_, .f32⟩ : BufTy).Contents (Elt F)) (src : (⟨S1600000, .i32⟩ : BufTy).Contents (Elt F)) (dst : (⟨S1600000, .i32⟩ : BufTy).Contents (Elt F)) :
    (⟨S100000x128, .f32⟩ : BufTy).Contents (Elt F) :=
  (addf (mulf (broadcastInDim S100000x128 ![] bcast_S_S100000x128 (addf (constant (F := F) S_ .f32 0x3F800000#32) eps)) h) (aggRef h src dst))

/-- The layer's two dense maps, each followed by the maximum with zero. -/
def mlpRef (x : (⟨S100000x128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) :
    (⟨S100000x128, .f32⟩ : BufTy).Contents (Elt F) :=
  (maximumf (addf (Host.dotGeneral dot_S100000x128_S128x128_S100000x128_1_0_0_1_n_n none (maximumf (addf (Host.dotGeneral dot_S100000x128_S128x128_S100000x128_1_0_0_1_n_n none x w1) (broadcastInDim S100000x128 ![0, 1] bcast_S1x128_S100000x128_0_1 (broadcastInDim S1x128 ![1] bcast_S128_S1x128_1 b1))) (broadcastInDim S100000x128 ![] bcast_S_S100000x128 (constant (F := F) S_ .f32 0x00000000#32))) w2) (broadcastInDim S100000x128 ![0, 1] bcast_S1x128_S100000x128_0_1 (broadcastInDim S1x128 ![1] bcast_S128_S1x128_1 b2))) (broadcastInDim S100000x128 ![] bcast_S_S100000x128 (constant (F := F) S_ .f32 0x00000000#32)))

/-- The column means over the nodes. -/
def meanRef (z : (⟨S100000x128, .f32⟩ : BufTy).Contents (Elt F)) :
    (⟨S128, .f32⟩ : BufTy).Contents (Elt F) :=
  (Host.divf (Host.reduceAdd z (constant (F := F) S_ .f32 0x00000000#32) reducesTo_S100000x128_S128_d0 h_S_) (broadcastInDim S128 ![] bcast_S_S128 (constant (F := F) S_ .f32 0x47C35000#32)))

/-- The rows less the column means, as the variance computes them. -/
def ctrRef (z : (⟨S100000x128, .f32⟩ : BufTy).Contents (Elt F)) :
    (⟨S100000x128, .f32⟩ : BufTy).Contents (Elt F) :=
  (subf z (broadcastInDim S100000x128 ![0, 1] bcast_S1x128_S100000x128_0_1 (Host.divf (broadcastInDim S1x128 ![1] bcast_S128_S1x128_1 (Host.reduceAdd z (constant (F := F) S_ .f32 0x00000000#32) reducesTo_S100000x128_S128_d0 h_S_)) (broadcastInDim S1x128 ![] bcast_S_S1x128 (constant (F := F) S_ .f32 0x47C35000#32)))))

/-- The biased column variances over the nodes (the sum of squared centred rows over the count less zero degrees of freedom, selected where that divisor is positive). -/
def varRef (z : (⟨S100000x128, .f32⟩ : BufTy).Contents (Elt F)) :
    (⟨S128, .f32⟩ : BufTy).Contents (Elt F) :=
  (select (broadcastInDim S128 ![] bcast_S_S128 (cmpf .ogt (subf (constant (F := F) S_ .f32 0x47C35000#32) (sitofp .f32 (constantI S_ 32 0#32))) (constant (F := F) S_ .f32 0x00000000#32))) (Host.divf (Host.reduceAdd (mulf (ctrRef z) (ctrRef z)) (constant (F := F) S_ .f32 0x00000000#32) reducesTo_S100000x128_S128_d0 h_S_) (broadcastInDim S128 ![] bcast_S_S128 (subf (constant (F := F) S_ .f32 0x47C35000#32) (sitofp .f32 (constantI S_ 32 0#32))))) (broadcastInDim S128 ![] bcast_S_S128 (id (constant (F := F) S_ .f32 0x7FC00000#32))))

/-- The batch normalisation: centred by the column means, scaled by the reciprocal root of variance plus epsilon, times `gamma`, plus `beta`. -/
def bnRef (z : (⟨S100000x128, .f32⟩ : BufTy).Contents (Elt F)) (gamma : (⟨S128, .f32⟩ : BufTy).Contents (Elt F)) (beta : (⟨S128, .f32⟩ : BufTy).Contents (Elt F)) :
    (⟨S100000x128, .f32⟩ : BufTy).Contents (Elt F) :=
  (addf (mulf (mulf (subf z (broadcastInDim S100000x128 ![0, 1] bcast_S1x128_S100000x128_0_1 (broadcastInDim S1x128 ![1] bcast_S128_S1x128_1 (meanRef z)))) (broadcastInDim S100000x128 ![0, 1] bcast_S1x128_S100000x128_0_1 (broadcastInDim S1x128 ![1] bcast_S128_S1x128_1 (Host.rsqrt (addf (varRef z) (broadcastInDim S128 ![] bcast_S_S128 (constant (F := F) S_ .f32 0x3727C5AC#32))))))) (broadcastInDim S100000x128 ![0, 1] bcast_S1x128_S100000x128_0_1 (broadcastInDim S1x128 ![1] bcast_S128_S1x128_1 gamma))) (broadcastInDim S100000x128 ![0, 1] bcast_S1x128_S100000x128_0_1 (broadcastInDim S1x128 ![1] bcast_S128_S1x128_1 beta)))

/-- One graph-convolution layer. -/
def layerRef (h : (⟨S100000x128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) (gamma : (⟨S128, .f32⟩ : BufTy).Contents (Elt F)) (beta : (⟨S128, .f32⟩ : BufTy).Contents (Elt F)) (eps : (⟨S_, .f32⟩ : BufTy).Contents (Elt F)) (src : (⟨S1600000, .i32⟩ : BufTy).Contents (Elt F)) (dst : (⟨S1600000, .i32⟩ : BufTy).Contents (Elt F)) :
    (⟨S100000x128, .f32⟩ : BufTy).Contents (Elt F) :=
  bnRef (mlpRef (preRef h eps src dst) w1 b1 w2 b2) gamma beta

/-- The four layers' outputs side by side. -/
def embRef (h0 : (⟨S100000x128, .f32⟩ : BufTy).Contents (Elt F)) (h1 : (⟨S100000x128, .f32⟩ : BufTy).Contents (Elt F)) (h2 : (⟨S100000x128, .f32⟩ : BufTy).Contents (Elt F)) (h3 : (⟨S100000x128, .f32⟩ : BufTy).Contents (Elt F)) :
    (⟨S100000x512, .f32⟩ : BufTy).Contents (Elt F) :=
  (concatenate S100000x512 1 [⟨S100000x128, h0⟩, ⟨S100000x128, h1⟩, ⟨S100000x128, h2⟩, ⟨S100000x128, h3⟩] concatenates_S100000x128_S100000x128_S100000x128_S100000x128_S100000x512_d1)

/-- The graph means: rows scatter-added by graph number, over the node counts (at least one). -/
def gembRef (emb : (⟨S100000x512, .f32⟩ : BufTy).Contents (Elt F)) (batch : (⟨S100000, .i32⟩ : BufTy).Contents (Elt F)) :
    (⟨S64x512, .f32⟩ : BufTy).Contents (Elt F) :=
  (Host.divf (Host.scatterAdd scatter_S64x512_S100000x1_S100000x512_1_0_0_1 (broadcastInDim S64x512 ![] bcast_S_S64x512 (constant (F := F) S_ .f32 0x00000000#32)) (broadcastInDim S100000x1 ![0] bcast_S100000_S100000x1_0 batch) emb) (broadcastInDim S64x512 ![0, 1] bcast_S64x1_S64x512_0_1 (maximumf (Host.scatterAdd scatter_S64x1_S100000x1_S100000x1_1_0_0_1 (broadcastInDim S64x1 ![] bcast_S_S64x1 (constant (F := F) S_ .f32 0x00000000#32)) (broadcastInDim S100000x1 ![0] bcast_S100000_S100000x1_0 batch) (broadcastInDim S100000x1 ![] bcast_S_S100000x1 (constant (F := F) S_ .f32 0x3F800000#32))) (broadcastInDim S64x1 ![] bcast_S_S64x1 (constant (F := F) S_ .f32 0x3F800000#32)))))

/-- The classifier head: three dense maps with the maximum with zero, a fourth, then the log-softmax over the classes. -/
def clsRef (g : (⟨S64x512, .f32⟩ : BufTy).Contents (Elt F)) (a8 : (⟨S512x256, .f32⟩ : BufTy).Contents (Elt F)) (a9 : (⟨S256, .f32⟩ : BufTy).Contents (Elt F)) (a10 : (⟨S256x128, .f32⟩ : BufTy).Contents (Elt F)) (a11 : (⟨S128, .f32⟩ : BufTy).Contents (Elt F)) (a12 : (⟨S128x128, .f32⟩ : BufTy).Contents (Elt F)) (a13 : (⟨S128, .f32⟩ : BufTy).Contents (Elt F)) (a14 : (⟨S128x16, .f32⟩ : BufTy).Contents (Elt F)) (a15 : (⟨S16, .f32⟩ : BufTy).Contents (Elt F)) :
    (⟨S64x16, .f32⟩ : BufTy).Contents (Elt F) :=
  (subf (subf (addf (Host.dotGeneral dot_S64x128_S128x16_S64x16_1_0_0_1_n_n none (maximumf (addf (Host.dotGeneral dot_S64x128_S128x128_S64x128_1_0_0_1_n_n none (maximumf (addf (Host.dotGeneral dot_S64x256_S256x128_S64x128_1_0_0_1_n_n none (maximumf (addf (Host.dotGeneral dot_S64x512_S512x256_S64x256_1_0_0_1_n_n none g a8) (broadcastInDim S64x256 ![0, 1] bcast_S1x256_S64x256_0_1 (broadcastInDim S1x256 ![1] bcast_S256_S1x256_1 a9))) (broadcastInDim S64x256 ![] bcast_S_S64x256 (constant (F := F) S_ .f32 0x00000000#32))) a10) (broadcastInDim S64x128 ![0, 1] bcast_S1x128_S64x128_0_1 (broadcastInDim S1x128 ![1] bcast_S128_S1x128_1 a11))) (broadcastInDim S64x128 ![] bcast_S_S64x128 (constant (F := F) S_ .f32 0x00000000#32))) a12) (broadcastInDim S64x128 ![0, 1] bcast_S1x128_S64x128_0_1 (broadcastInDim S1x128 ![1] bcast_S128_S1x128_1 a13))) (broadcastInDim S64x128 ![] bcast_S_S64x128 (constant (F := F) S_ .f32 0x00000000#32))) a14) (broadcastInDim S64x16 ![0, 1] bcast_S1x16_S64x16_0_1 (broadcastInDim S1x16 ![1] bcast_S16_S1x16_1 a15))) (broadcastInDim S64x16 ![0, 1] bcast_S64x1_S64x16_0_1 (broadcastInDim S64x1 ![0] bcast_S64_S64x1_0 (maximumf (broadcastInDim S64 ![] bcast_S_S64 (constant (F := F) S_ .f32 0xFF800000#32)) (Host.reduce FloatOps.maximumf (addf (Host.dotGeneral dot_S64x128_S128x16_S64x16_1_0_0_1_n_n none (maximumf (addf (Host.dotGeneral dot_S64x128_S128x128_S64x128_1_0_0_1_n_n none (maximumf (addf (Host.dotGeneral dot_S64x256_S256x128_S64x128_1_0_0_1_n_n none (maximumf (addf (Host.dotGeneral dot_S64x512_S512x256_S64x256_1_0_0_1_n_n none g a8) (broadcastInDim S64x256 ![0, 1] bcast_S1x256_S64x256_0_1 (broadcastInDim S1x256 ![1] bcast_S256_S1x256_1 a9))) (broadcastInDim S64x256 ![] bcast_S_S64x256 (constant (F := F) S_ .f32 0x00000000#32))) a10) (broadcastInDim S64x128 ![0, 1] bcast_S1x128_S64x128_0_1 (broadcastInDim S1x128 ![1] bcast_S128_S1x128_1 a11))) (broadcastInDim S64x128 ![] bcast_S_S64x128 (constant (F := F) S_ .f32 0x00000000#32))) a12) (broadcastInDim S64x128 ![0, 1] bcast_S1x128_S64x128_0_1 (broadcastInDim S1x128 ![1] bcast_S128_S1x128_1 a13))) (broadcastInDim S64x128 ![] bcast_S_S64x128 (constant (F := F) S_ .f32 0x00000000#32))) a14) (broadcastInDim S64x16 ![0, 1] bcast_S1x16_S64x16_0_1 (broadcastInDim S1x16 ![1] bcast_S16_S1x16_1 a15))) (constant (F := F) S_ .f32 0xFF800000#32) reducesTo_S64x16_S64_d1 h_S_))))) (broadcastInDim S64x16 ![0, 1] bcast_S64x1_S64x16_0_1 (Host.log (broadcastInDim S64x1 ![0] bcast_S64_S64x1_0 (Host.reduceAdd (Host.exp (subf (addf (Host.dotGeneral dot_S64x128_S128x16_S64x16_1_0_0_1_n_n none (maximumf (addf (Host.dotGeneral dot_S64x128_S128x128_S64x128_1_0_0_1_n_n none (maximumf (addf (Host.dotGeneral dot_S64x256_S256x128_S64x128_1_0_0_1_n_n none (maximumf (addf (Host.dotGeneral dot_S64x512_S512x256_S64x256_1_0_0_1_n_n none g a8) (broadcastInDim S64x256 ![0, 1] bcast_S1x256_S64x256_0_1 (broadcastInDim S1x256 ![1] bcast_S256_S1x256_1 a9))) (broadcastInDim S64x256 ![] bcast_S_S64x256 (constant (F := F) S_ .f32 0x00000000#32))) a10) (broadcastInDim S64x128 ![0, 1] bcast_S1x128_S64x128_0_1 (broadcastInDim S1x128 ![1] bcast_S128_S1x128_1 a11))) (broadcastInDim S64x128 ![] bcast_S_S64x128 (constant (F := F) S_ .f32 0x00000000#32))) a12) (broadcastInDim S64x128 ![0, 1] bcast_S1x128_S64x128_0_1 (broadcastInDim S1x128 ![1] bcast_S128_S1x128_1 a13))) (broadcastInDim S64x128 ![] bcast_S_S64x128 (constant (F := F) S_ .f32 0x00000000#32))) a14) (broadcastInDim S64x16 ![0, 1] bcast_S1x16_S64x16_0_1 (broadcastInDim S1x16 ![1] bcast_S16_S1x16_1 a15))) (broadcastInDim S64x16 ![0, 1] bcast_S64x1_S64x16_0_1 (broadcastInDim S64x1 ![0] bcast_S64_S64x1_0 (maximumf (broadcastInDim S64 ![] bcast_S_S64 (constant (F := F) S_ .f32 0xFF800000#32)) (Host.reduce FloatOps.maximumf (addf (Host.dotGeneral dot_S64x128_S128x16_S64x16_1_0_0_1_n_n none (maximumf (addf (Host.dotGeneral dot_S64x128_S128x128_S64x128_1_0_0_1_n_n none (maximumf (addf (Host.dotGeneral dot_S64x256_S256x128_S64x128_1_0_0_1_n_n none (maximumf (addf (Host.dotGeneral dot_S64x512_S512x256_S64x256_1_0_0_1_n_n none g a8) (broadcastInDim S64x256 ![0, 1] bcast_S1x256_S64x256_0_1 (broadcastInDim S1x256 ![1] bcast_S256_S1x256_1 a9))) (broadcastInDim S64x256 ![] bcast_S_S64x256 (constant (F := F) S_ .f32 0x00000000#32))) a10) (broadcastInDim S64x128 ![0, 1] bcast_S1x128_S64x128_0_1 (broadcastInDim S1x128 ![1] bcast_S128_S1x128_1 a11))) (broadcastInDim S64x128 ![] bcast_S_S64x128 (constant (F := F) S_ .f32 0x00000000#32))) a12) (broadcastInDim S64x128 ![0, 1] bcast_S1x128_S64x128_0_1 (broadcastInDim S1x128 ![1] bcast_S128_S1x128_1 a13))) (broadcastInDim S64x128 ![] bcast_S_S64x128 (constant (F := F) S_ .f32 0x00000000#32))) a14) (broadcastInDim S64x16 ![0, 1] bcast_S1x16_S64x16_0_1 (broadcastInDim S1x16 ![1] bcast_S16_S1x16_1 a15))) (constant (F := F) S_ .f32 0xFF800000#32) reducesTo_S64x16_S64_d1 h_S_)))))) (constant (F := F) S_ .f32 0x00000000#32) reducesTo_S64x16_S64_d1 h_S_)))))

/-- The edge features: each candidate edge's two end nodes' rows (gathered at the candidate list's two rows, a negative index wrapped) side by side. -/
def efRef (emb : (⟨S100000x512, .f32⟩ : BufTy).Contents (Elt F)) (cand : (⟨S2x100000, .i32⟩ : BufTy).Contents (Elt F)) :
    (⟨S100000x1024, .f32⟩ : BufTy).Contents (Elt F) :=
  (concatenate S100000x1024 1 [⟨S100000x512, (Host.gather gather_S100000x512_S100000x1_S100000x512_1_0_n_n_0_1_1512 emb (broadcastInDim S100000x1 ![0] bcast_S100000_S100000x1_0 (select (cmpi .slt (shapeCast S100000 (extractStridedSlice S1x100000 ![0, 0] cand slices_S2x100000_S1x100000_0_0) shapeCasts_S1x100000_S100000) (broadcastInDim S100000 ![] bcast_S_S100000 (constantI S_ 32 0#32))) (addi (shapeCast S100000 (extractStridedSlice S1x100000 ![0, 0] cand slices_S2x100000_S1x100000_0_0) shapeCasts_S1x100000_S100000) (broadcastInDim S100000 ![] bcast_S_S100000 (constantI S_ 32 100000#32))) (shapeCast S100000 (extractStridedSlice S1x100000 ![0, 0] cand slices_S2x100000_S1x100000_0_0) shapeCasts_S1x100000_S100000))))⟩, ⟨S100000x512, (Host.gather gather_S100000x512_S100000x1_S100000x512_1_0_n_n_0_1_1512 emb (broadcastInDim S100000x1 ![0] bcast_S100000_S100000x1_0 (select (cmpi .slt (shapeCast S100000 (extractStridedSlice S1x100000 ![1, 0] cand slices_S2x100000_S1x100000_1_0) shapeCasts_S1x100000_S100000) (broadcastInDim S100000 ![] bcast_S_S100000 (constantI S_ 32 0#32))) (addi (shapeCast S100000 (extractStridedSlice S1x100000 ![1, 0] cand slices_S2x100000_S1x100000_1_0) shapeCasts_S1x100000_S100000) (broadcastInDim S100000 ![] bcast_S_S100000 (constantI S_ 32 100000#32))) (shapeCast S100000 (extractStridedSlice S1x100000 ![1, 0] cand slices_S2x100000_S1x100000_1_0) shapeCasts_S1x100000_S100000))))⟩] concatenates_S100000x512_S100000x512_S100000x1024_d1)

/-- The edge head on the edge features: two dense maps with the maximum with zero, a third to one column, then the logistic function. -/
def edgeHeadRef (ef : (⟨S100000x1024, .f32⟩ : BufTy).Contents (Elt F)) (a16 : (⟨S1024x256, .f32⟩ : BufTy).Contents (Elt F)) (a17 : (⟨S256, .f32⟩ : BufTy).Contents (Elt F)) (a18 : (⟨S256x128, .f32⟩ : BufTy).Contents (Elt F)) (a19 : (⟨S128, .f32⟩ : BufTy).Contents (Elt F)) (a20 : (⟨S128x1, .f32⟩ : BufTy).Contents (Elt F)) (a21 : (⟨S1, .f32⟩ : BufTy).Contents (Elt F)) :
    (⟨S100000, .f32⟩ : BufTy).Contents (Elt F) :=
  (Host.divf (broadcastInDim S100000 ![] bcast_S_S100000 (constant (F := F) S_ .f32 0x3F800000#32)) (addf (broadcastInDim S100000 ![] bcast_S_S100000 (constant (F := F) S_ .f32 0x3F800000#32)) (Host.exp (Host.negf (shapeCast S100000 (addf (Host.dotGeneral dot_S100000x128_S128x1_S100000x1_1_0_0_1_n_n none (maximumf (addf (Host.dotGeneral dot_S100000x256_S256x128_S100000x128_1_0_0_1_n_n none (maximumf (addf (Host.dotGeneral dot_S100000x1024_S1024x256_S100000x256_1_0_0_1_n_n none ef a16) (broadcastInDim S100000x256 ![0, 1] bcast_S1x256_S100000x256_0_1 (broadcastInDim S1x256 ![1] bcast_S256_S1x256_1 a17))) (broadcastInDim S100000x256 ![] bcast_S_S100000x256 (constant (F := F) S_ .f32 0x00000000#32))) a18) (broadcastInDim S100000x128 ![0, 1] bcast_S1x128_S100000x128_0_1 (broadcastInDim S1x128 ![1] bcast_S128_S1x128_1 a19))) (broadcastInDim S100000x128 ![] bcast_S_S100000x128 (constant (F := F) S_ .f32 0x00000000#32))) a20) (broadcastInDim S100000x1 ![0, 1] bcast_S1x1_S100000x1_0_1 (broadcastInDim S1x1 ![1] bcast_S1_S1x1_1 a21))) shapeCasts_S100000x1_S100000)))))

/-- The edge scores: the edge head on the edge features. -/
def edgeRef (emb : (⟨S100000x512, .f32⟩ : BufTy).Contents (Elt F)) (cand : (⟨S2x100000, .i32⟩ : BufTy).Contents (Elt F)) (a16 : (⟨S1024x256, .f32⟩ : BufTy).Contents (Elt F)) (a17 : (⟨S256, .f32⟩ : BufTy).Contents (Elt F)) (a18 : (⟨S256x128, .f32⟩ : BufTy).Contents (Elt F)) (a19 : (⟨S128, .f32⟩ : BufTy).Contents (Elt F)) (a20 : (⟨S128x1, .f32⟩ : BufTy).Contents (Elt F)) (a21 : (⟨S1, .f32⟩ : BufTy).Contents (Elt F)) :
    (⟨S100000, .f32⟩ : BufTy).Contents (Elt F) :=
  edgeHeadRef (efRef emb cand) a16 a17 a18 a19 a20 a21

end Cert.ReferenceIdeal.HandRun

end
-- ==== Proof.KI.StagesK.lean ====
/- The kernel program's host stretch between a layer's two kernels, as pure functions: each definition is the literal
   composition of the printed host operations. From the column sums `s` and the column sums of squares `ss` that the
   first kernel leaves (one row each) the stretch forms the column means `s / 100000` and the column variances
   `ss / 100000 - mean * mean`, and hands the second kernel one-row copies of them and of the layer's scale and shift. -/
import proofs.«118347_j18940805776024_1_alg».proof.Proof.Gen.KernelIdeal
import Idealize.ShloMosaic.Lib.StableHlo.Run

noncomputable section

namespace Cert.KernelIdeal.StagesK

open Cert.KernelIdeal Cert.KernelIdeal.Gen Idealize.ShloMosaic

variable {F : FTy → Type} [FloatOps F]

/-- A vector of 128 as one row. -/
def row (v : (⟨S128, .f32⟩ : BufTy).Contents (Elt F)) : (⟨S1x128, .f32⟩ : BufTy).Contents (Elt F) :=
  shapeCast S1x128 v shapeCasts_S128_S1x128
/-- One row as a vector of 128. -/
def unrow (v : (⟨S1x128, .f32⟩ : BufTy).Contents (Elt F)) : (⟨S128, .f32⟩ : BufTy).Contents (Elt F) :=
  shapeCast S128 v shapeCasts_S1x128_S128
/-- The column means: the column sums over the number of rows. -/
def muK (s : (⟨S1x128, .f32⟩ : BufTy).Contents (Elt F)) : (⟨S128, .f32⟩ : BufTy).Contents (Elt F) :=
  Host.divf (unrow s) (broadcastInDim S128 ![] bcast_S_S128 (constant (F := F) S_ .f32 0x47C35000#32))
/-- The column variances: the mean of squares less the squared mean. -/
def varK (s ss : (⟨S1x128, .f32⟩ : BufTy).Contents (Elt F)) : (⟨S128, .f32⟩ : BufTy).Contents (Elt F) :=
  subf (Host.divf (unrow ss) (broadcastInDim S128 ![] bcast_S_S128 (constant (F := F) S_ .f32 0x47C35000#32))) (mulf (muK s) (muK s))

end Cert.KernelIdeal.StagesK

end
-- ==== Proof.KI.Stretch.lean ====
/- The kernel program's host stretches as pure functions of the buffers they read: after a stretch, from any contents `V`
   of the buffers before it, each array the next kernel receives is a named stage of the computation — the layer's input
   `(1 + eps) * h + (sum of the in-neighbours' rows)`, the layer's slices of the weights, the column means and variances
   formed from the first kernel's sums, the four layers' outputs side by side, the graph means, the two end nodes' rows of
   every candidate edge. The stage functions are the ones the reference program's reading names. -/
import proofs.«118347_j18940805776024_1_alg».proof.Proof.Gen.KernelIdeal.Regions
import proofs.«118347_j18940805776024_1_alg».proof.Proof.Ref.Stages
import proofs.«118347_j18940805776024_1_alg».proof.Proof.KI.StagesK
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal.HandRun (preRef scalSlice srcIdx dstIdx matSlice vecSlice embRef gembRef efRef)
open Cert.KernelIdeal.StagesK (row muK varK)

variable {F : FTy → Type} [FloatOps F]
variable (V : Valuation τ sig (Elt F))

/-! ## Layer 0's stretch -/
theorem s0_src : StableHlo.after hostOps0 V main_v1 = srcIdx (V main_arg22) := by after_results_simp; rfl
theorem s0_dst : StableHlo.after hostOps0 V main_v3 = dstIdx (V main_arg22) := by after_results_simp; rfl
theorem s0_zin : StableHlo.after hostOps0 V main_v19
    = preRef (V main_arg0) (scalSlice ![0] Cert.ReferenceIdeal.Gen.slices_S4_S1_0 (V main_arg7)) (srcIdx (V main_arg22)) (dstIdx (V main_arg22)) := by
  after_results_simp; rfl
theorem s0_w1 : StableHlo.after hostOps0 V main_v21 = matSlice ![0, 0, 0] Cert.ReferenceIdeal.Gen.slices_S4x128x128_S1x128x128_0_0_0 (V main_arg1) := by after_results_simp; rfl
theorem s0_b1 : StableHlo.after hostOps0 V main_v28 = row (vecSlice ![0, 0] Cert.ReferenceIdeal.Gen.slices_S4x128_S1x128_0_0 (V main_arg2)) := by after_results_simp; rfl
theorem s0_w2 : StableHlo.after hostOps0 V main_v25 = matSlice ![0, 0, 0] Cert.ReferenceIdeal.Gen.slices_S4x128x128_S1x128x128_0_0_0 (V main_arg3) := by after_results_simp; rfl
theorem s0_b2 : StableHlo.after hostOps0 V main_v29 = row (vecSlice ![0, 0] Cert.ReferenceIdeal.Gen.slices_S4x128_S1x128_0_0 (V main_arg4)) := by after_results_simp; rfl
/-! the statistics stretch after layer 0's first kernel -/
theorem s1_mu : StableHlo.after hostOps1 V main_v43 = row (muK (V main_v30_1)) := by after_results_simp; rfl
theorem s1_var : StableHlo.after hostOps1 V main_v44 = row (varK (V main_v30_1) (V main_v30_2)) := by after_results_simp; rfl
theorem s1_g : StableHlo.after hostOps1 V main_v45 = row (vecSlice ![0, 0] Cert.ReferenceIdeal.Gen.slices_S4x128_S1x128_0_0 (V main_arg5)) := by after_results_simp; rfl
theorem s1_be : StableHlo.after hostOps1 V main_v46 = row (vecSlice ![0, 0] Cert.ReferenceIdeal.Gen.slices_S4x128_S1x128_0_0 (V main_arg6)) := by after_results_simp; rfl

/-! ## Layer 1's stretch -/
theorem s2_zin : StableHlo.after hostOps2 V main_v63
    = preRef (V main_v47) (scalSlice ![1] Cert.ReferenceIdeal.Gen.slices_S4_S1_1 (V main_arg7)) (V main_v1) (V main_v3) := by
  after_results_simp; rfl
theorem s2_w1 : StableHlo.after hostOps2 V main_v65 = matSlice ![1, 0, 0] Cert.ReferenceIdeal.Gen.slices_S4x128x128_S1x128x128_1_0_0 (V main_arg1) := by after_results_simp; rfl
theorem s2_b1 : StableHlo.after hostOps2 V main_v72 = row (vecSlice ![1, 0] Cert.ReferenceIdeal.Gen.slices_S4x128_S1x128_1_0 (V main_arg2)) := by after_results_simp; rfl
theorem s2_w2 : StableHlo.after hostOps2 V main_v69 = matSlice ![1, 0, 0] Cert.ReferenceIdeal.Gen.slices_S4x128x128_S1x128x128_1_0_0 (V main_arg3) := by after_results_simp; rfl
theorem s2_b2 : StableHlo.after hostOps2 V main_v73 = row (vecSlice ![1, 0] Cert.ReferenceIdeal.Gen.slices_S4x128_S1x128_1_0 (V main_arg4)) := by after_results_simp; rfl
/-! the statistics stretch after layer 1's first kernel -/
theorem s3_mu : StableHlo.after hostOps3 V main_v87 = row (muK (V main_v74_1)) := by after_results_simp; rfl
theorem s3_var : StableHlo.after hostOps3 V main_v88 = row (varK (V main_v74_1) (V main_v74_2)) := by after_results_simp; rfl
theorem s3_g : StableHlo.after hostOps3 V main_v89 = row (vecSlice ![1, 0] Cert.ReferenceIdeal.Gen.slices_S4x128_S1x128_1_0 (V main_arg5)) := by after_results_simp; rfl
theorem s3_be : StableHlo.after hostOps3 V main_v90 = row (vecSlice ![1, 0] Cert.ReferenceIdeal.Gen.slices_S4x128_S1x128_1_0 (V main_arg6)) := by after_results_simp; rfl

/-! ## Layer 2's stretch -/
theorem s4_zin : StableHlo.after hostOps4 V main_v107
    = preRef (V main_v91) (scalSlice ![2] Cert.ReferenceIdeal.Gen.slices_S4_S1_2 (V main_arg7)) (V main_v1) (V main_v3) := by
  after_results_simp; rfl
theorem s4_w1 : StableHlo.after hostOps4 V main_v109 = matSlice ![2, 0, 0] Cert.ReferenceIdeal.Gen.slices_S4x128x128_S1x128x128_2_0_0 (V main_arg1) := by after_results_simp; rfl
theorem s4_b1 : StableHlo.after hostOps4 V main_v116 = row (vecSlice ![2, 0] Cert.ReferenceIdeal.Gen.slices_S4x128_S1x128_2_0 (V main_arg2)) := by after_results_simp; rfl
theorem s4_w2 : StableHlo.after hostOps4 V main_v113 = matSlice ![2, 0, 0] Cert.ReferenceIdeal.Gen.slices_S4x128x128_S1x128x128_2_0_0 (V main_arg3) := by after_results_simp; rfl
theorem s4_b2 : StableHlo.after hostOps4 V main_v117 = row (vecSlice ![2, 0] Cert.ReferenceIdeal.Gen.slices_S4x128_S1x128_2_0 (V main_arg4)) := by after_results_simp; rfl
/-! the statistics stretch after layer 2's first kernel -/
theorem s5_mu : StableHlo.after hostOps5 V main_v131 = row (muK (V main_v118_1)) := by after_results_simp; rfl
theorem s5_var : StableHlo.after hostOps5 V main_v132 = row (varK (V main_v118_1) (V main_v118_2)) := by after_results_simp; rfl
theorem s5_g : StableHlo.after hostOps5 V main_v133 = row (vecSlice ![2, 0] Cert.ReferenceIdeal.Gen.slices_S4x128_S1x128_2_0 (V main_arg5)) := by after_results_simp; rfl
theorem s5_be : StableHlo.after hostOps5 V main_v134 = row (vecSlice ![2, 0] Cert.ReferenceIdeal.Gen.slices_S4x128_S1x128_2_0 (V main_arg6)) := by after_results_simp; rfl

/-! ## Layer 3's stretch -/
theorem s6_zin : StableHlo.after hostOps6 V main_v151
    = preRef (V main_v135) (scalSlice ![3] Cert.ReferenceIdeal.Gen.slices_S4_S1_3 (V main_arg7)) (V main_v1) (V main_v3) := by
  after_results_simp; rfl
theorem s6_w1 : StableHlo.after hostOps6 V main_v153 = matSlice ![3, 0, 0] Cert.ReferenceIdeal.Gen.slices_S4x128x128_S1x128x128_3_0_0 (V main_arg1) := by after_results_simp; rfl
theorem s6_b1 : StableHlo.after hostOps6 V main_v160 = row (vecSlice ![3, 0] Cert.ReferenceIdeal.Gen.slices_S4x128_S1x128_3_0 (V main_arg2)) := by after_results_simp; rfl
theorem s6_w2 : StableHlo.after hostOps6 V main_v157 = matSlice ![3, 0, 0] Cert.ReferenceIdeal.Gen.slices_S4x128x128_S1x128x128_3_0_0 (V main_arg3) := by after_results_simp; rfl
theorem s6_b2 : StableHlo.after hostOps6 V main_v161 = row (vecSlice ![3, 0] Cert.ReferenceIdeal.Gen.slices_S4x128_S1x128_3_0 (V main_arg4)) := by after_results_simp; rfl
/-! the statistics stretch after layer 3's first kernel -/
theorem s7_mu : StableHlo.after hostOps7 V main_v175 = row (muK (V main_v162_1)) := by after_results_simp; rfl
theorem s7_var : StableHlo.after hostOps7 V main_v176 = row (varK (V main_v162_1) (V main_v162_2)) := by after_results_simp; rfl
theorem s7_g : StableHlo.after hostOps7 V main_v177 = row (vecSlice ![3, 0] Cert.ReferenceIdeal.Gen.slices_S4x128_S1x128_3_0 (V main_arg5)) := by after_results_simp; rfl
theorem s7_be : StableHlo.after hostOps7 V main_v178 = row (vecSlice ![3, 0] Cert.ReferenceIdeal.Gen.slices_S4x128_S1x128_3_0 (V main_arg6)) := by after_results_simp; rfl

/-! ## The stretch before the classifier kernel -/
theorem s8_emb : StableHlo.after hostOps8 V main_v180 = embRef (V main_v47) (V main_v91) (V main_v135) (V main_v179) := by after_results_simp; rfl
theorem s8_gemb : StableHlo.after hostOps8 V main_v191 = gembRef (embRef (V main_v47) (V main_v91) (V main_v135) (V main_v179)) (V main_arg23) := by
  after_results_simp; rfl
theorem s8_b1 : StableHlo.after hostOps8 V main_v192 = shapeCast S1x256 (V main_arg9) shapeCasts_S256_S1x256 := by after_results_simp; rfl
theorem s8_b2 : StableHlo.after hostOps8 V main_v193 = row (V main_arg11) := by after_results_simp; rfl
theorem s8_b3 : StableHlo.after hostOps8 V main_v194 = row (V main_arg13) := by after_results_simp; rfl
theorem s8_b4 : StableHlo.after hostOps8 V main_v195 = shapeCast S1x16 (V main_arg15) shapeCasts_S16_S1x16 := by after_results_simp; rfl

/-! ## The stretch before the edge kernel, and the last reshape -/
theorem s9_ef : StableHlo.after hostOps9 V main_v215 = efRef (V main_v180) (V main_arg24) := by after_results_simp; rfl
theorem s9_b1 : StableHlo.after hostOps9 V main_v216 = shapeCast S1x256 (V main_arg17) shapeCasts_S256_S1x256 := by after_results_simp; rfl
theorem s9_b2 : StableHlo.after hostOps9 V main_v217 = row (V main_arg19) := by after_results_simp; rfl
theorem s9_b3 : StableHlo.after hostOps9 V main_v218 = shapeCast S1x1 (V main_arg21) shapeCasts_S1_S1x1 := by after_results_simp; rfl
theorem s10_out : StableHlo.after hostOps10 V main_v220 = shapeCast S100000 (V main_v219) shapeCasts_S100000x1_S100000 := by after_results_simp; rfl

end Cert.KernelIdeal.Stretch

end
-- ==== Proof.LibPlainMatmul.lean ====
/-
  Two readings at one entry, over the extended reals, for any extents and element formats.

  The product of an `[M, K]` array by a `[K, N]` array, accumulated into a block of zeros, is at entry `(p, q)` the sum
  over the contracted axis `k` of `lhs (p, k) * rhs (k, q)`: at a position `k` of the contracted axis the left operand is
  read at `(p, k)` and the right one at `(k, q)`, and the zero accumulator adds nothing.

  The sum along the second axis of an `[a, b]` array, from the neutral initial value, is at row `p` the sum over the
  columns `k` of the entry `(p, k)`.
-/
import Idealize.ShloMosaic.Lib.ValueIdx
import Idealize.ShloMosaic.PureOps.Ideal.Laws

noncomputable section

namespace LibPlainMatmul

open Idealize.ShloMosaic Idealize.ShloMosaic.ValueIdx
open scoped BigOperators

/-! ## A plain matrix product into a zero accumulator, read at an index -/

section Plain
variable {M K N : Nat}

/-- On its rows the left operand is read at the output's row. -/
theorem plain_lhs_0 (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- On its columns the left operand is read at the position on the contracted axis. -/
theorem plain_lhs_1 (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- On its rows the right operand is read at the position on the contracted axis. -/
theorem plain_rhs_0 (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- On its columns the right operand is read at the output's column. -/
theorem plain_rhs_1 (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` matrix product accumulated into zeros is, at `(p, q)`, the sum over the contracted axis of the
    operands' products. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

end Plain

/-! ## A sum along the rows of a matrix, read at a row -/

/-- The sum over the second axis of an `[a, b]` array is, at row `p`, the sum over the columns `k` of the entry `(p, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c
  refine Fin.ext ?_
  match c with
  | ⟨0, _⟩ => rfl
  | ⟨1, _⟩ => rfl

end LibPlainMatmul
-- ==== Proof.KI.ValLib.lean ====
/- Small general facts for reading the perceptron kernels' values at the extended reals: whole-buffer loads and stores,
   the plain contraction, the zero word, a sum down the rows. -/
import proofs.«118347_j18940805776024_1_alg».proof.Proof.Gen.KernelIdeal
import proofs.«118347_j18940805776024_1_alg».proof.Proof.LibPlainMatmul
import Idealize.ShloMosaic.Lib.ValueLayout
import Idealize.ShloMosaic.Lib.Pipeline.Value

noncomputable section

namespace Cert.KernelIdeal

open Idealize.ShloMosaic Idealize.ShloMosaic.ValueIdx
open scoped BigOperators

theorem hz2 : (![0, 0] : Fin 2 → Nat) = fun _ => 0 := funext fun a => by fin_cases a <;> rfl

/-- A load of the whole buffer after a store of the whole buffer reads that store's payload, whatever was stored before. -/
theorem readCov_cons_unit_zero {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The printed contraction is the plain [M,K]×[K,N] one. -/
theorem dot_plain_5000 : dot_S5000x128_S128x128_S5000x128_1_0_0_1_n_n = DotDims.plain 5000 128 128 := rfl

/-- The zero word is the real zero. -/
theorem ofBits_zero : (FloatOps.ofBits (F := Ideal) .f32 0x00000000#32 : EReal) = 0 := Ideal.ofBits_zero_f32

/-- A sum down the rows of an [a,b] array is, at column q, the sum over the rows of the entry (k,q). -/
theorem colReduce_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction (F := Ideal) .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src ?_
  funext c
  refine Fin.ext ?_
  match c with
  | ⟨0, _⟩ => rfl
  | ⟨1, _⟩ => rfl

end Cert.KernelIdeal

end
-- ==== Proof.KI.Val0.Pieces.lean ====
/- Region 0: what each control case leaves in the outputs' buffers and in the accumulators, as the body's payloads of
   the loaded blocks. -/
import proofs.«118347_j18940805776024_1_alg».proof.Proof.KI.Reg0
import proofs.«118347_j18940805776024_1_alg».proof.Proof.KI.ValLib

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first point -/

theorem out0_A_5_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) :
    out0_A_5 c i arg1 harg1 arg2 harg2 arg3 harg3 arg4 harg4 arg5 harg5 arg6 harg6 arg7 harg7 arg8 harg8 arg9 harg9 arg10 harg10 hc0 x0 x1 x2 x3 x4 = k0_pay5 x0 x1 x2 x3 x4 := by
  unfold out0_A_5 kernelRun0_A; dsimp only
  rw [View.canon_unit_zero hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem sout0_A_0_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) :
    sout0_A_0 c i arg1 harg1 arg2 harg2 arg3 harg3 arg4 harg4 arg5 harg5 arg6 harg6 arg7 harg7 arg8 harg8 arg9 harg9 arg10 harg10 hc0 x0 x1 x2 x3 x4 = k0_pay1 (k0_pay6 x0 x1 x2 x3 x4 k0_pay3) := by
  unfold sout0_A_0 kernelRun0_A; dsimp only; sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem sout0_A_1_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) :
    sout0_A_1 c i arg1 harg1 arg2 harg2 arg3 harg3 arg4 harg4 arg5 harg5 arg6 harg6 arg7 harg7 arg8 harg8 arg9 harg9 arg10 harg10 hc0 x0 x1 x2 x3 x4 = k0_pay2 (k0_pay5 x0 x1 x2 x3 x4) k0_pay4 := by
  unfold sout0_A_1 kernelRun0_A; dsimp only; sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem out0_A_6_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) :
    out0_A_6 c i arg1 harg1 arg2 harg2 arg3 harg3 arg4 harg4 arg5 harg5 arg6 harg6 arg7 harg7 arg8 harg8 arg9 harg9 arg10 harg10 hc0 x0 x1 x2 x3 x4 = k0_pay1 (k0_pay6 x0 x1 x2 x3 x4 k0_pay3) := by
  unfold out0_A_6 kernelRun0_A; dsimp only; sl_unfold_words
  rw [View.canon_unit_zero hz2, readCov_cons_unit_zero _ hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem out0_A_7_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x128 .f32) (x1 : Vec F S128x128 .f32) (x2 : Vec F S1x128 .f32) (x3 : Vec F S128x128 .f32) (x4 : Vec F S1x128 .f32) :
    out0_A_7 c i arg1 harg1 arg2 harg2 arg3 harg3 arg4 harg4 arg5 harg5 arg6 harg6 arg7 harg7 arg8 harg8 arg9 harg9 arg10 harg10 hc0 x0 x1 x2 x3 x4 = k0_pay2 (k0_pay5 x0 x1 x2 x3 x4) k0_pay4 := by
  unfold out0_A_7 kernelRun0_A; dsimp only; sl_unfold_words
  rw [View.canon_unit_zero hz2, readCov_cons_unit_zero _ hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

/-! ## Every later point -/

theorem out0_B_5_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    out0_B_5 c i arg1 harg1 arg2 harg2 arg3 harg3 arg4 harg4 arg5 harg5 arg6 harg6 arg7 harg7 arg8 harg8 arg9 harg9 arg10 harg10 hc0 x0 x1 x2 x3 x4 xs0 xs1 = k0_pay5 x0 x1 x2 x3 x4 := by
  unfold out0_B_5 kernelRun0_B; dsimp only
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem sout0_B_0_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    sout0_B_0 c i arg1 harg1 arg2 harg2 arg3 harg3 arg4 harg4 arg5 harg5 arg6 harg6 arg7 harg7 arg8 harg8 arg9 harg9 arg10 harg10 hc0 x0 x1 x2 x3 x4 xs0 xs1 = k0_pay1 (k0_pay6 x0 x1 x2 x3 x4 xs0) := by
  unfold sout0_B_0 kernelRun0_B; dsimp only; sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem sout0_B_1_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    sout0_B_1 c i arg1 harg1 arg2 harg2 arg3 harg3 arg4 harg4 arg5 harg5 arg6 harg6 arg7 harg7 arg8 harg8 arg9 harg9 arg10 harg10 hc0 x0 x1 x2 x3 x4 xs0 xs1 = k0_pay2 (k0_pay5 x0 x1 x2 x3 x4) xs1 := by
  unfold sout0_B_1 kernelRun0_B; dsimp only; sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem out0_B_6_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    out0_B_6 c i arg1 harg1 arg2 harg2 arg3 harg3 arg4 harg4 arg5 harg5 arg6 harg6 arg7 harg7 arg8 harg8 arg9 harg9 arg10 harg10 hc0 x0 x1 x2 x3 x4 xs0 xs1 = k0_pay1 (k0_pay6 x0 x1 x2 x3 x4 xs0) := by
  unfold out0_B_6 kernelRun0_B; dsimp only; sl_unfold_words
  rw [View.canon_unit_zero hz2, View.readCov_unit_zero (S := S1x128) _ hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem out0_B_7_eq (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    out0_B_7 c i arg1 harg1 arg2 harg2 arg3 harg3 arg4 harg4 arg5 harg5 arg6 harg6 arg7 harg7 arg8 harg8 arg9 harg9 arg10 harg10 hc0 x0 x1 x2 x3 x4 xs0 xs1 = k0_pay2 (k0_pay5 x0 x1 x2 x3 x4) xs1 := by
  unfold out0_B_7 kernelRun0_B; dsimp only; sl_unfold_words
  rw [View.canon_unit_zero hz2, View.readCov_unit_zero (S := S1x128) _ hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

end Cert.KernelIdeal

end
-- ==== Proof.KI.SpecB.lean ====
/-
  The two-layer perceptron with its column statistics, entry by entry, over the extended reals.

  For an [n,128] input x, weights W1, W2 of [128,128] and biases b1, b2 of [1,128]:
    hidden(r,k) = max(Σ_j x(r,j)·W1(j,k) + b1(0,k), 0)
    z(r,q)      = max(Σ_k hidden(r,k)·W2(k,q) + b2(0,q), 0)
  and, for any [n,128] array z, its column sums Σ_r z(r,q) and column sums of squares Σ_r z(r,q)·z(r,q), as [1,128] arrays.
-/
import Idealize.ShloMosaic.Lib.ValueIdx
import Idealize.ShloMosaic.PureOps.Ideal.Laws

noncomputable section

namespace Cert.SpecB

open Idealize.ShloMosaic Idealize.ShloMosaic.ValueIdx
open scoped BigOperators

/-- An [a,b] array of extended reals. -/
abbrev Arr (a b : ℕ) : Type := (⟨2, ![a, b]⟩ : Shape).Idx → EReal

variable {n : ℕ}

/-- The first layer at row `r`, hidden unit `k`. -/
def hidAt (x : Arr n 128) (w1 : Arr 128 128) (b1 : Arr 1 128) (r : Fin n) (k : Fin 128) : EReal :=
  max ((∑ j : Fin 128, x (ix2 r j) * w1 (ix2 j k)) + b1 (ix2 (0 : Fin 1) k)) 0

/-- The perceptron at row `r`, column `q`. -/
def mlpAt (x : Arr n 128) (w1 : Arr 128 128) (b1 : Arr 1 128) (w2 : Arr 128 128) (b2 : Arr 1 128) (r : Fin n) (q : Fin 128) : EReal :=
  max ((∑ k : Fin 128, hidAt x w1 b1 r k * w2 (ix2 k q)) + b2 (ix2 (0 : Fin 1) q)) 0

/-- The perceptron's output as an [n,128] array. -/
def mlpZ (x : Arr n 128) (w1 : Arr 128 128) (b1 : Arr 1 128) (w2 : Arr 128 128) (b2 : Arr 1 128) : Arr n 128 :=
  fun y => mlpAt x w1 b1 w2 b2 (y 0) (y 1)

theorem mlpZ_apply (x : Arr n 128) (w1 : Arr 128 128) (b1 : Arr 1 128) (w2 : Arr 128 128) (b2 : Arr 1 128) (r : Fin n) (q : Fin 128) :
    mlpZ x w1 b1 w2 b2 (ix2 r q) = mlpAt x w1 b1 w2 b2 r q := rfl

/-- The column sums of an [n,128] array, as a [1,128] array. -/
def colSum (z : Arr n 128) : Arr 1 128 := fun y => ∑ r : Fin n, z (ix2 r (y 1))

/-- The column sums of squares of an [n,128] array, as a [1,128] array. -/
def colSumSq (z : Arr n 128) : Arr 1 128 := fun y => ∑ r : Fin n, z (ix2 r (y 1)) * z (ix2 r (y 1))

theorem colSum_apply (z : Arr n 128) (q : Fin 128) : colSum z (ix2 (0 : Fin 1) q) = ∑ r : Fin n, z (ix2 r q) := rfl
theorem colSumSq_apply (z : Arr n 128) (q : Fin 128) : colSumSq z (ix2 (0 : Fin 1) q) = ∑ r : Fin n, z (ix2 r q) * z (ix2 r q) := rfl

end Cert.SpecB

end
-- ==== Proof.KI.Val0.Pay.lean ====
/- Region 0's stored values read entry by entry at the extended reals: the perceptron's block, and what one grid point
   adds to each of the two running column sums. -/
import proofs.«118347_j18940805776024_1_alg».proof.Proof.Gen.KernelIdeal.Skeleton
import proofs.«118347_j18940805776024_1_alg».proof.Proof.KI.SpecB
import proofs.«118347_j18940805776024_1_alg».proof.Proof.KI.ValLib

set_option maxRecDepth 16384

noncomputable section

namespace Cert.KernelIdeal

open Cert.KernelIdeal.Gen
open Idealize.ShloMosaic Idealize.ShloMosaic.TcCoe Idealize.ShloMosaic.ValueIdx
open Idealize.SL.Sem
open Idealize.ShloMosaic.Pipeline (Dat)
open Cert.SpecB
open scoped BigOperators

section Pay
variable (x0 : Vec Ideal S5000x128 .f32) (x1 : Vec Ideal S128x128 .f32) (x2 : Vec Ideal S1x128 .f32) (x3 : Vec Ideal S128x128 .f32) (x4 : Vec Ideal S1x128 .f32)

/-- The block the body stores is the perceptron of the blocks it loads, entry by entry. -/
theorem pay0_5_apply (r : Fin 5000) (q : Fin 128) :
    k0_pay5 (F := Ideal) x0 x1 x2 x3 x4 (ix2 r q) = mlpAt x0 x1 x2 x3 x4 r q := by
  unfold k0_pay5
  simp only [shapeCast_self]
  rw [dot_plain_5000]
  simp only [maximumf_apply, addf_apply, broadcast_apply, truncf_apply, LibPlainMatmul.matmul_plain_zero_apply, broadcastTo_1b_ab_apply]
  simp only [ofBits_zero]
  rfl

/-- The accumulator's store is of the value as it is. -/
theorem pay0_1_apply (v : FVec Ideal S1x128 .f32) (y : S1x128.Idx) : k0_pay1 (F := Ideal) v y = v y := by
  unfold k0_pay1
  simp only [shapeCast_self]

/-- The zero fills read zero. -/
theorem pay0_3_apply (y : S1x128.Idx) : k0_pay3 (F := Ideal) y = 0 := by
  unfold k0_pay3
  simp only [shapeCast_self]
  exact ofBits_zero
theorem pay0_4_apply (y : S1x128.Idx) : k0_pay4 (F := Ideal) y = 0 := by
  unfold k0_pay4
  simp only [shapeCast_self]
  exact ofBits_zero

/-- One point adds to the running column sum the column sums of its block. -/
theorem pay0_6_apply (v28 : Vec Ideal S1x128 .f32) (q : Fin 128) :
    k0_pay6 (F := Ideal) x0 x1 x2 x3 x4 v28 (ix2 (0 : Fin 1) q)
      = v28 (ix2 (0 : Fin 1) q) + ∑ a : Fin 5000, k0_pay5 (F := Ideal) x0 x1 x2 x3 x4 (ix2 a q) := by
  unfold k0_pay6
  refine (addf_apply _ _ _).trans ?_
  refine congrArg (v28 (ix2 (0 : Fin 1) q) + ·) ?_
  refine (shapeCast_a_1a_apply _ _ (0 : Fin 1) q).trans ?_
  exact colReduce_apply _ _ _ _ _ q

/-- One point adds to the running column sum of squares the column sums of its block's squares. -/
theorem pay0_2_apply (z : FVec Ideal S5000x128 .f32) (v35 : Vec Ideal S1x128 .f32) (q : Fin 128) :
    k0_pay2 (F := Ideal) z v35 (ix2 (0 : Fin 1) q)
      = v35 (ix2 (0 : Fin 1) q) + ∑ a : Fin 5000, z (ix2 a q) * z (ix2 a q) := by
  unfold k0_pay2
  simp only [shapeCast_self]
  refine (addf_apply _ _ _).trans ?_
  refine congrArg (v35 (ix2 (0 : Fin 1) q) + ·) ?_
  refine (shapeCast_a_1a_apply _ _ (0 : Fin 1) q).trans ?_
  refine (colReduce_apply _ _ _ _ _ q).trans ?_
  rfl

end Pay

end Cert.KernelIdeal

end
-- ==== Proof.LibBlockSum.lean ====
/-
  A sum over n·b consecutive indices taken block by block.

  If a sequence starts at zero and its k-th step adds the sum of the k-th block of b consecutive terms,
  then after n steps it holds the sum of all n·b terms.  Stated over any commutative additive monoid
  (the extended reals with their addition are one), so no finiteness is needed.
-/
import Mathlib.Algebra.BigOperators.Fin
import Mathlib.Algebra.BigOperators.Group.Finset.Basic

namespace Cert.Lib

/-- The a-th term of block k lies among the first n·b terms. -/
theorem blk_lt {n b k a : ℕ} (hk : k < n) (ha : a < b) : b * k + a < n * b :=
  calc b * k + a < b * k + b := by omega
    _ = b * (k + 1) := (Nat.mul_succ b k).symm
    _ ≤ b * n := Nat.mul_le_mul_left b hk
    _ = n * b := Nat.mul_comm b n

/-- Block-by-block accumulation is the whole sum: `s 0 = 0` and `s (k+1) = s k + Σ_{a<b} f (b·k + a)` for `k < n`
    give `s n = Σ_{i<N} f i` when `N = n·b`. -/
theorem sum_by_blocks {M : Type*} [AddCommMonoid M] {n b N : ℕ} (hN : n * b = N) (f : Fin N → M) (s : ℕ → M)
    (h0 : s 0 = 0)
    (hs : ∀ k (hk : k < n), s (k + 1) = s k + ∑ a : Fin b, f ⟨b * k + a, hN ▸ blk_lt hk a.isLt⟩) :
    s n = ∑ i : Fin N, f i := by
  subst hN
  -- the terms as a function on the naturals, zero past the end
  let g : ℕ → M := fun i => if h : i < n * b then f ⟨i, h⟩ else 0
  have key : ∀ k, k ≤ n → s k = ∑ i ∈ Finset.range (b * k), g i := by
    intro k
    induction k with
    | zero => intro _; simpa using h0
    | succ k ih =>
      intro hk
      have hk' : k < n := hk
      rw [hs k hk', ih (Nat.le_of_lt hk'), Nat.mul_succ, Finset.sum_range_add, Finset.sum_range (fun a => g (b * k + a))]
      refine congrArg (_ + ·) (Finset.sum_congr rfl fun a _ => ?_)
      show f ⟨b * k + a, _⟩ = g (b * k + a)
      simp only [g]
      rw [dif_pos (blk_lt hk' a.isLt)]
  rw [key n le_rfl, Nat.mul_comm b n, Finset.sum_range]
  refine Finset.sum_congr rfl fun i _ => ?_
  simp only [g]
  rw [dif_pos i.isLt]

end Cert.Lib
-- ==== Proof.KI.Val0.lean ====
/- Region 0 at the extended reals: after the region its three output arrays are the perceptron of the entry arrays,
   its column sums and its column sums of squares — the two accumulators carried over the twenty grid points are one sum
   over all 100000 rows. -/
import proofs.«118347_j18940805776024_1_alg».proof.Proof.KI.Val0.Pieces
import proofs.«118347_j18940805776024_1_alg».proof.Proof.KI.Val0.Pay
import proofs.«118347_j18940805776024_1_alg».proof.Proof.LibBlockSum

set_option maxRecDepth 16384

noncomputable section

namespace Cert.KernelIdeal

open Cert.KernelIdeal.Gen
open Idealize.ShloMosaic Idealize.ShloMosaic.TcCoe Idealize.ShloMosaic.ValueIdx
open Idealize.SL.Sem
open Idealize.ShloMosaic.Pipeline (Dat)
open Cert.SpecB
open scoped BigOperators

section Values
variable (V : (c : Dev nD) → (b : Ref sig .tc) → Buf (Elt Ideal) ((c : Thread nD τ).loc b))

/-- The perceptron of the arrays the region is entered with. -/
abbrev Z0 (c : Dev nD) : Arr 100000 128 :=
  mlpZ (V c (Pipeline.arrRef spec0 0)) (V c (Pipeline.arrRef spec0 1)) (V c (Pipeline.arrRef spec0 2)) (V c (Pipeline.arrRef spec0 3)) (V c (Pipeline.arrRef spec0 4))

/-! ## The windows' blocks in the arrays -/

/-- The block index of every window at every point: the row windows move with the point, the others stay at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The grid has a last point, the twentieth. -/
theorem last_point0 : ∃ t : Fin cfg0.N, t.val = 19 := (by decide +kernel : ∃ t : Fin grid0.N, t.val = 19)

/-- Row `a` of the input's block at point `t` is row `5000·t + a` of the input. -/
theorem iblk0_0_apply (c : Dev nD) (t : Fin cfg0.N) (a : Fin 5000) (j : Fin 128) (h : 5000 * t.val + a.val < 100000) :
    (iblk0 V c 0 t : Vec Ideal S5000x128 .f32) (ix2 a j) = (V c (Pipeline.arrRef spec0 0) : Arr 100000 128) (ix2 ⟨5000 * t.val + a.val, h⟩ j) := by
  obtain ⟨e00, e01, -⟩ := idx_facts0 t
  unfold iblk0
  show (V c (Pipeline.arrRef spec0 0) : Arr 100000 128) (((cfg0.win 0).blk t).view.emb (ix2 a j)) = _
  refine congrArg (V c (Pipeline.arrRef spec0 0) : Arr 100000 128) ?_
  funext ax
  apply Fin.ext
  match ax with
  | ⟨0, _⟩ => show win0_0.index t (0 : Fin 2) * 5000 + 1 * a.val = 5000 * t.val + a.val; omega
  | ⟨1, _⟩ => show win0_0.index t (1 : Fin 2) * 128 + 1 * j.val = j.val; omega

/-- Window 1's block is its whole array at every point. -/
theorem iblk0_1_eq (c : Dev nD) (t : Fin cfg0.N) :
    (iblk0 V c 1 t : Vec Ideal S128x128 .f32) = (V c (Pipeline.arrRef spec0 1) : Arr 128 128) := by
  obtain ⟨e00, e01, e10, e11, e20, e21, e30, e31, e40, e41, -⟩ := idx_facts0 t
  funext y
  unfold iblk0
  show (V c (Pipeline.arrRef spec0 1) : Arr 128 128) (((cfg0.win 1).blk t).view.emb y) = _
  refine congrArg (V c (Pipeline.arrRef spec0 1) : Arr 128 128) ?_
  funext ax
  apply Fin.ext
  match ax with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2's block is its whole array at every point. -/
theorem iblk0_2_eq (c : Dev nD) (t : Fin cfg0.N) :
    (iblk0 V c 2 t : Vec Ideal S1x128 .f32) = (V c (Pipeline.arrRef spec0 2) : Arr 1 128) := by
  obtain ⟨e00, e01, e10, e11, e20, e21, e30, e31, e40, e41, -⟩ := idx_facts0 t
  funext y
  unfold iblk0
  show (V c (Pipeline.arrRef spec0 2) : Arr 1 128) (((cfg0.win 2).blk t).view.emb y) = _
  refine congrArg (V c (Pipeline.arrRef spec0 2) : Arr 1 128) ?_
  funext ax
  apply Fin.ext
  match ax with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3's block is its whole array at every point. -/
theorem iblk0_3_eq (c : Dev nD) (t : Fin cfg0.N) :
    (iblk0 V c 3 t : Vec Ideal S128x128 .f32) = (V c (Pipeline.arrRef spec0 3) : Arr 128 128) := by
  obtain ⟨e00, e01, e10, e11, e20, e21, e30, e31, e40, e41, -⟩ := idx_facts0 t
  funext y
  unfold iblk0
  show (V c (Pipeline.arrRef spec0 3) : Arr 128 128) (((cfg0.win 3).blk t).view.emb y) = _
  refine congrArg (V c (Pipeline.arrRef spec0 3) : Arr 128 128) ?_
  funext ax
  apply Fin.ext
  match ax with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block is its whole array at every point. -/
theorem iblk0_4_eq (c : Dev nD) (t : Fin cfg0.N) :
    (iblk0 V c 4 t : Vec Ideal S1x128 .f32) = (V c (Pipeline.arrRef spec0 4) : Arr 1 128) := by
  obtain ⟨e00, e01, e10, e11, e20, e21, e30, e31, e40, e41, -⟩ := idx_facts0 t
  funext y
  unfold iblk0
  show (V c (Pipeline.arrRef spec0 4) : Arr 1 128) (((cfg0.win 4).blk t).view.emb y) = _
  refine congrArg (V c (Pipeline.arrRef spec0 4) : Arr 1 128) ?_
  funext ax
  apply Fin.ext
  match ax with
  | ⟨0, _⟩ => show win0_4.index t (0 : Fin 2) * 1 + 1 * (y 0).val = (y 0).val; omega
  | ⟨1, _⟩ => show win0_4.index t (1 : Fin 2) * 128 + 1 * (y 1).val = (y 1).val; omega

/-- The block the body stores at point `t`. -/
def blkZ0 (c : Dev nD) (t : Fin cfg0.N) : Vec Ideal S5000x128 .f32 :=
  k0_pay5 (F := Ideal) (iblk0 V c 0 t) (iblk0 V c 1 t) (iblk0 V c 2 t) (iblk0 V c 3 t) (iblk0 V c 4 t)

/-- It is rows `5000·t … 5000·t + 4999` of the perceptron of the whole arrays. -/
theorem blkZ0_apply (c : Dev nD) (t : Fin cfg0.N) (a : Fin 5000) (q : Fin 128) (h : 5000 * t.val + a.val < 100000) :
    blkZ0 V c t (ix2 a q) = Z0 V c (ix2 ⟨5000 * t.val + a.val, h⟩ q) := by
  unfold blkZ0
  refine (pay0_5_apply (iblk0 V c 0 t) (iblk0 V c 1 t) (iblk0 V c 2 t) (iblk0 V c 3 t) (iblk0 V c 4 t) a q).trans ?_
  rw [iblk0_1_eq V c t, iblk0_2_eq V c t, iblk0_3_eq V c t, iblk0_4_eq V c t]
  have hx : ∀ j : Fin 128, (iblk0 V c 0 t : Vec Ideal S5000x128 .f32) (ix2 a j) = (V c (Pipeline.arrRef spec0 0) : Arr 100000 128) (ix2 ⟨5000 * t.val + a.val, h⟩ j) :=
    fun j => iblk0_0_apply V c t a j h
  show mlpAt _ _ _ _ _ a q = mlpAt _ _ _ _ _ ⟨5000 * t.val + a.val, h⟩ q
  unfold mlpAt hidAt
  simp only [hx]

/-! ## What every point leaves -/

/-- After the first point: the block, and both accumulators (and the windows that mirror them) started from zero. -/
theorem outsAt0_first (c : Dev nD) (t : Fin cfg0.N) (hz : t.val = 0) :
    outsAt0 V c t.val t.isLt
      = (blkZ0 V c t,
         k0_pay1 (F := Ideal) (k0_pay6 (F := Ideal) (iblk0 V c 0 t) (iblk0 V c 1 t) (iblk0 V c 2 t) (iblk0 V c 3 t) (iblk0 V c 4 t) (k0_pay3 (F := Ideal))),
         k0_pay2 (F := Ideal) (blkZ0 V c t) (k0_pay4 (F := Ideal)),
         k0_pay1 (F := Ideal) (k0_pay6 (F := Ideal) (iblk0 V c 0 t) (iblk0 V c 1 t) (iblk0 V c 2 t) (iblk0 V c 3 t) (iblk0 V c 4 t) (k0_pay3 (F := Ideal))),
         k0_pay2 (F := Ideal) (blkZ0 V c t) (k0_pay4 (F := Ideal))) := by
  rw [outsAt0_A V c t hz, out0_A_5_eq, out0_A_6_eq, out0_A_7_eq, sout0_A_0_eq, sout0_A_1_eq]
  rfl

/-- After a later point: the block, and both accumulators continued from what the point before left. -/
theorem outsAt0_later (c : Dev nD) (t : Fin cfg0.N) (hz : t.val ≠ 0) :
    outsAt0 V c t.val t.isLt
      = (blkZ0 V c t,
         k0_pay1 (F := Ideal) (k0_pay6 (F := Ideal) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1),
         k0_pay2 (F := Ideal) (blkZ0 V c t) (outsAt0 V c (t.val - 1) (Nat.lt_of_le_of_lt (Nat.sub_le _ _) t.isLt)).2.2.2.2,
         k0_pay1 (F := Ideal) (k0_pay6 (F := Ideal) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1),
         k0_pay2 (F := Ideal) (blkZ0 V c t) (outsAt0 V c (t.val - 1) (Nat.lt_of_le_of_lt (Nat.sub_le _ _) t.isLt)).2.2.2.2) := by
  rw [outsAt0_B V c t hz, out0_B_5_eq, out0_B_6_eq, out0_B_7_eq, sout0_B_0_eq, sout0_B_1_eq]
  rfl

/-- The block window's buffer holds the point's block after every point. -/
theorem outsAt0_blk (c : Dev nD) (t : Fin cfg0.N) : (outsAt0 V c t.val t.isLt).1 = blkZ0 V c t := by
  by_cases hz : t.val = 0
  · rw [outsAt0_first V c t hz]
  · rw [outsAt0_later V c t hz]

/-- The two statistics windows' buffers hold what the accumulators hold after every point. -/
theorem outsAt0_mirror (c : Dev nD) (t : Fin cfg0.N) :
    (outsAt0 V c t.val t.isLt).2.1 = (outsAt0 V c t.val t.isLt).2.2.2.1
      ∧ (outsAt0 V c t.val t.isLt).2.2.1 = (outsAt0 V c t.val t.isLt).2.2.2.2 := by
  by_cases hz : t.val = 0
  · rw [outsAt0_first V c t hz]; exact ⟨rfl, rfl⟩
  · rw [outsAt0_later V c t hz]; exact ⟨rfl, rfl⟩

/-! ## The accumulators over the grid: one sum over all rows -/

/-- The running column sum after position `k` points (zero before the first), at column `q`. -/
def accS0 (c : Dev nD) (q : Fin 128) : ℕ → EReal
  | 0 => 0
  | k + 1 => if h : k < cfg0.N then (outsAt0 V c k h).2.2.2.1 (ix2 (0 : Fin 1) q) else 0

/-- The running column sum of squares likewise. -/
def accQ0 (c : Dev nD) (q : Fin 128) : ℕ → EReal
  | 0 => 0
  | k + 1 => if h : k < cfg0.N then (outsAt0 V c k h).2.2.2.2 (ix2 (0 : Fin 1) q) else 0

/-- One point adds its block's column sums. -/
theorem accS0_step (c : Dev nD) (q : Fin 128) (k : ℕ) (hk : k < 20) :
    accS0 V c q (k + 1) = accS0 V c q k + ∑ a : Fin 5000, Z0 V c (ix2 ⟨5000 * k + a.val, (by have := a.isLt; omega)⟩ q) := by
  have hN : cfg0.N = 20 := N_0
  have hkN : k < cfg0.N := by omega
  have hsum : ∑ a : Fin 5000, blkZ0 V c ⟨k, hkN⟩ (ix2 a q) = ∑ a : Fin 5000, Z0 V c (ix2 ⟨5000 * k + a.val, (by have := a.isLt; omega)⟩ q) :=
    Finset.sum_congr rfl fun a _ => blkZ0_apply V c ⟨k, hkN⟩ a q (by have := a.isLt; omega)
  show (if h : k < cfg0.N then (outsAt0 V c k h).2.2.2.1 (ix2 (0 : Fin 1) q) else 0) = _
  rw [dif_pos hkN, ← hsum]
  cases k with
  | zero =>
    rw [show outsAt0 V c 0 hkN = outsAt0 V c (⟨0, hkN⟩ : Fin cfg0.N).val (⟨0, hkN⟩ : Fin cfg0.N).isLt from rfl, outsAt0_first V c ⟨0, hkN⟩ rfl]
    show k0_pay1 (F := Ideal) (k0_pay6 (F := Ideal) (iblk0 V c 0 ⟨0, hkN⟩) (iblk0 V c 1 ⟨0, hkN⟩) (iblk0 V c 2 ⟨0, hkN⟩) (iblk0 V c 3 ⟨0, hkN⟩) (iblk0 V c 4 ⟨0, hkN⟩) (k0_pay3 (F := Ideal))) (ix2 (0 : Fin 1) q) = accS0 V c q 0 + _
    refine (pay0_1_apply _ _).trans ?_
    refine (pay0_6_apply (iblk0 V c 0 ⟨0, hkN⟩) (iblk0 V c 1 ⟨0, hkN⟩) (iblk0 V c 2 ⟨0, hkN⟩) (iblk0 V c 3 ⟨0, hkN⟩) (iblk0 V c 4 ⟨0, hkN⟩) (k0_pay3 (F := Ideal)) q).trans ?_
    rw [pay0_3_apply]
    all_goals rfl
  | succ n =>
    rw [show outsAt0 V c (n + 1) hkN = outsAt0 V c (⟨n + 1, hkN⟩ : Fin cfg0.N).val (⟨n + 1, hkN⟩ : Fin cfg0.N).isLt from rfl,
      outsAt0_later V c ⟨n + 1, hkN⟩ (Nat.succ_ne_zero n)]
    show k0_pay1 (F := Ideal) (k0_pay6 (F := Ideal) (iblk0 V c 0 ⟨n + 1, hkN⟩) (iblk0 V c 1 ⟨n + 1, hkN⟩) (iblk0 V c 2 ⟨n + 1, hkN⟩) (iblk0 V c 3 ⟨n + 1, hkN⟩) (iblk0 V c 4 ⟨n + 1, hkN⟩) (outsAt0 V c n _).2.2.2.1) (ix2 (0 : Fin 1) q) = accS0 V c q (n + 1) + _
    refine (pay0_1_apply _ _).trans ?_
    refine (pay0_6_apply (iblk0 V c 0 ⟨n + 1, hkN⟩) (iblk0 V c 1 ⟨n + 1, hkN⟩) (iblk0 V c 2 ⟨n + 1, hkN⟩) (iblk0 V c 3 ⟨n + 1, hkN⟩) (iblk0 V c 4 ⟨n + 1, hkN⟩) _ q).trans ?_
    show _ = (if h : n < cfg0.N then (outsAt0 V c n h).2.2.2.1 (ix2 (0 : Fin 1) q) else 0) + _
    rw [dif_pos (Nat.lt_of_succ_lt hkN)]
    all_goals rfl

/-- One point adds its block's column sums of squares. -/
theorem accQ0_step (c : Dev nD) (q : Fin 128) (k : ℕ) (hk : k < 20) :
    accQ0 V c q (k + 1) = accQ0 V c q k + ∑ a : Fin 5000, Z0 V c (ix2 ⟨5000 * k + a.val, (by have := a.isLt; omega)⟩ q) * Z0 V c (ix2 ⟨5000 * k + a.val, (by have := a.isLt; omega)⟩ q) := by
  have hN : cfg0.N = 20 := N_0
  have hkN : k < cfg0.N := by omega
  have hsum : ∑ a : Fin 5000, blkZ0 V c ⟨k, hkN⟩ (ix2 a q) * blkZ0 V c ⟨k, hkN⟩ (ix2 a q) = ∑ a : Fin 5000, Z0 V c (ix2 ⟨5000 * k + a.val, (by have := a.isLt; omega)⟩ q) * Z0 V c (ix2 ⟨5000 * k + a.val, (by have := a.isLt; omega)⟩ q) :=
    Finset.sum_congr rfl fun a _ => by rw [blkZ0_apply V c ⟨k, hkN⟩ a q ((by have := a.isLt; omega))]
  show (if h : k < cfg0.N then (outsAt0 V c k h).2.2.2.2 (ix2 (0 : Fin 1) q) else 0) = _
  rw [dif_pos hkN, ← hsum]
  cases k with
  | zero =>
    rw [show outsAt0 V c 0 hkN = outsAt0 V c (⟨0, hkN⟩ : Fin cfg0.N).val (⟨0, hkN⟩ : Fin cfg0.N).isLt from rfl, outsAt0_first V c ⟨0, hkN⟩ rfl]
    show k0_pay2 (F := Ideal) (blkZ0 V c ⟨0, hkN⟩) (k0_pay4 (F := Ideal)) (ix2 (0 : Fin 1) q) = accQ0 V c q 0 + _
    refine (pay0_2_apply (blkZ0 V c ⟨0, hkN⟩) (k0_pay4 (F := Ideal)) q).trans ?_
    rw [pay0_4_apply]
    all_goals rfl
  | succ n =>
    rw [show outsAt0 V c (n + 1) hkN = outsAt0 V c (⟨n + 1, hkN⟩ : Fin cfg0.N).val (⟨n + 1, hkN⟩ : Fin cfg0.N).isLt from rfl,
      outsAt0_later V c ⟨n + 1, hkN⟩ (Nat.succ_ne_zero n)]
    show k0_pay2 (F := Ideal) (blkZ0 V c ⟨n + 1, hkN⟩) (outsAt0 V c n _).2.2.2.2 (ix2 (0 : Fin 1) q) = accQ0 V c q (n + 1) + _
    refine (pay0_2_apply (blkZ0 V c ⟨n + 1, hkN⟩) _ q).trans ?_
    show _ = (if h : n < cfg0.N then (outsAt0 V c n h).2.2.2.2 (ix2 (0 : Fin 1) q) else 0) + _
    rw [dif_pos (Nat.lt_of_succ_lt hkN)]
    all_goals rfl

/-- After all twenty points the running column sum is the sum over all 100000 rows. -/
theorem accS0_total (c : Dev nD) (q : Fin 128) : accS0 V c q 20 = ∑ r : Fin 100000, Z0 V c (ix2 r q) :=
  Cert.Lib.sum_by_blocks (n := 20) (b := 5000) (N := 100000) rfl (fun r : Fin 100000 => Z0 V c (ix2 r q)) (accS0 V c q) rfl
    (fun k hk => accS0_step V c q k hk)

/-- And the running column sum of squares the sum of the squares. -/
theorem accQ0_total (c : Dev nD) (q : Fin 128) : accQ0 V c q 20 = ∑ r : Fin 100000, Z0 V c (ix2 r q) * Z0 V c (ix2 r q) :=
  Cert.Lib.sum_by_blocks (n := 20) (b := 5000) (N := 100000) rfl (fun r : Fin 100000 => Z0 V c (ix2 r q) * Z0 V c (ix2 r q)) (accQ0 V c q) rfl
    (fun k hk => accQ0_step V c q k hk)

/-- What the column-sum accumulator holds after the last point. -/
theorem accS0_last (c : Dev nD) (q : Fin 128) (t : Fin cfg0.N) (ht : t.val = 19) :
    (outsAt0 V c t.val t.isLt).2.2.2.1 (ix2 (0 : Fin 1) q) = ∑ r : Fin 100000, Z0 V c (ix2 r q) := by
  have h1 : accS0 V c q (t.val + 1) = (outsAt0 V c t.val t.isLt).2.2.2.1 (ix2 (0 : Fin 1) q) := by
    show (if h : t.val < cfg0.N then (outsAt0 V c t.val h).2.2.2.1 (ix2 (0 : Fin 1) q) else 0) = _
    rw [dif_pos t.isLt]
  rw [← h1, show t.val + 1 = 20 from by omega]
  exact accS0_total V c q

theorem accQ0_last (c : Dev nD) (q : Fin 128) (t : Fin cfg0.N) (ht : t.val = 19) :
    (outsAt0 V c t.val t.isLt).2.2.2.2 (ix2 (0 : Fin 1) q) = ∑ r : Fin 100000, Z0 V c (ix2 r q) * Z0 V c (ix2 r q) := by
  have h1 : accQ0 V c q (t.val + 1) = (outsAt0 V c t.val t.isLt).2.2.2.2 (ix2 (0 : Fin 1) q) := by
    show (if h : t.val < cfg0.N then (outsAt0 V c t.val h).2.2.2.2 (ix2 (0 : Fin 1) q) else 0) = _
    rw [dif_pos t.isLt]
  rw [← h1, show t.val + 1 = 20 from by omega]
  exact accQ0_total V c q

/-- Reading an array through a statistics window's block, for any array. -/
theorem read_blk0_6 (t : Fin cfg0.N) (G : Arr 1 128) (y) :
    ((cfg0.win 6).blk t).view.read (Elt Ideal) G y = G (((cfg0.win 6).blk t).view.emb y) := rfl
theorem read_blk0_7 (t : Fin cfg0.N) (G : Arr 1 128) (y) :
    ((cfg0.win 7).blk t).view.read (Elt Ideal) G y = G (((cfg0.win 7).blk t).view.emb y) := rfl

/-! ## From the blocks to the arrays -/

/-- Point `t` writes back rows `5000·t …` of the perceptron. -/
theorem flushed0_5_eq (c : Dev nD) (t : Fin cfg0.N) :
    (dat0 V c).flushed 5 t = ((cfg0.win 5).blk t).view.read (Elt Ideal) (Z0 V c) := by
  obtain ⟨-, -, -, -, -, -, -, -, -, -, e50, e51, -⟩ := idx_facts0 t
  have hN : cfg0.N = 20 := N_0
  show (cfg0.win 5).cut (grid0.coords t) ((dat0 V c).after 5 t) = _
  rw [after0_5, outsAt0_blk]
  funext y
  show blkZ0 V c t y = Z0 V c (((cfg0.win 5).blk t).view.emb y)
  have hy0 : (y 0).val < 5000 := (y 0).isLt
  have ht : t.val < 20 := hN ▸ t.isLt
  have hb : 5000 * t.val + (y 0).val < 100000 := by omega
  have hemb : ((cfg0.win 5).blk t).view.emb y = ix2 (⟨5000 * t.val + (y 0).val, hb⟩ : Fin 100000) (y 1) := by
    funext ax
    apply Fin.ext
    match ax with
    | ⟨0, _⟩ => show win0_5.index t (0 : Fin 2) * 5000 + 1 * (y 0).val = 5000 * t.val + (y 0).val; omega
    | ⟨1, _⟩ => show win0_5.index t (1 : Fin 2) * 128 + 1 * (y 1).val = (y 1).val; omega
  rw [hemb]
  exact (congrArg (blkZ0 V c t) (eq_ix2 y)).trans (blkZ0_apply V c t (y 0) (y 1) hb)

theorem mem_blk0_5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v30_0).slice (win0_5.rect t)).set ↔ _
  rw [View.set_slice_whole, Rect.mem_set_unit]
  exact Iff.rfl

/-- THE PERCEPTRON ARRAY after the region. -/
theorem final0_5 (c : Dev nD) : (dat0 (F := Ideal) V c).arrAt 5 cfg0.N = Z0 V c :=
  (dat0 V c).arrAt_eq_of_cover 5 (Z0 V c) (fun t _ => flushed0_5_eq V c t) fun i => by
    have hN : cfg0.N = 20 := N_0
    have hi0 : (i 0).val < 100000 := (i 0).isLt
    have hi1 : (i 1).val < 128 := (i 1).isLt
    refine ⟨⟨(i 0).val / 5000, by omega⟩, flush0_5 _, ?_⟩
    obtain ⟨-, -, -, -, -, -, -, -, -, -, e50, e51, -⟩ := idx_facts0 ⟨(i 0).val / 5000, by omega⟩
    rw [mem_blk0_5]
    intro a
    match a with
    | ⟨0, _⟩ => show win0_5.index _ (0 : Fin 2) * 5000 ≤ (i 0).val ∧ (i 0).val < win0_5.index _ (0 : Fin 2) * 5000 + 5000; rw [e50]; dsimp only; omega
    | ⟨1, _⟩ => show win0_5.index _ (1 : Fin 2) * 128 ≤ (i 1).val ∧ (i 1).val < win0_5.index _ (1 : Fin 2) * 128 + 128; rw [e51]; omega

/-- The last point writes back the column sums over all rows. -/
theorem flushed0_6_eq (c : Dev nD) (t : Fin cfg0.N) (hf : (cfg0.win 6).flush t = true) :
    (dat0 V c).flushed 6 t = ((cfg0.win 6).blk t).view.read (Elt Ideal) (colSum (Z0 V c)) := by
  obtain ⟨-, -, -, -, -, -, -, -, -, -, -, -, e60, e61, -⟩ := idx_facts0 t
  have hN : cfg0.N = 20 := N_0
  have h19 : t.val = 19 := by have := (flush0_6 t).mp hf; have := t.isLt; omega
  show (cfg0.win 6).cut (grid0.coords t) ((dat0 V c).after 6 t) = _
  rw [after0_6, (outsAt0_mirror V c t).1]
  funext y
  refine Eq.trans ?_ (read_blk0_6 t (colSum (Z0 V c)) y).symm
  show (outsAt0 V c t.val t.isLt).2.2.2.1 y = _
  have hy0 : (y 0).val < 1 := (y 0).isLt
  have hemb : ((cfg0.win 6).blk t).view.emb y = y := by
    funext ax
    apply Fin.ext
    match ax with
    | ⟨0, _⟩ => show win0_6.index t (0 : Fin 2) * 1 + 1 * (y 0).val = (y 0).val; omega
    | ⟨1, _⟩ => show win0_6.index t (1 : Fin 2) * 128 + 1 * (y 1).val = (y 1).val; omega
  have hy : y = ix2 (0 : Fin 1) (y 1) :=
    (eq_ix2 y).trans (congrArg (fun u => ix2 u (y 1)) (Fin.ext (by show (y 0).val = 0; omega)))
  rw [hemb, hy]
  exact (accS0_last V c (y 1) t h19).trans (colSum_apply (Z0 V c) (y 1)).symm

theorem mem_blk0_6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v30_1).slice (win0_6.rect t)).set ↔ _
  rw [View.set_slice_whole, Rect.mem_set_unit]
  exact Iff.rfl

/-- THE COLUMN SUMS after the region. -/
theorem final0_6 (c : Dev nD) : (dat0 (F := Ideal) V c).arrAt 6 cfg0.N = colSum (Z0 V c) :=
  (dat0 V c).arrAt_eq_of_cover 6 (colSum (Z0 V c)) (flushed0_6_eq V c) fun i => by
    have hN : cfg0.N = 20 := N_0
    have hi0 : (i 0).val < 1 := (i 0).isLt
    have hi1 : (i 1).val < 128 := (i 1).isLt
    obtain ⟨t, ht⟩ := last_point0
    refine ⟨t, (flush0_6 t).mpr (by omega), ?_⟩
    obtain ⟨-, -, -, -, -, -, -, -, -, -, -, -, e60, e61, -⟩ := idx_facts0 t
    rw [mem_blk0_6]
    intro a
    match a with
    | ⟨0, _⟩ => show win0_6.index _ (0 : Fin 2) * 1 ≤ (i 0).val ∧ (i 0).val < win0_6.index _ (0 : Fin 2) * 1 + 1; rw [e60]; omega
    | ⟨1, _⟩ => show win0_6.index _ (1 : Fin 2) * 128 ≤ (i 1).val ∧ (i 1).val < win0_6.index _ (1 : Fin 2) * 128 + 128; rw [e61]; omega

/-- The last point writes back the column sums of squares over all rows. -/
theorem flushed0_7_eq (c : Dev nD) (t : Fin cfg0.N) (hf : (cfg0.win 7).flush t = true) :
    (dat0 V c).flushed 7 t = ((cfg0.win 7).blk t).view.read (Elt Ideal) (colSumSq (Z0 V c)) := by
  obtain ⟨-, -, -, -, -, -, -, -, -, -, -, -, -, -, e70, e71⟩ := idx_facts0 t
  have hN : cfg0.N = 20 := N_0
  have h19 : t.val = 19 := by have := (flush0_7 t).mp hf; have := t.isLt; omega
  show (cfg0.win 7).cut (grid0.coords t) ((dat0 V c).after 7 t) = _
  rw [after0_7, (outsAt0_mirror V c t).2]
  funext y
  refine Eq.trans ?_ (read_blk0_7 t (colSumSq (Z0 V c)) y).symm
  show (outsAt0 V c t.val t.isLt).2.2.2.2 y = _
  have hy0 : (y 0).val < 1 := (y 0).isLt
  have hemb : ((cfg0.win 7).blk t).view.emb y = y := by
    funext ax
    apply Fin.ext
    match ax with
    | ⟨0, _⟩ => show win0_7.index t (0 : Fin 2) * 1 + 1 * (y 0).val = (y 0).val; omega
    | ⟨1, _⟩ => show win0_7.index t (1 : Fin 2) * 128 + 1 * (y 1).val = (y 1).val; omega
  have hy : y = ix2 (0 : Fin 1) (y 1) :=
    (eq_ix2 y).trans (congrArg (fun u => ix2 u (y 1)) (Fin.ext (by show (y 0).val = 0; omega)))
  rw [hemb, hy]
  exact (accQ0_last V c (y 1) t h19).trans (colSumSq_apply (Z0 V c) (y 1)).symm

theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v30_2).slice (win0_7.rect t)).set ↔ _
  rw [View.set_slice_whole, Rect.mem_set_unit]
  exact Iff.rfl

/-- THE COLUMN SUMS OF SQUARES after the region. -/
theorem final0_7 (c : Dev nD) : (dat0 (F := Ideal) V c).arrAt 7 cfg0.N = colSumSq (Z0 V c) :=
  (dat0 V c).arrAt_eq_of_cover 7 (colSumSq (Z0 V c)) (flushed0_7_eq V c) fun i => by
    have hN : cfg0.N = 20 := N_0
    have hi0 : (i 0).val < 1 := (i 0).isLt
    have hi1 : (i 1).val < 128 := (i 1).isLt
    obtain ⟨t, ht⟩ := last_point0
    refine ⟨t, (flush0_7 t).mpr (by omega), ?_⟩
    obtain ⟨-, -, -, -, -, -, -, -, -, -, -, -, -, -, e70, e71⟩ := idx_facts0 t
    rw [mem_blk0_7]
    intro a
    match a with
    | ⟨0, _⟩ => show win0_7.index _ (0 : Fin 2) * 1 ≤ (i 0).val ∧ (i 0).val < win0_7.index _ (0 : Fin 2) * 1 + 1; rw [e70]; omega
    | ⟨1, _⟩ => show win0_7.index _ (1 : Fin 2) * 128 ≤ (i 1).val ∧ (i 1).val < win0_7.index _ (1 : Fin 2) * 128 + 128; rw [e71]; omega

end Values

end Cert.KernelIdeal

end
-- ==== Proof.KI.SpecA.lean ====
/-
  The three pointwise-and-dense kernels of the network, each as ONE function of its operand arrays over the extended
  reals, read entry by entry, written in the order in which the kernel applies its operations.

  * Normalisation: an array `z` of 100000 rows and 128 lanes against four row vectors `mu`, `var`, `gamma`, `beta`:
    entry `(r, l)` is `(z(r,l) − mu(l)) · rsqrt(var(l) + ε) · gamma(l) + beta(l)`, the products taken left to right.
  * A dense layer: entry `(p, q)` of `x · W + b` is the sum over `k` of `x(p,k) · W(k,q)`, plus `b(q)`; `relu` is the
    maximum with the zero word.
  * The node classifier: three dense layers with `relu`, a fourth without, then along the 16 classes the logits less
    their row maximum (taken against −∞ first), less the logarithm of the row sum of their exponentials.
  * The edge predictor: two dense layers with `relu`, a third of one column, then the logistic function.

  Float words stay as words: `ε` is the word 0x3727C5AC, zero the word 0x00000000, −∞ the word 0xFF800000.
-/
import Idealize.ShloMosaic.PureOps.Ideal.Laws
import Idealize.ShloMosaic.Lib.ValueIdx

noncomputable section

namespace Cert.SpecA

open Idealize.ShloMosaic Idealize.ShloMosaic.ValueIdx
open scoped BigOperators

/-- A matrix over the extended reals, by its literal extents. -/
abbrev Mat (a b : Nat) : Type := (⟨2, ![a, b]⟩ : Shape).Idx → EReal

/-- The zero word, the word of `1e-5`, and the word of −∞, as extended reals. -/
abbrev zeroW : EReal := Ideal.ofBits .f32 0x00000000#32
abbrev epsW : EReal := Ideal.ofBits .f32 0x3727C5AC#32
abbrev negInfW : EReal := Ideal.ofBits .f32 0xFF800000#32

/-! ## Normalisation -/

/-- One entry of the normalised array. -/
def bnAt (z : Mat 100000 128) (mu var gamma beta : Mat 1 128) (r : Fin 100000) (l : Fin 128) : EReal :=
  (z (ix2 r l) - mu (ix2 0 l)) * Ideal.rsqrt (var (ix2 0 l) + epsW) * gamma (ix2 0 l) + beta (ix2 0 l)

/-- The normalised array. -/
def bnFn (z : Mat 100000 128) (mu var gamma beta : Mat 1 128) : Mat 100000 128 :=
  fun i => bnAt z mu var gamma beta (i 0) (i 1)

/-! ## Dense layers -/

/-- Entry `(p, q)` of `x · W + b`. -/
def denseAt {M K N : Nat} (x : Mat M K) (W : Mat K N) (b : Mat 1 N) (p : Fin M) (q : Fin N) : EReal :=
  (∑ k : Fin K, x (ix2 p k) * W (ix2 k q)) + b (ix2 0 q)

/-- `relu (x · W + b)` as a matrix. -/
def reluDense {M K N : Nat} (x : Mat M K) (W : Mat K N) (b : Mat 1 N) : Mat M N :=
  fun i => max (denseAt x W b (i 0) (i 1)) zeroW

/-- `x · W + b` as a matrix. -/
def dense {M K N : Nat} (x : Mat M K) (W : Mat K N) (b : Mat 1 N) : Mat M N :=
  fun i => denseAt x W b (i 0) (i 1)

/-! ## The edge predictor -/

/-- One edge's score. -/
def edgeAt (e : Mat 100000 1024) (W1 : Mat 1024 256) (b1 : Mat 1 256) (W2 : Mat 256 128) (b2 : Mat 1 128)
    (W3 : Mat 128 1) (b3 : Mat 1 1) (r : Fin 100000) (q : Fin 1) : EReal :=
  Ideal.logistic (denseAt (reluDense (reluDense e W1 b1) W2 b2) W3 b3 r q)

/-- The column of edge scores. -/
def edgeFn (e : Mat 100000 1024) (W1 : Mat 1024 256) (b1 : Mat 1 256) (W2 : Mat 256 128) (b2 : Mat 1 128)
    (W3 : Mat 128 1) (b3 : Mat 1 1) : Mat 100000 1 :=
  fun i => edgeAt e W1 b1 W2 b2 W3 b3 (i 0) (i 1)

/-! ## The node classifier -/

/-- The 64×16 logits. -/
def clsLogits (g : Mat 64 512) (W1 : Mat 512 256) (b1 : Mat 1 256) (W2 : Mat 256 128) (b2 : Mat 1 128)
    (W3 : Mat 128 128) (b3 : Mat 1 128) (W4 : Mat 128 16) (b4 : Mat 1 16) : Mat 64 16 :=
  dense (reluDense (reluDense (reluDense g W1 b1) W2 b2) W3 b3) W4 b4

/-- A row's maximum, taken against −∞ first as the kernel does. -/
def rowMax (y : Mat 64 16) (p : Fin 64) : EReal :=
  max negInfW (Finset.univ.fold max negInfW fun k : Fin 16 => y (ix2 p k))

/-- `log_softmax` along the 16 classes, entry `(p, q)`. -/
def logSoftmaxAt (y : Mat 64 16) (p : Fin 64) (q : Fin 16) : EReal :=
  (y (ix2 p q) - rowMax y p) - Ideal.log (∑ k : Fin 16, Ideal.exp (y (ix2 p k) - rowMax y p))

/-- The table of class log-probabilities. -/
def clsFn (g : Mat 64 512) (W1 : Mat 512 256) (b1 : Mat 1 256) (W2 : Mat 256 128) (b2 : Mat 1 128)
    (W3 : Mat 128 128) (b3 : Mat 1 128) (W4 : Mat 128 16) (b4 : Mat 1 16) : Mat 64 16 :=
  fun i => logSoftmaxAt (clsLogits g W1 b1 W2 b2 W3 b3 W4 b4) (i 0) (i 1)

end Cert.SpecA

end
-- ==== Proof.KI.Val1.lean ====
import proofs.«118347_j18940805776024_1_alg».proof.Proof.KI.Reg1
import proofs.«118347_j18940805776024_1_alg».proof.Proof.KI.SpecA
import Idealize.ShloMosaic.Lib.Pipeline.Value
import Idealize.ShloMosaic.Lib.ValueLayout
import Idealize.ShloMosaic.Lib.Tactic

set_option maxRecDepth 16384

noncomputable section

namespace Cert.KernelIdeal

open Cert.KernelIdeal Cert.KernelIdeal.Gen Cert.SpecA
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! # The array region 1 leaves: the normalised `z`, entry by entry

Point `t` of the grid writes rows `10000·t … 10000·t + 9999` of the output; its input block of `z` is the same rows, and
the four row vectors are read whole at every point. So the ten blocks written are the ten row blocks of ONE function of
the five operand arrays, and they fill the array. -/

theorem hz1 : (![0, 0] : Fin 2 → Nat) = fun _ => 0 := funext fun a => by fin_cases a <;> rfl

/-- The body's value at entry `(p, q)` of its block, at the extended reals. -/
theorem pay1_apply (v0 : Vec Ideal S10000x128 .f32) (v2 v4 v6 v8 : Vec Ideal S1x128 .f32) (p : Fin 10000) (q : Fin 128) :
    k1_pay1 v0 v2 v4 v6 v8 (ix2 p q)
      = (v0 (ix2 p q) - v2 (ix2 0 q)) * Ideal.rsqrt (v4 (ix2 0 q) + epsW) * v6 (ix2 0 q) + v8 (ix2 0 q) := by
  unfold k1_pay1
  simp only [shapeCast_self, addf_apply, mulf_apply, subf_apply, broadcastTo_1b_ab_apply]
  rfl

/-- The block index maps over the grid: `z` and the output move one row block per point, the row vectors stay. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Entry `(p, q)` of `z`'s block at point `t` is entry `(10000·t + p, q)` of the array. -/
theorem blk1_0_apply (c : Dev nD) (t : Fin cfg1.N) (p : Fin 10000) (q : Fin 128) (r : Fin 100000) (hr : r.val = t.val * 10000 + p.val) :
    (iblk1 V c 0 t : Vec Ideal S10000x128 .f32) (ix2 p q) = (V c (Pipeline.arrRef spec1 0) : Mat 100000 128) (ix2 r q) := by
  obtain ⟨e0, e1, -⟩ := idx_facts1 t
  unfold iblk1
  show V c (Pipeline.arrRef spec1 0) (((cfg1.win 0).blk t).view.emb (ix2 p q)) = V c (Pipeline.arrRef spec1 0) (ix2 r q)
  refine congrArg (V c (Pipeline.arrRef spec1 0)) (funext fun a => Fin.ext ?_)
  match a with
  | ⟨0, _⟩ => show win1_0.index t (0 : Fin 2) * 10000 + 1 * p.val = r.val; omega
  | ⟨1, _⟩ => show win1_0.index t (1 : Fin 2) * 128 + 1 * q.val = q.val; omega

/-- Row vector 1's block at any point is the whole vector. -/
theorem blk1_1_apply (c : Dev nD) (t : Fin cfg1.N) (q : Fin 128) :
    (iblk1 V c 1 t : Vec Ideal S1x128 .f32) (ix2 0 q) = (V c (Pipeline.arrRef spec1 1) : Mat 1 128) (ix2 0 q) := by
  obtain ⟨-, -, -, -, e0, e1, -⟩ := idx_facts1 t
  unfold iblk1
  show V c (Pipeline.arrRef spec1 1) (((cfg1.win 1).blk t).view.emb (ix2 0 q)) = V c (Pipeline.arrRef spec1 1) (ix2 0 q)
  refine congrArg (V c (Pipeline.arrRef spec1 1)) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- Row vector 2's block at any point is the whole vector. -/
theorem blk1_2_apply (c : Dev nD) (t : Fin cfg1.N) (q : Fin 128) :
    (iblk1 V c 2 t : Vec Ideal S1x128 .f32) (ix2 0 q) = (V c (Pipeline.arrRef spec1 2) : Mat 1 128) (ix2 0 q) := by
  obtain ⟨-, -, -, -, -, -, e0, e1, -⟩ := idx_facts1 t
  unfold iblk1
  show V c (Pipeline.arrRef spec1 2) (((cfg1.win 2).blk t).view.emb (ix2 0 q)) = V c (Pipeline.arrRef spec1 2) (ix2 0 q)
  refine congrArg (V c (Pipeline.arrRef spec1 2)) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- Row vector 3's block at any point is the whole vector. -/
theorem blk1_3_apply (c : Dev nD) (t : Fin cfg1.N) (q : Fin 128) :
    (iblk1 V c 3 t : Vec Ideal S1x128 .f32) (ix2 0 q) = (V c (Pipeline.arrRef spec1 3) : Mat 1 128) (ix2 0 q) := by
  obtain ⟨-, -, -, -, -, -, -, -, e0, e1, -⟩ := idx_facts1 t
  unfold iblk1
  show V c (Pipeline.arrRef spec1 3) (((cfg1.win 3).blk t).view.emb (ix2 0 q)) = V c (Pipeline.arrRef spec1 3) (ix2 0 q)
  refine congrArg (V c (Pipeline.arrRef spec1 3)) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- Row vector 4's block at any point is the whole vector. -/
theorem blk1_4_apply (c : Dev nD) (t : Fin cfg1.N) (q : Fin 128) :
    (iblk1 V c 4 t : Vec Ideal S1x128 .f32) (ix2 0 q) = (V c (Pipeline.arrRef spec1 4) : Mat 1 128) (ix2 0 q) := by
  obtain ⟨-, -, -, -, -, -, -, -, -, -, e0, e1⟩ := idx_facts1 t
  unfold iblk1
  show V c (Pipeline.arrRef spec1 4) (((cfg1.win 4).blk t).view.emb (ix2 0 q)) = V c (Pipeline.arrRef spec1 4) (ix2 0 q)
  refine congrArg (V c (Pipeline.arrRef spec1 4)) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The array row under row `p` of point `t`'s block. -/
def row1 (t : Fin cfg1.N) (p : Fin 10000) : Fin 100000 :=
  ⟨t.val * 10000 + p.val, by have := lt_of_lt_of_eq t.isLt (show cfg1.N = 10 from N_1); have := p.isLt; omega⟩

set_option maxHeartbeats 1000000 in
/-- The block the body leaves at point `t`: the normalised array on the block's rows. -/
theorem block1_eq (c : Dev nD) (t : Fin cfg1.N) :
    k1_pay1 (iblk1 V c 0 t) (iblk1 V c 1 t) (iblk1 V c 2 t) (iblk1 V c 3 t) (iblk1 V c 4 t)
      = fun j : S10000x128.Idx => bnAt (V c (Pipeline.arrRef spec1 0)) (V c (Pipeline.arrRef spec1 1)) (V c (Pipeline.arrRef spec1 2))
          (V c (Pipeline.arrRef spec1 3)) (V c (Pipeline.arrRef spec1 4)) (row1 t (j 0)) (j 1) := by
  funext j
  obtain ⟨p, q, rfl⟩ : ∃ (p : Fin 10000) (q : Fin 128), j = ix2 p q := ⟨j 0, j 1, eq_ix2 j⟩
  show _ = bnAt _ _ _ _ _ (row1 t p) q
  unfold bnAt
  rw [pay1_apply (iblk1 V c 0 t) (iblk1 V c 1 t) (iblk1 V c 2 t) (iblk1 V c 3 t) (iblk1 V c 4 t) p q,
    blk1_0_apply V c t p q (row1 t p) rfl, blk1_1_apply V c t q, blk1_2_apply V c t q,
    blk1_3_apply V c t q, blk1_4_apply V c t q]

set_option maxHeartbeats 1000000 in
/-- What point `t` writes back is block `t` of the normalised array. -/
theorem flushed1_eq (c : Dev nD) (t : Fin cfg1.N) :
    (dat1 V c).flushed 5 t = ((cfg1.win 5).blk t).view.read (Elt Ideal)
      (bnFn (V c (Pipeline.arrRef spec1 0)) (V c (Pipeline.arrRef spec1 1)) (V c (Pipeline.arrRef spec1 2))
        (V c (Pipeline.arrRef spec1 3)) (V c (Pipeline.arrRef spec1 4))) := by
  obtain ⟨-, -, e2, e3, -⟩ := idx_facts1 t
  show (cfg1.win 5).cut (grid1.coords t) ((dat1 V c).after 5 t) = _
  rw [after1_5]
  unfold out1_5
  rw [View.canon_unit_zero hz1]
  simp only [View.ld_unit_zero (S := S10000x128) hz1, View.ld_unit_zero (S := S1x128) hz1]
  refine (congrArg ((cfg1.win 5).cut (grid1.coords t)) (block1_eq V c t)).trans ?_
  funext j
  show bnAt (V c (Pipeline.arrRef spec1 0)) (V c (Pipeline.arrRef spec1 1)) (V c (Pipeline.arrRef spec1 2))
        (V c (Pipeline.arrRef spec1 3)) (V c (Pipeline.arrRef spec1 4)) (row1 t ⟨(j 0).val, (j 0).isLt⟩) ⟨(j 1).val, (j 1).isLt⟩
    = bnAt (V c (Pipeline.arrRef spec1 0)) (V c (Pipeline.arrRef spec1 1)) (V c (Pipeline.arrRef spec1 2))
        (V c (Pipeline.arrRef spec1 3)) (V c (Pipeline.arrRef spec1 4))
        ((((cfg1.win 5).blk t).view.emb j) 0) ((((cfg1.win 5).blk t).view.emb j) 1)
  refine congrArg₂ _ (Fin.ext ?_) (Fin.ext ?_)
  · show t.val * 10000 + (j 0).val = win1_5.index t (0 : Fin 2) * 10000 + 1 * (j 0).val; omega
  · show (j 1).val = win1_5.index t (1 : Fin 2) * 128 + 1 * (j 1).val; omega

/-- An index of the output array is in point `t`'s block iff its row is one of the block's. -/
theorem mem_blk1 (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v47).slice (win1_5.rect t)).set ↔ _
  rw [View.set_slice_whole, Rect.mem_set_unit]
  exact Iff.rfl

/-- THE ARRAY after the region: the normalised `z`. -/
theorem final1 (c : Dev nD) : (dat1 (F := Ideal) V c).arrAt 5 cfg1.N
    = bnFn (V c (Pipeline.arrRef spec1 0)) (V c (Pipeline.arrRef spec1 1)) (V c (Pipeline.arrRef spec1 2))
        (V c (Pipeline.arrRef spec1 3)) (V c (Pipeline.arrRef spec1 4)) :=
  (dat1 V c).arrAt_eq_of_cover 5 _ (fun t _ => flushed1_eq V c t) fun i => by
    have hi0 : (i 0).val < 100000 := (i 0).isLt
    have hi1 : (i 1).val < 128 := (i 1).isLt
    have hN : cfg1.N = 10 := N_1
    refine ⟨⟨(i 0).val / 10000, by rw [hN]; omega⟩, flush1_5 _, ?_⟩
    obtain ⟨-, -, e2, e3, -⟩ := idx_facts1 ⟨(i 0).val / 10000, by rw [hN]; omega⟩
    rw [mem_blk1]
    intro a
    match a with
    | ⟨0, _⟩ => show win1_5.index _ (0 : Fin 2) * 10000 ≤ (i 0).val ∧ (i 0).val < win1_5.index _ (0 : Fin 2) * 10000 + 10000; rw [e2]; show (i 0).val / 10000 * 10000 ≤ (i 0).val ∧ (i 0).val < (i 0).val / 10000 * 10000 + 10000; omega
    | ⟨1, _⟩ => show win1_5.index _ (1 : Fin 2) * 128 ≤ (i 1).val ∧ (i 1).val < win1_5.index _ (1 : Fin 2) * 128 + 128; rw [e3]; omega

end Cert.KernelIdeal

end
-- ==== Proof.KI.Val2.Pieces.lean ====
/- Region 2: what each control case leaves in the outputs' buffers and in the accumulators, as the body's payloads of
   the loaded blocks. -/
import proofs.«118347_j18940805776024_1_alg».proof.Proof.KI.Reg2
import proofs.«118347_j18940805776024_1_alg».proof.Proof.KI.ValLib

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first point -/

theorem out2_A_5_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) :
    out2_A_5 c i arg1 harg1 arg2 harg2 arg3 harg3 arg4 harg4 arg5 harg5 arg6 harg6 arg7 harg7 arg8 harg8 arg9 harg9 arg10 harg10 hc0 x0 x1 x2 x3 x4 = k2_pay5 x0 x1 x2 x3 x4 := by
  unfold out2_A_5 kernelRun2_A; dsimp only
  rw [View.canon_unit_zero hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem sout2_A_0_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) :
    sout2_A_0 c i arg1 harg1 arg2 harg2 arg3 harg3 arg4 harg4 arg5 harg5 arg6 harg6 arg7 harg7 arg8 harg8 arg9 harg9 arg10 harg10 hc0 x0 x1 x2 x3 x4 = k2_pay1 (k2_pay6 x0 x1 x2 x3 x4 k2_pay3) := by
  unfold sout2_A_0 kernelRun2_A; dsimp only; sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem sout2_A_1_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) :
    sout2_A_1 c i arg1 harg1 arg2 harg2 arg3 harg3 arg4 harg4 arg5 harg5 arg6 harg6 arg7 harg7 arg8 harg8 arg9 harg9 arg10 harg10 hc0 x0 x1 x2 x3 x4 = k2_pay2 (k2_pay5 x0 x1 x2 x3 x4) k2_pay4 := by
  unfold sout2_A_1 kernelRun2_A; dsimp only; sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem out2_A_6_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) :
    out2_A_6 c i arg1 harg1 arg2 harg2 arg3 harg3 arg4 harg4 arg5 harg5 arg6 harg6 arg7 harg7 arg8 harg8 arg9 harg9 arg10 harg10 hc0 x0 x1 x2 x3 x4 = k2_pay1 (k2_pay6 x0 x1 x2 x3 x4 k2_pay3) := by
  unfold out2_A_6 kernelRun2_A; dsimp only; sl_unfold_words
  rw [View.canon_unit_zero hz2, readCov_cons_unit_zero _ hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem out2_A_7_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x128 .f32) (x1 : Vec F S128x128 .f32) (x2 : Vec F S1x128 .f32) (x3 : Vec F S128x128 .f32) (x4 : Vec F S1x128 .f32) :
    out2_A_7 c i arg1 harg1 arg2 harg2 arg3 harg3 arg4 harg4 arg5 harg5 arg6 harg6 arg7 harg7 arg8 harg8 arg9 harg9 arg10 harg10 hc0 x0 x1 x2 x3 x4 = k2_pay2 (k2_pay5 x0 x1 x2 x3 x4) k2_pay4 := by
  unfold out2_A_7 kernelRun2_A; dsimp only; sl_unfold_words
  rw [View.canon_unit_zero hz2, readCov_cons_unit_zero _ hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

/-! ## Every later point -/

theorem out2_B_5_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    out2_B_5 c i arg1 harg1 arg2 harg2 arg3 harg3 arg4 harg4 arg5 harg5 arg6 harg6 arg7 harg7 arg8 harg8 arg9 harg9 arg10 harg10 hc0 x0 x1 x2 x3 x4 xs0 xs1 = k2_pay5 x0 x1 x2 x3 x4 := by
  unfold out2_B_5 kernelRun2_B; dsimp only
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem sout2_B_0_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    sout2_B_0 c i arg1 harg1 arg2 harg2 arg3 harg3 arg4 harg4 arg5 harg5 arg6 harg6 arg7 harg7 arg8 harg8 arg9 harg9 arg10 harg10 hc0 x0 x1 x2 x3 x4 xs0 xs1 = k2_pay1 (k2_pay6 x0 x1 x2 x3 x4 xs0) := by
  unfold sout2_B_0 kernelRun2_B; dsimp only; sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem sout2_B_1_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    sout2_B_1 c i arg1 harg1 arg2 harg2 arg3 harg3 arg4 harg4 arg5 harg5 arg6 harg6 arg7 harg7 arg8 harg8 arg9 harg9 arg10 harg10 hc0 x0 x1 x2 x3 x4 xs0 xs1 = k2_pay2 (k2_pay5 x0 x1 x2 x3 x4) xs1 := by
  unfold sout2_B_1 kernelRun2_B; dsimp only; sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem out2_B_6_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    out2_B_6 c i arg1 harg1 arg2 harg2 arg3 harg3 arg4 harg4 arg5 harg5 arg6 harg6 arg7 harg7 arg8 harg8 arg9 harg9 arg10 harg10 hc0 x0 x1 x2 x3 x4 xs0 xs1 = k2_pay1 (k2_pay6 x0 x1 x2 x3 x4 xs0) := by
  unfold out2_B_6 kernelRun2_B; dsimp only; sl_unfold_words
  rw [View.canon_unit_zero hz2, View.readCov_unit_zero (S := S1x128) _ hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem out2_B_7_eq (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    out2_B_7 c i arg1 harg1 arg2 harg2 arg3 harg3 arg4 harg4 arg5 harg5 arg6 harg6 arg7 harg7 arg8 harg8 arg9 harg9 arg10 harg10 hc0 x0 x1 x2 x3 x4 xs0 xs1 = k2_pay2 (k2_pay5 x0 x1 x2 x3 x4) xs1 := by
  unfold out2_B_7 kernelRun2_B; dsimp only; sl_unfold_words
  rw [View.canon_unit_zero hz2, View.readCov_unit_zero (S := S1x128) _ hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

end Cert.KernelIdeal

end
-- ==== Proof.KI.Val2.Pay.lean ====
/- Region 2's stored values read entry by entry at the extended reals: the perceptron's block, and what one grid point
   adds to each of the two running column sums. -/
import proofs.«118347_j18940805776024_1_alg».proof.Proof.Gen.KernelIdeal.Skeleton
import proofs.«118347_j18940805776024_1_alg».proof.Proof.KI.SpecB
import proofs.«118347_j18940805776024_1_alg».proof.Proof.KI.ValLib

set_option maxRecDepth 16384

noncomputable section

namespace Cert.KernelIdeal

open Cert.KernelIdeal.Gen
open Idealize.ShloMosaic Idealize.ShloMosaic.TcCoe Idealize.ShloMosaic.ValueIdx
open Idealize.SL.Sem
open Idealize.ShloMosaic.Pipeline (Dat)
open Cert.SpecB
open scoped BigOperators

section Pay
variable (x0 : Vec Ideal S5000x128 .f32) (x1 : Vec Ideal S128x128 .f32) (x2 : Vec Ideal S1x128 .f32) (x3 : Vec Ideal S128x128 .f32) (x4 : Vec Ideal S1x128 .f32)

/-- The block the body stores is the perceptron of the blocks it loads, entry by entry. -/
theorem pay2_5_apply (r : Fin 5000) (q : Fin 128) :
    k2_pay5 (F := Ideal) x0 x1 x2 x3 x4 (ix2 r q) = mlpAt x0 x1 x2 x3 x4 r q := by
  unfold k2_pay5
  simp only [shapeCast_self]
  rw [dot_plain_5000]
  simp only [maximumf_apply, addf_apply, broadcast_apply, truncf_apply, LibPlainMatmul.matmul_plain_zero_apply, broadcastTo_1b_ab_apply]
  simp only [ofBits_zero]
  rfl

/-- The accumulator's store is of the value as it is. -/
theorem pay2_1_apply (v : FVec Ideal S1x128 .f32) (y : S1x128.Idx) : k2_pay1 (F := Ideal) v y = v y := by
  unfold k2_pay1
  simp only [shapeCast_self]

/-- The zero fills read zero. -/
theorem pay2_3_apply (y : S1x128.Idx) : k2_pay3 (F := Ideal) y = 0 := by
  unfold k2_pay3
  simp only [shapeCast_self]
  exact ofBits_zero
theorem pay2_4_apply (y : S1x128.Idx) : k2_pay4 (F := Ideal) y = 0 := by
  unfold k2_pay4
  simp only [shapeCast_self]
  exact ofBits_zero

/-- One point adds to the running column sum the column sums of its block. -/
theorem pay2_6_apply (v28 : Vec Ideal S1x128 .f32) (q : Fin 128) :
    k2_pay6 (F := Ideal) x0 x1 x2 x3 x4 v28 (ix2 (0 : Fin 1) q)
      = v28 (ix2 (0 : Fin 1) q) + ∑ a : Fin 5000, k2_pay5 (F := Ideal) x0 x1 x2 x3 x4 (ix2 a q) := by
  unfold k2_pay6
  refine (addf_apply _ _ _).trans ?_
  refine congrArg (v28 (ix2 (0 : Fin 1) q) + ·) ?_
  refine (shapeCast_a_1a_apply _ _ (0 : Fin 1) q).trans ?_
  exact colReduce_apply _ _ _ _ _ q

/-- One point adds to the running column sum of squares the column sums of its block's squares. -/
theorem pay2_2_apply (z : FVec Ideal S5000x128 .f32) (v35 : Vec Ideal S1x128 .f32) (q : Fin 128) :
    k2_pay2 (F := Ideal) z v35 (ix2 (0 : Fin 1) q)
      = v35 (ix2 (0 : Fin 1) q) + ∑ a : Fin 5000, z (ix2 a q) * z (ix2 a q) := by
  unfold k2_pay2
  simp only [shapeCast_self]
  refine (addf_apply _ _ _).trans ?_
  refine congrArg (v35 (ix2 (0 : Fin 1) q) + ·) ?_
  refine (shapeCast_a_1a_apply _ _ (0 : Fin 1) q).trans ?_
  refine (colReduce_apply _ _ _ _ _ q).trans ?_
  rfl

end Pay

end Cert.KernelIdeal

end
-- ==== Proof.KI.Val2.lean ====
/- Region 2 at the extended reals: after the region its three output arrays are the perceptron of the entry arrays,
   its column sums and its column sums of squares — the two accumulators carried over the twenty grid points are one sum
   over all 100000 rows. -/
import proofs.«118347_j18940805776024_1_alg».proof.Proof.KI.Val2.Pieces
import proofs.«118347_j18940805776024_1_alg».proof.Proof.KI.Val2.Pay
import proofs.«118347_j18940805776024_1_alg».proof.Proof.LibBlockSum

set_option maxRecDepth 16384

noncomputable section

namespace Cert.KernelIdeal

open Cert.KernelIdeal.Gen
open Idealize.ShloMosaic Idealize.ShloMosaic.TcCoe Idealize.ShloMosaic.ValueIdx
open Idealize.SL.Sem
open Idealize.ShloMosaic.Pipeline (Dat)
open Cert.SpecB
open scoped BigOperators

section Values
variable (V : (c : Dev nD) → (b : Ref sig .tc) → Buf (Elt Ideal) ((c : Thread nD τ).loc b))

/-- The perceptron of the arrays the region is entered with. -/
abbrev Z2 (c : Dev nD) : Arr 100000 128 :=
  mlpZ (V c (Pipeline.arrRef spec2 0)) (V c (Pipeline.arrRef spec2 1)) (V c (Pipeline.arrRef spec2 2)) (V c (Pipeline.arrRef spec2 3)) (V c (Pipeline.arrRef spec2 4))

/-! ## The windows' blocks in the arrays -/

/-- The block index of every window at every point: the row windows move with the point, the others stay at the origin. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- The grid has a last point, the twentieth. -/
theorem last_point2 : ∃ t : Fin cfg2.N, t.val = 19 := (by decide +kernel : ∃ t : Fin grid2.N, t.val = 19)

/-- Row `a` of the input's block at point `t` is row `5000·t + a` of the input. -/
theorem iblk2_0_apply (c : Dev nD) (t : Fin cfg2.N) (a : Fin 5000) (j : Fin 128) (h : 5000 * t.val + a.val < 100000) :
    (iblk2 V c 0 t : Vec Ideal S5000x128 .f32) (ix2 a j) = (V c (Pipeline.arrRef spec2 0) : Arr 100000 128) (ix2 ⟨5000 * t.val + a.val, h⟩ j) := by
  obtain ⟨e00, e01, -⟩ := idx_facts2 t
  unfold iblk2
  show (V c (Pipeline.arrRef spec2 0) : Arr 100000 128) (((cfg2.win 0).blk t).view.emb (ix2 a j)) = _
  refine congrArg (V c (Pipeline.arrRef spec2 0) : Arr 100000 128) ?_
  funext ax
  apply Fin.ext
  match ax with
  | ⟨0, _⟩ => show win2_0.index t (0 : Fin 2) * 5000 + 1 * a.val = 5000 * t.val + a.val; omega
  | ⟨1, _⟩ => show win2_0.index t (1 : Fin 2) * 128 + 1 * j.val = j.val; omega

/-- Window 1's block is its whole array at every point. -/
theorem iblk2_1_eq (c : Dev nD) (t : Fin cfg2.N) :
    (iblk2 V c 1 t : Vec Ideal S128x128 .f32) = (V c (Pipeline.arrRef spec2 1) : Arr 128 128) := by
  obtain ⟨e00, e01, e10, e11, e20, e21, e30, e31, e40, e41, -⟩ := idx_facts2 t
  funext y
  unfold iblk2
  show (V c (Pipeline.arrRef spec2 1) : Arr 128 128) (((cfg2.win 1).blk t).view.emb y) = _
  refine congrArg (V c (Pipeline.arrRef spec2 1) : Arr 128 128) ?_
  funext ax
  apply Fin.ext
  match ax with
  | ⟨0, _⟩ => show win2_1.index t (0 : Fin 2) * 128 + 1 * (y 0).val = (y 0).val; omega
  | ⟨1, _⟩ => show win2_1.index t (1 : Fin 2) * 128 + 1 * (y 1).val = (y 1).val; omega

/-- Window 2's block is its whole array at every point. -/
theorem iblk2_2_eq (c : Dev nD) (t : Fin cfg2.N) :
    (iblk2 V c 2 t : Vec Ideal S1x128 .f32) = (V c (Pipeline.arrRef spec2 2) : Arr 1 128) := by
  obtain ⟨e00, e01, e10, e11, e20, e21, e30, e31, e40, e41, -⟩ := idx_facts2 t
  funext y
  unfold iblk2
  show (V c (Pipeline.arrRef spec2 2) : Arr 1 128) (((cfg2.win 2).blk t).view.emb y) = _
  refine congrArg (V c (Pipeline.arrRef spec2 2) : Arr 1 128) ?_
  funext ax
  apply Fin.ext
  match ax with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3's block is its whole array at every point. -/
theorem iblk2_3_eq (c : Dev nD) (t : Fin cfg2.N) :
    (iblk2 V c 3 t : Vec Ideal S128x128 .f32) = (V c (Pipeline.arrRef spec2 3) : Arr 128 128) := by
  obtain ⟨e00, e01, e10, e11, e20, e21, e30, e31, e40, e41, -⟩ := idx_facts2 t
  funext y
  unfold iblk2
  show (V c (Pipeline.arrRef spec2 3) : Arr 128 128) (((cfg2.win 3).blk t).view.emb y) = _
  refine congrArg (V c (Pipeline.arrRef spec2 3) : Arr 128 128) ?_
  funext ax
  apply Fin.ext
  match ax with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4's block is its whole array at every point. -/
theorem iblk2_4_eq (c : Dev nD) (t : Fin cfg2.N) :
    (iblk2 V c 4 t : Vec Ideal S1x128 .f32) = (V c (Pipeline.arrRef spec2 4) : Arr 1 128) := by
  obtain ⟨e00, e01, e10, e11, e20, e21, e30, e31, e40, e41, -⟩ := idx_facts2 t
  funext y
  unfold iblk2
  show (V c (Pipeline.arrRef spec2 4) : Arr 1 128) (((cfg2.win 4).blk t).view.emb y) = _
  refine congrArg (V c (Pipeline.arrRef spec2 4) : Arr 1 128) ?_
  funext ax
  apply Fin.ext
  match ax with
  | ⟨0, _⟩ => show win2_4.index t (0 : Fin 2) * 1 + 1 * (y 0).val = (y 0).val; omega
  | ⟨1, _⟩ => show win2_4.index t (1 : Fin 2) * 128 + 1 * (y 1).val = (y 1).val; omega

/-- The block the body stores at point `t`. -/
def blkZ2 (c : Dev nD) (t : Fin cfg2.N) : Vec Ideal S5000x128 .f32 :=
  k2_pay5 (F := Ideal) (iblk2 V c 0 t) (iblk2 V c 1 t) (iblk2 V c 2 t) (iblk2 V c 3 t) (iblk2 V c 4 t)

/-- It is rows `5000·t … 5000·t + 4999` of the perceptron of the whole arrays. -/
theorem blkZ2_apply (c : Dev nD) (t : Fin cfg2.N) (a : Fin 5000) (q : Fin 128) (h : 5000 * t.val + a.val < 100000) :
    blkZ2 V c t (ix2 a q) = Z2 V c (ix2 ⟨5000 * t.val + a.val, h⟩ q) := by
  unfold blkZ2
  refine (pay2_5_apply (iblk2 V c 0 t) (iblk2 V c 1 t) (iblk2 V c 2 t) (iblk2 V c 3 t) (iblk2 V c 4 t) a q).trans ?_
  rw [iblk2_1_eq V c t, iblk2_2_eq V c t, iblk2_3_eq V c t, iblk2_4_eq V c t]
  have hx : ∀ j : Fin 128, (iblk2 V c 0 t : Vec Ideal S5000x128 .f32) (ix2 a j) = (V c (Pipeline.arrRef spec2 0) : Arr 100000 128) (ix2 ⟨5000 * t.val + a.val, h⟩ j) :=
    fun j => iblk2_0_apply V c t a j h
  show mlpAt _ _ _ _ _ a q = mlpAt _ _ _ _ _ ⟨5000 * t.val + a.val, h⟩ q
  unfold mlpAt hidAt
  simp only [hx]

/-! ## What every point leaves -/

/-- After the first point: the block, and both accumulators (and the windows that mirror them) started from zero. -/
theorem outsAt2_first (c : Dev nD) (t : Fin cfg2.N) (hz : t.val = 0) :
    outsAt2 V c t.val t.isLt
      = (blkZ2 V c t,
         k2_pay1 (F := Ideal) (k2_pay6 (F := Ideal) (iblk2 V c 0 t) (iblk2 V c 1 t) (iblk2 V c 2 t) (iblk2 V c 3 t) (iblk2 V c 4 t) (k2_pay3 (F := Ideal))),
         k2_pay2 (F := Ideal) (blkZ2 V c t) (k2_pay4 (F := Ideal)),
         k2_pay1 (F := Ideal) (k2_pay6 (F := Ideal) (iblk2 V c 0 t) (iblk2 V c 1 t) (iblk2 V c 2 t) (iblk2 V c 3 t) (iblk2 V c 4 t) (k2_pay3 (F := Ideal))),
         k2_pay2 (F := Ideal) (blkZ2 V c t) (k2_pay4 (F := Ideal))) := by
  rw [outsAt2_A V c t hz, out2_A_5_eq, out2_A_6_eq, out2_A_7_eq, sout2_A_0_eq, sout2_A_1_eq]
  rfl

/-- After a later point: the block, and both accumulators continued from what the point before left. -/
theorem outsAt2_later (c : Dev nD) (t : Fin cfg2.N) (hz : t.val ≠ 0) :
    outsAt2 V c t.val t.isLt
      = (blkZ2 V c t,
         k2_pay1 (F := Ideal) (k2_pay6 (F := Ideal) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1),
         k2_pay2 (F := Ideal) (blkZ2 V c t) (outsAt2 V c (t.val - 1) (Nat.lt_of_le_of_lt (Nat.sub_le _ _) t.isLt)).2.2.2.2,
         k2_pay1 (F := Ideal) (k2_pay6 (F := Ideal) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1),
         k2_pay2 (F := Ideal) (blkZ2 V c t) (outsAt2 V c (t.val - 1) (Nat.lt_of_le_of_lt (Nat.sub_le _ _) t.isLt)).2.2.2.2) := by
  rw [outsAt2_B V c t hz, out2_B_5_eq, out2_B_6_eq, out2_B_7_eq, sout2_B_0_eq, sout2_B_1_eq]
  rfl

/-- The block window's buffer holds the point's block after every point. -/
theorem outsAt2_blk (c : Dev nD) (t : Fin cfg2.N) : (outsAt2 V c t.val t.isLt).1 = blkZ2 V c t := by
  by_cases hz : t.val = 0
  · rw [outsAt2_first V c t hz]
  · rw [outsAt2_later V c t hz]

/-- The two statistics windows' buffers hold what the accumulators hold after every point. -/
theorem outsAt2_mirror (c : Dev nD) (t : Fin cfg2.N) :
    (outsAt2 V c t.val t.isLt).2.1 = (outsAt2 V c t.val t.isLt).2.2.2.1
      ∧ (outsAt2 V c t.val t.isLt).2.2.1 = (outsAt2 V c t.val t.isLt).2.2.2.2 := by
  by_cases hz : t.val = 0
  · rw [outsAt2_first V c t hz]; exact ⟨rfl, rfl⟩
  · rw [outsAt2_later V c t hz]; exact ⟨rfl, rfl⟩

/-! ## The accumulators over the grid: one sum over all rows -/

/-- The running column sum after position `k` points (zero before the first), at column `q`. -/
def accS2 (c : Dev nD) (q : Fin 128) : ℕ → EReal
  | 0 => 0
  | k + 1 => if h : k < cfg2.N then (outsAt2 V c k h).2.2.2.1 (ix2 (0 : Fin 1) q) else 0

/-- The running column sum of squares likewise. -/
def accQ2 (c : Dev nD) (q : Fin 128) : ℕ → EReal
  | 0 => 0
  | k + 1 => if h : k < cfg2.N then (outsAt2 V c k h).2.2.2.2 (ix2 (0 : Fin 1) q) else 0

/-- One point adds its block's column sums. -/
theorem accS2_step (c : Dev nD) (q : Fin 128) (k : ℕ) (hk : k < 20) :
    accS2 V c q (k + 1) = accS2 V c q k + ∑ a : Fin 5000, Z2 V c (ix2 ⟨5000 * k + a.val, (by have := a.isLt; omega)⟩ q) := by
  have hN : cfg2.N = 20 := N_2
  have hkN : k < cfg2.N := by omega
  have hsum : ∑ a : Fin 5000, blkZ2 V c ⟨k, hkN⟩ (ix2 a q) = ∑ a : Fin 5000, Z2 V c (ix2 ⟨5000 * k + a.val, (by have := a.isLt; omega)⟩ q) :=
    Finset.sum_congr rfl fun a _ => blkZ2_apply V c ⟨k, hkN⟩ a q (by have := a.isLt; omega)
  show (if h : k < cfg2.N then (outsAt2 V c k h).2.2.2.1 (ix2 (0 : Fin 1) q) else 0) = _
  rw [dif_pos hkN, ← hsum]
  cases k with
  | zero =>
    rw [show outsAt2 V c 0 hkN = outsAt2 V c (⟨0, hkN⟩ : Fin cfg2.N).val (⟨0, hkN⟩ : Fin cfg2.N).isLt from rfl, outsAt2_first V c ⟨0, hkN⟩ rfl]
    show k2_pay1 (F := Ideal) (k2_pay6 (F := Ideal) (iblk2 V c 0 ⟨0, hkN⟩) (iblk2 V c 1 ⟨0, hkN⟩) (iblk2 V c 2 ⟨0, hkN⟩) (iblk2 V c 3 ⟨0, hkN⟩) (iblk2 V c 4 ⟨0, hkN⟩) (k2_pay3 (F := Ideal))) (ix2 (0 : Fin 1) q) = accS2 V c q 0 + _
    refine (pay2_1_apply _ _).trans ?_
    refine (pay2_6_apply (iblk2 V c 0 ⟨0, hkN⟩) (iblk2 V c 1 ⟨0, hkN⟩) (iblk2 V c 2 ⟨0, hkN⟩) (iblk2 V c 3 ⟨0, hkN⟩) (iblk2 V c 4 ⟨0, hkN⟩) (k2_pay3 (F := Ideal)) q).trans ?_
    rw [pay2_3_apply]
    all_goals rfl
  | succ n =>
    rw [show outsAt2 V c (n + 1) hkN = outsAt2 V c (⟨n + 1, hkN⟩ : Fin cfg2.N).val (⟨n + 1, hkN⟩ : Fin cfg2.N).isLt from rfl,
      outsAt2_later V c ⟨n + 1, hkN⟩ (Nat.succ_ne_zero n)]
    show k2_pay1 (F := Ideal) (k2_pay6 (F := Ideal) (iblk2 V c 0 ⟨n + 1, hkN⟩) (iblk2 V c 1 ⟨n + 1, hkN⟩) (iblk2 V c 2 ⟨n + 1, hkN⟩) (iblk2 V c 3 ⟨n + 1, hkN⟩) (iblk2 V c 4 ⟨n + 1, hkN⟩) (outsAt2 V c n _).2.2.2.1) (ix2 (0 : Fin 1) q) = accS2 V c q (n + 1) + _
    refine (pay2_1_apply _ _).trans ?_
    refine (pay2_6_apply (iblk2 V c 0 ⟨n + 1, hkN⟩) (iblk2 V c 1 ⟨n + 1, hkN⟩) (iblk2 V c 2 ⟨n + 1, hkN⟩) (iblk2 V c 3 ⟨n + 1, hkN⟩) (iblk2 V c 4 ⟨n + 1, hkN⟩) _ q).trans ?_
    show _ = (if h : n < cfg2.N then (outsAt2 V c n h).2.2.2.1 (ix2 (0 : Fin 1) q) else 0) + _
    rw [dif_pos (Nat.lt_of_succ_lt hkN)]
    all_goals rfl

/-- One point adds its block's column sums of squares. -/
theorem accQ2_step (c : Dev nD) (q : Fin 128) (k : ℕ) (hk : k < 20) :
    accQ2 V c q (k + 1) = accQ2 V c q k + ∑ a : Fin 5000, Z2 V c (ix2 ⟨5000 * k + a.val, (by have := a.isLt; omega)⟩ q) * Z2 V c (ix2 ⟨5000 * k + a.val, (by have := a.isLt; omega)⟩ q) := by
  have hN : cfg2.N = 20 := N_2
  have hkN : k < cfg2.N := by omega
  have hsum : ∑ a : Fin 5000, blkZ2 V c ⟨k, hkN⟩ (ix2 a q) * blkZ2 V c ⟨k, hkN⟩ (ix2 a q) = ∑ a : Fin 5000, Z2 V c (ix2 ⟨5000 * k + a.val, (by have := a.isLt; omega)⟩ q) * Z2 V c (ix2 ⟨5000 * k + a.val, (by have := a.isLt; omega)⟩ q) :=
    Finset.sum_congr rfl fun a _ => by rw [blkZ2_apply V c ⟨k, hkN⟩ a q ((by have := a.isLt; omega))]
  show (if h : k < cfg2.N then (outsAt2 V c k h).2.2.2.2 (ix2 (0 : Fin 1) q) else 0) = _
  rw [dif_pos hkN, ← hsum]
  cases k with
  | zero =>
    rw [show outsAt2 V c 0 hkN = outsAt2 V c (⟨0, hkN⟩ : Fin cfg2.N).val (⟨0, hkN⟩ : Fin cfg2.N).isLt from rfl, outsAt2_first V c ⟨0, hkN⟩ rfl]
    show k2_pay2 (F := Ideal) (blkZ2 V c ⟨0, hkN⟩) (k2_pay4 (F := Ideal)) (ix2 (0 : Fin 1) q) = accQ2 V c q 0 + _
    refine (pay2_2_apply (blkZ2 V c ⟨0, hkN⟩) (k2_pay4 (F := Ideal)) q).trans ?_
    rw [pay2_4_apply]
    all_goals rfl
  | succ n =>
    rw [show outsAt2 V c (n + 1) hkN = outsAt2 V c (⟨n + 1, hkN⟩ : Fin cfg2.N).val (⟨n + 1, hkN⟩ : Fin cfg2.N).isLt from rfl,
      outsAt2_later V c ⟨n + 1, hkN⟩ (Nat.succ_ne_zero n)]
    show k2_pay2 (F := Ideal) (blkZ2 V c ⟨n + 1, hkN⟩) (outsAt2 V c n _).2.2.2.2 (ix2 (0 : Fin 1) q) = accQ2 V c q (n + 1) + _
    refine (pay2_2_apply (blkZ2 V c ⟨n + 1, hkN⟩) _ q).trans ?_
    show _ = (if h : n < cfg2.N then (outsAt2 V c n h).2.2.2.2 (ix2 (0 : Fin 1) q) else 0) + _
    rw [dif_pos (Nat.lt_of_succ_lt hkN)]
    all_goals rfl

/-- After all twenty points the running column sum is the sum over all 100000 rows. -/
theorem accS2_total (c : Dev nD) (q : Fin 128) : accS2 V c q 20 = ∑ r : Fin 100000, Z2 V c (ix2 r q) :=
  Cert.Lib.sum_by_blocks (n := 20) (b := 5000) (N := 100000) rfl (fun r : Fin 100000 => Z2 V c (ix2 r q)) (accS2 V c q) rfl
    (fun k hk => accS2_step V c q k hk)

/-- And the running column sum of squares the sum of the squares. -/
theorem accQ2_total (c : Dev nD) (q : Fin 128) : accQ2 V c q 20 = ∑ r : Fin 100000, Z2 V c (ix2 r q) * Z2 V c (ix2 r q) :=
  Cert.Lib.sum_by_blocks (n := 20) (b := 5000) (N := 100000) rfl (fun r : Fin 100000 => Z2 V c (ix2 r q) * Z2 V c (ix2 r q)) (accQ2 V c q) rfl
    (fun k hk => accQ2_step V c q k hk)

/-- What the column-sum accumulator holds after the last point. -/
theorem accS2_last (c : Dev nD) (q : Fin 128) (t : Fin cfg2.N) (ht : t.val = 19) :
    (outsAt2 V c t.val t.isLt).2.2.2.1 (ix2 (0 : Fin 1) q) = ∑ r : Fin 100000, Z2 V c (ix2 r q) := by
  have h1 : accS2 V c q (t.val + 1) = (outsAt2 V c t.val t.isLt).2.2.2.1 (ix2 (0 : Fin 1) q) := by
    show (if h : t.val < cfg2.N then (outsAt2 V c t.val h).2.2.2.1 (ix2 (0 : Fin 1) q) else 0) = _
    rw [dif_pos t.isLt]
  rw [← h1, show t.val + 1 = 20 from by omega]
  exact accS2_total V c q

theorem accQ2_last (c : Dev nD) (q : Fin 128) (t : Fin cfg2.N) (ht : t.val = 19) :
    (outsAt2 V c t.val t.isLt).2.2.2.2 (ix2 (0 : Fin 1) q) = ∑ r : Fin 100000, Z2 V c (ix2 r q) * Z2 V c (ix2 r q) := by
  have h1 : accQ2 V c q (t.val + 1) = (outsAt2 V c t.val t.isLt).2.2.2.2 (ix2 (0 : Fin 1) q) := by
    show (if h : t.val < cfg2.N then (outsAt2 V c t.val h).2.2.2.2 (ix2 (0 : Fin 1) q) else 0) = _
    rw [dif_pos t.isLt]
  rw [← h1, show t.val + 1 = 20 from by omega]
  exact accQ2_total V c q

/-- Reading an array through a statistics window's block, for any array. -/
theorem read_blk2_6 (t : Fin cfg2.N) (G : Arr 1 128) (y) :
    ((cfg2.win 6).blk t).view.read (Elt Ideal) G y = G (((cfg2.win 6).blk t).view.emb y) := rfl
theorem read_blk2_7 (t : Fin cfg2.N) (G : Arr 1 128) (y) :
    ((cfg2.win 7).blk t).view.read (Elt Ideal) G y = G (((cfg2.win 7).blk t).view.emb y) := rfl

/-! ## From the blocks to the arrays -/

/-- Point `t` writes back rows `5000·t …` of the perceptron. -/
theorem flushed2_5_eq (c : Dev nD) (t : Fin cfg2.N) :
    (dat2 V c).flushed 5 t = ((cfg2.win 5).blk t).view.read (Elt Ideal) (Z2 V c) := by
  obtain ⟨-, -, -, -, -, -, -, -, -, -, e50, e51, -⟩ := idx_facts2 t
  have hN : cfg2.N = 20 := N_2
  show (cfg2.win 5).cut (grid2.coords t) ((dat2 V c).after 5 t) = _
  rw [after2_5, outsAt2_blk]
  funext y
  show blkZ2 V c t y = Z2 V c (((cfg2.win 5).blk t).view.emb y)
  have hy0 : (y 0).val < 5000 := (y 0).isLt
  have ht : t.val < 20 := hN ▸ t.isLt
  have hb : 5000 * t.val + (y 0).val < 100000 := by omega
  have hemb : ((cfg2.win 5).blk t).view.emb y = ix2 (⟨5000 * t.val + (y 0).val, hb⟩ : Fin 100000) (y 1) := by
    funext ax
    apply Fin.ext
    match ax with
    | ⟨0, _⟩ => show win2_5.index t (0 : Fin 2) * 5000 + 1 * (y 0).val = 5000 * t.val + (y 0).val; omega
    | ⟨1, _⟩ => show win2_5.index t (1 : Fin 2) * 128 + 1 * (y 1).val = (y 1).val; omega
  rw [hemb]
  exact (congrArg (blkZ2 V c t) (eq_ix2 y)).trans (blkZ2_apply V c t (y 0) (y 1) hb)

theorem mem_blk2_5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v74_0).slice (win2_5.rect t)).set ↔ _
  rw [View.set_slice_whole, Rect.mem_set_unit]
  exact Iff.rfl

/-- THE PERCEPTRON ARRAY after the region. -/
theorem final2_5 (c : Dev nD) : (dat2 (F := Ideal) V c).arrAt 5 cfg2.N = Z2 V c :=
  (dat2 V c).arrAt_eq_of_cover 5 (Z2 V c) (fun t _ => flushed2_5_eq V c t) fun i => by
    have hN : cfg2.N = 20 := N_2
    have hi0 : (i 0).val < 100000 := (i 0).isLt
    have hi1 : (i 1).val < 128 := (i 1).isLt
    refine ⟨⟨(i 0).val / 5000, by omega⟩, flush2_5 _, ?_⟩
    obtain ⟨-, -, -, -, -, -, -, -, -, -, e50, e51, -⟩ := idx_facts2 ⟨(i 0).val / 5000, by omega⟩
    rw [mem_blk2_5]
    intro a
    match a with
    | ⟨0, _⟩ => show win2_5.index _ (0 : Fin 2) * 5000 ≤ (i 0).val ∧ (i 0).val < win2_5.index _ (0 : Fin 2) * 5000 + 5000; rw [e50]; dsimp only; omega
    | ⟨1, _⟩ => show win2_5.index _ (1 : Fin 2) * 128 ≤ (i 1).val ∧ (i 1).val < win2_5.index _ (1 : Fin 2) * 128 + 128; rw [e51]; omega

/-- The last point writes back the column sums over all rows. -/
theorem flushed2_6_eq (c : Dev nD) (t : Fin cfg2.N) (hf : (cfg2.win 6).flush t = true) :
    (dat2 V c).flushed 6 t = ((cfg2.win 6).blk t).view.read (Elt Ideal) (colSum (Z2 V c)) := by
  obtain ⟨-, -, -, -, -, -, -, -, -, -, -, -, e60, e61, -⟩ := idx_facts2 t
  have hN : cfg2.N = 20 := N_2
  have h19 : t.val = 19 := by have := (flush2_6 t).mp hf; have := t.isLt; omega
  show (cfg2.win 6).cut (grid2.coords t) ((dat2 V c).after 6 t) = _
  rw [after2_6, (outsAt2_mirror V c t).1]
  funext y
  refine Eq.trans ?_ (read_blk2_6 t (colSum (Z2 V c)) y).symm
  show (outsAt2 V c t.val t.isLt).2.2.2.1 y = _
  have hy0 : (y 0).val < 1 := (y 0).isLt
  have hemb : ((cfg2.win 6).blk t).view.emb y = y := by
    funext ax
    apply Fin.ext
    match ax with
    | ⟨0, _⟩ => show win2_6.index t (0 : Fin 2) * 1 + 1 * (y 0).val = (y 0).val; omega
    | ⟨1, _⟩ => show win2_6.index t (1 : Fin 2) * 128 + 1 * (y 1).val = (y 1).val; omega
  have hy : y = ix2 (0 : Fin 1) (y 1) :=
    (eq_ix2 y).trans (congrArg (fun u => ix2 u (y 1)) (Fin.ext (by show (y 0).val = 0; omega)))
  rw [hemb, hy]
  exact (accS2_last V c (y 1) t h19).trans (colSum_apply (Z2 V c) (y 1)).symm

theorem mem_blk2_6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v74_1).slice (win2_6.rect t)).set ↔ _
  rw [View.set_slice_whole, Rect.mem_set_unit]
  exact Iff.rfl

/-- THE COLUMN SUMS after the region. -/
theorem final2_6 (c : Dev nD) : (dat2 (F := Ideal) V c).arrAt 6 cfg2.N = colSum (Z2 V c) :=
  (dat2 V c).arrAt_eq_of_cover 6 (colSum (Z2 V c)) (flushed2_6_eq V c) fun i => by
    have hN : cfg2.N = 20 := N_2
    have hi0 : (i 0).val < 1 := (i 0).isLt
    have hi1 : (i 1).val < 128 := (i 1).isLt
    obtain ⟨t, ht⟩ := last_point2
    refine ⟨t, (flush2_6 t).mpr (by omega), ?_⟩
    obtain ⟨-, -, -, -, -, -, -, -, -, -, -, -, e60, e61, -⟩ := idx_facts2 t
    rw [mem_blk2_6]
    intro a
    match a with
    | ⟨0, _⟩ => show win2_6.index _ (0 : Fin 2) * 1 ≤ (i 0).val ∧ (i 0).val < win2_6.index _ (0 : Fin 2) * 1 + 1; rw [e60]; omega
    | ⟨1, _⟩ => show win2_6.index _ (1 : Fin 2) * 128 ≤ (i 1).val ∧ (i 1).val < win2_6.index _ (1 : Fin 2) * 128 + 128; rw [e61]; omega

/-- The last point writes back the column sums of squares over all rows. -/
theorem flushed2_7_eq (c : Dev nD) (t : Fin cfg2.N) (hf : (cfg2.win 7).flush t = true) :
    (dat2 V c).flushed 7 t = ((cfg2.win 7).blk t).view.read (Elt Ideal) (colSumSq (Z2 V c)) := by
  obtain ⟨-, -, -, -, -, -, -, -, -, -, -, -, -, -, e70, e71⟩ := idx_facts2 t
  have hN : cfg2.N = 20 := N_2
  have h19 : t.val = 19 := by have := (flush2_7 t).mp hf; have := t.isLt; omega
  show (cfg2.win 7).cut (grid2.coords t) ((dat2 V c).after 7 t) = _
  rw [after2_7, (outsAt2_mirror V c t).2]
  funext y
  refine Eq.trans ?_ (read_blk2_7 t (colSumSq (Z2 V c)) y).symm
  show (outsAt2 V c t.val t.isLt).2.2.2.2 y = _
  have hy0 : (y 0).val < 1 := (y 0).isLt
  have hemb : ((cfg2.win 7).blk t).view.emb y = y := by
    funext ax
    apply Fin.ext
    match ax with
    | ⟨0, _⟩ => show win2_7.index t (0 : Fin 2) * 1 + 1 * (y 0).val = (y 0).val; omega
    | ⟨1, _⟩ => show win2_7.index t (1 : Fin 2) * 128 + 1 * (y 1).val = (y 1).val; omega
  have hy : y = ix2 (0 : Fin 1) (y 1) :=
    (eq_ix2 y).trans (congrArg (fun u => ix2 u (y 1)) (Fin.ext (by show (y 0).val = 0; omega)))
  rw [hemb, hy]
  exact (accQ2_last V c (y 1) t h19).trans (colSumSq_apply (Z2 V c) (y 1)).symm

theorem mem_blk2_7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v74_2).slice (win2_7.rect t)).set ↔ _
  rw [View.set_slice_whole, Rect.mem_set_unit]
  exact Iff.rfl

/-- THE COLUMN SUMS OF SQUARES after the region. -/
theorem final2_7 (c : Dev nD) : (dat2 (F := Ideal) V c).arrAt 7 cfg2.N = colSumSq (Z2 V c) :=
  (dat2 V c).arrAt_eq_of_cover 7 (colSumSq (Z2 V c)) (flushed2_7_eq V c) fun i => by
    have hN : cfg2.N = 20 := N_2
    have hi0 : (i 0).val < 1 := (i 0).isLt
    have hi1 : (i 1).val < 128 := (i 1).isLt
    obtain ⟨t, ht⟩ := last_point2
    refine ⟨t, (flush2_7 t).mpr (by omega), ?_⟩
    obtain ⟨-, -, -, -, -, -, -, -, -, -, -, -, -, -, e70, e71⟩ := idx_facts2 t
    rw [mem_blk2_7]
    intro a
    match a with
    | ⟨0, _⟩ => show win2_7.index _ (0 : Fin 2) * 1 ≤ (i 0).val ∧ (i 0).val < win2_7.index _ (0 : Fin 2) * 1 + 1; rw [e70]; omega
    | ⟨1, _⟩ => show win2_7.index _ (1 : Fin 2) * 128 ≤ (i 1).val ∧ (i 1).val < win2_7.index _ (1 : Fin 2) * 128 + 128; rw [e71]; omega

end Values

end Cert.KernelIdeal

end
-- ==== Proof.KI.Val3.lean ====
import proofs.«118347_j18940805776024_1_alg».proof.Proof.KI.Reg3
import proofs.«118347_j18940805776024_1_alg».proof.Proof.KI.SpecA
import Idealize.ShloMosaic.Lib.Pipeline.Value
import Idealize.ShloMosaic.Lib.ValueLayout
import Idealize.ShloMosaic.Lib.Tactic

set_option maxRecDepth 16384

noncomputable section

namespace Cert.KernelIdeal

open Cert.KernelIdeal Cert.KernelIdeal.Gen Cert.SpecA
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! # The array region 3 leaves: the normalised `z`, entry by entry

Point `t` of the grid writes rows `10000·t … 10000·t + 9999` of the output; its input block of `z` is the same rows, and
the four row vectors are read whole at every point. So the ten blocks written are the ten row blocks of ONE function of
the five operand arrays, and they fill the array. -/

theorem hz3 : (![0, 0] : Fin 2 → Nat) = fun _ => 0 := funext fun a => by fin_cases a <;> rfl

/-- The body's value at entry `(p, q)` of its block, at the extended reals. -/
theorem pay3_apply (v0 : Vec Ideal S10000x128 .f32) (v2 v4 v6 v8 : Vec Ideal S1x128 .f32) (p : Fin 10000) (q : Fin 128) :
    k3_pay1 v0 v2 v4 v6 v8 (ix2 p q)
      = (v0 (ix2 p q) - v2 (ix2 0 q)) * Ideal.rsqrt (v4 (ix2 0 q) + epsW) * v6 (ix2 0 q) + v8 (ix2 0 q) := by
  unfold k3_pay1
  simp only [shapeCast_self, addf_apply, mulf_apply, subf_apply, broadcastTo_1b_ab_apply]
  rfl

/-- The block index maps over the grid: `z` and the output move one row block per point, the row vectors stay. -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Entry `(p, q)` of `z`'s block at point `t` is entry `(10000·t + p, q)` of the array. -/
theorem blk3_0_apply (c : Dev nD) (t : Fin cfg3.N) (p : Fin 10000) (q : Fin 128) (r : Fin 100000) (hr : r.val = t.val * 10000 + p.val) :
    (iblk3 V c 0 t : Vec Ideal S10000x128 .f32) (ix2 p q) = (V c (Pipeline.arrRef spec3 0) : Mat 100000 128) (ix2 r q) := by
  obtain ⟨e0, e1, -⟩ := idx_facts3 t
  unfold iblk3
  show V c (Pipeline.arrRef spec3 0) (((cfg3.win 0).blk t).view.emb (ix2 p q)) = V c (Pipeline.arrRef spec3 0) (ix2 r q)
  refine congrArg (V c (Pipeline.arrRef spec3 0)) (funext fun a => Fin.ext ?_)
  match a with
  | ⟨0, _⟩ => show win3_0.index t (0 : Fin 2) * 10000 + 1 * p.val = r.val; omega
  | ⟨1, _⟩ => show win3_0.index t (1 : Fin 2) * 128 + 1 * q.val = q.val; omega

/-- Row vector 1's block at any point is the whole vector. -/
theorem blk3_1_apply (c : Dev nD) (t : Fin cfg3.N) (q : Fin 128) :
    (iblk3 V c 1 t : Vec Ideal S1x128 .f32) (ix2 0 q) = (V c (Pipeline.arrRef spec3 1) : Mat 1 128) (ix2 0 q) := by
  obtain ⟨-, -, -, -, e0, e1, -⟩ := idx_facts3 t
  unfold iblk3
  show V c (Pipeline.arrRef spec3 1) (((cfg3.win 1).blk t).view.emb (ix2 0 q)) = V c (Pipeline.arrRef spec3 1) (ix2 0 q)
  refine congrArg (V c (Pipeline.arrRef spec3 1)) (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- Row vector 2's block at any point is the whole vector. -/
theorem blk3_2_apply (c : Dev nD) (t : Fin cfg3.N) (q : Fin 128) :
    (iblk3 V c 2 t : Vec Ideal S1x128 .f32) (ix2 0 q) = (V c (Pipeline.arrRef spec3 2) : Mat 1 128) (ix2 0 q) := by
  obtain ⟨-, -, -, -, -, -, e0, e1, -⟩ := idx_facts3 t
  unfold iblk3
  show V c (Pipeline.arrRef spec3 2) (((cfg3.win 2).blk t).view.emb (ix2 0 q)) = V c (Pipeline.arrRef spec3 2) (ix2 0 q)
  refine congrArg (V c (Pipeline.arrRef spec3 2)) (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- Row vector 3's block at any point is the whole vector. -/
theorem blk3_3_apply (c : Dev nD) (t : Fin cfg3.N) (q : Fin 128) :
    (iblk3 V c 3 t : Vec Ideal S1x128 .f32) (ix2 0 q) = (V c (Pipeline.arrRef spec3 3) : Mat 1 128) (ix2 0 q) := by
  obtain ⟨-, -, -, -, -, -, -, -, e0, e1, -⟩ := idx_facts3 t
  unfold iblk3
  show V c (Pipeline.arrRef spec3 3) (((cfg3.win 3).blk t).view.emb (ix2 0 q)) = V c (Pipeline.arrRef spec3 3) (ix2 0 q)
  refine congrArg (V c (Pipeline.arrRef spec3 3)) (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

/-- Row vector 4's block at any point is the whole vector. -/
theorem blk3_4_apply (c : Dev nD) (t : Fin cfg3.N) (q : Fin 128) :
    (iblk3 V c 4 t : Vec Ideal S1x128 .f32) (ix2 0 q) = (V c (Pipeline.arrRef spec3 4) : Mat 1 128) (ix2 0 q) := by
  obtain ⟨-, -, -, -, -, -, -, -, -, -, e0, e1⟩ := idx_facts3 t
  unfold iblk3
  show V c (Pipeline.arrRef spec3 4) (((cfg3.win 4).blk t).view.emb (ix2 0 q)) = V c (Pipeline.arrRef spec3 4) (ix2 0 q)
  refine congrArg (V c (Pipeline.arrRef spec3 4)) (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- The array row under row `p` of point `t`'s block. -/
def row3 (t : Fin cfg3.N) (p : Fin 10000) : Fin 100000 :=
  ⟨t.val * 10000 + p.val, by have := lt_of_lt_of_eq t.isLt (show cfg3.N = 10 from N_3); have := p.isLt; omega⟩

set_option maxHeartbeats 1000000 in
/-- The block the body leaves at point `t`: the normalised array on the block's rows. -/
theorem block3_eq (c : Dev nD) (t : Fin cfg3.N) :
    k3_pay1 (iblk3 V c 0 t) (iblk3 V c 1 t) (iblk3 V c 2 t) (iblk3 V c 3 t) (iblk3 V c 4 t)
      = fun j : S10000x128.Idx => bnAt (V c (Pipeline.arrRef spec3 0)) (V c (Pipeline.arrRef spec3 1)) (V c (Pipeline.arrRef spec3 2))
          (V c (Pipeline.arrRef spec3 3)) (V c (Pipeline.arrRef spec3 4)) (row3 t (j 0)) (j 1) := by
  funext j
  obtain ⟨p, q, rfl⟩ : ∃ (p : Fin 10000) (q : Fin 128), j = ix2 p q := ⟨j 0, j 1, eq_ix2 j⟩
  show _ = bnAt _ _ _ _ _ (row3 t p) q
  unfold bnAt
  rw [pay3_apply (iblk3 V c 0 t) (iblk3 V c 1 t) (iblk3 V c 2 t) (iblk3 V c 3 t) (iblk3 V c 4 t) p q,
    blk3_0_apply V c t p q (row3 t p) rfl, blk3_1_apply V c t q, blk3_2_apply V c t q,
    blk3_3_apply V c t q, blk3_4_apply V c t q]

set_option maxHeartbeats 1000000 in
/-- What point `t` writes back is block `t` of the normalised array. -/
theorem flushed3_eq (c : Dev nD) (t : Fin cfg3.N) :
    (dat3 V c).flushed 5 t = ((cfg3.win 5).blk t).view.read (Elt Ideal)
      (bnFn (V c (Pipeline.arrRef spec3 0)) (V c (Pipeline.arrRef spec3 1)) (V c (Pipeline.arrRef spec3 2))
        (V c (Pipeline.arrRef spec3 3)) (V c (Pipeline.arrRef spec3 4))) := by
  obtain ⟨-, -, e2, e3, -⟩ := idx_facts3 t
  show (cfg3.win 5).cut (grid3.coords t) ((dat3 V c).after 5 t) = _
  rw [after3_5]
  unfold out3_5
  rw [View.canon_unit_zero hz3]
  simp only [View.ld_unit_zero (S := S10000x128) hz3, View.ld_unit_zero (S := S1x128) hz3]
  refine (congrArg ((cfg3.win 5).cut (grid3.coords t)) (block3_eq V c t)).trans ?_
  funext j
  show bnAt (V c (Pipeline.arrRef spec3 0)) (V c (Pipeline.arrRef spec3 1)) (V c (Pipeline.arrRef spec3 2))
        (V c (Pipeline.arrRef spec3 3)) (V c (Pipeline.arrRef spec3 4)) (row3 t ⟨(j 0).val, (j 0).isLt⟩) ⟨(j 1).val, (j 1).isLt⟩
    = bnAt (V c (Pipeline.arrRef spec3 0)) (V c (Pipeline.arrRef spec3 1)) (V c (Pipeline.arrRef spec3 2))
        (V c (Pipeline.arrRef spec3 3)) (V c (Pipeline.arrRef spec3 4))
        ((((cfg3.win 5).blk t).view.emb j) 0) ((((cfg3.win 5).blk t).view.emb j) 1)
  refine congrArg₂ _ (Fin.ext ?_) (Fin.ext ?_)
  · show t.val * 10000 + (j 0).val = win3_5.index t (0 : Fin 2) * 10000 + 1 * (j 0).val; omega
  · show (j 1).val = win3_5.index t (1 : Fin 2) * 128 + 1 * (j 1).val; omega

/-- An index of the output array is in point `t`'s block iff its row is one of the block's. -/
theorem mem_blk3 (t : Fin cfg3.N) (i : S100000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v91).slice (win3_5.rect t)).set ↔ _
  rw [View.set_slice_whole, Rect.mem_set_unit]
  exact Iff.rfl

/-- THE ARRAY after the region: the normalised `z`. -/
theorem final3 (c : Dev nD) : (dat3 (F := Ideal) V c).arrAt 5 cfg3.N
    = bnFn (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 5 _ (fun t _ => flushed3_eq V c t) fun i => by
    have hi0 : (i 0).val < 100000 := (i 0).isLt
    have hi1 : (i 1).val < 128 := (i 1).isLt
    have hN : cfg3.N = 10 := N_3
    refine ⟨⟨(i 0).val / 10000, by rw [hN]; omega⟩, flush3_5 _, ?_⟩
    obtain ⟨-, -, e2, e3, -⟩ := idx_facts3 ⟨(i 0).val / 10000, by rw [hN]; omega⟩
    rw [mem_blk3]
    intro a
    match a with
    | ⟨0, _⟩ => show win3_5.index _ (0 : Fin 2) * 10000 ≤ (i 0).val ∧ (i 0).val < win3_5.index _ (0 : Fin 2) * 10000 + 10000; rw [e2]; show (i 0).val / 10000 * 10000 ≤ (i 0).val ∧ (i 0).val < (i 0).val / 10000 * 10000 + 10000; omega
    | ⟨1, _⟩ => show win3_5.index _ (1 : Fin 2) * 128 ≤ (i 1).val ∧ (i 1).val < win3_5.index _ (1 : Fin 2) * 128 + 128; rw [e3]; omega

end Cert.KernelIdeal

end
-- ==== Proof.KI.Val4.Pieces.lean ====
/- Region 4: what each control case leaves in the outputs' buffers and in the accumulators, as the body's payloads of
   the loaded blocks. -/
import proofs.«118347_j18940805776024_1_alg».proof.Proof.KI.Reg4
import proofs.«118347_j18940805776024_1_alg».proof.Proof.KI.ValLib

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first point -/

theorem out4_A_5_eq (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) :
    out4_A_5 c i arg1 harg1 arg2 harg2 arg3 harg3 arg4 harg4 arg5 harg5 arg6 harg6 arg7 harg7 arg8 harg8 arg9 harg9 arg10 harg10 hc0 x0 x1 x2 x3 x4 = k4_pay5 x0 x1 x2 x3 x4 := by
  unfold out4_A_5 kernelRun4_A; dsimp only
  rw [View.canon_unit_zero hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem sout4_A_0_eq (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) :
    sout4_A_0 c i arg1 harg1 arg2 harg2 arg3 harg3 arg4 harg4 arg5 harg5 arg6 harg6 arg7 harg7 arg8 harg8 arg9 harg9 arg10 harg10 hc0 x0 x1 x2 x3 x4 = k4_pay1 (k4_pay6 x0 x1 x2 x3 x4 k4_pay3) := by
  unfold sout4_A_0 kernelRun4_A; dsimp only; sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem sout4_A_1_eq (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) :
    sout4_A_1 c i arg1 harg1 arg2 harg2 arg3 harg3 arg4 harg4 arg5 harg5 arg6 harg6 arg7 harg7 arg8 harg8 arg9 harg9 arg10 harg10 hc0 x0 x1 x2 x3 x4 = k4_pay2 (k4_pay5 x0 x1 x2 x3 x4) k4_pay4 := by
  unfold sout4_A_1 kernelRun4_A; dsimp only; sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem out4_A_6_eq (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) :
    out4_A_6 c i arg1 harg1 arg2 harg2 arg3 harg3 arg4 harg4 arg5 harg5 arg6 harg6 arg7 harg7 arg8 harg8 arg9 harg9 arg10 harg10 hc0 x0 x1 x2 x3 x4 = k4_pay1 (k4_pay6 x0 x1 x2 x3 x4 k4_pay3) := by
  unfold out4_A_6 kernelRun4_A; dsimp only; sl_unfold_words
  rw [View.canon_unit_zero hz2, readCov_cons_unit_zero _ hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem out4_A_7_eq (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i)
    (x0 : Vec F S5000x128 .f32) (x1 : Vec F S128x128 .f32) (x2 : Vec F S1x128 .f32) (x3 : Vec F S128x128 .f32) (x4 : Vec F S1x128 .f32) :
    out4_A_7 c i arg1 harg1 arg2 harg2 arg3 harg3 arg4 harg4 arg5 harg5 arg6 harg6 arg7 harg7 arg8 harg8 arg9 harg9 arg10 harg10 hc0 x0 x1 x2 x3 x4 = k4_pay2 (k4_pay5 x0 x1 x2 x3 x4) k4_pay4 := by
  unfold out4_A_7 kernelRun4_A; dsimp only; sl_unfold_words
  rw [View.canon_unit_zero hz2, readCov_cons_unit_zero _ hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

/-! ## Every later point -/

theorem out4_B_5_eq (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    out4_B_5 c i arg1 harg1 arg2 harg2 arg3 harg3 arg4 harg4 arg5 harg5 arg6 harg6 arg7 harg7 arg8 harg8 arg9 harg9 arg10 harg10 hc0 x0 x1 x2 x3 x4 xs0 xs1 = k4_pay5 x0 x1 x2 x3 x4 := by
  unfold out4_B_5 kernelRun4_B; dsimp only
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem sout4_B_0_eq (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    sout4_B_0 c i arg1 harg1 arg2 harg2 arg3 harg3 arg4 harg4 arg5 harg5 arg6 harg6 arg7 harg7 arg8 harg8 arg9 harg9 arg10 harg10 hc0 x0 x1 x2 x3 x4 xs0 xs1 = k4_pay1 (k4_pay6 x0 x1 x2 x3 x4 xs0) := by
  unfold sout4_B_0 kernelRun4_B; dsimp only; sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem sout4_B_1_eq (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    sout4_B_1 c i arg1 harg1 arg2 harg2 arg3 harg3 arg4 harg4 arg5 harg5 arg6 harg6 arg7 harg7 arg8 harg8 arg9 harg9 arg10 harg10 hc0 x0 x1 x2 x3 x4 xs0 xs1 = k4_pay2 (k4_pay5 x0 x1 x2 x3 x4) xs1 := by
  unfold sout4_B_1 kernelRun4_B; dsimp only; sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem out4_B_6_eq (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    out4_B_6 c i arg1 harg1 arg2 harg2 arg3 harg3 arg4 harg4 arg5 harg5 arg6 harg6 arg7 harg7 arg8 harg8 arg9 harg9 arg10 harg10 hc0 x0 x1 x2 x3 x4 xs0 xs1 = k4_pay1 (k4_pay6 x0 x1 x2 x3 x4 xs0) := by
  unfold out4_B_6 kernelRun4_B; dsimp only; sl_unfold_words
  rw [View.canon_unit_zero hz2, View.readCov_unit_zero (S := S1x128) _ hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem out4_B_7_eq (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    out4_B_7 c i arg1 harg1 arg2 harg2 arg3 harg3 arg4 harg4 arg5 harg5 arg6 harg6 arg7 harg7 arg8 harg8 arg9 harg9 arg10 harg10 hc0 x0 x1 x2 x3 x4 xs0 xs1 = k4_pay2 (k4_pay5 x0 x1 x2 x3 x4) xs1 := by
  unfold out4_B_7 kernelRun4_B; dsimp only; sl_unfold_words
  rw [View.canon_unit_zero hz2, View.readCov_unit_zero (S := S1x128) _ hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

end Cert.KernelIdeal

end
-- ==== Proof.KI.Val4.Pay.lean ====
/- Region 4's stored values read entry by entry at the extended reals: the perceptron's block, and what one grid point
   adds to each of the two running column sums. -/
import proofs.«118347_j18940805776024_1_alg».proof.Proof.Gen.KernelIdeal.Skeleton
import proofs.«118347_j18940805776024_1_alg».proof.Proof.KI.SpecB
import proofs.«118347_j18940805776024_1_alg».proof.Proof.KI.ValLib

set_option maxRecDepth 16384

noncomputable section

namespace Cert.KernelIdeal

open Cert.KernelIdeal.Gen
open Idealize.ShloMosaic Idealize.ShloMosaic.TcCoe Idealize.ShloMosaic.ValueIdx
open Idealize.SL.Sem
open Idealize.ShloMosaic.Pipeline (Dat)
open Cert.SpecB
open scoped BigOperators

section Pay
variable (x0 : Vec Ideal S5000x128 .f32) (x1 : Vec Ideal S128x128 .f32) (x2 : Vec Ideal S1x128 .f32) (x3 : Vec Ideal S128x128 .f32) (x4 : Vec Ideal S1x128 .f32)

/-- The block the body stores is the perceptron of the blocks it loads, entry by entry. -/
theorem pay4_5_apply (r : Fin 5000) (q : Fin 128) :
    k4_pay5 (F := Ideal) x0 x1 x2 x3 x4 (ix2 r q) = mlpAt x0 x1 x2 x3 x4 r q := by
  unfold k4_pay5
  simp only [shapeCast_self]
  rw [dot_plain_5000]
  simp only [maximumf_apply, addf_apply, broadcast_apply, truncf_apply, LibPlainMatmul.matmul_plain_zero_apply, broadcastTo_1b_ab_apply]
  simp only [ofBits_zero]
  rfl

/-- The accumulator's store is of the value as it is. -/
theorem pay4_1_apply (v : FVec Ideal S1x128 .f32) (y : S1x128.Idx) : k4_pay1 (F := Ideal) v y = v y := by
  unfold k4_pay1
  simp only [shapeCast_self]

/-- The zero fills read zero. -/
theorem pay4_3_apply (y : S1x128.Idx) : k4_pay3 (F := Ideal) y = 0 := by
  unfold k4_pay3
  simp only [shapeCast_self]
  exact ofBits_zero
theorem pay4_4_apply (y : S1x128.Idx) : k4_pay4 (F := Ideal) y = 0 := by
  unfold k4_pay4
  simp only [shapeCast_self]
  exact ofBits_zero

/-- One point adds to the running column sum the column sums of its block. -/
theorem pay4_6_apply (v28 : Vec Ideal S1x128 .f32) (q : Fin 128) :
    k4_pay6 (F := Ideal) x0 x1 x2 x3 x4 v28 (ix2 (0 : Fin 1) q)
      = v28 (ix2 (0 : Fin 1) q) + ∑ a : Fin 5000, k4_pay5 (F := Ideal) x0 x1 x2 x3 x4 (ix2 a q) := by
  unfold k4_pay6
  refine (addf_apply _ _ _).trans ?_
  refine congrArg (v28 (ix2 (0 : Fin 1) q) + ·) ?_
  refine (shapeCast_a_1a_apply _ _ (0 : Fin 1) q).trans ?_
  exact colReduce_apply _ _ _ _ _ q

/-- One point adds to the running column sum of squares the column sums of its block's squares. -/
theorem pay4_2_apply (z : FVec Ideal S5000x128 .f32) (v35 : Vec Ideal S1x128 .f32) (q : Fin 128) :
    k4_pay2 (F := Ideal) z v35 (ix2 (0 : Fin 1) q)
      = v35 (ix2 (0 : Fin 1) q) + ∑ a : Fin 5000, z (ix2 a q) * z (ix2 a q) := by
  unfold k4_pay2
  simp only [shapeCast_self]
  refine (addf_apply _ _ _).trans ?_
  refine congrArg (v35 (ix2 (0 : Fin 1) q) + ·) ?_
  refine (shapeCast_a_1a_apply _ _ (0 : Fin 1) q).trans ?_
  refine (colReduce_apply _ _ _ _ _ q).trans ?_
  rfl

end Pay

end Cert.KernelIdeal

end
-- ==== Proof.KI.Val4.lean ====
/- Region 4 at the extended reals: after the region its three output arrays are the perceptron of the entry arrays,
   its column sums and its column sums of squares — the two accumulators carried over the twenty grid points are one sum
   over all 100000 rows. -/
import proofs.«118347_j18940805776024_1_alg».proof.Proof.KI.Val4.Pieces
import proofs.«118347_j18940805776024_1_alg».proof.Proof.KI.Val4.Pay
import proofs.«118347_j18940805776024_1_alg».proof.Proof.LibBlockSum

set_option maxRecDepth 16384

noncomputable section

namespace Cert.KernelIdeal

open Cert.KernelIdeal.Gen
open Idealize.ShloMosaic Idealize.ShloMosaic.TcCoe Idealize.ShloMosaic.ValueIdx
open Idealize.SL.Sem
open Idealize.ShloMosaic.Pipeline (Dat)
open Cert.SpecB
open scoped BigOperators

section Values
variable (V : (c : Dev nD) → (b : Ref sig .tc) → Buf (Elt Ideal) ((c : Thread nD τ).loc b))

/-- The perceptron of the arrays the region is entered with. -/
abbrev Z4 (c : Dev nD) : Arr 100000 128 :=
  mlpZ (V c (Pipeline.arrRef spec4 0)) (V c (Pipeline.arrRef spec4 1)) (V c (Pipeline.arrRef spec4 2)) (V c (Pipeline.arrRef spec4 3)) (V c (Pipeline.arrRef spec4 4))

/-! ## The windows' blocks in the arrays -/

/-- The block index of every window at every point: the row windows move with the point, the others stay at the origin. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- The grid has a last point, the twentieth. -/
theorem last_point4 : ∃ t : Fin cfg4.N, t.val = 19 := (by decide +kernel : ∃ t : Fin grid4.N, t.val = 19)

/-- Row `a` of the input's block at point `t` is row `5000·t + a` of the input. -/
theorem iblk4_0_apply (c : Dev nD) (t : Fin cfg4.N) (a : Fin 5000) (j : Fin 128) (h : 5000 * t.val + a.val < 100000) :
    (iblk4 V c 0 t : Vec Ideal S5000x128 .f32) (ix2 a j) = (V c (Pipeline.arrRef spec4 0) : Arr 100000 128) (ix2 ⟨5000 * t.val + a.val, h⟩ j) := by
  obtain ⟨e00, e01, -⟩ := idx_facts4 t
  unfold iblk4
  show (V c (Pipeline.arrRef spec4 0) : Arr 100000 128) (((cfg4.win 0).blk t).view.emb (ix2 a j)) = _
  refine congrArg (V c (Pipeline.arrRef spec4 0) : Arr 100000 128) ?_
  funext ax
  apply Fin.ext
  match ax with
  | ⟨0, _⟩ => show win4_0.index t (0 : Fin 2) * 5000 + 1 * a.val = 5000 * t.val + a.val; omega
  | ⟨1, _⟩ => show win4_0.index t (1 : Fin 2) * 128 + 1 * j.val = j.val; omega

/-- Window 1's block is its whole array at every point. -/
theorem iblk4_1_eq (c : Dev nD) (t : Fin cfg4.N) :
    (iblk4 V c 1 t : Vec Ideal S128x128 .f32) = (V c (Pipeline.arrRef spec4 1) : Arr 128 128) := by
  obtain ⟨e00, e01, e10, e11, e20, e21, e30, e31, e40, e41, -⟩ := idx_facts4 t
  funext y
  unfold iblk4
  show (V c (Pipeline.arrRef spec4 1) : Arr 128 128) (((cfg4.win 1).blk t).view.emb y) = _
  refine congrArg (V c (Pipeline.arrRef spec4 1) : Arr 128 128) ?_
  funext ax
  apply Fin.ext
  match ax with
  | ⟨0, _⟩ => show win4_1.index t (0 : Fin 2) * 128 + 1 * (y 0).val = (y 0).val; omega
  | ⟨1, _⟩ => show win4_1.index t (1 : Fin 2) * 128 + 1 * (y 1).val = (y 1).val; omega

/-- Window 2's block is its whole array at every point. -/
theorem iblk4_2_eq (c : Dev nD) (t : Fin cfg4.N) :
    (iblk4 V c 2 t : Vec Ideal S1x128 .f32) = (V c (Pipeline.arrRef spec4 2) : Arr 1 128) := by
  obtain ⟨e00, e01, e10, e11, e20, e21, e30, e31, e40, e41, -⟩ := idx_facts4 t
  funext y
  unfold iblk4
  show (V c (Pipeline.arrRef spec4 2) : Arr 1 128) (((cfg4.win 2).blk t).view.emb y) = _
  refine congrArg (V c (Pipeline.arrRef spec4 2) : Arr 1 128) ?_
  funext ax
  apply Fin.ext
  match ax with
  | ⟨0, _⟩ => show win4_2.index t (0 : Fin 2) * 1 + 1 * (y 0).val = (y 0).val; omega
  | ⟨1, _⟩ => show win4_2.index t (1 : Fin 2) * 128 + 1 * (y 1).val = (y 1).val; omega

/-- Window 3's block is its whole array at every point. -/
theorem iblk4_3_eq (c : Dev nD) (t : Fin cfg4.N) :
    (iblk4 V c 3 t : Vec Ideal S128x128 .f32) = (V c (Pipeline.arrRef spec4 3) : Arr 128 128) := by
  obtain ⟨e00, e01, e10, e11, e20, e21, e30, e31, e40, e41, -⟩ := idx_facts4 t
  funext y
  unfold iblk4
  show (V c (Pipeline.arrRef spec4 3) : Arr 128 128) (((cfg4.win 3).blk t).view.emb y) = _
  refine congrArg (V c (Pipeline.arrRef spec4 3) : Arr 128 128) ?_
  funext ax
  apply Fin.ext
  match ax with
  | ⟨0, _⟩ => show win4_3.index t (0 : Fin 2) * 128 + 1 * (y 0).val = (y 0).val; omega
  | ⟨1, _⟩ => show win4_3.index t (1 : Fin 2) * 128 + 1 * (y 1).val = (y 1).val; omega

/-- Window 4's block is its whole array at every point. -/
theorem iblk4_4_eq (c : Dev nD) (t : Fin cfg4.N) :
    (iblk4 V c 4 t : Vec Ideal S1x128 .f32) = (V c (Pipeline.arrRef spec4 4) : Arr 1 128) := by
  obtain ⟨e00, e01, e10, e11, e20, e21, e30, e31, e40, e41, -⟩ := idx_facts4 t
  funext y
  unfold iblk4
  show (V c (Pipeline.arrRef spec4 4) : Arr 1 128) (((cfg4.win 4).blk t).view.emb y) = _
  refine congrArg (V c (Pipeline.arrRef spec4 4) : Arr 1 128) ?_
  funext ax
  apply Fin.ext
  match ax with
  | ⟨0, _⟩ => show win4_4.index t (0 : Fin 2) * 1 + 1 * (y 0).val = (y 0).val; omega
  | ⟨1, _⟩ => show win4_4.index t (1 : Fin 2) * 128 + 1 * (y 1).val = (y 1).val; omega

/-- The block the body stores at point `t`. -/
def blkZ4 (c : Dev nD) (t : Fin cfg4.N) : Vec Ideal S5000x128 .f32 :=
  k4_pay5 (F := Ideal) (iblk4 V c 0 t) (iblk4 V c 1 t) (iblk4 V c 2 t) (iblk4 V c 3 t) (iblk4 V c 4 t)

/-- It is rows `5000·t … 5000·t + 4999` of the perceptron of the whole arrays. -/
theorem blkZ4_apply (c : Dev nD) (t : Fin cfg4.N) (a : Fin 5000) (q : Fin 128) (h : 5000 * t.val + a.val < 100000) :
    blkZ4 V c t (ix2 a q) = Z4 V c (ix2 ⟨5000 * t.val + a.val, h⟩ q) := by
  unfold blkZ4
  refine (pay4_5_apply (iblk4 V c 0 t) (iblk4 V c 1 t) (iblk4 V c 2 t) (iblk4 V c 3 t) (iblk4 V c 4 t) a q).trans ?_
  rw [iblk4_1_eq V c t, iblk4_2_eq V c t, iblk4_3_eq V c t, iblk4_4_eq V c t]
  have hx : ∀ j : Fin 128, (iblk4 V c 0 t : Vec Ideal S5000x128 .f32) (ix2 a j) = (V c (Pipeline.arrRef spec4 0) : Arr 100000 128) (ix2 ⟨5000 * t.val + a.val, h⟩ j) :=
    fun j => iblk4_0_apply V c t a j h
  show mlpAt _ _ _ _ _ a q = mlpAt _ _ _ _ _ ⟨5000 * t.val + a.val, h⟩ q
  unfold mlpAt hidAt
  simp only [hx]

/-! ## What every point leaves -/

/-- After the first point: the block, and both accumulators (and the windows that mirror them) started from zero. -/
theorem outsAt4_first (c : Dev nD) (t : Fin cfg4.N) (hz : t.val = 0) :
    outsAt4 V c t.val t.isLt
      = (blkZ4 V c t,
         k4_pay1 (F := Ideal) (k4_pay6 (F := Ideal) (iblk4 V c 0 t) (iblk4 V c 1 t) (iblk4 V c 2 t) (iblk4 V c 3 t) (iblk4 V c 4 t) (k4_pay3 (F := Ideal))),
         k4_pay2 (F := Ideal) (blkZ4 V c t) (k4_pay4 (F := Ideal)),
         k4_pay1 (F := Ideal) (k4_pay6 (F := Ideal) (iblk4 V c 0 t) (iblk4 V c 1 t) (iblk4 V c 2 t) (iblk4 V c 3 t) (iblk4 V c 4 t) (k4_pay3 (F := Ideal))),
         k4_pay2 (F := Ideal) (blkZ4 V c t) (k4_pay4 (F := Ideal))) := by
  rw [outsAt4_A V c t hz, out4_A_5_eq, out4_A_6_eq, out4_A_7_eq, sout4_A_0_eq, sout4_A_1_eq]
  rfl

/-- After a later point: the block, and both accumulators continued from what the point before left. -/
theorem outsAt4_later (c : Dev nD) (t : Fin cfg4.N) (hz : t.val ≠ 0) :
    outsAt4 V c t.val t.isLt
      = (blkZ4 V c t,
         k4_pay1 (F := Ideal) (k4_pay6 (F := Ideal) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1),
         k4_pay2 (F := Ideal) (blkZ4 V c t) (outsAt4 V c (t.val - 1) (Nat.lt_of_le_of_lt (Nat.sub_le _ _) t.isLt)).2.2.2.2,
         k4_pay1 (F := Ideal) (k4_pay6 (F := Ideal) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1),
         k4_pay2 (F := Ideal) (blkZ4 V c t) (outsAt4 V c (t.val - 1) (Nat.lt_of_le_of_lt (Nat.sub_le _ _) t.isLt)).2.2.2.2) := by
  rw [outsAt4_B V c t hz, out4_B_5_eq, out4_B_6_eq, out4_B_7_eq, sout4_B_0_eq, sout4_B_1_eq]
  rfl

/-- The block window's buffer holds the point's block after every point. -/
theorem outsAt4_blk (c : Dev nD) (t : Fin cfg4.N) : (outsAt4 V c t.val t.isLt).1 = blkZ4 V c t := by
  by_cases hz : t.val = 0
  · rw [outsAt4_first V c t hz]
  · rw [outsAt4_later V c t hz]

/-- The two statistics windows' buffers hold what the accumulators hold after every point. -/
theorem outsAt4_mirror (c : Dev nD) (t : Fin cfg4.N) :
    (outsAt4 V c t.val t.isLt).2.1 = (outsAt4 V c t.val t.isLt).2.2.2.1
      ∧ (outsAt4 V c t.val t.isLt).2.2.1 = (outsAt4 V c t.val t.isLt).2.2.2.2 := by
  by_cases hz : t.val = 0
  · rw [outsAt4_first V c t hz]; exact ⟨rfl, rfl⟩
  · rw [outsAt4_later V c t hz]; exact ⟨rfl, rfl⟩

/-! ## The accumulators over the grid: one sum over all rows -/

/-- The running column sum after position `k` points (zero before the first), at column `q`. -/
def accS4 (c : Dev nD) (q : Fin 128) : ℕ → EReal
  | 0 => 0
  | k + 1 => if h : k < cfg4.N then (outsAt4 V c k h).2.2.2.1 (ix2 (0 : Fin 1) q) else 0

/-- The running column sum of squares likewise. -/
def accQ4 (c : Dev nD) (q : Fin 128) : ℕ → EReal
  | 0 => 0
  | k + 1 => if h : k < cfg4.N then (outsAt4 V c k h).2.2.2.2 (ix2 (0 : Fin 1) q) else 0

/-- One point adds its block's column sums. -/
theorem accS4_step (c : Dev nD) (q : Fin 128) (k : ℕ) (hk : k < 20) :
    accS4 V c q (k + 1) = accS4 V c q k + ∑ a : Fin 5000, Z4 V c (ix2 ⟨5000 * k + a.val, (by have := a.isLt; omega)⟩ q) := by
  have hN : cfg4.N = 20 := N_4
  have hkN : k < cfg4.N := by omega
  have hsum : ∑ a : Fin 5000, blkZ4 V c ⟨k, hkN⟩ (ix2 a q) = ∑ a : Fin 5000, Z4 V c (ix2 ⟨5000 * k + a.val, (by have := a.isLt; omega)⟩ q) :=
    Finset.sum_congr rfl fun a _ => blkZ4_apply V c ⟨k, hkN⟩ a q (by have := a.isLt; omega)
  show (if h : k < cfg4.N then (outsAt4 V c k h).2.2.2.1 (ix2 (0 : Fin 1) q) else 0) = _
  rw [dif_pos hkN, ← hsum]
  cases k with
  | zero =>
    rw [show outsAt4 V c 0 hkN = outsAt4 V c (⟨0, hkN⟩ : Fin cfg4.N).val (⟨0, hkN⟩ : Fin cfg4.N).isLt from rfl, outsAt4_first V c ⟨0, hkN⟩ rfl]
    show k4_pay1 (F := Ideal) (k4_pay6 (F := Ideal) (iblk4 V c 0 ⟨0, hkN⟩) (iblk4 V c 1 ⟨0, hkN⟩) (iblk4 V c 2 ⟨0, hkN⟩) (iblk4 V c 3 ⟨0, hkN⟩) (iblk4 V c 4 ⟨0, hkN⟩) (k4_pay3 (F := Ideal))) (ix2 (0 : Fin 1) q) = accS4 V c q 0 + _
    refine (pay4_1_apply _ _).trans ?_
    refine (pay4_6_apply (iblk4 V c 0 ⟨0, hkN⟩) (iblk4 V c 1 ⟨0, hkN⟩) (iblk4 V c 2 ⟨0, hkN⟩) (iblk4 V c 3 ⟨0, hkN⟩) (iblk4 V c 4 ⟨0, hkN⟩) (k4_pay3 (F := Ideal)) q).trans ?_
    rw [pay4_3_apply]
    all_goals rfl
  | succ n =>
    rw [show outsAt4 V c (n + 1) hkN = outsAt4 V c (⟨n + 1, hkN⟩ : Fin cfg4.N).val (⟨n + 1, hkN⟩ : Fin cfg4.N).isLt from rfl,
      outsAt4_later V c ⟨n + 1, hkN⟩ (Nat.succ_ne_zero n)]
    show k4_pay1 (F := Ideal) (k4_pay6 (F := Ideal) (iblk4 V c 0 ⟨n + 1, hkN⟩) (iblk4 V c 1 ⟨n + 1, hkN⟩) (iblk4 V c 2 ⟨n + 1, hkN⟩) (iblk4 V c 3 ⟨n + 1, hkN⟩) (iblk4 V c 4 ⟨n + 1, hkN⟩) (outsAt4 V c n _).2.2.2.1) (ix2 (0 : Fin 1) q) = accS4 V c q (n + 1) + _
    refine (pay4_1_apply _ _).trans ?_
    refine (pay4_6_apply (iblk4 V c 0 ⟨n + 1, hkN⟩) (iblk4 V c 1 ⟨n + 1, hkN⟩) (iblk4 V c 2 ⟨n + 1, hkN⟩) (iblk4 V c 3 ⟨n + 1, hkN⟩) (iblk4 V c 4 ⟨n + 1, hkN⟩) _ q).trans ?_
    show _ = (if h : n < cfg4.N then (outsAt4 V c n h).2.2.2.1 (ix2 (0 : Fin 1) q) else 0) + _
    rw [dif_pos (Nat.lt_of_succ_lt hkN)]
    all_goals rfl

/-- One point adds its block's column sums of squares. -/
theorem accQ4_step (c : Dev nD) (q : Fin 128) (k : ℕ) (hk : k < 20) :
    accQ4 V c q (k + 1) = accQ4 V c q k + ∑ a : Fin 5000, Z4 V c (ix2 ⟨5000 * k + a.val, (by have := a.isLt; omega)⟩ q) * Z4 V c (ix2 ⟨5000 * k + a.val, (by have := a.isLt; omega)⟩ q) := by
  have hN : cfg4.N = 20 := N_4
  have hkN : k < cfg4.N := by omega
  have hsum : ∑ a : Fin 5000, blkZ4 V c ⟨k, hkN⟩ (ix2 a q) * blkZ4 V c ⟨k, hkN⟩ (ix2 a q) = ∑ a : Fin 5000, Z4 V c (ix2 ⟨5000 * k + a.val, (by have := a.isLt; omega)⟩ q) * Z4 V c (ix2 ⟨5000 * k + a.val, (by have := a.isLt; omega)⟩ q) :=
    Finset.sum_congr rfl fun a _ => by rw [blkZ4_apply V c ⟨k, hkN⟩ a q ((by have := a.isLt; omega))]
  show (if h : k < cfg4.N then (outsAt4 V c k h).2.2.2.2 (ix2 (0 : Fin 1) q) else 0) = _
  rw [dif_pos hkN, ← hsum]
  cases k with
  | zero =>
    rw [show outsAt4 V c 0 hkN = outsAt4 V c (⟨0, hkN⟩ : Fin cfg4.N).val (⟨0, hkN⟩ : Fin cfg4.N).isLt from rfl, outsAt4_first V c ⟨0, hkN⟩ rfl]
    show k4_pay2 (F := Ideal) (blkZ4 V c ⟨0, hkN⟩) (k4_pay4 (F := Ideal)) (ix2 (0 : Fin 1) q) = accQ4 V c q 0 + _
    refine (pay4_2_apply (blkZ4 V c ⟨0, hkN⟩) (k4_pay4 (F := Ideal)) q).trans ?_
    rw [pay4_4_apply]
    all_goals rfl
  | succ n =>
    rw [show outsAt4 V c (n + 1) hkN = outsAt4 V c (⟨n + 1, hkN⟩ : Fin cfg4.N).val (⟨n + 1, hkN⟩ : Fin cfg4.N).isLt from rfl,
      outsAt4_later V c ⟨n + 1, hkN⟩ (Nat.succ_ne_zero n)]
    show k4_pay2 (F := Ideal) (blkZ4 V c ⟨n + 1, hkN⟩) (outsAt4 V c n _).2.2.2.2 (ix2 (0 : Fin 1) q) = accQ4 V c q (n + 1) + _
    refine (pay4_2_apply (blkZ4 V c ⟨n + 1, hkN⟩) _ q).trans ?_
    show _ = (if h : n < cfg4.N then (outsAt4 V c n h).2.2.2.2 (ix2 (0 : Fin 1) q) else 0) + _
    rw [dif_pos (Nat.lt_of_succ_lt hkN)]
    all_goals rfl

/-- After all twenty points the running column sum is the sum over all 100000 rows. -/
theorem accS4_total (c : Dev nD) (q : Fin 128) : accS4 V c q 20 = ∑ r : Fin 100000, Z4 V c (ix2 r q) :=
  Cert.Lib.sum_by_blocks (n := 20) (b := 5000) (N := 100000) rfl (fun r : Fin 100000 => Z4 V c (ix2 r q)) (accS4 V c q) rfl
    (fun k hk => accS4_step V c q k hk)

/-- And the running column sum of squares the sum of the squares. -/
theorem accQ4_total (c : Dev nD) (q : Fin 128) : accQ4 V c q 20 = ∑ r : Fin 100000, Z4 V c (ix2 r q) * Z4 V c (ix2 r q) :=
  Cert.Lib.sum_by_blocks (n := 20) (b := 5000) (N := 100000) rfl (fun r : Fin 100000 => Z4 V c (ix2 r q) * Z4 V c (ix2 r q)) (accQ4 V c q) rfl
    (fun k hk => accQ4_step V c q k hk)

/-- What the column-sum accumulator holds after the last point. -/
theorem accS4_last (c : Dev nD) (q : Fin 128) (t : Fin cfg4.N) (ht : t.val = 19) :
    (outsAt4 V c t.val t.isLt).2.2.2.1 (ix2 (0 : Fin 1) q) = ∑ r : Fin 100000, Z4 V c (ix2 r q) := by
  have h1 : accS4 V c q (t.val + 1) = (outsAt4 V c t.val t.isLt).2.2.2.1 (ix2 (0 : Fin 1) q) := by
    show (if h : t.val < cfg4.N then (outsAt4 V c t.val h).2.2.2.1 (ix2 (0 : Fin 1) q) else 0) = _
    rw [dif_pos t.isLt]
  rw [← h1, show t.val + 1 = 20 from by omega]
  exact accS4_total V c q

theorem accQ4_last (c : Dev nD) (q : Fin 128) (t : Fin cfg4.N) (ht : t.val = 19) :
    (outsAt4 V c t.val t.isLt).2.2.2.2 (ix2 (0 : Fin 1) q) = ∑ r : Fin 100000, Z4 V c (ix2 r q) * Z4 V c (ix2 r q) := by
  have h1 : accQ4 V c q (t.val + 1) = (outsAt4 V c t.val t.isLt).2.2.2.2 (ix2 (0 : Fin 1) q) := by
    show (if h : t.val < cfg4.N then (outsAt4 V c t.val h).2.2.2.2 (ix2 (0 : Fin 1) q) else 0) = _
    rw [dif_pos t.isLt]
  rw [← h1, show t.val + 1 = 20 from by omega]
  exact accQ4_total V c q

/-- Reading an array through a statistics window's block, for any array. -/
theorem read_blk4_6 (t : Fin cfg4.N) (G : Arr 1 128) (y) :
    ((cfg4.win 6).blk t).view.read (Elt Ideal) G y = G (((cfg4.win 6).blk t).view.emb y) := rfl
theorem read_blk4_7 (t : Fin cfg4.N) (G : Arr 1 128) (y) :
    ((cfg4.win 7).blk t).view.read (Elt Ideal) G y = G (((cfg4.win 7).blk t).view.emb y) := rfl

/-! ## From the blocks to the arrays -/

/-- Point `t` writes back rows `5000·t …` of the perceptron. -/
theorem flushed4_5_eq (c : Dev nD) (t : Fin cfg4.N) :
    (dat4 V c).flushed 5 t = ((cfg4.win 5).blk t).view.read (Elt Ideal) (Z4 V c) := by
  obtain ⟨-, -, -, -, -, -, -, -, -, -, e50, e51, -⟩ := idx_facts4 t
  have hN : cfg4.N = 20 := N_4
  show (cfg4.win 5).cut (grid4.coords t) ((dat4 V c).after 5 t) = _
  rw [after4_5, outsAt4_blk]
  funext y
  show blkZ4 V c t y = Z4 V c (((cfg4.win 5).blk t).view.emb y)
  have hy0 : (y 0).val < 5000 := (y 0).isLt
  have ht : t.val < 20 := hN ▸ t.isLt
  have hb : 5000 * t.val + (y 0).val < 100000 := by omega
  have hemb : ((cfg4.win 5).blk t).view.emb y = ix2 (⟨5000 * t.val + (y 0).val, hb⟩ : Fin 100000) (y 1) := by
    funext ax
    apply Fin.ext
    match ax with
    | ⟨0, _⟩ => show win4_5.index t (0 : Fin 2) * 5000 + 1 * (y 0).val = 5000 * t.val + (y 0).val; omega
    | ⟨1, _⟩ => show win4_5.index t (1 : Fin 2) * 128 + 1 * (y 1).val = (y 1).val; omega
  rw [hemb]
  exact (congrArg (blkZ4 V c t) (eq_ix2 y)).trans (blkZ4_apply V c t (y 0) (y 1) hb)

theorem mem_blk4_5 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v118_0).slice (win4_5.rect t)).set ↔ _
  rw [View.set_slice_whole, Rect.mem_set_unit]
  exact Iff.rfl

/-- THE PERCEPTRON ARRAY after the region. -/
theorem final4_5 (c : Dev nD) : (dat4 (F := Ideal) V c).arrAt 5 cfg4.N = Z4 V c :=
  (dat4 V c).arrAt_eq_of_cover 5 (Z4 V c) (fun t _ => flushed4_5_eq V c t) fun i => by
    have hN : cfg4.N = 20 := N_4
    have hi0 : (i 0).val < 100000 := (i 0).isLt
    have hi1 : (i 1).val < 128 := (i 1).isLt
    refine ⟨⟨(i 0).val / 5000, by omega⟩, flush4_5 _, ?_⟩
    obtain ⟨-, -, -, -, -, -, -, -, -, -, e50, e51, -⟩ := idx_facts4 ⟨(i 0).val / 5000, by omega⟩
    rw [mem_blk4_5]
    intro a
    match a with
    | ⟨0, _⟩ => show win4_5.index _ (0 : Fin 2) * 5000 ≤ (i 0).val ∧ (i 0).val < win4_5.index _ (0 : Fin 2) * 5000 + 5000; rw [e50]; dsimp only; omega
    | ⟨1, _⟩ => show win4_5.index _ (1 : Fin 2) * 128 ≤ (i 1).val ∧ (i 1).val < win4_5.index _ (1 : Fin 2) * 128 + 128; rw [e51]; omega

/-- The last point writes back the column sums over all rows. -/
theorem flushed4_6_eq (c : Dev nD) (t : Fin cfg4.N) (hf : (cfg4.win 6).flush t = true) :
    (dat4 V c).flushed 6 t = ((cfg4.win 6).blk t).view.read (Elt Ideal) (colSum (Z4 V c)) := by
  obtain ⟨-, -, -, -, -, -, -, -, -, -, -, -, e60, e61, -⟩ := idx_facts4 t
  have hN : cfg4.N = 20 := N_4
  have h19 : t.val = 19 := by have := (flush4_6 t).mp hf; have := t.isLt; omega
  show (cfg4.win 6).cut (grid4.coords t) ((dat4 V c).after 6 t) = _
  rw [after4_6, (outsAt4_mirror V c t).1]
  funext y
  refine Eq.trans ?_ (read_blk4_6 t (colSum (Z4 V c)) y).symm
  show (outsAt4 V c t.val t.isLt).2.2.2.1 y = _
  have hy0 : (y 0).val < 1 := (y 0).isLt
  have hemb : ((cfg4.win 6).blk t).view.emb y = y := by
    funext ax
    apply Fin.ext
    match ax with
    | ⟨0, _⟩ => show win4_6.index t (0 : Fin 2) * 1 + 1 * (y 0).val = (y 0).val; omega
    | ⟨1, _⟩ => show win4_6.index t (1 : Fin 2) * 128 + 1 * (y 1).val = (y 1).val; omega
  have hy : y = ix2 (0 : Fin 1) (y 1) :=
    (eq_ix2 y).trans (congrArg (fun u => ix2 u (y 1)) (Fin.ext (by show (y 0).val = 0; omega)))
  rw [hemb, hy]
  exact (accS4_last V c (y 1) t h19).trans (colSum_apply (Z4 V c) (y 1)).symm

theorem mem_blk4_6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v118_1).slice (win4_6.rect t)).set ↔ _
  rw [View.set_slice_whole, Rect.mem_set_unit]
  exact Iff.rfl

/-- THE COLUMN SUMS after the region. -/
theorem final4_6 (c : Dev nD) : (dat4 (F := Ideal) V c).arrAt 6 cfg4.N = colSum (Z4 V c) :=
  (dat4 V c).arrAt_eq_of_cover 6 (colSum (Z4 V c)) (flushed4_6_eq V c) fun i => by
    have hN : cfg4.N = 20 := N_4
    have hi0 : (i 0).val < 1 := (i 0).isLt
    have hi1 : (i 1).val < 128 := (i 1).isLt
    obtain ⟨t, ht⟩ := last_point4
    refine ⟨t, (flush4_6 t).mpr (by omega), ?_⟩
    obtain ⟨-, -, -, -, -, -, -, -, -, -, -, -, e60, e61, -⟩ := idx_facts4 t
    rw [mem_blk4_6]
    intro a
    match a with
    | ⟨0, _⟩ => show win4_6.index _ (0 : Fin 2) * 1 ≤ (i 0).val ∧ (i 0).val < win4_6.index _ (0 : Fin 2) * 1 + 1; rw [e60]; omega
    | ⟨1, _⟩ => show win4_6.index _ (1 : Fin 2) * 128 ≤ (i 1).val ∧ (i 1).val < win4_6.index _ (1 : Fin 2) * 128 + 128; rw [e61]; omega

/-- The last point writes back the column sums of squares over all rows. -/
theorem flushed4_7_eq (c : Dev nD) (t : Fin cfg4.N) (hf : (cfg4.win 7).flush t = true) :
    (dat4 V c).flushed 7 t = ((cfg4.win 7).blk t).view.read (Elt Ideal) (colSumSq (Z4 V c)) := by
  obtain ⟨-, -, -, -, -, -, -, -, -, -, -, -, -, -, e70, e71⟩ := idx_facts4 t
  have hN : cfg4.N = 20 := N_4
  have h19 : t.val = 19 := by have := (flush4_7 t).mp hf; have := t.isLt; omega
  show (cfg4.win 7).cut (grid4.coords t) ((dat4 V c).after 7 t) = _
  rw [after4_7, (outsAt4_mirror V c t).2]
  funext y
  refine Eq.trans ?_ (read_blk4_7 t (colSumSq (Z4 V c)) y).symm
  show (outsAt4 V c t.val t.isLt).2.2.2.2 y = _
  have hy0 : (y 0).val < 1 := (y 0).isLt
  have hemb : ((cfg4.win 7).blk t).view.emb y = y := by
    funext ax
    apply Fin.ext
    match ax with
    | ⟨0, _⟩ => show win4_7.index t (0 : Fin 2) * 1 + 1 * (y 0).val = (y 0).val; omega
    | ⟨1, _⟩ => show win4_7.index t (1 : Fin 2) * 128 + 1 * (y 1).val = (y 1).val; omega
  have hy : y = ix2 (0 : Fin 1) (y 1) :=
    (eq_ix2 y).trans (congrArg (fun u => ix2 u (y 1)) (Fin.ext (by show (y 0).val = 0; omega)))
  rw [hemb, hy]
  exact (accQ4_last V c (y 1) t h19).trans (colSumSq_apply (Z4 V c) (y 1)).symm

theorem mem_blk4_7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v118_2).slice (win4_7.rect t)).set ↔ _
  rw [View.set_slice_whole, Rect.mem_set_unit]
  exact Iff.rfl

/-- THE COLUMN SUMS OF SQUARES after the region. -/
theorem final4_7 (c : Dev nD) : (dat4 (F := Ideal) V c).arrAt 7 cfg4.N = colSumSq (Z4 V c) :=
  (dat4 V c).arrAt_eq_of_cover 7 (colSumSq (Z4 V c)) (flushed4_7_eq V c) fun i => by
    have hN : cfg4.N = 20 := N_4
    have hi0 : (i 0).val < 1 := (i 0).isLt
    have hi1 : (i 1).val < 128 := (i 1).isLt
    obtain ⟨t, ht⟩ := last_point4
    refine ⟨t, (flush4_7 t).mpr (by omega), ?_⟩
    obtain ⟨-, -, -, -, -, -, -, -, -, -, -, -, -, -, e70, e71⟩ := idx_facts4 t
    rw [mem_blk4_7]
    intro a
    match a with
    | ⟨0, _⟩ => show win4_7.index _ (0 : Fin 2) * 1 ≤ (i 0).val ∧ (i 0).val < win4_7.index _ (0 : Fin 2) * 1 + 1; rw [e70]; omega
    | ⟨1, _⟩ => show win4_7.index _ (1 : Fin 2) * 128 ≤ (i 1).val ∧ (i 1).val < win4_7.index _ (1 : Fin 2) * 128 + 128; rw [e71]; omega

end Values

end Cert.KernelIdeal

end
-- ==== Proof.KI.Val5.lean ====
import proofs.«118347_j18940805776024_1_alg».proof.Proof.KI.Reg5
import proofs.«118347_j18940805776024_1_alg».proof.Proof.KI.SpecA
import Idealize.ShloMosaic.Lib.Pipeline.Value
import Idealize.ShloMosaic.Lib.ValueLayout
import Idealize.ShloMosaic.Lib.Tactic

set_option maxRecDepth 16384

noncomputable section

namespace Cert.KernelIdeal

open Cert.KernelIdeal Cert.KernelIdeal.Gen Cert.SpecA
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! # The array region 5 leaves: the normalised `z`, entry by entry

Point `t` of the grid writes rows `10000·t … 10000·t + 9999` of the output; its input block of `z` is the same rows, and
the four row vectors are read whole at every point. So the ten blocks written are the ten row blocks of ONE function of
the five operand arrays, and they fill the array. -/

theorem hz5 : (![0, 0] : Fin 2 → Nat) = fun _ => 0 := funext fun a => by fin_cases a <;> rfl

/-- The body's value at entry `(p, q)` of its block, at the extended reals. -/
theorem pay5_apply (v0 : Vec Ideal S10000x128 .f32) (v2 v4 v6 v8 : Vec Ideal S1x128 .f32) (p : Fin 10000) (q : Fin 128) :
    k5_pay1 v0 v2 v4 v6 v8 (ix2 p q)
      = (v0 (ix2 p q) - v2 (ix2 0 q)) * Ideal.rsqrt (v4 (ix2 0 q) + epsW) * v6 (ix2 0 q) + v8 (ix2 0 q) := by
  unfold k5_pay1
  simp only [shapeCast_self, addf_apply, mulf_apply, subf_apply, broadcastTo_1b_ab_apply]
  rfl

/-- The block index maps over the grid: `z` and the output move one row block per point, the row vectors stay. -/
theorem idx_facts5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Entry `(p, q)` of `z`'s block at point `t` is entry `(10000·t + p, q)` of the array. -/
theorem blk5_0_apply (c : Dev nD) (t : Fin cfg5.N) (p : Fin 10000) (q : Fin 128) (r : Fin 100000) (hr : r.val = t.val * 10000 + p.val) :
    (iblk5 V c 0 t : Vec Ideal S10000x128 .f32) (ix2 p q) = (V c (Pipeline.arrRef spec5 0) : Mat 100000 128) (ix2 r q) := by
  obtain ⟨e0, e1, -⟩ := idx_facts5 t
  unfold iblk5
  show V c (Pipeline.arrRef spec5 0) (((cfg5.win 0).blk t).view.emb (ix2 p q)) = V c (Pipeline.arrRef spec5 0) (ix2 r q)
  refine congrArg (V c (Pipeline.arrRef spec5 0)) (funext fun a => Fin.ext ?_)
  match a with
  | ⟨0, _⟩ => show win5_0.index t (0 : Fin 2) * 10000 + 1 * p.val = r.val; omega
  | ⟨1, _⟩ => show win5_0.index t (1 : Fin 2) * 128 + 1 * q.val = q.val; omega

/-- Row vector 1's block at any point is the whole vector. -/
theorem blk5_1_apply (c : Dev nD) (t : Fin cfg5.N) (q : Fin 128) :
    (iblk5 V c 1 t : Vec Ideal S1x128 .f32) (ix2 0 q) = (V c (Pipeline.arrRef spec5 1) : Mat 1 128) (ix2 0 q) := by
  obtain ⟨-, -, -, -, e0, e1, -⟩ := idx_facts5 t
  unfold iblk5
  show V c (Pipeline.arrRef spec5 1) (((cfg5.win 1).blk t).view.emb (ix2 0 q)) = V c (Pipeline.arrRef spec5 1) (ix2 0 q)
  refine congrArg (V c (Pipeline.arrRef spec5 1)) (funext fun a => Fin.ext ?_)
  match a with
  | ⟨0, _⟩ => show win5_1.index t (0 : Fin 2) * 1 + 1 * 0 = 0; omega
  | ⟨1, _⟩ => show win5_1.index t (1 : Fin 2) * 128 + 1 * q.val = q.val; omega

/-- Row vector 2's block at any point is the whole vector. -/
theorem blk5_2_apply (c : Dev nD) (t : Fin cfg5.N) (q : Fin 128) :
    (iblk5 V c 2 t : Vec Ideal S1x128 .f32) (ix2 0 q) = (V c (Pipeline.arrRef spec5 2) : Mat 1 128) (ix2 0 q) := by
  obtain ⟨-, -, -, -, -, -, e0, e1, -⟩ := idx_facts5 t
  unfold iblk5
  show V c (Pipeline.arrRef spec5 2) (((cfg5.win 2).blk t).view.emb (ix2 0 q)) = V c (Pipeline.arrRef spec5 2) (ix2 0 q)
  refine congrArg (V c (Pipeline.arrRef spec5 2)) (funext fun a => Fin.ext ?_)
  match a with
  | ⟨0, _⟩ => show win5_2.index t (0 : Fin 2) * 1 + 1 * 0 = 0; omega
  | ⟨1, _⟩ => show win5_2.index t (1 : Fin 2) * 128 + 1 * q.val = q.val; omega

/-- Row vector 3's block at any point is the whole vector. -/
theorem blk5_3_apply (c : Dev nD) (t : Fin cfg5.N) (q : Fin 128) :
    (iblk5 V c 3 t : Vec Ideal S1x128 .f32) (ix2 0 q) = (V c (Pipeline.arrRef spec5 3) : Mat 1 128) (ix2 0 q) := by
  obtain ⟨-, -, -, -, -, -, -, -, e0, e1, -⟩ := idx_facts5 t
  unfold iblk5
  show V c (Pipeline.arrRef spec5 3) (((cfg5.win 3).blk t).view.emb (ix2 0 q)) = V c (Pipeline.arrRef spec5 3) (ix2 0 q)
  refine congrArg (V c (Pipeline.arrRef spec5 3)) (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega

/-- Row vector 4's block at any point is the whole vector. -/
theorem blk5_4_apply (c : Dev nD) (t : Fin cfg5.N) (q : Fin 128) :
    (iblk5 V c 4 t : Vec Ideal S1x128 .f32) (ix2 0 q) = (V c (Pipeline.arrRef spec5 4) : Mat 1 128) (ix2 0 q) := by
  obtain ⟨-, -, -, -, -, -, -, -, -, -, e0, e1⟩ := idx_facts5 t
  unfold iblk5
  show V c (Pipeline.arrRef spec5 4) (((cfg5.win 4).blk t).view.emb (ix2 0 q)) = V c (Pipeline.arrRef spec5 4) (ix2 0 q)
  refine congrArg (V c (Pipeline.arrRef spec5 4)) (funext fun a => Fin.ext ?_)
  match a with
  | ⟨0, _⟩ => show win5_4.index t (0 : Fin 2) * 1 + 1 * 0 = 0; omega
  | ⟨1, _⟩ => show win5_4.index t (1 : Fin 2) * 128 + 1 * q.val = q.val; omega

/-- The array row under row `p` of point `t`'s block. -/
def row5 (t : Fin cfg5.N) (p : Fin 10000) : Fin 100000 :=
  ⟨t.val * 10000 + p.val, by have := lt_of_lt_of_eq t.isLt (show cfg5.N = 10 from N_5); have := p.isLt; omega⟩

set_option maxHeartbeats 1000000 in
/-- The block the body leaves at point `t`: the normalised array on the block's rows. -/
theorem block5_eq (c : Dev nD) (t : Fin cfg5.N) :
    k5_pay1 (iblk5 V c 0 t) (iblk5 V c 1 t) (iblk5 V c 2 t) (iblk5 V c 3 t) (iblk5 V c 4 t)
      = fun j : S10000x128.Idx => bnAt (V c (Pipeline.arrRef spec5 0)) (V c (Pipeline.arrRef spec5 1)) (V c (Pipeline.arrRef spec5 2))
          (V c (Pipeline.arrRef spec5 3)) (V c (Pipeline.arrRef spec5 4)) (row5 t (j 0)) (j 1) := by
  funext j
  obtain ⟨p, q, rfl⟩ : ∃ (p : Fin 10000) (q : Fin 128), j = ix2 p q := ⟨j 0, j 1, eq_ix2 j⟩
  show _ = bnAt _ _ _ _ _ (row5 t p) q
  unfold bnAt
  rw [pay5_apply (iblk5 V c 0 t) (iblk5 V c 1 t) (iblk5 V c 2 t) (iblk5 V c 3 t) (iblk5 V c 4 t) p q,
    blk5_0_apply V c t p q (row5 t p) rfl, blk5_1_apply V c t q, blk5_2_apply V c t q,
    blk5_3_apply V c t q, blk5_4_apply V c t q]

set_option maxHeartbeats 1000000 in
/-- What point `t` writes back is block `t` of the normalised array. -/
theorem flushed5_eq (c : Dev nD) (t : Fin cfg5.N) :
    (dat5 V c).flushed 5 t = ((cfg5.win 5).blk t).view.read (Elt Ideal)
      (bnFn (V c (Pipeline.arrRef spec5 0)) (V c (Pipeline.arrRef spec5 1)) (V c (Pipeline.arrRef spec5 2))
        (V c (Pipeline.arrRef spec5 3)) (V c (Pipeline.arrRef spec5 4))) := by
  obtain ⟨-, -, e2, e3, -⟩ := idx_facts5 t
  show (cfg5.win 5).cut (grid5.coords t) ((dat5 V c).after 5 t) = _
  rw [after5_5]
  unfold out5_5
  rw [View.canon_unit_zero hz5]
  simp only [View.ld_unit_zero (S := S10000x128) hz5, View.ld_unit_zero (S := S1x128) hz5]
  refine (congrArg ((cfg5.win 5).cut (grid5.coords t)) (block5_eq V c t)).trans ?_
  funext j
  show bnAt (V c (Pipeline.arrRef spec5 0)) (V c (Pipeline.arrRef spec5 1)) (V c (Pipeline.arrRef spec5 2))
        (V c (Pipeline.arrRef spec5 3)) (V c (Pipeline.arrRef spec5 4)) (row5 t ⟨(j 0).val, (j 0).isLt⟩) ⟨(j 1).val, (j 1).isLt⟩
    = bnAt (V c (Pipeline.arrRef spec5 0)) (V c (Pipeline.arrRef spec5 1)) (V c (Pipeline.arrRef spec5 2))
        (V c (Pipeline.arrRef spec5 3)) (V c (Pipeline.arrRef spec5 4))
        ((((cfg5.win 5).blk t).view.emb j) 0) ((((cfg5.win 5).blk t).view.emb j) 1)
  refine congrArg₂ _ (Fin.ext ?_) (Fin.ext ?_)
  · show t.val * 10000 + (j 0).val = win5_5.index t (0 : Fin 2) * 10000 + 1 * (j 0).val; omega
  · show (j 1).val = win5_5.index t (1 : Fin 2) * 128 + 1 * (j 1).val; omega

/-- An index of the output array is in point `t`'s block iff its row is one of the block's. -/
theorem mem_blk5 (t : Fin cfg5.N) (i : S100000x128.Idx) :
    i ∈ ((cfg5.win 5).blk t).view.set ↔ ∀ a : Fin 2, win5_5.index t a * S10000x128.size a ≤ (i a).val ∧ (i a).val < win5_5.index t a * S10000x128.size a + S10000x128.size a := by
  show i ∈ ((View.whole main_v135).slice (win5_5.rect t)).set ↔ _
  rw [View.set_slice_whole, Rect.mem_set_unit]
  exact Iff.rfl

/-- THE ARRAY after the region: the normalised `z`. -/
theorem final5 (c : Dev nD) : (dat5 (F := Ideal) V c).arrAt 5 cfg5.N
    = bnFn (V c (Pipeline.arrRef spec5 0)) (V c (Pipeline.arrRef spec5 1)) (V c (Pipeline.arrRef spec5 2))
        (V c (Pipeline.arrRef spec5 3)) (V c (Pipeline.arrRef spec5 4)) :=
  (dat5 V c).arrAt_eq_of_cover 5 _ (fun t _ => flushed5_eq V c t) fun i => by
    have hi0 : (i 0).val < 100000 := (i 0).isLt
    have hi1 : (i 1).val < 128 := (i 1).isLt
    have hN : cfg5.N = 10 := N_5
    refine ⟨⟨(i 0).val / 10000, by rw [hN]; omega⟩, flush5_5 _, ?_⟩
    obtain ⟨-, -, e2, e3, -⟩ := idx_facts5 ⟨(i 0).val / 10000, by rw [hN]; omega⟩
    rw [mem_blk5]
    intro a
    match a with
    | ⟨0, _⟩ => show win5_5.index _ (0 : Fin 2) * 10000 ≤ (i 0).val ∧ (i 0).val < win5_5.index _ (0 : Fin 2) * 10000 + 10000; rw [e2]; show (i 0).val / 10000 * 10000 ≤ (i 0).val ∧ (i 0).val < (i 0).val / 10000 * 10000 + 10000; omega
    | ⟨1, _⟩ => show win5_5.index _ (1 : Fin 2) * 128 ≤ (i 1).val ∧ (i 1).val < win5_5.index _ (1 : Fin 2) * 128 + 128; rw [e3]; omega

end Cert.KernelIdeal

end
-- ==== Proof.KI.Val6.Pieces.lean ====
/- Region 6: what each control case leaves in the outputs' buffers and in the accumulators, as the body's payloads of
   the loaded blocks. -/
import proofs.«118347_j18940805776024_1_alg».proof.Proof.KI.Reg6
import proofs.«118347_j18940805776024_1_alg».proof.Proof.KI.ValLib

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The first point -/

theorem out6_A_5_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) :
    out6_A_5 c i arg1 harg1 arg2 harg2 arg3 harg3 arg4 harg4 arg5 harg5 arg6 harg6 arg7 harg7 arg8 harg8 arg9 harg9 arg10 harg10 hc0 x0 x1 x2 x3 x4 = k6_pay5 x0 x1 x2 x3 x4 := by
  unfold out6_A_5 kernelRun6_A; dsimp only
  rw [View.canon_unit_zero hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem sout6_A_0_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) :
    sout6_A_0 c i arg1 harg1 arg2 harg2 arg3 harg3 arg4 harg4 arg5 harg5 arg6 harg6 arg7 harg7 arg8 harg8 arg9 harg9 arg10 harg10 hc0 x0 x1 x2 x3 x4 = k6_pay1 (k6_pay6 x0 x1 x2 x3 x4 k6_pay3) := by
  unfold sout6_A_0 kernelRun6_A; dsimp only; sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem sout6_A_1_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) :
    sout6_A_1 c i arg1 harg1 arg2 harg2 arg3 harg3 arg4 harg4 arg5 harg5 arg6 harg6 arg7 harg7 arg8 harg8 arg9 harg9 arg10 harg10 hc0 x0 x1 x2 x3 x4 = k6_pay2 (k6_pay5 x0 x1 x2 x3 x4) k6_pay4 := by
  unfold sout6_A_1 kernelRun6_A; dsimp only; sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem out6_A_6_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) :
    out6_A_6 c i arg1 harg1 arg2 harg2 arg3 harg3 arg4 harg4 arg5 harg5 arg6 harg6 arg7 harg7 arg8 harg8 arg9 harg9 arg10 harg10 hc0 x0 x1 x2 x3 x4 = k6_pay1 (k6_pay6 x0 x1 x2 x3 x4 k6_pay3) := by
  unfold out6_A_6 kernelRun6_A; dsimp only; sl_unfold_words
  rw [View.canon_unit_zero hz2, readCov_cons_unit_zero _ hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

theorem out6_A_7_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i)
    (x0 : Vec F S5000x128 .f32) (x1 : Vec F S128x128 .f32) (x2 : Vec F S1x128 .f32) (x3 : Vec F S128x128 .f32) (x4 : Vec F S1x128 .f32) :
    out6_A_7 c i arg1 harg1 arg2 harg2 arg3 harg3 arg4 harg4 arg5 harg5 arg6 harg6 arg7 harg7 arg8 harg8 arg9 harg9 arg10 harg10 hc0 x0 x1 x2 x3 x4 = k6_pay2 (k6_pay5 x0 x1 x2 x3 x4) k6_pay4 := by
  unfold out6_A_7 kernelRun6_A; dsimp only; sl_unfold_words
  rw [View.canon_unit_zero hz2, readCov_cons_unit_zero _ hz2, View.readCov_unit_zero (S := S1x128) _ hz2]
  simp only [View.readAt_eq_ld, harg1.read_unread, harg2.read_unread, harg3.read_unread, harg4.read_unread, harg5.read_unread, View.ld_unit_zero (S := S5000x128) hz2, View.ld_unit_zero (S := S128x128) hz2, View.ld_unit_zero (S := S1x128) hz2]

/-! ## Every later point -/

theorem out6_B_5_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    out6_B_5 c i arg1 harg1 arg2 harg2 arg3 harg3 arg4 harg4 arg5 harg5 arg6 harg6 arg7 harg7 arg8 harg8 arg9 harg9 arg10 harg10 hc0 x0 x1 x2 x3 x4 xs0 xs1 = k6_pay5 x0 x1 x2 x3 x4 := by
  unfold out6_B_5 kernelRun6_B; dsimp only
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem sout6_B_0_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    sout6_B_0 c i arg1 harg1 arg2 harg2 arg3 harg3 arg4 harg4 arg5 harg5 arg6 harg6 arg7 harg7 arg8 harg8 arg9 harg9 arg10 harg10 hc0 x0 x1 x2 x3 x4 xs0 xs1 = k6_pay1 (k6_pay6 x0 x1 x2 x3 x4 xs0) := by
  unfold sout6_B_0 kernelRun6_B; dsimp only; sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem sout6_B_1_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    sout6_B_1 c i arg1 harg1 arg2 harg2 arg3 harg3 arg4 harg4 arg5 harg5 arg6 harg6 arg7 harg7 arg8 harg8 arg9 harg9 arg10 harg10 hc0 x0 x1 x2 x3 x4 xs0 xs1 = k6_pay2 (k6_pay5 x0 x1 x2 x3 x4) xs1 := by
  unfold sout6_B_1 kernelRun6_B; dsimp only; sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem out6_B_6_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    out6_B_6 c i arg1 harg1 arg2 harg2 arg3 harg3 arg4 harg4 arg5 harg5 arg6 harg6 arg7 harg7 arg8 harg8 arg9 harg9 arg10 harg10 hc0 x0 x1 x2 x3 x4 xs0 xs1 = k6_pay1 (k6_pay6 x0 x1 x2 x3 x4 xs0) := by
  unfold out6_B_6 kernelRun6_B; dsimp only; sl_unfold_words
  rw [View.canon_unit_zero hz2, View.readCov_unit_zero (S := S1x128) _ hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

theorem out6_B_7_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    out6_B_7 c i arg1 harg1 arg2 harg2 arg3 harg3 arg4 harg4 arg5 harg5 arg6 harg6 arg7 harg7 arg8 harg8 arg9 harg9 arg10 harg10 hc0 x0 x1 x2 x3 x4 xs0 xs1 = k6_pay2 (k6_pay5 x0 x1 x2 x3 x4) xs1 := by
  unfold out6_B_7 kernelRun6_B; dsimp only; sl_unfold_words
  rw [View.canon_unit_zero hz2, View.readCov_unit_zero (S := S1x128) _ hz2]
  simp only [View.readAt_eq_ld, harg1.read_unread, harg2.read_unread, harg3.read_unread, harg4.read_unread, harg5.read_unread, harg9.read_unread, harg10.read_unread, View.ld_unit_zero (S := S5000x128) hz2, View.ld_unit_zero (S := S128x128) hz2, View.ld_unit_zero (S := S1x128) hz2]

end Cert.KernelIdeal

end
-- ==== Proof.KI.Val6.Pay.lean ====
/- Region 6's stored values read entry by entry at the extended reals: the perceptron's block, and what one grid point
   adds to each of the two running column sums. -/
import proofs.«118347_j18940805776024_1_alg».proof.Proof.Gen.KernelIdeal.Skeleton
import proofs.«118347_j18940805776024_1_alg».proof.Proof.KI.SpecB
import proofs.«118347_j18940805776024_1_alg».proof.Proof.KI.ValLib

set_option maxRecDepth 16384

noncomputable section

namespace Cert.KernelIdeal

open Cert.KernelIdeal.Gen
open Idealize.ShloMosaic Idealize.ShloMosaic.TcCoe Idealize.ShloMosaic.ValueIdx
open Idealize.SL.Sem
open Idealize.ShloMosaic.Pipeline (Dat)
open Cert.SpecB
open scoped BigOperators

section Pay
variable (x0 : Vec Ideal S5000x128 .f32) (x1 : Vec Ideal S128x128 .f32) (x2 : Vec Ideal S1x128 .f32) (x3 : Vec Ideal S128x128 .f32) (x4 : Vec Ideal S1x128 .f32)

/-- The block the body stores is the perceptron of the blocks it loads, entry by entry. -/
theorem pay6_5_apply (r : Fin 5000) (q : Fin 128) :
    k6_pay5 (F := Ideal) x0 x1 x2 x3 x4 (ix2 r q) = mlpAt x0 x1 x2 x3 x4 r q := by
  unfold k6_pay5
  simp only [shapeCast_self]
  rw [dot_plain_5000]
  simp only [maximumf_apply, addf_apply, broadcast_apply, truncf_apply, LibPlainMatmul.matmul_plain_zero_apply, broadcastTo_1b_ab_apply]
  simp only [ofBits_zero]
  rfl

/-- The accumulator's store is of the value as it is. -/
theorem pay6_1_apply (v : FVec Ideal S1x128 .f32) (y : S1x128.Idx) : k6_pay1 (F := Ideal) v y = v y := by
  unfold k6_pay1
  simp only [shapeCast_self]

/-- The zero fills read zero. -/
theorem pay6_3_apply (y : S1x128.Idx) : k6_pay3 (F := Ideal) y = 0 := by
  unfold k6_pay3
  simp only [shapeCast_self]
  exact ofBits_zero
theorem pay6_4_apply (y : S1x128.Idx) : k6_pay4 (F := Ideal) y = 0 := by
  unfold k6_pay4
  simp only [shapeCast_self]
  exact ofBits_zero

/-- One point adds to the running column sum the column sums of its block. -/
theorem pay6_6_apply (v28 : Vec Ideal S1x128 .f32) (q : Fin 128) :
    k6_pay6 (F := Ideal) x0 x1 x2 x3 x4 v28 (ix2 (0 : Fin 1) q)
      = v28 (ix2 (0 : Fin 1) q) + ∑ a : Fin 5000, k6_pay5 (F := Ideal) x0 x1 x2 x3 x4 (ix2 a q) := by
  unfold k6_pay6
  refine (addf_apply _ _ _).trans ?_
  refine congrArg (v28 (ix2 (0 : Fin 1) q) + ·) ?_
  refine (shapeCast_a_1a_apply _ _ (0 : Fin 1) q).trans ?_
  exact colReduce_apply _ _ _ _ _ q

/-- One point adds to the running column sum of squares the column sums of its block's squares. -/
theorem pay6_2_apply (z : FVec Ideal S5000x128 .f32) (v35 : Vec Ideal S1x128 .f32) (q : Fin 128) :
    k6_pay2 (F := Ideal) z v35 (ix2 (0 : Fin 1) q)
      = v35 (ix2 (0 : Fin 1) q) + ∑ a : Fin 5000, z (ix2 a q) * z (ix2 a q) := by
  unfold k6_pay2
  simp only [shapeCast_self]
  refine (addf_apply _ _ _).trans ?_
  refine congrArg (v35 (ix2 (0 : Fin 1) q) + ·) ?_
  refine (shapeCast_a_1a_apply _ _ (0 : Fin 1) q).trans ?_
  refine (colReduce_apply _ _ _ _ _ q).trans ?_
  rfl

end Pay

end Cert.KernelIdeal

end
-- ==== Proof.KI.Val6.lean ====
/- Region 6 at the extended reals: after the region its three output arrays are the perceptron of the entry arrays,
   its column sums and its column sums of squares — the two accumulators carried over the twenty grid points are one sum
   over all 100000 rows. -/
import proofs.«118347_j18940805776024_1_alg».proof.Proof.KI.Val6.Pieces
import proofs.«118347_j18940805776024_1_alg».proof.Proof.KI.Val6.Pay
import proofs.«118347_j18940805776024_1_alg».proof.Proof.LibBlockSum

set_option maxRecDepth 16384

noncomputable section

namespace Cert.KernelIdeal

open Cert.KernelIdeal.Gen
open Idealize.ShloMosaic Idealize.ShloMosaic.TcCoe Idealize.ShloMosaic.ValueIdx
open Idealize.SL.Sem
open Idealize.ShloMosaic.Pipeline (Dat)
open Cert.SpecB
open scoped BigOperators

section Values
variable (V : (c : Dev nD) → (b : Ref sig .tc) → Buf (Elt Ideal) ((c : Thread nD τ).loc b))

/-- The perceptron of the arrays the region is entered with. -/
abbrev Z6 (c : Dev nD) : Arr 100000 128 :=
  mlpZ (V c (Pipeline.arrRef spec6 0)) (V c (Pipeline.arrRef spec6 1)) (V c (Pipeline.arrRef spec6 2)) (V c (Pipeline.arrRef spec6 3)) (V c (Pipeline.arrRef spec6 4))

/-! ## The windows' blocks in the arrays -/

/-- The block index of every window at every point: the row windows move with the point, the others stay at the origin. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-- The grid has a last point, the twentieth. -/
theorem last_point6 : ∃ t : Fin cfg6.N, t.val = 19 := (by decide +kernel : ∃ t : Fin grid6.N, t.val = 19)

/-- Row `a` of the input's block at point `t` is row `5000·t + a` of the input. -/
theorem iblk6_0_apply (c : Dev nD) (t : Fin cfg6.N) (a : Fin 5000) (j : Fin 128) (h : 5000 * t.val + a.val < 100000) :
    (iblk6 V c 0 t : Vec Ideal S5000x128 .f32) (ix2 a j) = (V c (Pipeline.arrRef spec6 0) : Arr 100000 128) (ix2 ⟨5000 * t.val + a.val, h⟩ j) := by
  obtain ⟨e00, e01, -⟩ := idx_facts6 t
  unfold iblk6
  show (V c (Pipeline.arrRef spec6 0) : Arr 100000 128) (((cfg6.win 0).blk t).view.emb (ix2 a j)) = _
  refine congrArg (V c (Pipeline.arrRef spec6 0) : Arr 100000 128) ?_
  funext ax
  apply Fin.ext
  match ax with
  | ⟨0, _⟩ => show win6_0.index t (0 : Fin 2) * 5000 + 1 * a.val = 5000 * t.val + a.val; omega
  | ⟨1, _⟩ => show win6_0.index t (1 : Fin 2) * 128 + 1 * j.val = j.val; omega

/-- Window 1's block is its whole array at every point. -/
theorem iblk6_1_eq (c : Dev nD) (t : Fin cfg6.N) :
    (iblk6 V c 1 t : Vec Ideal S128x128 .f32) = (V c (Pipeline.arrRef spec6 1) : Arr 128 128) := by
  obtain ⟨e00, e01, e10, e11, e20, e21, e30, e31, e40, e41, -⟩ := idx_facts6 t
  funext y
  unfold iblk6
  show (V c (Pipeline.arrRef spec6 1) : Arr 128 128) (((cfg6.win 1).blk t).view.emb y) = _
  refine congrArg (V c (Pipeline.arrRef spec6 1) : Arr 128 128) ?_
  funext ax
  apply Fin.ext
  match ax with
  | ⟨0, _⟩ => show win6_1.index t (0 : Fin 2) * 128 + 1 * (y 0).val = (y 0).val; omega
  | ⟨1, _⟩ => show win6_1.index t (1 : Fin 2) * 128 + 1 * (y 1).val = (y 1).val; omega

/-- Window 2's block is its whole array at every point. -/
theorem iblk6_2_eq (c : Dev nD) (t : Fin cfg6.N) :
    (iblk6 V c 2 t : Vec Ideal S1x128 .f32) = (V c (Pipeline.arrRef spec6 2) : Arr 1 128) := by
  obtain ⟨e00, e01, e10, e11, e20, e21, e30, e31, e40, e41, -⟩ := idx_facts6 t
  funext y
  unfold iblk6
  show (V c (Pipeline.arrRef spec6 2) : Arr 1 128) (((cfg6.win 2).blk t).view.emb y) = _
  refine congrArg (V c (Pipeline.arrRef spec6 2) : Arr 1 128) ?_
  funext ax
  apply Fin.ext
  match ax with
  | ⟨0, _⟩ => show win6_2.index t (0 : Fin 2) * 1 + 1 * (y 0).val = (y 0).val; omega
  | ⟨1, _⟩ => show win6_2.index t (1 : Fin 2) * 128 + 1 * (y 1).val = (y 1).val; omega

/-- Window 3's block is its whole array at every point. -/
theorem iblk6_3_eq (c : Dev nD) (t : Fin cfg6.N) :
    (iblk6 V c 3 t : Vec Ideal S128x128 .f32) = (V c (Pipeline.arrRef spec6 3) : Arr 128 128) := by
  obtain ⟨e00, e01, e10, e11, e20, e21, e30, e31, e40, e41, -⟩ := idx_facts6 t
  funext y
  unfold iblk6
  show (V c (Pipeline.arrRef spec6 3) : Arr 128 128) (((cfg6.win 3).blk t).view.emb y) = _
  refine congrArg (V c (Pipeline.arrRef spec6 3) : Arr 128 128) ?_
  funext ax
  apply Fin.ext
  match ax with
  | ⟨0, _⟩ => show win6_3.index t (0 : Fin 2) * 128 + 1 * (y 0).val = (y 0).val; omega
  | ⟨1, _⟩ => show win6_3.index t (1 : Fin 2) * 128 + 1 * (y 1).val = (y 1).val; omega

/-- Window 4's block is its whole array at every point. -/
theorem iblk6_4_eq (c : Dev nD) (t : Fin cfg6.N) :
    (iblk6 V c 4 t : Vec Ideal S1x128 .f32) = (V c (Pipeline.arrRef spec6 4) : Arr 1 128) := by
  obtain ⟨e00, e01, e10, e11, e20, e21, e30, e31, e40, e41, -⟩ := idx_facts6 t
  funext y
  unfold iblk6
  show (V c (Pipeline.arrRef spec6 4) : Arr 1 128) (((cfg6.win 4).blk t).view.emb y) = _
  refine congrArg (V c (Pipeline.arrRef spec6 4) : Arr 1 128) ?_
  funext ax
  apply Fin.ext
  match ax with
  | ⟨0, _⟩ => show win6_4.index t (0 : Fin 2) * 1 + 1 * (y 0).val = (y 0).val; omega
  | ⟨1, _⟩ => show win6_4.index t (1 : Fin 2) * 128 + 1 * (y 1).val = (y 1).val; omega

/-- The block the body stores at point `t`. -/
def blkZ6 (c : Dev nD) (t : Fin cfg6.N) : Vec Ideal S5000x128 .f32 :=
  k6_pay5 (F := Ideal) (iblk6 V c 0 t) (iblk6 V c 1 t) (iblk6 V c 2 t) (iblk6 V c 3 t) (iblk6 V c 4 t)

/-- It is rows `5000·t … 5000·t + 4999` of the perceptron of the whole arrays. -/
theorem blkZ6_apply (c : Dev nD) (t : Fin cfg6.N) (a : Fin 5000) (q : Fin 128) (h : 5000 * t.val + a.val < 100000) :
    blkZ6 V c t (ix2 a q) = Z6 V c (ix2 ⟨5000 * t.val + a.val, h⟩ q) := by
  unfold blkZ6
  refine (pay6_5_apply (iblk6 V c 0 t) (iblk6 V c 1 t) (iblk6 V c 2 t) (iblk6 V c 3 t) (iblk6 V c 4 t) a q).trans ?_
  rw [iblk6_1_eq V c t, iblk6_2_eq V c t, iblk6_3_eq V c t, iblk6_4_eq V c t]
  have hx : ∀ j : Fin 128, (iblk6 V c 0 t : Vec Ideal S5000x128 .f32) (ix2 a j) = (V c (Pipeline.arrRef spec6 0) : Arr 100000 128) (ix2 ⟨5000 * t.val + a.val, h⟩ j) :=
    fun j => iblk6_0_apply V c t a j h
  show mlpAt _ _ _ _ _ a q = mlpAt _ _ _ _ _ ⟨5000 * t.val + a.val, h⟩ q
  unfold mlpAt hidAt
  simp only [hx]

/-! ## What every point leaves -/

/-- After the first point: the block, and both accumulators (and the windows that mirror them) started from zero. -/
theorem outsAt6_first (c : Dev nD) (t : Fin cfg6.N) (hz : t.val = 0) :
    outsAt6 V c t.val t.isLt
      = (blkZ6 V c t,
         k6_pay1 (F := Ideal) (k6_pay6 (F := Ideal) (iblk6 V c 0 t) (iblk6 V c 1 t) (iblk6 V c 2 t) (iblk6 V c 3 t) (iblk6 V c 4 t) (k6_pay3 (F := Ideal))),
         k6_pay2 (F := Ideal) (blkZ6 V c t) (k6_pay4 (F := Ideal)),
         k6_pay1 (F := Ideal) (k6_pay6 (F := Ideal) (iblk6 V c 0 t) (iblk6 V c 1 t) (iblk6 V c 2 t) (iblk6 V c 3 t) (iblk6 V c 4 t) (k6_pay3 (F := Ideal))),
         k6_pay2 (F := Ideal) (blkZ6 V c t) (k6_pay4 (F := Ideal))) := by
  rw [outsAt6_A V c t hz, out6_A_5_eq, out6_A_6_eq, out6_A_7_eq, sout6_A_0_eq, sout6_A_1_eq]
  rfl

/-- After a later point: the block, and both accumulators continued from what the point before left. -/
theorem outsAt6_later (c : Dev nD) (t : Fin cfg6.N) (hz : t.val ≠ 0) :
    outsAt6 V c t.val t.isLt
      = (blkZ6 V c t,
         k6_pay1 (F := Ideal) (k6_pay6 (F := Ideal) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1),
         k6_pay2 (F := Ideal) (blkZ6 V c t) (outsAt6 V c (t.val - 1) (Nat.lt_of_le_of_lt (Nat.sub_le _ _) t.isLt)).2.2.2.2,
         k6_pay1 (F := Ideal) (k6_pay6 (F := Ideal) (iblk6 V c 0 t) (iblk6 V c 1 t) (iblk6 V c 2 t) (iblk6 V c 3 t) (iblk6 V c 4 t) (outsAt6 V c (t.val - 1) (Nat.lt_of_le_of_lt (Nat.sub_le _ _) t.isLt)).2.2.2.1),
         k6_pay2 (F := Ideal) (blkZ6 V c t) (outsAt6 V c (t.val - 1) (Nat.lt_of_le_of_lt (Nat.sub_le _ _) t.isLt)).2.2.2.2) := by
  rw [outsAt6_B V c t hz, out6_B_5_eq, out6_B_6_eq, out6_B_7_eq, sout6_B_0_eq, sout6_B_1_eq]
  rfl

/-- The block window's buffer holds the point's block after every point. -/
theorem outsAt6_blk (c : Dev nD) (t : Fin cfg6.N) : (outsAt6 V c t.val t.isLt).1 = blkZ6 V c t := by
  by_cases hz : t.val = 0
  · rw [outsAt6_first V c t hz]
  · rw [outsAt6_later V c t hz]

/-- The two statistics windows' buffers hold what the accumulators hold after every point. -/
theorem outsAt6_mirror (c : Dev nD) (t : Fin cfg6.N) :
    (outsAt6 V c t.val t.isLt).2.1 = (outsAt6 V c t.val t.isLt).2.2.2.1
      ∧ (outsAt6 V c t.val t.isLt).2.2.1 = (outsAt6 V c t.val t.isLt).2.2.2.2 := by
  by_cases hz : t.val = 0
  · rw [outsAt6_first V c t hz]; exact ⟨rfl, rfl⟩
  · rw [outsAt6_later V c t hz]; exact ⟨rfl, rfl⟩

/-! ## The accumulators over the grid: one sum over all rows -/

/-- The running column sum after position `k` points (zero before the first), at column `q`. -/
def accS6 (c : Dev nD) (q : Fin 128) : ℕ → EReal
  | 0 => 0
  | k + 1 => if h : k < cfg6.N then (outsAt6 V c k h).2.2.2.1 (ix2 (0 : Fin 1) q) else 0

/-- The running column sum of squares likewise. -/
def accQ6 (c : Dev nD) (q : Fin 128) : ℕ → EReal
  | 0 => 0
  | k + 1 => if h : k < cfg6.N then (outsAt6 V c k h).2.2.2.2 (ix2 (0 : Fin 1) q) else 0

/-- One point adds its block's column sums. -/
theorem accS6_step (c : Dev nD) (q : Fin 128) (k : ℕ) (hk : k < 20) :
    accS6 V c q (k + 1) = accS6 V c q k + ∑ a : Fin 5000, Z6 V c (ix2 ⟨5000 * k + a.val, (by have := a.isLt; omega)⟩ q) := by
  have hN : cfg6.N = 20 := N_6
  have hkN : k < cfg6.N := by omega
  have hsum : ∑ a : Fin 5000, blkZ6 V c ⟨k, hkN⟩ (ix2 a q) = ∑ a : Fin 5000, Z6 V c (ix2 ⟨5000 * k + a.val, (by have := a.isLt; omega)⟩ q) :=
    Finset.sum_congr rfl fun a _ => blkZ6_apply V c ⟨k, hkN⟩ a q (by have := a.isLt; omega)
  show (if h : k < cfg6.N then (outsAt6 V c k h).2.2.2.1 (ix2 (0 : Fin 1) q) else 0) = _
  rw [dif_pos hkN, ← hsum]
  cases k with
  | zero =>
    rw [show outsAt6 V c 0 hkN = outsAt6 V c (⟨0, hkN⟩ : Fin cfg6.N).val (⟨0, hkN⟩ : Fin cfg6.N).isLt from rfl, outsAt6_first V c ⟨0, hkN⟩ rfl]
    show k6_pay1 (F := Ideal) (k6_pay6 (F := Ideal) (iblk6 V c 0 ⟨0, hkN⟩) (iblk6 V c 1 ⟨0, hkN⟩) (iblk6 V c 2 ⟨0, hkN⟩) (iblk6 V c 3 ⟨0, hkN⟩) (iblk6 V c 4 ⟨0, hkN⟩) (k6_pay3 (F := Ideal))) (ix2 (0 : Fin 1) q) = accS6 V c q 0 + _
    refine (pay6_1_apply _ _).trans ?_
    refine (pay6_6_apply (iblk6 V c 0 ⟨0, hkN⟩) (iblk6 V c 1 ⟨0, hkN⟩) (iblk6 V c 2 ⟨0, hkN⟩) (iblk6 V c 3 ⟨0, hkN⟩) (iblk6 V c 4 ⟨0, hkN⟩) (k6_pay3 (F := Ideal)) q).trans ?_
    rw [pay6_3_apply]
    all_goals rfl
  | succ n =>
    rw [show outsAt6 V c (n + 1) hkN = outsAt6 V c (⟨n + 1, hkN⟩ : Fin cfg6.N).val (⟨n + 1, hkN⟩ : Fin cfg6.N).isLt from rfl,
      outsAt6_later V c ⟨n + 1, hkN⟩ (Nat.succ_ne_zero n)]
    show k6_pay1 (F := Ideal) (k6_pay6 (F := Ideal) (iblk6 V c 0 ⟨n + 1, hkN⟩) (iblk6 V c 1 ⟨n + 1, hkN⟩) (iblk6 V c 2 ⟨n + 1, hkN⟩) (iblk6 V c 3 ⟨n + 1, hkN⟩) (iblk6 V c 4 ⟨n + 1, hkN⟩) (outsAt6 V c n _).2.2.2.1) (ix2 (0 : Fin 1) q) = accS6 V c q (n + 1) + _
    refine (pay6_1_apply _ _).trans ?_
    refine (pay6_6_apply (iblk6 V c 0 ⟨n + 1, hkN⟩) (iblk6 V c 1 ⟨n + 1, hkN⟩) (iblk6 V c 2 ⟨n + 1, hkN⟩) (iblk6 V c 3 ⟨n + 1, hkN⟩) (iblk6 V c 4 ⟨n + 1, hkN⟩) _ q).trans ?_
    show _ = (if h : n < cfg6.N then (outsAt6 V c n h).2.2.2.1 (ix2 (0 : Fin 1) q) else 0) + _
    rw [dif_pos (Nat.lt_of_succ_lt hkN)]
    all_goals rfl

/-- One point adds its block's column sums of squares. -/
theorem accQ6_step (c : Dev nD) (q : Fin 128) (k : ℕ) (hk : k < 20) :
    accQ6 V c q (k + 1) = accQ6 V c q k + ∑ a : Fin 5000, Z6 V c (ix2 ⟨5000 * k + a.val, (by have := a.isLt; omega)⟩ q) * Z6 V c (ix2 ⟨5000 * k + a.val, (by have := a.isLt; omega)⟩ q) := by
  have hN : cfg6.N = 20 := N_6
  have hkN : k < cfg6.N := by omega
  have hsum : ∑ a : Fin 5000, blkZ6 V c ⟨k, hkN⟩ (ix2 a q) * blkZ6 V c ⟨k, hkN⟩ (ix2 a q) = ∑ a : Fin 5000, Z6 V c (ix2 ⟨5000 * k + a.val, (by have := a.isLt; omega)⟩ q) * Z6 V c (ix2 ⟨5000 * k + a.val, (by have := a.isLt; omega)⟩ q) :=
    Finset.sum_congr rfl fun a _ => by rw [blkZ6_apply V c ⟨k, hkN⟩ a q ((by have := a.isLt; omega))]
  show (if h : k < cfg6.N then (outsAt6 V c k h).2.2.2.2 (ix2 (0 : Fin 1) q) else 0) = _
  rw [dif_pos hkN, ← hsum]
  cases k with
  | zero =>
    rw [show outsAt6 V c 0 hkN = outsAt6 V c (⟨0, hkN⟩ : Fin cfg6.N).val (⟨0, hkN⟩ : Fin cfg6.N).isLt from rfl, outsAt6_first V c ⟨0, hkN⟩ rfl]
    show k6_pay2 (F := Ideal) (blkZ6 V c ⟨0, hkN⟩) (k6_pay4 (F := Ideal)) (ix2 (0 : Fin 1) q) = accQ6 V c q 0 + _
    refine (pay6_2_apply (blkZ6 V c ⟨0, hkN⟩) (k6_pay4 (F := Ideal)) q).trans ?_
    rw [pay6_4_apply]
    all_goals rfl
  | succ n =>
    rw [show outsAt6 V c (n + 1) hkN = outsAt6 V c (⟨n + 1, hkN⟩ : Fin cfg6.N).val (⟨n + 1, hkN⟩ : Fin cfg6.N).isLt from rfl,
      outsAt6_later V c ⟨n + 1, hkN⟩ (Nat.succ_ne_zero n)]
    show k6_pay2 (F := Ideal) (blkZ6 V c ⟨n + 1, hkN⟩) (outsAt6 V c n _).2.2.2.2 (ix2 (0 : Fin 1) q) = accQ6 V c q (n + 1) + _
    refine (pay6_2_apply (blkZ6 V c ⟨n + 1, hkN⟩) _ q).trans ?_
    show _ = (if h : n < cfg6.N then (outsAt6 V c n h).2.2.2.2 (ix2 (0 : Fin 1) q) else 0) + _
    rw [dif_pos (Nat.lt_of_succ_lt hkN)]
    all_goals rfl

/-- After all twenty points the running column sum is the sum over all 100000 rows. -/
theorem accS6_total (c : Dev nD) (q : Fin 128) : accS6 V c q 20 = ∑ r : Fin 100000, Z6 V c (ix2 r q) :=
  Cert.Lib.sum_by_blocks (n := 20) (b := 5000) (N := 100000) rfl (fun r : Fin 100000 => Z6 V c (ix2 r q)) (accS6 V c q) rfl
    (fun k hk => accS6_step V c q k hk)

/-- And the running column sum of squares the sum of the squares. -/
theorem accQ6_total (c : Dev nD) (q : Fin 128) : accQ6 V c q 20 = ∑ r : Fin 100000, Z6 V c (ix2 r q) * Z6 V c (ix2 r q) :=
  Cert.Lib.sum_by_blocks (n := 20) (b := 5000) (N := 100000) rfl (fun r : Fin 100000 => Z6 V c (ix2 r q) * Z6 V c (ix2 r q)) (accQ6 V c q) rfl
    (fun k hk => accQ6_step V c q k hk)

/-- What the column-sum accumulator holds after the last point. -/
theorem accS6_last (c : Dev nD) (q : Fin 128) (t : Fin cfg6.N) (ht : t.val = 19) :
    (outsAt6 V c t.val t.isLt).2.2.2.1 (ix2 (0 : Fin 1) q) = ∑ r : Fin 100000, Z6 V c (ix2 r q) := by
  have h1 : accS6 V c q (t.val + 1) = (outsAt6 V c t.val t.isLt).2.2.2.1 (ix2 (0 : Fin 1) q) := by
    show (if h : t.val < cfg6.N then (outsAt6 V c t.val h).2.2.2.1 (ix2 (0 : Fin 1) q) else 0) = _
    rw [dif_pos t.isLt]
  rw [← h1, show t.val + 1 = 20 from by omega]
  exact accS6_total V c q

theorem accQ6_last (c : Dev nD) (q : Fin 128) (t : Fin cfg6.N) (ht : t.val = 19) :
    (outsAt6 V c t.val t.isLt).2.2.2.2 (ix2 (0 : Fin 1) q) = ∑ r : Fin 100000, Z6 V c (ix2 r q) * Z6 V c (ix2 r q) := by
  have h1 : accQ6 V c q (t.val + 1) = (outsAt6 V c t.val t.isLt).2.2.2.2 (ix2 (0 : Fin 1) q) := by
    show (if h : t.val < cfg6.N then (outsAt6 V c t.val h).2.2.2.2 (ix2 (0 : Fin 1) q) else 0) = _
    rw [dif_pos t.isLt]
  rw [← h1, show t.val + 1 = 20 from by omega]
  exact accQ6_total V c q

/-- Reading an array through a statistics window's block, for any array. -/
theorem read_blk6_6 (t : Fin cfg6.N) (G : Arr 1 128) (y) :
    ((cfg6.win 6).blk t).view.read (Elt Ideal) G y = G (((cfg6.win 6).blk t).view.emb y) := rfl
theorem read_blk6_7 (t : Fin cfg6.N) (G : Arr 1 128) (y) :
    ((cfg6.win 7).blk t).view.read (Elt Ideal) G y = G (((cfg6.win 7).blk t).view.emb y) := rfl

/-! ## From the blocks to the arrays -/

/-- Point `t` writes back rows `5000·t …` of the perceptron. -/
theorem flushed6_5_eq (c : Dev nD) (t : Fin cfg6.N) :
    (dat6 V c).flushed 5 t = ((cfg6.win 5).blk t).view.read (Elt Ideal) (Z6 V c) := by
  obtain ⟨-, -, -, -, -, -, -, -, -, -, e50, e51, -⟩ := idx_facts6 t
  have hN : cfg6.N = 20 := N_6
  show (cfg6.win 5).cut (grid6.coords t) ((dat6 V c).after 5 t) = _
  rw [after6_5, outsAt6_blk]
  funext y
  show blkZ6 V c t y = Z6 V c (((cfg6.win 5).blk t).view.emb y)
  have hy0 : (y 0).val < 5000 := (y 0).isLt
  have ht : t.val < 20 := hN ▸ t.isLt
  have hb : 5000 * t.val + (y 0).val < 100000 := by omega
  have hemb : ((cfg6.win 5).blk t).view.emb y = ix2 (⟨5000 * t.val + (y 0).val, hb⟩ : Fin 100000) (y 1) := by
    funext ax
    apply Fin.ext
    match ax with
    | ⟨0, _⟩ => show win6_5.index t (0 : Fin 2) * 5000 + 1 * (y 0).val = 5000 * t.val + (y 0).val; omega
    | ⟨1, _⟩ => show win6_5.index t (1 : Fin 2) * 128 + 1 * (y 1).val = (y 1).val; omega
  rw [hemb]
  exact (congrArg (blkZ6 V c t) (eq_ix2 y)).trans (blkZ6_apply V c t (y 0) (y 1) hb)

theorem mem_blk6_5 (t : Fin cfg6.N) (i : S100000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v162_0).slice (win6_5.rect t)).set ↔ _
  rw [View.set_slice_whole, Rect.mem_set_unit]
  exact Iff.rfl

/-- THE PERCEPTRON ARRAY after the region. -/
theorem final6_5 (c : Dev nD) : (dat6 (F := Ideal) V c).arrAt 5 cfg6.N = Z6 V c :=
  (dat6 V c).arrAt_eq_of_cover 5 (Z6 V c) (fun t _ => flushed6_5_eq V c t) fun i => by
    have hN : cfg6.N = 20 := N_6
    have hi0 : (i 0).val < 100000 := (i 0).isLt
    have hi1 : (i 1).val < 128 := (i 1).isLt
    refine ⟨⟨(i 0).val / 5000, by omega⟩, flush6_5 _, ?_⟩
    obtain ⟨-, -, -, -, -, -, -, -, -, -, e50, e51, -⟩ := idx_facts6 ⟨(i 0).val / 5000, by omega⟩
    rw [mem_blk6_5]
    intro a
    match a with
    | ⟨0, _⟩ => show win6_5.index _ (0 : Fin 2) * 5000 ≤ (i 0).val ∧ (i 0).val < win6_5.index _ (0 : Fin 2) * 5000 + 5000; rw [e50]; dsimp only; omega
    | ⟨1, _⟩ => show win6_5.index _ (1 : Fin 2) * 128 ≤ (i 1).val ∧ (i 1).val < win6_5.index _ (1 : Fin 2) * 128 + 128; rw [e51]; omega

/-- The last point writes back the column sums over all rows. -/
theorem flushed6_6_eq (c : Dev nD) (t : Fin cfg6.N) (hf : (cfg6.win 6).flush t = true) :
    (dat6 V c).flushed 6 t = ((cfg6.win 6).blk t).view.read (Elt Ideal) (colSum (Z6 V c)) := by
  obtain ⟨-, -, -, -, -, -, -, -, -, -, -, -, e60, e61, -⟩ := idx_facts6 t
  have hN : cfg6.N = 20 := N_6
  have h19 : t.val = 19 := by have := (flush6_6 t).mp hf; have := t.isLt; omega
  show (cfg6.win 6).cut (grid6.coords t) ((dat6 V c).after 6 t) = _
  rw [after6_6, (outsAt6_mirror V c t).1]
  funext y
  refine Eq.trans ?_ (read_blk6_6 t (colSum (Z6 V c)) y).symm
  show (outsAt6 V c t.val t.isLt).2.2.2.1 y = _
  have hy0 : (y 0).val < 1 := (y 0).isLt
  have hemb : ((cfg6.win 6).blk t).view.emb y = y := by
    funext ax
    apply Fin.ext
    match ax with
    | ⟨0, _⟩ => show win6_6.index t (0 : Fin 2) * 1 + 1 * (y 0).val = (y 0).val; omega
    | ⟨1, _⟩ => show win6_6.index t (1 : Fin 2) * 128 + 1 * (y 1).val = (y 1).val; omega
  have hy : y = ix2 (0 : Fin 1) (y 1) :=
    (eq_ix2 y).trans (congrArg (fun u => ix2 u (y 1)) (Fin.ext (by show (y 0).val = 0; omega)))
  rw [hemb, hy]
  exact (accS6_last V c (y 1) t h19).trans (colSum_apply (Z6 V c) (y 1)).symm

theorem mem_blk6_6 (t : Fin cfg6.N) (i : S1x128.Idx) :
    i ∈ ((cfg6.win 6).blk t).view.set ↔ ∀ a : Fin 2, win6_6.index t a * S1x128.size a ≤ (i a).val ∧ (i a).val < win6_6.index t a * S1x128.size a + S1x128.size a := by
  show i ∈ ((View.whole main_v162_1).slice (win6_6.rect t)).set ↔ _
  rw [View.set_slice_whole, Rect.mem_set_unit]
  exact Iff.rfl

/-- THE COLUMN SUMS after the region. -/
theorem final6_6 (c : Dev nD) : (dat6 (F := Ideal) V c).arrAt 6 cfg6.N = colSum (Z6 V c) :=
  (dat6 V c).arrAt_eq_of_cover 6 (colSum (Z6 V c)) (flushed6_6_eq V c) fun i => by
    have hN : cfg6.N = 20 := N_6
    have hi0 : (i 0).val < 1 := (i 0).isLt
    have hi1 : (i 1).val < 128 := (i 1).isLt
    obtain ⟨t, ht⟩ := last_point6
    refine ⟨t, (flush6_6 t).mpr (by omega), ?_⟩
    obtain ⟨-, -, -, -, -, -, -, -, -, -, -, -, e60, e61, -⟩ := idx_facts6 t
    rw [mem_blk6_6]
    intro a
    match a with
    | ⟨0, _⟩ => show win6_6.index _ (0 : Fin 2) * 1 ≤ (i 0).val ∧ (i 0).val < win6_6.index _ (0 : Fin 2) * 1 + 1; rw [e60]; omega
    | ⟨1, _⟩ => show win6_6.index _ (1 : Fin 2) * 128 ≤ (i 1).val ∧ (i 1).val < win6_6.index _ (1 : Fin 2) * 128 + 128; rw [e61]; omega

/-- The last point writes back the column sums of squares over all rows. -/
theorem flushed6_7_eq (c : Dev nD) (t : Fin cfg6.N) (hf : (cfg6.win 7).flush t = true) :
    (dat6 V c).flushed 7 t = ((cfg6.win 7).blk t).view.read (Elt Ideal) (colSumSq (Z6 V c)) := by
  obtain ⟨-, -, -, -, -, -, -, -, -, -, -, -, -, -, e70, e71⟩ := idx_facts6 t
  have hN : cfg6.N = 20 := N_6
  have h19 : t.val = 19 := by have := (flush6_7 t).mp hf; have := t.isLt; omega
  show (cfg6.win 7).cut (grid6.coords t) ((dat6 V c).after 7 t) = _
  rw [after6_7, (outsAt6_mirror V c t).2]
  funext y
  refine Eq.trans ?_ (read_blk6_7 t (colSumSq (Z6 V c)) y).symm
  show (outsAt6 V c t.val t.isLt).2.2.2.2 y = _
  have hy0 : (y 0).val < 1 := (y 0).isLt
  have hemb : ((cfg6.win 7).blk t).view.emb y = y := by
    funext ax
    apply Fin.ext
    match ax with
    | ⟨0, _⟩ => show win6_7.index t (0 : Fin 2) * 1 + 1 * (y 0).val = (y 0).val; omega
    | ⟨1, _⟩ => show win6_7.index t (1 : Fin 2) * 128 + 1 * (y 1).val = (y 1).val; omega
  have hy : y = ix2 (0 : Fin 1) (y 1) :=
    (eq_ix2 y).trans (congrArg (fun u => ix2 u (y 1)) (Fin.ext (by show (y 0).val = 0; omega)))
  rw [hemb, hy]
  exact (accQ6_last V c (y 1) t h19).trans (colSumSq_apply (Z6 V c) (y 1)).symm

theorem mem_blk6_7 (t : Fin cfg6.N) (i : S1x128.Idx) :
    i ∈ ((cfg6.win 7).blk t).view.set ↔ ∀ a : Fin 2, win6_7.index t a * S1x128.size a ≤ (i a).val ∧ (i a).val < win6_7.index t a * S1x128.size a + S1x128.size a := by
  show i ∈ ((View.whole main_v162_2).slice (win6_7.rect t)).set ↔ _
  rw [View.set_slice_whole, Rect.mem_set_unit]
  exact Iff.rfl

/-- THE COLUMN SUMS OF SQUARES after the region. -/
theorem final6_7 (c : Dev nD) : (dat6 (F := Ideal) V c).arrAt 7 cfg6.N = colSumSq (Z6 V c) :=
  (dat6 V c).arrAt_eq_of_cover 7 (colSumSq (Z6 V c)) (flushed6_7_eq V c) fun i => by
    have hN : cfg6.N = 20 := N_6
    have hi0 : (i 0).val < 1 := (i 0).isLt
    have hi1 : (i 1).val < 128 := (i 1).isLt
    obtain ⟨t, ht⟩ := last_point6
    refine ⟨t, (flush6_7 t).mpr (by omega), ?_⟩
    obtain ⟨-, -, -, -, -, -, -, -, -, -, -, -, -, -, e70, e71⟩ := idx_facts6 t
    rw [mem_blk6_7]
    intro a
    match a with
    | ⟨0, _⟩ => show win6_7.index _ (0 : Fin 2) * 1 ≤ (i 0).val ∧ (i 0).val < win6_7.index _ (0 : Fin 2) * 1 + 1; rw [e70]; omega
    | ⟨1, _⟩ => show win6_7.index _ (1 : Fin 2) * 128 ≤ (i 1).val ∧ (i 1).val < win6_7.index _ (1 : Fin 2) * 128 + 128; rw [e71]; omega

end Values

end Cert.KernelIdeal

end
-- ==== Proof.KI.Val7.lean ====
import proofs.«118347_j18940805776024_1_alg».proof.Proof.KI.Reg7
import proofs.«118347_j18940805776024_1_alg».proof.Proof.KI.SpecA
import Idealize.ShloMosaic.Lib.Pipeline.Value
import Idealize.ShloMosaic.Lib.ValueLayout
import Idealize.ShloMosaic.Lib.Tactic

set_option maxRecDepth 16384

noncomputable section

namespace Cert.KernelIdeal

open Cert.KernelIdeal Cert.KernelIdeal.Gen Cert.SpecA
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! # The array region 7 leaves: the normalised `z`, entry by entry

Point `t` of the grid writes rows `10000·t … 10000·t + 9999` of the output; its input block of `z` is the same rows, and
the four row vectors are read whole at every point. So the ten blocks written are the ten row blocks of ONE function of
the five operand arrays, and they fill the array. -/

theorem hz7 : (![0, 0] : Fin 2 → Nat) = fun _ => 0 := funext fun a => by fin_cases a <;> rfl

/-- The body's value at entry `(p, q)` of its block, at the extended reals. -/
theorem pay7_apply (v0 : Vec Ideal S10000x128 .f32) (v2 v4 v6 v8 : Vec Ideal S1x128 .f32) (p : Fin 10000) (q : Fin 128) :
    k7_pay1 v0 v2 v4 v6 v8 (ix2 p q)
      = (v0 (ix2 p q) - v2 (ix2 0 q)) * Ideal.rsqrt (v4 (ix2 0 q) + epsW) * v6 (ix2 0 q) + v8 (ix2 0 q) := by
  unfold k7_pay1
  simp only [shapeCast_self, addf_apply, mulf_apply, subf_apply, broadcastTo_1b_ab_apply]
  rfl

/-- The block index maps over the grid: `z` and the output move one row block per point, the row vectors stay. -/
theorem idx_facts7 : ∀ t : Fin cfg7.N, win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- Entry `(p, q)` of `z`'s block at point `t` is entry `(10000·t + p, q)` of the array. -/
theorem blk7_0_apply (c : Dev nD) (t : Fin cfg7.N) (p : Fin 10000) (q : Fin 128) (r : Fin 100000) (hr : r.val = t.val * 10000 + p.val) :
    (iblk7 V c 0 t : Vec Ideal S10000x128 .f32) (ix2 p q) = (V c (Pipeline.arrRef spec7 0) : Mat 100000 128) (ix2 r q) := by
  obtain ⟨e0, e1, -⟩ := idx_facts7 t
  unfold iblk7
  show V c (Pipeline.arrRef spec7 0) (((cfg7.win 0).blk t).view.emb (ix2 p q)) = V c (Pipeline.arrRef spec7 0) (ix2 r q)
  refine congrArg (V c (Pipeline.arrRef spec7 0)) (funext fun a => Fin.ext ?_)
  match a with
  | ⟨0, _⟩ => show win7_0.index t (0 : Fin 2) * 10000 + 1 * p.val = r.val; omega
  | ⟨1, _⟩ => show win7_0.index t (1 : Fin 2) * 128 + 1 * q.val = q.val; omega

/-- Row vector 1's block at any point is the whole vector. -/
theorem blk7_1_apply (c : Dev nD) (t : Fin cfg7.N) (q : Fin 128) :
    (iblk7 V c 1 t : Vec Ideal S1x128 .f32) (ix2 0 q) = (V c (Pipeline.arrRef spec7 1) : Mat 1 128) (ix2 0 q) := by
  obtain ⟨-, -, -, -, e0, e1, -⟩ := idx_facts7 t
  unfold iblk7
  show V c (Pipeline.arrRef spec7 1) (((cfg7.win 1).blk t).view.emb (ix2 0 q)) = V c (Pipeline.arrRef spec7 1) (ix2 0 q)
  refine congrArg (V c (Pipeline.arrRef spec7 1)) (funext fun a => Fin.ext ?_)
  match a with
  | ⟨0, _⟩ => show win7_1.index t (0 : Fin 2) * 1 + 1 * 0 = 0; omega
  | ⟨1, _⟩ => show win7_1.index t (1 : Fin 2) * 128 + 1 * q.val = q.val; omega

/-- Row vector 2's block at any point is the whole vector. -/
theorem blk7_2_apply (c : Dev nD) (t : Fin cfg7.N) (q : Fin 128) :
    (iblk7 V c 2 t : Vec Ideal S1x128 .f32) (ix2 0 q) = (V c (Pipeline.arrRef spec7 2) : Mat 1 128) (ix2 0 q) := by
  obtain ⟨-, -, -, -, -, -, e0, e1, -⟩ := idx_facts7 t
  unfold iblk7
  show V c (Pipeline.arrRef spec7 2) (((cfg7.win 2).blk t).view.emb (ix2 0 q)) = V c (Pipeline.arrRef spec7 2) (ix2 0 q)
  refine congrArg (V c (Pipeline.arrRef spec7 2)) (funext fun a => Fin.ext ?_)
  match a with
  | ⟨0, _⟩ => show win7_2.index t (0 : Fin 2) * 1 + 1 * 0 = 0; omega
  | ⟨1, _⟩ => show win7_2.index t (1 : Fin 2) * 128 + 1 * q.val = q.val; omega

/-- Row vector 3's block at any point is the whole vector. -/
theorem blk7_3_apply (c : Dev nD) (t : Fin cfg7.N) (q : Fin 128) :
    (iblk7 V c 3 t : Vec Ideal S1x128 .f32) (ix2 0 q) = (V c (Pipeline.arrRef spec7 3) : Mat 1 128) (ix2 0 q) := by
  obtain ⟨-, -, -, -, -, -, -, -, e0, e1, -⟩ := idx_facts7 t
  unfold iblk7
  show V c (Pipeline.arrRef spec7 3) (((cfg7.win 3).blk t).view.emb (ix2 0 q)) = V c (Pipeline.arrRef spec7 3) (ix2 0 q)
  refine congrArg (V c (Pipeline.arrRef spec7 3)) (funext fun a => Fin.ext ?_)
  match a with
  | ⟨0, _⟩ => show win7_3.index t (0 : Fin 2) * 1 + 1 * 0 = 0; omega
  | ⟨1, _⟩ => show win7_3.index t (1 : Fin 2) * 128 + 1 * q.val = q.val; omega

/-- Row vector 4's block at any point is the whole vector. -/
theorem blk7_4_apply (c : Dev nD) (t : Fin cfg7.N) (q : Fin 128) :
    (iblk7 V c 4 t : Vec Ideal S1x128 .f32) (ix2 0 q) = (V c (Pipeline.arrRef spec7 4) : Mat 1 128) (ix2 0 q) := by
  obtain ⟨-, -, -, -, -, -, -, -, -, -, e0, e1⟩ := idx_facts7 t
  unfold iblk7
  show V c (Pipeline.arrRef spec7 4) (((cfg7.win 4).blk t).view.emb (ix2 0 q)) = V c (Pipeline.arrRef spec7 4) (ix2 0 q)
  refine congrArg (V c (Pipeline.arrRef spec7 4)) (funext fun a => Fin.ext ?_)
  match a with
  | ⟨0, _⟩ => show win7_4.index t (0 : Fin 2) * 1 + 1 * 0 = 0; omega
  | ⟨1, _⟩ => show win7_4.index t (1 : Fin 2) * 128 + 1 * q.val = q.val; omega

/-- The array row under row `p` of point `t`'s block. -/
def row7 (t : Fin cfg7.N) (p : Fin 10000) : Fin 100000 :=
  ⟨t.val * 10000 + p.val, by have := lt_of_lt_of_eq t.isLt (show cfg7.N = 10 from N_7); have := p.isLt; omega⟩

set_option maxHeartbeats 1000000 in
/-- The block the body leaves at point `t`: the normalised array on the block's rows. -/
theorem block7_eq (c : Dev nD) (t : Fin cfg7.N) :
    k7_pay1 (iblk7 V c 0 t) (iblk7 V c 1 t) (iblk7 V c 2 t) (iblk7 V c 3 t) (iblk7 V c 4 t)
      = fun j : S10000x128.Idx => bnAt (V c (Pipeline.arrRef spec7 0)) (V c (Pipeline.arrRef spec7 1)) (V c (Pipeline.arrRef spec7 2))
          (V c (Pipeline.arrRef spec7 3)) (V c (Pipeline.arrRef spec7 4)) (row7 t (j 0)) (j 1) := by
  funext j
  obtain ⟨p, q, rfl⟩ : ∃ (p : Fin 10000) (q : Fin 128), j = ix2 p q := ⟨j 0, j 1, eq_ix2 j⟩
  show _ = bnAt _ _ _ _ _ (row7 t p) q
  unfold bnAt
  rw [pay7_apply (iblk7 V c 0 t) (iblk7 V c 1 t) (iblk7 V c 2 t) (iblk7 V c 3 t) (iblk7 V c 4 t) p q,
    blk7_0_apply V c t p q (row7 t p) rfl, blk7_1_apply V c t q, blk7_2_apply V c t q,
    blk7_3_apply V c t q, blk7_4_apply V c t q]

set_option maxHeartbeats 1000000 in
/-- What point `t` writes back is block `t` of the normalised array. -/
theorem flushed7_eq (c : Dev nD) (t : Fin cfg7.N) :
    (dat7 V c).flushed 5 t = ((cfg7.win 5).blk t).view.read (Elt Ideal)
      (bnFn (V c (Pipeline.arrRef spec7 0)) (V c (Pipeline.arrRef spec7 1)) (V c (Pipeline.arrRef spec7 2))
        (V c (Pipeline.arrRef spec7 3)) (V c (Pipeline.arrRef spec7 4))) := by
  obtain ⟨-, -, e2, e3, -⟩ := idx_facts7 t
  show (cfg7.win 5).cut (grid7.coords t) ((dat7 V c).after 5 t) = _
  rw [after7_5]
  unfold out7_5
  rw [View.canon_unit_zero hz7]
  simp only [View.ld_unit_zero (S := S10000x128) hz7, View.ld_unit_zero (S := S1x128) hz7]
  refine (congrArg ((cfg7.win 5).cut (grid7.coords t)) (block7_eq V c t)).trans ?_
  funext j
  show bnAt (V c (Pipeline.arrRef spec7 0)) (V c (Pipeline.arrRef spec7 1)) (V c (Pipeline.arrRef spec7 2))
        (V c (Pipeline.arrRef spec7 3)) (V c (Pipeline.arrRef spec7 4)) (row7 t ⟨(j 0).val, (j 0).isLt⟩) ⟨(j 1).val, (j 1).isLt⟩
    = bnAt (V c (Pipeline.arrRef spec7 0)) (V c (Pipeline.arrRef spec7 1)) (V c (Pipeline.arrRef spec7 2))
        (V c (Pipeline.arrRef spec7 3)) (V c (Pipeline.arrRef spec7 4))
        ((((cfg7.win 5).blk t).view.emb j) 0) ((((cfg7.win 5).blk t).view.emb j) 1)
  refine congrArg₂ _ (Fin.ext ?_) (Fin.ext ?_)
  · show t.val * 10000 + (j 0).val = win7_5.index t (0 : Fin 2) * 10000 + 1 * (j 0).val; omega
  · show (j 1).val = win7_5.index t (1 : Fin 2) * 128 + 1 * (j 1).val; omega

/-- An index of the output array is in point `t`'s block iff its row is one of the block's. -/
theorem mem_blk7 (t : Fin cfg7.N) (i : S100000x128.Idx) :
    i ∈ ((cfg7.win 5).blk t).view.set ↔ ∀ a : Fin 2, win7_5.index t a * S10000x128.size a ≤ (i a).val ∧ (i a).val < win7_5.index t a * S10000x128.size a + S10000x128.size a := by
  show i ∈ ((View.whole main_v179).slice (win7_5.rect t)).set ↔ _
  rw [View.set_slice_whole, Rect.mem_set_unit]
  exact Iff.rfl

/-- THE ARRAY after the region: the normalised `z`. -/
theorem final7 (c : Dev nD) : (dat7 (F := Ideal) V c).arrAt 5 cfg7.N
    = bnFn (V c (Pipeline.arrRef spec7 0)) (V c (Pipeline.arrRef spec7 1)) (V c (Pipeline.arrRef spec7 2))
        (V c (Pipeline.arrRef spec7 3)) (V c (Pipeline.arrRef spec7 4)) :=
  (dat7 V c).arrAt_eq_of_cover 5 _ (fun t _ => flushed7_eq V c t) fun i => by
    have hi0 : (i 0).val < 100000 := (i 0).isLt
    have hi1 : (i 1).val < 128 := (i 1).isLt
    have hN : cfg7.N = 10 := N_7
    refine ⟨⟨(i 0).val / 10000, by rw [hN]; omega⟩, flush7_5 _, ?_⟩
    obtain ⟨-, -, e2, e3, -⟩ := idx_facts7 ⟨(i 0).val / 10000, by rw [hN]; omega⟩
    rw [mem_blk7]
    intro a
    match a with
    | ⟨0, _⟩ => show win7_5.index _ (0 : Fin 2) * 10000 ≤ (i 0).val ∧ (i 0).val < win7_5.index _ (0 : Fin 2) * 10000 + 10000; rw [e2]; show (i 0).val / 10000 * 10000 ≤ (i 0).val ∧ (i 0).val < (i 0).val / 10000 * 10000 + 10000; omega
    | ⟨1, _⟩ => show win7_5.index _ (1 : Fin 2) * 128 ≤ (i 1).val ∧ (i 1).val < win7_5.index _ (1 : Fin 2) * 128 + 128; rw [e3]; omega

end Cert.KernelIdeal

end
-- ==== Proof.KI.DenseA.lean ====
/-
  The kernels' dense layers and column forms read at an entry, over the extended reals, for any extents.

  A layer of the kernels is: both operands rounded to bf16 (the identity on extended reals), a plain matrix product into
  a block of zeros, the bias row added to every row, and for a hidden layer the maximum with zero. Read at `(p, q)` it is
  the sum over `k` of `x(p,k) · W(k,q)`, plus `b(q)` — the function `SpecA.denseAt` — and a hidden layer is
  `SpecA.reluDense` as a whole matrix.

  The column forms a row-wise reduction needs: an `[a]` array cast to a column `[a, 1]` reads the operand at the row; a
  column `[a, 1]` broadcast to `[a, b]` reads the column at the row.
-/
import proofs.«118347_j18940805776024_1_alg».proof.Proof.KI.SpecA
import proofs.«118347_j18940805776024_1_alg».proof.Proof.LibPlainMatmul
import Idealize.ShloMosaic.Lib.ValueLayout

noncomputable section

namespace Cert.DenseA

open Idealize.ShloMosaic Idealize.ShloMosaic.ValueIdx Cert.SpecA
open scoped BigOperators

variable {M K N : Nat}

/-- A layer without `relu`, read at `(p, q)`. -/
theorem dense_apply (D : DotDims ⟨2, ![M, K]⟩ ⟨2, ![K, N]⟩ ⟨2, ![M, N]⟩) (hD : D = DotDims.plain M K N)
    (h1 h2 : FTy.bf16.bits < FTy.f32.bits)
    (x : FVec Ideal ⟨2, ![M, K]⟩ .f32) (W : FVec Ideal ⟨2, ![K, N]⟩ .f32) (b : FVec Ideal ⟨2, ![1, N]⟩ .f32)
    (hb : (⟨2, ![1, N]⟩ : Shape).Broadcasts ⟨2, ![M, N]⟩) (p : Fin M) (q : Fin N) :
    addf (matmul D none (truncf .bf16 x h1) (truncf .bf16 W h2) (constant (F := Ideal) ⟨2, ![M, N]⟩ .f32 0x00000000#32))
        (broadcastTo ⟨2, ![M, N]⟩ b hb) (ix2 p q)
      = denseAt x W b p q := by
  subst hD
  rw [addf_apply, LibPlainMatmul.matmul_plain_zero_apply, broadcastTo_1b_ab_apply]
  rfl

/-- The same as a whole matrix. -/
theorem dense_eq (D : DotDims ⟨2, ![M, K]⟩ ⟨2, ![K, N]⟩ ⟨2, ![M, N]⟩) (hD : D = DotDims.plain M K N)
    (h1 h2 : FTy.bf16.bits < FTy.f32.bits)
    (x : FVec Ideal ⟨2, ![M, K]⟩ .f32) (W : FVec Ideal ⟨2, ![K, N]⟩ .f32) (b : FVec Ideal ⟨2, ![1, N]⟩ .f32)
    (hb : (⟨2, ![1, N]⟩ : Shape).Broadcasts ⟨2, ![M, N]⟩) :
    addf (matmul D none (truncf .bf16 x h1) (truncf .bf16 W h2) (constant (F := Ideal) ⟨2, ![M, N]⟩ .f32 0x00000000#32))
        (broadcastTo ⟨2, ![M, N]⟩ b hb)
      = dense x W b := by
  funext i
  obtain ⟨p, q, rfl⟩ : ∃ (p : Fin M) (q : Fin N), i = ix2 p q := ⟨i 0, i 1, eq_ix2 i⟩
  exact dense_apply D hD h1 h2 x W b hb p q

/-- A hidden layer as a whole matrix: `relu` is the maximum with the zero word broadcast. -/
theorem reluDense_eq (D : DotDims ⟨2, ![M, K]⟩ ⟨2, ![K, N]⟩ ⟨2, ![M, N]⟩) (hD : D = DotDims.plain M K N)
    (h1 h2 : FTy.bf16.bits < FTy.f32.bits)
    (x : FVec Ideal ⟨2, ![M, K]⟩ .f32) (W : FVec Ideal ⟨2, ![K, N]⟩ .f32) (b : FVec Ideal ⟨2, ![1, N]⟩ .f32)
    (hb : (⟨2, ![1, N]⟩ : Shape).Broadcasts ⟨2, ![M, N]⟩) :
    maximumf (addf (matmul D none (truncf .bf16 x h1) (truncf .bf16 W h2) (constant (F := Ideal) ⟨2, ![M, N]⟩ .f32 0x00000000#32))
        (broadcastTo ⟨2, ![M, N]⟩ b hb)) (broadcast ⟨2, ![M, N]⟩ (Scalar.ofBits (F := Ideal) .f32 0x00000000#32))
      = reluDense x W b := by
  funext i
  obtain ⟨p, q, rfl⟩ : ∃ (p : Fin M) (q : Fin N), i = ix2 p q := ⟨i 0, i 1, eq_ix2 i⟩
  rw [maximumf_apply, dense_apply D hD h1 h2 x W b hb p q]
  rfl

/-! ## A layer's row depends on the operand's row alone -/

/-- Entry `(p, q)` of a layer reads the left operand on row `p` only. -/
theorem denseAt_congr_row {M' : Nat} (x : Mat M K) (x' : Mat M' K) (W : Mat K N) (b : Mat 1 N) (p : Fin M) (p' : Fin M')
    (h : ∀ k : Fin K, x (ix2 p k) = x' (ix2 p' k)) (q : Fin N) : denseAt x W b p q = denseAt x' W b p' q := by
  unfold denseAt
  rw [Finset.sum_congr rfl fun k _ => by rw [h k]]

/-- The same of a hidden layer. -/
theorem reluDense_congr_row {M' : Nat} (x : Mat M K) (x' : Mat M' K) (W : Mat K N) (b : Mat 1 N) (p : Fin M) (p' : Fin M')
    (h : ∀ k : Fin K, x (ix2 p k) = x' (ix2 p' k)) (q : Fin N) : reluDense x W b (ix2 p q) = reluDense x' W b (ix2 p' q) := by
  show max (denseAt x W b p q) zeroW = max (denseAt x' W b p' q) zeroW
  rw [denseAt_congr_row x x' W b p p' h q]

/-! ## Column forms -/

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.DenseA

end
-- ==== Proof.KI.Val8.lean ====
import proofs.«118347_j18940805776024_1_alg».proof.Proof.KI.Reg8
import proofs.«118347_j18940805776024_1_alg».proof.Proof.KI.SpecA
import Idealize.ShloMosaic.Lib.Pipeline.Value
import Idealize.ShloMosaic.Lib.ValueLayout
import Idealize.ShloMosaic.Lib.Tactic
import proofs.«118347_j18940805776024_1_alg».proof.Proof.KI.DenseA
set_option maxRecDepth 16384

noncomputable section

namespace Cert.KernelIdeal

open Cert.KernelIdeal Cert.KernelIdeal.Gen Cert.SpecA
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! # The array region 8 leaves: the class log-probabilities, entry by entry

The grid has one point and every window's block is its whole array, so the one block written is the whole output
table: four dense layers (three with `relu`), then `log_softmax` along the 16 classes — the logits less their row
maximum, less the logarithm of the row sum of the exponentials. -/

theorem hz8 : (![0, 0] : Fin 2 → Nat) = fun _ => 0 := funext fun a => by fin_cases a <;> rfl

/-- The exponential and the logarithm of a vector, read at an index. -/
theorem exp8_apply {s : Shape} (a : FVec Ideal s .f32) (i : s.Idx) : exp a i = Ideal.exp (a i) := rfl
theorem log8_apply {s : Shape} (a : FVec Ideal s .f32) (i : s.Idx) : log a i = Ideal.log (a i) := rfl

/-- A row's maximum by the kernel's reduction: the fold of `max` from −∞ over the row. -/
theorem rowMax8_apply (y : FVec Ideal S64x16 .f32) (p : Fin 64) :
    multiReduction (F := Ideal) .maximumf [1] S64 y 0xFF800000#32 reduces_S64x16_S64 (.inl rfl) rfl (ix1 p)
      = Finset.univ.fold max negInfW (fun k : Fin 16 => y (ix2 p k)) := by
  refine (Ideal.multiReduction_maximumf_single y 0xFF800000#32 reduces_S64x16_S64 (.inl rfl) rfl (ix1 p)).trans ?_
  refine congrArg (Finset.univ.fold max negInfW) (funext fun k => congrArg y ?_)
  funext c
  refine Fin.ext ?_
  match c with
  | ⟨0, _⟩ => rfl
  | ⟨1, _⟩ => rfl

/-- The second half of the body, `log_softmax` of the biased logits, at entry `(p, q)`. -/
theorem pay8_1_apply (v35 : FVec Ideal S64x16 .f32) (v36 : Vec Ideal S1x16 .f32) (p : Fin 64) (q : Fin 16) :
    k8_pay1 v35 v36 (ix2 p q) = logSoftmaxAt (addf v35 (broadcastTo S64x16 v36 broadcasts_S1x16_S64x16)) p q := by
  unfold k8_pay1
  simp only [shapeCast_self]
  generalize addf v35 (broadcastTo S64x16 v36 broadcasts_S1x16_S64x16) = y
  have hmax : ∀ p' : Fin 64, maximumf (broadcast S64 (Scalar.ofBits (F := Ideal) .f32 0xFF800000#32))
      (multiReduction (F := Ideal) .maximumf [1] S64 y 0xFF800000#32 reduces_S64x16_S64 (.inl rfl) rfl) (ix1 p') = rowMax y p' := fun p' => by
    rw [maximumf_apply, rowMax8_apply]; rfl
  simp only [subf_apply, log8_apply, DenseA.broadcastTo_a1_ab_apply, DenseA.shapeCast_a_a1_apply, hmax]
  unfold logSoftmaxAt
  refine congrArg (fun z => y (ix2 p q) - rowMax y p - Ideal.log z) ?_
  refine (LibPlainMatmul.rowSum_apply _ 0x00000000#32 reduces_S64x16_S64 _ _ p).trans ?_
  refine Finset.sum_congr rfl fun k _ => ?_
  simp only [exp8_apply, subf_apply, DenseA.broadcastTo_a1_ab_apply, DenseA.shapeCast_a_a1_apply, hmax]

/-- The first half of the body: the fourth layer's product over three hidden layers. With the bias row it is the logits. -/
theorem pay8_logits (v0 : Vec Ideal S64x512 .f32) (v3 : Vec Ideal S512x256 .f32) (v6 : Vec Ideal S1x256 .f32)
    (v13 : Vec Ideal S256x128 .f32) (v16 : Vec Ideal S1x128 .f32) (v23 : Vec Ideal S128x128 .f32) (v26 : Vec Ideal S1x128 .f32)
    (v33 : Vec Ideal S128x16 .f32) (v36 : Vec Ideal S1x16 .f32) :
    addf (k8_pay2 v0 v3 v6 v13 v16 v23 v26 v33) (broadcastTo S64x16 v36 broadcasts_S1x16_S64x16)
      = clsLogits v0 v3 v6 v13 v16 v23 v26 v33 v36 := by
  unfold k8_pay2 clsLogits
  simp only [shapeCast_self]
  rw [DenseA.reluDense_eq dot_S64x512_S512x256_S64x256_1_0_0_1_n_n rfl bitsLt_bf16_f32 bitsLt_bf16_f32 v0 v3 v6 broadcasts_S1x256_S64x256,
    DenseA.reluDense_eq dot_S64x256_S256x128_S64x128_1_0_0_1_n_n rfl bitsLt_bf16_f32 bitsLt_bf16_f32 _ v13 v16 broadcasts_S1x128_S64x128,
    DenseA.reluDense_eq dot_S64x128_S128x128_S64x128_1_0_0_1_n_n rfl bitsLt_bf16_f32 bitsLt_bf16_f32 _ v23 v26 broadcasts_S1x128_S64x128]
  exact DenseA.dense_eq dot_S64x128_S128x16_S64x16_1_0_0_1_n_n rfl bitsLt_bf16_f32 bitsLt_bf16_f32 _ v33 v36 broadcasts_S1x16_S64x16

/-- Window 0's one block is its whole array. -/
theorem blk8_0_eq (c : Dev nD) (t : Fin cfg8.N) :
    (iblk8 V c 0 t : Vec Ideal S64x512 .f32) = (V c (Pipeline.arrRef spec8 0) : Mat 64 512) := by
  have e : win8_0.index t (0 : Fin 2) = 0 ∧ win8_0.index t (1 : Fin 2) = 0 :=
    (by decide +kernel : ∀ t : Fin grid8.N, win8_0.index t (0 : Fin 2) = 0 ∧ win8_0.index t (1 : Fin 2) = 0) t
  funext j
  unfold iblk8
  show V c (Pipeline.arrRef spec8 0) (((cfg8.win 0).blk t).view.emb j) = V c (Pipeline.arrRef spec8 0) j
  refine congrArg (V c (Pipeline.arrRef spec8 0)) (funext fun a => Fin.ext ?_)
  match a with
  | ⟨0, _⟩ => show win8_0.index t (0 : Fin 2) * 64 + 1 * (j 0).val = (j 0).val; omega
  | ⟨1, _⟩ => show win8_0.index t (1 : Fin 2) * 512 + 1 * (j 1).val = (j 1).val; omega

/-- Window 1's one block is its whole array. -/
theorem blk8_1_eq (c : Dev nD) (t : Fin cfg8.N) :
    (iblk8 V c 1 t : Vec Ideal S512x256 .f32) = (V c (Pipeline.arrRef spec8 1) : Mat 512 256) := by
  have e : win8_1.index t (0 : Fin 2) = 0 ∧ win8_1.index t (1 : Fin 2) = 0 :=
    (by decide +kernel : ∀ t : Fin grid8.N, win8_1.index t (0 : Fin 2) = 0 ∧ win8_1.index t (1 : Fin 2) = 0) t
  funext j
  unfold iblk8
  show V c (Pipeline.arrRef spec8 1) (((cfg8.win 1).blk t).view.emb j) = V c (Pipeline.arrRef spec8 1) j
  refine congrArg (V c (Pipeline.arrRef spec8 1)) (funext fun a => Fin.ext ?_)
  match a with
  | ⟨0, _⟩ => show win8_1.index t (0 : Fin 2) * 512 + 1 * (j 0).val = (j 0).val; omega
  | ⟨1, _⟩ => show win8_1.index t (1 : Fin 2) * 256 + 1 * (j 1).val = (j 1).val; omega

/-- Window 2's one block is its whole array. -/
theorem blk8_2_eq (c : Dev nD) (t : Fin cfg8.N) :
    (iblk8 V c 2 t : Vec Ideal S1x256 .f32) = (V c (Pipeline.arrRef spec8 2) : Mat 1 256) := by
  have e : win8_2.index t (0 : Fin 2) = 0 ∧ win8_2.index t (1 : Fin 2) = 0 :=
    (by decide +kernel : ∀ t : Fin grid8.N, win8_2.index t (0 : Fin 2) = 0 ∧ win8_2.index t (1 : Fin 2) = 0) t
  funext j
  unfold iblk8
  show V c (Pipeline.arrRef spec8 2) (((cfg8.win 2).blk t).view.emb j) = V c (Pipeline.arrRef spec8 2) j
  refine congrArg (V c (Pipeline.arrRef spec8 2)) (funext fun a => Fin.ext ?_)
  match a with
  | ⟨0, _⟩ => show win8_2.index t (0 : Fin 2) * 1 + 1 * (j 0).val = (j 0).val; omega
  | ⟨1, _⟩ => show win8_2.index t (1 : Fin 2) * 256 + 1 * (j 1).val = (j 1).val; omega

/-- Window 3's one block is its whole array. -/
theorem blk8_3_eq (c : Dev nD) (t : Fin cfg8.N) :
    (iblk8 V c 3 t : Vec Ideal S256x128 .f32) = (V c (Pipeline.arrRef spec8 3) : Mat 256 128) := by
  have e : win8_3.index t (0 : Fin 2) = 0 ∧ win8_3.index t (1 : Fin 2) = 0 :=
    (by decide +kernel : ∀ t : Fin grid8.N, win8_3.index t (0 : Fin 2) = 0 ∧ win8_3.index t (1 : Fin 2) = 0) t
  funext j
  unfold iblk8
  show V c (Pipeline.arrRef spec8 3) (((cfg8.win 3).blk t).view.emb j) = V c (Pipeline.arrRef spec8 3) j
  refine congrArg (V c (Pipeline.arrRef spec8 3)) (funext fun a => Fin.ext ?_)
  match a with
  | ⟨0, _⟩ => show win8_3.index t (0 : Fin 2) * 256 + 1 * (j 0).val = (j 0).val; omega
  | ⟨1, _⟩ => show win8_3.index t (1 : Fin 2) * 128 + 1 * (j 1).val = (j 1).val; omega

/-- Window 4's one block is its whole array. -/
theorem blk8_4_eq (c : Dev nD) (t : Fin cfg8.N) :
    (iblk8 V c 4 t : Vec Ideal S1x128 .f32) = (V c (Pipeline.arrRef spec8 4) : Mat 1 128) := by
  have e : win8_4.index t (0 : Fin 2) = 0 ∧ win8_4.index t (1 : Fin 2) = 0 :=
    (by decide +kernel : ∀ t : Fin grid8.N, win8_4.index t (0 : Fin 2) = 0 ∧ win8_4.index t (1 : Fin 2) = 0) t
  funext j
  unfold iblk8
  show V c (Pipeline.arrRef spec8 4) (((cfg8.win 4).blk t).view.emb j) = V c (Pipeline.arrRef spec8 4) j
  refine congrArg (V c (Pipeline.arrRef spec8 4)) (funext fun a => Fin.ext ?_)
  match a with
  | ⟨0, _⟩ => show win8_4.index t (0 : Fin 2) * 1 + 1 * (j 0).val = (j 0).val; omega
  | ⟨1, _⟩ => show win8_4.index t (1 : Fin 2) * 128 + 1 * (j 1).val = (j 1).val; omega

/-- Window 5's one block is its whole array. -/
theorem blk8_5_eq (c : Dev nD) (t : Fin cfg8.N) :
    (iblk8 V c 5 t : Vec Ideal S128x128 .f32) = (V c (Pipeline.arrRef spec8 5) : Mat 128 128) := by
  have e : win8_5.index t (0 : Fin 2) = 0 ∧ win8_5.index t (1 : Fin 2) = 0 :=
    (by decide +kernel : ∀ t : Fin grid8.N, win8_5.index t (0 : Fin 2) = 0 ∧ win8_5.index t (1 : Fin 2) = 0) t
  funext j
  unfold iblk8
  show V c (Pipeline.arrRef spec8 5) (((cfg8.win 5).blk t).view.emb j) = V c (Pipeline.arrRef spec8 5) j
  refine congrArg (V c (Pipeline.arrRef spec8 5)) (funext fun a => Fin.ext ?_)
  match a with
  | ⟨0, _⟩ => show win8_5.index t (0 : Fin 2) * 128 + 1 * (j 0).val = (j 0).val; omega
  | ⟨1, _⟩ => show win8_5.index t (1 : Fin 2) * 128 + 1 * (j 1).val = (j 1).val; omega

/-- Window 6's one block is its whole array. -/
theorem blk8_6_eq (c : Dev nD) (t : Fin cfg8.N) :
    (iblk8 V c 6 t : Vec Ideal S1x128 .f32) = (V c (Pipeline.arrRef spec8 6) : Mat 1 128) := by
  have e : win8_6.index t (0 : Fin 2) = 0 ∧ win8_6.index t (1 : Fin 2) = 0 :=
    (by decide +kernel : ∀ t : Fin grid8.N, win8_6.index t (0 : Fin 2) = 0 ∧ win8_6.index t (1 : Fin 2) = 0) t
  funext j
  unfold iblk8
  show V c (Pipeline.arrRef spec8 6) (((cfg8.win 6).blk t).view.emb j) = V c (Pipeline.arrRef spec8 6) j
  refine congrArg (V c (Pipeline.arrRef spec8 6)) (funext fun a => Fin.ext ?_)
  match a with
  | ⟨0, _⟩ => show win8_6.index t (0 : Fin 2) * 1 + 1 * (j 0).val = (j 0).val; omega
  | ⟨1, _⟩ => show win8_6.index t (1 : Fin 2) * 128 + 1 * (j 1).val = (j 1).val; omega

/-- Window 7's one block is its whole array. -/
theorem blk8_7_eq (c : Dev nD) (t : Fin cfg8.N) :
    (iblk8 V c 7 t : Vec Ideal S128x16 .f32) = (V c (Pipeline.arrRef spec8 7) : Mat 128 16) := by
  have e : win8_7.index t (0 : Fin 2) = 0 ∧ win8_7.index t (1 : Fin 2) = 0 :=
    (by decide +kernel : ∀ t : Fin grid8.N, win8_7.index t (0 : Fin 2) = 0 ∧ win8_7.index t (1 : Fin 2) = 0) t
  funext j
  unfold iblk8
  show V c (Pipeline.arrRef spec8 7) (((cfg8.win 7).blk t).view.emb j) = V c (Pipeline.arrRef spec8 7) j
  refine congrArg (V c (Pipeline.arrRef spec8 7)) (funext fun a => Fin.ext ?_)
  match a with
  | ⟨0, _⟩ => show win8_7.index t (0 : Fin 2) * 128 + 1 * (j 0).val = (j 0).val; omega
  | ⟨1, _⟩ => show win8_7.index t (1 : Fin 2) * 16 + 1 * (j 1).val = (j 1).val; omega

/-- Window 8's one block is its whole array. -/
theorem blk8_8_eq (c : Dev nD) (t : Fin cfg8.N) :
    (iblk8 V c 8 t : Vec Ideal S1x16 .f32) = (V c (Pipeline.arrRef spec8 8) : Mat 1 16) := by
  have e : win8_8.index t (0 : Fin 2) = 0 ∧ win8_8.index t (1 : Fin 2) = 0 :=
    (by decide +kernel : ∀ t : Fin grid8.N, win8_8.index t (0 : Fin 2) = 0 ∧ win8_8.index t (1 : Fin 2) = 0) t
  funext j
  unfold iblk8
  show V c (Pipeline.arrRef spec8 8) (((cfg8.win 8).blk t).view.emb j) = V c (Pipeline.arrRef spec8 8) j
  refine congrArg (V c (Pipeline.arrRef spec8 8)) (funext fun a => Fin.ext ?_)
  match a with
  | ⟨0, _⟩ => show win8_8.index t (0 : Fin 2) * 1 + 1 * (j 0).val = (j 0).val; omega
  | ⟨1, _⟩ => show win8_8.index t (1 : Fin 2) * 16 + 1 * (j 1).val = (j 1).val; omega

/-- The output window's one block is the whole table. -/
theorem idx_facts8 : ∀ t : Fin cfg8.N, win8_9.index t (0 : Fin 2) = 0 ∧ win8_9.index t (1 : Fin 2) = 0 :=
  (by decide +kernel : ∀ t : Fin grid8.N, _)

/-- The whole body, as a function of the nine arrays it reads. -/
theorem pay8_eq (v0 : Vec Ideal S64x512 .f32) (v3 : Vec Ideal S512x256 .f32) (v6 : Vec Ideal S1x256 .f32)
    (v13 : Vec Ideal S256x128 .f32) (v16 : Vec Ideal S1x128 .f32) (v23 : Vec Ideal S128x128 .f32) (v26 : Vec Ideal S1x128 .f32)
    (v33 : Vec Ideal S128x16 .f32) (v36 : Vec Ideal S1x16 .f32) :
    k8_pay1 (k8_pay2 v0 v3 v6 v13 v16 v23 v26 v33) v36 = clsFn v0 v3 v6 v13 v16 v23 v26 v33 v36 := by
  funext j
  obtain ⟨p, q, rfl⟩ : ∃ (p : Fin 64) (q : Fin 16), j = ix2 p q := ⟨j 0, j 1, eq_ix2 j⟩
  rw [pay8_1_apply, pay8_logits]
  rfl

set_option maxHeartbeats 2000000 in
/-- The block the body leaves: the whole table of class log-probabilities. -/
theorem block8_eq (c : Dev nD) (t : Fin cfg8.N) :
    k8_pay1 (k8_pay2 (iblk8 V c 0 t) (iblk8 V c 1 t) (iblk8 V c 2 t) (iblk8 V c 3 t) (iblk8 V c 4 t) (iblk8 V c 5 t) (iblk8 V c 6 t) (iblk8 V c 7 t)) (iblk8 V c 8 t)
      = clsFn (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) := by
  refine (pay8_eq (iblk8 V c 0 t) (iblk8 V c 1 t) (iblk8 V c 2 t) (iblk8 V c 3 t) (iblk8 V c 4 t) (iblk8 V c 5 t) (iblk8 V c 6 t) (iblk8 V c 7 t) (iblk8 V c 8 t)).trans ?_
  rw [blk8_0_eq V c t, blk8_1_eq V c t, blk8_2_eq V c t, blk8_3_eq V c t, blk8_4_eq V c t,
    blk8_5_eq V c t, blk8_6_eq V c t, blk8_7_eq V c t, blk8_8_eq V c t]

set_option maxHeartbeats 1000000 in
/-- What the one point writes back is the whole table of class log-probabilities. -/
theorem flushed8_eq (c : Dev nD) (t : Fin cfg8.N) :
    (dat8 V c).flushed 9 t = ((cfg8.win 9).blk t).view.read (Elt Ideal) (clsFn (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8))) := by
  obtain ⟨e0, e1⟩ := idx_facts8 t
  show (cfg8.win 9).cut (grid8.coords t) ((dat8 V c).after 9 t) = _
  rw [after8_9]
  unfold out8_9
  rw [View.canon_unit_zero hz8]
  simp only [View.ld_unit_zero (S := S64x512) hz8, View.ld_unit_zero (S := S512x256) hz8, View.ld_unit_zero (S := S1x256) hz8,
    View.ld_unit_zero (S := S256x128) hz8, View.ld_unit_zero (S := S1x128) hz8, View.ld_unit_zero (S := S128x128) hz8,
    View.ld_unit_zero (S := S128x16) hz8, View.ld_unit_zero (S := S1x16) hz8]
  refine (congrArg ((cfg8.win 9).cut (grid8.coords t)) (block8_eq V c t)).trans ?_
  funext j
  show clsFn (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) ((cfg8.win 9).xinj (grid8.coords t) j)
    = clsFn (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (((cfg8.win 9).blk t).view.emb j)
  refine congrArg (clsFn (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8))) (funext fun a => Fin.ext ?_)
  match a with
  | ⟨0, _⟩ => show (j 0).val = win8_9.index t (0 : Fin 2) * 64 + 1 * (j 0).val; omega
  | ⟨1, _⟩ => show (j 1).val = win8_9.index t (1 : Fin 2) * 16 + 1 * (j 1).val; omega

/-- An index of the output table is in the one block. -/
theorem mem_blk8 (t : Fin cfg8.N) (i : S64x16.Idx) :
    i ∈ ((cfg8.win 9).blk t).view.set ↔ ∀ a : Fin 2, win8_9.index t a * S64x16.size a ≤ (i a).val ∧ (i a).val < win8_9.index t a * S64x16.size a + S64x16.size a := by
  show i ∈ ((View.whole main_v196).slice (win8_9.rect t)).set ↔ _
  rw [View.set_slice_whole, Rect.mem_set_unit]
  exact Iff.rfl

/-- THE ARRAY after the region: the table of class log-probabilities. -/
theorem final8 (c : Dev nD) : (dat8 (F := Ideal) V c).arrAt 9 cfg8.N = clsFn (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) :=
  (dat8 V c).arrAt_eq_of_cover 9 _ (fun t _ => flushed8_eq V c t) fun i => by
    have hi0 : (i 0).val < 64 := (i 0).isLt
    have hi1 : (i 1).val < 16 := (i 1).isLt
    have hN : cfg8.N = 1 := N_8
    refine ⟨⟨0, by rw [hN]; omega⟩, flush8_9 _, ?_⟩
    obtain ⟨e0, e1⟩ := idx_facts8 ⟨0, by rw [hN]; omega⟩
    rw [mem_blk8]
    intro a
    match a with
    | ⟨0, _⟩ => show win8_9.index _ (0 : Fin 2) * 64 ≤ (i 0).val ∧ (i 0).val < win8_9.index _ (0 : Fin 2) * 64 + 64; rw [e0]; omega
    | ⟨1, _⟩ => show win8_9.index _ (1 : Fin 2) * 16 ≤ (i 1).val ∧ (i 1).val < win8_9.index _ (1 : Fin 2) * 16 + 16; rw [e1]; omega

end Cert.KernelIdeal

end
-- ==== Proof.KI.Val9.lean ====
import proofs.«118347_j18940805776024_1_alg».proof.Proof.KI.Reg9
import proofs.«118347_j18940805776024_1_alg».proof.Proof.KI.SpecA
import Idealize.ShloMosaic.Lib.Pipeline.Value
import Idealize.ShloMosaic.Lib.ValueLayout
import Idealize.ShloMosaic.Lib.Tactic
import proofs.«118347_j18940805776024_1_alg».proof.Proof.KI.DenseA
set_option maxRecDepth 16384

noncomputable section

namespace Cert.KernelIdeal

open Cert.KernelIdeal Cert.KernelIdeal.Gen Cert.SpecA
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! # The array region 9 leaves: the edge scores, entry by entry

Point `t` of the grid writes rows `2000·t … 2000·t + 1999` of the output column; its block of edge features is the same
rows, and the six weight and bias arrays are read whole at every point. A layer's row depends on its operand's row
alone, so the fifty blocks written are the fifty row blocks of ONE function of the seven operand arrays, and they fill
the column. -/

theorem hz9 : (![0, 0] : Fin 2 → Nat) = fun _ => 0 := funext fun a => by fin_cases a <;> rfl

/-- The body's value at entry `(p, q)` of its block: three layers and the logistic function. -/
theorem pay9_apply (v0 : Vec Ideal S2000x1024 .f32) (v3 : Vec Ideal S1024x256 .f32) (v6 : Vec Ideal S1x256 .f32)
    (v13 : Vec Ideal S256x128 .f32) (v16 : Vec Ideal S1x128 .f32) (v23 : Vec Ideal S128x1 .f32) (v26 : Vec Ideal S1x1 .f32)
    (p : Fin 2000) (q : Fin 1) :
    k9_pay1 v0 v3 v6 v13 v16 v23 v26 (ix2 p q)
      = Ideal.logistic (denseAt (reluDense (reluDense v0 v3 v6) v13 v16) v23 v26 p q) := by
  unfold k9_pay1
  simp only [shapeCast_self]
  rw [DenseA.reluDense_eq dot_S2000x1024_S1024x256_S2000x256_1_0_0_1_n_n rfl bitsLt_bf16_f32 bitsLt_bf16_f32 v0 v3 v6 broadcasts_S1x256_S2000x256,
    DenseA.reluDense_eq dot_S2000x256_S256x128_S2000x128_1_0_0_1_n_n rfl bitsLt_bf16_f32 bitsLt_bf16_f32 _ v13 v16 broadcasts_S1x128_S2000x128]
  exact congrArg Ideal.logistic (DenseA.dense_apply dot_S2000x128_S128x1_S2000x1_1_0_0_1_n_n rfl bitsLt_bf16_f32 bitsLt_bf16_f32 _ v23 v26 broadcasts_S1x1_S2000x1 p q)

/-- The block index maps over the grid: the edge features and the output move one row block per point. -/
theorem idx_facts9 : ∀ t : Fin cfg9.N, win9_0.index t (0 : Fin 2) = t.val ∧ win9_0.index t (1 : Fin 2) = 0
    ∧ win9_7.index t (0 : Fin 2) = t.val ∧ win9_7.index t (1 : Fin 2) = 0 :=
  (by decide +kernel : ∀ t : Fin grid9.N, _)

/-- Entry `(p, k)` of the edge features' block at point `t` is entry `(2000·t + p, k)` of the array. -/
theorem blk9_0_apply (c : Dev nD) (t : Fin cfg9.N) (p : Fin 2000) (k : Fin 1024) (r : Fin 100000) (hr : r.val = t.val * 2000 + p.val) :
    (iblk9 V c 0 t : Vec Ideal S2000x1024 .f32) (ix2 p k) = (V c (Pipeline.arrRef spec9 0) : Mat 100000 1024) (ix2 r k) := by
  obtain ⟨e0, e1, -⟩ := idx_facts9 t
  unfold iblk9
  show V c (Pipeline.arrRef spec9 0) (((cfg9.win 0).blk t).view.emb (ix2 p k)) = V c (Pipeline.arrRef spec9 0) (ix2 r k)
  refine congrArg (V c (Pipeline.arrRef spec9 0)) (funext fun a => Fin.ext ?_)
  match a with
  | ⟨0, _⟩ => show win9_0.index t (0 : Fin 2) * 2000 + 1 * p.val = r.val; omega
  | ⟨1, _⟩ => show win9_0.index t (1 : Fin 2) * 1024 + 1 * k.val = k.val; omega

/-- Window 1's one block is its whole array. -/
theorem blk9_1_eq (c : Dev nD) (t : Fin cfg9.N) :
    (iblk9 V c 1 t : Vec Ideal S1024x256 .f32) = (V c (Pipeline.arrRef spec9 1) : Mat 1024 256) := by
  have e : win9_1.index t (0 : Fin 2) = 0 ∧ win9_1.index t (1 : Fin 2) = 0 :=
    (by decide +kernel : ∀ t : Fin grid9.N, win9_1.index t (0 : Fin 2) = 0 ∧ win9_1.index t (1 : Fin 2) = 0) t
  funext j
  unfold iblk9
  show V c (Pipeline.arrRef spec9 1) (((cfg9.win 1).blk t).view.emb j) = V c (Pipeline.arrRef spec9 1) j
  refine congrArg (V c (Pipeline.arrRef spec9 1)) (funext fun a => Fin.ext ?_)
  match a with
  | ⟨0, _⟩ => show win9_1.index t (0 : Fin 2) * 1024 + 1 * (j 0).val = (j 0).val; omega
  | ⟨1, _⟩ => show win9_1.index t (1 : Fin 2) * 256 + 1 * (j 1).val = (j 1).val; omega

/-- Window 2's one block is its whole array. -/
theorem blk9_2_eq (c : Dev nD) (t : Fin cfg9.N) :
    (iblk9 V c 2 t : Vec Ideal S1x256 .f32) = (V c (Pipeline.arrRef spec9 2) : Mat 1 256) := by
  have e : win9_2.index t (0 : Fin 2) = 0 ∧ win9_2.index t (1 : Fin 2) = 0 :=
    (by decide +kernel : ∀ t : Fin grid9.N, win9_2.index t (0 : Fin 2) = 0 ∧ win9_2.index t (1 : Fin 2) = 0) t
  funext j
  unfold iblk9
  show V c (Pipeline.arrRef spec9 2) (((cfg9.win 2).blk t).view.emb j) = V c (Pipeline.arrRef spec9 2) j
  refine congrArg (V c (Pipeline.arrRef spec9 2)) (funext fun a => Fin.ext ?_)
  match a with
  | ⟨0, _⟩ => show win9_2.index t (0 : Fin 2) * 1 + 1 * (j 0).val = (j 0).val; omega
  | ⟨1, _⟩ => show win9_2.index t (1 : Fin 2) * 256 + 1 * (j 1).val = (j 1).val; omega

/-- Window 3's one block is its whole array. -/
theorem blk9_3_eq (c : Dev nD) (t : Fin cfg9.N) :
    (iblk9 V c 3 t : Vec Ideal S256x128 .f32) = (V c (Pipeline.arrRef spec9 3) : Mat 256 128) := by
  have e : win9_3.index t (0 : Fin 2) = 0 ∧ win9_3.index t (1 : Fin 2) = 0 :=
    (by decide +kernel : ∀ t : Fin grid9.N, win9_3.index t (0 : Fin 2) = 0 ∧ win9_3.index t (1 : Fin 2) = 0) t
  funext j
  unfold iblk9
  show V c (Pipeline.arrRef spec9 3) (((cfg9.win 3).blk t).view.emb j) = V c (Pipeline.arrRef spec9 3) j
  refine congrArg (V c (Pipeline.arrRef spec9 3)) (funext fun a => Fin.ext ?_)
  match a with
  | ⟨0, _⟩ => show win9_3.index t (0 : Fin 2) * 256 + 1 * (j 0).val = (j 0).val; omega
  | ⟨1, _⟩ => show win9_3.index t (1 : Fin 2) * 128 + 1 * (j 1).val = (j 1).val; omega

/-- Window 4's one block is its whole array. -/
theorem blk9_4_eq (c : Dev nD) (t : Fin cfg9.N) :
    (iblk9 V c 4 t : Vec Ideal S1x128 .f32) = (V c (Pipeline.arrRef spec9 4) : Mat 1 128) := by
  have e : win9_4.index t (0 : Fin 2) = 0 ∧ win9_4.index t (1 : Fin 2) = 0 :=
    (by decide +kernel : ∀ t : Fin grid9.N, win9_4.index t (0 : Fin 2) = 0 ∧ win9_4.index t (1 : Fin 2) = 0) t
  funext j
  unfold iblk9
  show V c (Pipeline.arrRef spec9 4) (((cfg9.win 4).blk t).view.emb j) = V c (Pipeline.arrRef spec9 4) j
  refine congrArg (V c (Pipeline.arrRef spec9 4)) (funext fun a => Fin.ext ?_)
  match a with
  | ⟨0, _⟩ => show win9_4.index t (0 : Fin 2) * 1 + 1 * (j 0).val = (j 0).val; omega
  | ⟨1, _⟩ => show win9_4.index t (1 : Fin 2) * 128 + 1 * (j 1).val = (j 1).val; omega

/-- Window 5's one block is its whole array. -/
theorem blk9_5_eq (c : Dev nD) (t : Fin cfg9.N) :
    (iblk9 V c 5 t : Vec Ideal S128x1 .f32) = (V c (Pipeline.arrRef spec9 5) : Mat 128 1) := by
  have e : win9_5.index t (0 : Fin 2) = 0 ∧ win9_5.index t (1 : Fin 2) = 0 :=
    (by decide +kernel : ∀ t : Fin grid9.N, win9_5.index t (0 : Fin 2) = 0 ∧ win9_5.index t (1 : Fin 2) = 0) t
  funext j
  unfold iblk9
  show V c (Pipeline.arrRef spec9 5) (((cfg9.win 5).blk t).view.emb j) = V c (Pipeline.arrRef spec9 5) j
  refine congrArg (V c (Pipeline.arrRef spec9 5)) (funext fun a => Fin.ext ?_)
  match a with
  | ⟨0, _⟩ => show win9_5.index t (0 : Fin 2) * 128 + 1 * (j 0).val = (j 0).val; omega
  | ⟨1, _⟩ => show win9_5.index t (1 : Fin 2) * 1 + 1 * (j 1).val = (j 1).val; omega

/-- Window 6's one block is its whole array. -/
theorem blk9_6_eq (c : Dev nD) (t : Fin cfg9.N) :
    (iblk9 V c 6 t : Vec Ideal S1x1 .f32) = (V c (Pipeline.arrRef spec9 6) : Mat 1 1) := by
  have e : win9_6.index t (0 : Fin 2) = 0 ∧ win9_6.index t (1 : Fin 2) = 0 :=
    (by decide +kernel : ∀ t : Fin grid9.N, win9_6.index t (0 : Fin 2) = 0 ∧ win9_6.index t (1 : Fin 2) = 0) t
  funext j
  unfold iblk9
  show V c (Pipeline.arrRef spec9 6) (((cfg9.win 6).blk t).view.emb j) = V c (Pipeline.arrRef spec9 6) j
  refine congrArg (V c (Pipeline.arrRef spec9 6)) (funext fun a => Fin.ext ?_)
  match a with
  | ⟨0, _⟩ => show win9_6.index t (0 : Fin 2) * 1 + 1 * (j 0).val = (j 0).val; omega
  | ⟨1, _⟩ => show win9_6.index t (1 : Fin 2) * 1 + 1 * (j 1).val = (j 1).val; omega

/-- The array row under row `p` of point `t`'s block. -/
def row9 (t : Fin cfg9.N) (p : Fin 2000) : Fin 100000 :=
  ⟨t.val * 2000 + p.val, by have := lt_of_lt_of_eq t.isLt (show cfg9.N = 50 from N_9); have := p.isLt; omega⟩

/-- The block the body leaves at point `t`: the edge scores of the block's rows. -/
theorem block9_eq (c : Dev nD) (t : Fin cfg9.N) :
    k9_pay1 (iblk9 V c 0 t) (iblk9 V c 1 t) (iblk9 V c 2 t) (iblk9 V c 3 t) (iblk9 V c 4 t) (iblk9 V c 5 t) (iblk9 V c 6 t)
      = fun j : S2000x1.Idx => edgeAt (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (row9 t (j 0)) (j 1) := by
  funext j
  obtain ⟨p, q, rfl⟩ : ∃ (p : Fin 2000) (q : Fin 1), j = ix2 p q := ⟨j 0, j 1, eq_ix2 j⟩
  show _ = edgeAt _ _ _ _ _ _ _ (row9 t p) q
  unfold edgeAt
  rw [pay9_apply (iblk9 V c 0 t) (iblk9 V c 1 t) (iblk9 V c 2 t) (iblk9 V c 3 t) (iblk9 V c 4 t) (iblk9 V c 5 t) (iblk9 V c 6 t) p q,
    blk9_1_eq V c t, blk9_2_eq V c t, blk9_3_eq V c t, blk9_4_eq V c t, blk9_5_eq V c t, blk9_6_eq V c t]
  refine congrArg Ideal.logistic ?_
  refine DenseA.denseAt_congr_row _ _ _ _ p (row9 t p) (fun k2 => ?_) q
  refine DenseA.reluDense_congr_row _ _ _ _ p (row9 t p) (fun k1 => ?_) k2
  refine DenseA.reluDense_congr_row _ _ _ _ p (row9 t p) (fun k0 => ?_) k1
  exact blk9_0_apply V c t p k0 (row9 t p) rfl

set_option maxHeartbeats 1000000 in
/-- What point `t` writes back is block `t` of the column of edge scores. -/
theorem flushed9_eq (c : Dev nD) (t : Fin cfg9.N) :
    (dat9 V c).flushed 7 t = ((cfg9.win 7).blk t).view.read (Elt Ideal) (edgeFn (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6))) := by
  obtain ⟨-, -, e2, e3⟩ := idx_facts9 t
  show (cfg9.win 7).cut (grid9.coords t) ((dat9 V c).after 7 t) = _
  rw [after9_7]
  unfold out9_7
  rw [View.canon_unit_zero hz9]
  simp only [View.ld_unit_zero (S := S2000x1024) hz9, View.ld_unit_zero (S := S1024x256) hz9, View.ld_unit_zero (S := S1x256) hz9,
    View.ld_unit_zero (S := S256x128) hz9, View.ld_unit_zero (S := S1x128) hz9, View.ld_unit_zero (S := S128x1) hz9,
    View.ld_unit_zero (S := S1x1) hz9]
  refine (congrArg ((cfg9.win 7).cut (grid9.coords t)) (block9_eq V c t)).trans ?_
  funext j
  show edgeAt (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (row9 t ⟨(j 0).val, (j 0).isLt⟩) ⟨(j 1).val, (j 1).isLt⟩
    = edgeAt (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6))
        ((((cfg9.win 7).blk t).view.emb j) 0) ((((cfg9.win 7).blk t).view.emb j) 1)
  refine congrArg₂ _ (Fin.ext ?_) (Fin.ext ?_)
  · show t.val * 2000 + (j 0).val = win9_7.index t (0 : Fin 2) * 2000 + 1 * (j 0).val; omega
  · show (j 1).val = win9_7.index t (1 : Fin 2) * 1 + 1 * (j 1).val; omega

/-- An index of the output column is in point `t`'s block iff its row is one of the block's. -/
theorem mem_blk9 (t : Fin cfg9.N) (i : S100000x1.Idx) :
    i ∈ ((cfg9.win 7).blk t).view.set ↔ ∀ a : Fin 2, win9_7.index t a * S2000x1.size a ≤ (i a).val ∧ (i a).val < win9_7.index t a * S2000x1.size a + S2000x1.size a := by
  show i ∈ ((View.whole main_v219).slice (win9_7.rect t)).set ↔ _
  rw [View.set_slice_whole, Rect.mem_set_unit]
  exact Iff.rfl

/-- THE ARRAY after the region: the column of edge scores. -/
theorem final9 (c : Dev nD) : (dat9 (F := Ideal) V c).arrAt 7 cfg9.N = edgeFn (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) :=
  (dat9 V c).arrAt_eq_of_cover 7 _ (fun t _ => flushed9_eq V c t) fun i => by
    have hi0 : (i 0).val < 100000 := (i 0).isLt
    have hi1 : (i 1).val < 1 := (i 1).isLt
    have hN : cfg9.N = 50 := N_9
    refine ⟨⟨(i 0).val / 2000, by rw [hN]; omega⟩, flush9_7 _, ?_⟩
    obtain ⟨-, -, e2, e3⟩ := idx_facts9 ⟨(i 0).val / 2000, by rw [hN]; omega⟩
    rw [mem_blk9]
    intro a
    match a with
    | ⟨0, _⟩ => show win9_7.index _ (0 : Fin 2) * 2000 ≤ (i 0).val ∧ (i 0).val < win9_7.index _ (0 : Fin 2) * 2000 + 2000; rw [e2]; show (i 0).val / 2000 * 2000 ≤ (i 0).val ∧ (i 0).val < (i 0).val / 2000 * 2000 + 2000; omega
    | ⟨1, _⟩ => show win9_7.index _ (1 : Fin 2) * 1 ≤ (i 1).val ∧ (i 1).val < win9_7.index _ (1 : Fin 2) * 1 + 1; rw [e3]; omega

end Cert.KernelIdeal

end
-- ==== Proof.LibStats.lean ====
/-
  Sums over blocks of rows, the two formulas for a population variance, and which extended reals are finite.

  A batch statistic over `m * n` rows may be accumulated block by block (`m` blocks of `n` rows) or in one pass:
  in a commutative monoid the two sums agree.  The population variance of finitely many REAL numbers is
  both the mean of the squared deviations and the mean of the squares minus the squared mean, and it is never
  negative, so clamping the second form at zero changes nothing.  On the extended reals these identities need the
  numbers to be finite (a product distributes over a sum only away from the infinities), so the last part collects
  the closure properties of "finite" under the arithmetic the two programs use.
-/
import Idealize.ShloMosaic.PureOps.Ideal

noncomputable section

namespace Cert.LibStats

open Idealize.ShloMosaic

/-! ## Sums block by block -/

/-- A sum over `m * n` consecutive indices, taken as `m` blocks of `n`: row `n * b + r` is row `r` of block `b`. -/
theorem sum_blocks {M : Type*} [AddCommMonoid M] (m n : ℕ) (g : Fin (m * n) → M)
    (h : ∀ (b : Fin m) (r : Fin n), n * (b : ℕ) + (r : ℕ) < m * n) :
    ∑ b : Fin m, ∑ r : Fin n, g ⟨n * (b : ℕ) + (r : ℕ), h b r⟩ = ∑ i, g i := by
  rw [← Fintype.sum_prod_type' (f := fun (b : Fin m) (r : Fin n) => g ⟨n * (b : ℕ) + (r : ℕ), h b r⟩)]
  refine Fintype.sum_equiv finProdFinEquiv _ _ (fun p => ?_)
  refine congrArg g (Fin.ext ?_)
  simp [finProdFinEquiv, Nat.add_comm]

/-! ## Coercions -/

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two variance formulas, over the reals -/

/-- Mean of squares minus squared mean is the mean of squared deviations. -/
theorem var_forms {ι : Type*} [Fintype ι] (p : ι → ℝ) (N : ℝ) (hN : (Fintype.card ι : ℝ) = N) (hN0 : N ≠ 0) :
    (∑ i, p i * p i) / N - (∑ i, p i) / N * ((∑ i, p i) / N)
      = (∑ i, (p i - (∑ i, p i) / N) * (p i - (∑ i, p i) / N)) / N := by
  have h1 : ∑ i, (p i - (∑ i, p i) / N) * (p i - (∑ i, p i) / N)
      = (∑ i, p i * p i) - 2 * ((∑ i, p i) / N) * (∑ i, p i) + N * (((∑ i, p i) / N) * ((∑ i, p i) / N)) := by
    have : ∀ i, (p i - (∑ i, p i) / N) * (p i - (∑ i, p i) / N)
        = p i * p i - 2 * ((∑ i, p i) / N) * p i + ((∑ i, p i) / N) * ((∑ i, p i) / N) := fun i => by ring
    simp only [this, Finset.sum_add_distrib, Finset.sum_sub_distrib, ← Finset.mul_sum, Finset.sum_const, Finset.card_univ,
      nsmul_eq_mul, hN]
    ring
  rw [h1]
  field_simp
  ring

/-- The mean of squared deviations is not negative. -/
theorem var_nonneg {ι : Type*} [Fintype ι] (p : ι → ℝ) (μ N : ℝ) (hN : 0 < N) :
    0 ≤ (∑ i, (p i - μ) * (p i - μ)) / N :=
  div_nonneg (Finset.sum_nonneg fun i _ => mul_self_nonneg _) hN.le

/-- Clamping "mean of squares minus squared mean" at zero leaves the mean of squared deviations. -/
theorem var_clamped {ι : Type*} [Fintype ι] (p : ι → ℝ) (N : ℝ) (hN : (Fintype.card ι : ℝ) = N) (hN0 : 0 < N) :
    max ((∑ i, p i * p i) / N - (∑ i, p i) / N * ((∑ i, p i) / N)) 0
      = (∑ i, (p i - (∑ i, p i) / N) * (p i - (∑ i, p i) / N)) / N := by
  rw [var_forms p N hN hN0.ne']
  exact max_eq_left (var_nonneg p _ N hN0)

/-! ## Finite extended reals -/

/-- An extended real that is a real number. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} : IsFin x → IsFin y → IsFin (x + y)
  | ⟨a, ha⟩, ⟨b, hb⟩ => ⟨a + b, by rw [ha, hb, EReal.coe_add]⟩
theorem IsFin.sub {x y : EReal} : IsFin x → IsFin y → IsFin (x - y)
  | ⟨a, ha⟩, ⟨b, hb⟩ => ⟨a - b, by rw [ha, hb, EReal.coe_sub]⟩
theorem IsFin.mul {x y : EReal} : IsFin x → IsFin y → IsFin (x * y)
  | ⟨a, ha⟩, ⟨b, hb⟩ => ⟨a * b, by rw [ha, hb, EReal.coe_mul]⟩
theorem IsFin.max {x y : EReal} : IsFin x → IsFin y → IsFin (max x y)
  | ⟨a, ha⟩, ⟨b, hb⟩ => ⟨Max.max a b, by rw [ha, hb]; exact (EReal.coe_strictMono.monotone.map_max).symm⟩
theorem IsFin.sum {ι : Type*} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))

/-- A quotient by a nonzero real is the real quotient. -/
theorem div_coe_coe (a b : ℝ) (hb : b ≠ 0) : Ideal.div (a : EReal) (b : EReal) = ((a / b : ℝ) : EReal) := by
  rw [Ideal.div_coe hb, ← EReal.coe_mul, mul_one_div]

theorem IsFin.div {x y : EReal} : IsFin x → IsFin y → y ≠ 0 → IsFin (Ideal.div x y)
  | ⟨a, ha⟩, ⟨b, hb⟩, h0 => ⟨a / b, by
      subst ha hb
      exact div_coe_coe a b (by rintro rfl; exact h0 rfl)⟩

/-- The square root of a nonnegative real. -/
theorem sqrt_coe (r : ℝ) (hr : 0 ≤ r) : Ideal.sqrt (r : EReal) = ((Real.sqrt r : ℝ) : EReal) := by
  show (if r < 0 then (⊥ : EReal) else (Real.sqrt r : EReal)) = _
  rw [if_neg (not_lt.mpr hr)]

/-- The reciprocal square root of a positive real. -/
theorem rsqrt_coe (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-! ## The variance formulas on finite extended reals -/

theorem coe_max (a b : ℝ) : ((Max.max a b : ℝ) : EReal) = Max.max (a : EReal) (b : EReal) :=
  EReal.coe_strictMono.monotone.map_max

/-- Finitely many finite extended reals are the coercions of reals. -/
theorem exists_real {ι : Type*} (x : ι → EReal) (hx : ∀ i, IsFin (x i)) : ∃ p : ι → ℝ, x = fun i => (p i : EReal) :=
  ⟨fun i => (hx i).choose, funext fun i => (hx i).choose_spec⟩

/-- For finite entries, "mean of squares minus squared mean, clamped at zero" is the mean of squared deviations. -/
theorem var_clamped_ereal {ι : Type*} [Fintype ι] (x : ι → EReal) (hx : ∀ i, IsFin (x i)) (N : ℝ)
    (hN : (Fintype.card ι : ℝ) = N) (hN0 : 0 < N) :
    Max.max (Ideal.div (∑ i, x i * x i) (N : EReal)
        - Ideal.div (∑ i, x i) (N : EReal) * Ideal.div (∑ i, x i) (N : EReal)) 0
      = Ideal.div (∑ i, (x i - Ideal.div (∑ i, x i) (N : EReal)) * (x i - Ideal.div (∑ i, x i) (N : EReal))) (N : EReal) := by
  obtain ⟨p, rfl⟩ := exists_real x hx
  simp only [← EReal.coe_mul, ← coe_sum, div_coe_coe _ _ hN0.ne', ← EReal.coe_sub]
  rw [← EReal.coe_zero, ← coe_max, var_clamped p N hN hN0]

/-! ## Signs -/

/-- A nonnegative real, as an extended real. -/
def IsNonneg (x : EReal) : Prop := ∃ r : ℝ, 0 ≤ r ∧ x = (r : EReal)
/-- A positive real, as an extended real. -/
def IsPos (x : EReal) : Prop := ∃ r : ℝ, 0 < r ∧ x = (r : EReal)

theorem IsNonneg.isFin {x : EReal} : IsNonneg x → IsFin x | ⟨r, _, h⟩ => ⟨r, h⟩
theorem IsPos.isFin {x : EReal} : IsPos x → IsFin x | ⟨r, _, h⟩ => ⟨r, h⟩
theorem IsPos.isNonneg {x : EReal} : IsPos x → IsNonneg x | ⟨r, h0, h⟩ => ⟨r, h0.le, h⟩
theorem IsPos.ne_zero {x : EReal} : IsPos x → x ≠ 0
  | ⟨r, h0, h⟩ => by rw [h]; exact_mod_cast h0.ne'
theorem IsNonneg.zero : IsNonneg 0 := ⟨0, le_rfl, rfl⟩
theorem IsFin.mul_self_nonneg {x : EReal} : IsFin x → IsNonneg (x * x)
  | ⟨a, ha⟩ => ⟨a * a, _root_.mul_self_nonneg a, by rw [ha, EReal.coe_mul]⟩
theorem IsNonneg.add {x y : EReal} : IsNonneg x → IsNonneg y → IsNonneg (x + y)
  | ⟨a, ha0, ha⟩, ⟨b, hb0, hb⟩ => ⟨a + b, add_nonneg ha0 hb0, by rw [ha, hb, EReal.coe_add]⟩
theorem IsNonneg.add_pos {x y : EReal} : IsNonneg x → IsPos y → IsPos (x + y)
  | ⟨a, ha0, ha⟩, ⟨b, hb0, hb⟩ => ⟨a + b, add_pos_of_nonneg_of_pos ha0 hb0, by rw [ha, hb, EReal.coe_add]⟩
theorem IsNonneg.sum {ι : Type*} (s : Finset ι) (f : ι → EReal) (h : ∀ i ∈ s, IsNonneg (f i)) : IsNonneg (∑ i ∈ s, f i) := by
  classical
  induction s using Finset.induction_on with
  | empty => simpa using IsNonneg.zero
  | insert a s ha ih =>
    rw [Finset.sum_insert ha]
    exact (h a (Finset.mem_insert_self a s)).add (ih fun i hi => h i (Finset.mem_insert_of_mem hi))
theorem IsNonneg.sqrt {x : EReal} : IsNonneg x → IsNonneg (Ideal.sqrt x)
  | ⟨a, ha0, ha⟩ => ⟨Real.sqrt a, Real.sqrt_nonneg a, by rw [ha, sqrt_coe a ha0]⟩
theorem IsNonneg.max_pos {x y : EReal} : IsNonneg x → IsPos y → IsPos (Max.max x y)
  | ⟨a, _, ha⟩, ⟨b, hb0, hb⟩ => ⟨Max.max a b, lt_max_of_lt_right hb0, by rw [ha, hb, coe_max]⟩
theorem IsFin.max_zero_nonneg {x : EReal} : IsFin x → IsNonneg (Max.max x 0)
  | ⟨a, ha⟩ => ⟨Max.max a 0, le_max_right a 0, by rw [ha, ← EReal.coe_zero, coe_max]⟩
theorem IsPos.rsqrt {x : EReal} : IsPos x → IsFin (Ideal.rsqrt x)
  | ⟨a, ha0, ha⟩ => ⟨(Real.sqrt a)⁻¹, by rw [ha, rsqrt_coe a ha0]⟩
theorem IsNonneg.div_pos {x y : EReal} : IsNonneg x → IsPos y → IsNonneg (Ideal.div x y)
  | ⟨a, ha0, ha⟩, ⟨b, hb0, hb⟩ => ⟨a / b, div_nonneg ha0 hb0.le, by rw [ha, hb, div_coe_coe a b hb0.ne']⟩
theorem IsFin.div_pos {x y : EReal} (hx : IsFin x) (hy : IsPos y) : IsFin (Ideal.div x y) :=
  hx.div hy.isFin hy.ne_zero

/-- Multiplying by the reciprocal of a nonzero divisor is dividing by it. -/
theorem mul_one_div (x y : EReal) (hy : y ≠ 0) : x * Ideal.div 1 y = Ideal.div x y := by
  rw [Ideal.div, Ideal.div, if_neg hy, if_neg hy, one_mul]

end Cert.LibStats

end
-- ==== Proof.Alg.Fin.lean ====
/-
  Finite extended reals: the literals that occur, closure under the arithmetic of one layer, and the scalar guard of
  a population variance.

  An extended real is finite when it is the coercion of a real number, equivalently when it is neither infinity.
  The single-precision words for 100000, for one, for zero and for the small positive constant added under the
  reciprocal square root denote finite numbers; the first and the last are positive.  The guard of the variance
  divides by "100000 minus the conversion of the integer zero", asks whether that divisor is positive, and selects
  the quotient when it is: on the extended reals the conversion is zero, the difference is 100000, the comparison
  holds, and the selection returns the quotient.
-/
import Idealize.ShloMosaic.PureOps.Ideal
import Idealize.ShloMosaic.PureOps.Ideal.Laws
import Idealize.ShloMosaic.Lib.ValueIdx
import proofs.«118347_j18940805776024_1_alg».proof.Proof.LibStats

noncomputable section

namespace Cert.Alg

open Idealize.ShloMosaic Cert.LibStats

/-! ## Finite means: neither infinity -/

theorem isFin_iff (x : EReal) : IsFin x ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩

theorem IsFin.ne_bot {x : EReal} (h : IsFin x) : x ≠ ⊥ := ((isFin_iff x).mp h).1
theorem IsFin.ne_top {x : EReal} (h : IsFin x) : x ≠ ⊤ := ((isFin_iff x).mp h).2

theorem IsFin.neg {x : EReal} : IsFin x → IsFin (-x)
  | ⟨a, ha⟩ => ⟨-a, by rw [ha, EReal.coe_neg]⟩

/-- An extended real strictly between the infinities in absolute value is finite. -/
theorem isFin_of_abs_lt_top {x : EReal} (h : max x (-x) < ⊤) : IsFin x := by
  induction x using EReal.rec with
  | bot => simp at h
  | coe r => exact ⟨r, rfl⟩
  | top => simp at h

/-! ## The literals -/

/-- The single-precision word of one hundred thousand. -/
theorem lit_n : Ideal.ofBits .f32 0x47C35000#32 = ((100000 : ℝ) : EReal) := by
  simp [Ideal.ofBits, Ideal.ieee, -EReal.coe_mul] <;> norm_num

/-- The single-precision word of one. -/
theorem lit_one : Ideal.ofBits .f32 0x3F800000#32 = 1 := by
  simp [Ideal.ofBits, Ideal.ieee, -EReal.coe_mul] <;> norm_num

/-- The single-precision word nearest to one hundred-thousandth is a positive real. -/
theorem lit_eps_pos : IsPos (Ideal.ofBits .f32 0x3727C5AC#32) := by
  refine ⟨10995116 * (2 : ℝ) ^ (-40 : ℤ), by positivity, ?_⟩
  simp [Ideal.ofBits, Ideal.ieee, -EReal.coe_mul] <;> norm_num

/-- The positive infinity's word. -/
theorem lit_inf : Ideal.ofBits .f32 0x7F800000#32 = ⊤ := by
  simp [Ideal.ofBits, Ideal.ieee]

theorem lit_n_pos : IsPos (Ideal.ofBits .f32 0x47C35000#32) := ⟨100000, by norm_num, lit_n⟩
theorem lit_n_fin : IsFin (Ideal.ofBits .f32 0x47C35000#32) := lit_n_pos.isFin
theorem lit_one_fin : IsFin (Ideal.ofBits .f32 0x3F800000#32) := by rw [lit_one]; exact IsFin.one
theorem lit_zero_fin : IsFin (Ideal.ofBits .f32 0x00000000#32) := by rw [Ideal.ofBits_zero_f32]; exact IsFin.zero
theorem lit_eps_fin : IsFin (Ideal.ofBits .f32 0x3727C5AC#32) := lit_eps_pos.isFin

/-! ## The scalar guard of the variance -/

/-- The conversion of the integer zero is zero. -/
theorem sitofp_zero : FloatOps.sitofp (F := Ideal) .f32 (0#32) = (0 : EReal) := by
  show (((0#32 : BitVec 32).toInt : ℝ) : EReal) = 0
  simp

/-- One hundred thousand minus the converted zero is one hundred thousand. -/
theorem guard_sub :
    (Ideal.ofBits .f32 0x47C35000#32 : EReal) - FloatOps.sitofp (F := Ideal) .f32 (0#32) = Ideal.ofBits .f32 0x47C35000#32 := by
  rw [sitofp_zero, sub_zero]

/-- The divisor is positive. -/
theorem guard_cmp : Ideal.cmp .ogt (Ideal.ofBits .f32 0x47C35000#32) (Ideal.ofBits .f32 0x00000000#32) = 1#1 := by
  rw [Ideal.ofBits_zero_f32, lit_n]
  have h : (0 : EReal) < ((100000 : ℝ) : EReal) := by exact_mod_cast (by norm_num : (0 : ℝ) < 100000)
  simp [Ideal.cmp, h]

/-- A selection on a true condition returns its first branch. -/
theorem select_true {α : Type} (a b : α) : Scalar.select (1#1) a b = a := by
  simp [Scalar.select]

/-- The whole guard: with the divisor `100000 - 0` and the condition `100000 - 0 > 0`, the guarded quotient is the
    plain quotient by one hundred thousand. -/
theorem guard_eval (q : EReal → EReal) (nan : EReal) :
    Scalar.select
        (FloatOps.cmpf (F := Ideal) (φ := .f32) .ogt
          ((Ideal.ofBits .f32 0x47C35000#32 : EReal) - FloatOps.sitofp (F := Ideal) .f32 (0#32))
          (Ideal.ofBits .f32 0x00000000#32))
        (q ((Ideal.ofBits .f32 0x47C35000#32 : EReal) - FloatOps.sitofp (F := Ideal) .f32 (0#32))) nan
      = q (Ideal.ofBits .f32 0x47C35000#32) := by
  rw [guard_sub, Ideal.cmpf_def, guard_cmp, select_true]

end Cert.Alg

end
-- ==== Proof.Alg.Stat.lean ====
/-
  The two formulas for a batch variance over one hundred thousand rows agree on finite entries.

  One program keeps the running sums `s = Σ z` and `ss = Σ z·z` and forms `ss / n − (s / n)·(s / n)`; the other
  forms the mean `s / n` first and averages the squared deviations from it.  Over the real numbers these are one
  number, and it is never negative; on the extended reals the identity needs every entry to be finite, because a
  product distributes over a sum only away from the infinities.  With the small positive constant added the common
  value is a positive real, so its reciprocal square root is finite.
-/
import proofs.«118347_j18940805776024_1_alg».proof.Proof.Alg.Fin

noncomputable section

namespace Cert.Alg

open Idealize.ShloMosaic Cert.LibStats

/-! ## Over any finite index type, divided by its cardinality -/

/-- Mean of squares minus squared mean is the mean of squared deviations, for finite extended reals. -/
theorem var_forms_ereal {ι : Type*} [Fintype ι] (x : ι → EReal) (hx : ∀ i, IsFin (x i)) (N : ℝ)
    (hN : (Fintype.card ι : ℝ) = N) (hN0 : N ≠ 0) :
    Ideal.div (∑ i, x i * x i) (N : EReal) - Ideal.div (∑ i, x i) (N : EReal) * Ideal.div (∑ i, x i) (N : EReal)
      = Ideal.div (∑ i, (x i - Ideal.div (∑ i, x i) (N : EReal)) * (x i - Ideal.div (∑ i, x i) (N : EReal))) (N : EReal) := by
  obtain ⟨p, rfl⟩ := exists_real x hx
  simp only [← EReal.coe_mul, ← coe_sum, div_coe_coe _ _ hN0, ← EReal.coe_sub]
  rw [var_forms p N hN hN0]

/-! ## Over one hundred thousand rows, with the literal divisor -/

local notation "cN" => (Ideal.ofBits FTy.f32 0x47C35000#32 : EReal)
local notation "cEps" => (Ideal.ofBits FTy.f32 0x3727C5AC#32 : EReal)

section
variable (z : Fin 100000 → EReal) (hz : ∀ r, IsFin (z r)) (s ss : EReal) (hs : s = ∑ r, z r)
  (hss : ss = ∑ r, z r * z r)

include hz hs in
/-- The mean of finite entries is finite. -/
theorem mean_fin : IsFin (Ideal.div s cN) := by
  rw [hs]
  exact (IsFin.sum _ _ fun r _ => hz r).div_pos lit_n_pos

include hz hs hss in
/-- THE STATISTIC LAW.  With `s` the sum of the entries and `ss` the sum of their squares (in whatever grouping they
    were accumulated), mean of squares minus squared mean is the mean of the squared deviations from the mean. -/
theorem stat_law :
    Ideal.div ss cN - Ideal.div s cN * Ideal.div s cN
      = Ideal.div (∑ r, (z r - Ideal.div s cN) * (z r - Ideal.div s cN)) cN := by
  rw [hs, hss, lit_n]
  exact var_forms_ereal z hz 100000 (by simp) (by norm_num)

include hz hs in
/-- The mean of squared deviations is a nonnegative real. -/
theorem varDev_nonneg :
    IsNonneg (Ideal.div (∑ r, (z r - Ideal.div s cN) * (z r - Ideal.div s cN)) cN) :=
  (IsNonneg.sum _ _ fun r _ => ((hz r).sub (mean_fin z hz s hs)).mul_self_nonneg).div_pos lit_n_pos

include hz hs hss in
/-- So is mean of squares minus squared mean. -/
theorem varSq_nonneg : IsNonneg (Ideal.div ss cN - Ideal.div s cN * Ideal.div s cN) := by
  rw [stat_law z hz s ss hs hss]
  exact varDev_nonneg z hz s hs

include hz hs in
/-- With the small positive constant added, the variance is a positive real. -/
theorem varDev_eps_pos :
    IsPos (Ideal.div (∑ r, (z r - Ideal.div s cN) * (z r - Ideal.div s cN)) cN + cEps) :=
  (varDev_nonneg z hz s hs).add_pos lit_eps_pos

include hz hs hss in
theorem varSq_eps_pos : IsPos (Ideal.div ss cN - Ideal.div s cN * Ideal.div s cN + cEps) :=
  (varSq_nonneg z hz s ss hs hss).add_pos lit_eps_pos

include hz hs in
/-- Hence the reciprocal square root under the normalisation is finite. -/
theorem rsqrt_varDev_fin :
    IsFin (Ideal.rsqrt (Ideal.div (∑ r, (z r - Ideal.div s cN) * (z r - Ideal.div s cN)) cN + cEps)) :=
  (varDev_eps_pos z hz s hs).rsqrt

include hz hs hss in
theorem rsqrt_varSq_fin :
    IsFin (Ideal.rsqrt (Ideal.div ss cN - Ideal.div s cN * Ideal.div s cN + cEps)) :=
  (varSq_eps_pos z hz s ss hs hss).rsqrt
end

/-! ## Sums accumulated block by block -/

/-- A sum over one hundred thousand rows taken as twenty blocks of five thousand. -/
theorem sum_rows_blocks {M : Type*} [AddCommMonoid M] (g : Fin 100000 → M) :
    ∑ b : Fin 20, ∑ r : Fin 5000, g ⟨5000 * (b : ℕ) + (r : ℕ), by omega⟩ = ∑ i, g i :=
  sum_blocks 20 5000 (g : Fin (20 * 5000) → M) (fun b r => by omega)

/-- A leading zero does not change a sum. -/
theorem zero_add_sum {ι : Type*} (t : Finset ι) (f : ι → EReal) : (0 : EReal) + ∑ i ∈ t, f i = ∑ i ∈ t, f i :=
  zero_add _

end Cert.Alg

end
-- ==== Proof.Alg.Layer.lean ====
/-
  One layer of the graph network, entry by entry on the extended reals, and why every intermediate is finite.

  A layer scales the node features `h` by `1 + ε`, adds the neighbourhood sums `agg`, applies two affine maps each
  followed by the positive part, and standardises every column by its mean and population variance over all one
  hundred thousand rows (a small positive constant under the reciprocal square root), followed by a gain and an
  offset.  Sums, differences, products and maxima of finite extended reals are finite; the mean divides a finite sum
  by one hundred thousand; the variance is a nonnegative real in either of its two forms, which agree on finite
  entries; so the reciprocal square root is taken of a positive real and the output is finite again.  The layer's
  output is therefore a legitimate input of the next layer.
-/
import proofs.«118347_j18940805776024_1_alg».proof.Proof.Alg.Stat

noncomputable section

namespace Cert.Alg

open Idealize.ShloMosaic Cert.LibStats

local notation "cN" => (Ideal.ofBits FTy.f32 0x47C35000#32 : EReal)
local notation "cEps" => (Ideal.ofBits FTy.f32 0x3727C5AC#32 : EReal)

/-! ## The pointwise steps -/

/-- The scaled features plus the neighbourhood sum. -/
theorem zin_fin {one eps h a : EReal} (h1 : IsFin one) (he : IsFin eps) (hh : IsFin h) (ha : IsFin a) :
    IsFin ((one + eps) * h + a) :=
  ((h1.add he).mul hh).add ha

/-- One entry of an affine map: a row times a column, plus the bias. -/
theorem lin_fin {κ : Type*} [Fintype κ] {x w : κ → EReal} {b : EReal} (hx : ∀ k, IsFin (x k)) (hw : ∀ k, IsFin (w k))
    (hb : IsFin b) : IsFin (∑ k, x k * w k + b) :=
  (IsFin.sum _ _ fun k _ => (hx k).mul (hw k)).add hb

/-- The same with the accumulation started from zero. -/
theorem lin0_fin {κ : Type*} [Fintype κ] {x w : κ → EReal} {b : EReal} (hx : ∀ k, IsFin (x k)) (hw : ∀ k, IsFin (w k))
    (hb : IsFin b) : IsFin ((0 + ∑ k, x k * w k) + b) :=
  (IsFin.zero.add (IsFin.sum _ _ fun k _ => (hx k).mul (hw k))).add hb

/-- The positive part. -/
theorem relu_fin {x : EReal} (hx : IsFin x) : IsFin (max x 0) := hx.max IsFin.zero

/-- Centre, scale by the reciprocal square root of a positive real, gain and offset. -/
theorem bn_fin {z m v g b : EReal} (hz : IsFin z) (hm : IsFin m) (hv : IsPos v) (hg : IsFin g) (hb : IsFin b) :
    IsFin ((z - m) * Ideal.rsqrt v * g + b) :=
  (((hz.sub hm).mul hv.rsqrt).mul hg).add hb

/-! ## The layer over one hundred thousand rows of one hundred and twenty-eight features -/

/-- `(one + ε) · h + agg`. -/
def zinOf (one eps : EReal) (h agg : Fin 100000 → Fin 128 → EReal) : Fin 100000 → Fin 128 → EReal :=
  fun r k => (one + eps) * h r k + agg r k

/-- An affine map: `x · W + b`. -/
def linOf (x : Fin 100000 → Fin 128 → EReal) (W : Fin 128 → Fin 128 → EReal) (b : Fin 128 → EReal) :
    Fin 100000 → Fin 128 → EReal :=
  fun r j => ∑ k, x r k * W k j + b j

/-- The positive part, entry by entry. -/
def reluOf (x : Fin 100000 → Fin 128 → EReal) : Fin 100000 → Fin 128 → EReal := fun r j => max (x r j) 0

/-- The two affine maps with their positive parts. -/
def mlpOf (x : Fin 100000 → Fin 128 → EReal) (W1 : Fin 128 → Fin 128 → EReal) (b1 : Fin 128 → EReal)
    (W2 : Fin 128 → Fin 128 → EReal) (b2 : Fin 128 → EReal) : Fin 100000 → Fin 128 → EReal :=
  reluOf (linOf (reluOf (linOf x W1 b1)) W2 b2)

/-- The column mean. -/
def meanOf (z : Fin 100000 → Fin 128 → EReal) : Fin 128 → EReal := fun j => Ideal.div (∑ r, z r j) cN

/-- The variance as mean of squares minus squared mean. -/
def varSqOf (z : Fin 100000 → Fin 128 → EReal) : Fin 128 → EReal :=
  fun j => Ideal.div (∑ r, z r j * z r j) cN - meanOf z j * meanOf z j

/-- The variance as the mean of squared deviations. -/
def varDevOf (z : Fin 100000 → Fin 128 → EReal) : Fin 128 → EReal :=
  fun j => Ideal.div (∑ r, (z r j - meanOf z j) * (z r j - meanOf z j)) cN

/-- The standardised columns with gain and offset, for a given variance. -/
def bnOf (z : Fin 100000 → Fin 128 → EReal) (v g b : Fin 128 → EReal) : Fin 100000 → Fin 128 → EReal :=
  fun r j => (z r j - meanOf z j) * Ideal.rsqrt (v j + cEps) * g j + b j

/-- A whole layer, the variance as the mean of squared deviations. -/
def ginLayer (one eps : EReal) (h agg : Fin 100000 → Fin 128 → EReal) (W1 : Fin 128 → Fin 128 → EReal) (b1 : Fin 128 → EReal)
    (W2 : Fin 128 → Fin 128 → EReal) (b2 g b : Fin 128 → EReal) : Fin 100000 → Fin 128 → EReal :=
  bnOf (mlpOf (zinOf one eps h agg) W1 b1 W2 b2) (varDevOf (mlpOf (zinOf one eps h agg) W1 b1 W2 b2)) g b

section
variable {one eps : EReal} {h agg : Fin 100000 → Fin 128 → EReal} {W1 W2 : Fin 128 → Fin 128 → EReal}
  {b1 b2 g b : Fin 128 → EReal}

theorem zinOf_fin (h1 : IsFin one) (he : IsFin eps) (hh : ∀ r k, IsFin (h r k)) (ha : ∀ r k, IsFin (agg r k)) (r : Fin 100000)
    (k : Fin 128) : IsFin (zinOf one eps h agg r k) :=
  zin_fin h1 he (hh r k) (ha r k)

theorem linOf_fin {x : Fin 100000 → Fin 128 → EReal} {W : Fin 128 → Fin 128 → EReal} {c : Fin 128 → EReal}
    (hx : ∀ r k, IsFin (x r k)) (hW : ∀ k j, IsFin (W k j)) (hc : ∀ j, IsFin (c j)) (r : Fin 100000) (j : Fin 128) :
    IsFin (linOf x W c r j) :=
  lin_fin (fun k => hx r k) (fun k => hW k j) (hc j)

theorem reluOf_fin {x : Fin 100000 → Fin 128 → EReal} (hx : ∀ r j, IsFin (x r j)) (r : Fin 100000) (j : Fin 128) :
    IsFin (reluOf x r j) :=
  relu_fin (hx r j)

theorem mlpOf_fin {x : Fin 100000 → Fin 128 → EReal} (hx : ∀ r k, IsFin (x r k)) (hW1 : ∀ k j, IsFin (W1 k j))
    (hb1 : ∀ j, IsFin (b1 j)) (hW2 : ∀ k j, IsFin (W2 k j)) (hb2 : ∀ j, IsFin (b2 j)) (r : Fin 100000) (j : Fin 128) :
    IsFin (mlpOf x W1 b1 W2 b2 r j) :=
  reluOf_fin (linOf_fin (reluOf_fin (linOf_fin hx hW1 hb1)) hW2 hb2) r j

variable {z : Fin 100000 → Fin 128 → EReal} (hz : ∀ r j, IsFin (z r j))
include hz

theorem meanOf_fin (j : Fin 128) : IsFin (meanOf z j) :=
  mean_fin (fun r => z r j) (fun r => hz r j) _ rfl

/-- On finite entries the two forms of the variance are one function. -/
theorem varSqOf_eq_varDevOf : varSqOf z = varDevOf z := by
  funext j
  exact stat_law (fun r => z r j) (fun r => hz r j) _ _ rfl rfl

theorem varDevOf_nonneg (j : Fin 128) : IsNonneg (varDevOf z j) :=
  varDev_nonneg (fun r => z r j) (fun r => hz r j) _ rfl

theorem varSqOf_nonneg (j : Fin 128) : IsNonneg (varSqOf z j) := by
  rw [varSqOf_eq_varDevOf hz]; exact varDevOf_nonneg hz j

theorem varDevOf_eps_pos (j : Fin 128) : IsPos (varDevOf z j + cEps) := (varDevOf_nonneg hz j).add_pos lit_eps_pos
theorem varSqOf_eps_pos (j : Fin 128) : IsPos (varSqOf z j + cEps) := (varSqOf_nonneg hz j).add_pos lit_eps_pos

/-- The standardised columns do not depend on which form of the variance was used. -/
theorem bnOf_varSq_eq (g b : Fin 128 → EReal) : bnOf z (varSqOf z) g b = bnOf z (varDevOf z) g b := by
  rw [varSqOf_eq_varDevOf hz]

theorem bnOf_fin {v : Fin 128 → EReal} (hv : ∀ j, IsNonneg (v j)) (hg : ∀ j, IsFin (g j)) (hb : ∀ j, IsFin (b j))
    (r : Fin 100000) (j : Fin 128) : IsFin (bnOf z v g b r j) :=
  bn_fin (hz r j) (meanOf_fin hz j) ((hv j).add_pos lit_eps_pos) (hg j) (hb j)

omit hz

/-- A layer of finite inputs is finite: its output can feed the next layer. -/
theorem ginLayer_fin (h1 : IsFin one) (he : IsFin eps) (hh : ∀ r k, IsFin (h r k)) (ha : ∀ r k, IsFin (agg r k))
    (hW1 : ∀ k j, IsFin (W1 k j)) (hb1 : ∀ j, IsFin (b1 j)) (hW2 : ∀ k j, IsFin (W2 k j)) (hb2 : ∀ j, IsFin (b2 j))
    (hg : ∀ j, IsFin (g j)) (hb : ∀ j, IsFin (b j)) (r : Fin 100000) (j : Fin 128) :
    IsFin (ginLayer one eps h agg W1 b1 W2 b2 g b r j) :=
  bnOf_fin (mlpOf_fin (zinOf_fin h1 he hh ha) hW1 hb1 hW2 hb2)
    (varDevOf_nonneg (mlpOf_fin (zinOf_fin h1 he hh ha) hW1 hb1 hW2 hb2)) hg hb r j
end

end Cert.Alg

end
-- ==== Proof.Alg.RefRead.lean ====
/-
  The reference's layer, read entry by entry on the extended reals.

  Each stage of one layer of the reference (the scaled features plus the neighbourhood sum, the two affine maps with
  their positive parts, the column means, the centred rows, the population variance with its guard, the
  standardisation) is a composition of whole-array operations.  Read at one entry, a broadcast of a vector along the
  rows is the vector's entry, a matrix product is the sum over the contracted index, a sum down the rows is the
  initial value plus the sum of the column, and the variance's guard evaluates to the plain quotient by one hundred
  thousand.  So one layer of the reference is, entry by entry, the layer of the algebra, and on finite inputs it is
  finite; the neighbourhood sum of a finite array is finite because every entry of it is zero plus a finite sum of
  entries of the array.
-/
import proofs.«118347_j18940805776024_1_alg».proof.Proof.Ref.Stages
import proofs.«118347_j18940805776024_1_alg».proof.Proof.Alg.Layer
import Idealize.ShloMosaic.Lib.Pipeline.Value

noncomputable section

namespace Cert.Alg.RefRead

open Cert.ReferenceIdeal Cert.ReferenceIdeal.Gen Cert.ReferenceIdeal.HandRun Idealize.ShloMosaic Idealize.ShloMosaic.ValueIdx
  Cert.LibStats Cert.Alg

theorem bcast_scalar {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

theorem bcast_row {α : Type} (v : S128.Idx → α) (r : Fin 100000) (k : Fin 128) :
    broadcastInDim S100000x128 ![0, 1] bcast_S1x128_S100000x128_0_1 (broadcastInDim S1x128 ![1] bcast_S128_S1x128_1 v) (ix2 r k)
      = v (ix1 k) := by
  rw [broadcastInDim_apply _ _ _ (ix2 r k) (ix2 0 k) (fun a => by
        match a with
        | ⟨0, _⟩ => rfl
        | ⟨1, _⟩ => rfl),
    broadcastInDim_apply _ _ _ (ix2 0 k) (ix1 k) (fun a => by
        match a with
        | ⟨0, _⟩ => rfl)]

theorem preRef_at (h : (⟨S100000x128, .f32⟩ : BufTy).Contents (Elt Ideal)) (eps : (⟨S_, .f32⟩ : BufTy).Contents (Elt Ideal))
    (src dst : (⟨S1600000, .i32⟩ : BufTy).Contents (Elt Ideal)) (r : Fin 100000) (k : Fin 128) :
    preRef (F := Ideal) h eps src dst (ix2 r k)
      = (Ideal.ofBits .f32 0x3F800000#32 + eps ix0) * h (ix2 r k) + aggRef (F := Ideal) h src dst (ix2 r k) := by
  unfold preRef
  rw [addf_apply, mulf_apply, bcast_scalar, addf_apply, constant_apply]

/-- An accumulating scatter of finite updates into a finite array is finite. -/
theorem scatterAdd_fin {s si su : Shape} {w : Nat} (d : ScatterDims s si su) (x : FVec Ideal s .f32) (idx : IVec si w)
    (upd : FVec Ideal su .f32) (hx : ∀ i, IsFin (x i)) (hu : ∀ j, IsFin (upd j)) (i : s.Idx) :
    IsFin (Host.scatterAdd d x idx upd i) := by
  show IsFin (x i + ∑ j ∈ _, upd j)
  exact (hx i).add (IsFin.sum _ _ fun j _ => hu j)

/-- A gather of a finite array is finite: every entry of the result is an entry of the operand. -/
theorem gather_fin {s si t : Shape} {w : Nat} (d : GatherDims s si t) (x : FVec Ideal s .f32) (idx : IVec si w)
    (hx : ∀ i, IsFin (x i)) (j : t.Idx) : IsFin (Host.gather d x idx j) :=
  hx _

theorem aggRef_fin (h : (⟨S100000x128, .f32⟩ : BufTy).Contents (Elt Ideal))
    (src dst : (⟨S1600000, .i32⟩ : BufTy).Contents (Elt Ideal)) (hh : ∀ i, IsFin (h i)) (i : S100000x128.Idx) :
    IsFin (aggRef (F := Ideal) h src dst i) := by
  unfold aggRef
  refine scatterAdd_fin _ _ _ _ (fun i => ?_) (fun j => gather_fin _ _ _ hh j) i
  rw [bcast_scalar, constant_apply]
  exact lit_zero_fin

theorem preRef_fin (h : (⟨S100000x128, .f32⟩ : BufTy).Contents (Elt Ideal)) (eps : (⟨S_, .f32⟩ : BufTy).Contents (Elt Ideal))
    (src dst : (⟨S1600000, .i32⟩ : BufTy).Contents (Elt Ideal)) (hh : ∀ i, IsFin (h i)) (he : IsFin (eps ix0)) (i : S100000x128.Idx) :
    IsFin (preRef (F := Ideal) h eps src dst i) := by
  obtain ⟨r, k, rfl⟩ : ∃ (r : Fin 100000) (k : Fin 128), i = ix2 r k := ⟨i 0, i 1, eq_ix2 i⟩
  rw [preRef_at]
  exact zin_fin lit_one_fin he (hh _) (aggRef_fin h src dst hh _)

/-- On its rows the left operand of the host's matrix product is read at the output's row. -/
theorem d128_lhs_0 (j : S100000x128.Idx) (k : dot_S100000x128_S128x128_S100000x128_1_0_0_1_n_n.contr.Idx) : (dot_S100000x128_S128x128_S100000x128_1_0_0_1_n_n.lhsIdx j k 0).val = (j 0).val := by
  unfold DotDims.lhsIdx
  rw [dif_neg (show ¬(0 : Fin 2) ∈ dot_S100000x128_S128x128_S100000x128_1_0_0_1_n_n.lhsBatch from List.not_mem_nil),
    dif_pos (show (0 : Fin 2) ∈ dot_S100000x128_S128x128_S100000x128_1_0_0_1_n_n.lhsNonContracting from List.mem_singleton.mpr rfl)]
  rfl

/-- On its columns the right operand is read at the output's column. -/
theorem d128_rhs_1 (j : S100000x128.Idx) (k : dot_S100000x128_S128x128_S100000x128_1_0_0_1_n_n.contr.Idx) : (dot_S100000x128_S128x128_S100000x128_1_0_0_1_n_n.rhsIdx j k 1).val = (j 1).val := by
  unfold DotDims.rhsIdx
  rw [dif_neg (show ¬(1 : Fin 2) ∈ dot_S100000x128_S128x128_S100000x128_1_0_0_1_n_n.rhsBatch from List.not_mem_nil),
    dif_pos (show (1 : Fin 2) ∈ dot_S100000x128_S128x128_S100000x128_1_0_0_1_n_n.rhsNonContracting from List.mem_singleton.mpr rfl)]
  rfl

/-- The host's matrix product of a 100000 × 128 array by a 128 × 128 array, at an entry. -/
theorem dot_at (x : FVec Ideal S100000x128 .f32) (w : FVec Ideal S128x128 .f32) (p : Fin 100000) (q : Fin 128) :
    Host.dotGeneral dot_S100000x128_S128x128_S100000x128_1_0_0_1_n_n none x w (ix2 p q) = ∑ k : Fin 128, x (ix2 p k) * w (ix2 k q) := by
  refine (Ideal.dotGeneral_apply dot_S100000x128_S128x128_S100000x128_1_0_0_1_n_n none .single x w (ix2 p q)).trans ?_
  rw [← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k :=
    funext fun a => Fin.ext (by
      match a with
      | ⟨0, _⟩ => exact d128_lhs_0 _ _
      | ⟨1, _⟩ => exact (dot_S100000x128_S128x128_S100000x128_1_0_0_1_n_n.lhsIdx_val_of_single rfl _ _).trans hk)
  have er : dot_S100000x128_S128x128_S100000x128_1_0_0_1_n_n.rhsIdx (ix2 p q) ((contrEquiv1 dot_S100000x128_S128x128_S100000x128_1_0_0_1_n_n 128 rfl rfl).symm k) = ix2 k q :=
    funext fun a => Fin.ext (by
      match a with
      | ⟨0, _⟩ => exact (dot_S100000x128_S128x128_S100000x128_1_0_0_1_n_n.rhsIdx_val_of_single rfl _ _).trans hk
      | ⟨1, _⟩ => exact d128_rhs_1 _ _)
  rw [el, er]

theorem bcast_01 {α : Type} (u : S1x128.Idx → α) (r : Fin 100000) (k : Fin 128) :
    broadcastInDim S100000x128 ![0, 1] bcast_S1x128_S100000x128_0_1 u (ix2 r k) = u (ix2 0 k) :=
  broadcastInDim_apply _ _ _ (ix2 r k) (ix2 0 k) (fun a => by
    match a with
    | ⟨0, _⟩ => rfl
    | ⟨1, _⟩ => rfl)

theorem bcast_1 {α : Type} (v : S128.Idx → α) (k : Fin 128) :
    broadcastInDim S1x128 ![1] bcast_S128_S1x128_1 v (ix2 0 k) = v (ix1 k) :=
  broadcastInDim_apply _ _ _ (ix2 0 k) (ix1 k) (fun a => by
    match a with
    | ⟨0, _⟩ => rfl)

theorem hostDivf_at {s : Shape} (a b : FVec Ideal s .f32) (i : s.Idx) : Host.divf a b i = Ideal.div (a i) (b i) := rfl
theorem hostRsqrt_at {s : Shape} (a : FVec Ideal s .f32) (i : s.Idx) : Host.rsqrt a i = Ideal.rsqrt (a i) := rfl
theorem constantI_at {s : Shape} {w : Nat} (b : BitVec w) (i : s.Idx) : constantI s w b i = b := rfl

/-- The host's sum down the rows, at a column: the initial value plus the sum of the column. -/
theorem colsum_at (z : FVec Ideal S100000x128 .f32) (init : S_.Idx → EReal) (j : Fin 128) :
    Host.reduceAdd z init reducesTo_S100000x128_S128_d0 h_S_ (ix1 j) = init ix0 + ∑ r : Fin 100000, z (ix2 r j) := by
  have hR : S100000x128.Reduces [0] S128 := by decide
  refine (Ideal.hostReduceAdd_single reducesTo_S100000x128_S128_d0 hR z _ (ix1 j)).trans ?_
  show init _ + ∑ k : Fin 100000, z (hR.lift (ix1 j) k) = _
  rw [eq_ix0 (Shape.Idx.first h_S_)]
  refine congrArg (init ix0 + ·) (Finset.sum_congr rfl fun k _ => congrArg z (funext fun c => Fin.ext ?_))
  match c with
  | ⟨0, _⟩ => rfl
  | ⟨1, _⟩ => rfl

theorem mlpRef_at (x : (⟨S100000x128, .f32⟩ : BufTy).Contents (Elt Ideal)) (w1 : (⟨S128x128, .f32⟩ : BufTy).Contents (Elt Ideal))
    (b1 : (⟨S128, .f32⟩ : BufTy).Contents (Elt Ideal)) (w2 : (⟨S128x128, .f32⟩ : BufTy).Contents (Elt Ideal))
    (b2 : (⟨S128, .f32⟩ : BufTy).Contents (Elt Ideal)) (r : Fin 100000) (j : Fin 128) :
    mlpRef (F := Ideal) x w1 b1 w2 b2 (ix2 r j)
      = mlpOf (fun r k => x (ix2 r k)) (fun k j => w1 (ix2 k j)) (fun j => b1 (ix1 j)) (fun k j => w2 (ix2 k j)) (fun j => b2 (ix1 j)) r j := by
  unfold mlpRef
  rw [maximumf_apply, addf_apply, dot_at, bcast_01, bcast_1, bcast_scalar, constant_apply, Ideal.ofBits_zero_f32]
  refine congrArg (fun t => max (t + b2 (ix1 j)) 0) (Finset.sum_congr rfl fun k _ => ?_)
  rw [maximumf_apply, addf_apply, dot_at, bcast_01, bcast_1, bcast_scalar, constant_apply, Ideal.ofBits_zero_f32]
  rfl

theorem meanRef_at (z : (⟨S100000x128, .f32⟩ : BufTy).Contents (Elt Ideal)) (j : Fin 128) :
    meanRef (F := Ideal) z (ix1 j) = meanOf (fun r k => z (ix2 r k)) j := by
  unfold meanRef
  rw [hostDivf_at, colsum_at, bcast_scalar, constant_apply, constant_apply, Ideal.ofBits_zero_f32, zero_add]
  rfl

theorem ctrRef_at (z : (⟨S100000x128, .f32⟩ : BufTy).Contents (Elt Ideal)) (r : Fin 100000) (j : Fin 128) :
    ctrRef (F := Ideal) z (ix2 r j) = z (ix2 r j) - meanOf (fun r k => z (ix2 r k)) j := by
  unfold ctrRef
  rw [subf_apply, bcast_01, hostDivf_at, bcast_1, colsum_at, bcast_scalar, constant_apply, constant_apply, Ideal.ofBits_zero_f32,
    zero_add]
  rfl

theorem varRef_at (z : (⟨S100000x128, .f32⟩ : BufTy).Contents (Elt Ideal)) (j : Fin 128) :
    varRef (F := Ideal) z (ix1 j) = varDevOf (fun r k => z (ix2 r k)) j := by
  unfold varRef
  rw [select_apply]
  rw [bcast_scalar, bcast_scalar]
  rw [hostDivf_at]
  rw [bcast_scalar]
  rw [cmpf_apply]
  rw [subf_apply]
  rw [sitofp_apply]
  rw [constantI_at]
  rw [constant_apply, constant_apply]
  rw [guard_sub]
  rw [Ideal.cmpf_def]
  rw [guard_cmp]
  rw [select_true]
  rw [colsum_at, constant_apply, Ideal.ofBits_zero_f32, zero_add]
  simp only [mulf_apply, ctrRef_at]
  rfl

theorem bnRef_at (z : (⟨S100000x128, .f32⟩ : BufTy).Contents (Elt Ideal)) (g b : (⟨S128, .f32⟩ : BufTy).Contents (Elt Ideal))
    (r : Fin 100000) (j : Fin 128) :
    bnRef (F := Ideal) z g b (ix2 r j)
      = bnOf (fun r k => z (ix2 r k)) (varDevOf (fun r k => z (ix2 r k))) (fun j => g (ix1 j)) (fun j => b (ix1 j)) r j := by
  unfold bnRef
  rw [addf_apply, mulf_apply, mulf_apply, subf_apply, bcast_01, bcast_1, bcast_01, bcast_1, bcast_01, bcast_1, bcast_01, bcast_1,
    hostRsqrt_at, addf_apply, bcast_scalar, constant_apply, meanRef_at, varRef_at]
  rfl

/-- One layer of the reference, entry by entry, is the layer of the algebra. -/
theorem layerRef_at (h : (⟨S100000x128, .f32⟩ : BufTy).Contents (Elt Ideal)) (w1 : (⟨S128x128, .f32⟩ : BufTy).Contents (Elt Ideal))
    (b1 : (⟨S128, .f32⟩ : BufTy).Contents (Elt Ideal)) (w2 : (⟨S128x128, .f32⟩ : BufTy).Contents (Elt Ideal))
    (b2 g b : (⟨S128, .f32⟩ : BufTy).Contents (Elt Ideal)) (eps : (⟨S_, .f32⟩ : BufTy).Contents (Elt Ideal))
    (src dst : (⟨S1600000, .i32⟩ : BufTy).Contents (Elt Ideal)) (r : Fin 100000) (j : Fin 128) :
    layerRef (F := Ideal) h w1 b1 w2 b2 g b eps src dst (ix2 r j)
      = ginLayer (Ideal.ofBits .f32 0x3F800000#32) (eps ix0) (fun r k => h (ix2 r k)) (fun r k => aggRef (F := Ideal) h src dst (ix2 r k))
          (fun k j => w1 (ix2 k j)) (fun j => b1 (ix1 j)) (fun k j => w2 (ix2 k j)) (fun j => b2 (ix1 j)) (fun j => g (ix1 j))
          (fun j => b (ix1 j)) r j := by
  unfold layerRef
  rw [bnRef_at]
  have e : (fun r k => mlpRef (F := Ideal) (preRef h eps src dst) w1 b1 w2 b2 (ix2 r k))
      = mlpOf (zinOf (Ideal.ofBits .f32 0x3F800000#32) (eps ix0) (fun r k => h (ix2 r k)) (fun r k => aggRef (F := Ideal) h src dst (ix2 r k)))
          (fun k j => w1 (ix2 k j)) (fun j => b1 (ix1 j)) (fun k j => w2 (ix2 k j)) (fun j => b2 (ix1 j)) := by
    funext r k
    rw [mlpRef_at]
    refine congrArg (fun x => mlpOf x _ _ _ _ r k) ?_
    funext r k
    exact preRef_at h eps src dst r k
  rw [e]
  rfl

/-- So a layer of the reference on finite inputs is finite. -/
theorem layerRef_fin (h : (⟨S100000x128, .f32⟩ : BufTy).Contents (Elt Ideal)) (w1 : (⟨S128x128, .f32⟩ : BufTy).Contents (Elt Ideal))
    (b1 : (⟨S128, .f32⟩ : BufTy).Contents (Elt Ideal)) (w2 : (⟨S128x128, .f32⟩ : BufTy).Contents (Elt Ideal))
    (b2 g b : (⟨S128, .f32⟩ : BufTy).Contents (Elt Ideal)) (eps : (⟨S_, .f32⟩ : BufTy).Contents (Elt Ideal))
    (src dst : (⟨S1600000, .i32⟩ : BufTy).Contents (Elt Ideal))
    (hh : ∀ i, IsFin (h i)) (hw1 : ∀ i, IsFin (w1 i)) (hb1 : ∀ i, IsFin (b1 i)) (hw2 : ∀ i, IsFin (w2 i)) (hb2 : ∀ i, IsFin (b2 i))
    (hg : ∀ i, IsFin (g i)) (hb : ∀ i, IsFin (b i)) (he : IsFin (eps ix0)) (i : S100000x128.Idx) :
    IsFin (layerRef (F := Ideal) h w1 b1 w2 b2 g b eps src dst i) := by
  obtain ⟨r, k, rfl⟩ : ∃ (r : Fin 100000) (k : Fin 128), i = ix2 r k := ⟨i 0, i 1, eq_ix2 i⟩
  rw [layerRef_at]
  exact ginLayer_fin lit_one_fin he (fun _ _ => hh _) (fun _ _ => aggRef_fin h src dst hh _) (fun _ _ => hw1 _) (fun _ => hb1 _)
    (fun _ _ => hw2 _) (fun _ => hb2 _) (fun _ => hg _) (fun _ => hb _) r k

/-- A slice of a stack of finite matrices is finite: every entry of it is an entry of the stack. -/
theorem matSlice_fin (off : Fin 3 → Nat) (hs : S4x128x128.Slices off S1x128x128) (a : (⟨S4x128x128, .f32⟩ : BufTy).Contents (Elt Ideal))
    (ha : ∀ i, IsFin (a i)) (i : S128x128.Idx) : IsFin (matSlice (F := Ideal) off hs a i) := ha _

theorem vecSlice_fin (off : Fin 2 → Nat) (hs : S4x128.Slices off S1x128) (a : (⟨S4x128, .f32⟩ : BufTy).Contents (Elt Ideal))
    (ha : ∀ i, IsFin (a i)) (i : S128.Idx) : IsFin (vecSlice (F := Ideal) off hs a i) := ha _

theorem scalSlice_fin (off : Fin 1 → Nat) (hs : S4.Slices off S1) (a : (⟨S4, .f32⟩ : BufTy).Contents (Elt Ideal))
    (ha : ∀ i, IsFin (a i)) (i : S_.Idx) : IsFin (scalSlice (F := Ideal) off hs a i) := ha _

end Cert.Alg.RefRead

end
-- ==== Proof.Alg.Bridge.lean ====
/-
  The one-layer bridge: the two programs' batch normalisations of the same perceptron output are one function.

  One program keeps, beside the perceptron's output `z`, its column sums and column sums of squares, forms from them
  the mean `s / n` and the variance `ss / n − mean · mean`, and standardises `z` with these.  The other forms the mean,
  then the mean of the squared deviations from it, and standardises `z` with those.  Read entry by entry both are the
  algebra's standardisation of the same array, once with the variance as mean of squares minus squared mean and once
  as the mean of squared deviations; these agree because every entry of `z` is finite, which it is when the
  perceptron's inputs are.
-/
import proofs.«118347_j18940805776024_1_alg».proof.Proof.Alg.RefRead
import proofs.«118347_j18940805776024_1_alg».proof.Proof.KI.StagesK
import proofs.«118347_j18940805776024_1_alg».proof.Proof.KI.SpecA
import proofs.«118347_j18940805776024_1_alg».proof.Proof.KI.SpecB
import Idealize.ShloMosaic.Lib.ValueLayout

noncomputable section

namespace Cert.Alg.Bridge

open Cert.ReferenceIdeal.HandRun Cert.KernelIdeal.StagesK Idealize.ShloMosaic Idealize.ShloMosaic.ValueIdx
  Cert.LibStats Cert.Alg Cert.Alg.RefRead

local notation "cN" => (Ideal.ofBits FTy.f32 0x47C35000#32 : EReal)

theorem row_at (v : (⟨1, ![128]⟩ : Shape).Idx → EReal) (j : Fin 128) : row (F := Ideal) v (ix2 (0 : Fin 1) j) = v (ix1 j) := by
  unfold row
  exact shapeCast_a_1a_apply v _ 0 j

theorem unrow_at (s : (⟨2, ![1, 128]⟩ : Shape).Idx → EReal) (j : Fin 128) : unrow (F := Ideal) s (ix1 j) = s (ix2 (0 : Fin 1) j) := by
  unfold unrow
  exact shapeCast_1a_a_apply s _ j

theorem muK_at (s : (⟨2, ![1, 128]⟩ : Shape).Idx → EReal) (j : Fin 128) :
    muK (F := Ideal) s (ix1 j) = Ideal.div (s (ix2 (0 : Fin 1) j)) cN := by
  unfold muK
  rw [hostDivf_at, unrow_at]
  rfl

theorem varK_at (s ss : (⟨2, ![1, 128]⟩ : Shape).Idx → EReal) (j : Fin 128) :
    varK (F := Ideal) s ss (ix1 j)
      = Ideal.div (ss (ix2 (0 : Fin 1) j)) cN - Ideal.div (s (ix2 (0 : Fin 1) j)) cN * Ideal.div (s (ix2 (0 : Fin 1) j)) cN := by
  unfold varK
  rw [subf_apply, mulf_apply, hostDivf_at, unrow_at, muK_at]
  rfl

/-- The perceptron of the kernel side, as a plain function, is the perceptron of the algebra. -/
theorem mlpZ_fn (x : (⟨2, ![100000, 128]⟩ : Shape).Idx → EReal) (w1 w2 : (⟨2, ![128, 128]⟩ : Shape).Idx → EReal)
    (b1 b2 : (⟨1, ![128]⟩ : Shape).Idx → EReal) :
    (fun (r : Fin 100000) (j : Fin 128) => Cert.SpecB.mlpZ x w1 (row (F := Ideal) b1) w2 (row (F := Ideal) b2) (ix2 r j))
      = mlpOf (fun r k => x (ix2 r k)) (fun k j => w1 (ix2 k j)) (fun j => b1 (ix1 j)) (fun k j => w2 (ix2 k j)) (fun j => b2 (ix1 j)) := by
  funext r j
  show max ((∑ k : Fin 128, max ((∑ i : Fin 128, x (ix2 r i) * w1 (ix2 i k)) + row (F := Ideal) b1 (ix2 (0 : Fin 1) k)) 0 * w2 (ix2 k j))
      + row (F := Ideal) b2 (ix2 (0 : Fin 1) j)) 0 = _
  rw [row_at]
  simp only [row_at]
  rfl

/-- THE ONE-LAYER BRIDGE.  On finite inputs, normalising the perceptron's output with the mean and the variance formed from
    its column sums and column sums of squares is the reference's normalisation of the same perceptron. -/
theorem bridge (x : (⟨2, ![100000, 128]⟩ : Shape).Idx → EReal) (w1 w2 : (⟨2, ![128, 128]⟩ : Shape).Idx → EReal)
    (b1 b2 g b : (⟨1, ![128]⟩ : Shape).Idx → EReal)
    (hx : ∀ i, IsFin (x i)) (hw1 : ∀ i, IsFin (w1 i)) (hb1 : ∀ i, IsFin (b1 i)) (hw2 : ∀ i, IsFin (w2 i)) (hb2 : ∀ i, IsFin (b2 i)) :
    Cert.SpecA.bnFn (Cert.SpecB.mlpZ x w1 (row (F := Ideal) b1) w2 (row (F := Ideal) b2))
        (row (F := Ideal) (muK (F := Ideal) (Cert.SpecB.colSum (Cert.SpecB.mlpZ x w1 (row (F := Ideal) b1) w2 (row (F := Ideal) b2)))))
        (row (F := Ideal) (varK (F := Ideal) (Cert.SpecB.colSum (Cert.SpecB.mlpZ x w1 (row (F := Ideal) b1) w2 (row (F := Ideal) b2)))
          (Cert.SpecB.colSumSq (Cert.SpecB.mlpZ x w1 (row (F := Ideal) b1) w2 (row (F := Ideal) b2)))))
        (row (F := Ideal) g) (row (F := Ideal) b)
      = bnRef (F := Ideal) (mlpRef (F := Ideal) x w1 b1 w2 b2) g b := by
  have hz : ∀ r j, IsFin (mlpOf (fun r k => x (ix2 r k)) (fun k j => w1 (ix2 k j)) (fun j => b1 (ix1 j)) (fun k j => w2 (ix2 k j))
      (fun j => b2 (ix1 j)) r j) :=
    mlpOf_fin (fun _ _ => hx _) (fun _ _ => hw1 _) (fun _ => hb1 _) (fun _ _ => hw2 _) (fun _ => hb2 _)
  have eR : (fun (r : Fin 100000) (k : Fin 128) => mlpRef (F := Ideal) x w1 b1 w2 b2 (ix2 r k))
      = mlpOf (fun r k => x (ix2 r k)) (fun k j => w1 (ix2 k j)) (fun j => b1 (ix1 j)) (fun k j => w2 (ix2 k j)) (fun j => b2 (ix1 j)) := by
    funext r k
    exact mlpRef_at x w1 b1 w2 b2 r k
  funext i
  obtain ⟨r, j, rfl⟩ : ∃ (r : Fin 100000) (j : Fin 128), i = ix2 r j := ⟨i 0, i 1, eq_ix2 i⟩
  rw [bnRef_at, eR, ← bnOf_varSq_eq hz, ← mlpZ_fn x w1 w2 b1 b2]
  show (_ - row (F := Ideal) _ (ix2 (0 : Fin 1) j)) * Ideal.rsqrt (row (F := Ideal) _ (ix2 (0 : Fin 1) j) + _) * row (F := Ideal) g (ix2 (0 : Fin 1) j)
      + row (F := Ideal) b (ix2 (0 : Fin 1) j) = _
  rw [row_at, row_at, row_at, row_at, muK_at, varK_at]
  rfl

end Cert.Alg.Bridge

end
-- ==== Proof.Alg.LayerOf.lean ====
/-
  One layer of the kernel-side program, from the arrays its two kernels and the host stretch between them produce, is
  the reference's layer.

  The first kernel receives the layer's input to its first matrix and leaves the perceptron's output with its column
  sums and column sums of squares; the host forms the mean and the variance from the sums; the second kernel
  standardises.  With the layer's input finite (it is the scaled features plus a neighbourhood sum of finite
  features) this is the reference's layer by the one-layer bridge.
-/
import proofs.«118347_j18940805776024_1_alg».proof.Proof.Alg.Bridge

noncomputable section

namespace Cert.Alg.Bridge

open Cert.ReferenceIdeal Cert.ReferenceIdeal.Gen Cert.ReferenceIdeal.HandRun Cert.KernelIdeal.StagesK Idealize.ShloMosaic Idealize.ShloMosaic.ValueIdx
  Cert.LibStats Cert.Alg Cert.Alg.RefRead

theorem layer_of (h : (⟨S100000x128, .f32⟩ : BufTy).Contents (Elt Ideal)) (w1 : (⟨S128x128, .f32⟩ : BufTy).Contents (Elt Ideal)) (b1 : (⟨S128, .f32⟩ : BufTy).Contents (Elt Ideal)) (w2 : (⟨S128x128, .f32⟩ : BufTy).Contents (Elt Ideal))
    (b2 g b : (⟨S128, .f32⟩ : BufTy).Contents (Elt Ideal)) (eps : (⟨S_, .f32⟩ : BufTy).Contents (Elt Ideal)) (src dst : (⟨S1600000, .i32⟩ : BufTy).Contents (Elt Ideal))
    (hh : ∀ i, IsFin (h i)) (hw1 : ∀ i, IsFin (w1 i)) (hb1 : ∀ i, IsFin (b1 i)) (hw2 : ∀ i, IsFin (w2 i)) (hb2 : ∀ i, IsFin (b2 i))
    (he : IsFin (eps ix0)) :
    Cert.SpecA.bnFn (Cert.SpecB.mlpZ (preRef (F := Ideal) h eps src dst) w1 (row (F := Ideal) b1) w2 (row (F := Ideal) b2))
        (row (F := Ideal) (muK (F := Ideal) (Cert.SpecB.colSum (Cert.SpecB.mlpZ (preRef (F := Ideal) h eps src dst) w1 (row (F := Ideal) b1) w2 (row (F := Ideal) b2)))))
        (row (F := Ideal) (varK (F := Ideal) (Cert.SpecB.colSum (Cert.SpecB.mlpZ (preRef (F := Ideal) h eps src dst) w1 (row (F := Ideal) b1) w2 (row (F := Ideal) b2))) (Cert.SpecB.colSumSq (Cert.SpecB.mlpZ (preRef (F := Ideal) h eps src dst) w1 (row (F := Ideal) b1) w2 (row (F := Ideal) b2)))))
        (row (F := Ideal) g) (row (F := Ideal) b)
      = layerRef (F := Ideal) h w1 b1 w2 b2 g b eps src dst :=
  bridge (preRef (F := Ideal) h eps src dst) w1 w2 b1 b2 g b (preRef_fin h eps src dst hh he) hw1 hb1 hw2 hb2

end Cert.Alg.Bridge

end
-- ==== Proof.Alg.Net.lean ====
/-
  The whole network as pure functions of the argument arrays.

  The four graph-convolution layers are applied in turn, each to the previous layer's output with that layer's slices
  of the stacked weights; the node embedding sets the four outputs side by side; the graph embedding averages it over
  each graph; the two heads read the graph embedding and the node embedding.
-/
import proofs.«118347_j18940805776024_1_alg».proof.Proof.Ref.Stages

noncomputable section

namespace Cert.Alg.Net

open Cert.ReferenceIdeal Cert.ReferenceIdeal.Gen Cert.ReferenceIdeal.HandRun Idealize.ShloMosaic

variable {F : FTy → Type} [FloatOps F]

/-- The first layer's output. -/
def netH0 (a0 : (⟨S100000x128, .f32⟩ : BufTy).Contents (Elt F)) (a1 : (⟨S4x128x128, .f32⟩ : BufTy).Contents (Elt F)) (a2 : (⟨S4x128, .f32⟩ : BufTy).Contents (Elt F)) (a3 : (⟨S4x128x128, .f32⟩ : BufTy).Contents (Elt F)) (a4 a5 a6 : (⟨S4x128, .f32⟩ : BufTy).Contents (Elt F)) (a7 : (⟨S4, .f32⟩ : BufTy).Contents (Elt F)) (a22 : (⟨S2x1600000, .i32⟩ : BufTy).Contents (Elt F)) : (⟨S100000x128, .f32⟩ : BufTy).Contents (Elt F) :=
  layerRef a0 (matSlice ![0, 0, 0] slices_S4x128x128_S1x128x128_0_0_0 a1) (vecSlice ![0, 0] slices_S4x128_S1x128_0_0 a2) (matSlice ![0, 0, 0] slices_S4x128x128_S1x128x128_0_0_0 a3) (vecSlice ![0, 0] slices_S4x128_S1x128_0_0 a4) (vecSlice ![0, 0] slices_S4x128_S1x128_0_0 a5) (vecSlice ![0, 0] slices_S4x128_S1x128_0_0 a6) (scalSlice ![0] slices_S4_S1_0 a7) (srcIdx a22) (dstIdx a22)

/-- The second layer's output. -/
def netH1 (a0 : (⟨S100000x128, .f32⟩ : BufTy).Contents (Elt F)) (a1 : (⟨S4x128x128, .f32⟩ : BufTy).Contents (Elt F)) (a2 : (⟨S4x128, .f32⟩ : BufTy).Contents (Elt F)) (a3 : (⟨S4x128x128, .f32⟩ : BufTy).Contents (Elt F)) (a4 a5 a6 : (⟨S4x128, .f32⟩ : BufTy).Contents (Elt F)) (a7 : (⟨S4, .f32⟩ : BufTy).Contents (Elt F)) (a22 : (⟨S2x1600000, .i32⟩ : BufTy).Contents (Elt F)) : (⟨S100000x128, .f32⟩ : BufTy).Contents (Elt F) :=
  layerRef (netH0 a0 a1 a2 a3 a4 a5 a6 a7 a22) (matSlice ![1, 0, 0] slices_S4x128x128_S1x128x128_1_0_0 a1) (vecSlice ![1, 0] slices_S4x128_S1x128_1_0 a2) (matSlice ![1, 0, 0] slices_S4x128x128_S1x128x128_1_0_0 a3) (vecSlice ![1, 0] slices_S4x128_S1x128_1_0 a4) (vecSlice ![1, 0] slices_S4x128_S1x128_1_0 a5) (vecSlice ![1, 0] slices_S4x128_S1x128_1_0 a6) (scalSlice ![1] slices_S4_S1_1 a7) (srcIdx a22) (dstIdx a22)

/-- The third layer's output. -/
def netH2 (a0 : (⟨S100000x128, .f32⟩ : BufTy).Contents (Elt F)) (a1 : (⟨S4x128x128, .f32⟩ : BufTy).Contents (Elt F)) (a2 : (⟨S4x128, .f32⟩ : BufTy).Contents (Elt F)) (a3 : (⟨S4x128x128, .f32⟩ : BufTy).Contents (Elt F)) (a4 a5 a6 : (⟨S4x128, .f32⟩ : BufTy).Contents (Elt F)) (a7 : (⟨S4, .f32⟩ : BufTy).Contents (Elt F)) (a22 : (⟨S2x1600000, .i32⟩ : BufTy).Contents (Elt F)) : (⟨S100000x128, .f32⟩ : BufTy).Contents (Elt F) :=
  layerRef (netH1 a0 a1 a2 a3 a4 a5 a6 a7 a22) (matSlice ![2, 0, 0] slices_S4x128x128_S1x128x128_2_0_0 a1) (vecSlice ![2, 0] slices_S4x128_S1x128_2_0 a2) (matSlice ![2, 0, 0] slices_S4x128x128_S1x128x128_2_0_0 a3) (vecSlice ![2, 0] slices_S4x128_S1x128_2_0 a4) (vecSlice ![2, 0] slices_S4x128_S1x128_2_0 a5) (vecSlice ![2, 0] slices_S4x128_S1x128_2_0 a6) (scalSlice ![2] slices_S4_S1_2 a7) (srcIdx a22) (dstIdx a22)

/-- The fourth layer's output. -/
def netH3 (a0 : (⟨S100000x128, .f32⟩ : BufTy).Contents (Elt F)) (a1 : (⟨S4x128x128, .f32⟩ : BufTy).Contents (Elt F)) (a2 : (⟨S4x128, .f32⟩ : BufTy).Contents (Elt F)) (a3 : (⟨S4x128x128, .f32⟩ : BufTy).Contents (Elt F)) (a4 a5 a6 : (⟨S4x128, .f32⟩ : BufTy).Contents (Elt F)) (a7 : (⟨S4, .f32⟩ : BufTy).Contents (Elt F)) (a22 : (⟨S2x1600000, .i32⟩ : BufTy).Contents (Elt F)) : (⟨S100000x128, .f32⟩ : BufTy).Contents (Elt F) :=
  layerRef (netH2 a0 a1 a2 a3 a4 a5 a6 a7 a22) (matSlice ![3, 0, 0] slices_S4x128x128_S1x128x128_3_0_0 a1) (vecSlice ![3, 0] slices_S4x128_S1x128_3_0 a2) (matSlice ![3, 0, 0] slices_S4x128x128_S1x128x128_3_0_0 a3) (vecSlice ![3, 0] slices_S4x128_S1x128_3_0 a4) (vecSlice ![3, 0] slices_S4x128_S1x128_3_0 a5) (vecSlice ![3, 0] slices_S4x128_S1x128_3_0 a6) (scalSlice ![3] slices_S4_S1_3 a7) (srcIdx a22) (dstIdx a22)

/-- The node embedding: the four layers' outputs side by side. -/
def netEmb (a0 : (⟨S100000x128, .f32⟩ : BufTy).Contents (Elt F)) (a1 : (⟨S4x128x128, .f32⟩ : BufTy).Contents (Elt F)) (a2 : (⟨S4x128, .f32⟩ : BufTy).Contents (Elt F)) (a3 : (⟨S4x128x128, .f32⟩ : BufTy).Contents (Elt F)) (a4 a5 a6 : (⟨S4x128, .f32⟩ : BufTy).Contents (Elt F)) (a7 : (⟨S4, .f32⟩ : BufTy).Contents (Elt F)) (a22 : (⟨S2x1600000, .i32⟩ : BufTy).Contents (Elt F)) : (⟨S100000x512, .f32⟩ : BufTy).Contents (Elt F) :=
  embRef (netH0 a0 a1 a2 a3 a4 a5 a6 a7 a22) (netH1 a0 a1 a2 a3 a4 a5 a6 a7 a22) (netH2 a0 a1 a2 a3 a4 a5 a6 a7 a22) (netH3 a0 a1 a2 a3 a4 a5 a6 a7 a22)

/-- The graph embedding. -/
def netGemb (a0 : (⟨S100000x128, .f32⟩ : BufTy).Contents (Elt F)) (a1 : (⟨S4x128x128, .f32⟩ : BufTy).Contents (Elt F)) (a2 : (⟨S4x128, .f32⟩ : BufTy).Contents (Elt F)) (a3 : (⟨S4x128x128, .f32⟩ : BufTy).Contents (Elt F)) (a4 a5 a6 : (⟨S4x128, .f32⟩ : BufTy).Contents (Elt F)) (a7 : (⟨S4, .f32⟩ : BufTy).Contents (Elt F)) (a22 : (⟨S2x1600000, .i32⟩ : BufTy).Contents (Elt F)) (a23 : (⟨S100000, .i32⟩ : BufTy).Contents (Elt F)) : (⟨S64x512, .f32⟩ : BufTy).Contents (Elt F) :=
  gembRef (netEmb a0 a1 a2 a3 a4 a5 a6 a7 a22) a23

/-- The table of class log-probabilities. -/
def netOut0 (a0 : (⟨S100000x128, .f32⟩ : BufTy).Contents (Elt F)) (a1 : (⟨S4x128x128, .f32⟩ : BufTy).Contents (Elt F)) (a2 : (⟨S4x128, .f32⟩ : BufTy).Contents (Elt F)) (a3 : (⟨S4x128x128, .f32⟩ : BufTy).Contents (Elt F)) (a4 a5 a6 : (⟨S4x128, .f32⟩ : BufTy).Contents (Elt F)) (a7 : (⟨S4, .f32⟩ : BufTy).Contents (Elt F)) (a22 : (⟨S2x1600000, .i32⟩ : BufTy).Contents (Elt F)) (a23 : (⟨S100000, .i32⟩ : BufTy).Contents (Elt F)) (a8 : (⟨S512x256, .f32⟩ : BufTy).Contents (Elt F)) (a9 : (⟨S256, .f32⟩ : BufTy).Contents (Elt F)) (a10 : (⟨S256x128, .f32⟩ : BufTy).Contents (Elt F))
    (a11 : (⟨S128, .f32⟩ : BufTy).Contents (Elt F)) (a12 : (⟨S128x128, .f32⟩ : BufTy).Contents (Elt F)) (a13 : (⟨S128, .f32⟩ : BufTy).Contents (Elt F)) (a14 : (⟨S128x16, .f32⟩ : BufTy).Contents (Elt F)) (a15 : (⟨S16, .f32⟩ : BufTy).Contents (Elt F)) : (⟨S64x16, .f32⟩ : BufTy).Contents (Elt F) :=
  clsRef (netGemb a0 a1 a2 a3 a4 a5 a6 a7 a22 a23) a8 a9 a10 a11 a12 a13 a14 a15

/-- The candidate edges' scores. -/
def netOut1 (a0 : (⟨S100000x128, .f32⟩ : BufTy).Contents (Elt F)) (a1 : (⟨S4x128x128, .f32⟩ : BufTy).Contents (Elt F)) (a2 : (⟨S4x128, .f32⟩ : BufTy).Contents (Elt F)) (a3 : (⟨S4x128x128, .f32⟩ : BufTy).Contents (Elt F)) (a4 a5 a6 : (⟨S4x128, .f32⟩ : BufTy).Contents (Elt F)) (a7 : (⟨S4, .f32⟩ : BufTy).Contents (Elt F)) (a22 : (⟨S2x1600000, .i32⟩ : BufTy).Contents (Elt F)) (a24 : (⟨S2x100000, .i32⟩ : BufTy).Contents (Elt F)) (a16 : (⟨S1024x256, .f32⟩ : BufTy).Contents (Elt F)) (a17 : (⟨S256, .f32⟩ : BufTy).Contents (Elt F)) (a18 : (⟨S256x128, .f32⟩ : BufTy).Contents (Elt F))
    (a19 : (⟨S128, .f32⟩ : BufTy).Contents (Elt F)) (a20 : (⟨S128x1, .f32⟩ : BufTy).Contents (Elt F)) (a21 : (⟨S1, .f32⟩ : BufTy).Contents (Elt F)) : (⟨S100000, .f32⟩ : BufTy).Contents (Elt F) :=
  edgeRef (netEmb a0 a1 a2 a3 a4 a5 a6 a7 a22) a24 a16 a17 a18 a19 a20 a21

end Cert.Alg.Net

end
-- ==== Proof.Alg.NetFin.lean ====
/-
  Every layer of the network is finite when the arguments are.

  A layer of finite inputs is finite, and the slices of finite stacks are finite, so by four applications every
  layer's output is finite.
-/
import proofs.«118347_j18940805776024_1_alg».proof.Proof.Alg.Net
import proofs.«118347_j18940805776024_1_alg».proof.Proof.Alg.RefRead

noncomputable section

namespace Cert.Alg.Net

open Cert.ReferenceIdeal Cert.ReferenceIdeal.Gen Cert.ReferenceIdeal.HandRun Idealize.ShloMosaic Cert.LibStats Cert.Alg Cert.Alg.RefRead

theorem netH0_fin (a0 : (⟨S100000x128, .f32⟩ : BufTy).Contents (Elt Ideal)) (a1 : (⟨S4x128x128, .f32⟩ : BufTy).Contents (Elt Ideal)) (a2 : (⟨S4x128, .f32⟩ : BufTy).Contents (Elt Ideal)) (a3 : (⟨S4x128x128, .f32⟩ : BufTy).Contents (Elt Ideal)) (a4 a5 a6 : (⟨S4x128, .f32⟩ : BufTy).Contents (Elt Ideal)) (a7 : (⟨S4, .f32⟩ : BufTy).Contents (Elt Ideal)) (a22 : (⟨S2x1600000, .i32⟩ : BufTy).Contents (Elt Ideal))
    (h0 : ∀ i, IsFin (a0 i)) (h1 : ∀ i, IsFin (a1 i)) (h2 : ∀ i, IsFin (a2 i)) (h3 : ∀ i, IsFin (a3 i)) (h4 : ∀ i, IsFin (a4 i))
    (h5 : ∀ i, IsFin (a5 i)) (h6 : ∀ i, IsFin (a6 i)) (h7 : ∀ i, IsFin (a7 i)) (i : S100000x128.Idx) :
    IsFin (netH0 (F := Ideal) a0 a1 a2 a3 a4 a5 a6 a7 a22 i) :=
  layerRef_fin _ _ _ _ _ _ _ _ _ _ h0 (matSlice_fin _ _ a1 h1) (vecSlice_fin _ _ a2 h2) (matSlice_fin _ _ a3 h3)
    (vecSlice_fin _ _ a4 h4) (vecSlice_fin _ _ a5 h5) (vecSlice_fin _ _ a6 h6) (scalSlice_fin _ _ a7 h7 _) i

theorem netH1_fin (a0 : (⟨S100000x128, .f32⟩ : BufTy).Contents (Elt Ideal)) (a1 : (⟨S4x128x128, .f32⟩ : BufTy).Contents (Elt Ideal)) (a2 : (⟨S4x128, .f32⟩ : BufTy).Contents (Elt Ideal)) (a3 : (⟨S4x128x128, .f32⟩ : BufTy).Contents (Elt Ideal)) (a4 a5 a6 : (⟨S4x128, .f32⟩ : BufTy).Contents (Elt Ideal)) (a7 : (⟨S4, .f32⟩ : BufTy).Contents (Elt Ideal)) (a22 : (⟨S2x1600000, .i32⟩ : BufTy).Contents (Elt Ideal))
    (h0 : ∀ i, IsFin (a0 i)) (h1 : ∀ i, IsFin (a1 i)) (h2 : ∀ i, IsFin (a2 i)) (h3 : ∀ i, IsFin (a3 i)) (h4 : ∀ i, IsFin (a4 i))
    (h5 : ∀ i, IsFin (a5 i)) (h6 : ∀ i, IsFin (a6 i)) (h7 : ∀ i, IsFin (a7 i)) (i : S100000x128.Idx) :
    IsFin (netH1 (F := Ideal) a0 a1 a2 a3 a4 a5 a6 a7 a22 i) :=
  layerRef_fin _ _ _ _ _ _ _ _ _ _ (netH0_fin a0 a1 a2 a3 a4 a5 a6 a7 a22 h0 h1 h2 h3 h4 h5 h6 h7) (matSlice_fin _ _ a1 h1) (vecSlice_fin _ _ a2 h2) (matSlice_fin _ _ a3 h3)
    (vecSlice_fin _ _ a4 h4) (vecSlice_fin _ _ a5 h5) (vecSlice_fin _ _ a6 h6) (scalSlice_fin _ _ a7 h7 _) i

theorem netH2_fin (a0 : (⟨S100000x128, .f32⟩ : BufTy).Contents (Elt Ideal)) (a1 : (⟨S4x128x128, .f32⟩ : BufTy).Contents (Elt Ideal)) (a2 : (⟨S4x128, .f32⟩ : BufTy).Contents (Elt Ideal)) (a3 : (⟨S4x128x128, .f32⟩ : BufTy).Contents (Elt Ideal)) (a4 a5 a6 : (⟨S4x128, .f32⟩ : BufTy).Contents (Elt Ideal)) (a7 : (⟨S4, .f32⟩ : BufTy).Contents (Elt Ideal)) (a22 : (⟨S2x1600000, .i32⟩ : BufTy).Contents (Elt Ideal))
    (h0 : ∀ i, IsFin (a0 i)) (h1 : ∀ i, IsFin (a1 i)) (h2 : ∀ i, IsFin (a2 i)) (h3 : ∀ i, IsFin (a3 i)) (h4 : ∀ i, IsFin (a4 i))
    (h5 : ∀ i, IsFin (a5 i)) (h6 : ∀ i, IsFin (a6 i)) (h7 : ∀ i, IsFin (a7 i)) (i : S100000x128.Idx) :
    IsFin (netH2 (F := Ideal) a0 a1 a2 a3 a4 a5 a6 a7 a22 i) :=
  layerRef_fin _ _ _ _ _ _ _ _ _ _ (netH1_fin a0 a1 a2 a3 a4 a5 a6 a7 a22 h0 h1 h2 h3 h4 h5 h6 h7) (matSlice_fin _ _ a1 h1) (vecSlice_fin _ _ a2 h2) (matSlice_fin _ _ a3 h3)
    (vecSlice_fin _ _ a4 h4) (vecSlice_fin _ _ a5 h5) (vecSlice_fin _ _ a6 h6) (scalSlice_fin _ _ a7 h7 _) i

theorem netH3_fin (a0 : (⟨S100000x128, .f32⟩ : BufTy).Contents (Elt Ideal)) (a1 : (⟨S4x128x128, .f32⟩ : BufTy).Contents (Elt Ideal)) (a2 : (⟨S4x128, .f32⟩ : BufTy).Contents (Elt Ideal)) (a3 : (⟨S4x128x128, .f32⟩ : BufTy).Contents (Elt Ideal)) (a4 a5 a6 : (⟨S4x128, .f32⟩ : BufTy).Contents (Elt Ideal)) (a7 : (⟨S4, .f32⟩ : BufTy).Contents (Elt Ideal)) (a22 : (⟨S2x1600000, .i32⟩ : BufTy).Contents (Elt Ideal))
    (h0 : ∀ i, IsFin (a0 i)) (h1 : ∀ i, IsFin (a1 i)) (h2 : ∀ i, IsFin (a2 i)) (h3 : ∀ i, IsFin (a3 i)) (h4 : ∀ i, IsFin (a4 i))
    (h5 : ∀ i, IsFin (a5 i)) (h6 : ∀ i, IsFin (a6 i)) (h7 : ∀ i, IsFin (a7 i)) (i : S100000x128.Idx) :
    IsFin (netH3 (F := Ideal) a0 a1 a2 a3 a4 a5 a6 a7 a22 i) :=
  layerRef_fin _ _ _ _ _ _ _ _ _ _ (netH2_fin a0 a1 a2 a3 a4 a5 a6 a7 a22 h0 h1 h2 h3 h4 h5 h6 h7) (matSlice_fin _ _ a1 h1) (vecSlice_fin _ _ a2 h2) (matSlice_fin _ _ a3 h3)
    (vecSlice_fin _ _ a4 h4) (vecSlice_fin _ _ a5 h5) (vecSlice_fin _ _ a6 h6) (scalSlice_fin _ _ a7 h7 _) i

end Cert.Alg.Net

end
-- ==== Proof.Alg.PreFn.lean ====
/-
  The precondition, read back: every entry of every real-valued argument is finite.

  The precondition asks, of each real-valued argument, whether every entry's absolute value is below the positive
  infinity, and joins the answers by conjunction.  If the joined answer is true, each answer is true, so every
  entry of every argument has an absolute value below the positive infinity; on the extended reals that leaves
  exactly the real numbers.
-/
import proofs.«118347_j18940805776024_1_alg».proof.Pre_finite_inputs
import Idealize.ShloMosaic.Lib.ReduceAll
import proofs.«118347_j18940805776024_1_alg».proof.Proof.Alg.Fin

noncomputable section

namespace Cert.Alg

open Idealize.ShloMosaic Cert.LibStats Cert.Pre_finite_inputs

instance subsingleton_scalar_idx : Subsingleton S_.Idx := ⟨fun a b => funext fun d => d.elim0⟩

/-- An extended real whose absolute value compares below the positive infinity is a real number. -/
theorem elem_fin (x : EReal) (h : Ideal.cmp .olt (max x (-x)) (Ideal.ofBits .f32 0x7F800000#32) = 1#1) : IsFin x := by
  rw [lit_inf] at h
  apply isFin_of_abs_lt_top
  by_contra hn
  simp [Ideal.cmp, hn] at h

/-- One "all entries finite" answer that is true says every entry is a real number. -/
theorem all_fin {s : Shape} {axes : List (Fin s.rank)} (x : FVec Ideal s .f32)
    (hb : S_.BroadcastsInDim s (![] : Fin 0 → Fin s.rank)) (hr : s.ReducesTo axes S_) (h0 : 0 < S_.numel) (init : IVec S_ 1)
    (e : Host.reduce IntOp.andi (cmpf .olt (Host.absf x) (broadcastInDim s ![] hb (constant (F := Ideal) S_ .f32 0x7F800000#32)))
          init hr h0 ValueIdx.ix0 = 1#1) (i : s.Idx) : IsFin (x i) :=
  elem_fin (x i) (Host.reduce_andi_all _ init hr h0 ValueIdx.ix0 e i)

theorem andi_at {s : Shape} {w : Nat} (x y : IVec s w) (i : s.Idx) : andi x y i = IntOp.andi (x i) (y i) := rfl

variable [Facts]

/-- The precondition's function is true only if every entry of every real-valued argument is a real number. -/
theorem fn_fin (a0 : FVec Ideal S100000x128 .f32) (a1 : FVec Ideal S4x128x128 .f32) (a2 : FVec Ideal S4x128 .f32) (a3 : FVec Ideal S4x128x128 .f32) (a4 : FVec Ideal S4x128 .f32) (a5 : FVec Ideal S4x128 .f32) (a6 : FVec Ideal S4x128 .f32) (a7 : FVec Ideal S4 .f32) (a8 : FVec Ideal S512x256 .f32) (a9 : FVec Ideal S256 .f32) (a10 : FVec Ideal S256x128 .f32) (a11 : FVec Ideal S128 .f32) (a12 : FVec Ideal S128x128 .f32) (a13 : FVec Ideal S128 .f32) (a14 : FVec Ideal S128x16 .f32) (a15 : FVec Ideal S16 .f32) (a16 : FVec Ideal S1024x256 .f32) (a17 : FVec Ideal S256 .f32) (a18 : FVec Ideal S256x128 .f32) (a19 : FVec Ideal S128 .f32) (a20 : FVec Ideal S128x1 .f32) (a21 : FVec Ideal S1 .f32)
    (a22 : IVec S2x1600000 32) (a23 : IVec S100000 32) (a24 : IVec S2x100000 32)
    (h : fn (F := Ideal) a0 a1 a2 a3 a4 a5 a6 a7 a8 a9 a10 a11 a12 a13 a14 a15 a16 a17 a18 a19 a20 a21 a22 a23 a24 = fun _ => 1#1) :
    (∀ i, IsFin (a0 i)) ∧ (∀ i, IsFin (a1 i)) ∧ (∀ i, IsFin (a2 i)) ∧ (∀ i, IsFin (a3 i)) ∧ (∀ i, IsFin (a4 i)) ∧ (∀ i, IsFin (a5 i)) ∧ (∀ i, IsFin (a6 i)) ∧ (∀ i, IsFin (a7 i)) ∧ (∀ i, IsFin (a8 i)) ∧ (∀ i, IsFin (a9 i)) ∧ (∀ i, IsFin (a10 i)) ∧ (∀ i, IsFin (a11 i)) ∧ (∀ i, IsFin (a12 i)) ∧ (∀ i, IsFin (a13 i)) ∧ (∀ i, IsFin (a14 i)) ∧ (∀ i, IsFin (a15 i)) ∧ (∀ i, IsFin (a16 i)) ∧ (∀ i, IsFin (a17 i)) ∧ (∀ i, IsFin (a18 i)) ∧ (∀ i, IsFin (a19 i)) ∧ (∀ i, IsFin (a20 i)) ∧ (∀ i, IsFin (a21 i)) := by
  have h0 := congrFun h ValueIdx.ix0
  simp only [fn, fn_part1, fn_part2, fn_part3, fn_part4, fn_part5, fn_part6, andi_at, IntOp.andi_eq_one, and_assoc] at h0
  obtain ⟨e0, e1, e2, e3, e4, e5, e6, e7, e8, e9, e10, e11, e12, e13, e14, e15, e16, e17, e18, e19, e20, e21⟩ := h0
  exact ⟨all_fin a0 _ _ _ _ e0, all_fin a1 _ _ _ _ e1, all_fin a2 _ _ _ _ e2, all_fin a3 _ _ _ _ e3, all_fin a4 _ _ _ _ e4, all_fin a5 _ _ _ _ e5, all_fin a6 _ _ _ _ e6, all_fin a7 _ _ _ _ e7, all_fin a8 _ _ _ _ e8, all_fin a9 _ _ _ _ e9, all_fin a10 _ _ _ _ e10, all_fin a11 _ _ _ _ e11, all_fin a12 _ _ _ _ e12, all_fin a13 _ _ _ _ e13, all_fin a14 _ _ _ _ e14, all_fin a15 _ _ _ _ e15, all_fin a16 _ _ _ _ e16, all_fin a17 _ _ _ _ e17, all_fin a18 _ _ _ _ e18, all_fin a19 _ _ _ _ e19, all_fin a20 _ _ _ _ e20, all_fin a21 _ _ _ _ e21⟩

end Cert.Alg

end
-- ==== Proof.Alg.PreFinite.lean ====
/-
  From the stated precondition to the finiteness of every real-valued argument array.

  The precondition of the claim is the "all entries finite" function evaluated on the argument arrays of a memory,
  on every device; read back, it says every entry of each of the twenty-two real-valued arguments is a real number.
-/
import proofs.«118347_j18940805776024_1_alg».proof.Defs
import proofs.«118347_j18940805776024_1_alg».proof.Proof.Alg.PreFn

noncomputable section

namespace Cert.Alg

open Idealize.ShloMosaic Idealize.SL.Sem Cert.LibStats

variable [hPre_finite_inputs : Cert.Pre_finite_inputs.Facts]

/-- Under the precondition, every entry of every real-valued argument of the kernel-side program is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsFin ((m ((c.tc : Thread Cert.KernelIdeal.nD Cert.KernelIdeal.τ).loc Cert.KernelIdeal.main_arg0) : FVec Ideal Cert.Pre_finite_inputs.S100000x128 .f32) i))
      ∧ (∀ i, IsFin ((m ((c.tc : Thread Cert.KernelIdeal.nD Cert.KernelIdeal.τ).loc Cert.KernelIdeal.main_arg1) : FVec Ideal Cert.Pre_finite_inputs.S4x128x128 .f32) i))
      ∧ (∀ i, IsFin ((m ((c.tc : Thread Cert.KernelIdeal.nD Cert.KernelIdeal.τ).loc Cert.KernelIdeal.main_arg2) : FVec Ideal Cert.Pre_finite_inputs.S4x128 .f32) i))
      ∧ (∀ i, IsFin ((m ((c.tc : Thread Cert.KernelIdeal.nD Cert.KernelIdeal.τ).loc Cert.KernelIdeal.main_arg3) : FVec Ideal Cert.Pre_finite_inputs.S4x128x128 .f32) i))
      ∧ (∀ i, IsFin ((m ((c.tc : Thread Cert.KernelIdeal.nD Cert.KernelIdeal.τ).loc Cert.KernelIdeal.main_arg4) : FVec Ideal Cert.Pre_finite_inputs.S4x128 .f32) i))
      ∧ (∀ i, IsFin ((m ((c.tc : Thread Cert.KernelIdeal.nD Cert.KernelIdeal.τ).loc Cert.KernelIdeal.main_arg5) : FVec Ideal Cert.Pre_finite_inputs.S4x128 .f32) i))
      ∧ (∀ i, IsFin ((m ((c.tc : Thread Cert.KernelIdeal.nD Cert.KernelIdeal.τ).loc Cert.KernelIdeal.main_arg6) : FVec Ideal Cert.Pre_finite_inputs.S4x128 .f32) i))
      ∧ (∀ i, IsFin ((m ((c.tc : Thread Cert.KernelIdeal.nD Cert.KernelIdeal.τ).loc Cert.KernelIdeal.main_arg7) : FVec Ideal Cert.Pre_finite_inputs.S4 .f32) i))
      ∧ (∀ i, IsFin ((m ((c.tc : Thread Cert.KernelIdeal.nD Cert.KernelIdeal.τ).loc Cert.KernelIdeal.main_arg8) : FVec Ideal Cert.Pre_finite_inputs.S512x256 .f32) i))
      ∧ (∀ i, IsFin ((m ((c.tc : Thread Cert.KernelIdeal.nD Cert.KernelIdeal.τ).loc Cert.KernelIdeal.main_arg9) : FVec Ideal Cert.Pre_finite_inputs.S256 .f32) i))
      ∧ (∀ i, IsFin ((m ((c.tc : Thread Cert.KernelIdeal.nD Cert.KernelIdeal.τ).loc Cert.KernelIdeal.main_arg10) : FVec Ideal Cert.Pre_finite_inputs.S256x128 .f32) i))
      ∧ (∀ i, IsFin ((m ((c.tc : Thread Cert.KernelIdeal.nD Cert.KernelIdeal.τ).loc Cert.KernelIdeal.main_arg11) : FVec Ideal Cert.Pre_finite_inputs.S128 .f32) i))
      ∧ (∀ i, IsFin ((m ((c.tc : Thread Cert.KernelIdeal.nD Cert.KernelIdeal.τ).loc Cert.KernelIdeal.main_arg12) : FVec Ideal Cert.Pre_finite_inputs.S128x128 .f32) i))
      ∧ (∀ i, IsFin ((m ((c.tc : Thread Cert.KernelIdeal.nD Cert.KernelIdeal.τ).loc Cert.KernelIdeal.main_arg13) : FVec Ideal Cert.Pre_finite_inputs.S128 .f32) i))
      ∧ (∀ i, IsFin ((m ((c.tc : Thread Cert.KernelIdeal.nD Cert.KernelIdeal.τ).loc Cert.KernelIdeal.main_arg14) : FVec Ideal Cert.Pre_finite_inputs.S128x16 .f32) i))
      ∧ (∀ i, IsFin ((m ((c.tc : Thread Cert.KernelIdeal.nD Cert.KernelIdeal.τ).loc Cert.KernelIdeal.main_arg15) : FVec Ideal Cert.Pre_finite_inputs.S16 .f32) i))
      ∧ (∀ i, IsFin ((m ((c.tc : Thread Cert.KernelIdeal.nD Cert.KernelIdeal.τ).loc Cert.KernelIdeal.main_arg16) : FVec Ideal Cert.Pre_finite_inputs.S1024x256 .f32) i))
      ∧ (∀ i, IsFin ((m ((c.tc : Thread Cert.KernelIdeal.nD Cert.KernelIdeal.τ).loc Cert.KernelIdeal.main_arg17) : FVec Ideal Cert.Pre_finite_inputs.S256 .f32) i))
      ∧ (∀ i, IsFin ((m ((c.tc : Thread Cert.KernelIdeal.nD Cert.KernelIdeal.τ).loc Cert.KernelIdeal.main_arg18) : FVec Ideal Cert.Pre_finite_inputs.S256x128 .f32) i))
      ∧ (∀ i, IsFin ((m ((c.tc : Thread Cert.KernelIdeal.nD Cert.KernelIdeal.τ).loc Cert.KernelIdeal.main_arg19) : FVec Ideal Cert.Pre_finite_inputs.S128 .f32) i))
      ∧ (∀ i, IsFin ((m ((c.tc : Thread Cert.KernelIdeal.nD Cert.KernelIdeal.τ).loc Cert.KernelIdeal.main_arg20) : FVec Ideal Cert.Pre_finite_inputs.S128x1 .f32) i))
      ∧ (∀ i, IsFin ((m ((c.tc : Thread Cert.KernelIdeal.nD Cert.KernelIdeal.τ).loc Cert.KernelIdeal.main_arg21) : FVec Ideal Cert.Pre_finite_inputs.S1 .f32) i)) :=
  fn_fin _ _ _ _ _ _ _ _ _ _ _ _ _ _ _ _ _ _ _ _ _ _ _ _ _ (h c)

/-- The same for the reference-side program's memory. -/
theorem finite_of_pre_ref (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, IsFin ((m ((c.tc : Thread Cert.ReferenceIdeal.nD Cert.ReferenceIdeal.τ).loc Cert.ReferenceIdeal.main_arg0) : FVec Ideal Cert.Pre_finite_inputs.S100000x128 .f32) i))
      ∧ (∀ i, IsFin ((m ((c.tc : Thread Cert.ReferenceIdeal.nD Cert.ReferenceIdeal.τ).loc Cert.ReferenceIdeal.main_arg1) : FVec Ideal Cert.Pre_finite_inputs.S4x128x128 .f32) i))
      ∧ (∀ i, IsFin ((m ((c.tc : Thread Cert.ReferenceIdeal.nD Cert.ReferenceIdeal.τ).loc Cert.ReferenceIdeal.main_arg2) : FVec Ideal Cert.Pre_finite_inputs.S4x128 .f32) i))
      ∧ (∀ i, IsFin ((m ((c.tc : Thread Cert.ReferenceIdeal.nD Cert.ReferenceIdeal.τ).loc Cert.ReferenceIdeal.main_arg3) : FVec Ideal Cert.Pre_finite_inputs.S4x128x128 .f32) i))
      ∧ (∀ i, IsFin ((m ((c.tc : Thread Cert.ReferenceIdeal.nD Cert.ReferenceIdeal.τ).loc Cert.ReferenceIdeal.main_arg4) : FVec Ideal Cert.Pre_finite_inputs.S4x128 .f32) i))
      ∧ (∀ i, IsFin ((m ((c.tc : Thread Cert.ReferenceIdeal.nD Cert.ReferenceIdeal.τ).loc Cert.ReferenceIdeal.main_arg5) : FVec Ideal Cert.Pre_finite_inputs.S4x128 .f32) i))
      ∧ (∀ i, IsFin ((m ((c.tc : Thread Cert.ReferenceIdeal.nD Cert.ReferenceIdeal.τ).loc Cert.ReferenceIdeal.main_arg6) : FVec Ideal Cert.Pre_finite_inputs.S4x128 .f32) i))
      ∧ (∀ i, IsFin ((m ((c.tc : Thread Cert.ReferenceIdeal.nD Cert.ReferenceIdeal.τ).loc Cert.ReferenceIdeal.main_arg7) : FVec Ideal Cert.Pre_finite_inputs.S4 .f32) i))
      ∧ (∀ i, IsFin ((m ((c.tc : Thread Cert.ReferenceIdeal.nD Cert.ReferenceIdeal.τ).loc Cert.ReferenceIdeal.main_arg8) : FVec Ideal Cert.Pre_finite_inputs.S512x256 .f32) i))
      ∧ (∀ i, IsFin ((m ((c.tc : Thread Cert.ReferenceIdeal.nD Cert.ReferenceIdeal.τ).loc Cert.ReferenceIdeal.main_arg9) : FVec Ideal Cert.Pre_finite_inputs.S256 .f32) i))
      ∧ (∀ i, IsFin ((m ((c.tc : Thread Cert.ReferenceIdeal.nD Cert.ReferenceIdeal.τ).loc Cert.ReferenceIdeal.main_arg10) : FVec Ideal Cert.Pre_finite_inputs.S256x128 .f32) i))
      ∧ (∀ i, IsFin ((m ((c.tc : Thread Cert.ReferenceIdeal.nD Cert.ReferenceIdeal.τ).loc Cert.ReferenceIdeal.main_arg11) : FVec Ideal Cert.Pre_finite_inputs.S128 .f32) i))
      ∧ (∀ i, IsFin ((m ((c.tc : Thread Cert.ReferenceIdeal.nD Cert.ReferenceIdeal.τ).loc Cert.ReferenceIdeal.main_arg12) : FVec Ideal Cert.Pre_finite_inputs.S128x128 .f32) i))
      ∧ (∀ i, IsFin ((m ((c.tc : Thread Cert.ReferenceIdeal.nD Cert.ReferenceIdeal.τ).loc Cert.ReferenceIdeal.main_arg13) : FVec Ideal Cert.Pre_finite_inputs.S128 .f32) i))
      ∧ (∀ i, IsFin ((m ((c.tc : Thread Cert.ReferenceIdeal.nD Cert.ReferenceIdeal.τ).loc Cert.ReferenceIdeal.main_arg14) : FVec Ideal Cert.Pre_finite_inputs.S128x16 .f32) i))
      ∧ (∀ i, IsFin ((m ((c.tc : Thread Cert.ReferenceIdeal.nD Cert.ReferenceIdeal.τ).loc Cert.ReferenceIdeal.main_arg15) : FVec Ideal Cert.Pre_finite_inputs.S16 .f32) i))
      ∧ (∀ i, IsFin ((m ((c.tc : Thread Cert.ReferenceIdeal.nD Cert.ReferenceIdeal.τ).loc Cert.ReferenceIdeal.main_arg16) : FVec Ideal Cert.Pre_finite_inputs.S1024x256 .f32) i))
      ∧ (∀ i, IsFin ((m ((c.tc : Thread Cert.ReferenceIdeal.nD Cert.ReferenceIdeal.τ).loc Cert.ReferenceIdeal.main_arg17) : FVec Ideal Cert.Pre_finite_inputs.S256 .f32) i))
      ∧ (∀ i, IsFin ((m ((c.tc : Thread Cert.ReferenceIdeal.nD Cert.ReferenceIdeal.τ).loc Cert.ReferenceIdeal.main_arg18) : FVec Ideal Cert.Pre_finite_inputs.S256x128 .f32) i))
      ∧ (∀ i, IsFin ((m ((c.tc : Thread Cert.ReferenceIdeal.nD Cert.ReferenceIdeal.τ).loc Cert.ReferenceIdeal.main_arg19) : FVec Ideal Cert.Pre_finite_inputs.S128 .f32) i))
      ∧ (∀ i, IsFin ((m ((c.tc : Thread Cert.ReferenceIdeal.nD Cert.ReferenceIdeal.τ).loc Cert.ReferenceIdeal.main_arg20) : FVec Ideal Cert.Pre_finite_inputs.S128x1 .f32) i))
      ∧ (∀ i, IsFin ((m ((c.tc : Thread Cert.ReferenceIdeal.nD Cert.ReferenceIdeal.τ).loc Cert.ReferenceIdeal.main_arg21) : FVec Ideal Cert.Pre_finite_inputs.S1 .f32) i)) :=
  fn_fin _ _ _ _ _ _ _ _ _ _ _ _ _ _ _ _ _ _ _ _ _ _ _ _ _ (h c)

end Cert.Alg

end
-- ==== Proof.KI.KVals.lean ====
/-
  The kernel-side program's two results as the network's functions of the argument arrays.

  Boundary by boundary: each host stretch turns the buffers it reads into named stages (the layer's input to its
  first matrix, the slices of the stacked weights, the mean and the variance from the column sums); each kernel leaves
  its specified function of its operands; a buffer that an item does not write keeps its contents.  With every
  argument finite, each layer's second kernel leaves the network's layer output (the one-layer bridge), so the node
  embedding, the graph embedding and the two heads' inputs are the network's, and the two results are its outputs once
  each head's two readings agree.
-/
import proofs.«118347_j18940805776024_1_alg».proof.Proof.KI.Assemble
import proofs.«118347_j18940805776024_1_alg».proof.Proof.KI.Stretch
import proofs.«118347_j18940805776024_1_alg».proof.Proof.KI.Val0
import proofs.«118347_j18940805776024_1_alg».proof.Proof.KI.Val1
import proofs.«118347_j18940805776024_1_alg».proof.Proof.KI.Val2
import proofs.«118347_j18940805776024_1_alg».proof.Proof.KI.Val3
import proofs.«118347_j18940805776024_1_alg».proof.Proof.KI.Val4
import proofs.«118347_j18940805776024_1_alg».proof.Proof.KI.Val5
import proofs.«118347_j18940805776024_1_alg».proof.Proof.KI.Val6
import proofs.«118347_j18940805776024_1_alg».proof.Proof.KI.Val7
import proofs.«118347_j18940805776024_1_alg».proof.Proof.KI.Val8
import proofs.«118347_j18940805776024_1_alg».proof.Proof.KI.Val9
import proofs.«118347_j18940805776024_1_alg».proof.Proof.Alg.LayerOf
import proofs.«118347_j18940805776024_1_alg».proof.Proof.Alg.NetFin
import proofs.«118347_j18940805776024_1_alg».proof.Proof.Alg.PreFinite

noncomputable section
namespace Cert.KernelIdeal.KVals
open Cert.KernelIdeal Cert.KernelIdeal.Gen Cert.KernelIdeal.Hand Cert.KernelIdeal.Stretch
open Idealize.ShloMosaic Idealize.ShloMosaic.TcCoe Idealize.SL.Sem Idealize.ShloMosaic.StableHlo
open Cert.ReferenceIdeal.HandRun (preRef scalSlice srcIdx dstIdx matSlice vecSlice embRef gembRef)
open Cert.KernelIdeal.StagesK (row muK varK)
open Cert.LibStats Cert.Alg Cert.Alg.RefRead

variable (m : (ℓ : Loc nD τ sig) → Buf (Elt Ideal) ℓ) (c : Dev nD)

/-- Every real-valued argument array of the launch memory has only finite entries (the first eight are the layers' arguments). -/
def FinArgs : Prop :=
  (∀ i, IsFin ((V0 m c main_arg0 : FVec Ideal Cert.Pre_finite_inputs.S100000x128 .f32) i))
  ∧ (∀ i, IsFin ((V0 m c main_arg1 : FVec Ideal Cert.Pre_finite_inputs.S4x128x128 .f32) i))
  ∧ (∀ i, IsFin ((V0 m c main_arg2 : FVec Ideal Cert.Pre_finite_inputs.S4x128 .f32) i))
  ∧ (∀ i, IsFin ((V0 m c main_arg3 : FVec Ideal Cert.Pre_finite_inputs.S4x128x128 .f32) i))
  ∧ (∀ i, IsFin ((V0 m c main_arg4 : FVec Ideal Cert.Pre_finite_inputs.S4x128 .f32) i))
  ∧ (∀ i, IsFin ((V0 m c main_arg5 : FVec Ideal Cert.Pre_finite_inputs.S4x128 .f32) i))
  ∧ (∀ i, IsFin ((V0 m c main_arg6 : FVec Ideal Cert.Pre_finite_inputs.S4x128 .f32) i))
  ∧ (∀ i, IsFin ((V0 m c main_arg7 : FVec Ideal Cert.Pre_finite_inputs.S4 .f32) i))
  ∧ (∀ i, IsFin ((V0 m c main_arg8 : FVec Ideal Cert.Pre_finite_inputs.S512x256 .f32) i))
  ∧ (∀ i, IsFin ((V0 m c main_arg9 : FVec Ideal Cert.Pre_finite_inputs.S256 .f32) i))
  ∧ (∀ i, IsFin ((V0 m c main_arg10 : FVec Ideal Cert.Pre_finite_inputs.S256x128 .f32) i))
  ∧ (∀ i, IsFin ((V0 m c main_arg11 : FVec Ideal Cert.Pre_finite_inputs.S128 .f32) i))
  ∧ (∀ i, IsFin ((V0 m c main_arg12 : FVec Ideal Cert.Pre_finite_inputs.S128x128 .f32) i))
  ∧ (∀ i, IsFin ((V0 m c main_arg13 : FVec Ideal Cert.Pre_finite_inputs.S128 .f32) i))
  ∧ (∀ i, IsFin ((V0 m c main_arg14 : FVec Ideal Cert.Pre_finite_inputs.S128x16 .f32) i))
  ∧ (∀ i, IsFin ((V0 m c main_arg15 : FVec Ideal Cert.Pre_finite_inputs.S16 .f32) i))
  ∧ (∀ i, IsFin ((V0 m c main_arg16 : FVec Ideal Cert.Pre_finite_inputs.S1024x256 .f32) i))
  ∧ (∀ i, IsFin ((V0 m c main_arg17 : FVec Ideal Cert.Pre_finite_inputs.S256 .f32) i))
  ∧ (∀ i, IsFin ((V0 m c main_arg18 : FVec Ideal Cert.Pre_finite_inputs.S256x128 .f32) i))
  ∧ (∀ i, IsFin ((V0 m c main_arg19 : FVec Ideal Cert.Pre_finite_inputs.S128 .f32) i))
  ∧ (∀ i, IsFin ((V0 m c main_arg20 : FVec Ideal Cert.Pre_finite_inputs.S128x1 .f32) i))
  ∧ (∀ i, IsFin ((V0 m c main_arg21 : FVec Ideal Cert.Pre_finite_inputs.S1 .f32) i))

theorem h_src1 : U1 m c main_v1 = srcIdx (F := Ideal) (V0 m c main_arg22) := s0_src (V0 m c)
theorem h_dst1 : U1 m c main_v3 = dstIdx (F := Ideal) (V0 m c main_arg22) := s0_dst (V0 m c)
theorem h_src4 : U4 m c main_v1 = srcIdx (F := Ideal) (V0 m c main_arg22) := ((hkeep1 m c main_v1 (by decide +kernel)).trans ((hkeepH1 m c main_v1 (by decide +kernel)).trans (hkeep0 m c main_v1 (by decide +kernel)))).trans (s0_src (V0 m c))
theorem h_dst4 : U4 m c main_v3 = dstIdx (F := Ideal) (V0 m c main_arg22) := ((hkeep1 m c main_v3 (by decide +kernel)).trans ((hkeepH1 m c main_v3 (by decide +kernel)).trans (hkeep0 m c main_v3 (by decide +kernel)))).trans (s0_dst (V0 m c))
theorem h_src8 : U8 m c main_v1 = srcIdx (F := Ideal) (V0 m c main_arg22) := ((hkeep3 m c main_v1 (by decide +kernel)).trans ((hkeepH3 m c main_v1 (by decide +kernel)).trans ((hkeep2 m c main_v1 (by decide +kernel)).trans ((hkeepH2 m c main_v1 (by decide +kernel)).trans ((hkeep1 m c main_v1 (by decide +kernel)).trans ((hkeepH1 m c main_v1 (by decide +kernel)).trans (hkeep0 m c main_v1 (by decide +kernel)))))))).trans (s0_src (V0 m c))
theorem h_dst8 : U8 m c main_v3 = dstIdx (F := Ideal) (V0 m c main_arg22) := ((hkeep3 m c main_v3 (by decide +kernel)).trans ((hkeepH3 m c main_v3 (by decide +kernel)).trans ((hkeep2 m c main_v3 (by decide +kernel)).trans ((hkeepH2 m c main_v3 (by decide +kernel)).trans ((hkeep1 m c main_v3 (by decide +kernel)).trans ((hkeepH1 m c main_v3 (by decide +kernel)).trans (hkeep0 m c main_v3 (by decide +kernel)))))))).trans (s0_dst (V0 m c))
theorem h_src12 : U12 m c main_v1 = srcIdx (F := Ideal) (V0 m c main_arg22) := ((hkeep5 m c main_v1 (by decide +kernel)).trans ((hkeepH5 m c main_v1 (by decide +kernel)).trans ((hkeep4 m c main_v1 (by decide +kernel)).trans ((hkeepH4 m c main_v1 (by decide +kernel)).trans ((hkeep3 m c main_v1 (by decide +kernel)).trans ((hkeepH3 m c main_v1 (by decide +kernel)).trans ((hkeep2 m c main_v1 (by decide +kernel)).trans ((hkeepH2 m c main_v1 (by decide +kernel)).trans ((hkeep1 m c main_v1 (by decide +kernel)).trans ((hkeepH1 m c main_v1 (by decide +kernel)).trans (hkeep0 m c main_v1 (by decide +kernel)))))))))))).trans (s0_src (V0 m c))
theorem h_dst12 : U12 m c main_v3 = dstIdx (F := Ideal) (V0 m c main_arg22) := ((hkeep5 m c main_v3 (by decide +kernel)).trans ((hkeepH5 m c main_v3 (by decide +kernel)).trans ((hkeep4 m c main_v3 (by decide +kernel)).trans ((hkeepH4 m c main_v3 (by decide +kernel)).trans ((hkeep3 m c main_v3 (by decide +kernel)).trans ((hkeepH3 m c main_v3 (by decide +kernel)).trans ((hkeep2 m c main_v3 (by decide +kernel)).trans ((hkeepH2 m c main_v3 (by decide +kernel)).trans ((hkeep1 m c main_v3 (by decide +kernel)).trans ((hkeepH1 m c main_v3 (by decide +kernel)).trans (hkeep0 m c main_v3 (by decide +kernel)))))))))))).trans (s0_dst (V0 m c))

/-- The precondition gives the finiteness of every real-valued argument. -/
theorem finArgs_of_pre [hPre_finite_inputs : Cert.Pre_finite_inputs.Facts] (h : Cert.Pre_KernelIdeal m) : FinArgs m c :=
  Cert.Alg.finite_of_pre m h c

variable (hfin : FinArgs m c)
include hfin

set_option maxHeartbeats 4000000 in
/-- Layer 0: what the second kernel of the layer leaves is the network's layer-0 output. -/
theorem layer0_val : U4 m c main_v47 = Net.netH0 (F := Ideal) (V0 m c main_arg0) (V0 m c main_arg1) (V0 m c main_arg2) (V0 m c main_arg3) (V0 m c main_arg4) (V0 m c main_arg5) (V0 m c main_arg6) (V0 m c main_arg7) (V0 m c main_arg22) := by
  -- the host stretch before the first kernel
  have ezin : U1 m c main_v19 = (preRef (F := Ideal) (V0 m c main_arg0) (scalSlice (F := Ideal) ![0] Cert.ReferenceIdeal.Gen.slices_S4_S1_0 (V0 m c main_arg7)) (srcIdx (F := Ideal) (V0 m c main_arg22)) (dstIdx (F := Ideal) (V0 m c main_arg22))) := by
    show StableHlo.after hostOps0 (V0 m c) main_v19 = _
    rw [s0_zin]
  have ew1 : U1 m c main_v21 = (matSlice (F := Ideal) ![0, 0, 0] Cert.ReferenceIdeal.Gen.slices_S4x128x128_S1x128x128_0_0_0 (V0 m c main_arg1)) := by
    show StableHlo.after hostOps0 (V0 m c) main_v21 = _
    rw [s0_w1]
  have eb1 : U1 m c main_v28 = row (F := Ideal) (vecSlice (F := Ideal) ![0, 0] Cert.ReferenceIdeal.Gen.slices_S4x128_S1x128_0_0 (V0 m c main_arg2)) := by
    show StableHlo.after hostOps0 (V0 m c) main_v28 = _
    rw [s0_b1]
  have ew2 : U1 m c main_v25 = (matSlice (F := Ideal) ![0, 0, 0] Cert.ReferenceIdeal.Gen.slices_S4x128x128_S1x128x128_0_0_0 (V0 m c main_arg3)) := by
    show StableHlo.after hostOps0 (V0 m c) main_v25 = _
    rw [s0_w2]
  have eb2 : U1 m c main_v29 = row (F := Ideal) (vecSlice (F := Ideal) ![0, 0] Cert.ReferenceIdeal.Gen.slices_S4x128_S1x128_0_0 (V0 m c main_arg4)) := by
    show StableHlo.after hostOps0 (V0 m c) main_v29 = _
    rw [s0_b2]
  -- the first kernel's three outputs
  have ez : U2 m c main_v30_0 = (Cert.SpecB.mlpZ (preRef (F := Ideal) (V0 m c main_arg0) (scalSlice (F := Ideal) ![0] Cert.ReferenceIdeal.Gen.slices_S4_S1_0 (V0 m c main_arg7)) (srcIdx (F := Ideal) (V0 m c main_arg22)) (dstIdx (F := Ideal) (V0 m c main_arg22))) (matSlice (F := Ideal) ![0, 0, 0] Cert.ReferenceIdeal.Gen.slices_S4x128x128_S1x128x128_0_0_0 (V0 m c main_arg1)) (row (F := Ideal) (vecSlice (F := Ideal) ![0, 0] Cert.ReferenceIdeal.Gen.slices_S4x128_S1x128_0_0 (V0 m c main_arg2))) (matSlice (F := Ideal) ![0, 0, 0] Cert.ReferenceIdeal.Gen.slices_S4x128x128_S1x128x128_0_0_0 (V0 m c main_arg3)) (row (F := Ideal) (vecSlice (F := Ideal) ![0, 0] Cert.ReferenceIdeal.Gen.slices_S4x128_S1x128_0_0 (V0 m c main_arg4)))) := by
    rw [U2_v30_0 m c, final0_5]
    show Cert.SpecB.mlpZ (U1 m c main_v19) (U1 m c main_v21) (U1 m c main_v28) (U1 m c main_v25) (U1 m c main_v29) = _
    rw [ezin, ew1, eb1, ew2, eb2]
  have es : U2 m c main_v30_1 = Cert.SpecB.colSum (Cert.SpecB.mlpZ (preRef (F := Ideal) (V0 m c main_arg0) (scalSlice (F := Ideal) ![0] Cert.ReferenceIdeal.Gen.slices_S4_S1_0 (V0 m c main_arg7)) (srcIdx (F := Ideal) (V0 m c main_arg22)) (dstIdx (F := Ideal) (V0 m c main_arg22))) (matSlice (F := Ideal) ![0, 0, 0] Cert.ReferenceIdeal.Gen.slices_S4x128x128_S1x128x128_0_0_0 (V0 m c main_arg1)) (row (F := Ideal) (vecSlice (F := Ideal) ![0, 0] Cert.ReferenceIdeal.Gen.slices_S4x128_S1x128_0_0 (V0 m c main_arg2))) (matSlice (F := Ideal) ![0, 0, 0] Cert.ReferenceIdeal.Gen.slices_S4x128x128_S1x128x128_0_0_0 (V0 m c main_arg3)) (row (F := Ideal) (vecSlice (F := Ideal) ![0, 0] Cert.ReferenceIdeal.Gen.slices_S4x128_S1x128_0_0 (V0 m c main_arg4)))) := by
    rw [U2_v30_1 m c, final0_6]
    show Cert.SpecB.colSum (Cert.SpecB.mlpZ (U1 m c main_v19) (U1 m c main_v21) (U1 m c main_v28) (U1 m c main_v25) (U1 m c main_v29)) = _
    rw [ezin, ew1, eb1, ew2, eb2]
  have ess : U2 m c main_v30_2 = Cert.SpecB.colSumSq (Cert.SpecB.mlpZ (preRef (F := Ideal) (V0 m c main_arg0) (scalSlice (F := Ideal) ![0] Cert.ReferenceIdeal.Gen.slices_S4_S1_0 (V0 m c main_arg7)) (srcIdx (F := Ideal) (V0 m c main_arg22)) (dstIdx (F := Ideal) (V0 m c main_arg22))) (matSlice (F := Ideal) ![0, 0, 0] Cert.ReferenceIdeal.Gen.slices_S4x128x128_S1x128x128_0_0_0 (V0 m c main_arg1)) (row (F := Ideal) (vecSlice (F := Ideal) ![0, 0] Cert.ReferenceIdeal.Gen.slices_S4x128_S1x128_0_0 (V0 m c main_arg2))) (matSlice (F := Ideal) ![0, 0, 0] Cert.ReferenceIdeal.Gen.slices_S4x128x128_S1x128x128_0_0_0 (V0 m c main_arg3)) (row (F := Ideal) (vecSlice (F := Ideal) ![0, 0] Cert.ReferenceIdeal.Gen.slices_S4x128_S1x128_0_0 (V0 m c main_arg4)))) := by
    rw [U2_v30_2 m c, final0_7]
    show Cert.SpecB.colSumSq (Cert.SpecB.mlpZ (U1 m c main_v19) (U1 m c main_v21) (U1 m c main_v28) (U1 m c main_v25) (U1 m c main_v29)) = _
    rw [ezin, ew1, eb1, ew2, eb2]
  -- the host stretch between the two kernels
  have emu : U3 m c main_v43 = row (F := Ideal) (muK (F := Ideal) (Cert.SpecB.colSum (Cert.SpecB.mlpZ (preRef (F := Ideal) (V0 m c main_arg0) (scalSlice (F := Ideal) ![0] Cert.ReferenceIdeal.Gen.slices_S4_S1_0 (V0 m c main_arg7)) (srcIdx (F := Ideal) (V0 m c main_arg22)) (dstIdx (F := Ideal) (V0 m c main_arg22))) (matSlice (F := Ideal) ![0, 0, 0] Cert.ReferenceIdeal.Gen.slices_S4x128x128_S1x128x128_0_0_0 (V0 m c main_arg1)) (row (F := Ideal) (vecSlice (F := Ideal) ![0, 0] Cert.ReferenceIdeal.Gen.slices_S4x128_S1x128_0_0 (V0 m c main_arg2))) (matSlice (F := Ideal) ![0, 0, 0] Cert.ReferenceIdeal.Gen.slices_S4x128x128_S1x128x128_0_0_0 (V0 m c main_arg3)) (row (F := Ideal) (vecSlice (F := Ideal) ![0, 0] Cert.ReferenceIdeal.Gen.slices_S4x128_S1x128_0_0 (V0 m c main_arg4)))))) := by
    show StableHlo.after hostOps1 (U2 m c) main_v43 = _
    rw [s1_mu, es]
  have evar : U3 m c main_v44 = row (F := Ideal) (varK (F := Ideal) (Cert.SpecB.colSum (Cert.SpecB.mlpZ (preRef (F := Ideal) (V0 m c main_arg0) (scalSlice (F := Ideal) ![0] Cert.ReferenceIdeal.Gen.slices_S4_S1_0 (V0 m c main_arg7)) (srcIdx (F := Ideal) (V0 m c main_arg22)) (dstIdx (F := Ideal) (V0 m c main_arg22))) (matSlice (F := Ideal) ![0, 0, 0] Cert.ReferenceIdeal.Gen.slices_S4x128x128_S1x128x128_0_0_0 (V0 m c main_arg1)) (row (F := Ideal) (vecSlice (F := Ideal) ![0, 0] Cert.ReferenceIdeal.Gen.slices_S4x128_S1x128_0_0 (V0 m c main_arg2))) (matSlice (F := Ideal) ![0, 0, 0] Cert.ReferenceIdeal.Gen.slices_S4x128x128_S1x128x128_0_0_0 (V0 m c main_arg3)) (row (F := Ideal) (vecSlice (F := Ideal) ![0, 0] Cert.ReferenceIdeal.Gen.slices_S4x128_S1x128_0_0 (V0 m c main_arg4))))) (Cert.SpecB.colSumSq (Cert.SpecB.mlpZ (preRef (F := Ideal) (V0 m c main_arg0) (scalSlice (F := Ideal) ![0] Cert.ReferenceIdeal.Gen.slices_S4_S1_0 (V0 m c main_arg7)) (srcIdx (F := Ideal) (V0 m c main_arg22)) (dstIdx (F := Ideal) (V0 m c main_arg22))) (matSlice (F := Ideal) ![0, 0, 0] Cert.ReferenceIdeal.Gen.slices_S4x128x128_S1x128x128_0_0_0 (V0 m c main_arg1)) (row (F := Ideal) (vecSlice (F := Ideal) ![0, 0] Cert.ReferenceIdeal.Gen.slices_S4x128_S1x128_0_0 (V0 m c main_arg2))) (matSlice (F := Ideal) ![0, 0, 0] Cert.ReferenceIdeal.Gen.slices_S4x128x128_S1x128x128_0_0_0 (V0 m c main_arg3)) (row (F := Ideal) (vecSlice (F := Ideal) ![0, 0] Cert.ReferenceIdeal.Gen.slices_S4x128_S1x128_0_0 (V0 m c main_arg4)))))) := by
    show StableHlo.after hostOps1 (U2 m c) main_v44 = _
    rw [s1_var, es, ess]
  have eg : U3 m c main_v45 = row (F := Ideal) (vecSlice (F := Ideal) ![0, 0] Cert.ReferenceIdeal.Gen.slices_S4x128_S1x128_0_0 (V0 m c main_arg5)) := by
    show StableHlo.after hostOps1 (U2 m c) main_v45 = _
    rw [s1_g, (hkeep0 m c main_arg5 (by decide +kernel)).trans (hkeepH0 m c main_arg5 (by decide +kernel))]
  have ebe : U3 m c main_v46 = row (F := Ideal) (vecSlice (F := Ideal) ![0, 0] Cert.ReferenceIdeal.Gen.slices_S4x128_S1x128_0_0 (V0 m c main_arg6)) := by
    show StableHlo.after hostOps1 (U2 m c) main_v46 = _
    rw [s1_be, (hkeep0 m c main_arg6 (by decide +kernel)).trans (hkeepH0 m c main_arg6 (by decide +kernel))]
  have ez' : U3 m c main_v30_0 = (Cert.SpecB.mlpZ (preRef (F := Ideal) (V0 m c main_arg0) (scalSlice (F := Ideal) ![0] Cert.ReferenceIdeal.Gen.slices_S4_S1_0 (V0 m c main_arg7)) (srcIdx (F := Ideal) (V0 m c main_arg22)) (dstIdx (F := Ideal) (V0 m c main_arg22))) (matSlice (F := Ideal) ![0, 0, 0] Cert.ReferenceIdeal.Gen.slices_S4x128x128_S1x128x128_0_0_0 (V0 m c main_arg1)) (row (F := Ideal) (vecSlice (F := Ideal) ![0, 0] Cert.ReferenceIdeal.Gen.slices_S4x128_S1x128_0_0 (V0 m c main_arg2))) (matSlice (F := Ideal) ![0, 0, 0] Cert.ReferenceIdeal.Gen.slices_S4x128x128_S1x128x128_0_0_0 (V0 m c main_arg3)) (row (F := Ideal) (vecSlice (F := Ideal) ![0, 0] Cert.ReferenceIdeal.Gen.slices_S4x128_S1x128_0_0 (V0 m c main_arg4)))) := (hkeepH1 m c main_v30_0 (by decide +kernel)).trans ez
  -- the second kernel
  rw [U4_v47 m c, final1]
  show Cert.SpecA.bnFn (U3 m c main_v30_0) (U3 m c main_v43) (U3 m c main_v44) (U3 m c main_v45) (U3 m c main_v46) = _
  rw [ez', emu, evar, eg, ebe]
  exact Bridge.layer_of (V0 m c main_arg0) (matSlice (F := Ideal) ![0, 0, 0] Cert.ReferenceIdeal.Gen.slices_S4x128x128_S1x128x128_0_0_0 (V0 m c main_arg1)) (vecSlice (F := Ideal) ![0, 0] Cert.ReferenceIdeal.Gen.slices_S4x128_S1x128_0_0 (V0 m c main_arg2)) (matSlice (F := Ideal) ![0, 0, 0] Cert.ReferenceIdeal.Gen.slices_S4x128x128_S1x128x128_0_0_0 (V0 m c main_arg3)) (vecSlice (F := Ideal) ![0, 0] Cert.ReferenceIdeal.Gen.slices_S4x128_S1x128_0_0 (V0 m c main_arg4)) (vecSlice (F := Ideal) ![0, 0] Cert.ReferenceIdeal.Gen.slices_S4x128_S1x128_0_0 (V0 m c main_arg5)) (vecSlice (F := Ideal) ![0, 0] Cert.ReferenceIdeal.Gen.slices_S4x128_S1x128_0_0 (V0 m c main_arg6)) (scalSlice (F := Ideal) ![0] Cert.ReferenceIdeal.Gen.slices_S4_S1_0 (V0 m c main_arg7)) (srcIdx (F := Ideal) (V0 m c main_arg22)) (dstIdx (F := Ideal) (V0 m c main_arg22))
    hfin.1
    (matSlice_fin _ _ _ hfin.2.1) (vecSlice_fin _ _ _ hfin.2.2.1) (matSlice_fin _ _ _ hfin.2.2.2.1) (vecSlice_fin _ _ _ hfin.2.2.2.2.1)
    (scalSlice_fin _ _ _ hfin.2.2.2.2.2.2.2.1 _)

set_option maxHeartbeats 4000000 in
/-- Layer 1: what the second kernel of the layer leaves is the network's layer-1 output. -/
theorem layer1_val : U8 m c main_v91 = Net.netH1 (F := Ideal) (V0 m c main_arg0) (V0 m c main_arg1) (V0 m c main_arg2) (V0 m c main_arg3) (V0 m c main_arg4) (V0 m c main_arg5) (V0 m c main_arg6) (V0 m c main_arg7) (V0 m c main_arg22) := by
  -- the host stretch before the first kernel
  have ezin : U5 m c main_v63 = (preRef (F := Ideal) (Net.netH0 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![1] Cert.ReferenceIdeal.Gen.slices_S4_S1_1 (V0 m c main_arg7)) (srcIdx (F := Ideal) (V0 m c main_arg22)) (dstIdx (F := Ideal) (V0 m c main_arg22))) := by
    show StableHlo.after hostOps2 (U4 m c) main_v63 = _
    rw [s2_zin, (hkeep1 m c main_arg7 (by decide +kernel)).trans ((hkeepH1 m c main_arg7 (by decide +kernel)).trans ((hkeep0 m c main_arg7 (by decide +kernel)).trans (hkeepH0 m c main_arg7 (by decide +kernel)))), h_src4 m c, h_dst4 m c, layer0_val m c hfin]
  have ew1 : U5 m c main_v65 = (matSlice (F := Ideal) ![1, 0, 0] Cert.ReferenceIdeal.Gen.slices_S4x128x128_S1x128x128_1_0_0 (V0 m c main_arg1)) := by
    show StableHlo.after hostOps2 (U4 m c) main_v65 = _
    rw [s2_w1, (hkeep1 m c main_arg1 (by decide +kernel)).trans ((hkeepH1 m c main_arg1 (by decide +kernel)).trans ((hkeep0 m c main_arg1 (by decide +kernel)).trans (hkeepH0 m c main_arg1 (by decide +kernel))))]
  have eb1 : U5 m c main_v72 = row (F := Ideal) (vecSlice (F := Ideal) ![1, 0] Cert.ReferenceIdeal.Gen.slices_S4x128_S1x128_1_0 (V0 m c main_arg2)) := by
    show StableHlo.after hostOps2 (U4 m c) main_v72 = _
    rw [s2_b1, (hkeep1 m c main_arg2 (by decide +kernel)).trans ((hkeepH1 m c main_arg2 (by decide +kernel)).trans ((hkeep0 m c main_arg2 (by decide +kernel)).trans (hkeepH0 m c main_arg2 (by decide +kernel))))]
  have ew2 : U5 m c main_v69 = (matSlice (F := Ideal) ![1, 0, 0] Cert.ReferenceIdeal.Gen.slices_S4x128x128_S1x128x128_1_0_0 (V0 m c main_arg3)) := by
    show StableHlo.after hostOps2 (U4 m c) main_v69 = _
    rw [s2_w2, (hkeep1 m c main_arg3 (by decide +kernel)).trans ((hkeepH1 m c main_arg3 (by decide +kernel)).trans ((hkeep0 m c main_arg3 (by decide +kernel)).trans (hkeepH0 m c main_arg3 (by decide +kernel))))]
  have eb2 : U5 m c main_v73 = row (F := Ideal) (vecSlice (F := Ideal) ![1, 0] Cert.ReferenceIdeal.Gen.slices_S4x128_S1x128_1_0 (V0 m c main_arg4)) := by
    show StableHlo.after hostOps2 (U4 m c) main_v73 = _
    rw [s2_b2, (hkeep1 m c main_arg4 (by decide +kernel)).trans ((hkeepH1 m c main_arg4 (by decide +kernel)).trans ((hkeep0 m c main_arg4 (by decide +kernel)).trans (hkeepH0 m c main_arg4 (by decide +kernel))))]
  -- the first kernel's three outputs
  have ez : U6 m c main_v74_0 = (Cert.SpecB.mlpZ (preRef (F := Ideal) (Net.netH0 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![1] Cert.ReferenceIdeal.Gen.slices_S4_S1_1 (V0 m c main_arg7)) (srcIdx (F := Ideal) (V0 m c main_arg22)) (dstIdx (F := Ideal) (V0 m c main_arg22))) (matSlice (F := Ideal) ![1, 0, 0] Cert.ReferenceIdeal.Gen.slices_S4x128x128_S1x128x128_1_0_0 (V0 m c main_arg1)) (row (F := Ideal) (vecSlice (F := Ideal) ![1, 0] Cert.ReferenceIdeal.Gen.slices_S4x128_S1x128_1_0 (V0 m c main_arg2))) (matSlice (F := Ideal) ![1, 0, 0] Cert.ReferenceIdeal.Gen.slices_S4x128x128_S1x128x128_1_0_0 (V0 m c main_arg3)) (row (F := Ideal) (vecSlice (F := Ideal) ![1, 0] Cert.ReferenceIdeal.Gen.slices_S4x128_S1x128_1_0 (V0 m c main_arg4)))) := by
    rw [U6_v74_0 m c, final2_5]
    show Cert.SpecB.mlpZ (U5 m c main_v63) (U5 m c main_v65) (U5 m c main_v72) (U5 m c main_v69) (U5 m c main_v73) = _
    rw [ezin, ew1, eb1, ew2, eb2]
  have es : U6 m c main_v74_1 = Cert.SpecB.colSum (Cert.SpecB.mlpZ (preRef (F := Ideal) (Net.netH0 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![1] Cert.ReferenceIdeal.Gen.slices_S4_S1_1 (V0 m c main_arg7)) (srcIdx (F := Ideal) (V0 m c main_arg22)) (dstIdx (F := Ideal) (V0 m c main_arg22))) (matSlice (F := Ideal) ![1, 0, 0] Cert.ReferenceIdeal.Gen.slices_S4x128x128_S1x128x128_1_0_0 (V0 m c main_arg1)) (row (F := Ideal) (vecSlice (F := Ideal) ![1, 0] Cert.ReferenceIdeal.Gen.slices_S4x128_S1x128_1_0 (V0 m c main_arg2))) (matSlice (F := Ideal) ![1, 0, 0] Cert.ReferenceIdeal.Gen.slices_S4x128x128_S1x128x128_1_0_0 (V0 m c main_arg3)) (row (F := Ideal) (vecSlice (F := Ideal) ![1, 0] Cert.ReferenceIdeal.Gen.slices_S4x128_S1x128_1_0 (V0 m c main_arg4)))) := by
    rw [U6_v74_1 m c, final2_6]
    show Cert.SpecB.colSum (Cert.SpecB.mlpZ (U5 m c main_v63) (U5 m c main_v65) (U5 m c main_v72) (U5 m c main_v69) (U5 m c main_v73)) = _
    rw [ezin, ew1, eb1, ew2, eb2]
  have ess : U6 m c main_v74_2 = Cert.SpecB.colSumSq (Cert.SpecB.mlpZ (preRef (F := Ideal) (Net.netH0 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![1] Cert.ReferenceIdeal.Gen.slices_S4_S1_1 (V0 m c main_arg7)) (srcIdx (F := Ideal) (V0 m c main_arg22)) (dstIdx (F := Ideal) (V0 m c main_arg22))) (matSlice (F := Ideal) ![1, 0, 0] Cert.ReferenceIdeal.Gen.slices_S4x128x128_S1x128x128_1_0_0 (V0 m c main_arg1)) (row (F := Ideal) (vecSlice (F := Ideal) ![1, 0] Cert.ReferenceIdeal.Gen.slices_S4x128_S1x128_1_0 (V0 m c main_arg2))) (matSlice (F := Ideal) ![1, 0, 0] Cert.ReferenceIdeal.Gen.slices_S4x128x128_S1x128x128_1_0_0 (V0 m c main_arg3)) (row (F := Ideal) (vecSlice (F := Ideal) ![1, 0] Cert.ReferenceIdeal.Gen.slices_S4x128_S1x128_1_0 (V0 m c main_arg4)))) := by
    rw [U6_v74_2 m c, final2_7]
    show Cert.SpecB.colSumSq (Cert.SpecB.mlpZ (U5 m c main_v63) (U5 m c main_v65) (U5 m c main_v72) (U5 m c main_v69) (U5 m c main_v73)) = _
    rw [ezin, ew1, eb1, ew2, eb2]
  -- the host stretch between the two kernels
  have emu : U7 m c main_v87 = row (F := Ideal) (muK (F := Ideal) (Cert.SpecB.colSum (Cert.SpecB.mlpZ (preRef (F := Ideal) (Net.netH0 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![1] Cert.ReferenceIdeal.Gen.slices_S4_S1_1 (V0 m c main_arg7)) (srcIdx (F := Ideal) (V0 m c main_arg22)) (dstIdx (F := Ideal) (V0 m c main_arg22))) (matSlice (F := Ideal) ![1, 0, 0] Cert.ReferenceIdeal.Gen.slices_S4x128x128_S1x128x128_1_0_0 (V0 m c main_arg1)) (row (F := Ideal) (vecSlice (F := Ideal) ![1, 0] Cert.ReferenceIdeal.Gen.slices_S4x128_S1x128_1_0 (V0 m c main_arg2))) (matSlice (F := Ideal) ![1, 0, 0] Cert.ReferenceIdeal.Gen.slices_S4x128x128_S1x128x128_1_0_0 (V0 m c main_arg3)) (row (F := Ideal) (vecSlice (F := Ideal) ![1, 0] Cert.ReferenceIdeal.Gen.slices_S4x128_S1x128_1_0 (V0 m c main_arg4)))))) := by
    show StableHlo.after hostOps3 (U6 m c) main_v87 = _
    rw [s3_mu, es]
  have evar : U7 m c main_v88 = row (F := Ideal) (varK (F := Ideal) (Cert.SpecB.colSum (Cert.SpecB.mlpZ (preRef (F := Ideal) (Net.netH0 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![1] Cert.ReferenceIdeal.Gen.slices_S4_S1_1 (V0 m c main_arg7)) (srcIdx (F := Ideal) (V0 m c main_arg22)) (dstIdx (F := Ideal) (V0 m c main_arg22))) (matSlice (F := Ideal) ![1, 0, 0] Cert.ReferenceIdeal.Gen.slices_S4x128x128_S1x128x128_1_0_0 (V0 m c main_arg1)) (row (F := Ideal) (vecSlice (F := Ideal) ![1, 0] Cert.ReferenceIdeal.Gen.slices_S4x128_S1x128_1_0 (V0 m c main_arg2))) (matSlice (F := Ideal) ![1, 0, 0] Cert.ReferenceIdeal.Gen.slices_S4x128x128_S1x128x128_1_0_0 (V0 m c main_arg3)) (row (F := Ideal) (vecSlice (F := Ideal) ![1, 0] Cert.ReferenceIdeal.Gen.slices_S4x128_S1x128_1_0 (V0 m c main_arg4))))) (Cert.SpecB.colSumSq (Cert.SpecB.mlpZ (preRef (F := Ideal) (Net.netH0 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![1] Cert.ReferenceIdeal.Gen.slices_S4_S1_1 (V0 m c main_arg7)) (srcIdx (F := Ideal) (V0 m c main_arg22)) (dstIdx (F := Ideal) (V0 m c main_arg22))) (matSlice (F := Ideal) ![1, 0, 0] Cert.ReferenceIdeal.Gen.slices_S4x128x128_S1x128x128_1_0_0 (V0 m c main_arg1)) (row (F := Ideal) (vecSlice (F := Ideal) ![1, 0] Cert.ReferenceIdeal.Gen.slices_S4x128_S1x128_1_0 (V0 m c main_arg2))) (matSlice (F := Ideal) ![1, 0, 0] Cert.ReferenceIdeal.Gen.slices_S4x128x128_S1x128x128_1_0_0 (V0 m c main_arg3)) (row (F := Ideal) (vecSlice (F := Ideal) ![1, 0] Cert.ReferenceIdeal.Gen.slices_S4x128_S1x128_1_0 (V0 m c main_arg4)))))) := by
    show StableHlo.after hostOps3 (U6 m c) main_v88 = _
    rw [s3_var, es, ess]
  have eg : U7 m c main_v89 = row (F := Ideal) (vecSlice (F := Ideal) ![1, 0] Cert.ReferenceIdeal.Gen.slices_S4x128_S1x128_1_0 (V0 m c main_arg5)) := by
    show StableHlo.after hostOps3 (U6 m c) main_v89 = _
    rw [s3_g, (hkeep2 m c main_arg5 (by decide +kernel)).trans ((hkeepH2 m c main_arg5 (by decide +kernel)).trans ((hkeep1 m c main_arg5 (by decide +kernel)).trans ((hkeepH1 m c main_arg5 (by decide +kernel)).trans ((hkeep0 m c main_arg5 (by decide +kernel)).trans (hkeepH0 m c main_arg5 (by decide +kernel))))))]
  have ebe : U7 m c main_v90 = row (F := Ideal) (vecSlice (F := Ideal) ![1, 0] Cert.ReferenceIdeal.Gen.slices_S4x128_S1x128_1_0 (V0 m c main_arg6)) := by
    show StableHlo.after hostOps3 (U6 m c) main_v90 = _
    rw [s3_be, (hkeep2 m c main_arg6 (by decide +kernel)).trans ((hkeepH2 m c main_arg6 (by decide +kernel)).trans ((hkeep1 m c main_arg6 (by decide +kernel)).trans ((hkeepH1 m c main_arg6 (by decide +kernel)).trans ((hkeep0 m c main_arg6 (by decide +kernel)).trans (hkeepH0 m c main_arg6 (by decide +kernel))))))]
  have ez' : U7 m c main_v74_0 = (Cert.SpecB.mlpZ (preRef (F := Ideal) (Net.netH0 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![1] Cert.ReferenceIdeal.Gen.slices_S4_S1_1 (V0 m c main_arg7)) (srcIdx (F := Ideal) (V0 m c main_arg22)) (dstIdx (F := Ideal) (V0 m c main_arg22))) (matSlice (F := Ideal) ![1, 0, 0] Cert.ReferenceIdeal.Gen.slices_S4x128x128_S1x128x128_1_0_0 (V0 m c main_arg1)) (row (F := Ideal) (vecSlice (F := Ideal) ![1, 0] Cert.ReferenceIdeal.Gen.slices_S4x128_S1x128_1_0 (V0 m c main_arg2))) (matSlice (F := Ideal) ![1, 0, 0] Cert.ReferenceIdeal.Gen.slices_S4x128x128_S1x128x128_1_0_0 (V0 m c main_arg3)) (row (F := Ideal) (vecSlice (F := Ideal) ![1, 0] Cert.ReferenceIdeal.Gen.slices_S4x128_S1x128_1_0 (V0 m c main_arg4)))) := (hkeepH3 m c main_v74_0 (by decide +kernel)).trans ez
  -- the second kernel
  rw [U8_v91 m c, final3]
  show Cert.SpecA.bnFn (U7 m c main_v74_0) (U7 m c main_v87) (U7 m c main_v88) (U7 m c main_v89) (U7 m c main_v90) = _
  rw [ez', emu, evar, eg, ebe]
  exact Bridge.layer_of (Net.netH0 (F := Ideal) (V0 m c main_arg0) (V0 m c main_arg1) (V0 m c main_arg2) (V0 m c main_arg3) (V0 m c main_arg4) (V0 m c main_arg5) (V0 m c main_arg6) (V0 m c main_arg7) (V0 m c main_arg22)) (matSlice (F := Ideal) ![1, 0, 0] Cert.ReferenceIdeal.Gen.slices_S4x128x128_S1x128x128_1_0_0 (V0 m c main_arg1)) (vecSlice (F := Ideal) ![1, 0] Cert.ReferenceIdeal.Gen.slices_S4x128_S1x128_1_0 (V0 m c main_arg2)) (matSlice (F := Ideal) ![1, 0, 0] Cert.ReferenceIdeal.Gen.slices_S4x128x128_S1x128x128_1_0_0 (V0 m c main_arg3)) (vecSlice (F := Ideal) ![1, 0] Cert.ReferenceIdeal.Gen.slices_S4x128_S1x128_1_0 (V0 m c main_arg4)) (vecSlice (F := Ideal) ![1, 0] Cert.ReferenceIdeal.Gen.slices_S4x128_S1x128_1_0 (V0 m c main_arg5)) (vecSlice (F := Ideal) ![1, 0] Cert.ReferenceIdeal.Gen.slices_S4x128_S1x128_1_0 (V0 m c main_arg6)) (scalSlice (F := Ideal) ![1] Cert.ReferenceIdeal.Gen.slices_S4_S1_1 (V0 m c main_arg7)) (srcIdx (F := Ideal) (V0 m c main_arg22)) (dstIdx (F := Ideal) (V0 m c main_arg22))
    (Net.netH0_fin _ _ _ _ _ _ _ _ _ hfin.1 hfin.2.1 hfin.2.2.1 hfin.2.2.2.1 hfin.2.2.2.2.1 hfin.2.2.2.2.2.1 hfin.2.2.2.2.2.2.1 hfin.2.2.2.2.2.2.2.1)
    (matSlice_fin _ _ _ hfin.2.1) (vecSlice_fin _ _ _ hfin.2.2.1) (matSlice_fin _ _ _ hfin.2.2.2.1) (vecSlice_fin _ _ _ hfin.2.2.2.2.1)
    (scalSlice_fin _ _ _ hfin.2.2.2.2.2.2.2.1 _)

set_option maxHeartbeats 4000000 in
/-- Layer 2: what the second kernel of the layer leaves is the network's layer-2 output. -/
theorem layer2_val : U12 m c main_v135 = Net.netH2 (F := Ideal) (V0 m c main_arg0) (V0 m c main_arg1) (V0 m c main_arg2) (V0 m c main_arg3) (V0 m c main_arg4) (V0 m c main_arg5) (V0 m c main_arg6) (V0 m c main_arg7) (V0 m c main_arg22) := by
  -- the host stretch before the first kernel
  have ezin : U9 m c main_v107 = (preRef (F := Ideal) (Net.netH1 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![2] Cert.ReferenceIdeal.Gen.slices_S4_S1_2 (V0 m c main_arg7)) (srcIdx (F := Ideal) (V0 m c main_arg22)) (dstIdx (F := Ideal) (V0 m c main_arg22))) := by
    show StableHlo.after hostOps4 (U8 m c) main_v107 = _
    rw [s4_zin, (hkeep3 m c main_arg7 (by decide +kernel)).trans ((hkeepH3 m c main_arg7 (by decide +kernel)).trans ((hkeep2 m c main_arg7 (by decide +kernel)).trans ((hkeepH2 m c main_arg7 (by decide +kernel)).trans ((hkeep1 m c main_arg7 (by decide +kernel)).trans ((hkeepH1 m c main_arg7 (by decide +kernel)).trans ((hkeep0 m c main_arg7 (by decide +kernel)).trans (hkeepH0 m c main_arg7 (by decide +kernel)))))))), h_src8 m c, h_dst8 m c, layer1_val m c hfin]
  have ew1 : U9 m c main_v109 = (matSlice (F := Ideal) ![2, 0, 0] Cert.ReferenceIdeal.Gen.slices_S4x128x128_S1x128x128_2_0_0 (V0 m c main_arg1)) := by
    show StableHlo.after hostOps4 (U8 m c) main_v109 = _
    rw [s4_w1, (hkeep3 m c main_arg1 (by decide +kernel)).trans ((hkeepH3 m c main_arg1 (by decide +kernel)).trans ((hkeep2 m c main_arg1 (by decide +kernel)).trans ((hkeepH2 m c main_arg1 (by decide +kernel)).trans ((hkeep1 m c main_arg1 (by decide +kernel)).trans ((hkeepH1 m c main_arg1 (by decide +kernel)).trans ((hkeep0 m c main_arg1 (by decide +kernel)).trans (hkeepH0 m c main_arg1 (by decide +kernel))))))))]
  have eb1 : U9 m c main_v116 = row (F := Ideal) (vecSlice (F := Ideal) ![2, 0] Cert.ReferenceIdeal.Gen.slices_S4x128_S1x128_2_0 (V0 m c main_arg2)) := by
    show StableHlo.after hostOps4 (U8 m c) main_v116 = _
    rw [s4_b1, (hkeep3 m c main_arg2 (by decide +kernel)).trans ((hkeepH3 m c main_arg2 (by decide +kernel)).trans ((hkeep2 m c main_arg2 (by decide +kernel)).trans ((hkeepH2 m c main_arg2 (by decide +kernel)).trans ((hkeep1 m c main_arg2 (by decide +kernel)).trans ((hkeepH1 m c main_arg2 (by decide +kernel)).trans ((hkeep0 m c main_arg2 (by decide +kernel)).trans (hkeepH0 m c main_arg2 (by decide +kernel))))))))]
  have ew2 : U9 m c main_v113 = (matSlice (F := Ideal) ![2, 0, 0] Cert.ReferenceIdeal.Gen.slices_S4x128x128_S1x128x128_2_0_0 (V0 m c main_arg3)) := by
    show StableHlo.after hostOps4 (U8 m c) main_v113 = _
    rw [s4_w2, (hkeep3 m c main_arg3 (by decide +kernel)).trans ((hkeepH3 m c main_arg3 (by decide +kernel)).trans ((hkeep2 m c main_arg3 (by decide +kernel)).trans ((hkeepH2 m c main_arg3 (by decide +kernel)).trans ((hkeep1 m c main_arg3 (by decide +kernel)).trans ((hkeepH1 m c main_arg3 (by decide +kernel)).trans ((hkeep0 m c main_arg3 (by decide +kernel)).trans (hkeepH0 m c main_arg3 (by decide +kernel))))))))]
  have eb2 : U9 m c main_v117 = row (F := Ideal) (vecSlice (F := Ideal) ![2, 0] Cert.ReferenceIdeal.Gen.slices_S4x128_S1x128_2_0 (V0 m c main_arg4)) := by
    show StableHlo.after hostOps4 (U8 m c) main_v117 = _
    rw [s4_b2, (hkeep3 m c main_arg4 (by decide +kernel)).trans ((hkeepH3 m c main_arg4 (by decide +kernel)).trans ((hkeep2 m c main_arg4 (by decide +kernel)).trans ((hkeepH2 m c main_arg4 (by decide +kernel)).trans ((hkeep1 m c main_arg4 (by decide +kernel)).trans ((hkeepH1 m c main_arg4 (by decide +kernel)).trans ((hkeep0 m c main_arg4 (by decide +kernel)).trans (hkeepH0 m c main_arg4 (by decide +kernel))))))))]
  -- the first kernel's three outputs
  have ez : U10 m c main_v118_0 = (Cert.SpecB.mlpZ (preRef (F := Ideal) (Net.netH1 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![2] Cert.ReferenceIdeal.Gen.slices_S4_S1_2 (V0 m c main_arg7)) (srcIdx (F := Ideal) (V0 m c main_arg22)) (dstIdx (F := Ideal) (V0 m c main_arg22))) (matSlice (F := Ideal) ![2, 0, 0] Cert.ReferenceIdeal.Gen.slices_S4x128x128_S1x128x128_2_0_0 (V0 m c main_arg1)) (row (F := Ideal) (vecSlice (F := Ideal) ![2, 0] Cert.ReferenceIdeal.Gen.slices_S4x128_S1x128_2_0 (V0 m c main_arg2))) (matSlice (F := Ideal) ![2, 0, 0] Cert.ReferenceIdeal.Gen.slices_S4x128x128_S1x128x128_2_0_0 (V0 m c main_arg3)) (row (F := Ideal) (vecSlice (F := Ideal) ![2, 0] Cert.ReferenceIdeal.Gen.slices_S4x128_S1x128_2_0 (V0 m c main_arg4)))) := by
    rw [U10_v118_0 m c, final4_5]
    show Cert.SpecB.mlpZ (U9 m c main_v107) (U9 m c main_v109) (U9 m c main_v116) (U9 m c main_v113) (U9 m c main_v117) = _
    rw [ezin, ew1, eb1, ew2, eb2]
  have es : U10 m c main_v118_1 = Cert.SpecB.colSum (Cert.SpecB.mlpZ (preRef (F := Ideal) (Net.netH1 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![2] Cert.ReferenceIdeal.Gen.slices_S4_S1_2 (V0 m c main_arg7)) (srcIdx (F := Ideal) (V0 m c main_arg22)) (dstIdx (F := Ideal) (V0 m c main_arg22))) (matSlice (F := Ideal) ![2, 0, 0] Cert.ReferenceIdeal.Gen.slices_S4x128x128_S1x128x128_2_0_0 (V0 m c main_arg1)) (row (F := Ideal) (vecSlice (F := Ideal) ![2, 0] Cert.ReferenceIdeal.Gen.slices_S4x128_S1x128_2_0 (V0 m c main_arg2))) (matSlice (F := Ideal) ![2, 0, 0] Cert.ReferenceIdeal.Gen.slices_S4x128x128_S1x128x128_2_0_0 (V0 m c main_arg3)) (row (F := Ideal) (vecSlice (F := Ideal) ![2, 0] Cert.ReferenceIdeal.Gen.slices_S4x128_S1x128_2_0 (V0 m c main_arg4)))) := by
    rw [U10_v118_1 m c, final4_6]
    show Cert.SpecB.colSum (Cert.SpecB.mlpZ (U9 m c main_v107) (U9 m c main_v109) (U9 m c main_v116) (U9 m c main_v113) (U9 m c main_v117)) = _
    rw [ezin, ew1, eb1, ew2, eb2]
  have ess : U10 m c main_v118_2 = Cert.SpecB.colSumSq (Cert.SpecB.mlpZ (preRef (F := Ideal) (Net.netH1 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![2] Cert.ReferenceIdeal.Gen.slices_S4_S1_2 (V0 m c main_arg7)) (srcIdx (F := Ideal) (V0 m c main_arg22)) (dstIdx (F := Ideal) (V0 m c main_arg22))) (matSlice (F := Ideal) ![2, 0, 0] Cert.ReferenceIdeal.Gen.slices_S4x128x128_S1x128x128_2_0_0 (V0 m c main_arg1)) (row (F := Ideal) (vecSlice (F := Ideal) ![2, 0] Cert.ReferenceIdeal.Gen.slices_S4x128_S1x128_2_0 (V0 m c main_arg2))) (matSlice (F := Ideal) ![2, 0, 0] Cert.ReferenceIdeal.Gen.slices_S4x128x128_S1x128x128_2_0_0 (V0 m c main_arg3)) (row (F := Ideal) (vecSlice (F := Ideal) ![2, 0] Cert.ReferenceIdeal.Gen.slices_S4x128_S1x128_2_0 (V0 m c main_arg4)))) := by
    rw [U10_v118_2 m c, final4_7]
    show Cert.SpecB.colSumSq (Cert.SpecB.mlpZ (U9 m c main_v107) (U9 m c main_v109) (U9 m c main_v116) (U9 m c main_v113) (U9 m c main_v117)) = _
    rw [ezin, ew1, eb1, ew2, eb2]
  -- the host stretch between the two kernels
  have emu : U11 m c main_v131 = row (F := Ideal) (muK (F := Ideal) (Cert.SpecB.colSum (Cert.SpecB.mlpZ (preRef (F := Ideal) (Net.netH1 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![2] Cert.ReferenceIdeal.Gen.slices_S4_S1_2 (V0 m c main_arg7)) (srcIdx (F := Ideal) (V0 m c main_arg22)) (dstIdx (F := Ideal) (V0 m c main_arg22))) (matSlice (F := Ideal) ![2, 0, 0] Cert.ReferenceIdeal.Gen.slices_S4x128x128_S1x128x128_2_0_0 (V0 m c main_arg1)) (row (F := Ideal) (vecSlice (F := Ideal) ![2, 0] Cert.ReferenceIdeal.Gen.slices_S4x128_S1x128_2_0 (V0 m c main_arg2))) (matSlice (F := Ideal) ![2, 0, 0] Cert.ReferenceIdeal.Gen.slices_S4x128x128_S1x128x128_2_0_0 (V0 m c main_arg3)) (row (F := Ideal) (vecSlice (F := Ideal) ![2, 0] Cert.ReferenceIdeal.Gen.slices_S4x128_S1x128_2_0 (V0 m c main_arg4)))))) := by
    show StableHlo.after hostOps5 (U10 m c) main_v131 = _
    rw [s5_mu, es]
  have evar : U11 m c main_v132 = row (F := Ideal) (varK (F := Ideal) (Cert.SpecB.colSum (Cert.SpecB.mlpZ (preRef (F := Ideal) (Net.netH1 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![2] Cert.ReferenceIdeal.Gen.slices_S4_S1_2 (V0 m c main_arg7)) (srcIdx (F := Ideal) (V0 m c main_arg22)) (dstIdx (F := Ideal) (V0 m c main_arg22))) (matSlice (F := Ideal) ![2, 0, 0] Cert.ReferenceIdeal.Gen.slices_S4x128x128_S1x128x128_2_0_0 (V0 m c main_arg1)) (row (F := Ideal) (vecSlice (F := Ideal) ![2, 0] Cert.ReferenceIdeal.Gen.slices_S4x128_S1x128_2_0 (V0 m c main_arg2))) (matSlice (F := Ideal) ![2, 0, 0] Cert.ReferenceIdeal.Gen.slices_S4x128x128_S1x128x128_2_0_0 (V0 m c main_arg3)) (row (F := Ideal) (vecSlice (F := Ideal) ![2, 0] Cert.ReferenceIdeal.Gen.slices_S4x128_S1x128_2_0 (V0 m c main_arg4))))) (Cert.SpecB.colSumSq (Cert.SpecB.mlpZ (preRef (F := Ideal) (Net.netH1 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![2] Cert.ReferenceIdeal.Gen.slices_S4_S1_2 (V0 m c main_arg7)) (srcIdx (F := Ideal) (V0 m c main_arg22)) (dstIdx (F := Ideal) (V0 m c main_arg22))) (matSlice (F := Ideal) ![2, 0, 0] Cert.ReferenceIdeal.Gen.slices_S4x128x128_S1x128x128_2_0_0 (V0 m c main_arg1)) (row (F := Ideal) (vecSlice (F := Ideal) ![2, 0] Cert.ReferenceIdeal.Gen.slices_S4x128_S1x128_2_0 (V0 m c main_arg2))) (matSlice (F := Ideal) ![2, 0, 0] Cert.ReferenceIdeal.Gen.slices_S4x128x128_S1x128x128_2_0_0 (V0 m c main_arg3)) (row (F := Ideal) (vecSlice (F := Ideal) ![2, 0] Cert.ReferenceIdeal.Gen.slices_S4x128_S1x128_2_0 (V0 m c main_arg4)))))) := by
    show StableHlo.after hostOps5 (U10 m c) main_v132 = _
    rw [s5_var, es, ess]
  have eg : U11 m c main_v133 = row (F := Ideal) (vecSlice (F := Ideal) ![2, 0] Cert.ReferenceIdeal.Gen.slices_S4x128_S1x128_2_0 (V0 m c main_arg5)) := by
    show StableHlo.after hostOps5 (U10 m c) main_v133 = _
    rw [s5_g, (hkeep4 m c main_arg5 (by decide +kernel)).trans ((hkeepH4 m c main_arg5 (by decide +kernel)).trans ((hkeep3 m c main_arg5 (by decide +kernel)).trans ((hkeepH3 m c main_arg5 (by decide +kernel)).trans ((hkeep2 m c main_arg5 (by decide +kernel)).trans ((hkeepH2 m c main_arg5 (by decide +kernel)).trans ((hkeep1 m c main_arg5 (by decide +kernel)).trans ((hkeepH1 m c main_arg5 (by decide +kernel)).trans ((hkeep0 m c main_arg5 (by decide +kernel)).trans (hkeepH0 m c main_arg5 (by decide +kernel))))))))))]
  have ebe : U11 m c main_v134 = row (F := Ideal) (vecSlice (F := Ideal) ![2, 0] Cert.ReferenceIdeal.Gen.slices_S4x128_S1x128_2_0 (V0 m c main_arg6)) := by
    show StableHlo.after hostOps5 (U10 m c) main_v134 = _
    rw [s5_be, (hkeep4 m c main_arg6 (by decide +kernel)).trans ((hkeepH4 m c main_arg6 (by decide +kernel)).trans ((hkeep3 m c main_arg6 (by decide +kernel)).trans ((hkeepH3 m c main_arg6 (by decide +kernel)).trans ((hkeep2 m c main_arg6 (by decide +kernel)).trans ((hkeepH2 m c main_arg6 (by decide +kernel)).trans ((hkeep1 m c main_arg6 (by decide +kernel)).trans ((hkeepH1 m c main_arg6 (by decide +kernel)).trans ((hkeep0 m c main_arg6 (by decide +kernel)).trans (hkeepH0 m c main_arg6 (by decide +kernel))))))))))]
  have ez' : U11 m c main_v118_0 = (Cert.SpecB.mlpZ (preRef (F := Ideal) (Net.netH1 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![2] Cert.ReferenceIdeal.Gen.slices_S4_S1_2 (V0 m c main_arg7)) (srcIdx (F := Ideal) (V0 m c main_arg22)) (dstIdx (F := Ideal) (V0 m c main_arg22))) (matSlice (F := Ideal) ![2, 0, 0] Cert.ReferenceIdeal.Gen.slices_S4x128x128_S1x128x128_2_0_0 (V0 m c main_arg1)) (row (F := Ideal) (vecSlice (F := Ideal) ![2, 0] Cert.ReferenceIdeal.Gen.slices_S4x128_S1x128_2_0 (V0 m c main_arg2))) (matSlice (F := Ideal) ![2, 0, 0] Cert.ReferenceIdeal.Gen.slices_S4x128x128_S1x128x128_2_0_0 (V0 m c main_arg3)) (row (F := Ideal) (vecSlice (F := Ideal) ![2, 0] Cert.ReferenceIdeal.Gen.slices_S4x128_S1x128_2_0 (V0 m c main_arg4)))) := (hkeepH5 m c main_v118_0 (by decide +kernel)).trans ez
  -- the second kernel
  rw [U12_v135 m c, final5]
  show Cert.SpecA.bnFn (U11 m c main_v118_0) (U11 m c main_v131) (U11 m c main_v132) (U11 m c main_v133) (U11 m c main_v134) = _
  rw [ez', emu, evar, eg, ebe]
  exact Bridge.layer_of (Net.netH1 (F := Ideal) (V0 m c main_arg0) (V0 m c main_arg1) (V0 m c main_arg2) (V0 m c main_arg3) (V0 m c main_arg4) (V0 m c main_arg5) (V0 m c main_arg6) (V0 m c main_arg7) (V0 m c main_arg22)) (matSlice (F := Ideal) ![2, 0, 0] Cert.ReferenceIdeal.Gen.slices_S4x128x128_S1x128x128_2_0_0 (V0 m c main_arg1)) (vecSlice (F := Ideal) ![2, 0] Cert.ReferenceIdeal.Gen.slices_S4x128_S1x128_2_0 (V0 m c main_arg2)) (matSlice (F := Ideal) ![2, 0, 0] Cert.ReferenceIdeal.Gen.slices_S4x128x128_S1x128x128_2_0_0 (V0 m c main_arg3)) (vecSlice (F := Ideal) ![2, 0] Cert.ReferenceIdeal.Gen.slices_S4x128_S1x128_2_0 (V0 m c main_arg4)) (vecSlice (F := Ideal) ![2, 0] Cert.ReferenceIdeal.Gen.slices_S4x128_S1x128_2_0 (V0 m c main_arg5)) (vecSlice (F := Ideal) ![2, 0] Cert.ReferenceIdeal.Gen.slices_S4x128_S1x128_2_0 (V0 m c main_arg6)) (scalSlice (F := Ideal) ![2] Cert.ReferenceIdeal.Gen.slices_S4_S1_2 (V0 m c main_arg7)) (srcIdx (F := Ideal) (V0 m c main_arg22)) (dstIdx (F := Ideal) (V0 m c main_arg22))
    (Net.netH1_fin _ _ _ _ _ _ _ _ _ hfin.1 hfin.2.1 hfin.2.2.1 hfin.2.2.2.1 hfin.2.2.2.2.1 hfin.2.2.2.2.2.1 hfin.2.2.2.2.2.2.1 hfin.2.2.2.2.2.2.2.1)
    (matSlice_fin _ _ _ hfin.2.1) (vecSlice_fin _ _ _ hfin.2.2.1) (matSlice_fin _ _ _ hfin.2.2.2.1) (vecSlice_fin _ _ _ hfin.2.2.2.2.1)
    (scalSlice_fin _ _ _ hfin.2.2.2.2.2.2.2.1 _)

set_option maxHeartbeats 4000000 in
/-- Layer 3: what the second kernel of the layer leaves is the network's layer-3 output. -/
theorem layer3_val : U16 m c main_v179 = Net.netH3 (F := Ideal) (V0 m c main_arg0) (V0 m c main_arg1) (V0 m c main_arg2) (V0 m c main_arg3) (V0 m c main_arg4) (V0 m c main_arg5) (V0 m c main_arg6) (V0 m c main_arg7) (V0 m c main_arg22) := by
  -- the host stretch before the first kernel
  have ezin : U13 m c main_v151 = (preRef (F := Ideal) (Net.netH2 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![3] Cert.ReferenceIdeal.Gen.slices_S4_S1_3 (V0 m c main_arg7)) (srcIdx (F := Ideal) (V0 m c main_arg22)) (dstIdx (F := Ideal) (V0 m c main_arg22))) := by
    show StableHlo.after hostOps6 (U12 m c) main_v151 = _
    rw [s6_zin, (hkeep5 m c main_arg7 (by decide +kernel)).trans ((hkeepH5 m c main_arg7 (by decide +kernel)).trans ((hkeep4 m c main_arg7 (by decide +kernel)).trans ((hkeepH4 m c main_arg7 (by decide +kernel)).trans ((hkeep3 m c main_arg7 (by decide +kernel)).trans ((hkeepH3 m c main_arg7 (by decide +kernel)).trans ((hkeep2 m c main_arg7 (by decide +kernel)).trans ((hkeepH2 m c main_arg7 (by decide +kernel)).trans ((hkeep1 m c main_arg7 (by decide +kernel)).trans ((hkeepH1 m c main_arg7 (by decide +kernel)).trans ((hkeep0 m c main_arg7 (by decide +kernel)).trans (hkeepH0 m c main_arg7 (by decide +kernel)))))))))))), h_src12 m c, h_dst12 m c, layer2_val m c hfin]
  have ew1 : U13 m c main_v153 = (matSlice (F := Ideal) ![3, 0, 0] Cert.ReferenceIdeal.Gen.slices_S4x128x128_S1x128x128_3_0_0 (V0 m c main_arg1)) := by
    show StableHlo.after hostOps6 (U12 m c) main_v153 = _
    rw [s6_w1, (hkeep5 m c main_arg1 (by decide +kernel)).trans ((hkeepH5 m c main_arg1 (by decide +kernel)).trans ((hkeep4 m c main_arg1 (by decide +kernel)).trans ((hkeepH4 m c main_arg1 (by decide +kernel)).trans ((hkeep3 m c main_arg1 (by decide +kernel)).trans ((hkeepH3 m c main_arg1 (by decide +kernel)).trans ((hkeep2 m c main_arg1 (by decide +kernel)).trans ((hkeepH2 m c main_arg1 (by decide +kernel)).trans ((hkeep1 m c main_arg1 (by decide +kernel)).trans ((hkeepH1 m c main_arg1 (by decide +kernel)).trans ((hkeep0 m c main_arg1 (by decide +kernel)).trans (hkeepH0 m c main_arg1 (by decide +kernel))))))))))))]
  have eb1 : U13 m c main_v160 = row (F := Ideal) (vecSlice (F := Ideal) ![3, 0] Cert.ReferenceIdeal.Gen.slices_S4x128_S1x128_3_0 (V0 m c main_arg2)) := by
    show StableHlo.after hostOps6 (U12 m c) main_v160 = _
    rw [s6_b1, (hkeep5 m c main_arg2 (by decide +kernel)).trans ((hkeepH5 m c main_arg2 (by decide +kernel)).trans ((hkeep4 m c main_arg2 (by decide +kernel)).trans ((hkeepH4 m c main_arg2 (by decide +kernel)).trans ((hkeep3 m c main_arg2 (by decide +kernel)).trans ((hkeepH3 m c main_arg2 (by decide +kernel)).trans ((hkeep2 m c main_arg2 (by decide +kernel)).trans ((hkeepH2 m c main_arg2 (by decide +kernel)).trans ((hkeep1 m c main_arg2 (by decide +kernel)).trans ((hkeepH1 m c main_arg2 (by decide +kernel)).trans ((hkeep0 m c main_arg2 (by decide +kernel)).trans (hkeepH0 m c main_arg2 (by decide +kernel))))))))))))]
  have ew2 : U13 m c main_v157 = (matSlice (F := Ideal) ![3, 0, 0] Cert.ReferenceIdeal.Gen.slices_S4x128x128_S1x128x128_3_0_0 (V0 m c main_arg3)) := by
    show StableHlo.after hostOps6 (U12 m c) main_v157 = _
    rw [s6_w2, (hkeep5 m c main_arg3 (by decide +kernel)).trans ((hkeepH5 m c main_arg3 (by decide +kernel)).trans ((hkeep4 m c main_arg3 (by decide +kernel)).trans ((hkeepH4 m c main_arg3 (by decide +kernel)).trans ((hkeep3 m c main_arg3 (by decide +kernel)).trans ((hkeepH3 m c main_arg3 (by decide +kernel)).trans ((hkeep2 m c main_arg3 (by decide +kernel)).trans ((hkeepH2 m c main_arg3 (by decide +kernel)).trans ((hkeep1 m c main_arg3 (by decide +kernel)).trans ((hkeepH1 m c main_arg3 (by decide +kernel)).trans ((hkeep0 m c main_arg3 (by decide +kernel)).trans (hkeepH0 m c main_arg3 (by decide +kernel))))))))))))]
  have eb2 : U13 m c main_v161 = row (F := Ideal) (vecSlice (F := Ideal) ![3, 0] Cert.ReferenceIdeal.Gen.slices_S4x128_S1x128_3_0 (V0 m c main_arg4)) := by
    show StableHlo.after hostOps6 (U12 m c) main_v161 = _
    rw [s6_b2, (hkeep5 m c main_arg4 (by decide +kernel)).trans ((hkeepH5 m c main_arg4 (by decide +kernel)).trans ((hkeep4 m c main_arg4 (by decide +kernel)).trans ((hkeepH4 m c main_arg4 (by decide +kernel)).trans ((hkeep3 m c main_arg4 (by decide +kernel)).trans ((hkeepH3 m c main_arg4 (by decide +kernel)).trans ((hkeep2 m c main_arg4 (by decide +kernel)).trans ((hkeepH2 m c main_arg4 (by decide +kernel)).trans ((hkeep1 m c main_arg4 (by decide +kernel)).trans ((hkeepH1 m c main_arg4 (by decide +kernel)).trans ((hkeep0 m c main_arg4 (by decide +kernel)).trans (hkeepH0 m c main_arg4 (by decide +kernel))))))))))))]
  -- the first kernel's three outputs
  have ez : U14 m c main_v162_0 = (Cert.SpecB.mlpZ (preRef (F := Ideal) (Net.netH2 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![3] Cert.ReferenceIdeal.Gen.slices_S4_S1_3 (V0 m c main_arg7)) (srcIdx (F := Ideal) (V0 m c main_arg22)) (dstIdx (F := Ideal) (V0 m c main_arg22))) (matSlice (F := Ideal) ![3, 0, 0] Cert.ReferenceIdeal.Gen.slices_S4x128x128_S1x128x128_3_0_0 (V0 m c main_arg1)) (row (F := Ideal) (vecSlice (F := Ideal) ![3, 0] Cert.ReferenceIdeal.Gen.slices_S4x128_S1x128_3_0 (V0 m c main_arg2))) (matSlice (F := Ideal) ![3, 0, 0] Cert.ReferenceIdeal.Gen.slices_S4x128x128_S1x128x128_3_0_0 (V0 m c main_arg3)) (row (F := Ideal) (vecSlice (F := Ideal) ![3, 0] Cert.ReferenceIdeal.Gen.slices_S4x128_S1x128_3_0 (V0 m c main_arg4)))) := by
    rw [U14_v162_0 m c, final6_5]
    show Cert.SpecB.mlpZ (U13 m c main_v151) (U13 m c main_v153) (U13 m c main_v160) (U13 m c main_v157) (U13 m c main_v161) = _
    rw [ezin, ew1, eb1, ew2, eb2]
  have es : U14 m c main_v162_1 = Cert.SpecB.colSum (Cert.SpecB.mlpZ (preRef (F := Ideal) (Net.netH2 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![3] Cert.ReferenceIdeal.Gen.slices_S4_S1_3 (V0 m c main_arg7)) (srcIdx (F := Ideal) (V0 m c main_arg22)) (dstIdx (F := Ideal) (V0 m c main_arg22))) (matSlice (F := Ideal) ![3, 0, 0] Cert.ReferenceIdeal.Gen.slices_S4x128x128_S1x128x128_3_0_0 (V0 m c main_arg1)) (row (F := Ideal) (vecSlice (F := Ideal) ![3, 0] Cert.ReferenceIdeal.Gen.slices_S4x128_S1x128_3_0 (V0 m c main_arg2))) (matSlice (F := Ideal) ![3, 0, 0] Cert.ReferenceIdeal.Gen.slices_S4x128x128_S1x128x128_3_0_0 (V0 m c main_arg3)) (row (F := Ideal) (vecSlice (F := Ideal) ![3, 0] Cert.ReferenceIdeal.Gen.slices_S4x128_S1x128_3_0 (V0 m c main_arg4)))) := by
    rw [U14_v162_1 m c, final6_6]
    show Cert.SpecB.colSum (Cert.SpecB.mlpZ (U13 m c main_v151) (U13 m c main_v153) (U13 m c main_v160) (U13 m c main_v157) (U13 m c main_v161)) = _
    rw [ezin, ew1, eb1, ew2, eb2]
  have ess : U14 m c main_v162_2 = Cert.SpecB.colSumSq (Cert.SpecB.mlpZ (preRef (F := Ideal) (Net.netH2 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![3] Cert.ReferenceIdeal.Gen.slices_S4_S1_3 (V0 m c main_arg7)) (srcIdx (F := Ideal) (V0 m c main_arg22)) (dstIdx (F := Ideal) (V0 m c main_arg22))) (matSlice (F := Ideal) ![3, 0, 0] Cert.ReferenceIdeal.Gen.slices_S4x128x128_S1x128x128_3_0_0 (V0 m c main_arg1)) (row (F := Ideal) (vecSlice (F := Ideal) ![3, 0] Cert.ReferenceIdeal.Gen.slices_S4x128_S1x128_3_0 (V0 m c main_arg2))) (matSlice (F := Ideal) ![3, 0, 0] Cert.ReferenceIdeal.Gen.slices_S4x128x128_S1x128x128_3_0_0 (V0 m c main_arg3)) (row (F := Ideal) (vecSlice (F := Ideal) ![3, 0] Cert.ReferenceIdeal.Gen.slices_S4x128_S1x128_3_0 (V0 m c main_arg4)))) := by
    rw [U14_v162_2 m c, final6_7]
    show Cert.SpecB.colSumSq (Cert.SpecB.mlpZ (U13 m c main_v151) (U13 m c main_v153) (U13 m c main_v160) (U13 m c main_v157) (U13 m c main_v161)) = _
    rw [ezin, ew1, eb1, ew2, eb2]
  -- the host stretch between the two kernels
  have emu : U15 m c main_v175 = row (F := Ideal) (muK (F := Ideal) (Cert.SpecB.colSum (Cert.SpecB.mlpZ (preRef (F := Ideal) (Net.netH2 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![3] Cert.ReferenceIdeal.Gen.slices_S4_S1_3 (V0 m c main_arg7)) (srcIdx (F := Ideal) (V0 m c main_arg22)) (dstIdx (F := Ideal) (V0 m c main_arg22))) (matSlice (F := Ideal) ![3, 0, 0] Cert.ReferenceIdeal.Gen.slices_S4x128x128_S1x128x128_3_0_0 (V0 m c main_arg1)) (row (F := Ideal) (vecSlice (F := Ideal) ![3, 0] Cert.ReferenceIdeal.Gen.slices_S4x128_S1x128_3_0 (V0 m c main_arg2))) (matSlice (F := Ideal) ![3, 0, 0] Cert.ReferenceIdeal.Gen.slices_S4x128x128_S1x128x128_3_0_0 (V0 m c main_arg3)) (row (F := Ideal) (vecSlice (F := Ideal) ![3, 0] Cert.ReferenceIdeal.Gen.slices_S4x128_S1x128_3_0 (V0 m c main_arg4)))))) := by
    show StableHlo.after hostOps7 (U14 m c) main_v175 = _
    rw [s7_mu, es]
  have evar : U15 m c main_v176 = row (F := Ideal) (varK (F := Ideal) (Cert.SpecB.colSum (Cert.SpecB.mlpZ (preRef (F := Ideal) (Net.netH2 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![3] Cert.ReferenceIdeal.Gen.slices_S4_S1_3 (V0 m c main_arg7)) (srcIdx (F := Ideal) (V0 m c main_arg22)) (dstIdx (F := Ideal) (V0 m c main_arg22))) (matSlice (F := Ideal) ![3, 0, 0] Cert.ReferenceIdeal.Gen.slices_S4x128x128_S1x128x128_3_0_0 (V0 m c main_arg1)) (row (F := Ideal) (vecSlice (F := Ideal) ![3, 0] Cert.ReferenceIdeal.Gen.slices_S4x128_S1x128_3_0 (V0 m c main_arg2))) (matSlice (F := Ideal) ![3, 0, 0] Cert.ReferenceIdeal.Gen.slices_S4x128x128_S1x128x128_3_0_0 (V0 m c main_arg3)) (row (F := Ideal) (vecSlice (F := Ideal) ![3, 0] Cert.ReferenceIdeal.Gen.slices_S4x128_S1x128_3_0 (V0 m c main_arg4))))) (Cert.SpecB.colSumSq (Cert.SpecB.mlpZ (preRef (F := Ideal) (Net.netH2 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![3] Cert.ReferenceIdeal.Gen.slices_S4_S1_3 (V0 m c main_arg7)) (srcIdx (F := Ideal) (V0 m c main_arg22)) (dstIdx (F := Ideal) (V0 m c main_arg22))) (matSlice (F := Ideal) ![3, 0, 0] Cert.ReferenceIdeal.Gen.slices_S4x128x128_S1x128x128_3_0_0 (V0 m c main_arg1)) (row (F := Ideal) (vecSlice (F := Ideal) ![3, 0] Cert.ReferenceIdeal.Gen.slices_S4x128_S1x128_3_0 (V0 m c main_arg2))) (matSlice (F := Ideal) ![3, 0, 0] Cert.ReferenceIdeal.Gen.slices_S4x128x128_S1x128x128_3_0_0 (V0 m c main_arg3)) (row (F := Ideal) (vecSlice (F := Ideal) ![3, 0] Cert.ReferenceIdeal.Gen.slices_S4x128_S1x128_3_0 (V0 m c main_arg4)))))) := by
    show StableHlo.after hostOps7 (U14 m c) main_v176 = _
    rw [s7_var, es, ess]
  have eg : U15 m c main_v177 = row (F := Ideal) (vecSlice (F := Ideal) ![3, 0] Cert.ReferenceIdeal.Gen.slices_S4x128_S1x128_3_0 (V0 m c main_arg5)) := by
    show StableHlo.after hostOps7 (U14 m c) main_v177 = _
    rw [s7_g, (hkeep6 m c main_arg5 (by decide +kernel)).trans ((hkeepH6 m c main_arg5 (by decide +kernel)).trans ((hkeep5 m c main_arg5 (by decide +kernel)).trans ((hkeepH5 m c main_arg5 (by decide +kernel)).trans ((hkeep4 m c main_arg5 (by decide +kernel)).trans ((hkeepH4 m c main_arg5 (by decide +kernel)).trans ((hkeep3 m c main_arg5 (by decide +kernel)).trans ((hkeepH3 m c main_arg5 (by decide +kernel)).trans ((hkeep2 m c main_arg5 (by decide +kernel)).trans ((hkeepH2 m c main_arg5 (by decide +kernel)).trans ((hkeep1 m c main_arg5 (by decide +kernel)).trans ((hkeepH1 m c main_arg5 (by decide +kernel)).trans ((hkeep0 m c main_arg5 (by decide +kernel)).trans (hkeepH0 m c main_arg5 (by decide +kernel))))))))))))))]
  have ebe : U15 m c main_v178 = row (F := Ideal) (vecSlice (F := Ideal) ![3, 0] Cert.ReferenceIdeal.Gen.slices_S4x128_S1x128_3_0 (V0 m c main_arg6)) := by
    show StableHlo.after hostOps7 (U14 m c) main_v178 = _
    rw [s7_be, (hkeep6 m c main_arg6 (by decide +kernel)).trans ((hkeepH6 m c main_arg6 (by decide +kernel)).trans ((hkeep5 m c main_arg6 (by decide +kernel)).trans ((hkeepH5 m c main_arg6 (by decide +kernel)).trans ((hkeep4 m c main_arg6 (by decide +kernel)).trans ((hkeepH4 m c main_arg6 (by decide +kernel)).trans ((hkeep3 m c main_arg6 (by decide +kernel)).trans ((hkeepH3 m c main_arg6 (by decide +kernel)).trans ((hkeep2 m c main_arg6 (by decide +kernel)).trans ((hkeepH2 m c main_arg6 (by decide +kernel)).trans ((hkeep1 m c main_arg6 (by decide +kernel)).trans ((hkeepH1 m c main_arg6 (by decide +kernel)).trans ((hkeep0 m c main_arg6 (by decide +kernel)).trans (hkeepH0 m c main_arg6 (by decide +kernel))))))))))))))]
  have ez' : U15 m c main_v162_0 = (Cert.SpecB.mlpZ (preRef (F := Ideal) (Net.netH2 (F := Ideal) (V0 m c main_arg0) (V0 m c main_arg1) (V0 m c main_arg2) (V0 m c main_arg3) (V0 m c main_arg4) (V0 m c main_arg5) (V0 m c main_arg6) (V0 m c main_arg7) (V0 m c main_arg22)) (scalSlice (F := Ideal) ![3] Cert.ReferenceIdeal.Gen.slices_S4_S1_3 (V0 m c main_arg7)) (srcIdx (F := Ideal) (V0 m c main_arg22)) (dstIdx (F := Ideal) (V0 m c main_arg22))) (matSlice (F := Ideal) ![3, 0, 0] Cert.ReferenceIdeal.Gen.slices_S4x128x128_S1x128x128_3_0_0 (V0 m c main_arg1)) (row (F := Ideal) (vecSlice (F := Ideal) ![3, 0] Cert.ReferenceIdeal.Gen.slices_S4x128_S1x128_3_0 (V0 m c main_arg2))) (matSlice (F := Ideal) ![3, 0, 0] Cert.ReferenceIdeal.Gen.slices_S4x128x128_S1x128x128_3_0_0 (V0 m c main_arg3)) (row (F := Ideal) (vecSlice (F := Ideal) ![3, 0] Cert.ReferenceIdeal.Gen.slices_S4x128_S1x128_3_0 (V0 m c main_arg4)))) := (hkeepH7 m c main_v162_0 (by decide +kernel)).trans ez
  -- the second kernel
  rw [U16_v179 m c, final7]
  show Cert.SpecA.bnFn (U15 m c main_v162_0) (U15 m c main_v175) (U15 m c main_v176) (U15 m c main_v177) (U15 m c main_v178) = _
  rw [ez', emu, evar, eg, ebe]
  exact Bridge.layer_of (Net.netH2 (F := Ideal) (V0 m c main_arg0) (V0 m c main_arg1) (V0 m c main_arg2) (V0 m c main_arg3) (V0 m c main_arg4) (V0 m c main_arg5) (V0 m c main_arg6) (V0 m c main_arg7) (V0 m c main_arg22)) (matSlice (F := Ideal) ![3, 0, 0] Cert.ReferenceIdeal.Gen.slices_S4x128x128_S1x128x128_3_0_0 (V0 m c main_arg1)) (vecSlice (F := Ideal) ![3, 0] Cert.ReferenceIdeal.Gen.slices_S4x128_S1x128_3_0 (V0 m c main_arg2)) (matSlice (F := Ideal) ![3, 0, 0] Cert.ReferenceIdeal.Gen.slices_S4x128x128_S1x128x128_3_0_0 (V0 m c main_arg3)) (vecSlice (F := Ideal) ![3, 0] Cert.ReferenceIdeal.Gen.slices_S4x128_S1x128_3_0 (V0 m c main_arg4)) (vecSlice (F := Ideal) ![3, 0] Cert.ReferenceIdeal.Gen.slices_S4x128_S1x128_3_0 (V0 m c main_arg5)) (vecSlice (F := Ideal) ![3, 0] Cert.ReferenceIdeal.Gen.slices_S4x128_S1x128_3_0 (V0 m c main_arg6)) (scalSlice (F := Ideal) ![3] Cert.ReferenceIdeal.Gen.slices_S4_S1_3 (V0 m c main_arg7)) (srcIdx (F := Ideal) (V0 m c main_arg22)) (dstIdx (F := Ideal) (V0 m c main_arg22))
    (Net.netH2_fin _ _ _ _ _ _ _ _ _ hfin.1 hfin.2.1 hfin.2.2.1 hfin.2.2.2.1 hfin.2.2.2.2.1 hfin.2.2.2.2.2.1 hfin.2.2.2.2.2.2.1 hfin.2.2.2.2.2.2.2.1)
    (matSlice_fin _ _ _ hfin.2.1) (vecSlice_fin _ _ _ hfin.2.2.1) (matSlice_fin _ _ _ hfin.2.2.2.1) (vecSlice_fin _ _ _ hfin.2.2.2.2.1)
    (scalSlice_fin _ _ _ hfin.2.2.2.2.2.2.2.1 _)

/-- The node embedding the classifier's stretch forms is the network's. -/
theorem emb_val : U17 m c main_v180 = Net.netEmb (F := Ideal) (V0 m c main_arg0) (V0 m c main_arg1) (V0 m c main_arg2) (V0 m c main_arg3) (V0 m c main_arg4) (V0 m c main_arg5) (V0 m c main_arg6) (V0 m c main_arg7) (V0 m c main_arg22) := by
  show StableHlo.after hostOps8 (U16 m c) main_v180 = _
  rw [s8_emb, ((hkeep7 m c main_v47 (by decide +kernel)).trans ((hkeepH7 m c main_v47 (by decide +kernel)).trans ((hkeep6 m c main_v47 (by decide +kernel)).trans ((hkeepH6 m c main_v47 (by decide +kernel)).trans ((hkeep5 m c main_v47 (by decide +kernel)).trans ((hkeepH5 m c main_v47 (by decide +kernel)).trans ((hkeep4 m c main_v47 (by decide +kernel)).trans ((hkeepH4 m c main_v47 (by decide +kernel)).trans ((hkeep3 m c main_v47 (by decide +kernel)).trans ((hkeepH3 m c main_v47 (by decide +kernel)).trans ((hkeep2 m c main_v47 (by decide +kernel)).trans (hkeepH2 m c main_v47 (by decide +kernel))))))))))))).trans (layer0_val m c hfin), ((hkeep7 m c main_v91 (by decide +kernel)).trans ((hkeepH7 m c main_v91 (by decide +kernel)).trans ((hkeep6 m c main_v91 (by decide +kernel)).trans ((hkeepH6 m c main_v91 (by decide +kernel)).trans ((hkeep5 m c main_v91 (by decide +kernel)).trans ((hkeepH5 m c main_v91 (by decide +kernel)).trans ((hkeep4 m c main_v91 (by decide +kernel)).trans (hkeepH4 m c main_v91 (by decide +kernel))))))))).trans (layer1_val m c hfin), ((hkeep7 m c main_v135 (by decide +kernel)).trans ((hkeepH7 m c main_v135 (by decide +kernel)).trans ((hkeep6 m c main_v135 (by decide +kernel)).trans (hkeepH6 m c main_v135 (by decide +kernel))))).trans (layer2_val m c hfin), layer3_val m c hfin]
  rfl

/-- The graph embedding likewise. -/
theorem gemb_val : U17 m c main_v191 = Net.netGemb (F := Ideal) (V0 m c main_arg0) (V0 m c main_arg1) (V0 m c main_arg2) (V0 m c main_arg3) (V0 m c main_arg4) (V0 m c main_arg5) (V0 m c main_arg6) (V0 m c main_arg7) (V0 m c main_arg22) (V0 m c main_arg23) := by
  show StableHlo.after hostOps8 (U16 m c) main_v191 = _
  rw [s8_gemb, ((hkeep7 m c main_v47 (by decide +kernel)).trans ((hkeepH7 m c main_v47 (by decide +kernel)).trans ((hkeep6 m c main_v47 (by decide +kernel)).trans ((hkeepH6 m c main_v47 (by decide +kernel)).trans ((hkeep5 m c main_v47 (by decide +kernel)).trans ((hkeepH5 m c main_v47 (by decide +kernel)).trans ((hkeep4 m c main_v47 (by decide +kernel)).trans ((hkeepH4 m c main_v47 (by decide +kernel)).trans ((hkeep3 m c main_v47 (by decide +kernel)).trans ((hkeepH3 m c main_v47 (by decide +kernel)).trans ((hkeep2 m c main_v47 (by decide +kernel)).trans (hkeepH2 m c main_v47 (by decide +kernel))))))))))))).trans (layer0_val m c hfin), ((hkeep7 m c main_v91 (by decide +kernel)).trans ((hkeepH7 m c main_v91 (by decide +kernel)).trans ((hkeep6 m c main_v91 (by decide +kernel)).trans ((hkeepH6 m c main_v91 (by decide +kernel)).trans ((hkeep5 m c main_v91 (by decide +kernel)).trans ((hkeepH5 m c main_v91 (by decide +kernel)).trans ((hkeep4 m c main_v91 (by decide +kernel)).trans (hkeepH4 m c main_v91 (by decide +kernel))))))))).trans (layer1_val m c hfin), ((hkeep7 m c main_v135 (by decide +kernel)).trans ((hkeepH7 m c main_v135 (by decide +kernel)).trans ((hkeep6 m c main_v135 (by decide +kernel)).trans (hkeepH6 m c main_v135 (by decide +kernel))))).trans (layer2_val m c hfin), layer3_val m c hfin, (hkeep7 m c main_arg23 (by decide +kernel)).trans ((hkeepH7 m c main_arg23 (by decide +kernel)).trans ((hkeep6 m c main_arg23 (by decide +kernel)).trans ((hkeepH6 m c main_arg23 (by decide +kernel)).trans ((hkeep5 m c main_arg23 (by decide +kernel)).trans ((hkeepH5 m c main_arg23 (by decide +kernel)).trans ((hkeep4 m c main_arg23 (by decide +kernel)).trans ((hkeepH4 m c main_arg23 (by decide +kernel)).trans ((hkeep3 m c main_arg23 (by decide +kernel)).trans ((hkeepH3 m c main_arg23 (by decide +kernel)).trans ((hkeep2 m c main_arg23 (by decide +kernel)).trans ((hkeepH2 m c main_arg23 (by decide +kernel)).trans ((hkeep1 m c main_arg23 (by decide +kernel)).trans ((hkeepH1 m c main_arg23 (by decide +kernel)).trans ((hkeep0 m c main_arg23 (by decide +kernel)).trans (hkeepH0 m c main_arg23 (by decide +kernel))))))))))))))))]
  rfl

set_option maxHeartbeats 4000000 in
/-- The first result: the classifier kernel's output is the network's table of class log-probabilities, given the
    classifier head's two readings agree. -/
theorem out0_val
    (hcls : ∀ (g : (⟨S64x512, .f32⟩ : BufTy).Contents (Elt Ideal)) (a8 : (⟨S512x256, .f32⟩ : BufTy).Contents (Elt Ideal)) (a9 : (⟨S256, .f32⟩ : BufTy).Contents (Elt Ideal)) (a10 : (⟨S256x128, .f32⟩ : BufTy).Contents (Elt Ideal)) (a11 : (⟨S128, .f32⟩ : BufTy).Contents (Elt Ideal))
      (a12 : (⟨S128x128, .f32⟩ : BufTy).Contents (Elt Ideal)) (a13 : (⟨S128, .f32⟩ : BufTy).Contents (Elt Ideal)) (a14 : (⟨S128x16, .f32⟩ : BufTy).Contents (Elt Ideal)) (a15 : (⟨S16, .f32⟩ : BufTy).Contents (Elt Ideal)),
      Cert.SpecA.clsFn g a8 (shapeCast S1x256 a9 shapeCasts_S256_S1x256) a10 (row (F := Ideal) a11) a12 (row (F := Ideal) a13) a14
          (shapeCast S1x16 a15 shapeCasts_S16_S1x16)
        = Cert.ReferenceIdeal.HandRun.clsRef (F := Ideal) g a8 a9 a10 a11 a12 a13 a14 a15) :
    U21 m c main_v196 = Net.netOut0 (F := Ideal) (V0 m c main_arg0) (V0 m c main_arg1) (V0 m c main_arg2) (V0 m c main_arg3) (V0 m c main_arg4) (V0 m c main_arg5) (V0 m c main_arg6) (V0 m c main_arg7) (V0 m c main_arg22) (V0 m c main_arg23) (V0 m c main_arg8) (V0 m c main_arg9) (V0 m c main_arg10) (V0 m c main_arg11) (V0 m c main_arg12) (V0 m c main_arg13) (V0 m c main_arg14) (V0 m c main_arg15) := by
  have eb1 : U17 m c main_v192 = shapeCast S1x256 (V0 m c main_arg9) shapeCasts_S256_S1x256 := by
    show StableHlo.after hostOps8 (U16 m c) main_v192 = _
    rw [s8_b1, (hkeep7 m c main_arg9 (by decide +kernel)).trans ((hkeepH7 m c main_arg9 (by decide +kernel)).trans ((hkeep6 m c main_arg9 (by decide +kernel)).trans ((hkeepH6 m c main_arg9 (by decide +kernel)).trans ((hkeep5 m c main_arg9 (by decide +kernel)).trans ((hkeepH5 m c main_arg9 (by decide +kernel)).trans ((hkeep4 m c main_arg9 (by decide +kernel)).trans ((hkeepH4 m c main_arg9 (by decide +kernel)).trans ((hkeep3 m c main_arg9 (by decide +kernel)).trans ((hkeepH3 m c main_arg9 (by decide +kernel)).trans ((hkeep2 m c main_arg9 (by decide +kernel)).trans ((hkeepH2 m c main_arg9 (by decide +kernel)).trans ((hkeep1 m c main_arg9 (by decide +kernel)).trans ((hkeepH1 m c main_arg9 (by decide +kernel)).trans ((hkeep0 m c main_arg9 (by decide +kernel)).trans (hkeepH0 m c main_arg9 (by decide +kernel))))))))))))))))]
  have eb2 : U17 m c main_v193 = row (F := Ideal) (V0 m c main_arg11) := by
    show StableHlo.after hostOps8 (U16 m c) main_v193 = _
    rw [s8_b2, (hkeep7 m c main_arg11 (by decide +kernel)).trans ((hkeepH7 m c main_arg11 (by decide +kernel)).trans ((hkeep6 m c main_arg11 (by decide +kernel)).trans ((hkeepH6 m c main_arg11 (by decide +kernel)).trans ((hkeep5 m c main_arg11 (by decide +kernel)).trans ((hkeepH5 m c main_arg11 (by decide +kernel)).trans ((hkeep4 m c main_arg11 (by decide +kernel)).trans ((hkeepH4 m c main_arg11 (by decide +kernel)).trans ((hkeep3 m c main_arg11 (by decide +kernel)).trans ((hkeepH3 m c main_arg11 (by decide +kernel)).trans ((hkeep2 m c main_arg11 (by decide +kernel)).trans ((hkeepH2 m c main_arg11 (by decide +kernel)).trans ((hkeep1 m c main_arg11 (by decide +kernel)).trans ((hkeepH1 m c main_arg11 (by decide +kernel)).trans ((hkeep0 m c main_arg11 (by decide +kernel)).trans (hkeepH0 m c main_arg11 (by decide +kernel))))))))))))))))]
  have eb3 : U17 m c main_v194 = row (F := Ideal) (V0 m c main_arg13) := by
    show StableHlo.after hostOps8 (U16 m c) main_v194 = _
    rw [s8_b3, (hkeep7 m c main_arg13 (by decide +kernel)).trans ((hkeepH7 m c main_arg13 (by decide +kernel)).trans ((hkeep6 m c main_arg13 (by decide +kernel)).trans ((hkeepH6 m c main_arg13 (by decide +kernel)).trans ((hkeep5 m c main_arg13 (by decide +kernel)).trans ((hkeepH5 m c main_arg13 (by decide +kernel)).trans ((hkeep4 m c main_arg13 (by decide +kernel)).trans ((hkeepH4 m c main_arg13 (by decide +kernel)).trans ((hkeep3 m c main_arg13 (by decide +kernel)).trans ((hkeepH3 m c main_arg13 (by decide +kernel)).trans ((hkeep2 m c main_arg13 (by decide +kernel)).trans ((hkeepH2 m c main_arg13 (by decide +kernel)).trans ((hkeep1 m c main_arg13 (by decide +kernel)).trans ((hkeepH1 m c main_arg13 (by decide +kernel)).trans ((hkeep0 m c main_arg13 (by decide +kernel)).trans (hkeepH0 m c main_arg13 (by decide +kernel))))))))))))))))]
  have eb4 : U17 m c main_v195 = shapeCast S1x16 (V0 m c main_arg15) shapeCasts_S16_S1x16 := by
    show StableHlo.after hostOps8 (U16 m c) main_v195 = _
    rw [s8_b4, (hkeep7 m c main_arg15 (by decide +kernel)).trans ((hkeepH7 m c main_arg15 (by decide +kernel)).trans ((hkeep6 m c main_arg15 (by decide +kernel)).trans ((hkeepH6 m c main_arg15 (by decide +kernel)).trans ((hkeep5 m c main_arg15 (by decide +kernel)).trans ((hkeepH5 m c main_arg15 (by decide +kernel)).trans ((hkeep4 m c main_arg15 (by decide +kernel)).trans ((hkeepH4 m c main_arg15 (by decide +kernel)).trans ((hkeep3 m c main_arg15 (by decide +kernel)).trans ((hkeepH3 m c main_arg15 (by decide +kernel)).trans ((hkeep2 m c main_arg15 (by decide +kernel)).trans ((hkeepH2 m c main_arg15 (by decide +kernel)).trans ((hkeep1 m c main_arg15 (by decide +kernel)).trans ((hkeepH1 m c main_arg15 (by decide +kernel)).trans ((hkeep0 m c main_arg15 (by decide +kernel)).trans (hkeepH0 m c main_arg15 (by decide +kernel))))))))))))))))]
  rw [(hkeepH10 m c main_v196 (by decide +kernel)).trans ((hkeep9 m c main_v196 (by decide +kernel)).trans (hkeepH9 m c main_v196 (by decide +kernel))), U18_v196 m c, final8]
  show Cert.SpecA.clsFn (U17 m c main_v191) (U17 m c main_arg8) (U17 m c main_v192) (U17 m c main_arg10) (U17 m c main_v193) (U17 m c main_arg12)
      (U17 m c main_v194) (U17 m c main_arg14) (U17 m c main_v195) = _
  rw [gemb_val m c hfin, eb1, eb2, eb3, eb4, (hkeepH8 m c main_arg8 (by decide +kernel)).trans ((hkeep7 m c main_arg8 (by decide +kernel)).trans ((hkeepH7 m c main_arg8 (by decide +kernel)).trans ((hkeep6 m c main_arg8 (by decide +kernel)).trans ((hkeepH6 m c main_arg8 (by decide +kernel)).trans ((hkeep5 m c main_arg8 (by decide +kernel)).trans ((hkeepH5 m c main_arg8 (by decide +kernel)).trans ((hkeep4 m c main_arg8 (by decide +kernel)).trans ((hkeepH4 m c main_arg8 (by decide +kernel)).trans ((hkeep3 m c main_arg8 (by decide +kernel)).trans ((hkeepH3 m c main_arg8 (by decide +kernel)).trans ((hkeep2 m c main_arg8 (by decide +kernel)).trans ((hkeepH2 m c main_arg8 (by decide +kernel)).trans ((hkeep1 m c main_arg8 (by decide +kernel)).trans ((hkeepH1 m c main_arg8 (by decide +kernel)).trans ((hkeep0 m c main_arg8 (by decide +kernel)).trans (hkeepH0 m c main_arg8 (by decide +kernel))))))))))))))))), (hkeepH8 m c main_arg10 (by decide +kernel)).trans ((hkeep7 m c main_arg10 (by decide +kernel)).trans ((hkeepH7 m c main_arg10 (by decide +kernel)).trans ((hkeep6 m c main_arg10 (by decide +kernel)).trans ((hkeepH6 m c main_arg10 (by decide +kernel)).trans ((hkeep5 m c main_arg10 (by decide +kernel)).trans ((hkeepH5 m c main_arg10 (by decide +kernel)).trans ((hkeep4 m c main_arg10 (by decide +kernel)).trans ((hkeepH4 m c main_arg10 (by decide +kernel)).trans ((hkeep3 m c main_arg10 (by decide +kernel)).trans ((hkeepH3 m c main_arg10 (by decide +kernel)).trans ((hkeep2 m c main_arg10 (by decide +kernel)).trans ((hkeepH2 m c main_arg10 (by decide +kernel)).trans ((hkeep1 m c main_arg10 (by decide +kernel)).trans ((hkeepH1 m c main_arg10 (by decide +kernel)).trans ((hkeep0 m c main_arg10 (by decide +kernel)).trans (hkeepH0 m c main_arg10 (by decide +kernel))))))))))))))))), (hkeepH8 m c main_arg12 (by decide +kernel)).trans ((hkeep7 m c main_arg12 (by decide +kernel)).trans ((hkeepH7 m c main_arg12 (by decide +kernel)).trans ((hkeep6 m c main_arg12 (by decide +kernel)).trans ((hkeepH6 m c main_arg12 (by decide +kernel)).trans ((hkeep5 m c main_arg12 (by decide +kernel)).trans ((hkeepH5 m c main_arg12 (by decide +kernel)).trans ((hkeep4 m c main_arg12 (by decide +kernel)).trans ((hkeepH4 m c main_arg12 (by decide +kernel)).trans ((hkeep3 m c main_arg12 (by decide +kernel)).trans ((hkeepH3 m c main_arg12 (by decide +kernel)).trans ((hkeep2 m c main_arg12 (by decide +kernel)).trans ((hkeepH2 m c main_arg12 (by decide +kernel)).trans ((hkeep1 m c main_arg12 (by decide +kernel)).trans ((hkeepH1 m c main_arg12 (by decide +kernel)).trans ((hkeep0 m c main_arg12 (by decide +kernel)).trans (hkeepH0 m c main_arg12 (by decide +kernel))))))))))))))))), (hkeepH8 m c main_arg14 (by decide +kernel)).trans ((hkeep7 m c main_arg14 (by decide +kernel)).trans ((hkeepH7 m c main_arg14 (by decide +kernel)).trans ((hkeep6 m c main_arg14 (by decide +kernel)).trans ((hkeepH6 m c main_arg14 (by decide +kernel)).trans ((hkeep5 m c main_arg14 (by decide +kernel)).trans ((hkeepH5 m c main_arg14 (by decide +kernel)).trans ((hkeep4 m c main_arg14 (by decide +kernel)).trans ((hkeepH4 m c main_arg14 (by decide +kernel)).trans ((hkeep3 m c main_arg14 (by decide +kernel)).trans ((hkeepH3 m c main_arg14 (by decide +kernel)).trans ((hkeep2 m c main_arg14 (by decide +kernel)).trans ((hkeepH2 m c main_arg14 (by decide +kernel)).trans ((hkeep1 m c main_arg14 (by decide +kernel)).trans ((hkeepH1 m c main_arg14 (by decide +kernel)).trans ((hkeep0 m c main_arg14 (by decide +kernel)).trans (hkeepH0 m c main_arg14 (by decide +kernel)))))))))))))))))]
  exact hcls _ _ _ _ _ _ _ _ _

set_option maxHeartbeats 4000000 in
/-- The second result: the edge kernel's output, as a vector, is the network's vector of edge scores, given the edge
    head's two readings agree. -/
theorem out1_val
    (hedge : ∀ (ef : (⟨S100000x1024, .f32⟩ : BufTy).Contents (Elt Ideal)) (a16 : (⟨S1024x256, .f32⟩ : BufTy).Contents (Elt Ideal)) (a17 : (⟨S256, .f32⟩ : BufTy).Contents (Elt Ideal)) (a18 : (⟨S256x128, .f32⟩ : BufTy).Contents (Elt Ideal)) (a19 : (⟨S128, .f32⟩ : BufTy).Contents (Elt Ideal))
      (a20 : (⟨S128x1, .f32⟩ : BufTy).Contents (Elt Ideal)) (a21 : (⟨S1, .f32⟩ : BufTy).Contents (Elt Ideal)),
      shapeCast S100000 (Cert.SpecA.edgeFn ef a16 (shapeCast S1x256 a17 shapeCasts_S256_S1x256) a18 (row (F := Ideal) a19) a20
          (shapeCast S1x1 a21 shapeCasts_S1_S1x1)) shapeCasts_S100000x1_S100000
        = Cert.ReferenceIdeal.HandRun.edgeHeadRef (F := Ideal) ef a16 a17 a18 a19 a20 a21) :
    U21 m c main_v220 = Net.netOut1 (F := Ideal) (V0 m c main_arg0) (V0 m c main_arg1) (V0 m c main_arg2) (V0 m c main_arg3) (V0 m c main_arg4) (V0 m c main_arg5) (V0 m c main_arg6) (V0 m c main_arg7) (V0 m c main_arg22) (V0 m c main_arg24) (V0 m c main_arg16) (V0 m c main_arg17) (V0 m c main_arg18) (V0 m c main_arg19) (V0 m c main_arg20) (V0 m c main_arg21) := by
  have eef : U19 m c main_v215 = Cert.ReferenceIdeal.HandRun.efRef (F := Ideal) (Net.netEmb (F := Ideal) (V0 m c main_arg0) (V0 m c main_arg1) (V0 m c main_arg2) (V0 m c main_arg3) (V0 m c main_arg4) (V0 m c main_arg5) (V0 m c main_arg6) (V0 m c main_arg7) (V0 m c main_arg22)) (V0 m c main_arg24) := by
    show StableHlo.after hostOps9 (U18 m c) main_v215 = _
    rw [s9_ef, (hkeep8 m c main_v180 (by decide +kernel)).trans (emb_val m c hfin), (hkeep8 m c main_arg24 (by decide +kernel)).trans ((hkeepH8 m c main_arg24 (by decide +kernel)).trans ((hkeep7 m c main_arg24 (by decide +kernel)).trans ((hkeepH7 m c main_arg24 (by decide +kernel)).trans ((hkeep6 m c main_arg24 (by decide +kernel)).trans ((hkeepH6 m c main_arg24 (by decide +kernel)).trans ((hkeep5 m c main_arg24 (by decide +kernel)).trans ((hkeepH5 m c main_arg24 (by decide +kernel)).trans ((hkeep4 m c main_arg24 (by decide +kernel)).trans ((hkeepH4 m c main_arg24 (by decide +kernel)).trans ((hkeep3 m c main_arg24 (by decide +kernel)).trans ((hkeepH3 m c main_arg24 (by decide +kernel)).trans ((hkeep2 m c main_arg24 (by decide +kernel)).trans ((hkeepH2 m c main_arg24 (by decide +kernel)).trans ((hkeep1 m c main_arg24 (by decide +kernel)).trans ((hkeepH1 m c main_arg24 (by decide +kernel)).trans ((hkeep0 m c main_arg24 (by decide +kernel)).trans (hkeepH0 m c main_arg24 (by decide +kernel))))))))))))))))))]
  have eb1 : U19 m c main_v216 = shapeCast S1x256 (V0 m c main_arg17) shapeCasts_S256_S1x256 := by
    show StableHlo.after hostOps9 (U18 m c) main_v216 = _
    rw [s9_b1, (hkeep8 m c main_arg17 (by decide +kernel)).trans ((hkeepH8 m c main_arg17 (by decide +kernel)).trans ((hkeep7 m c main_arg17 (by decide +kernel)).trans ((hkeepH7 m c main_arg17 (by decide +kernel)).trans ((hkeep6 m c main_arg17 (by decide +kernel)).trans ((hkeepH6 m c main_arg17 (by decide +kernel)).trans ((hkeep5 m c main_arg17 (by decide +kernel)).trans ((hkeepH5 m c main_arg17 (by decide +kernel)).trans ((hkeep4 m c main_arg17 (by decide +kernel)).trans ((hkeepH4 m c main_arg17 (by decide +kernel)).trans ((hkeep3 m c main_arg17 (by decide +kernel)).trans ((hkeepH3 m c main_arg17 (by decide +kernel)).trans ((hkeep2 m c main_arg17 (by decide +kernel)).trans ((hkeepH2 m c main_arg17 (by decide +kernel)).trans ((hkeep1 m c main_arg17 (by decide +kernel)).trans ((hkeepH1 m c main_arg17 (by decide +kernel)).trans ((hkeep0 m c main_arg17 (by decide +kernel)).trans (hkeepH0 m c main_arg17 (by decide +kernel))))))))))))))))))]
  have eb2 : U19 m c main_v217 = row (F := Ideal) (V0 m c main_arg19) := by
    show StableHlo.after hostOps9 (U18 m c) main_v217 = _
    rw [s9_b2, (hkeep8 m c main_arg19 (by decide +kernel)).trans ((hkeepH8 m c main_arg19 (by decide +kernel)).trans ((hkeep7 m c main_arg19 (by decide +kernel)).trans ((hkeepH7 m c main_arg19 (by decide +kernel)).trans ((hkeep6 m c main_arg19 (by decide +kernel)).trans ((hkeepH6 m c main_arg19 (by decide +kernel)).trans ((hkeep5 m c main_arg19 (by decide +kernel)).trans ((hkeepH5 m c main_arg19 (by decide +kernel)).trans ((hkeep4 m c main_arg19 (by decide +kernel)).trans ((hkeepH4 m c main_arg19 (by decide +kernel)).trans ((hkeep3 m c main_arg19 (by decide +kernel)).trans ((hkeepH3 m c main_arg19 (by decide +kernel)).trans ((hkeep2 m c main_arg19 (by decide +kernel)).trans ((hkeepH2 m c main_arg19 (by decide +kernel)).trans ((hkeep1 m c main_arg19 (by decide +kernel)).trans ((hkeepH1 m c main_arg19 (by decide +kernel)).trans ((hkeep0 m c main_arg19 (by decide +kernel)).trans (hkeepH0 m c main_arg19 (by decide +kernel))))))))))))))))))]
  have eb3 : U19 m c main_v218 = shapeCast S1x1 (V0 m c main_arg21) shapeCasts_S1_S1x1 := by
    show StableHlo.after hostOps9 (U18 m c) main_v218 = _
    rw [s9_b3, (hkeep8 m c main_arg21 (by decide +kernel)).trans ((hkeepH8 m c main_arg21 (by decide +kernel)).trans ((hkeep7 m c main_arg21 (by decide +kernel)).trans ((hkeepH7 m c main_arg21 (by decide +kernel)).trans ((hkeep6 m c main_arg21 (by decide +kernel)).trans ((hkeepH6 m c main_arg21 (by decide +kernel)).trans ((hkeep5 m c main_arg21 (by decide +kernel)).trans ((hkeepH5 m c main_arg21 (by decide +kernel)).trans ((hkeep4 m c main_arg21 (by decide +kernel)).trans ((hkeepH4 m c main_arg21 (by decide +kernel)).trans ((hkeep3 m c main_arg21 (by decide +kernel)).trans ((hkeepH3 m c main_arg21 (by decide +kernel)).trans ((hkeep2 m c main_arg21 (by decide +kernel)).trans ((hkeepH2 m c main_arg21 (by decide +kernel)).trans ((hkeep1 m c main_arg21 (by decide +kernel)).trans ((hkeepH1 m c main_arg21 (by decide +kernel)).trans ((hkeep0 m c main_arg21 (by decide +kernel)).trans (hkeepH0 m c main_arg21 (by decide +kernel))))))))))))))))))]
  show StableHlo.after hostOps10 (U20 m c) main_v220 = _
  rw [s10_out, U20_v219 m c, final9]
  show shapeCast S100000 (Cert.SpecA.edgeFn (U19 m c main_v215) (U19 m c main_arg16) (U19 m c main_v216) (U19 m c main_arg18) (U19 m c main_v217)
      (U19 m c main_arg20) (U19 m c main_v218)) shapeCasts_S100000x1_S100000 = _
  rw [eef, eb1, eb2, eb3, (hkeepH9 m c main_arg16 (by decide +kernel)).trans ((hkeep8 m c main_arg16 (by decide +kernel)).trans ((hkeepH8 m c main_arg16 (by decide +kernel)).trans ((hkeep7 m c main_arg16 (by decide +kernel)).trans ((hkeepH7 m c main_arg16 (by decide +kernel)).trans ((hkeep6 m c main_arg16 (by decide +kernel)).trans ((hkeepH6 m c main_arg16 (by decide +kernel)).trans ((hkeep5 m c main_arg16 (by decide +kernel)).trans ((hkeepH5 m c main_arg16 (by decide +kernel)).trans ((hkeep4 m c main_arg16 (by decide +kernel)).trans ((hkeepH4 m c main_arg16 (by decide +kernel)).trans ((hkeep3 m c main_arg16 (by decide +kernel)).trans ((hkeepH3 m c main_arg16 (by decide +kernel)).trans ((hkeep2 m c main_arg16 (by decide +kernel)).trans ((hkeepH2 m c main_arg16 (by decide +kernel)).trans ((hkeep1 m c main_arg16 (by decide +kernel)).trans ((hkeepH1 m c main_arg16 (by decide +kernel)).trans ((hkeep0 m c main_arg16 (by decide +kernel)).trans (hkeepH0 m c main_arg16 (by decide +kernel))))))))))))))))))), (hkeepH9 m c main_arg18 (by decide +kernel)).trans ((hkeep8 m c main_arg18 (by decide +kernel)).trans ((hkeepH8 m c main_arg18 (by decide +kernel)).trans ((hkeep7 m c main_arg18 (by decide +kernel)).trans ((hkeepH7 m c main_arg18 (by decide +kernel)).trans ((hkeep6 m c main_arg18 (by decide +kernel)).trans ((hkeepH6 m c main_arg18 (by decide +kernel)).trans ((hkeep5 m c main_arg18 (by decide +kernel)).trans ((hkeepH5 m c main_arg18 (by decide +kernel)).trans ((hkeep4 m c main_arg18 (by decide +kernel)).trans ((hkeepH4 m c main_arg18 (by decide +kernel)).trans ((hkeep3 m c main_arg18 (by decide +kernel)).trans ((hkeepH3 m c main_arg18 (by decide +kernel)).trans ((hkeep2 m c main_arg18 (by decide +kernel)).trans ((hkeepH2 m c main_arg18 (by decide +kernel)).trans ((hkeep1 m c main_arg18 (by decide +kernel)).trans ((hkeepH1 m c main_arg18 (by decide +kernel)).trans ((hkeep0 m c main_arg18 (by decide +kernel)).trans (hkeepH0 m c main_arg18 (by decide +kernel))))))))))))))))))), (hkeepH9 m c main_arg20 (by decide +kernel)).trans ((hkeep8 m c main_arg20 (by decide +kernel)).trans ((hkeepH8 m c main_arg20 (by decide +kernel)).trans ((hkeep7 m c main_arg20 (by decide +kernel)).trans ((hkeepH7 m c main_arg20 (by decide +kernel)).trans ((hkeep6 m c main_arg20 (by decide +kernel)).trans ((hkeepH6 m c main_arg20 (by decide +kernel)).trans ((hkeep5 m c main_arg20 (by decide +kernel)).trans ((hkeepH5 m c main_arg20 (by decide +kernel)).trans ((hkeep4 m c main_arg20 (by decide +kernel)).trans ((hkeepH4 m c main_arg20 (by decide +kernel)).trans ((hkeep3 m c main_arg20 (by decide +kernel)).trans ((hkeepH3 m c main_arg20 (by decide +kernel)).trans ((hkeep2 m c main_arg20 (by decide +kernel)).trans ((hkeepH2 m c main_arg20 (by decide +kernel)).trans ((hkeep1 m c main_arg20 (by decide +kernel)).trans ((hkeepH1 m c main_arg20 (by decide +kernel)).trans ((hkeep0 m c main_arg20 (by decide +kernel)).trans (hkeepH0 m c main_arg20 (by decide +kernel)))))))))))))))))))]
  exact hedge _ _ _ _ _ _ _

end Cert.KernelIdeal.KVals
end
-- ==== Proof.KI.HostA.lean ====
/-
  The reference's dense layers and its log-softmax, read at an entry over the extended reals, for any extents — the
  host-side companions of the kernel-side readings.

  A layer of the reference is a `dot_general` of the two matrices, the bias vector broadcast first to one row and then
  down the rows, and for a hidden layer the maximum with a broadcast zero. Read at `(p, q)` it is the sum over `k` of
  `x(p,k) · W(k,q)`, plus `b(q)`: the same entry as the kernel's layer when the kernel is handed the bias as the
  one-row cast of the vector.

  The reference's `log_softmax` along the second axis of a 64×16 table: the row maximum is a `reduce` with `max` from
  −∞ (then the maximum with −∞ again), broadcast to a column and across; the row sum of exponentials is a `reduce` with
  `add` from zero.
-/
import proofs.«118347_j18940805776024_1_alg».proof.Proof.KI.DenseA
import Idealize.ShloMosaic.Lib.KernelVsHost
import Idealize.ShloMosaic.Lib.IdealHost

noncomputable section

namespace Cert.HostA

open Idealize.ShloMosaic Idealize.ShloMosaic.ValueIdx Cert.SpecA
open scoped BigOperators

variable {M K N : Nat}

/-- The bias vector broadcast to one row and down the rows reads, at `(p, q)`, its one-row cast at `(0, q)`. -/
theorem hostBias_apply (b : FVec Ideal ⟨1, ![N]⟩ .f32)
    (hb1 : (⟨2, ![1, N]⟩ : Shape).BroadcastsInDim ⟨2, ![M, N]⟩ ![0, 1])
    (hb0 : (⟨1, ![N]⟩ : Shape).BroadcastsInDim ⟨2, ![1, N]⟩ ![1])
    (hs : (⟨1, ![N]⟩ : Shape).ShapeCasts ⟨2, ![1, N]⟩) (p : Fin M) (q : Fin N) :
    broadcastInDim ⟨2, ![M, N]⟩ ![0, 1] hb1 (broadcastInDim ⟨2, ![1, N]⟩ ![1] hb0 b) (ix2 p q)
      = shapeCast ⟨2, ![1, N]⟩ b hs (ix2 (0 : Fin 1) q) := by
  rw [broadcastInDim_oneRow_apply, shapeCast_a_1a_apply]
  refine broadcastInDim_apply ![1] hb0 b (ix2 (0 : Fin 1) q) (ix1 q) fun a => ?_
  match a with
  | ⟨0, _⟩ =>
    show q.val = if N = 1 then 0 else q.val
    split
    · have := q.isLt; omega
    · rfl

/-- A reference layer without the maximum, read at `(p, q)`. -/
theorem hostDense_apply (D : DotDims ⟨2, ![M, K]⟩ ⟨2, ![K, N]⟩ ⟨2, ![M, N]⟩) (hD : D = DotDims.plain M K N)
    (x : FVec Ideal ⟨2, ![M, K]⟩ .f32) (W : FVec Ideal ⟨2, ![K, N]⟩ .f32) (b : FVec Ideal ⟨1, ![N]⟩ .f32)
    (hb1 : (⟨2, ![1, N]⟩ : Shape).BroadcastsInDim ⟨2, ![M, N]⟩ ![0, 1])
    (hb0 : (⟨1, ![N]⟩ : Shape).BroadcastsInDim ⟨2, ![1, N]⟩ ![1])
    (hs : (⟨1, ![N]⟩ : Shape).ShapeCasts ⟨2, ![1, N]⟩) (p : Fin M) (q : Fin N) :
    addf (Host.dotGeneral D none x W) (broadcastInDim ⟨2, ![M, N]⟩ ![0, 1] hb1 (broadcastInDim ⟨2, ![1, N]⟩ ![1] hb0 b)) (ix2 p q)
      = denseAt x W (shapeCast ⟨2, ![1, N]⟩ b hs) p q := by
  subst hD
  rw [addf_apply, ← matmul_zero_eq_dotGeneral, LibPlainMatmul.matmul_plain_zero_apply, hostBias_apply b hb1 hb0 hs p q]
  rfl

/-- The same as a whole matrix. -/
theorem hostDense_eq (D : DotDims ⟨2, ![M, K]⟩ ⟨2, ![K, N]⟩ ⟨2, ![M, N]⟩) (hD : D = DotDims.plain M K N)
    (x : FVec Ideal ⟨2, ![M, K]⟩ .f32) (W : FVec Ideal ⟨2, ![K, N]⟩ .f32) (b : FVec Ideal ⟨1, ![N]⟩ .f32)
    (hb1 : (⟨2, ![1, N]⟩ : Shape).BroadcastsInDim ⟨2, ![M, N]⟩ ![0, 1])
    (hb0 : (⟨1, ![N]⟩ : Shape).BroadcastsInDim ⟨2, ![1, N]⟩ ![1])
    (hs : (⟨1, ![N]⟩ : Shape).ShapeCasts ⟨2, ![1, N]⟩) :
    addf (Host.dotGeneral D none x W) (broadcastInDim ⟨2, ![M, N]⟩ ![0, 1] hb1 (broadcastInDim ⟨2, ![1, N]⟩ ![1] hb0 b))
      = dense x W (shapeCast ⟨2, ![1, N]⟩ b hs) := by
  funext i
  obtain ⟨p, q, rfl⟩ : ∃ (p : Fin M) (q : Fin N), i = ix2 p q := ⟨i 0, i 1, eq_ix2 i⟩
  exact hostDense_apply D hD x W b hb1 hb0 hs p q

/-- A hidden reference layer as a whole matrix: the maximum with the zero scalar broadcast. -/
theorem hostReluDense_eq (D : DotDims ⟨2, ![M, K]⟩ ⟨2, ![K, N]⟩ ⟨2, ![M, N]⟩) (hD : D = DotDims.plain M K N)
    (x : FVec Ideal ⟨2, ![M, K]⟩ .f32) (W : FVec Ideal ⟨2, ![K, N]⟩ .f32) (b : FVec Ideal ⟨1, ![N]⟩ .f32)
    (hb1 : (⟨2, ![1, N]⟩ : Shape).BroadcastsInDim ⟨2, ![M, N]⟩ ![0, 1])
    (hb0 : (⟨1, ![N]⟩ : Shape).BroadcastsInDim ⟨2, ![1, N]⟩ ![1])
    (hz : (⟨0, ![]⟩ : Shape).BroadcastsInDim ⟨2, ![M, N]⟩ ![])
    (hs : (⟨1, ![N]⟩ : Shape).ShapeCasts ⟨2, ![1, N]⟩) :
    maximumf (addf (Host.dotGeneral D none x W) (broadcastInDim ⟨2, ![M, N]⟩ ![0, 1] hb1 (broadcastInDim ⟨2, ![1, N]⟩ ![1] hb0 b)))
        (broadcastInDim ⟨2, ![M, N]⟩ ![] hz (constant (F := Ideal) ⟨0, ![]⟩ .f32 0x00000000#32))
      = reluDense x W (shapeCast ⟨2, ![1, N]⟩ b hs) := by
  funext i
  obtain ⟨p, q, rfl⟩ : ∃ (p : Fin M) (q : Fin N), i = ix2 p q := ⟨i 0, i 1, eq_ix2 i⟩
  rw [maximumf_apply, hostDense_apply D hD x W b hb1 hb0 hs p q, broadcastInDim_scalar_apply]
  rfl

/-! ## The reference's log-softmax along the 16 classes -/

/-- A column `[a, 1]` broadcast across `b` columns reads, at `(p, c)`, the column at `p`. -/
theorem bcastCol_apply {a b : ℕ} {α : Type} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` broadcast to the column `[a, 1]` reads, at `(p, u)`, the vector at `p`. -/
theorem bcastToCol_apply {a : ℕ} {α : Type} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's logarithm and exponential of a vector, read at an index. -/
theorem hostLog_apply {s : Shape} (a : FVec Ideal s .f32) (i : s.Idx) : Host.log a i = Ideal.log (a i) := rfl
theorem hostExp_apply {s : Shape} (a : FVec Ideal s .f32) (i : s.Idx) : Host.exp a i = Ideal.exp (a i) := rfl

/-- The reference's row maximum: the `reduce` with `max` from −∞, then the maximum with −∞. -/
theorem hostRowMax_apply (y : FVec Ideal ⟨2, ![64, 16]⟩ .f32)
    (hr' : (⟨2, ![64, 16]⟩ : Shape).ReducesTo [1] ⟨1, ![64]⟩) (hr : (⟨2, ![64, 16]⟩ : Shape).Reduces [1] ⟨1, ![64]⟩)
    (hu : 0 < (⟨0, ![]⟩ : Shape).numel) (hz : (⟨0, ![]⟩ : Shape).BroadcastsInDim ⟨1, ![64]⟩ ![]) (p : Fin 64) :
    maximumf (broadcastInDim ⟨1, ![64]⟩ ![] hz (constant (F := Ideal) ⟨0, ![]⟩ .f32 0xFF800000#32))
        (Host.reduce FloatOps.maximumf y (constant (F := Ideal) ⟨0, ![]⟩ .f32 0xFF800000#32) hr' hu) (ix1 p)
      = rowMax y p := by
  rw [maximumf_apply, broadcastInDim_scalar_apply, Host.reduce_eq_fold_single FloatOps.maximumf y _ hr' hr hu (ix1 p)]
  unfold rowMax
  refine congrArg (max negInfW) (congrArg (Finset.univ.fold max negInfW) (funext fun k => congrArg y ?_))
  funext c
  refine Fin.ext ?_
  match c with
  | ⟨0, _⟩ => rfl
  | ⟨1, _⟩ => rfl

/-- The reference's `log_softmax` of a 64×16 table, read at `(p, q)`. -/
theorem hostLogSoftmax_apply (y : FVec Ideal ⟨2, ![64, 16]⟩ .f32)
    (hr' : (⟨2, ![64, 16]⟩ : Shape).ReducesTo [1] ⟨1, ![64]⟩) (hr : (⟨2, ![64, 16]⟩ : Shape).Reduces [1] ⟨1, ![64]⟩)
    (hu : 0 < (⟨0, ![]⟩ : Shape).numel) (hz : (⟨0, ![]⟩ : Shape).BroadcastsInDim ⟨1, ![64]⟩ ![])
    (hc : (⟨1, ![64]⟩ : Shape).BroadcastsInDim ⟨2, ![64, 1]⟩ ![0])
    (hx : (⟨2, ![64, 1]⟩ : Shape).BroadcastsInDim ⟨2, ![64, 16]⟩ ![0, 1]) (p : Fin 64) (q : Fin 16) :
    subf (subf y (broadcastInDim ⟨2, ![64, 16]⟩ ![0, 1] hx (broadcastInDim ⟨2, ![64, 1]⟩ ![0] hc
          (maximumf (broadcastInDim ⟨1, ![64]⟩ ![] hz (constant (F := Ideal) ⟨0, ![]⟩ .f32 0xFF800000#32))
            (Host.reduce FloatOps.maximumf y (constant (F := Ideal) ⟨0, ![]⟩ .f32 0xFF800000#32) hr' hu)))))
      (broadcastInDim ⟨2, ![64, 16]⟩ ![0, 1] hx (Host.log (broadcastInDim ⟨2, ![64, 1]⟩ ![0] hc
        (Host.reduceAdd (Host.exp (subf y (broadcastInDim ⟨2, ![64, 16]⟩ ![0, 1] hx (broadcastInDim ⟨2, ![64, 1]⟩ ![0] hc
          (maximumf (broadcastInDim ⟨1, ![64]⟩ ![] hz (constant (F := Ideal) ⟨0, ![]⟩ .f32 0xFF800000#32))
            (Host.reduce FloatOps.maximumf y (constant (F := Ideal) ⟨0, ![]⟩ .f32 0xFF800000#32) hr' hu))))))
          (constant (F := Ideal) ⟨0, ![]⟩ .f32 0x00000000#32) hr' hu)))) (ix2 p q)
      = logSoftmaxAt y p q := by
  have hcol : ∀ (p' : Fin 64) (q' : Fin 16), broadcastInDim ⟨2, ![64, 16]⟩ ![0, 1] hx (broadcastInDim ⟨2, ![64, 1]⟩ ![0] hc
          (maximumf (broadcastInDim ⟨1, ![64]⟩ ![] hz (constant (F := Ideal) ⟨0, ![]⟩ .f32 0xFF800000#32))
            (Host.reduce FloatOps.maximumf y (constant (F := Ideal) ⟨0, ![]⟩ .f32 0xFF800000#32) hr' hu))) (ix2 p' q') = rowMax y p' := fun p' q' => by
    rw [bcastCol_apply, bcastToCol_apply, hostRowMax_apply y hr' hr hu hz p']
  unfold logSoftmaxAt
  rw [subf_apply, subf_apply, hcol, bcastCol_apply, hostLog_apply, bcastToCol_apply, hostReduceAdd_apply,
    Ideal.hostReduceAdd_single hr' hr]
  refine congrArg (fun z => y (ix2 p q) - rowMax y p - Ideal.log z) ?_
  show Ideal.ofBits .f32 0x00000000#32 + _ = _
  rw [Ideal.ofBits_zero_f32, zero_add]
  refine Finset.sum_congr rfl fun (k : Fin 16) _ => ?_
  have hk : hr.lift (ix1 p) k = ix2 p k := by
    funext c
    refine Fin.ext ?_
    match c with
    | ⟨0, _⟩ => rfl
    | ⟨1, _⟩ => rfl
  show Ideal.exp (subf y _ (hr.lift (ix1 p) k)) = _
  rw [hk, subf_apply, hcol]

end Cert.HostA

end
-- ==== Proof.KI.HeadsA.lean ====
/-
  The two heads of the network, kernel side against reference side, over the extended reals.

  The kernel is handed each bias vector as a one-row matrix (the vector's cast `[n] → [1, n]`); the reference broadcasts
  the vector itself. With that, the classifier head the kernel computes — four dense layers, three with `relu`, then
  `log_softmax` along the classes — is the reference's classifier head, entry by entry; and the kernel's column of edge
  scores, cast from `[100000, 1]` to `[100000]`, is the reference's edge head, whose logistic function is spelt
  `1 / (1 + exp(−x))`. A product into a block of zeros against `dot_general`, the maximum with zero, the same row
  maximum and row sum: no law of arithmetic beyond `0 + x = x` is used, so nothing is asked of the inputs.
-/
import proofs.«118347_j18940805776024_1_alg».proof.Proof.KI.HostA
import proofs.«118347_j18940805776024_1_alg».proof.Proof.Ref.Stages
import proofs.«118347_j18940805776024_1_alg».proof.Proof.KI.StagesK
import Idealize.ShloMosaic.PureOps.IdealRules

noncomputable section

namespace Cert.HeadsA

open Idealize.ShloMosaic Idealize.ShloMosaic.ValueIdx Cert.SpecA
open Cert.ReferenceIdeal Cert.ReferenceIdeal.Gen Cert.ReferenceIdeal.HandRun
open scoped BigOperators

/-- The word of `1.0` is one. -/
theorem one_word : Ideal.ofBits .f32 0x3F800000#32 = 1 := IdealRules.sign_bit.ideal_onePat .f32

/-- A column `[a, 1]` cast to a vector `[a]` reads, at `r`, the column at `(r, 0)`. -/
theorem shapeCast_a1_a_apply {a : ℕ} {α : Type} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r (0 : Fin 1)) :=
  shapeCast_apply x h _ _ (by
    rw [Shape.rowMajor_val_two, Shape.rowMajor_val_one]
    show r.val * 1 + 0 = r.val
    omega)

/-- THE CLASSIFIER HEAD: the kernel's, on the bias vectors' one-row casts, is the reference's. -/
theorem cls_bridge (g : (⟨S64x512, .f32⟩ : BufTy).Contents (Elt Ideal)) (a8 : (⟨S512x256, .f32⟩ : BufTy).Contents (Elt Ideal))
    (a9 : (⟨S256, .f32⟩ : BufTy).Contents (Elt Ideal)) (a10 : (⟨S256x128, .f32⟩ : BufTy).Contents (Elt Ideal))
    (a11 : (⟨S128, .f32⟩ : BufTy).Contents (Elt Ideal)) (a12 : (⟨S128x128, .f32⟩ : BufTy).Contents (Elt Ideal))
    (a13 : (⟨S128, .f32⟩ : BufTy).Contents (Elt Ideal)) (a14 : (⟨S128x16, .f32⟩ : BufTy).Contents (Elt Ideal))
    (a15 : (⟨S16, .f32⟩ : BufTy).Contents (Elt Ideal))
    (h256 : S256.ShapeCasts S1x256) (h16 : S16.ShapeCasts S1x16) :
    clsFn g a8 (shapeCast S1x256 a9 h256) a10 (Cert.KernelIdeal.StagesK.row a11) a12 (Cert.KernelIdeal.StagesK.row a13) a14
        (shapeCast S1x16 a15 h16)
      = clsRef g a8 a9 a10 a11 a12 a13 a14 a15 := by
  funext i
  obtain ⟨p, q, rfl⟩ : ∃ (p : Fin 64) (q : Fin 16), i = ix2 p q := ⟨i 0, i 1, eq_ix2 i⟩
  refine Eq.symm ?_
  unfold clsRef
  rw [HostA.hostReluDense_eq dot_S64x512_S512x256_S64x256_1_0_0_1_n_n rfl g a8 a9 bcast_S1x256_S64x256_0_1 bcast_S256_S1x256_1 bcast_S_S64x256 h256,
    HostA.hostReluDense_eq dot_S64x256_S256x128_S64x128_1_0_0_1_n_n rfl _ a10 a11 bcast_S1x128_S64x128_0_1 bcast_S128_S1x128_1 bcast_S_S64x128 Cert.KernelIdeal.Gen.shapeCasts_S128_S1x128,
    HostA.hostReluDense_eq dot_S64x128_S128x128_S64x128_1_0_0_1_n_n rfl _ a12 a13 bcast_S1x128_S64x128_0_1 bcast_S128_S1x128_1 bcast_S_S64x128 Cert.KernelIdeal.Gen.shapeCasts_S128_S1x128,
    HostA.hostDense_eq dot_S64x128_S128x16_S64x16_1_0_0_1_n_n rfl _ a14 a15 bcast_S1x16_S64x16_0_1 bcast_S16_S1x16_1 h16]
  exact HostA.hostLogSoftmax_apply _ reducesTo_S64x16_S64_d1 Cert.KernelIdeal.Gen.reduces_S64x16_S64 h_S_ bcast_S_S64
    bcast_S64_S64x1_0 bcast_S64x1_S64x16_0_1 p q

/-- THE EDGE HEAD: the kernel's column of scores, as a vector, is the reference's. -/
theorem edge_bridge (ef : (⟨S100000x1024, .f32⟩ : BufTy).Contents (Elt Ideal)) (a16 : (⟨S1024x256, .f32⟩ : BufTy).Contents (Elt Ideal))
    (a17 : (⟨S256, .f32⟩ : BufTy).Contents (Elt Ideal)) (a18 : (⟨S256x128, .f32⟩ : BufTy).Contents (Elt Ideal))
    (a19 : (⟨S128, .f32⟩ : BufTy).Contents (Elt Ideal)) (a20 : (⟨S128x1, .f32⟩ : BufTy).Contents (Elt Ideal))
    (a21 : (⟨S1, .f32⟩ : BufTy).Contents (Elt Ideal))
    (h256 : S256.ShapeCasts S1x256) (h1 : S1.ShapeCasts S1x1) (hcol : S100000x1.ShapeCasts S100000) :
    shapeCast S100000 (edgeFn ef a16 (shapeCast S1x256 a17 h256) a18 (Cert.KernelIdeal.StagesK.row a19) a20 (shapeCast S1x1 a21 h1)) hcol
      = edgeHeadRef ef a16 a17 a18 a19 a20 a21 := by
  funext i
  obtain ⟨r, rfl⟩ : ∃ r : Fin 100000, i = ix1 r := ⟨i 0, eq_ix1 i⟩
  rw [shapeCast_a1_a_apply]
  refine Eq.symm ?_
  unfold edgeHeadRef
  rw [HostA.hostReluDense_eq dot_S100000x1024_S1024x256_S100000x256_1_0_0_1_n_n rfl ef a16 a17 bcast_S1x256_S100000x256_0_1 bcast_S256_S1x256_1 bcast_S_S100000x256 h256,
    HostA.hostReluDense_eq dot_S100000x256_S256x128_S100000x128_1_0_0_1_n_n rfl _ a18 a19 bcast_S1x128_S100000x128_0_1 bcast_S128_S1x128_1 bcast_S_S100000x128 Cert.KernelIdeal.Gen.shapeCasts_S128_S1x128,
    HostA.hostDense_eq dot_S100000x128_S128x1_S100000x1_1_0_0_1_n_n rfl _ a20 a21 bcast_S1x1_S100000x1_0_1 bcast_S1_S1x1_1 h1]
  show Ideal.div (Ideal.ofBits .f32 0x3F800000#32) (Ideal.ofBits .f32 0x3F800000#32
      + Ideal.exp (-(shapeCast S100000 (dense _ a20 (shapeCast S1x1 a21 h1)) shapeCasts_S100000x1_S100000 (ix1 r)))) = _
  rw [shapeCast_a1_a_apply, one_word]
  rfl

end Cert.HeadsA

end
-- ==== Proof.Ref.Ops.lean ====
/- The reference program's operations, in program order, as literal lists: each outlined function's operations are
   listed at its call site over the call's buffer record. The lists are cut where a stage of the computation ends
   (a graph-convolution layer, the concatenation, the pooling, the two heads) and where the printed program cuts
   its own sequence, so that each printed window is a concatenation of whole lists. -/
import proofs.«118347_j18940805776024_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 85 of 470. -/
abbrev cL0a : List (HloOp τ sig (Elt F)) :=
  [ StableHlo.unary main_arg22 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg22 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg7 main_v14 ((extractStridedSlice S1 ![0] · slices_S4_S1_0) : (⟨S4, .f32⟩ : BufTy).Contents (Elt F) → (⟨S1, .f32⟩ : BufTy).Contents (Elt F)),
    StableHlo.reshape main_v14 main_v15 rfl shapeCasts_S1_S_,
    StableHlo.nullary main_cst_1 (constant S_ .f32 0x3F800000#32),
    StableHlo.binary main_cst_1 main_v15 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S100000x128 ![] bcast_S_S100000x128 : (⟨S_, .f32⟩ : BufTy).Contents (Elt F) → (⟨S100000x128, .f32⟩ : BufTy).Contents (Elt F)),
    StableHlo.binary main_v17 main_arg0 main_v18 (mulf : (⟨S100000x128, .f32⟩ : BufTy).Contents (Elt F) → (⟨S100000x128, .f32⟩ : BufTy).Contents (Elt F) → (⟨S100000x128, .f32⟩ : BufTy).Contents (Elt F)),
    StableHlo.binary main_v18 main_v13 main_v19 (addf : (⟨S100000x128, .f32⟩ : BufTy).Contents (Elt F) → (⟨S100000x128, .f32⟩ : BufTy).Contents (Elt F) → (⟨S100000x128, .f32⟩ : BufTy).Contents (Elt F)),
    StableHlo.unary main_arg1 main_v20 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v20 main_v21 rfl shapeCasts_S1x128x128_S128x128,
    StableHlo.binary main_v19 main_v21 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v23 ((extractStridedSlice S1x128 ![0, 0] · slices_S4x128_S1x128_0_0) : (⟨S4x128, .f32⟩ : BufTy).Contents (Elt F) → (⟨S1x128, .f32⟩ : BufTy).Contents (Elt F)),
    StableHlo.reshape main_v23 main_v24 rfl shapeCasts_S1x128_S128,
    StableHlo.unary main_v24 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v26 main_v27 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v27 : StableHlo.TRef sig ⟨S100000x128, .f32⟩) main_call0.v0 main_call0.v1 maximumf,
    StableHlo.unary main_arg3 main_v29 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v29 main_v30 rfl shapeCasts_S1x128x128_S128x128,
    StableHlo.binary main_v28 main_v30 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v32 ((extractStridedSlice S1x128 ![0, 0] · slices_S4x128_S1x128_0_0) : (⟨S4x128, .f32⟩ : BufTy).Contents (Elt F) → (⟨S1x128, .f32⟩ : BufTy).Contents (Elt F)),
    StableHlo.reshape main_v32 main_v33 rfl shapeCasts_S1x128_S128,
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v35 main_v36 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v36 : StableHlo.TRef sig ⟨S100000x128, .f32⟩) main_call1.v0 main_call1.v1 maximumf,
    StableHlo.nullary main_cst_2 (constant S_ .f32 0x00000000#32),
    StableHlo.binary main_v37 main_cst_2 main_v38 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v39 (broadcastInDim S128 ![] bcast_S_S128 : (⟨S_, .f32⟩ : BufTy).Contents (Elt F) → (⟨S128, .f32⟩ : BufTy).Contents (Elt F)),
    StableHlo.binary main_v38 main_v39 main_v40 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call2.cst (constant S_ .f32 0x00000000#32),
    StableHlo.TRef.binary (.of main_v37 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v37 : StableHlo.TRef sig ⟨S100000x128, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v40 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v43 main_v44 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v45 (broadcastInDim S128 ![] bcast_S_S128 : (⟨S_, .f32⟩ : BufTy).Contents (Elt F) → (⟨S128, .f32⟩ : BufTy).Contents (Elt F)),
    StableHlo.binary main_v41 main_v45 main_v46 (addf : (⟨S128, .f32⟩ : BufTy).Contents (Elt F) → (⟨S128, .f32⟩ : BufTy).Contents (Elt F) → (⟨S128, .f32⟩ : BufTy).Contents (Elt F)),
    StableHlo.unary main_v46 main_v47 (Host.rsqrt : (⟨S128, .f32⟩ : BufTy).Contents (Elt F) → (⟨S128, .f32⟩ : BufTy).Contents (Elt F)),
    StableHlo.unary main_v47 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v49 main_v50 (mulf : (⟨S100000x128, .f32⟩ : BufTy).Contents (Elt F) → (⟨S100000x128, .f32⟩ : BufTy).Contents (Elt F) → (⟨S100000x128, .f32⟩ : BufTy).Contents (Elt F)),
    StableHlo.unary main_arg5 main_v51 ((extractStridedSlice S1x128 ![0, 0] · slices_S4x128_S1x128_0_0) : (⟨S4x128, .f32⟩ : BufTy).Contents (Elt F) → (⟨S1x128, .f32⟩ : BufTy).Contents (Elt F)) ]
/-- The buffers the operations of `cL0a` write. -/
abbrev cL0a_W : List (Ref sig .tc) := [main_v0, main_v1, main_v2, main_v3, main_c, main_v4, main_v5, main_c_0, main_v6, main_v7, main_v8, main_v9, main_v10, main_cst, main_v11, main_v12, main_v13, main_v14, main_v15, main_cst_1, main_v16, main_v17, main_v18, main_v19, main_v20, main_v21, main_v22, main_v23, main_v24, main_v25, main_v26, main_v27, main_call0_cst, main_call0_v0, main_v28, main_v29, main_v30, main_v31, main_v32, main_v33, main_v34, main_v35, main_v36, main_call1_cst, main_call1_v0, main_v37, main_cst_2, main_v38, main_cst_3, main_v39, main_v40, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v41, main_v42, main_v43, main_v44, main_cst_5, main_v45, main_v46, main_v47, main_v48, main_v49, main_v50, main_v51]

/-- Operations 86 … 94 of 470. -/
abbrev cL0b : List (HloOp τ sig (Elt F)) :=
  [ StableHlo.reshape main_v51 main_v52 rfl shapeCasts_S1x128_S128,
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v54 main_v55 (mulf : (⟨S100000x128, .f32⟩ : BufTy).Contents (Elt F) → (⟨S100000x128, .f32⟩ : BufTy).Contents (Elt F) → (⟨S100000x128, .f32⟩ : BufTy).Contents (Elt F)),
    StableHlo.unary main_arg6 main_v56 ((extractStridedSlice S1x128 ![0, 0] · slices_S4x128_S1x128_0_0) : (⟨S4x128, .f32⟩ : BufTy).Contents (Elt F) → (⟨S1x128, .f32⟩ : BufTy).Contents (Elt F)),
    StableHlo.reshape main_v56 main_v57 rfl shapeCasts_S1x128_S128,
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v59 main_v60 (addf : (⟨S100000x128, .f32⟩ : BufTy).Contents (Elt F) → (⟨S100000x128, .f32⟩ : BufTy).Contents (Elt F) → (⟨S100000x128, .f32⟩ : BufTy).Contents (Elt F)) ]
/-- The buffers the operations of `cL0b` write. -/
abbrev cL0b_W : List (Ref sig .tc) := [main_v52, main_v53, main_v54, main_v55, main_v56, main_v57, main_v58, main_v59, main_v60]

/-- Operations 95 … 170 of 470. -/
abbrev cL1a : List (HloOp τ sig (Elt F)) :=
  [ StableHlo.nullary main_c_6 (constantI S_ 32 0#32),
    StableHlo.unary main_c_6 main_v61 (broadcastInDim S1600000 ![] bcast_S_S1600000 : (⟨S_, .i32⟩ : BufTy).Contents (Elt F) → (⟨S1600000, .i32⟩ : BufTy).Contents (Elt F)),
    StableHlo.binary main_v1 main_v61 main_v62 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v63 (broadcastInDim S1600000 ![] bcast_S_S1600000 : (⟨S_, .i32⟩ : BufTy).Contents (Elt F) → (⟨S1600000, .i32⟩ : BufTy).Contents (Elt F)),
    StableHlo.binary main_v1 main_v63 main_v64 (addi : (⟨S1600000, .i32⟩ : BufTy).Contents (Elt F) → (⟨S1600000, .i32⟩ : BufTy).Contents (Elt F) → (⟨S1600000, .i32⟩ : BufTy).Contents (Elt F)),
    StableHlo.ternary main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v65 main_v66 (broadcastInDim S1600000x1 ![0] bcast_S1600000_S1600000x1_0 : (⟨S1600000, .i32⟩ : BufTy).Contents (Elt F) → (⟨S1600000x1, .i32⟩ : BufTy).Contents (Elt F)),
    StableHlo.binary main_v60 main_v66 main_v67 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_8 (constant S_ .f32 0x00000000#32),
    StableHlo.unary main_cst_8 main_v68 (broadcastInDim S100000x128 ![] bcast_S_S100000x128 : (⟨S_, .f32⟩ : BufTy).Contents (Elt F) → (⟨S100000x128, .f32⟩ : BufTy).Contents (Elt F)),
    StableHlo.unary main_v3 main_v69 (broadcastInDim S1600000x1 ![0] bcast_S1600000_S1600000x1_0 : (⟨S1600000, .i32⟩ : BufTy).Contents (Elt F) → (⟨S1600000x1, .i32⟩ : BufTy).Contents (Elt F)),
    StableHlo.ternary main_v68 main_v69 main_v67 main_v70 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg7 main_v71 ((extractStridedSlice S1 ![1] · slices_S4_S1_1) : (⟨S4, .f32⟩ : BufTy).Contents (Elt F) → (⟨S1, .f32⟩ : BufTy).Contents (Elt F)),
    StableHlo.reshape main_v71 main_v72 rfl shapeCasts_S1_S_,
    StableHlo.nullary main_cst_9 (constant S_ .f32 0x3F800000#32),
    StableHlo.binary main_cst_9 main_v72 main_v73 (addf : (⟨S_, .f32⟩ : BufTy).Contents (Elt F) → (⟨S_, .f32⟩ : BufTy).Contents (Elt F) → (⟨S_, .f32⟩ : BufTy).Contents (Elt F)),
    StableHlo.unary main_v73 main_v74 (broadcastInDim S100000x128 ![] bcast_S_S100000x128 : (⟨S_, .f32⟩ : BufTy).Contents (Elt F) → (⟨S100000x128, .f32⟩ : BufTy).Contents (Elt F)),
    StableHlo.binary main_v74 main_v60 main_v75 (mulf : (⟨S100000x128, .f32⟩ : BufTy).Contents (Elt F) → (⟨S100000x128, .f32⟩ : BufTy).Contents (Elt F) → (⟨S100000x128, .f32⟩ : BufTy).Contents (Elt F)),
    StableHlo.binary main_v75 main_v70 main_v76 (addf : (⟨S100000x128, .f32⟩ : BufTy).Contents (Elt F) → (⟨S100000x128, .f32⟩ : BufTy).Contents (Elt F) → (⟨S100000x128, .f32⟩ : BufTy).Contents (Elt F)),
    StableHlo.unary main_arg1 main_v77 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v77 main_v78 rfl shapeCasts_S1x128x128_S128x128,
    StableHlo.binary main_v76 main_v78 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v80 ((extractStridedSlice S1x128 ![1, 0] · slices_S4x128_S1x128_1_0) : (⟨S4x128, .f32⟩ : BufTy).Contents (Elt F) → (⟨S1x128, .f32⟩ : BufTy).Contents (Elt F)),
    StableHlo.reshape main_v80 main_v81 rfl shapeCasts_S1x128_S128,
    StableHlo.unary main_v81 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v83 main_v84 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v84 : StableHlo.TRef sig ⟨S100000x128, .f32⟩) main_call3.v0 main_call3.v1 maximumf,
    StableHlo.unary main_arg3 main_v86 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v86 main_v87 rfl shapeCasts_S1x128x128_S128x128,
    StableHlo.binary main_v85 main_v87 main_v88 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v89 ((extractStridedSlice S1x128 ![1, 0] · slices_S4x128_S1x128_1_0) : (⟨S4x128, .f32⟩ : BufTy).Contents (Elt F) → (⟨S1x128, .f32⟩ : BufTy).Contents (Elt F)),
    StableHlo.reshape main_v89 main_v90 rfl shapeCasts_S1x128_S128,
    StableHlo.unary main_v90 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v92 main_v93 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v93 : StableHlo.TRef sig ⟨S100000x128, .f32⟩) main_call4.v0 main_call4.v1 maximumf,
    StableHlo.nullary main_cst_10 (constant S_ .f32 0x00000000#32),
    StableHlo.binary main_v94 main_cst_10 main_v95 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v96 (broadcastInDim S128 ![] bcast_S_S128 : (⟨S_, .f32⟩ : BufTy).Contents (Elt F) → (⟨S128, .f32⟩ : BufTy).Contents (Elt F)),
    StableHlo.binary main_v95 main_v96 main_v97 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call5.cst (constant S_ .f32 0x00000000#32),
    StableHlo.TRef.binary (.of main_v94 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v94 : StableHlo.TRef sig ⟨S100000x128, .f32⟩) main_call5.v4 main_call5.v5 subf,
    StableHlo.TRef.binary main_call5.v5 main_call5.v5 main_call5.v6 mulf,
    StableHlo.TRef.unary (.of main_c_12 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v97 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v100 main_v101 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v102 (broadcastInDim S128 ![] bcast_S_S128 : (⟨S_, .f32⟩ : BufTy).Contents (Elt F) → (⟨S128, .f32⟩ : BufTy).Contents (Elt F)),
    StableHlo.binary main_v98 main_v102 main_v103 (addf : (⟨S128, .f32⟩ : BufTy).Contents (Elt F) → (⟨S128, .f32⟩ : BufTy).Contents (Elt F) → (⟨S128, .f32⟩ : BufTy).Contents (Elt F)) ]
/-- The buffers the operations of `cL1a` write. -/
abbrev cL1a_W : List (Ref sig .tc) := [main_c_6, main_v61, main_v62, main_c_7, main_v63, main_v64, main_v65, main_v66, main_v67, main_cst_8, main_v68, main_v69, main_v70, main_v71, main_v72, main_cst_9, main_v73, main_v74, main_v75, main_v76, main_v77, main_v78, main_v79, main_v80, main_v81, main_v82, main_v83, main_v84, main_call3_cst, main_call3_v0, main_v85, main_v86, main_v87, main_v88, main_v89, main_v90, main_v91, main_v92, main_v93, main_call4_cst, main_call4_v0, main_v94, main_cst_10, main_v95, main_cst_11, main_v96, main_v97, main_c_12, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v98, main_v99, main_v100, main_v101, main_cst_13, main_v102, main_v103]

/-- Operations 171 … 184 of 470. -/
abbrev cL1b : List (HloOp τ sig (Elt F)) :=
  [ StableHlo.unary main_v103 main_v104 (Host.rsqrt : (⟨S128, .f32⟩ : BufTy).Contents (Elt F) → (⟨S128, .f32⟩ : BufTy).Contents (Elt F)),
    StableHlo.unary main_v104 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v101 main_v106 main_v107 (mulf : (⟨S100000x128, .f32⟩ : BufTy).Contents (Elt F) → (⟨S100000x128, .f32⟩ : BufTy).Contents (Elt F) → (⟨S100000x128, .f32⟩ : BufTy).Contents (Elt F)),
    StableHlo.unary main_arg5 main_v108 ((extractStridedSlice S1x128 ![1, 0] · slices_S4x128_S1x128_1_0) : (⟨S4x128, .f32⟩ : BufTy).Contents (Elt F) → (⟨S1x128, .f32⟩ : BufTy).Contents (Elt F)),
    StableHlo.reshape main_v108 main_v109 rfl shapeCasts_S1x128_S128,
    StableHlo.unary main_v109 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_v107 main_v111 main_v112 (mulf : (⟨S100000x128, .f32⟩ : BufTy).Contents (Elt F) → (⟨S100000x128, .f32⟩ : BufTy).Contents (Elt F) → (⟨S100000x128, .f32⟩ : BufTy).Contents (Elt F)),
    StableHlo.unary main_arg6 main_v113 ((extractStridedSlice S1x128 ![1, 0] · slices_S4x128_S1x128_1_0) : (⟨S4x128, .f32⟩ : BufTy).Contents (Elt F) → (⟨S1x128, .f32⟩ : BufTy).Contents (Elt F)),
    StableHlo.reshape main_v113 main_v114 rfl shapeCasts_S1x128_S128,
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v112 main_v116 main_v117 (addf : (⟨S100000x128, .f32⟩ : BufTy).Contents (Elt F) → (⟨S100000x128, .f32⟩ : BufTy).Contents (Elt F) → (⟨S100000x128, .f32⟩ : BufTy).Contents (Elt F)) ]
/-- The buffers the operations of `cL1b` write. -/
abbrev cL1b_W : List (Ref sig .tc) := [main_v104, main_v105, main_v106, main_v107, main_v108, main_v109, main_v110, main_v111, main_v112, main_v113, main_v114, main_v115, main_v116, main_v117]

/-- Operations 185 … 255 of 470. -/
abbrev cL2a : List (HloOp τ sig (Elt F)) :=
  [ StableHlo.nullary main_c_14 (constantI S_ 32 0#32),
    StableHlo.unary main_c_14 main_v118 (broadcastInDim S1600000 ![] bcast_S_S1600000 : (⟨S_, .i32⟩ : BufTy).Contents (Elt F) → (⟨S1600000, .i32⟩ : BufTy).Contents (Elt F)),
    StableHlo.binary main_v1 main_v118 main_v119 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v120 (broadcastInDim S1600000 ![] bcast_S_S1600000 : (⟨S_, .i32⟩ : BufTy).Contents (Elt F) → (⟨S1600000, .i32⟩ : BufTy).Contents (Elt F)),
    StableHlo.binary main_v1 main_v120 main_v121 (addi : (⟨S1600000, .i32⟩ : BufTy).Contents (Elt F) → (⟨S1600000, .i32⟩ : BufTy).Contents (Elt F) → (⟨S1600000, .i32⟩ : BufTy).Contents (Elt F)),
    StableHlo.ternary main_v119 main_v121 main_v1 main_v122 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v122 main_v123 (broadcastInDim S1600000x1 ![0] bcast_S1600000_S1600000x1_0 : (⟨S1600000, .i32⟩ : BufTy).Contents (Elt F) → (⟨S1600000x1, .i32⟩ : BufTy).Contents (Elt F)),
    StableHlo.binary main_v117 main_v123 main_v124 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v125 (broadcastInDim S100000x128 ![] bcast_S_S100000x128 : (⟨S_, .f32⟩ : BufTy).Contents (Elt F) → (⟨S100000x128, .f32⟩ : BufTy).Contents (Elt F)),
    StableHlo.unary main_v3 main_v126 (broadcastInDim S1600000x1 ![0] bcast_S1600000_S1600000x1_0 : (⟨S1600000, .i32⟩ : BufTy).Contents (Elt F) → (⟨S1600000x1, .i32⟩ : BufTy).Contents (Elt F)),
    StableHlo.ternary main_v125 main_v126 main_v124 main_v127 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg7 main_v128 ((extractStridedSlice S1 ![2] · slices_S4_S1_2) : (⟨S4, .f32⟩ : BufTy).Contents (Elt F) → (⟨S1, .f32⟩ : BufTy).Contents (Elt F)),
    StableHlo.reshape main_v128 main_v129 rfl shapeCasts_S1_S_,
    StableHlo.nullary main_cst_17 (constant S_ .f32 0x3F800000#32),
    StableHlo.binary main_cst_17 main_v129 main_v130 (addf : (⟨S_, .f32⟩ : BufTy).Contents (Elt F) → (⟨S_, .f32⟩ : BufTy).Contents (Elt F) → (⟨S_, .f32⟩ : BufTy).Contents (Elt F)),
    StableHlo.unary main_v130 main_v131 (broadcastInDim S100000x128 ![] bcast_S_S100000x128 : (⟨S_, .f32⟩ : BufTy).Contents (Elt F) → (⟨S100000x128, .f32⟩ : BufTy).Contents (Elt F)),
    StableHlo.binary main_v131 main_v117 main_v132 (mulf : (⟨S100000x128, .f32⟩ : BufTy).Contents (Elt F) → (⟨S100000x128, .f32⟩ : BufTy).Contents (Elt F) → (⟨S100000x128, .f32⟩ : BufTy).Contents (Elt F)),
    StableHlo.binary main_v132 main_v127 main_v133 (addf : (⟨S100000x128, .f32⟩ : BufTy).Contents (Elt F) → (⟨S100000x128, .f32⟩ : BufTy).Contents (Elt F) → (⟨S100000x128, .f32⟩ : BufTy).Contents (Elt F)),
    StableHlo.unary main_arg1 main_v134 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v134 main_v135 rfl shapeCasts_S1x128x128_S128x128,
    StableHlo.binary main_v133 main_v135 main_v136 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v137 ((extractStridedSlice S1x128 ![2, 0] · slices_S4x128_S1x128_2_0) : (⟨S4x128, .f32⟩ : BufTy).Contents (Elt F) → (⟨S1x128, .f32⟩ : BufTy).Contents (Elt F)),
    StableHlo.reshape main_v137 main_v138 rfl shapeCasts_S1x128_S128,
    StableHlo.unary main_v138 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S100000x128 ![0, 1] bcast_S1x128_S100000x128_0_1 : (⟨S1x128, .f32⟩ : BufTy).Contents (Elt F) → (⟨S100000x128, .f32⟩ : BufTy).Contents (Elt F)),
    StableHlo.binary main_v136 main_v140 main_v141 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v141 : StableHlo.TRef sig ⟨S100000x128, .f32⟩) main_call6.v0 main_call6.v1 maximumf,
    StableHlo.unary main_arg3 main_v143 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v143 main_v144 rfl shapeCasts_S1x128x128_S128x128,
    StableHlo.binary main_v142 main_v144 main_v145 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v146 ((extractStridedSlice S1x128 ![2, 0] · slices_S4x128_S1x128_2_0) : (⟨S4x128, .f32⟩ : BufTy).Contents (Elt F) → (⟨S1x128, .f32⟩ : BufTy).Contents (Elt F)),
    StableHlo.reshape main_v146 main_v147 rfl shapeCasts_S1x128_S128,
    StableHlo.unary main_v147 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S100000x128 ![0, 1] bcast_S1x128_S100000x128_0_1 : (⟨S1x128, .f32⟩ : BufTy).Contents (Elt F) → (⟨S100000x128, .f32⟩ : BufTy).Contents (Elt F)),
    StableHlo.binary main_v145 main_v149 main_v150 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v150 : StableHlo.TRef sig ⟨S100000x128, .f32⟩) main_call7.v0 main_call7.v1 maximumf,
    StableHlo.nullary main_cst_18 (constant S_ .f32 0x00000000#32),
    StableHlo.binary main_v151 main_cst_18 main_v152 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v153 (broadcastInDim S128 ![] bcast_S_S128 : (⟨S_, .f32⟩ : BufTy).Contents (Elt F) → (⟨S128, .f32⟩ : BufTy).Contents (Elt F)),
    StableHlo.binary main_v152 main_v153 main_v154 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call8.cst (constant S_ .f32 0x00000000#32),
    StableHlo.TRef.binary (.of main_v151 : StableHlo.TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v151 : StableHlo.TRef sig ⟨S100000x128, .f32⟩) main_call8.v4 main_call8.v5 subf,
    StableHlo.TRef.binary main_call8.v5 main_call8.v5 main_call8.v6 mulf,
    StableHlo.TRef.unary (.of main_c_20 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v154 main_v156 (broadcastInDim S1x128 ![1] bcast_S128_S1x128_1 : (⟨S128, .f32⟩ : BufTy).Contents (Elt F) → (⟨S1x128, .f32⟩ : BufTy).Contents (Elt F)) ]
/-- The buffers the operations of `cL2a` write. -/
abbrev cL2a_W : List (Ref sig .tc) := [main_c_14, main_v118, main_v119, main_c_15, main_v120, main_v121, main_v122, main_v123, main_v124, main_cst_16, main_v125, main_v126, main_v127, main_v128, main_v129, main_cst_17, main_v130, main_v131, main_v132, main_v133, main_v134, main_v135, main_v136, main_v137, main_v138, main_v139, main_v140, main_v141, main_call6_cst, main_call6_v0, main_v142, main_v143, main_v144, main_v145, main_v146, main_v147, main_v148, main_v149, main_v150, main_call7_cst, main_call7_v0, main_v151, main_cst_18, main_v152, main_cst_19, main_v153, main_v154, main_c_20, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v155, main_v156]

/-- Operations 256 … 274 of 470. -/
abbrev cL2b : List (HloOp τ sig (Elt F)) :=
  [ StableHlo.unary main_v156 main_v157 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v157 main_v158 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v159 (broadcastInDim S128 ![] bcast_S_S128 : (⟨S_, .f32⟩ : BufTy).Contents (Elt F) → (⟨S128, .f32⟩ : BufTy).Contents (Elt F)),
    StableHlo.binary main_v155 main_v159 main_v160 (addf : (⟨S128, .f32⟩ : BufTy).Contents (Elt F) → (⟨S128, .f32⟩ : BufTy).Contents (Elt F) → (⟨S128, .f32⟩ : BufTy).Contents (Elt F)),
    StableHlo.unary main_v160 main_v161 (Host.rsqrt : (⟨S128, .f32⟩ : BufTy).Contents (Elt F) → (⟨S128, .f32⟩ : BufTy).Contents (Elt F)),
    StableHlo.unary main_v161 main_v162 (broadcastInDim S1x128 ![1] bcast_S128_S1x128_1 : (⟨S128, .f32⟩ : BufTy).Contents (Elt F) → (⟨S1x128, .f32⟩ : BufTy).Contents (Elt F)),
    StableHlo.unary main_v162 main_v163 (broadcastInDim S100000x128 ![0, 1] bcast_S1x128_S100000x128_0_1 : (⟨S1x128, .f32⟩ : BufTy).Contents (Elt F) → (⟨S100000x128, .f32⟩ : BufTy).Contents (Elt F)),
    StableHlo.binary main_v158 main_v163 main_v164 (mulf : (⟨S100000x128, .f32⟩ : BufTy).Contents (Elt F) → (⟨S100000x128, .f32⟩ : BufTy).Contents (Elt F) → (⟨S100000x128, .f32⟩ : BufTy).Contents (Elt F)),
    StableHlo.unary main_arg5 main_v165 ((extractStridedSlice S1x128 ![2, 0] · slices_S4x128_S1x128_2_0) : (⟨S4x128, .f32⟩ : BufTy).Contents (Elt F) → (⟨S1x128, .f32⟩ : BufTy).Contents (Elt F)),
    StableHlo.reshape main_v165 main_v166 rfl shapeCasts_S1x128_S128,
    StableHlo.unary main_v166 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S100000x128 ![0, 1] bcast_S1x128_S100000x128_0_1 : (⟨S1x128, .f32⟩ : BufTy).Contents (Elt F) → (⟨S100000x128, .f32⟩ : BufTy).Contents (Elt F)),
    StableHlo.binary main_v164 main_v168 main_v169 (mulf : (⟨S100000x128, .f32⟩ : BufTy).Contents (Elt F) → (⟨S100000x128, .f32⟩ : BufTy).Contents (Elt F) → (⟨S100000x128, .f32⟩ : BufTy).Contents (Elt F)),
    StableHlo.unary main_arg6 main_v170 ((extractStridedSlice S1x128 ![2, 0] · slices_S4x128_S1x128_2_0) : (⟨S4x128, .f32⟩ : BufTy).Contents (Elt F) → (⟨S1x128, .f32⟩ : BufTy).Contents (Elt F)),
    StableHlo.reshape main_v170 main_v171 rfl shapeCasts_S1x128_S128,
    StableHlo.unary main_v171 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S100000x128 ![0, 1] bcast_S1x128_S100000x128_0_1 : (⟨S1x128, .f32⟩ : BufTy).Contents (Elt F) → (⟨S100000x128, .f32⟩ : BufTy).Contents (Elt F)),
    StableHlo.binary main_v169 main_v173 main_v174 (addf : (⟨S100000x128, .f32⟩ : BufTy).Contents (Elt F) → (⟨S100000x128, .f32⟩ : BufTy).Contents (Elt F) → (⟨S100000x128, .f32⟩ : BufTy).Contents (Elt F)) ]
/-- The buffers the operations of `cL2b` write. -/
abbrev cL2b_W : List (Ref sig .tc) := [main_v157, main_v158, main_cst_21, main_v159, main_v160, main_v161, main_v162, main_v163, main_v164, main_v165, main_v166, main_v167, main_v168, main_v169, main_v170, main_v171, main_v172, main_v173, main_v174]

/-- Operations 275 … 319 of 470. -/
abbrev cL3a : List (HloOp τ sig (Elt F)) :=
  [ StableHlo.nullary main_c_22 (constantI S_ 32 0#32),
    StableHlo.unary main_c_22 main_v175 (broadcastInDim S1600000 ![] bcast_S_S1600000 : (⟨S_, .i32⟩ : BufTy).Contents (Elt F) → (⟨S1600000, .i32⟩ : BufTy).Contents (Elt F)),
    StableHlo.binary main_v1 main_v175 main_v176 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v177 (broadcastInDim S1600000 ![] bcast_S_S1600000 : (⟨S_, .i32⟩ : BufTy).Contents (Elt F) → (⟨S1600000, .i32⟩ : BufTy).Contents (Elt F)),
    StableHlo.binary main_v1 main_v177 main_v178 (addi : (⟨S1600000, .i32⟩ : BufTy).Contents (Elt F) → (⟨S1600000, .i32⟩ : BufTy).Contents (Elt F) → (⟨S1600000, .i32⟩ : BufTy).Contents (Elt F)),
    StableHlo.ternary main_v176 main_v178 main_v1 main_v179 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v179 main_v180 (broadcastInDim S1600000x1 ![0] bcast_S1600000_S1600000x1_0 : (⟨S1600000, .i32⟩ : BufTy).Contents (Elt F) → (⟨S1600000x1, .i32⟩ : BufTy).Contents (Elt F)),
    StableHlo.binary main_v174 main_v180 main_v181 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_24 (constant S_ .f32 0x00000000#32),
    StableHlo.unary main_cst_24 main_v182 (broadcastInDim S100000x128 ![] bcast_S_S100000x128 : (⟨S_, .f32⟩ : BufTy).Contents (Elt F) → (⟨S100000x128, .f32⟩ : BufTy).Contents (Elt F)),
    StableHlo.unary main_v3 main_v183 (broadcastInDim S1600000x1 ![0] bcast_S1600000_S1600000x1_0 : (⟨S1600000, .i32⟩ : BufTy).Contents (Elt F) → (⟨S1600000x1, .i32⟩ : BufTy).Contents (Elt F)),
    StableHlo.ternary main_v182 main_v183 main_v181 main_v184 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg7 main_v185 ((extractStridedSlice S1 ![3] · slices_S4_S1_3) : (⟨S4, .f32⟩ : BufTy).Contents (Elt F) → (⟨S1, .f32⟩ : BufTy).Contents (Elt F)),
    StableHlo.reshape main_v185 main_v186 rfl shapeCasts_S1_S_,
    StableHlo.nullary main_cst_25 (constant S_ .f32 0x3F800000#32),
    StableHlo.binary main_cst_25 main_v186 main_v187 (addf : (⟨S_, .f32⟩ : BufTy).Contents (Elt F) → (⟨S_, .f32⟩ : BufTy).Contents (Elt F) → (⟨S_, .f32⟩ : BufTy).Contents (Elt F)),
    StableHlo.unary main_v187 main_v188 (broadcastInDim S100000x128 ![] bcast_S_S100000x128 : (⟨S_, .f32⟩ : BufTy).Contents (Elt F) → (⟨S100000x128, .f32⟩ : BufTy).Contents (Elt F)),
    StableHlo.binary main_v188 main_v174 main_v189 (mulf : (⟨S100000x128, .f32⟩ : BufTy).Contents (Elt F) → (⟨S100000x128, .f32⟩ : BufTy).Contents (Elt F) → (⟨S100000x128, .f32⟩ : BufTy).Contents (Elt F)),
    StableHlo.binary main_v189 main_v184 main_v190 (addf : (⟨S100000x128, .f32⟩ : BufTy).Contents (Elt F) → (⟨S100000x128, .f32⟩ : BufTy).Contents (Elt F) → (⟨S100000x128, .f32⟩ : BufTy).Contents (Elt F)),
    StableHlo.unary main_arg1 main_v191 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v191 main_v192 rfl shapeCasts_S1x128x128_S128x128,
    StableHlo.binary main_v190 main_v192 main_v193 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v194 ((extractStridedSlice S1x128 ![3, 0] · slices_S4x128_S1x128_3_0) : (⟨S4x128, .f32⟩ : BufTy).Contents (Elt F) → (⟨S1x128, .f32⟩ : BufTy).Contents (Elt F)),
    StableHlo.reshape main_v194 main_v195 rfl shapeCasts_S1x128_S128,
    StableHlo.unary main_v195 main_v196 (broadcastInDim S1x128 ![1] bcast_S128_S1x128_1 : (⟨S128, .f32⟩ : BufTy).Contents (Elt F) → (⟨S1x128, .f32⟩ : BufTy).Contents (Elt F)),
    StableHlo.unary main_v196 main_v197 (broadcastInDim S100000x128 ![0, 1] bcast_S1x128_S100000x128_0_1 : (⟨S1x128, .f32⟩ : BufTy).Contents (Elt F) → (⟨S100000x128, .f32⟩ : BufTy).Contents (Elt F)),
    StableHlo.binary main_v193 main_v197 main_v198 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v198 : StableHlo.TRef sig ⟨S100000x128, .f32⟩) main_call9.v0 main_call9.v1 maximumf,
    StableHlo.unary main_arg3 main_v200 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v200 main_v201 rfl shapeCasts_S1x128x128_S128x128,
    StableHlo.binary main_v199 main_v201 main_v202 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v203 ((extractStridedSlice S1x128 ![3, 0] · slices_S4x128_S1x128_3_0) : (⟨S4x128, .f32⟩ : BufTy).Contents (Elt F) → (⟨S1x128, .f32⟩ : BufTy).Contents (Elt F)),
    StableHlo.reshape main_v203 main_v204 rfl shapeCasts_S1x128_S128,
    StableHlo.unary main_v204 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S100000x128 ![0, 1] bcast_S1x128_S100000x128_0_1 : (⟨S1x128, .f32⟩ : BufTy).Contents (Elt F) → (⟨S100000x128, .f32⟩ : BufTy).Contents (Elt F)),
    StableHlo.binary main_v202 main_v206 main_v207 (addf : (⟨S100000x128, .f32⟩ : BufTy).Contents (Elt F) → (⟨S100000x128, .f32⟩ : BufTy).Contents (Elt F) → (⟨S100000x128, .f32⟩ : BufTy).Contents (Elt F)),
    StableHlo.TRef.nullary main_call10.cst (constant S_ .f32 0x00000000#32),
    StableHlo.TRef.unary main_call10.cst main_call10.v0 (broadcastInDim S100000x128 ![] bcast_S_S100000x128),
    StableHlo.TRef.binary (.of main_v207 : StableHlo.TRef sig ⟨S100000x128, .f32⟩) main_call10.v0 main_call10.v1 maximumf,
    StableHlo.nullary main_cst_26 (constant S_ .f32 0x00000000#32),
    StableHlo.binary main_v208 main_cst_26 main_v209 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32) ]
/-- The buffers the operations of `cL3a` write. -/
abbrev cL3a_W : List (Ref sig .tc) := [main_c_22, main_v175, main_v176, main_c_23, main_v177, main_v178, main_v179, main_v180, main_v181, main_cst_24, main_v182, main_v183, main_v184, main_v185, main_v186, main_cst_25, main_v187, main_v188, main_v189, main_v190, main_v191, main_v192, main_v193, main_v194, main_v195, main_v196, main_v197, main_v198, main_call9_cst, main_call9_v0, main_v199, main_v200, main_v201, main_v202, main_v203, main_v204, main_v205, main_v206, main_v207, main_call10_cst, main_call10_v0, main_v208, main_cst_26, main_v209, main_cst_27]

/-- Operations 320 … 364 of 470. -/
abbrev cL3b : List (HloOp τ sig (Elt F)) :=
  [ StableHlo.unary main_cst_27 main_v210 (broadcastInDim S128 ![] bcast_S_S128 : (⟨S_, .f32⟩ : BufTy).Contents (Elt F) → (⟨S128, .f32⟩ : BufTy).Contents (Elt F)),
    StableHlo.binary main_v209 main_v210 main_v211 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call11.cst (constant S_ .f32 0x00000000#32),
    StableHlo.TRef.binary (.of main_v208 : StableHlo.TRef sig ⟨S100000x128, .f32⟩) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (.of main_v208 : StableHlo.TRef sig ⟨S100000x128, .f32⟩) main_call11.v4 main_call11.v5 subf,
    StableHlo.TRef.binary main_call11.v5 main_call11.v5 main_call11.v6 mulf,
    StableHlo.TRef.unary (.of main_c_28 : StableHlo.TRef sig ⟨S_, .i32⟩) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v211 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S100000x128 ![0, 1] bcast_S1x128_S100000x128_0_1 : (⟨S1x128, .f32⟩ : BufTy).Contents (Elt F) → (⟨S100000x128, .f32⟩ : BufTy).Contents (Elt F)),
    StableHlo.binary main_v208 main_v214 main_v215 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v216 (broadcastInDim S128 ![] bcast_S_S128 : (⟨S_, .f32⟩ : BufTy).Contents (Elt F) → (⟨S128, .f32⟩ : BufTy).Contents (Elt F)),
    StableHlo.binary main_v212 main_v216 main_v217 (addf : (⟨S128, .f32⟩ : BufTy).Contents (Elt F) → (⟨S128, .f32⟩ : BufTy).Contents (Elt F) → (⟨S128, .f32⟩ : BufTy).Contents (Elt F)),
    StableHlo.unary main_v217 main_v218 (Host.rsqrt : (⟨S128, .f32⟩ : BufTy).Contents (Elt F) → (⟨S128, .f32⟩ : BufTy).Contents (Elt F)),
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S100000x128 ![0, 1] bcast_S1x128_S100000x128_0_1 : (⟨S1x128, .f32⟩ : BufTy).Contents (Elt F) → (⟨S100000x128, .f32⟩ : BufTy).Contents (Elt F)),
    StableHlo.binary main_v215 main_v220 main_v221 (mulf : (⟨S100000x128, .f32⟩ : BufTy).Contents (Elt F) → (⟨S100000x128, .f32⟩ : BufTy).Contents (Elt F) → (⟨S100000x128, .f32⟩ : BufTy).Contents (Elt F)),
    StableHlo.unary main_arg5 main_v222 ((extractStridedSlice S1x128 ![3, 0] · slices_S4x128_S1x128_3_0) : (⟨S4x128, .f32⟩ : BufTy).Contents (Elt F) → (⟨S1x128, .f32⟩ : BufTy).Contents (Elt F)),
    StableHlo.reshape main_v222 main_v223 rfl shapeCasts_S1x128_S128,
    StableHlo.unary main_v223 main_v224 (broadcastInDim S1x128 ![1] bcast_S128_S1x128_1 : (⟨S128, .f32⟩ : BufTy).Contents (Elt F) → (⟨S1x128, .f32⟩ : BufTy).Contents (Elt F)),
    StableHlo.unary main_v224 main_v225 (broadcastInDim S100000x128 ![0, 1] bcast_S1x128_S100000x128_0_1 : (⟨S1x128, .f32⟩ : BufTy).Contents (Elt F) → (⟨S100000x128, .f32⟩ : BufTy).Contents (Elt F)),
    StableHlo.binary main_v221 main_v225 main_v226 (mulf : (⟨S100000x128, .f32⟩ : BufTy).Contents (Elt F) → (⟨S100000x128, .f32⟩ : BufTy).Contents (Elt F) → (⟨S100000x128, .f32⟩ : BufTy).Contents (Elt F)),
    StableHlo.unary main_arg6 main_v227 ((extractStridedSlice S1x128 ![3, 0] · slices_S4x128_S1x128_3_0) : (⟨S4x128, .f32⟩ : BufTy).Contents (Elt F) → (⟨S1x128, .f32⟩ : BufTy).Contents (Elt F)),
    StableHlo.reshape main_v227 main_v228 rfl shapeCasts_S1x128_S128,
    StableHlo.unary main_v228 main_v229 (broadcastInDim S1x128 ![1] bcast_S128_S1x128_1 : (⟨S128, .f32⟩ : BufTy).Contents (Elt F) → (⟨S1x128, .f32⟩ : BufTy).Contents (Elt F)),
    StableHlo.unary main_v229 main_v230 (broadcastInDim S100000x128 ![0, 1] bcast_S1x128_S100000x128_0_1 : (⟨S1x128, .f32⟩ : BufTy).Contents (Elt F) → (⟨S100000x128, .f32⟩ : BufTy).Contents (Elt F)),
    StableHlo.binary main_v226 main_v230 main_v231 (addf : (⟨S100000x128, .f32⟩ : BufTy).Contents (Elt F) → (⟨S100000x128, .f32⟩ : BufTy).Contents (Elt F) → (⟨S100000x128, .f32⟩ : BufTy).Contents (Elt F)) ]
/-- The buffers the operations of `cL3b` write. -/
abbrev cL3b_W : List (Ref sig .tc) := [main_v210, main_v211, main_c_28, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v212, main_v213, main_v214, main_v215, main_cst_29, main_v216, main_v217, main_v218, main_v219, main_v220, main_v221, main_v222, main_v223, main_v224, main_v225, main_v226, main_v227, main_v228, main_v229, main_v230, main_v231]

/-- Operations 365 … 365 of 470. -/
abbrev cEmb : List (HloOp τ sig (Elt F)) :=
  [ StableHlo.nary ![main_v60, main_v117, main_v174, main_v231] main_v232 (fun u => concatenate S100000x512 1 [⟨S100000x128, u 0⟩, ⟨S100000x128, u 1⟩, ⟨S100000x128, u 2⟩, ⟨S100000x128, u 3⟩] concatenates_S100000x128_S100000x128_S100000x128_S100000x128_S100000x512_d1) ]
/-- The buffers the operations of `cEmb` write. -/
abbrev cEmb_W : List (Ref sig .tc) := [main_v232]

/-- Operations 366 … 380 of 470. -/
abbrev cPool : List (HloOp τ sig (Elt F)) :=
  [ StableHlo.nullary main_cst_30 (constant S_ .f32 0x00000000#32),
    StableHlo.unary main_cst_30 main_v233 (broadcastInDim S64x512 ![] bcast_S_S64x512 : (⟨S_, .f32⟩ : BufTy).Contents (Elt F) → (⟨S64x512, .f32⟩ : BufTy).Contents (Elt F)),
    StableHlo.unary main_arg23 main_v234 (broadcastInDim S100000x1 ![0] bcast_S100000_S100000x1_0 : (⟨S100000, .i32⟩ : BufTy).Contents (Elt F) → (⟨S100000x1, .i32⟩ : BufTy).Contents (Elt F)),
    StableHlo.ternary main_v233 main_v234 main_v232 main_v235 ((fun x i u => Host.scatterAdd scatter_S64x512_S100000x1_S100000x512_1_0_0_1 x i u) : (⟨S64x512, .f32⟩ : BufTy).Contents (Elt F) → (⟨S100000x1, .i32⟩ : BufTy).Contents (Elt F) → (⟨S100000x512, .f32⟩ : BufTy).Contents (Elt F) → (⟨S64x512, .f32⟩ : BufTy).Contents (Elt F)),
    StableHlo.nullary main_cst_31 (constant S_ .f32 0x3F800000#32),
    StableHlo.unary main_cst_31 main_v236 (broadcastInDim S100000x1 ![] bcast_S_S100000x1 : (⟨S_, .f32⟩ : BufTy).Contents (Elt F) → (⟨S100000x1, .f32⟩ : BufTy).Contents (Elt F)),
    StableHlo.nullary main_cst_32 (constant S_ .f32 0x00000000#32),
    StableHlo.unary main_cst_32 main_v237 (broadcastInDim S64x1 ![] bcast_S_S64x1 : (⟨S_, .f32⟩ : BufTy).Contents (Elt F) → (⟨S64x1, .f32⟩ : BufTy).Contents (Elt F)),
    StableHlo.unary main_arg23 main_v238 (broadcastInDim S100000x1 ![0] bcast_S100000_S100000x1_0 : (⟨S100000, .i32⟩ : BufTy).Contents (Elt F) → (⟨S100000x1, .i32⟩ : BufTy).Contents (Elt F)),
    StableHlo.ternary main_v237 main_v238 main_v236 main_v239 ((fun x i u => Host.scatterAdd scatter_S64x1_S100000x1_S100000x1_1_0_0_1 x i u) : (⟨S64x1, .f32⟩ : BufTy).Contents (Elt F) → (⟨S100000x1, .i32⟩ : BufTy).Contents (Elt F) → (⟨S100000x1, .f32⟩ : BufTy).Contents (Elt F) → (⟨S64x1, .f32⟩ : BufTy).Contents (Elt F)),
    StableHlo.nullary main_cst_33 (constant S_ .f32 0x3F800000#32),
    StableHlo.unary main_cst_33 main_v240 (broadcastInDim S64x1 ![] bcast_S_S64x1 : (⟨S_, .f32⟩ : BufTy).Contents (Elt F) → (⟨S64x1, .f32⟩ : BufTy).Contents (Elt F)),
    StableHlo.binary main_v239 main_v240 main_v241 (maximumf : (⟨S64x1, .f32⟩ : BufTy).Contents (Elt F) → (⟨S64x1, .f32⟩ : BufTy).Contents (Elt F) → (⟨S64x1, .f32⟩ : BufTy).Contents (Elt F)),
    StableHlo.unary main_v241 main_v242 (broadcastInDim S64x512 ![0, 1] bcast_S64x1_S64x512_0_1 : (⟨S64x1, .f32⟩ : BufTy).Contents (Elt F) → (⟨S64x512, .f32⟩ : BufTy).Contents (Elt F)),
    StableHlo.binary main_v235 main_v242 main_v243 (Host.divf : (⟨S64x512, .f32⟩ : BufTy).Contents (Elt F) → (⟨S64x512, .f32⟩ : BufTy).Contents (Elt F) → (⟨S64x512, .f32⟩ : BufTy).Contents (Elt F)) ]
/-- The buffers the operations of `cPool` write. -/
abbrev cPool_W : List (Ref sig .tc) := [main_cst_30, main_v233, main_v234, main_v235, main_cst_31, main_v236, main_cst_32, main_v237, main_v238, main_v239, main_cst_33, main_v240, main_v241, main_v242, main_v243]

/-- Operations 381 … 420 of 470. -/
abbrev cCls : List (HloOp τ sig (Elt F)) :=
  [ StableHlo.binary main_v243 main_arg8 main_v244 ((fun l r => Host.dotGeneral dot_S64x512_S512x256_S64x256_1_0_0_1_n_n none l r) : (⟨S64x512, .f32⟩ : BufTy).Contents (Elt F) → (⟨S512x256, .f32⟩ : BufTy).Contents (Elt F) → (⟨S64x256, .f32⟩ : BufTy).Contents (Elt F)),
    StableHlo.unary main_arg9 main_v245 (broadcastInDim S1x256 ![1] bcast_S256_S1x256_1 : (⟨S256, .f32⟩ : BufTy).Contents (Elt F) → (⟨S1x256, .f32⟩ : BufTy).Contents (Elt F)),
    StableHlo.unary main_v245 main_v246 (broadcastInDim S64x256 ![0, 1] bcast_S1x256_S64x256_0_1 : (⟨S1x256, .f32⟩ : BufTy).Contents (Elt F) → (⟨S64x256, .f32⟩ : BufTy).Contents (Elt F)),
    StableHlo.binary main_v244 main_v246 main_v247 (addf : (⟨S64x256, .f32⟩ : BufTy).Contents (Elt F) → (⟨S64x256, .f32⟩ : BufTy).Contents (Elt F) → (⟨S64x256, .f32⟩ : BufTy).Contents (Elt F)),
    StableHlo.TRef.nullary main_call12.cst (constant S_ .f32 0x00000000#32),
    StableHlo.TRef.unary main_call12.cst main_call12.v0 (broadcastInDim S64x256 ![] bcast_S_S64x256),
    StableHlo.TRef.binary (.of main_v247 : StableHlo.TRef sig ⟨S64x256, .f32⟩) main_call12.v0 main_call12.v1 maximumf,
    StableHlo.binary main_v248 main_arg10 main_v249 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    StableHlo.unary main_arg11 main_v250 (broadcastInDim S1x128 ![1] bcast_S128_S1x128_1 : (⟨S128, .f32⟩ : BufTy).Contents (Elt F) → (⟨S1x128, .f32⟩ : BufTy).Contents (Elt F)),
    StableHlo.unary main_v250 main_v251 (broadcastInDim S64x128 ![0, 1] bcast_S1x128_S64x128_0_1 : (⟨S1x128, .f32⟩ : BufTy).Contents (Elt F) → (⟨S64x128, .f32⟩ : BufTy).Contents (Elt F)),
    StableHlo.binary main_v249 main_v251 main_v252 (addf : (⟨S64x128, .f32⟩ : BufTy).Contents (Elt F) → (⟨S64x128, .f32⟩ : BufTy).Contents (Elt F) → (⟨S64x128, .f32⟩ : BufTy).Contents (Elt F)),
    StableHlo.TRef.nullary main_call13.cst (constant S_ .f32 0x00000000#32),
    StableHlo.TRef.unary main_call13.cst main_call13.v0 (broadcastInDim S64x128 ![] bcast_S_S64x128),
    StableHlo.TRef.binary (.of main_v252 : StableHlo.TRef sig ⟨S64x128, .f32⟩) main_call13.v0 main_call13.v1 maximumf,
    StableHlo.binary main_v253 main_arg12 main_v254 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg13 main_v255 (broadcastInDim S1x128 ![1] bcast_S128_S1x128_1 : (⟨S128, .f32⟩ : BufTy).Contents (Elt F) → (⟨S1x128, .f32⟩ : BufTy).Contents (Elt F)),
    StableHlo.unary main_v255 main_v256 (broadcastInDim S64x128 ![0, 1] bcast_S1x128_S64x128_0_1 : (⟨S1x128, .f32⟩ : BufTy).Contents (Elt F) → (⟨S64x128, .f32⟩ : BufTy).Contents (Elt F)),
    StableHlo.binary main_v254 main_v256 main_v257 (addf : (⟨S64x128, .f32⟩ : BufTy).Contents (Elt F) → (⟨S64x128, .f32⟩ : BufTy).Contents (Elt F) → (⟨S64x128, .f32⟩ : BufTy).Contents (Elt F)),
    StableHlo.TRef.nullary main_call14.cst (constant S_ .f32 0x00000000#32),
    StableHlo.TRef.unary main_call14.cst main_call14.v0 (broadcastInDim S64x128 ![] bcast_S_S64x128),
    StableHlo.TRef.binary (.of main_v257 : StableHlo.TRef sig ⟨S64x128, .f32⟩) main_call14.v0 main_call14.v1 maximumf,
    StableHlo.binary main_v258 main_arg14 main_v259 ((fun l r => Host.dotGeneral dot_S64x128_S128x16_S64x16_1_0_0_1_n_n none l r) : (⟨S64x128, .f32⟩ : BufTy).Contents (Elt F) → (⟨S128x16, .f32⟩ : BufTy).Contents (Elt F) → (⟨S64x16, .f32⟩ : BufTy).Contents (Elt F)),
    StableHlo.unary main_arg15 main_v260 (broadcastInDim S1x16 ![1] bcast_S16_S1x16_1 : (⟨S16, .f32⟩ : BufTy).Contents (Elt F) → (⟨S1x16, .f32⟩ : BufTy).Contents (Elt F)),
    StableHlo.unary main_v260 main_v261 (broadcastInDim S64x16 ![0, 1] bcast_S1x16_S64x16_0_1 : (⟨S1x16, .f32⟩ : BufTy).Contents (Elt F) → (⟨S64x16, .f32⟩ : BufTy).Contents (Elt F)),
    StableHlo.binary main_v259 main_v261 main_v262 (addf : (⟨S64x16, .f32⟩ : BufTy).Contents (Elt F) → (⟨S64x16, .f32⟩ : BufTy).Contents (Elt F) → (⟨S64x16, .f32⟩ : BufTy).Contents (Elt F)),
    StableHlo.TRef.nullary main_call15.cst (constant S_ .f32 0xFF800000#32),
    StableHlo.TRef.binary (.of main_v262 : StableHlo.TRef sig ⟨S64x16, .f32⟩) main_call15.cst main_call15.v0 (fun x v => Host.reduce FloatOps.maximumf x v reducesTo_S64x16_S64_d1 h_S_),
    StableHlo.TRef.nullary main_call15.cst_0 (constant S_ .f32 0xFF800000#32),
    StableHlo.TRef.unary main_call15.cst_0 main_call15.v1 (broadcastInDim S64 ![] bcast_S_S64),
    StableHlo.TRef.binary main_call15.v1 main_call15.v0 main_call15.v2 maximumf,
    StableHlo.TRef.unary main_call15.v2 main_call15.v3 (broadcastInDim S64x1 ![0] bcast_S64_S64x1_0),
    StableHlo.TRef.unary main_call15.v3 main_call15.v4 (broadcastInDim S64x16 ![0, 1] bcast_S64x1_S64x16_0_1),
    StableHlo.TRef.binary (.of main_v262 : StableHlo.TRef sig ⟨S64x16, .f32⟩) main_call15.v4 main_call15.v5 subf,
    StableHlo.TRef.unary main_call15.v5 main_call15.v6 Host.exp,
    StableHlo.TRef.nullary main_call15.cst_1 (constant S_ .f32 0x00000000#32),
    StableHlo.TRef.binary main_call15.v6 main_call15.cst_1 main_call15.v7 (fun x v => Host.reduceAdd x v reducesTo_S64x16_S64_d1 h_S_),
    StableHlo.TRef.unary main_call15.v7 main_call15.v8 (broadcastInDim S64x1 ![0] bcast_S64_S64x1_0),
    StableHlo.TRef.unary main_call15.v8 main_call15.v9 Host.log,
    StableHlo.TRef.unary main_call15.v9 main_call15.v10 (broadcastInDim S64x16 ![0, 1] bcast_S64x1_S64x16_0_1),
    StableHlo.TRef.binary main_call15.v5 main_call15.v10 main_call15.v11 subf ]
/-- The buffers the operations of `cCls` write. -/
abbrev cCls_W : List (Ref sig .tc) := [main_v244, main_v245, main_v246, main_v247, main_call12_cst, main_call12_v0, main_v248, main_v249, main_v250, main_v251, main_v252, main_call13_cst, main_call13_v0, main_v253, main_v254, main_v255, main_v256, main_v257, main_call14_cst, main_call14_v0, main_v258, main_v259, main_v260, main_v261, main_v262, main_call15_cst, main_call15_v0, main_call15_cst_0, main_call15_v1, main_call15_v2, main_call15_v3, main_call15_v4, main_call15_v5, main_call15_v6, main_call15_cst_1, main_call15_v7, main_call15_v8, main_call15_v9, main_call15_v10, main_v263]

/-- Operations 421 … 470 of 470. -/
abbrev cEdge : List (HloOp τ sig (Elt F)) :=
  [ StableHlo.unary main_arg24 main_v264 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v264 main_v265 rfl shapeCasts_S1x100000_S100000,
    StableHlo.nullary main_c_34 (constantI S_ 32 0#32),
    StableHlo.unary main_c_34 main_v266 (broadcastInDim S100000 ![] bcast_S_S100000 : (⟨S_, .i32⟩ : BufTy).Contents (Elt F) → (⟨S100000, .i32⟩ : BufTy).Contents (Elt F)),
    StableHlo.binary main_v265 main_v266 main_v267 (cmpi .slt : (⟨S100000, .i32⟩ : BufTy).Contents (Elt F) → (⟨S100000, .i32⟩ : BufTy).Contents (Elt F) → (⟨S100000, .i1⟩ : BufTy).Contents (Elt F)),
    StableHlo.nullary main_c_35 (constantI S_ 32 100000#32),
    StableHlo.unary main_c_35 main_v268 (broadcastInDim S100000 ![] bcast_S_S100000 : (⟨S_, .i32⟩ : BufTy).Contents (Elt F) → (⟨S100000, .i32⟩ : BufTy).Contents (Elt F)),
    StableHlo.binary main_v265 main_v268 main_v269 (addi : (⟨S100000, .i32⟩ : BufTy).Contents (Elt F) → (⟨S100000, .i32⟩ : BufTy).Contents (Elt F) → (⟨S100000, .i32⟩ : BufTy).Contents (Elt F)),
    StableHlo.ternary main_v267 main_v269 main_v265 main_v270 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v270 main_v271 (broadcastInDim S100000x1 ![0] bcast_S100000_S100000x1_0 : (⟨S100000, .i32⟩ : BufTy).Contents (Elt F) → (⟨S100000x1, .i32⟩ : BufTy).Contents (Elt F)),
    StableHlo.binary main_v232 main_v271 main_v272 ((fun x i => Host.gather gather_S100000x512_S100000x1_S100000x512_1_0_n_n_0_1_1512 x i) : (⟨S100000x512, .f32⟩ : BufTy).Contents (Elt F) → (⟨S100000x1, .i32⟩ : BufTy).Contents (Elt F) → (⟨S100000x512, .f32⟩ : BufTy).Contents (Elt F)),
    StableHlo.unary main_arg24 main_v273 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v273 main_v274 rfl shapeCasts_S1x100000_S100000,
    StableHlo.nullary main_c_36 (constantI S_ 32 0#32),
    StableHlo.unary main_c_36 main_v275 (broadcastInDim S100000 ![] bcast_S_S100000 : (⟨S_, .i32⟩ : BufTy).Contents (Elt F) → (⟨S100000, .i32⟩ : BufTy).Contents (Elt F)),
    StableHlo.binary main_v274 main_v275 main_v276 (cmpi .slt : (⟨S100000, .i32⟩ : BufTy).Contents (Elt F) → (⟨S100000, .i32⟩ : BufTy).Contents (Elt F) → (⟨S100000, .i1⟩ : BufTy).Contents (Elt F)),
    StableHlo.nullary main_c_37 (constantI S_ 32 100000#32),
    StableHlo.unary main_c_37 main_v277 (broadcastInDim S100000 ![] bcast_S_S100000 : (⟨S_, .i32⟩ : BufTy).Contents (Elt F) → (⟨S100000, .i32⟩ : BufTy).Contents (Elt F)),
    StableHlo.binary main_v274 main_v277 main_v278 (addi : (⟨S100000, .i32⟩ : BufTy).Contents (Elt F) → (⟨S100000, .i32⟩ : BufTy).Contents (Elt F) → (⟨S100000, .i32⟩ : BufTy).Contents (Elt F)),
    StableHlo.ternary main_v276 main_v278 main_v274 main_v279 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v279 main_v280 (broadcastInDim S100000x1 ![0] bcast_S100000_S100000x1_0 : (⟨S100000, .i32⟩ : BufTy).Contents (Elt F) → (⟨S100000x1, .i32⟩ : BufTy).Contents (Elt F)),
    StableHlo.binary main_v232 main_v280 main_v281 ((fun x i => Host.gather gather_S100000x512_S100000x1_S100000x512_1_0_n_n_0_1_1512 x i) : (⟨S100000x512, .f32⟩ : BufTy).Contents (Elt F) → (⟨S100000x1, .i32⟩ : BufTy).Contents (Elt F) → (⟨S100000x512, .f32⟩ : BufTy).Contents (Elt F)),
    StableHlo.binary main_v272 main_v281 main_v282 ((fun a b => concatenate S100000x1024 1 [⟨S100000x512, a⟩, ⟨S100000x512, b⟩] concatenates_S100000x512_S100000x512_S100000x1024_d1) : (⟨S100000x512, .f32⟩ : BufTy).Contents (Elt F) → (⟨S100000x512, .f32⟩ : BufTy).Contents (Elt F) → (⟨S100000x1024, .f32⟩ : BufTy).Contents (Elt F)),
    StableHlo.binary main_v282 main_arg16 main_v283 ((fun l r => Host.dotGeneral dot_S100000x1024_S1024x256_S100000x256_1_0_0_1_n_n none l r) : (⟨S100000x1024, .f32⟩ : BufTy).Contents (Elt F) → (⟨S1024x256, .f32⟩ : BufTy).Contents (Elt F) → (⟨S100000x256, .f32⟩ : BufTy).Contents (Elt F)),
    StableHlo.unary main_arg17 main_v284 (broadcastInDim S1x256 ![1] bcast_S256_S1x256_1 : (⟨S256, .f32⟩ : BufTy).Contents (Elt F) → (⟨S1x256, .f32⟩ : BufTy).Contents (Elt F)),
    StableHlo.unary main_v284 main_v285 (broadcastInDim S100000x256 ![0, 1] bcast_S1x256_S100000x256_0_1 : (⟨S1x256, .f32⟩ : BufTy).Contents (Elt F) → (⟨S100000x256, .f32⟩ : BufTy).Contents (Elt F)),
    StableHlo.binary main_v283 main_v285 main_v286 (addf : (⟨S100000x256, .f32⟩ : BufTy).Contents (Elt F) → (⟨S100000x256, .f32⟩ : BufTy).Contents (Elt F) → (⟨S100000x256, .f32⟩ : BufTy).Contents (Elt F)),
    StableHlo.TRef.nullary main_call16.cst (constant S_ .f32 0x00000000#32),
    StableHlo.TRef.unary main_call16.cst main_call16.v0 (broadcastInDim S100000x256 ![] bcast_S_S100000x256),
    StableHlo.TRef.binary (.of main_v286 : StableHlo.TRef sig ⟨S100000x256, .f32⟩) main_call16.v0 main_call16.v1 maximumf,
    StableHlo.binary main_v287 main_arg18 main_v288 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg19 main_v289 (broadcastInDim S1x128 ![1] bcast_S128_S1x128_1 : (⟨S128, .f32⟩ : BufTy).Contents (Elt F) → (⟨S1x128, .f32⟩ : BufTy).Contents (Elt F)),
    StableHlo.unary main_v289 main_v290 (broadcastInDim S100000x128 ![0, 1] bcast_S1x128_S100000x128_0_1 : (⟨S1x128, .f32⟩ : BufTy).Contents (Elt F) → (⟨S100000x128, .f32⟩ : BufTy).Contents (Elt F)),
    StableHlo.binary main_v288 main_v290 main_v291 (addf : (⟨S100000x128, .f32⟩ : BufTy).Contents (Elt F) → (⟨S100000x128, .f32⟩ : BufTy).Contents (Elt F) → (⟨S100000x128, .f32⟩ : BufTy).Contents (Elt F)),
    StableHlo.TRef.nullary main_call17.cst (constant S_ .f32 0x00000000#32),
    StableHlo.TRef.unary main_call17.cst main_call17.v0 (broadcastInDim S100000x128 ![] bcast_S_S100000x128),
    StableHlo.TRef.binary (.of main_v291 : StableHlo.TRef sig ⟨S100000x128, .f32⟩) main_call17.v0 main_call17.v1 maximumf,
    StableHlo.binary main_v292 main_arg20 main_v293 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.unary main_arg21 main_v294 (broadcastInDim S1x1 ![1] bcast_S1_S1x1_1 : (⟨S1, .f32⟩ : BufTy).Contents (Elt F) → (⟨S1x1, .f32⟩ : BufTy).Contents (Elt F)),
    StableHlo.unary main_v294 main_v295 (broadcastInDim S100000x1 ![0, 1] bcast_S1x1_S100000x1_0_1 : (⟨S1x1, .f32⟩ : BufTy).Contents (Elt F) → (⟨S100000x1, .f32⟩ : BufTy).Contents (Elt F)),
    StableHlo.binary main_v293 main_v295 main_v296 (addf : (⟨S100000x1, .f32⟩ : BufTy).Contents (Elt F) → (⟨S100000x1, .f32⟩ : BufTy).Contents (Elt F) → (⟨S100000x1, .f32⟩ : BufTy).Contents (Elt F)),
    StableHlo.reshape main_v296 main_v297 rfl shapeCasts_S100000x1_S100000,
    StableHlo.unary main_v297 main_v298 (Host.negf : (⟨S100000, .f32⟩ : BufTy).Contents (Elt F) → (⟨S100000, .f32⟩ : BufTy).Contents (Elt F)),
    StableHlo.unary main_v298 main_v299 (Host.exp : (⟨S100000, .f32⟩ : BufTy).Contents (Elt F) → (⟨S100000, .f32⟩ : BufTy).Contents (Elt F)),
    StableHlo.nullary main_cst_38 (constant S_ .f32 0x3F800000#32),
    StableHlo.unary main_cst_38 main_v300 (broadcastInDim S100000 ![] bcast_S_S100000 : (⟨S_, .f32⟩ : BufTy).Contents (Elt F) → (⟨S100000, .f32⟩ : BufTy).Contents (Elt F)),
    StableHlo.binary main_v300 main_v299 main_v301 (addf : (⟨S100000, .f32⟩ : BufTy).Contents (Elt F) → (⟨S100000, .f32⟩ : BufTy).Contents (Elt F) → (⟨S100000, .f32⟩ : BufTy).Contents (Elt F)),
    StableHlo.nullary main_cst_39 (constant S_ .f32 0x3F800000#32),
    StableHlo.unary main_cst_39 main_v302 (broadcastInDim S100000 ![] bcast_S_S100000 : (⟨S_, .f32⟩ : BufTy).Contents (Elt F) → (⟨S100000, .f32⟩ : BufTy).Contents (Elt F)),
    StableHlo.binary main_v302 main_v301 main_v303 (Host.divf : (⟨S100000, .f32⟩ : BufTy).Contents (Elt F) → (⟨S100000, .f32⟩ : BufTy).Contents (Elt F) → (⟨S100000, .f32⟩ : BufTy).Contents (Elt F)) ]
/-- The buffers the operations of `cEdge` write. -/
abbrev cEdge_W : List (Ref sig .tc) := [main_v264, main_v265, main_c_34, main_v266, main_v267, main_c_35, main_v268, main_v269, main_v270, main_v271, main_v272, main_v273, main_v274, main_c_36, main_v275, main_v276, main_c_37, main_v277, main_v278, main_v279, main_v280, main_v281, main_v282, main_v283, main_v284, main_v285, main_v286, main_call16_cst, main_call16_v0, main_v287, main_v288, main_v289, main_v290, main_v291, main_call17_cst, main_call17_v0, main_v292, main_v293, main_v294, main_v295, main_v296, main_v297, main_v298, main_v299, main_cst_38, main_v300, main_v301, main_cst_39, main_v302, main_v303]

/-- Every operation of the program, in order. -/
abbrev ops : List (HloOp τ sig (Elt F)) :=
  cL0a ++ cL0b ++ cL1a ++ cL1b ++ cL2a ++ cL2b ++ cL3a ++ cL3b ++ cEmb ++ cPool ++ cCls ++ cEdge

end Cert.ReferenceIdeal.HandRun

end
-- ==== Proof.Ref.MainEq.lean ====
/- The printed program is the straight line of its operations: each printed window unfolds, its calls inlined, to the
   sequence of the lists it covers, and the windows in order are the whole list. -/
import proofs.«118347_j18940805776024_1_alg».proof.Proof.Ref.Ops

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 0 of the printed program is the sequence of its operations. -/
theorem main_part0_eq (c : Dev nD) : main_part0 (F := F) c = seq (cL0a) := by
  simp only [main_part0, fn_relu.body, fn_relu_0.body, fn_relu_1.body, fn_relu_2.body, fn_var.body, fn_where.body, fn_log_softmax.body, cL0a, List.cons_append, List.nil_append, seq, bind_assoc, pure_bind]
  all_goals rfl

set_option maxRecDepth 16384 in
set_option maxHeartbeats 4000000 in
/-- Window 1 of the printed program is the sequence of its operations. -/
theorem main_part1_eq (c : Dev nD) : main_part1 (F := F) c = seq (cL0b ++ cL1a) := by
  simp only [main_part1, fn_relu.body, fn_relu_0.body, fn_relu_1.body, fn_relu_2.body, fn_var.body, fn_where.body, fn_log_softmax.body, cL0b, cL1a, List.cons_append, List.nil_append, seq, bind_assoc, pure_bind]
  all_goals rfl

set_option maxRecDepth 16384 in
set_option maxHeartbeats 4000000 in
/-- Window 2 of the printed program is the sequence of its operations. -/
theorem main_part2_eq (c : Dev nD) : main_part2 (F := F) c = seq (cL1b ++ cL2a) := by
  simp only [main_part2, fn_relu.body, fn_relu_0.body, fn_relu_1.body, fn_relu_2.body, fn_var.body, fn_where.body, fn_log_softmax.body, cL1b, cL2a, List.cons_append, List.nil_append, seq, bind_assoc, pure_bind]
  all_goals rfl

set_option maxRecDepth 16384 in
set_option maxHeartbeats 4000000 in
/-- Window 3 of the printed program is the sequence of its operations. -/
theorem main_part3_eq (c : Dev nD) : main_part3 (F := F) c = seq (cL2b ++ cL3a) := by
  simp only [main_part3, fn_relu.body, fn_relu_0.body, fn_relu_1.body, fn_relu_2.body, fn_var.body, fn_where.body, fn_log_softmax.body, cL2b, cL3a, List.cons_append, List.nil_append, seq, bind_assoc, pure_bind]
  all_goals rfl

set_option maxRecDepth 16384 in
set_option maxHeartbeats 4000000 in
/-- Window 4 of the printed program is the sequence of its operations. -/
theorem main_part4_eq (c : Dev nD) : main_part4 (F := F) c = seq (cL3b ++ cEmb ++ cPool ++ cCls) := by
  simp only [main_part4, fn_relu.body, fn_relu_0.body, fn_relu_1.body, fn_relu_2.body, fn_var.body, fn_where.body, fn_log_softmax.body, cL3b, cEmb, cPool, cCls, List.cons_append, List.nil_append, seq, bind_assoc, pure_bind]
  all_goals rfl

set_option maxRecDepth 16384 in
set_option maxHeartbeats 4000000 in
/-- Window 5 of the printed program is the sequence of its operations. -/
theorem main_part5_eq (c : Dev nD) : main_part5 (F := F) c = seq (cEdge) := by
  simp only [main_part5, fn_relu.body, fn_relu_0.body, fn_relu_1.body, fn_relu_2.body, fn_var.body, fn_where.body, fn_log_softmax.body, cEdge, List.cons_append, List.nil_append, seq, bind_assoc, pure_bind]
  all_goals rfl

/-- The printed program is the sequence of all its operations. -/
theorem main_eq (c : Dev nD) : main (F := F) c = seq ops := by
  have h : main (F := F) c = (main_part0 c >>= fun _ => main_part1 c >>= fun _ => main_part2 c >>= fun _ => main_part3 c >>= fun _ => main_part4 c >>= fun _ => main_part5 c) := rfl
  rw [h, main_part0_eq, main_part1_eq, main_part2_eq, main_part3_eq, main_part4_eq, main_part5_eq]
  simp only [← seq_append]
  simp only [ops, List.append_assoc]

end Cert.ReferenceIdeal.HandRun

end
-- ==== Proof.Ref.Sub.lean ====
/- Every operation touches TensorCore buffers only, and which buffers each list writes: a buffer a list does not
   write keeps its contents through it. -/
import proofs.«118347_j18940805776024_1_alg».proof.Proof.Ref.Ops

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
theorem cL0a_sub : (cL0a : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩
set_option maxRecDepth 16384 in
set_option maxHeartbeats 4000000 in
theorem cL0a_writes : (cL0a : List (HloOp τ sig (Elt F))).Forall fun op => op.writes ⊆ (cL0a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `cL0a` does not write keeps its contents through it. -/
theorem cL0a_keep (V : Valuation τ sig (Elt F)) (r : Ref sig .tc) (h : r ∉ cL0a_W) :
    after cL0a V (Proc.devRef .tc r) = V (Proc.devRef .tc r) :=
  after_of_writes_sub cL0a V cL0a_writes h
set_option maxRecDepth 16384 in
set_option maxHeartbeats 4000000 in
theorem cL0a_fresh : ∀ op ∈ (cL0a : List (HloOp τ sig (Elt F))), op.fresh = ∅ := by
  intro _ h; (repeat (cases h with | head => rfl | tail _ h => ?_)); exact nomatch h

set_option maxRecDepth 16384 in
theorem cL0b_sub : (cL0b : List (HloOp τ sig (Elt F))).Forall fun op => op.bufs ⊆ tcRefs τ sig :=
  ⟨reshape_bufs_sub .., unary_bufs_sub .., unary_bufs_sub .., binary_bufs_sub .., unary_bufs_sub .., reshape_bufs_sub .., unary_bufs_sub .., unary_bufs_sub .., binary_bufs_sub ..⟩
set_option maxRecDepth 16384 in
set_option maxHeartbeats 4000000 in
theorem cL0b_writes : (cL0b : List (HloOp τ sig (Elt F))).Forall fun op => op.writes ⊆ (cL0b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `cL0b` does not write keeps its contents through it. -/
theorem cL0b_keep (V : Valuation τ sig (Elt F)) (r : Ref sig .tc) (h : r ∉ cL0b_W) :
    after cL0b V (Proc.devRef .tc r) = V (Proc.devRef .tc r) :=
  after_of_writes_sub cL0b V cL0b_writes h
set_option maxRecDepth 16384 in
set_option maxHeartbeats 4000000 in
theorem cL0b_fresh : ∀ op ∈ (cL0b : List (HloOp τ sig (Elt F))), op.fresh = ∅ := by
  intro _ h; (repeat (cases h with | head => rfl | tail _ h => ?_)); exact nomatch h

set_option maxRecDepth 16384 in
theorem cL1a_sub : (cL1a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 16384 in
set_option maxHeartbeats 4000000 in
theorem cL1a_writes : (cL1a : List (HloOp τ sig (Elt F))).Forall fun op => op.writes ⊆ (cL1a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `cL1a` does not write keeps its contents through it. -/
theorem cL1a_keep (V : Valuation τ sig (Elt F)) (r : Ref sig .tc) (h : r ∉ cL1a_W) :
    after cL1a V (Proc.devRef .tc r) = V (Proc.devRef .tc r) :=
  after_of_writes_sub cL1a V cL1a_writes h
set_option maxRecDepth 16384 in
set_option maxHeartbeats 4000000 in
theorem cL1a_fresh : ∀ op ∈ (cL1a : List (HloOp τ sig (Elt F))), op.fresh = ∅ := by
  intro _ h; (repeat (cases h with | head => rfl | tail _ h => ?_)); exact nomatch h

set_option maxRecDepth 16384 in
theorem cL1b_sub : (cL1b : List (HloOp τ sig (Elt F))).Forall fun op => op.bufs ⊆ tcRefs τ sig :=
  ⟨unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
set_option maxRecDepth 16384 in
set_option maxHeartbeats 4000000 in
theorem cL1b_writes : (cL1b : List (HloOp τ sig (Elt F))).Forall fun op => op.writes ⊆ (cL1b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `cL1b` does not write keeps its contents through it. -/
theorem cL1b_keep (V : Valuation τ sig (Elt F)) (r : Ref sig .tc) (h : r ∉ cL1b_W) :
    after cL1b V (Proc.devRef .tc r) = V (Proc.devRef .tc r) :=
  after_of_writes_sub cL1b V cL1b_writes h
set_option maxRecDepth 16384 in
set_option maxHeartbeats 4000000 in
theorem cL1b_fresh : ∀ op ∈ (cL1b : List (HloOp τ sig (Elt F))), op.fresh = ∅ := by
  intro _ h; (repeat (cases h with | head => rfl | tail _ h => ?_)); exact nomatch h

set_option maxRecDepth 16384 in
theorem cL2a_sub : (cL2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩
set_option maxRecDepth 16384 in
set_option maxHeartbeats 4000000 in
theorem cL2a_writes : (cL2a : List (HloOp τ sig (Elt F))).Forall fun op => op.writes ⊆ (cL2a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `cL2a` does not write keeps its contents through it. -/
theorem cL2a_keep (V : Valuation τ sig (Elt F)) (r : Ref sig .tc) (h : r ∉ cL2a_W) :
    after cL2a V (Proc.devRef .tc r) = V (Proc.devRef .tc r) :=
  after_of_writes_sub cL2a V cL2a_writes h
set_option maxRecDepth 16384 in
set_option maxHeartbeats 4000000 in
theorem cL2a_fresh : ∀ op ∈ (cL2a : List (HloOp τ sig (Elt F))), op.fresh = ∅ := by
  intro _ h; (repeat (cases h with | head => rfl | tail _ h => ?_)); exact nomatch h

set_option maxRecDepth 16384 in
theorem cL2b_sub : (cL2b : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
set_option maxRecDepth 16384 in
set_option maxHeartbeats 4000000 in
theorem cL2b_writes : (cL2b : List (HloOp τ sig (Elt F))).Forall fun op => op.writes ⊆ (cL2b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `cL2b` does not write keeps its contents through it. -/
theorem cL2b_keep (V : Valuation τ sig (Elt F)) (r : Ref sig .tc) (h : r ∉ cL2b_W) :
    after cL2b V (Proc.devRef .tc r) = V (Proc.devRef .tc r) :=
  after_of_writes_sub cL2b V cL2b_writes h
set_option maxRecDepth 16384 in
set_option maxHeartbeats 4000000 in
theorem cL2b_fresh : ∀ op ∈ (cL2b : List (HloOp τ sig (Elt F))), op.fresh = ∅ := by
  intro _ h; (repeat (cases h with | head => rfl | tail _ h => ?_)); exact nomatch h

set_option maxRecDepth 16384 in
theorem cL3a_sub : (cL3a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub ..⟩
set_option maxRecDepth 16384 in
set_option maxHeartbeats 4000000 in
theorem cL3a_writes : (cL3a : List (HloOp τ sig (Elt F))).Forall fun op => op.writes ⊆ (cL3a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `cL3a` does not write keeps its contents through it. -/
theorem cL3a_keep (V : Valuation τ sig (Elt F)) (r : Ref sig .tc) (h : r ∉ cL3a_W) :
    after cL3a V (Proc.devRef .tc r) = V (Proc.devRef .tc r) :=
  after_of_writes_sub cL3a V cL3a_writes h
set_option maxRecDepth 16384 in
set_option maxHeartbeats 4000000 in
theorem cL3a_fresh : ∀ op ∈ (cL3a : List (HloOp τ sig (Elt F))), op.fresh = ∅ := by
  intro _ h; (repeat (cases h with | head => rfl | tail _ h => ?_)); exact nomatch h

set_option maxRecDepth 16384 in
theorem cL3b_sub : (cL3b : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
set_option maxRecDepth 16384 in
set_option maxHeartbeats 4000000 in
theorem cL3b_writes : (cL3b : List (HloOp τ sig (Elt F))).Forall fun op => op.writes ⊆ (cL3b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `cL3b` does not write keeps its contents through it. -/
theorem cL3b_keep (V : Valuation τ sig (Elt F)) (r : Ref sig .tc) (h : r ∉ cL3b_W) :
    after cL3b V (Proc.devRef .tc r) = V (Proc.devRef .tc r) :=
  after_of_writes_sub cL3b V cL3b_writes h
set_option maxRecDepth 16384 in
set_option maxHeartbeats 4000000 in
theorem cL3b_fresh : ∀ op ∈ (cL3b : List (HloOp τ sig (Elt F))), op.fresh = ∅ := by
  intro _ h; (repeat (cases h with | head => rfl | tail _ h => ?_)); exact nomatch h

set_option maxRecDepth 16384 in
theorem cEmb_sub : (cEmb : List (HloOp τ sig (Elt F))).Forall fun op => op.bufs ⊆ tcRefs τ sig :=
  nary_bufs_sub ..
set_option maxRecDepth 16384 in
set_option maxHeartbeats 4000000 in
theorem cEmb_writes : (cEmb : List (HloOp τ sig (Elt F))).Forall fun op => op.writes ⊆ (cEmb_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that `cEmb` does not write keeps its contents through it. -/
theorem cEmb_keep (V : Valuation τ sig (Elt F)) (r : Ref sig .tc) (h : r ∉ cEmb_W) :
    after cEmb V (Proc.devRef .tc r) = V (Proc.devRef .tc r) :=
  after_of_writes_sub cEmb V cEmb_writes h
set_option maxRecDepth 16384 in
set_option maxHeartbeats 4000000 in
theorem cEmb_fresh : ∀ op ∈ (cEmb : List (HloOp τ sig (Elt F))), op.fresh = ∅ := by
  intro _ h; (repeat (cases h with | head => rfl | tail _ h => ?_)); exact nomatch h

set_option maxRecDepth 16384 in
theorem cPool_sub : (cPool : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
set_option maxRecDepth 16384 in
set_option maxHeartbeats 4000000 in
theorem cPool_writes : (cPool : List (HloOp τ sig (Elt F))).Forall fun op => op.writes ⊆ (cPool_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `cPool` does not write keeps its contents through it. -/
theorem cPool_keep (V : Valuation τ sig (Elt F)) (r : Ref sig .tc) (h : r ∉ cPool_W) :
    after cPool V (Proc.devRef .tc r) = V (Proc.devRef .tc r) :=
  after_of_writes_sub cPool V cPool_writes h
set_option maxRecDepth 16384 in
set_option maxHeartbeats 4000000 in
theorem cPool_fresh : ∀ op ∈ (cPool : List (HloOp τ sig (Elt F))), op.fresh = ∅ := by
  intro _ h; (repeat (cases h with | head => rfl | tail _ h => ?_)); exact nomatch h

set_option maxRecDepth 16384 in
theorem cCls_sub : (cCls : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
set_option maxRecDepth 16384 in
set_option maxHeartbeats 4000000 in
theorem cCls_writes : (cCls : List (HloOp τ sig (Elt F))).Forall fun op => op.writes ⊆ (cCls_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `cCls` does not write keeps its contents through it. -/
theorem cCls_keep (V : Valuation τ sig (Elt F)) (r : Ref sig .tc) (h : r ∉ cCls_W) :
    after cCls V (Proc.devRef .tc r) = V (Proc.devRef .tc r) :=
  after_of_writes_sub cCls V cCls_writes h
set_option maxRecDepth 16384 in
set_option maxHeartbeats 4000000 in
theorem cCls_fresh : ∀ op ∈ (cCls : List (HloOp τ sig (Elt F))), op.fresh = ∅ := by
  intro _ h; (repeat (cases h with | head => rfl | tail _ h => ?_)); exact nomatch h

set_option maxRecDepth 16384 in
theorem cEdge_sub : (cEdge : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub ..⟩
set_option maxRecDepth 16384 in
set_option maxHeartbeats 4000000 in
theorem cEdge_writes : (cEdge : List (HloOp τ sig (Elt F))).Forall fun op => op.writes ⊆ (cEdge_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `cEdge` does not write keeps its contents through it. -/
theorem cEdge_keep (V : Valuation τ sig (Elt F)) (r : Ref sig .tc) (h : r ∉ cEdge_W) :
    after cEdge V (Proc.devRef .tc r) = V (Proc.devRef .tc r) :=
  after_of_writes_sub cEdge V cEdge_writes h
set_option maxRecDepth 16384 in
set_option maxHeartbeats 4000000 in
theorem cEdge_fresh : ∀ op ∈ (cEdge : List (HloOp τ sig (Elt F))), op.fresh = ∅ := by
  intro _ h; (repeat (cases h with | head => rfl | tail _ h => ?_)); exact nomatch h

/-- What holds of every element of two lists holds of every element of their concatenation. -/
theorem forall_append {α : Type} {p : α → Prop} {l₁ l₂ : List α} (h₁ : ∀ x ∈ l₁, p x) (h₂ : ∀ x ∈ l₂, p x) :
    ∀ x ∈ l₁ ++ l₂, p x :=
  fun x hx => (List.mem_append.mp hx).elim (h₁ x) (h₂ x)

theorem ops_sub : (ops : List (HloOp τ sig (Elt F))).Forall fun op => op.bufs ⊆ tcRefs τ sig :=
  List.forall_iff_forall_mem.mpr (forall_append (forall_append (forall_append (forall_append (forall_append (forall_append (forall_append (forall_append (forall_append (forall_append (forall_append (List.forall_iff_forall_mem.mp cL0a_sub) (List.forall_iff_forall_mem.mp cL0b_sub)) (List.forall_iff_forall_mem.mp cL1a_sub)) (List.forall_iff_forall_mem.mp cL1b_sub)) (List.forall_iff_forall_mem.mp cL2a_sub)) (List.forall_iff_forall_mem.mp cL2b_sub)) (List.forall_iff_forall_mem.mp cL3a_sub)) (List.forall_iff_forall_mem.mp cL3b_sub)) (List.forall_iff_forall_mem.mp cEmb_sub)) (List.forall_iff_forall_mem.mp cPool_sub)) (List.forall_iff_forall_mem.mp cCls_sub)) (List.forall_iff_forall_mem.mp cEdge_sub))

theorem ops_fresh : ∀ op ∈ (ops : List (HloOp τ sig (Elt F))), op.fresh = ∅ :=
  (forall_append (forall_append (forall_append (forall_append (forall_append (forall_append (forall_append (forall_append (forall_append (forall_append (forall_append cL0a_fresh cL0b_fresh) cL1a_fresh) cL1b_fresh) cL2a_fresh) cL2b_fresh) cL3a_fresh) cL3b_fresh) cEmb_fresh) cPool_fresh) cCls_fresh) cEdge_fresh)

end Cert.ReferenceIdeal.HandRun

end
-- ==== Proof.Ref.Run.lean ====
/- The run of the reference program: every weakly fair execution terminates with every buffer at the fold of the
   operations over the launch contents; the two results are named, and the argument arrays end unchanged. -/
import proofs.«118347_j18940805776024_1_alg».proof.Proof.Ref.MainEq
import proofs.«118347_j18940805776024_1_alg».proof.Proof.Ref.Sub

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- Every weakly fair execution of the program terminates, each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over two lists in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Every buffer some operation writes. -/
abbrev allW : List (Ref sig .tc) := cL0a_W ++ (cL0b_W ++ (cL1a_W ++ (cL1b_W ++ (cL2a_W ++ (cL2b_W ++ (cL3a_W ++ (cL3b_W ++ (cEmb_W ++ (cPool_W ++ (cCls_W ++ (cEdge_W)))))))))))

/-- A buffer no operation writes keeps its contents through the whole program. -/
theorem ops_keep (V : Valuation τ sig (Elt F)) (r : Ref sig .tc) (h : r ∉ allW) :
    after ops V (Proc.devRef .tc r) = V (Proc.devRef .tc r) := by
  simp only [allW, List.mem_append, not_or] at h
  obtain ⟨h0, h1, h2, h3, h4, h5, h6, h7, h8, h9, h10, h11⟩ := h
  simp only [ops, after_app]
  rw [cEdge_keep _ r h11, cCls_keep _ r h10, cPool_keep _ r h9, cEmb_keep _ r h8, cL3b_keep _ r h7, cL3a_keep _ r h6, cL2b_keep _ r h5, cL2a_keep _ r h4, cL1b_keep _ r h3, cL1a_keep _ r h2, cL0b_keep _ r h1, cL0a_keep _ r h0]

/-- The class scores after the run: the fold of the operations at their buffer. -/
def res263 (m : (ℓ : Loc nD τ sig) → Buf (Elt F) ℓ) (c : Dev nD) : Buf (Elt F) ((c.tc : Thread nD τ).loc main_v263) :=
  after ops (launchContents m c) (Proc.devRef .tc main_v263)
/-- The edge scores after the run: the fold of the operations at their buffer. -/
def res303 (m : (ℓ : Loc nD τ sig) → Buf (Elt F) ℓ) (c : Dev nD) : Buf (Elt F) ((c.tc : Thread nD τ).loc main_v303) :=
  after ops (launchContents m c) (Proc.devRef .tc main_v303)

set_option maxRecDepth 16384 in
/-- On every device, from any memory with zero counters: every weakly fair execution of the program terminates with the
    two results at their named values and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v263) = res263 m c
      ∧ r.2.mem ((c.tc : Thread nD τ).loc main_v303) = res303 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨h c main_v263, h c main_v303,
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide)),
      (h c main_arg15).trans (ops_keep _ main_arg15 (by decide)),
      (h c main_arg16).trans (ops_keep _ main_arg16 (by decide)),
      (h c main_arg17).trans (ops_keep _ main_arg17 (by decide)),
      (h c main_arg18).trans (ops_keep _ main_arg18 (by decide)),
      (h c main_arg19).trans (ops_keep _ main_arg19 (by decide)),
      (h c main_arg20).trans (ops_keep _ main_arg20 (by decide)),
      (h c main_arg21).trans (ops_keep _ main_arg21 (by decide)),
      (h c main_arg22).trans (ops_keep _ main_arg22 (by decide)),
      (h c main_arg23).trans (ops_keep _ main_arg23 (by decide)),
      (h c main_arg24).trans (ops_keep _ main_arg24 (by decide))⟩)
    (run_all m ρ)

end Cert.ReferenceIdeal.HandRun

end
-- ==== Proof.Ref.Read.L0.lean ====
/- Layer 0 of the reference program read back: what its output buffer holds after the layer's operations, as the
   layer function of the buffers it reads. -/
import proofs.«118347_j18940805776024_1_alg».proof.Proof.Ref.Ops
import proofs.«118347_j18940805776024_1_alg».proof.Proof.Ref.Sub
import proofs.«118347_j18940805776024_1_alg».proof.Proof.Ref.Stages

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the first stretch of layer 0's operations. -/
def WL0a (V : Valuation τ sig (Elt F)) : Valuation τ sig (Elt F) := after cL0a V

set_option maxRecDepth 16384 in
set_option maxHeartbeats 4000000 in
theorem WL0a_main_v51 (V : Valuation τ sig (Elt F)) :
    WL0a V (no_index (Proc.devRef .tc main_v51)) = (extractStridedSlice S1x128 ![0, 0] (V (Proc.devRef .tc main_arg5)) slices_S4x128_S1x128_0_0) := by
  unfold WL0a
  simp only [cL0a]
  after_results_simp
  all_goals rfl

set_option maxRecDepth 16384 in
set_option maxHeartbeats 4000000 in
theorem WL0a_main_v50 (V : Valuation τ sig (Elt F)) :
    WL0a V (no_index (Proc.devRef .tc main_v50)) = (mulf (subf (mlpRef (preRef (V (Proc.devRef .tc main_arg0)) (scalSlice ![0] slices_S4_S1_0 (V (Proc.devRef .tc main_arg7))) (srcIdx (V (Proc.devRef .tc main_arg22))) (dstIdx (V (Proc.devRef .tc main_arg22)))) (matSlice ![0, 0, 0] slices_S4x128x128_S1x128x128_0_0_0 (V (Proc.devRef .tc main_arg1))) (vecSlice ![0, 0] slices_S4x128_S1x128_0_0 (V (Proc.devRef .tc main_arg2))) (matSlice ![0, 0, 0] slices_S4x128x128_S1x128x128_0_0_0 (V (Proc.devRef .tc main_arg3))) (vecSlice ![0, 0] slices_S4x128_S1x128_0_0 (V (Proc.devRef .tc main_arg4)))) (broadcastInDim S100000x128 ![0, 1] bcast_S1x128_S100000x128_0_1 (broadcastInDim S1x128 ![1] bcast_S128_S1x128_1 (meanRef (mlpRef (preRef (V (Proc.devRef .tc main_arg0)) (scalSlice ![0] slices_S4_S1_0 (V (Proc.devRef .tc main_arg7))) (srcIdx (V (Proc.devRef .tc main_arg22))) (dstIdx (V (Proc.devRef .tc main_arg22)))) (matSlice ![0, 0, 0] slices_S4x128x128_S1x128x128_0_0_0 (V (Proc.devRef .tc main_arg1))) (vecSlice ![0, 0] slices_S4x128_S1x128_0_0 (V (Proc.devRef .tc main_arg2))) (matSlice ![0, 0, 0] slices_S4x128x128_S1x128x128_0_0_0 (V (Proc.devRef .tc main_arg3))) (vecSlice ![0, 0] slices_S4x128_S1x128_0_0 (V (Proc.devRef .tc main_arg4)))))))) (broadcastInDim S100000x128 ![0, 1] bcast_S1x128_S100000x128_0_1 (broadcastInDim S1x128 ![1] bcast_S128_S1x128_1 (Host.rsqrt (addf (varRef (mlpRef (preRef (V (Proc.devRef .tc main_arg0)) (scalSlice ![0] slices_S4_S1_0 (V (Proc.devRef .tc main_arg7))) (srcIdx (V (Proc.devRef .tc main_arg22))) (dstIdx (V (Proc.devRef .tc main_arg22)))) (matSlice ![0, 0, 0] slices_S4x128x128_S1x128x128_0_0_0 (V (Proc.devRef .tc main_arg1))) (vecSlice ![0, 0] slices_S4x128_S1x128_0_0 (V (Proc.devRef .tc main_arg2))) (matSlice ![0, 0, 0] slices_S4x128x128_S1x128x128_0_0_0 (V (Proc.devRef .tc main_arg3))) (vecSlice ![0, 0] slices_S4x128_S1x128_0_0 (V (Proc.devRef .tc main_arg4))))) (broadcastInDim S128 ![] bcast_S_S128 (constant (F := F) S_ .f32 0x3727C5AC#32))))))) := by
  unfold WL0a
  simp only [cL0a]
  after_results_simp
  all_goals rfl

theorem WL0a_main_arg6 (V : Valuation τ sig (Elt F)) :
    WL0a V (no_index (Proc.devRef .tc main_arg6)) = (V (Proc.devRef .tc main_arg6)) :=
  cL0a_keep V main_arg6 (by decide)

set_option maxRecDepth 16384 in
set_option maxHeartbeats 4000000 in
/-- Layer 0's output buffer after the layer's operations is the layer function of what the layer reads. -/
theorem layer0 (V : Valuation τ sig (Elt F)) :
    after cL0b (WL0a V) (no_index (Proc.devRef .tc main_v60)) = layerRef (V (Proc.devRef .tc main_arg0)) (matSlice ![0, 0, 0] slices_S4x128x128_S1x128x128_0_0_0 (V (Proc.devRef .tc main_arg1))) (vecSlice ![0, 0] slices_S4x128_S1x128_0_0 (V (Proc.devRef .tc main_arg2))) (matSlice ![0, 0, 0] slices_S4x128x128_S1x128x128_0_0_0 (V (Proc.devRef .tc main_arg3))) (vecSlice ![0, 0] slices_S4x128_S1x128_0_0 (V (Proc.devRef .tc main_arg4))) (vecSlice ![0, 0] slices_S4x128_S1x128_0_0 (V (Proc.devRef .tc main_arg5))) (vecSlice ![0, 0] slices_S4x128_S1x128_0_0 (V (Proc.devRef .tc main_arg6))) (scalSlice ![0] slices_S4_S1_0 (V (Proc.devRef .tc main_arg7))) (srcIdx (V (Proc.devRef .tc main_arg22))) (dstIdx (V (Proc.devRef .tc main_arg22))) := by
  simp only [cL0b]
  after_results_simp
  simp only [WL0a_main_v51, WL0a_main_v50, WL0a_main_arg6]
  rfl

set_option maxRecDepth 16384 in
set_option maxHeartbeats 4000000 in
theorem WL0a_main_v1 (V : Valuation τ sig (Elt F)) :
    WL0a V (no_index (Proc.devRef .tc main_v1)) = srcIdx (V (Proc.devRef .tc main_arg22)) := by
  unfold WL0a
  simp only [cL0a]
  after_results_simp
  all_goals rfl
theorem layer0_main_v1 (V : Valuation τ sig (Elt F)) :
    after cL0b (WL0a V) (no_index (Proc.devRef .tc main_v1)) = srcIdx (V (Proc.devRef .tc main_arg22)) :=
  (cL0b_keep _ main_v1 (by decide)).trans (WL0a_main_v1 V)

set_option maxRecDepth 16384 in
set_option maxHeartbeats 4000000 in
theorem WL0a_main_v3 (V : Valuation τ sig (Elt F)) :
    WL0a V (no_index (Proc.devRef .tc main_v3)) = dstIdx (V (Proc.devRef .tc main_arg22)) := by
  unfold WL0a
  simp only [cL0a]
  after_results_simp
  all_goals rfl
theorem layer0_main_v3 (V : Valuation τ sig (Elt F)) :
    after cL0b (WL0a V) (no_index (Proc.devRef .tc main_v3)) = dstIdx (V (Proc.devRef .tc main_arg22)) :=
  (cL0b_keep _ main_v3 (by decide)).trans (WL0a_main_v3 V)

/-- A buffer layer 0 does not write keeps its contents through it. -/
theorem layer0_keep (V : Valuation τ sig (Elt F)) (r : Ref sig .tc) (ha : r ∉ cL0a_W) (hb : r ∉ cL0b_W) :
    after cL0b (WL0a V) (Proc.devRef .tc r) = V (Proc.devRef .tc r) :=
  (cL0b_keep _ r hb).trans (cL0a_keep V r ha)

end Cert.ReferenceIdeal.HandRun

end
-- ==== Proof.Ref.Read.L1.lean ====
/- Layer 1 of the reference program read back: what its output buffer holds after the layer's operations, as the
   layer function of the buffers it reads. -/
import proofs.«118347_j18940805776024_1_alg».proof.Proof.Ref.Ops
import proofs.«118347_j18940805776024_1_alg».proof.Proof.Ref.Sub
import proofs.«118347_j18940805776024_1_alg».proof.Proof.Ref.Stages

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the first stretch of layer 1's operations. -/
def WL1a (V : Valuation τ sig (Elt F)) : Valuation τ sig (Elt F) := after cL1a V

set_option maxRecDepth 16384 in
set_option maxHeartbeats 4000000 in
theorem WL1a_main_v103 (V : Valuation τ sig (Elt F)) :
    WL1a V (no_index (Proc.devRef .tc main_v103)) = (addf (varRef (mlpRef (preRef (V (Proc.devRef .tc main_v60)) (scalSlice ![1] slices_S4_S1_1 (V (Proc.devRef .tc main_arg7))) (V (Proc.devRef .tc main_v1)) (V (Proc.devRef .tc main_v3))) (matSlice ![1, 0, 0] slices_S4x128x128_S1x128x128_1_0_0 (V (Proc.devRef .tc main_arg1))) (vecSlice ![1, 0] slices_S4x128_S1x128_1_0 (V (Proc.devRef .tc main_arg2))) (matSlice ![1, 0, 0] slices_S4x128x128_S1x128x128_1_0_0 (V (Proc.devRef .tc main_arg3))) (vecSlice ![1, 0] slices_S4x128_S1x128_1_0 (V (Proc.devRef .tc main_arg4))))) (broadcastInDim S128 ![] bcast_S_S128 (constant (F := F) S_ .f32 0x3727C5AC#32))) := by
  unfold WL1a
  simp only [cL1a]
  after_results_simp
  all_goals rfl

set_option maxRecDepth 16384 in
set_option maxHeartbeats 4000000 in
theorem WL1a_main_v101 (V : Valuation τ sig (Elt F)) :
    WL1a V (no_index (Proc.devRef .tc main_v101)) = (subf (mlpRef (preRef (V (Proc.devRef .tc main_v60)) (scalSlice ![1] slices_S4_S1_1 (V (Proc.devRef .tc main_arg7))) (V (Proc.devRef .tc main_v1)) (V (Proc.devRef .tc main_v3))) (matSlice ![1, 0, 0] slices_S4x128x128_S1x128x128_1_0_0 (V (Proc.devRef .tc main_arg1))) (vecSlice ![1, 0] slices_S4x128_S1x128_1_0 (V (Proc.devRef .tc main_arg2))) (matSlice ![1, 0, 0] slices_S4x128x128_S1x128x128_1_0_0 (V (Proc.devRef .tc main_arg3))) (vecSlice ![1, 0] slices_S4x128_S1x128_1_0 (V (Proc.devRef .tc main_arg4)))) (broadcastInDim S100000x128 ![0, 1] bcast_S1x128_S100000x128_0_1 (broadcastInDim S1x128 ![1] bcast_S128_S1x128_1 (meanRef (mlpRef (preRef (V (Proc.devRef .tc main_v60)) (scalSlice ![1] slices_S4_S1_1 (V (Proc.devRef .tc main_arg7))) (V (Proc.devRef .tc main_v1)) (V (Proc.devRef .tc main_v3))) (matSlice ![1, 0, 0] slices_S4x128x128_S1x128x128_1_0_0 (V (Proc.devRef .tc main_arg1))) (vecSlice ![1, 0] slices_S4x128_S1x128_1_0 (V (Proc.devRef .tc main_arg2))) (matSlice ![1, 0, 0] slices_S4x128x128_S1x128x128_1_0_0 (V (Proc.devRef .tc main_arg3))) (vecSlice ![1, 0] slices_S4x128_S1x128_1_0 (V (Proc.devRef .tc main_arg4)))))))) := by
  unfold WL1a
  simp only [cL1a]
  after_results_simp
  all_goals rfl

theorem WL1a_main_arg5 (V : Valuation τ sig (Elt F)) :
    WL1a V (no_index (Proc.devRef .tc main_arg5)) = (V (Proc.devRef .tc main_arg5)) :=
  cL1a_keep V main_arg5 (by decide)

theorem WL1a_main_arg6 (V : Valuation τ sig (Elt F)) :
    WL1a V (no_index (Proc.devRef .tc main_arg6)) = (V (Proc.devRef .tc main_arg6)) :=
  cL1a_keep V main_arg6 (by decide)

set_option maxRecDepth 16384 in
set_option maxHeartbeats 4000000 in
/-- Layer 1's output buffer after the layer's operations is the layer function of what the layer reads. -/
theorem layer1 (V : Valuation τ sig (Elt F)) :
    after cL1b (WL1a V) (no_index (Proc.devRef .tc main_v117)) = layerRef (V (Proc.devRef .tc main_v60)) (matSlice ![1, 0, 0] slices_S4x128x128_S1x128x128_1_0_0 (V (Proc.devRef .tc main_arg1))) (vecSlice ![1, 0] slices_S4x128_S1x128_1_0 (V (Proc.devRef .tc main_arg2))) (matSlice ![1, 0, 0] slices_S4x128x128_S1x128x128_1_0_0 (V (Proc.devRef .tc main_arg3))) (vecSlice ![1, 0] slices_S4x128_S1x128_1_0 (V (Proc.devRef .tc main_arg4))) (vecSlice ![1, 0] slices_S4x128_S1x128_1_0 (V (Proc.devRef .tc main_arg5))) (vecSlice ![1, 0] slices_S4x128_S1x128_1_0 (V (Proc.devRef .tc main_arg6))) (scalSlice ![1] slices_S4_S1_1 (V (Proc.devRef .tc main_arg7))) (V (Proc.devRef .tc main_v1)) (V (Proc.devRef .tc main_v3)) := by
  simp only [cL1b]
  after_results_simp
  simp only [WL1a_main_v103, WL1a_main_v101, WL1a_main_arg5, WL1a_main_arg6]
  rfl

/-- A buffer layer 1 does not write keeps its contents through it. -/
theorem layer1_keep (V : Valuation τ sig (Elt F)) (r : Ref sig .tc) (ha : r ∉ cL1a_W) (hb : r ∉ cL1b_W) :
    after cL1b (WL1a V) (Proc.devRef .tc r) = V (Proc.devRef .tc r) :=
  (cL1b_keep _ r hb).trans (cL1a_keep V r ha)

end Cert.ReferenceIdeal.HandRun

end
-- ==== Proof.Ref.Read.L2.lean ====
/- Layer 2 of the reference program read back: what its output buffer holds after the layer's operations, as the
   layer function of the buffers it reads. -/
import proofs.«118347_j18940805776024_1_alg».proof.Proof.Ref.Ops
import proofs.«118347_j18940805776024_1_alg».proof.Proof.Ref.Sub
import proofs.«118347_j18940805776024_1_alg».proof.Proof.Ref.Stages

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the first stretch of layer 2's operations. -/
def WL2a (V : Valuation τ sig (Elt F)) : Valuation τ sig (Elt F) := after cL2a V

set_option maxRecDepth 16384 in
set_option maxHeartbeats 4000000 in
theorem WL2a_main_v156 (V : Valuation τ sig (Elt F)) :
    WL2a V (no_index (Proc.devRef .tc main_v156)) = (broadcastInDim S1x128 ![1] bcast_S128_S1x128_1 (meanRef (mlpRef (preRef (V (Proc.devRef .tc main_v117)) (scalSlice ![2] slices_S4_S1_2 (V (Proc.devRef .tc main_arg7))) (V (Proc.devRef .tc main_v1)) (V (Proc.devRef .tc main_v3))) (matSlice ![2, 0, 0] slices_S4x128x128_S1x128x128_2_0_0 (V (Proc.devRef .tc main_arg1))) (vecSlice ![2, 0] slices_S4x128_S1x128_2_0 (V (Proc.devRef .tc main_arg2))) (matSlice ![2, 0, 0] slices_S4x128x128_S1x128x128_2_0_0 (V (Proc.devRef .tc main_arg3))) (vecSlice ![2, 0] slices_S4x128_S1x128_2_0 (V (Proc.devRef .tc main_arg4)))))) := by
  unfold WL2a
  simp only [cL2a]
  after_results_simp
  all_goals rfl

set_option maxRecDepth 16384 in
set_option maxHeartbeats 4000000 in
theorem WL2a_main_v151 (V : Valuation τ sig (Elt F)) :
    WL2a V (no_index (Proc.devRef .tc main_v151)) = (maximumf (addf (Host.dotGeneral dot_S100000x128_S128x128_S100000x128_1_0_0_1_n_n none (maximumf (addf (Host.dotGeneral dot_S100000x128_S128x128_S100000x128_1_0_0_1_n_n none (preRef (V (Proc.devRef .tc main_v117)) (scalSlice ![2] slices_S4_S1_2 (V (Proc.devRef .tc main_arg7))) (V (Proc.devRef .tc main_v1)) (V (Proc.devRef .tc main_v3))) (matSlice ![2, 0, 0] slices_S4x128x128_S1x128x128_2_0_0 (V (Proc.devRef .tc main_arg1)))) (broadcastInDim S100000x128 ![0, 1] bcast_S1x128_S100000x128_0_1 (broadcastInDim S1x128 ![1] bcast_S128_S1x128_1 (vecSlice ![2, 0] slices_S4x128_S1x128_2_0 (V (Proc.devRef .tc main_arg2)))))) (broadcastInDim S100000x128 ![] bcast_S_S100000x128 (constant (F := F) S_ .f32 0x00000000#32))) (matSlice ![2, 0, 0] slices_S4x128x128_S1x128x128_2_0_0 (V (Proc.devRef .tc main_arg3)))) (broadcastInDim S100000x128 ![0, 1] bcast_S1x128_S100000x128_0_1 (broadcastInDim S1x128 ![1] bcast_S128_S1x128_1 (vecSlice ![2, 0] slices_S4x128_S1x128_2_0 (V (Proc.devRef .tc main_arg4)))))) (broadcastInDim S100000x128 ![] bcast_S_S100000x128 (constant (F := F) S_ .f32 0x00000000#32))) := by
  unfold WL2a
  simp only [cL2a]
  after_results_simp
  all_goals rfl

set_option maxRecDepth 16384 in
set_option maxHeartbeats 4000000 in
theorem WL2a_main_v155 (V : Valuation τ sig (Elt F)) :
    WL2a V (no_index (Proc.devRef .tc main_v155)) = (select (broadcastInDim S128 ![] bcast_S_S128 (cmpf .ogt (subf (constant (F := F) S_ .f32 0x47C35000#32) (sitofp .f32 (constantI S_ 32 0#32))) (constant (F := F) S_ .f32 0x00000000#32))) (Host.divf (Host.reduceAdd (mulf (ctrRef (mlpRef (preRef (V (Proc.devRef .tc main_v117)) (scalSlice ![2] slices_S4_S1_2 (V (Proc.devRef .tc main_arg7))) (V (Proc.devRef .tc main_v1)) (V (Proc.devRef .tc main_v3))) (matSlice ![2, 0, 0] slices_S4x128x128_S1x128x128_2_0_0 (V (Proc.devRef .tc main_arg1))) (vecSlice ![2, 0] slices_S4x128_S1x128_2_0 (V (Proc.devRef .tc main_arg2))) (matSlice ![2, 0, 0] slices_S4x128x128_S1x128x128_2_0_0 (V (Proc.devRef .tc main_arg3))) (vecSlice ![2, 0] slices_S4x128_S1x128_2_0 (V (Proc.devRef .tc main_arg4))))) (ctrRef (mlpRef (preRef (V (Proc.devRef .tc main_v117)) (scalSlice ![2] slices_S4_S1_2 (V (Proc.devRef .tc main_arg7))) (V (Proc.devRef .tc main_v1)) (V (Proc.devRef .tc main_v3))) (matSlice ![2, 0, 0] slices_S4x128x128_S1x128x128_2_0_0 (V (Proc.devRef .tc main_arg1))) (vecSlice ![2, 0] slices_S4x128_S1x128_2_0 (V (Proc.devRef .tc main_arg2))) (matSlice ![2, 0, 0] slices_S4x128x128_S1x128x128_2_0_0 (V (Proc.devRef .tc main_arg3))) (vecSlice ![2, 0] slices_S4x128_S1x128_2_0 (V (Proc.devRef .tc main_arg4)))))) (constant (F := F) S_ .f32 0x00000000#32) reducesTo_S100000x128_S128_d0 h_S_) (broadcastInDim S128 ![] bcast_S_S128 (subf (constant (F := F) S_ .f32 0x47C35000#32) (sitofp .f32 (constantI S_ 32 0#32))))) (broadcastInDim S128 ![] bcast_S_S128 (id (constant (F := F) S_ .f32 0x7FC00000#32)))) := by
  unfold WL2a
  simp only [cL2a]
  after_results_simp
  all_goals rfl

theorem WL2a_main_arg5 (V : Valuation τ sig (Elt F)) :
    WL2a V (no_index (Proc.devRef .tc main_arg5)) = (V (Proc.devRef .tc main_arg5)) :=
  cL2a_keep V main_arg5 (by decide)

theorem WL2a_main_arg6 (V : Valuation τ sig (Elt F)) :
    WL2a V (no_index (Proc.devRef .tc main_arg6)) = (V (Proc.devRef .tc main_arg6)) :=
  cL2a_keep V main_arg6 (by decide)

set_option maxRecDepth 16384 in
set_option maxHeartbeats 4000000 in
/-- Layer 2's output buffer after the layer's operations is the layer function of what the layer reads. -/
theorem layer2 (V : Valuation τ sig (Elt F)) :
    after cL2b (WL2a V) (no_index (Proc.devRef .tc main_v174)) = layerRef (V (Proc.devRef .tc main_v117)) (matSlice ![2, 0, 0] slices_S4x128x128_S1x128x128_2_0_0 (V (Proc.devRef .tc main_arg1))) (vecSlice ![2, 0] slices_S4x128_S1x128_2_0 (V (Proc.devRef .tc main_arg2))) (matSlice ![2, 0, 0] slices_S4x128x128_S1x128x128_2_0_0 (V (Proc.devRef .tc main_arg3))) (vecSlice ![2, 0] slices_S4x128_S1x128_2_0 (V (Proc.devRef .tc main_arg4))) (vecSlice ![2, 0] slices_S4x128_S1x128_2_0 (V (Proc.devRef .tc main_arg5))) (vecSlice ![2, 0] slices_S4x128_S1x128_2_0 (V (Proc.devRef .tc main_arg6))) (scalSlice ![2] slices_S4_S1_2 (V (Proc.devRef .tc main_arg7))) (V (Proc.devRef .tc main_v1)) (V (Proc.devRef .tc main_v3)) := by
  simp only [cL2b]
  after_results_simp
  simp only [WL2a_main_v156, WL2a_main_v151, WL2a_main_v155, WL2a_main_arg5, WL2a_main_arg6]
  rfl

/-- A buffer layer 2 does not write keeps its contents through it. -/
theorem layer2_keep (V : Valuation τ sig (Elt F)) (r : Ref sig .tc) (ha : r ∉ cL2a_W) (hb : r ∉ cL2b_W) :
    after cL2b (WL2a V) (Proc.devRef .tc r) = V (Proc.devRef .tc r) :=
  (cL2b_keep _ r hb).trans (cL2a_keep V r ha)

end Cert.ReferenceIdeal.HandRun

end
-- ==== Proof.Ref.Read.L3.lean ====
/- Layer 3 of the reference program read back: what its output buffer holds after the layer's operations, as the
   layer function of the buffers it reads. -/
import proofs.«118347_j18940805776024_1_alg».proof.Proof.Ref.Ops
import proofs.«118347_j18940805776024_1_alg».proof.Proof.Ref.Sub
import proofs.«118347_j18940805776024_1_alg».proof.Proof.Ref.Stages

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the first stretch of layer 3's operations. -/
def WL3a (V : Valuation τ sig (Elt F)) : Valuation τ sig (Elt F) := after cL3a V

set_option maxRecDepth 16384 in
set_option maxHeartbeats 4000000 in
theorem WL3a_main_cst_27 (V : Valuation τ sig (Elt F)) :
    WL3a V (no_index (Proc.devRef .tc main_cst_27)) = (constant (F := F) S_ .f32 0x47C35000#32) := by
  unfold WL3a
  simp only [cL3a]
  after_results_simp
  all_goals rfl

set_option maxRecDepth 16384 in
set_option maxHeartbeats 4000000 in
theorem WL3a_main_v209 (V : Valuation τ sig (Elt F)) :
    WL3a V (no_index (Proc.devRef .tc main_v209)) = (Host.reduceAdd (mlpRef (preRef (V (Proc.devRef .tc main_v174)) (scalSlice ![3] slices_S4_S1_3 (V (Proc.devRef .tc main_arg7))) (V (Proc.devRef .tc main_v1)) (V (Proc.devRef .tc main_v3))) (matSlice ![3, 0, 0] slices_S4x128x128_S1x128x128_3_0_0 (V (Proc.devRef .tc main_arg1))) (vecSlice ![3, 0] slices_S4x128_S1x128_3_0 (V (Proc.devRef .tc main_arg2))) (matSlice ![3, 0, 0] slices_S4x128x128_S1x128x128_3_0_0 (V (Proc.devRef .tc main_arg3))) (vecSlice ![3, 0] slices_S4x128_S1x128_3_0 (V (Proc.devRef .tc main_arg4)))) (constant (F := F) S_ .f32 0x00000000#32) reducesTo_S100000x128_S128_d0 h_S_) := by
  unfold WL3a
  simp only [cL3a]
  after_results_simp
  all_goals rfl

set_option maxRecDepth 16384 in
set_option maxHeartbeats 4000000 in
theorem WL3a_main_v208 (V : Valuation τ sig (Elt F)) :
    WL3a V (no_index (Proc.devRef .tc main_v208)) = (maximumf (addf (Host.dotGeneral dot_S100000x128_S128x128_S100000x128_1_0_0_1_n_n none (maximumf (addf (Host.dotGeneral dot_S100000x128_S128x128_S100000x128_1_0_0_1_n_n none (preRef (V (Proc.devRef .tc main_v174)) (scalSlice ![3] slices_S4_S1_3 (V (Proc.devRef .tc main_arg7))) (V (Proc.devRef .tc main_v1)) (V (Proc.devRef .tc main_v3))) (matSlice ![3, 0, 0] slices_S4x128x128_S1x128x128_3_0_0 (V (Proc.devRef .tc main_arg1)))) (broadcastInDim S100000x128 ![0, 1] bcast_S1x128_S100000x128_0_1 (broadcastInDim S1x128 ![1] bcast_S128_S1x128_1 (vecSlice ![3, 0] slices_S4x128_S1x128_3_0 (V (Proc.devRef .tc main_arg2)))))) (broadcastInDim S100000x128 ![] bcast_S_S100000x128 (constant (F := F) S_ .f32 0x00000000#32))) (matSlice ![3, 0, 0] slices_S4x128x128_S1x128x128_3_0_0 (V (Proc.devRef .tc main_arg3)))) (broadcastInDim S100000x128 ![0, 1] bcast_S1x128_S100000x128_0_1 (broadcastInDim S1x128 ![1] bcast_S128_S1x128_1 (vecSlice ![3, 0] slices_S4x128_S1x128_3_0 (V (Proc.devRef .tc main_arg4)))))) (broadcastInDim S100000x128 ![] bcast_S_S100000x128 (constant (F := F) S_ .f32 0x00000000#32))) := by
  unfold WL3a
  simp only [cL3a]
  after_results_simp
  all_goals rfl

theorem WL3a_main_arg5 (V : Valuation τ sig (Elt F)) :
    WL3a V (no_index (Proc.devRef .tc main_arg5)) = (V (Proc.devRef .tc main_arg5)) :=
  cL3a_keep V main_arg5 (by decide)

theorem WL3a_main_arg6 (V : Valuation τ sig (Elt F)) :
    WL3a V (no_index (Proc.devRef .tc main_arg6)) = (V (Proc.devRef .tc main_arg6)) :=
  cL3a_keep V main_arg6 (by decide)

set_option maxRecDepth 16384 in
set_option maxHeartbeats 4000000 in
/-- Layer 3's output buffer after the layer's operations is the layer function of what the layer reads. -/
theorem layer3 (V : Valuation τ sig (Elt F)) :
    after cL3b (WL3a V) (no_index (Proc.devRef .tc main_v231)) = layerRef (V (Proc.devRef .tc main_v174)) (matSlice ![3, 0, 0] slices_S4x128x128_S1x128x128_3_0_0 (V (Proc.devRef .tc main_arg1))) (vecSlice ![3, 0] slices_S4x128_S1x128_3_0 (V (Proc.devRef .tc main_arg2))) (matSlice ![3, 0, 0] slices_S4x128x128_S1x128x128_3_0_0 (V (Proc.devRef .tc main_arg3))) (vecSlice ![3, 0] slices_S4x128_S1x128_3_0 (V (Proc.devRef .tc main_arg4))) (vecSlice ![3, 0] slices_S4x128_S1x128_3_0 (V (Proc.devRef .tc main_arg5))) (vecSlice ![3, 0] slices_S4x128_S1x128_3_0 (V (Proc.devRef .tc main_arg6))) (scalSlice ![3] slices_S4_S1_3 (V (Proc.devRef .tc main_arg7))) (V (Proc.devRef .tc main_v1)) (V (Proc.devRef .tc main_v3)) := by
  simp only [cL3b]
  after_results_simp
  simp only [WL3a_main_cst_27, WL3a_main_v209, WL3a_main_v208, WL3a_main_arg5, WL3a_main_arg6]
  rfl

/-- A buffer layer 3 does not write keeps its contents through it. -/
theorem layer3_keep (V : Valuation τ sig (Elt F)) (r : Ref sig .tc) (ha : r ∉ cL3a_W) (hb : r ∉ cL3b_W) :
    after cL3b (WL3a V) (Proc.devRef .tc r) = V (Proc.devRef .tc r) :=
  (cL3b_keep _ r hb).trans (cL3a_keep V r ha)

end Cert.ReferenceIdeal.HandRun

end
-- ==== Proof.Ref.Read.Tail.lean ====
/- The stretches after the four layers read back: the concatenation, the pooling and the two heads, each as its stage
   function of the buffers it reads. -/
import proofs.«118347_j18940805776024_1_alg».proof.Proof.Ref.Ops
import proofs.«118347_j18940805776024_1_alg».proof.Proof.Ref.Stages

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem tailEmb (V : Valuation τ sig (Elt F)) :
    after cEmb V (no_index (Proc.devRef .tc main_v232)) = embRef (V (Proc.devRef .tc main_v60)) (V (Proc.devRef .tc main_v117)) (V (Proc.devRef .tc main_v174)) (V (Proc.devRef .tc main_v231)) := by
  simp only [cEmb]
  after_results_simp
  all_goals rfl

set_option maxRecDepth 16384 in
set_option maxHeartbeats 4000000 in
theorem tailPool (V : Valuation τ sig (Elt F)) :
    after cPool V (no_index (Proc.devRef .tc main_v243)) = gembRef (V (Proc.devRef .tc main_v232)) (V (Proc.devRef .tc main_arg23)) := by
  simp only [cPool]
  after_results_simp
  all_goals rfl

set_option maxRecDepth 16384 in
set_option maxHeartbeats 4000000 in
theorem tailCls (V : Valuation τ sig (Elt F)) :
    after cCls V (no_index (Proc.devRef .tc main_v263)) = clsRef (V (Proc.devRef .tc main_v243)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  simp only [cCls]
  after_results_simp
  all_goals rfl

set_option maxRecDepth 16384 in
set_option maxHeartbeats 4000000 in
theorem tailEdge (V : Valuation τ sig (Elt F)) :
    after cEdge V (no_index (Proc.devRef .tc main_v303)) = edgeRef (V (Proc.devRef .tc main_v232)) (V (Proc.devRef .tc main_arg24)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  simp only [cEdge]
  after_results_simp
  all_goals rfl

end Cert.ReferenceIdeal.HandRun

end
-- ==== Proof.Ref.Read.lean ====
/- The reading of the whole run: what each stage's buffer holds after the run, as named stages of the launch memory;
   the two results are the heads applied to the embeddings. -/
import proofs.«118347_j18940805776024_1_alg».proof.Proof.Ref.Run
import proofs.«118347_j18940805776024_1_alg».proof.Proof.Ref.Read.L0
import proofs.«118347_j18940805776024_1_alg».proof.Proof.Ref.Read.L1
import proofs.«118347_j18940805776024_1_alg».proof.Proof.Ref.Read.L2
import proofs.«118347_j18940805776024_1_alg».proof.Proof.Ref.Read.L3
import proofs.«118347_j18940805776024_1_alg».proof.Proof.Ref.Read.Tail

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Layer 0's output, from the launch memory. -/
def H0 (m : (ℓ : Loc nD τ sig) → Buf (Elt F) ℓ) (c : Dev nD) : (⟨S100000x128, .f32⟩ : BufTy).Contents (Elt F) :=
  layerRef (m ((c.tc : Thread nD τ).loc main_arg0)) (matSlice ![0, 0, 0] slices_S4x128x128_S1x128x128_0_0_0 (m ((c.tc : Thread nD τ).loc main_arg1))) (vecSlice ![0, 0] slices_S4x128_S1x128_0_0 (m ((c.tc : Thread nD τ).loc main_arg2))) (matSlice ![0, 0, 0] slices_S4x128x128_S1x128x128_0_0_0 (m ((c.tc : Thread nD τ).loc main_arg3))) (vecSlice ![0, 0] slices_S4x128_S1x128_0_0 (m ((c.tc : Thread nD τ).loc main_arg4))) (vecSlice ![0, 0] slices_S4x128_S1x128_0_0 (m ((c.tc : Thread nD τ).loc main_arg5))) (vecSlice ![0, 0] slices_S4x128_S1x128_0_0 (m ((c.tc : Thread nD τ).loc main_arg6))) (scalSlice ![0] slices_S4_S1_0 (m ((c.tc : Thread nD τ).loc main_arg7))) (srcIdx (m ((c.tc : Thread nD τ).loc main_arg22))) (dstIdx (m ((c.tc : Thread nD τ).loc main_arg22)))

/-- Layer 1's output, from the launch memory. -/
def H1 (m : (ℓ : Loc nD τ sig) → Buf (Elt F) ℓ) (c : Dev nD) : (⟨S100000x128, .f32⟩ : BufTy).Contents (Elt F) :=
  layerRef (H0 m c) (matSlice ![1, 0, 0] slices_S4x128x128_S1x128x128_1_0_0 (m ((c.tc : Thread nD τ).loc main_arg1))) (vecSlice ![1, 0] slices_S4x128_S1x128_1_0 (m ((c.tc : Thread nD τ).loc main_arg2))) (matSlice ![1, 0, 0] slices_S4x128x128_S1x128x128_1_0_0 (m ((c.tc : Thread nD τ).loc main_arg3))) (vecSlice ![1, 0] slices_S4x128_S1x128_1_0 (m ((c.tc : Thread nD τ).loc main_arg4))) (vecSlice ![1, 0] slices_S4x128_S1x128_1_0 (m ((c.tc : Thread nD τ).loc main_arg5))) (vecSlice ![1, 0] slices_S4x128_S1x128_1_0 (m ((c.tc : Thread nD τ).loc main_arg6))) (scalSlice ![1] slices_S4_S1_1 (m ((c.tc : Thread nD τ).loc main_arg7))) (srcIdx (m ((c.tc : Thread nD τ).loc main_arg22))) (dstIdx (m ((c.tc : Thread nD τ).loc main_arg22)))

/-- Layer 2's output, from the launch memory. -/
def H2 (m : (ℓ : Loc nD τ sig) → Buf (Elt F) ℓ) (c : Dev nD) : (⟨S100000x128, .f32⟩ : BufTy).Contents (Elt F) :=
  layerRef (H1 m c) (matSlice ![2, 0, 0] slices_S4x128x128_S1x128x128_2_0_0 (m ((c.tc : Thread nD τ).loc main_arg1))) (vecSlice ![2, 0] slices_S4x128_S1x128_2_0 (m ((c.tc : Thread nD τ).loc main_arg2))) (matSlice ![2, 0, 0] slices_S4x128x128_S1x128x128_2_0_0 (m ((c.tc : Thread nD τ).loc main_arg3))) (vecSlice ![2, 0] slices_S4x128_S1x128_2_0 (m ((c.tc : Thread nD τ).loc main_arg4))) (vecSlice ![2, 0] slices_S4x128_S1x128_2_0 (m ((c.tc : Thread nD τ).loc main_arg5))) (vecSlice ![2, 0] slices_S4x128_S1x128_2_0 (m ((c.tc : Thread nD τ).loc main_arg6))) (scalSlice ![2] slices_S4_S1_2 (m ((c.tc : Thread nD τ).loc main_arg7))) (srcIdx (m ((c.tc : Thread nD τ).loc main_arg22))) (dstIdx (m ((c.tc : Thread nD τ).loc main_arg22)))

/-- Layer 3's output, from the launch memory. -/
def H3 (m : (ℓ : Loc nD τ sig) → Buf (Elt F) ℓ) (c : Dev nD) : (⟨S100000x128, .f32⟩ : BufTy).Contents (Elt F) :=
  layerRef (H2 m c) (matSlice ![3, 0, 0] slices_S4x128x128_S1x128x128_3_0_0 (m ((c.tc : Thread nD τ).loc main_arg1))) (vecSlice ![3, 0] slices_S4x128_S1x128_3_0 (m ((c.tc : Thread nD τ).loc main_arg2))) (matSlice ![3, 0, 0] slices_S4x128x128_S1x128x128_3_0_0 (m ((c.tc : Thread nD τ).loc main_arg3))) (vecSlice ![3, 0] slices_S4x128_S1x128_3_0 (m ((c.tc : Thread nD τ).loc main_arg4))) (vecSlice ![3, 0] slices_S4x128_S1x128_3_0 (m ((c.tc : Thread nD τ).loc main_arg5))) (vecSlice ![3, 0] slices_S4x128_S1x128_3_0 (m ((c.tc : Thread nD τ).loc main_arg6))) (scalSlice ![3] slices_S4_S1_3 (m ((c.tc : Thread nD τ).loc main_arg7))) (srcIdx (m ((c.tc : Thread nD τ).loc main_arg22))) (dstIdx (m ((c.tc : Thread nD τ).loc main_arg22)))

/-- The node embedding, from the launch memory. -/
def EMB (m : (ℓ : Loc nD τ sig) → Buf (Elt F) ℓ) (c : Dev nD) : (⟨S100000x512, .f32⟩ : BufTy).Contents (Elt F) :=
  embRef (H0 m c) (H1 m c) (H2 m c) (H3 m c)

/-- The graph embedding, from the launch memory. -/
def GEMB (m : (ℓ : Loc nD τ sig) → Buf (Elt F) ℓ) (c : Dev nD) : (⟨S64x512, .f32⟩ : BufTy).Contents (Elt F) :=
  gembRef (EMB m c) (m ((c.tc : Thread nD τ).loc main_arg23))

/-- The launch contents. -/
def P0 (V : Valuation τ sig (Elt F)) : Valuation τ sig (Elt F) := V
theorem P0_main_arg0 (m : (ℓ : Loc nD τ sig) → Buf (Elt F) ℓ) (c : Dev nD) : P0 (launchContents m c) (no_index (Proc.devRef .tc main_arg0)) = (m ((c.tc : Thread nD τ).loc main_arg0)) := rfl
theorem P0_main_arg1 (m : (ℓ : Loc nD τ sig) → Buf (Elt F) ℓ) (c : Dev nD) : P0 (launchContents m c) (no_index (Proc.devRef .tc main_arg1)) = (m ((c.tc : Thread nD τ).loc main_arg1)) := rfl
theorem P0_main_arg2 (m : (ℓ : Loc nD τ sig) → Buf (Elt F) ℓ) (c : Dev nD) : P0 (launchContents m c) (no_index (Proc.devRef .tc main_arg2)) = (m ((c.tc : Thread nD τ).loc main_arg2)) := rfl
theorem P0_main_arg3 (m : (ℓ : Loc nD τ sig) → Buf (Elt F) ℓ) (c : Dev nD) : P0 (launchContents m c) (no_index (Proc.devRef .tc main_arg3)) = (m ((c.tc : Thread nD τ).loc main_arg3)) := rfl
theorem P0_main_arg4 (m : (ℓ : Loc nD τ sig) → Buf (Elt F) ℓ) (c : Dev nD) : P0 (launchContents m c) (no_index (Proc.devRef .tc main_arg4)) = (m ((c.tc : Thread nD τ).loc main_arg4)) := rfl
theorem P0_main_arg5 (m : (ℓ : Loc nD τ sig) → Buf (Elt F) ℓ) (c : Dev nD) : P0 (launchContents m c) (no_index (Proc.devRef .tc main_arg5)) = (m ((c.tc : Thread nD τ).loc main_arg5)) := rfl
theorem P0_main_arg6 (m : (ℓ : Loc nD τ sig) → Buf (Elt F) ℓ) (c : Dev nD) : P0 (launchContents m c) (no_index (Proc.devRef .tc main_arg6)) = (m ((c.tc : Thread nD τ).loc main_arg6)) := rfl
theorem P0_main_arg7 (m : (ℓ : Loc nD τ sig) → Buf (Elt F) ℓ) (c : Dev nD) : P0 (launchContents m c) (no_index (Proc.devRef .tc main_arg7)) = (m ((c.tc : Thread nD τ).loc main_arg7)) := rfl
theorem P0_main_arg22 (m : (ℓ : Loc nD τ sig) → Buf (Elt F) ℓ) (c : Dev nD) : P0 (launchContents m c) (no_index (Proc.devRef .tc main_arg22)) = (m ((c.tc : Thread nD τ).loc main_arg22)) := rfl
theorem P0_main_arg23 (m : (ℓ : Loc nD τ sig) → Buf (Elt F) ℓ) (c : Dev nD) : P0 (launchContents m c) (no_index (Proc.devRef .tc main_arg23)) = (m ((c.tc : Thread nD τ).loc main_arg23)) := rfl
theorem P0_main_arg8 (m : (ℓ : Loc nD τ sig) → Buf (Elt F) ℓ) (c : Dev nD) : P0 (launchContents m c) (no_index (Proc.devRef .tc main_arg8)) = (m ((c.tc : Thread nD τ).loc main_arg8)) := rfl
theorem P0_main_arg9 (m : (ℓ : Loc nD τ sig) → Buf (Elt F) ℓ) (c : Dev nD) : P0 (launchContents m c) (no_index (Proc.devRef .tc main_arg9)) = (m ((c.tc : Thread nD τ).loc main_arg9)) := rfl
theorem P0_main_arg10 (m : (ℓ : Loc nD τ sig) → Buf (Elt F) ℓ) (c : Dev nD) : P0 (launchContents m c) (no_index (Proc.devRef .tc main_arg10)) = (m ((c.tc : Thread nD τ).loc main_arg10)) := rfl
theorem P0_main_arg11 (m : (ℓ : Loc nD τ sig) → Buf (Elt F) ℓ) (c : Dev nD) : P0 (launchContents m c) (no_index (Proc.devRef .tc main_arg11)) = (m ((c.tc : Thread nD τ).loc main_arg11)) := rfl
theorem P0_main_arg12 (m : (ℓ : Loc nD τ sig) → Buf (Elt F) ℓ) (c : Dev nD) : P0 (launchContents m c) (no_index (Proc.devRef .tc main_arg12)) = (m ((c.tc : Thread nD τ).loc main_arg12)) := rfl
theorem P0_main_arg13 (m : (ℓ : Loc nD τ sig) → Buf (Elt F) ℓ) (c : Dev nD) : P0 (launchContents m c) (no_index (Proc.devRef .tc main_arg13)) = (m ((c.tc : Thread nD τ).loc main_arg13)) := rfl
theorem P0_main_arg14 (m : (ℓ : Loc nD τ sig) → Buf (Elt F) ℓ) (c : Dev nD) : P0 (launchContents m c) (no_index (Proc.devRef .tc main_arg14)) = (m ((c.tc : Thread nD τ).loc main_arg14)) := rfl
theorem P0_main_arg15 (m : (ℓ : Loc nD τ sig) → Buf (Elt F) ℓ) (c : Dev nD) : P0 (launchContents m c) (no_index (Proc.devRef .tc main_arg15)) = (m ((c.tc : Thread nD τ).loc main_arg15)) := rfl
theorem P0_main_arg24 (m : (ℓ : Loc nD τ sig) → Buf (Elt F) ℓ) (c : Dev nD) : P0 (launchContents m c) (no_index (Proc.devRef .tc main_arg24)) = (m ((c.tc : Thread nD τ).loc main_arg24)) := rfl
theorem P0_main_arg16 (m : (ℓ : Loc nD τ sig) → Buf (Elt F) ℓ) (c : Dev nD) : P0 (launchContents m c) (no_index (Proc.devRef .tc main_arg16)) = (m ((c.tc : Thread nD τ).loc main_arg16)) := rfl
theorem P0_main_arg17 (m : (ℓ : Loc nD τ sig) → Buf (Elt F) ℓ) (c : Dev nD) : P0 (launchContents m c) (no_index (Proc.devRef .tc main_arg17)) = (m ((c.tc : Thread nD τ).loc main_arg17)) := rfl
theorem P0_main_arg18 (m : (ℓ : Loc nD τ sig) → Buf (Elt F) ℓ) (c : Dev nD) : P0 (launchContents m c) (no_index (Proc.devRef .tc main_arg18)) = (m ((c.tc : Thread nD τ).loc main_arg18)) := rfl
theorem P0_main_arg19 (m : (ℓ : Loc nD τ sig) → Buf (Elt F) ℓ) (c : Dev nD) : P0 (launchContents m c) (no_index (Proc.devRef .tc main_arg19)) = (m ((c.tc : Thread nD τ).loc main_arg19)) := rfl
theorem P0_main_arg20 (m : (ℓ : Loc nD τ sig) → Buf (Elt F) ℓ) (c : Dev nD) : P0 (launchContents m c) (no_index (Proc.devRef .tc main_arg20)) = (m ((c.tc : Thread nD τ).loc main_arg20)) := rfl
theorem P0_main_arg21 (m : (ℓ : Loc nD τ sig) → Buf (Elt F) ℓ) (c : Dev nD) : P0 (launchContents m c) (no_index (Proc.devRef .tc main_arg21)) = (m ((c.tc : Thread nD τ).loc main_arg21)) := rfl

/-- The buffer contents after the first 1 stage. -/
def P1 (V : Valuation τ sig (Elt F)) : Valuation τ sig (Elt F) := after cL0b (WL0a (P0 V))
theorem P1_main_v60 (m : (ℓ : Loc nD τ sig) → Buf (Elt F) ℓ) (c : Dev nD) : P1 (launchContents m c) (no_index (Proc.devRef .tc main_v60)) = H0 m c := by
  unfold P1 H0
  rw [layer0]
  simp only [P0_main_arg0, P0_main_arg1, P0_main_arg2, P0_main_arg3, P0_main_arg4, P0_main_arg5, P0_main_arg6, P0_main_arg7, P0_main_arg22]
theorem P1_main_arg1 (m : (ℓ : Loc nD τ sig) → Buf (Elt F) ℓ) (c : Dev nD) : P1 (launchContents m c) (no_index (Proc.devRef .tc main_arg1)) = (m ((c.tc : Thread nD τ).loc main_arg1)) :=
  (layer0_keep _ main_arg1 (by decide) (by decide)).trans (P0_main_arg1 m c)
theorem P1_main_arg2 (m : (ℓ : Loc nD τ sig) → Buf (Elt F) ℓ) (c : Dev nD) : P1 (launchContents m c) (no_index (Proc.devRef .tc main_arg2)) = (m ((c.tc : Thread nD τ).loc main_arg2)) :=
  (layer0_keep _ main_arg2 (by decide) (by decide)).trans (P0_main_arg2 m c)
theorem P1_main_arg3 (m : (ℓ : Loc nD τ sig) → Buf (Elt F) ℓ) (c : Dev nD) : P1 (launchContents m c) (no_index (Proc.devRef .tc main_arg3)) = (m ((c.tc : Thread nD τ).loc main_arg3)) :=
  (layer0_keep _ main_arg3 (by decide) (by decide)).trans (P0_main_arg3 m c)
theorem P1_main_arg4 (m : (ℓ : Loc nD τ sig) → Buf (Elt F) ℓ) (c : Dev nD) : P1 (launchContents m c) (no_index (Proc.devRef .tc main_arg4)) = (m ((c.tc : Thread nD τ).loc main_arg4)) :=
  (layer0_keep _ main_arg4 (by decide) (by decide)).trans (P0_main_arg4 m c)
theorem P1_main_arg5 (m : (ℓ : Loc nD τ sig) → Buf (Elt F) ℓ) (c : Dev nD) : P1 (launchContents m c) (no_index (Proc.devRef .tc main_arg5)) = (m ((c.tc : Thread nD τ).loc main_arg5)) :=
  (layer0_keep _ main_arg5 (by decide) (by decide)).trans (P0_main_arg5 m c)
theorem P1_main_arg6 (m : (ℓ : Loc nD τ sig) → Buf (Elt F) ℓ) (c : Dev nD) : P1 (launchContents m c) (no_index (Proc.devRef .tc main_arg6)) = (m ((c.tc : Thread nD τ).loc main_arg6)) :=
  (layer0_keep _ main_arg6 (by decide) (by decide)).trans (P0_main_arg6 m c)
theorem P1_main_arg7 (m : (ℓ : Loc nD τ sig) → Buf (Elt F) ℓ) (c : Dev nD) : P1 (launchContents m c) (no_index (Proc.devRef .tc main_arg7)) = (m ((c.tc : Thread nD τ).loc main_arg7)) :=
  (layer0_keep _ main_arg7 (by decide) (by decide)).trans (P0_main_arg7 m c)
theorem P1_main_v1 (m : (ℓ : Loc nD τ sig) → Buf (Elt F) ℓ) (c : Dev nD) : P1 (launchContents m c) (no_index (Proc.devRef .tc main_v1)) = srcIdx (m ((c.tc : Thread nD τ).loc main_arg22)) :=
  (layer0_main_v1 (P0 (launchContents m c))).trans rfl
theorem P1_main_v3 (m : (ℓ : Loc nD τ sig) → Buf (Elt F) ℓ) (c : Dev nD) : P1 (launchContents m c) (no_index (Proc.devRef .tc main_v3)) = dstIdx (m ((c.tc : Thread nD τ).loc main_arg22)) :=
  (layer0_main_v3 (P0 (launchContents m c))).trans rfl
theorem P1_main_arg23 (m : (ℓ : Loc nD τ sig) → Buf (Elt F) ℓ) (c : Dev nD) : P1 (launchContents m c) (no_index (Proc.devRef .tc main_arg23)) = (m ((c.tc : Thread nD τ).loc main_arg23)) :=
  (layer0_keep _ main_arg23 (by decide) (by decide)).trans (P0_main_arg23 m c)
theorem P1_main_arg8 (m : (ℓ : Loc nD τ sig) → Buf (Elt F) ℓ) (c : Dev nD) : P1 (launchContents m c) (no_index (Proc.devRef .tc main_arg8)) = (m ((c.tc : Thread nD τ).loc main_arg8)) :=
  (layer0_keep _ main_arg8 (by decide) (by decide)).trans (P0_main_arg8 m c)
theorem P1_main_arg9 (m : (ℓ : Loc nD τ sig) → Buf (Elt F) ℓ) (c : Dev nD) : P1 (launchContents m c) (no_index (Proc.devRef .tc main_arg9)) = (m ((c.tc : Thread nD τ).loc main_arg9)) :=
  (layer0_keep _ main_arg9 (by decide) (by decide)).trans (P0_main_arg9 m c)
theorem P1_main_arg10 (m : (ℓ : Loc nD τ sig) → Buf (Elt F) ℓ) (c : Dev nD) : P1 (launchContents m c) (no_index (Proc.devRef .tc main_arg10)) = (m ((c.tc : Thread nD τ).loc main_arg10)) :=
  (layer0_keep _ main_arg10 (by decide) (by decide)).trans (P0_main_arg10 m c)
theorem P1_main_arg11 (m : (ℓ : Loc nD τ sig) → Buf (Elt F) ℓ) (c : Dev nD) : P1 (launchContents m c) (no_index (Proc.devRef .tc main_arg11)) = (m ((c.tc : Thread nD τ).loc main_arg11)) :=
  (layer0_keep _ main_arg11 (by decide) (by decide)).trans (P0_main_arg11 m c)
theorem P1_main_arg12 (m : (ℓ : Loc nD τ sig) → Buf (Elt F) ℓ) (c : Dev nD) : P1 (launchContents m c) (no_index (Proc.devRef .tc main_arg12)) = (m ((c.tc : Thread nD τ).loc main_arg12)) :=
  (layer0_keep _ main_arg12 (by decide) (by decide)).trans (P0_main_arg12 m c)
theorem P1_main_arg13 (m : (ℓ : Loc nD τ sig) → Buf (Elt F) ℓ) (c : Dev nD) : P1 (launchContents m c) (no_index (Proc.devRef .tc main_arg13)) = (m ((c.tc : Thread nD τ).loc main_arg13)) :=
  (layer0_keep _ main_arg13 (by decide) (by decide)).trans (P0_main_arg13 m c)
theorem P1_main_arg14 (m : (ℓ : Loc nD τ sig) → Buf (Elt F) ℓ) (c : Dev nD) : P1 (launchContents m c) (no_index (Proc.devRef .tc main_arg14)) = (m ((c.tc : Thread nD τ).loc main_arg14)) :=
  (layer0_keep _ main_arg14 (by decide) (by decide)).trans (P0_main_arg14 m c)
theorem P1_main_arg15 (m : (ℓ : Loc nD τ sig) → Buf (Elt F) ℓ) (c : Dev nD) : P1 (launchContents m c) (no_index (Proc.devRef .tc main_arg15)) = (m ((c.tc : Thread nD τ).loc main_arg15)) :=
  (layer0_keep _ main_arg15 (by decide) (by decide)).trans (P0_main_arg15 m c)
theorem P1_main_arg24 (m : (ℓ : Loc nD τ sig) → Buf (Elt F) ℓ) (c : Dev nD) : P1 (launchContents m c) (no_index (Proc.devRef .tc main_arg24)) = (m ((c.tc : Thread nD τ).loc main_arg24)) :=
  (layer0_keep _ main_arg24 (by decide) (by decide)).trans (P0_main_arg24 m c)
theorem P1_main_arg16 (m : (ℓ : Loc nD τ sig) → Buf (Elt F) ℓ) (c : Dev nD) : P1 (launchContents m c) (no_index (Proc.devRef .tc main_arg16)) = (m ((c.tc : Thread nD τ).loc main_arg16)) :=
  (layer0_keep _ main_arg16 (by decide) (by decide)).trans (P0_main_arg16 m c)
theorem P1_main_arg17 (m : (ℓ : Loc nD τ sig) → Buf (Elt F) ℓ) (c : Dev nD) : P1 (launchContents m c) (no_index (Proc.devRef .tc main_arg17)) = (m ((c.tc : Thread nD τ).loc main_arg17)) :=
  (layer0_keep _ main_arg17 (by decide) (by decide)).trans (P0_main_arg17 m c)
theorem P1_main_arg18 (m : (ℓ : Loc nD τ sig) → Buf (Elt F) ℓ) (c : Dev nD) : P1 (launchContents m c) (no_index (Proc.devRef .tc main_arg18)) = (m ((c.tc : Thread nD τ).loc main_arg18)) :=
  (layer0_keep _ main_arg18 (by decide) (by decide)).trans (P0_main_arg18 m c)
theorem P1_main_arg19 (m : (ℓ : Loc nD τ sig) → Buf (Elt F) ℓ) (c : Dev nD) : P1 (launchContents m c) (no_index (Proc.devRef .tc main_arg19)) = (m ((c.tc : Thread nD τ).loc main_arg19)) :=
  (layer0_keep _ main_arg19 (by decide) (by decide)).trans (P0_main_arg19 m c)
theorem P1_main_arg20 (m : (ℓ : Loc nD τ sig) → Buf (Elt F) ℓ) (c : Dev nD) : P1 (launchContents m c) (no_index (Proc.devRef .tc main_arg20)) = (m ((c.tc : Thread nD τ).loc main_arg20)) :=
  (layer0_keep _ main_arg20 (by decide) (by decide)).trans (P0_main_arg20 m c)
theorem P1_main_arg21 (m : (ℓ : Loc nD τ sig) → Buf (Elt F) ℓ) (c : Dev nD) : P1 (launchContents m c) (no_index (Proc.devRef .tc main_arg21)) = (m ((c.tc : Thread nD τ).loc main_arg21)) :=
  (layer0_keep _ main_arg21 (by decide) (by decide)).trans (P0_main_arg21 m c)

/-- The buffer contents after the first 2 stages. -/
def P2 (V : Valuation τ sig (Elt F)) : Valuation τ sig (Elt F) := after cL1b (WL1a (P1 V))
theorem P2_main_v117 (m : (ℓ : Loc nD τ sig) → Buf (Elt F) ℓ) (c : Dev nD) : P2 (launchContents m c) (no_index (Proc.devRef .tc main_v117)) = H1 m c := by
  unfold P2 H1
  rw [layer1]
  simp only [P1_main_v60, P1_main_arg1, P1_main_arg2, P1_main_arg3, P1_main_arg4, P1_main_arg5, P1_main_arg6, P1_main_arg7, P1_main_v1, P1_main_v3]
theorem P2_main_arg1 (m : (ℓ : Loc nD τ sig) → Buf (Elt F) ℓ) (c : Dev nD) : P2 (launchContents m c) (no_index (Proc.devRef .tc main_arg1)) = (m ((c.tc : Thread nD τ).loc main_arg1)) :=
  (layer1_keep _ main_arg1 (by decide) (by decide)).trans (P1_main_arg1 m c)
theorem P2_main_arg2 (m : (ℓ : Loc nD τ sig) → Buf (Elt F) ℓ) (c : Dev nD) : P2 (launchContents m c) (no_index (Proc.devRef .tc main_arg2)) = (m ((c.tc : Thread nD τ).loc main_arg2)) :=
  (layer1_keep _ main_arg2 (by decide) (by decide)).trans (P1_main_arg2 m c)
theorem P2_main_arg3 (m : (ℓ : Loc nD τ sig) → Buf (Elt F) ℓ) (c : Dev nD) : P2 (launchContents m c) (no_index (Proc.devRef .tc main_arg3)) = (m ((c.tc : Thread nD τ).loc main_arg3)) :=
  (layer1_keep _ main_arg3 (by decide) (by decide)).trans (P1_main_arg3 m c)
theorem P2_main_arg4 (m : (ℓ : Loc nD τ sig) → Buf (Elt F) ℓ) (c : Dev nD) : P2 (launchContents m c) (no_index (Proc.devRef .tc main_arg4)) = (m ((c.tc : Thread nD τ).loc main_arg4)) :=
  (layer1_keep _ main_arg4 (by decide) (by decide)).trans (P1_main_arg4 m c)
theorem P2_main_arg5 (m : (ℓ : Loc nD τ sig) → Buf (Elt F) ℓ) (c : Dev nD) : P2 (launchContents m c) (no_index (Proc.devRef .tc main_arg5)) = (m ((c.tc : Thread nD τ).loc main_arg5)) :=
  (layer1_keep _ main_arg5 (by decide) (by decide)).trans (P1_main_arg5 m c)
theorem P2_main_arg6 (m : (ℓ : Loc nD τ sig) → Buf (Elt F) ℓ) (c : Dev nD) : P2 (launchContents m c) (no_index (Proc.devRef .tc main_arg6)) = (m ((c.tc : Thread nD τ).loc main_arg6)) :=
  (layer1_keep _ main_arg6 (by decide) (by decide)).trans (P1_main_arg6 m c)
theorem P2_main_arg7 (m : (ℓ : Loc nD τ sig) → Buf (Elt F) ℓ) (c : Dev nD) : P2 (launchContents m c) (no_index (Proc.devRef .tc main_arg7)) = (m ((c.tc : Thread nD τ).loc main_arg7)) :=
  (layer1_keep _ main_arg7 (by decide) (by decide)).trans (P1_main_arg7 m c)
theorem P2_main_v1 (m : (ℓ : Loc nD τ sig) → Buf (Elt F) ℓ) (c : Dev nD) : P2 (launchContents m c) (no_index (Proc.devRef .tc main_v1)) = srcIdx (m ((c.tc : Thread nD τ).loc main_arg22)) :=
  (layer1_keep _ main_v1 (by decide) (by decide)).trans (P1_main_v1 m c)
theorem P2_main_v3 (m : (ℓ : Loc nD τ sig) → Buf (Elt F) ℓ) (c : Dev nD) : P2 (launchContents m c) (no_index (Proc.devRef .tc main_v3)) = dstIdx (m ((c.tc : Thread nD τ).loc main_arg22)) :=
  (layer1_keep _ main_v3 (by decide) (by decide)).trans (P1_main_v3 m c)
theorem P2_main_v60 (m : (ℓ : Loc nD τ sig) → Buf (Elt F) ℓ) (c : Dev nD) : P2 (launchContents m c) (no_index (Proc.devRef .tc main_v60)) = H0 m c :=
  (layer1_keep _ main_v60 (by decide) (by decide)).trans (P1_main_v60 m c)
theorem P2_main_arg23 (m : (ℓ : Loc nD τ sig) → Buf (Elt F) ℓ) (c : Dev nD) : P2 (launchContents m c) (no_index (Proc.devRef .tc main_arg23)) = (m ((c.tc : Thread nD τ).loc main_arg23)) :=
  (layer1_keep _ main_arg23 (by decide) (by decide)).trans (P1_main_arg23 m c)
theorem P2_main_arg8 (m : (ℓ : Loc nD τ sig) → Buf (Elt F) ℓ) (c : Dev nD) : P2 (launchContents m c) (no_index (Proc.devRef .tc main_arg8)) = (m ((c.tc : Thread nD τ).loc main_arg8)) :=
  (layer1_keep _ main_arg8 (by decide) (by decide)).trans (P1_main_arg8 m c)
theorem P2_main_arg9 (m : (ℓ : Loc nD τ sig) → Buf (Elt F) ℓ) (c : Dev nD) : P2 (launchContents m c) (no_index (Proc.devRef .tc main_arg9)) = (m ((c.tc : Thread nD τ).loc main_arg9)) :=
  (layer1_keep _ main_arg9 (by decide) (by decide)).trans (P1_main_arg9 m c)
theorem P2_main_arg10 (m : (ℓ : Loc nD τ sig) → Buf (Elt F) ℓ) (c : Dev nD) : P2 (launchContents m c) (no_index (Proc.devRef .tc main_arg10)) = (m ((c.tc : Thread nD τ).loc main_arg10)) :=
  (layer1_keep _ main_arg10 (by decide) (by decide)).trans (P1_main_arg10 m c)
theorem P2_main_arg11 (m : (ℓ : Loc nD τ sig) → Buf (Elt F) ℓ) (c : Dev nD) : P2 (launchContents m c) (no_index (Proc.devRef .tc main_arg11)) = (m ((c.tc : Thread nD τ).loc main_arg11)) :=
  (layer1_keep _ main_arg11 (by decide) (by decide)).trans (P1_main_arg11 m c)
theorem P2_main_arg12 (m : (ℓ : Loc nD τ sig) → Buf (Elt F) ℓ) (c : Dev nD) : P2 (launchContents m c) (no_index (Proc.devRef .tc main_arg12)) = (m ((c.tc : Thread nD τ).loc main_arg12)) :=
  (layer1_keep _ main_arg12 (by decide) (by decide)).trans (P1_main_arg12 m c)
theorem P2_main_arg13 (m : (ℓ : Loc nD τ sig) → Buf (Elt F) ℓ) (c : Dev nD) : P2 (launchContents m c) (no_index (Proc.devRef .tc main_arg13)) = (m ((c.tc : Thread nD τ).loc main_arg13)) :=
  (layer1_keep _ main_arg13 (by decide) (by decide)).trans (P1_main_arg13 m c)
theorem P2_main_arg14 (m : (ℓ : Loc nD τ sig) → Buf (Elt F) ℓ) (c : Dev nD) : P2 (launchContents m c) (no_index (Proc.devRef .tc main_arg14)) = (m ((c.tc : Thread nD τ).loc main_arg14)) :=
  (layer1_keep _ main_arg14 (by decide) (by decide)).trans (P1_main_arg14 m c)
theorem P2_main_arg15 (m : (ℓ : Loc nD τ sig) → Buf (Elt F) ℓ) (c : Dev nD) : P2 (launchContents m c) (no_index (Proc.devRef .tc main_arg15)) = (m ((c.tc : Thread nD τ).loc main_arg15)) :=
  (layer1_keep _ main_arg15 (by decide) (by decide)).trans (P1_main_arg15 m c)
theorem P2_main_arg24 (m : (ℓ : Loc nD τ sig) → Buf (Elt F) ℓ) (c : Dev nD) : P2 (launchContents m c) (no_index (Proc.devRef .tc main_arg24)) = (m ((c.tc : Thread nD τ).loc main_arg24)) :=
  (layer1_keep _ main_arg24 (by decide) (by decide)).trans (P1_main_arg24 m c)
theorem P2_main_arg16 (m : (ℓ : Loc nD τ sig) → Buf (Elt F) ℓ) (c : Dev nD) : P2 (launchContents m c) (no_index (Proc.devRef .tc main_arg16)) = (m ((c.tc : Thread nD τ).loc main_arg16)) :=
  (layer1_keep _ main_arg16 (by decide) (by decide)).trans (P1_main_arg16 m c)
theorem P2_main_arg17 (m : (ℓ : Loc nD τ sig) → Buf (Elt F) ℓ) (c : Dev nD) : P2 (launchContents m c) (no_index (Proc.devRef .tc main_arg17)) = (m ((c.tc : Thread nD τ).loc main_arg17)) :=
  (layer1_keep _ main_arg17 (by decide) (by decide)).trans (P1_main_arg17 m c)
theorem P2_main_arg18 (m : (ℓ : Loc nD τ sig) → Buf (Elt F) ℓ) (c : Dev nD) : P2 (launchContents m c) (no_index (Proc.devRef .tc main_arg18)) = (m ((c.tc : Thread nD τ).loc main_arg18)) :=
  (layer1_keep _ main_arg18 (by decide) (by decide)).trans (P1_main_arg18 m c)
theorem P2_main_arg19 (m : (ℓ : Loc nD τ sig) → Buf (Elt F) ℓ) (c : Dev nD) : P2 (launchContents m c) (no_index (Proc.devRef .tc main_arg19)) = (m ((c.tc : Thread nD τ).loc main_arg19)) :=
  (layer1_keep _ main_arg19 (by decide) (by decide)).trans (P1_main_arg19 m c)
theorem P2_main_arg20 (m : (ℓ : Loc nD τ sig) → Buf (Elt F) ℓ) (c : Dev nD) : P2 (launchContents m c) (no_index (Proc.devRef .tc main_arg20)) = (m ((c.tc : Thread nD τ).loc main_arg20)) :=
  (layer1_keep _ main_arg20 (by decide) (by decide)).trans (P1_main_arg20 m c)
theorem P2_main_arg21 (m : (ℓ : Loc nD τ sig) → Buf (Elt F) ℓ) (c : Dev nD) : P2 (launchContents m c) (no_index (Proc.devRef .tc main_arg21)) = (m ((c.tc : Thread nD τ).loc main_arg21)) :=
  (layer1_keep _ main_arg21 (by decide) (by decide)).trans (P1_main_arg21 m c)

/-- The buffer contents after the first 3 stages. -/
def P3 (V : Valuation τ sig (Elt F)) : Valuation τ sig (Elt F) := after cL2b (WL2a (P2 V))
theorem P3_main_v174 (m : (ℓ : Loc nD τ sig) → Buf (Elt F) ℓ) (c : Dev nD) : P3 (launchContents m c) (no_index (Proc.devRef .tc main_v174)) = H2 m c := by
  unfold P3 H2
  rw [layer2]
  simp only [P2_main_v117, P2_main_arg1, P2_main_arg2, P2_main_arg3, P2_main_arg4, P2_main_arg5, P2_main_arg6, P2_main_arg7, P2_main_v1, P2_main_v3]
theorem P3_main_arg1 (m : (ℓ : Loc nD τ sig) → Buf (Elt F) ℓ) (c : Dev nD) : P3 (launchContents m c) (no_index (Proc.devRef .tc main_arg1)) = (m ((c.tc : Thread nD τ).loc main_arg1)) :=
  (layer2_keep _ main_arg1 (by decide) (by decide)).trans (P2_main_arg1 m c)
theorem P3_main_arg2 (m : (ℓ : Loc nD τ sig) → Buf (Elt F) ℓ) (c : Dev nD) : P3 (launchContents m c) (no_index (Proc.devRef .tc main_arg2)) = (m ((c.tc : Thread nD τ).loc main_arg2)) :=
  (layer2_keep _ main_arg2 (by decide) (by decide)).trans (P2_main_arg2 m c)
theorem P3_main_arg3 (m : (ℓ : Loc nD τ sig) → Buf (Elt F) ℓ) (c : Dev nD) : P3 (launchContents m c) (no_index (Proc.devRef .tc main_arg3)) = (m ((c.tc : Thread nD τ).loc main_arg3)) :=
  (layer2_keep _ main_arg3 (by decide) (by decide)).trans (P2_main_arg3 m c)
theorem P3_main_arg4 (m : (ℓ : Loc nD τ sig) → Buf (Elt F) ℓ) (c : Dev nD) : P3 (launchContents m c) (no_index (Proc.devRef .tc main_arg4)) = (m ((c.tc : Thread nD τ).loc main_arg4)) :=
  (layer2_keep _ main_arg4 (by decide) (by decide)).trans (P2_main_arg4 m c)
theorem P3_main_arg5 (m : (ℓ : Loc nD τ sig) → Buf (Elt F) ℓ) (c : Dev nD) : P3 (launchContents m c) (no_index (Proc.devRef .tc main_arg5)) = (m ((c.tc : Thread nD τ).loc main_arg5)) :=
  (layer2_keep _ main_arg5 (by decide) (by decide)).trans (P2_main_arg5 m c)
theorem P3_main_arg6 (m : (ℓ : Loc nD τ sig) → Buf (Elt F) ℓ) (c : Dev nD) : P3 (launchContents m c) (no_index (Proc.devRef .tc main_arg6)) = (m ((c.tc : Thread nD τ).loc main_arg6)) :=
  (layer2_keep _ main_arg6 (by decide) (by decide)).trans (P2_main_arg6 m c)
theorem P3_main_arg7 (m : (ℓ : Loc nD τ sig) → Buf (Elt F) ℓ) (c : Dev nD) : P3 (launchContents m c) (no_index (Proc.devRef .tc main_arg7)) = (m ((c.tc : Thread nD τ).loc main_arg7)) :=
  (layer2_keep _ main_arg7 (by decide) (by decide)).trans (P2_main_arg7 m c)
theorem P3_main_v1 (m : (ℓ : Loc nD τ sig) → Buf (Elt F) ℓ) (c : Dev nD) : P3 (launchContents m c) (no_index (Proc.devRef .tc main_v1)) = srcIdx (m ((c.tc : Thread nD τ).loc main_arg22)) :=
  (layer2_keep _ main_v1 (by decide) (by decide)).trans (P2_main_v1 m c)
theorem P3_main_v3 (m : (ℓ : Loc nD τ sig) → Buf (Elt F) ℓ) (c : Dev nD) : P3 (launchContents m c) (no_index (Proc.devRef .tc main_v3)) = dstIdx (m ((c.tc : Thread nD τ).loc main_arg22)) :=
  (layer2_keep _ main_v3 (by decide) (by decide)).trans (P2_main_v3 m c)
theorem P3_main_v60 (m : (ℓ : Loc nD τ sig) → Buf (Elt F) ℓ) (c : Dev nD) : P3 (launchContents m c) (no_index (Proc.devRef .tc main_v60)) = H0 m c :=
  (layer2_keep _ main_v60 (by decide) (by decide)).trans (P2_main_v60 m c)
theorem P3_main_v117 (m : (ℓ : Loc nD τ sig) → Buf (Elt F) ℓ) (c : Dev nD) : P3 (launchContents m c) (no_index (Proc.devRef .tc main_v117)) = H1 m c :=
  (layer2_keep _ main_v117 (by decide) (by decide)).trans (P2_main_v117 m c)
theorem P3_main_arg23 (m : (ℓ : Loc nD τ sig) → Buf (Elt F) ℓ) (c : Dev nD) : P3 (launchContents m c) (no_index (Proc.devRef .tc main_arg23)) = (m ((c.tc : Thread nD τ).loc main_arg23)) :=
  (layer2_keep _ main_arg23 (by decide) (by decide)).trans (P2_main_arg23 m c)
theorem P3_main_arg8 (m : (ℓ : Loc nD τ sig) → Buf (Elt F) ℓ) (c : Dev nD) : P3 (launchContents m c) (no_index (Proc.devRef .tc main_arg8)) = (m ((c.tc : Thread nD τ).loc main_arg8)) :=
  (layer2_keep _ main_arg8 (by decide) (by decide)).trans (P2_main_arg8 m c)
theorem P3_main_arg9 (m : (ℓ : Loc nD τ sig) → Buf (Elt F) ℓ) (c : Dev nD) : P3 (launchContents m c) (no_index (Proc.devRef .tc main_arg9)) = (m ((c.tc : Thread nD τ).loc main_arg9)) :=
  (layer2_keep _ main_arg9 (by decide) (by decide)).trans (P2_main_arg9 m c)
theorem P3_main_arg10 (m : (ℓ : Loc nD τ sig) → Buf (Elt F) ℓ) (c : Dev nD) : P3 (launchContents m c) (no_index (Proc.devRef .tc main_arg10)) = (m ((c.tc : Thread nD τ).loc main_arg10)) :=
  (layer2_keep _ main_arg10 (by decide) (by decide)).trans (P2_main_arg10 m c)
theorem P3_main_arg11 (m : (ℓ : Loc nD τ sig) → Buf (Elt F) ℓ) (c : Dev nD) : P3 (launchContents m c) (no_index (Proc.devRef .tc main_arg11)) = (m ((c.tc : Thread nD τ).loc main_arg11)) :=
  (layer2_keep _ main_arg11 (by decide) (by decide)).trans (P2_main_arg11 m c)
theorem P3_main_arg12 (m : (ℓ : Loc nD τ sig) → Buf (Elt F) ℓ) (c : Dev nD) : P3 (launchContents m c) (no_index (Proc.devRef .tc main_arg12)) = (m ((c.tc : Thread nD τ).loc main_arg12)) :=
  (layer2_keep _ main_arg12 (by decide) (by decide)).trans (P2_main_arg12 m c)
theorem P3_main_arg13 (m : (ℓ : Loc nD τ sig) → Buf (Elt F) ℓ) (c : Dev nD) : P3 (launchContents m c) (no_index (Proc.devRef .tc main_arg13)) = (m ((c.tc : Thread nD τ).loc main_arg13)) :=
  (layer2_keep _ main_arg13 (by decide) (by decide)).trans (P2_main_arg13 m c)
theorem P3_main_arg14 (m : (ℓ : Loc nD τ sig) → Buf (Elt F) ℓ) (c : Dev nD) : P3 (launchContents m c) (no_index (Proc.devRef .tc main_arg14)) = (m ((c.tc : Thread nD τ).loc main_arg14)) :=
  (layer2_keep _ main_arg14 (by decide) (by decide)).trans (P2_main_arg14 m c)
theorem P3_main_arg15 (m : (ℓ : Loc nD τ sig) → Buf (Elt F) ℓ) (c : Dev nD) : P3 (launchContents m c) (no_index (Proc.devRef .tc main_arg15)) = (m ((c.tc : Thread nD τ).loc main_arg15)) :=
  (layer2_keep _ main_arg15 (by decide) (by decide)).trans (P2_main_arg15 m c)
theorem P3_main_arg24 (m : (ℓ : Loc nD τ sig) → Buf (Elt F) ℓ) (c : Dev nD) : P3 (launchContents m c) (no_index (Proc.devRef .tc main_arg24)) = (m ((c.tc : Thread nD τ).loc main_arg24)) :=
  (layer2_keep _ main_arg24 (by decide) (by decide)).trans (P2_main_arg24 m c)
theorem P3_main_arg16 (m : (ℓ : Loc nD τ sig) → Buf (Elt F) ℓ) (c : Dev nD) : P3 (launchContents m c) (no_index (Proc.devRef .tc main_arg16)) = (m ((c.tc : Thread nD τ).loc main_arg16)) :=
  (layer2_keep _ main_arg16 (by decide) (by decide)).trans (P2_main_arg16 m c)
theorem P3_main_arg17 (m : (ℓ : Loc nD τ sig) → Buf (Elt F) ℓ) (c : Dev nD) : P3 (launchContents m c) (no_index (Proc.devRef .tc main_arg17)) = (m ((c.tc : Thread nD τ).loc main_arg17)) :=
  (layer2_keep _ main_arg17 (by decide) (by decide)).trans (P2_main_arg17 m c)
theorem P3_main_arg18 (m : (ℓ : Loc nD τ sig) → Buf (Elt F) ℓ) (c : Dev nD) : P3 (launchContents m c) (no_index (Proc.devRef .tc main_arg18)) = (m ((c.tc : Thread nD τ).loc main_arg18)) :=
  (layer2_keep _ main_arg18 (by decide) (by decide)).trans (P2_main_arg18 m c)
theorem P3_main_arg19 (m : (ℓ : Loc nD τ sig) → Buf (Elt F) ℓ) (c : Dev nD) : P3 (launchContents m c) (no_index (Proc.devRef .tc main_arg19)) = (m ((c.tc : Thread nD τ).loc main_arg19)) :=
  (layer2_keep _ main_arg19 (by decide) (by decide)).trans (P2_main_arg19 m c)
theorem P3_main_arg20 (m : (ℓ : Loc nD τ sig) → Buf (Elt F) ℓ) (c : Dev nD) : P3 (launchContents m c) (no_index (Proc.devRef .tc main_arg20)) = (m ((c.tc : Thread nD τ).loc main_arg20)) :=
  (layer2_keep _ main_arg20 (by decide) (by decide)).trans (P2_main_arg20 m c)
theorem P3_main_arg21 (m : (ℓ : Loc nD τ sig) → Buf (Elt F) ℓ) (c : Dev nD) : P3 (launchContents m c) (no_index (Proc.devRef .tc main_arg21)) = (m ((c.tc : Thread nD τ).loc main_arg21)) :=
  (layer2_keep _ main_arg21 (by decide) (by decide)).trans (P2_main_arg21 m c)

/-- The buffer contents after the first 4 stages. -/
def P4 (V : Valuation τ sig (Elt F)) : Valuation τ sig (Elt F) := after cL3b (WL3a (P3 V))
theorem P4_main_v60 (m : (ℓ : Loc nD τ sig) → Buf (Elt F) ℓ) (c : Dev nD) : P4 (launchContents m c) (no_index (Proc.devRef .tc main_v60)) = H0 m c :=
  (layer3_keep _ main_v60 (by decide) (by decide)).trans (P3_main_v60 m c)
theorem P4_main_v117 (m : (ℓ : Loc nD τ sig) → Buf (Elt F) ℓ) (c : Dev nD) : P4 (launchContents m c) (no_index (Proc.devRef .tc main_v117)) = H1 m c :=
  (layer3_keep _ main_v117 (by decide) (by decide)).trans (P3_main_v117 m c)
theorem P4_main_v174 (m : (ℓ : Loc nD τ sig) → Buf (Elt F) ℓ) (c : Dev nD) : P4 (launchContents m c) (no_index (Proc.devRef .tc main_v174)) = H2 m c :=
  (layer3_keep _ main_v174 (by decide) (by decide)).trans (P3_main_v174 m c)
theorem P4_main_v231 (m : (ℓ : Loc nD τ sig) → Buf (Elt F) ℓ) (c : Dev nD) : P4 (launchContents m c) (no_index (Proc.devRef .tc main_v231)) = H3 m c := by
  unfold P4 H3
  rw [layer3]
  simp only [P3_main_v174, P3_main_arg1, P3_main_arg2, P3_main_arg3, P3_main_arg4, P3_main_arg5, P3_main_arg6, P3_main_arg7, P3_main_v1, P3_main_v3]
theorem P4_main_arg23 (m : (ℓ : Loc nD τ sig) → Buf (Elt F) ℓ) (c : Dev nD) : P4 (launchContents m c) (no_index (Proc.devRef .tc main_arg23)) = (m ((c.tc : Thread nD τ).loc main_arg23)) :=
  (layer3_keep _ main_arg23 (by decide) (by decide)).trans (P3_main_arg23 m c)
theorem P4_main_arg8 (m : (ℓ : Loc nD τ sig) → Buf (Elt F) ℓ) (c : Dev nD) : P4 (launchContents m c) (no_index (Proc.devRef .tc main_arg8)) = (m ((c.tc : Thread nD τ).loc main_arg8)) :=
  (layer3_keep _ main_arg8 (by decide) (by decide)).trans (P3_main_arg8 m c)
theorem P4_main_arg9 (m : (ℓ : Loc nD τ sig) → Buf (Elt F) ℓ) (c : Dev nD) : P4 (launchContents m c) (no_index (Proc.devRef .tc main_arg9)) = (m ((c.tc : Thread nD τ).loc main_arg9)) :=
  (layer3_keep _ main_arg9 (by decide) (by decide)).trans (P3_main_arg9 m c)
theorem P4_main_arg10 (m : (ℓ : Loc nD τ sig) → Buf (Elt F) ℓ) (c : Dev nD) : P4 (launchContents m c) (no_index (Proc.devRef .tc main_arg10)) = (m ((c.tc : Thread nD τ).loc main_arg10)) :=
  (layer3_keep _ main_arg10 (by decide) (by decide)).trans (P3_main_arg10 m c)
theorem P4_main_arg11 (m : (ℓ : Loc nD τ sig) → Buf (Elt F) ℓ) (c : Dev nD) : P4 (launchContents m c) (no_index (Proc.devRef .tc main_arg11)) = (m ((c.tc : Thread nD τ).loc main_arg11)) :=
  (layer3_keep _ main_arg11 (by decide) (by decide)).trans (P3_main_arg11 m c)
theorem P4_main_arg12 (m : (ℓ : Loc nD τ sig) → Buf (Elt F) ℓ) (c : Dev nD) : P4 (launchContents m c) (no_index (Proc.devRef .tc main_arg12)) = (m ((c.tc : Thread nD τ).loc main_arg12)) :=
  (layer3_keep _ main_arg12 (by decide) (by decide)).trans (P3_main_arg12 m c)
theorem P4_main_arg13 (m : (ℓ : Loc nD τ sig) → Buf (Elt F) ℓ) (c : Dev nD) : P4 (launchContents m c) (no_index (Proc.devRef .tc main_arg13)) = (m ((c.tc : Thread nD τ).loc main_arg13)) :=
  (layer3_keep _ main_arg13 (by decide) (by decide)).trans (P3_main_arg13 m c)
theorem P4_main_arg14 (m : (ℓ : Loc nD τ sig) → Buf (Elt F) ℓ) (c : Dev nD) : P4 (launchContents m c) (no_index (Proc.devRef .tc main_arg14)) = (m ((c.tc : Thread nD τ).loc main_arg14)) :=
  (layer3_keep _ main_arg14 (by decide) (by decide)).trans (P3_main_arg14 m c)
theorem P4_main_arg15 (m : (ℓ : Loc nD τ sig) → Buf (Elt F) ℓ) (c : Dev nD) : P4 (launchContents m c) (no_index (Proc.devRef .tc main_arg15)) = (m ((c.tc : Thread nD τ).loc main_arg15)) :=
  (layer3_keep _ main_arg15 (by decide) (by decide)).trans (P3_main_arg15 m c)
theorem P4_main_arg24 (m : (ℓ : Loc nD τ sig) → Buf (Elt F) ℓ) (c : Dev nD) : P4 (launchContents m c) (no_index (Proc.devRef .tc main_arg24)) = (m ((c.tc : Thread nD τ).loc main_arg24)) :=
  (layer3_keep _ main_arg24 (by decide) (by decide)).trans (P3_main_arg24 m c)
theorem P4_main_arg16 (m : (ℓ : Loc nD τ sig) → Buf (Elt F) ℓ) (c : Dev nD) : P4 (launchContents m c) (no_index (Proc.devRef .tc main_arg16)) = (m ((c.tc : Thread nD τ).loc main_arg16)) :=
  (layer3_keep _ main_arg16 (by decide) (by decide)).trans (P3_main_arg16 m c)
theorem P4_main_arg17 (m : (ℓ : Loc nD τ sig) → Buf (Elt F) ℓ) (c : Dev nD) : P4 (launchContents m c) (no_index (Proc.devRef .tc main_arg17)) = (m ((c.tc : Thread nD τ).loc main_arg17)) :=
  (layer3_keep _ main_arg17 (by decide) (by decide)).trans (P3_main_arg17 m c)
theorem P4_main_arg18 (m : (ℓ : Loc nD τ sig) → Buf (Elt F) ℓ) (c : Dev nD) : P4 (launchContents m c) (no_index (Proc.devRef .tc main_arg18)) = (m ((c.tc : Thread nD τ).loc main_arg18)) :=
  (layer3_keep _ main_arg18 (by decide) (by decide)).trans (P3_main_arg18 m c)
theorem P4_main_arg19 (m : (ℓ : Loc nD τ sig) → Buf (Elt F) ℓ) (c : Dev nD) : P4 (launchContents m c) (no_index (Proc.devRef .tc main_arg19)) = (m ((c.tc : Thread nD τ).loc main_arg19)) :=
  (layer3_keep _ main_arg19 (by decide) (by decide)).trans (P3_main_arg19 m c)
theorem P4_main_arg20 (m : (ℓ : Loc nD τ sig) → Buf (Elt F) ℓ) (c : Dev nD) : P4 (launchContents m c) (no_index (Proc.devRef .tc main_arg20)) = (m ((c.tc : Thread nD τ).loc main_arg20)) :=
  (layer3_keep _ main_arg20 (by decide) (by decide)).trans (P3_main_arg20 m c)
theorem P4_main_arg21 (m : (ℓ : Loc nD τ sig) → Buf (Elt F) ℓ) (c : Dev nD) : P4 (launchContents m c) (no_index (Proc.devRef .tc main_arg21)) = (m ((c.tc : Thread nD τ).loc main_arg21)) :=
  (layer3_keep _ main_arg21 (by decide) (by decide)).trans (P3_main_arg21 m c)

/-- The buffer contents after the first 5 stages. -/
def P5 (V : Valuation τ sig (Elt F)) : Valuation τ sig (Elt F) := after cEmb (P4 V)
theorem P5_main_v232 (m : (ℓ : Loc nD τ sig) → Buf (Elt F) ℓ) (c : Dev nD) : P5 (launchContents m c) (no_index (Proc.devRef .tc main_v232)) = EMB m c := by
  unfold P5 EMB
  rw [tailEmb]
  simp only [P4_main_v60, P4_main_v117, P4_main_v174, P4_main_v231]
theorem P5_main_arg23 (m : (ℓ : Loc nD τ sig) → Buf (Elt F) ℓ) (c : Dev nD) : P5 (launchContents m c) (no_index (Proc.devRef .tc main_arg23)) = (m ((c.tc : Thread nD τ).loc main_arg23)) :=
  (cEmb_keep _ main_arg23 (by decide)).trans (P4_main_arg23 m c)
theorem P5_main_arg8 (m : (ℓ : Loc nD τ sig) → Buf (Elt F) ℓ) (c : Dev nD) : P5 (launchContents m c) (no_index (Proc.devRef .tc main_arg8)) = (m ((c.tc : Thread nD τ).loc main_arg8)) :=
  (cEmb_keep _ main_arg8 (by decide)).trans (P4_main_arg8 m c)
theorem P5_main_arg9 (m : (ℓ : Loc nD τ sig) → Buf (Elt F) ℓ) (c : Dev nD) : P5 (launchContents m c) (no_index (Proc.devRef .tc main_arg9)) = (m ((c.tc : Thread nD τ).loc main_arg9)) :=
  (cEmb_keep _ main_arg9 (by decide)).trans (P4_main_arg9 m c)
theorem P5_main_arg10 (m : (ℓ : Loc nD τ sig) → Buf (Elt F) ℓ) (c : Dev nD) : P5 (launchContents m c) (no_index (Proc.devRef .tc main_arg10)) = (m ((c.tc : Thread nD τ).loc main_arg10)) :=
  (cEmb_keep _ main_arg10 (by decide)).trans (P4_main_arg10 m c)
theorem P5_main_arg11 (m : (ℓ : Loc nD τ sig) → Buf (Elt F) ℓ) (c : Dev nD) : P5 (launchContents m c) (no_index (Proc.devRef .tc main_arg11)) = (m ((c.tc : Thread nD τ).loc main_arg11)) :=
  (cEmb_keep _ main_arg11 (by decide)).trans (P4_main_arg11 m c)
theorem P5_main_arg12 (m : (ℓ : Loc nD τ sig) → Buf (Elt F) ℓ) (c : Dev nD) : P5 (launchContents m c) (no_index (Proc.devRef .tc main_arg12)) = (m ((c.tc : Thread nD τ).loc main_arg12)) :=
  (cEmb_keep _ main_arg12 (by decide)).trans (P4_main_arg12 m c)
theorem P5_main_arg13 (m : (ℓ : Loc nD τ sig) → Buf (Elt F) ℓ) (c : Dev nD) : P5 (launchContents m c) (no_index (Proc.devRef .tc main_arg13)) = (m ((c.tc : Thread nD τ).loc main_arg13)) :=
  (cEmb_keep _ main_arg13 (by decide)).trans (P4_main_arg13 m c)
theorem P5_main_arg14 (m : (ℓ : Loc nD τ sig) → Buf (Elt F) ℓ) (c : Dev nD) : P5 (launchContents m c) (no_index (Proc.devRef .tc main_arg14)) = (m ((c.tc : Thread nD τ).loc main_arg14)) :=
  (cEmb_keep _ main_arg14 (by decide)).trans (P4_main_arg14 m c)
theorem P5_main_arg15 (m : (ℓ : Loc nD τ sig) → Buf (Elt F) ℓ) (c : Dev nD) : P5 (launchContents m c) (no_index (Proc.devRef .tc main_arg15)) = (m ((c.tc : Thread nD τ).loc main_arg15)) :=
  (cEmb_keep _ main_arg15 (by decide)).trans (P4_main_arg15 m c)
theorem P5_main_arg24 (m : (ℓ : Loc nD τ sig) → Buf (Elt F) ℓ) (c : Dev nD) : P5 (launchContents m c) (no_index (Proc.devRef .tc main_arg24)) = (m ((c.tc : Thread nD τ).loc main_arg24)) :=
  (cEmb_keep _ main_arg24 (by decide)).trans (P4_main_arg24 m c)
theorem P5_main_arg16 (m : (ℓ : Loc nD τ sig) → Buf (Elt F) ℓ) (c : Dev nD) : P5 (launchContents m c) (no_index (Proc.devRef .tc main_arg16)) = (m ((c.tc : Thread nD τ).loc main_arg16)) :=
  (cEmb_keep _ main_arg16 (by decide)).trans (P4_main_arg16 m c)
theorem P5_main_arg17 (m : (ℓ : Loc nD τ sig) → Buf (Elt F) ℓ) (c : Dev nD) : P5 (launchContents m c) (no_index (Proc.devRef .tc main_arg17)) = (m ((c.tc : Thread nD τ).loc main_arg17)) :=
  (cEmb_keep _ main_arg17 (by decide)).trans (P4_main_arg17 m c)
theorem P5_main_arg18 (m : (ℓ : Loc nD τ sig) → Buf (Elt F) ℓ) (c : Dev nD) : P5 (launchContents m c) (no_index (Proc.devRef .tc main_arg18)) = (m ((c.tc : Thread nD τ).loc main_arg18)) :=
  (cEmb_keep _ main_arg18 (by decide)).trans (P4_main_arg18 m c)
theorem P5_main_arg19 (m : (ℓ : Loc nD τ sig) → Buf (Elt F) ℓ) (c : Dev nD) : P5 (launchContents m c) (no_index (Proc.devRef .tc main_arg19)) = (m ((c.tc : Thread nD τ).loc main_arg19)) :=
  (cEmb_keep _ main_arg19 (by decide)).trans (P4_main_arg19 m c)
theorem P5_main_arg20 (m : (ℓ : Loc nD τ sig) → Buf (Elt F) ℓ) (c : Dev nD) : P5 (launchContents m c) (no_index (Proc.devRef .tc main_arg20)) = (m ((c.tc : Thread nD τ).loc main_arg20)) :=
  (cEmb_keep _ main_arg20 (by decide)).trans (P4_main_arg20 m c)
theorem P5_main_arg21 (m : (ℓ : Loc nD τ sig) → Buf (Elt F) ℓ) (c : Dev nD) : P5 (launchContents m c) (no_index (Proc.devRef .tc main_arg21)) = (m ((c.tc : Thread nD τ).loc main_arg21)) :=
  (cEmb_keep _ main_arg21 (by decide)).trans (P4_main_arg21 m c)
theorem P5_main_v60 (m : (ℓ : Loc nD τ sig) → Buf (Elt F) ℓ) (c : Dev nD) : P5 (launchContents m c) (no_index (Proc.devRef .tc main_v60)) = H0 m c :=
  (cEmb_keep _ main_v60 (by decide)).trans (P4_main_v60 m c)
theorem P5_main_v117 (m : (ℓ : Loc nD τ sig) → Buf (Elt F) ℓ) (c : Dev nD) : P5 (launchContents m c) (no_index (Proc.devRef .tc main_v117)) = H1 m c :=
  (cEmb_keep _ main_v117 (by decide)).trans (P4_main_v117 m c)
theorem P5_main_v174 (m : (ℓ : Loc nD τ sig) → Buf (Elt F) ℓ) (c : Dev nD) : P5 (launchContents m c) (no_index (Proc.devRef .tc main_v174)) = H2 m c :=
  (cEmb_keep _ main_v174 (by decide)).trans (P4_main_v174 m c)
theorem P5_main_v231 (m : (ℓ : Loc nD τ sig) → Buf (Elt F) ℓ) (c : Dev nD) : P5 (launchContents m c) (no_index (Proc.devRef .tc main_v231)) = H3 m c :=
  (cEmb_keep _ main_v231 (by decide)).trans (P4_main_v231 m c)

/-- The buffer contents after the first 6 stages. -/
def P6 (V : Valuation τ sig (Elt F)) : Valuation τ sig (Elt F) := after cPool (P5 V)
theorem P6_main_v243 (m : (ℓ : Loc nD τ sig) → Buf (Elt F) ℓ) (c : Dev nD) : P6 (launchContents m c) (no_index (Proc.devRef .tc main_v243)) = GEMB m c := by
  unfold P6 GEMB
  rw [tailPool]
  simp only [P5_main_v232, P5_main_arg23]
theorem P6_main_arg8 (m : (ℓ : Loc nD τ sig) → Buf (Elt F) ℓ) (c : Dev nD) : P6 (launchContents m c) (no_index (Proc.devRef .tc main_arg8)) = (m ((c.tc : Thread nD τ).loc main_arg8)) :=
  (cPool_keep _ main_arg8 (by decide)).trans (P5_main_arg8 m c)
theorem P6_main_arg9 (m : (ℓ : Loc nD τ sig) → Buf (Elt F) ℓ) (c : Dev nD) : P6 (launchContents m c) (no_index (Proc.devRef .tc main_arg9)) = (m ((c.tc : Thread nD τ).loc main_arg9)) :=
  (cPool_keep _ main_arg9 (by decide)).trans (P5_main_arg9 m c)
theorem P6_main_arg10 (m : (ℓ : Loc nD τ sig) → Buf (Elt F) ℓ) (c : Dev nD) : P6 (launchContents m c) (no_index (Proc.devRef .tc main_arg10)) = (m ((c.tc : Thread nD τ).loc main_arg10)) :=
  (cPool_keep _ main_arg10 (by decide)).trans (P5_main_arg10 m c)
theorem P6_main_arg11 (m : (ℓ : Loc nD τ sig) → Buf (Elt F) ℓ) (c : Dev nD) : P6 (launchContents m c) (no_index (Proc.devRef .tc main_arg11)) = (m ((c.tc : Thread nD τ).loc main_arg11)) :=
  (cPool_keep _ main_arg11 (by decide)).trans (P5_main_arg11 m c)
theorem P6_main_arg12 (m : (ℓ : Loc nD τ sig) → Buf (Elt F) ℓ) (c : Dev nD) : P6 (launchContents m c) (no_index (Proc.devRef .tc main_arg12)) = (m ((c.tc : Thread nD τ).loc main_arg12)) :=
  (cPool_keep _ main_arg12 (by decide)).trans (P5_main_arg12 m c)
theorem P6_main_arg13 (m : (ℓ : Loc nD τ sig) → Buf (Elt F) ℓ) (c : Dev nD) : P6 (launchContents m c) (no_index (Proc.devRef .tc main_arg13)) = (m ((c.tc : Thread nD τ).loc main_arg13)) :=
  (cPool_keep _ main_arg13 (by decide)).trans (P5_main_arg13 m c)
theorem P6_main_arg14 (m : (ℓ : Loc nD τ sig) → Buf (Elt F) ℓ) (c : Dev nD) : P6 (launchContents m c) (no_index (Proc.devRef .tc main_arg14)) = (m ((c.tc : Thread nD τ).loc main_arg14)) :=
  (cPool_keep _ main_arg14 (by decide)).trans (P5_main_arg14 m c)
theorem P6_main_arg15 (m : (ℓ : Loc nD τ sig) → Buf (Elt F) ℓ) (c : Dev nD) : P6 (launchContents m c) (no_index (Proc.devRef .tc main_arg15)) = (m ((c.tc : Thread nD τ).loc main_arg15)) :=
  (cPool_keep _ main_arg15 (by decide)).trans (P5_main_arg15 m c)
theorem P6_main_v232 (m : (ℓ : Loc nD τ sig) → Buf (Elt F) ℓ) (c : Dev nD) : P6 (launchContents m c) (no_index (Proc.devRef .tc main_v232)) = EMB m c :=
  (cPool_keep _ main_v232 (by decide)).trans (P5_main_v232 m c)
theorem P6_main_arg24 (m : (ℓ : Loc nD τ sig) → Buf (Elt F) ℓ) (c : Dev nD) : P6 (launchContents m c) (no_index (Proc.devRef .tc main_arg24)) = (m ((c.tc : Thread nD τ).loc main_arg24)) :=
  (cPool_keep _ main_arg24 (by decide)).trans (P5_main_arg24 m c)
theorem P6_main_arg16 (m : (ℓ : Loc nD τ sig) → Buf (Elt F) ℓ) (c : Dev nD) : P6 (launchContents m c) (no_index (Proc.devRef .tc main_arg16)) = (m ((c.tc : Thread nD τ).loc main_arg16)) :=
  (cPool_keep _ main_arg16 (by decide)).trans (P5_main_arg16 m c)
theorem P6_main_arg17 (m : (ℓ : Loc nD τ sig) → Buf (Elt F) ℓ) (c : Dev nD) : P6 (launchContents m c) (no_index (Proc.devRef .tc main_arg17)) = (m ((c.tc : Thread nD τ).loc main_arg17)) :=
  (cPool_keep _ main_arg17 (by decide)).trans (P5_main_arg17 m c)
theorem P6_main_arg18 (m : (ℓ : Loc nD τ sig) → Buf (Elt F) ℓ) (c : Dev nD) : P6 (launchContents m c) (no_index (Proc.devRef .tc main_arg18)) = (m ((c.tc : Thread nD τ).loc main_arg18)) :=
  (cPool_keep _ main_arg18 (by decide)).trans (P5_main_arg18 m c)
theorem P6_main_arg19 (m : (ℓ : Loc nD τ sig) → Buf (Elt F) ℓ) (c : Dev nD) : P6 (launchContents m c) (no_index (Proc.devRef .tc main_arg19)) = (m ((c.tc : Thread nD τ).loc main_arg19)) :=
  (cPool_keep _ main_arg19 (by decide)).trans (P5_main_arg19 m c)
theorem P6_main_arg20 (m : (ℓ : Loc nD τ sig) → Buf (Elt F) ℓ) (c : Dev nD) : P6 (launchContents m c) (no_index (Proc.devRef .tc main_arg20)) = (m ((c.tc : Thread nD τ).loc main_arg20)) :=
  (cPool_keep _ main_arg20 (by decide)).trans (P5_main_arg20 m c)
theorem P6_main_arg21 (m : (ℓ : Loc nD τ sig) → Buf (Elt F) ℓ) (c : Dev nD) : P6 (launchContents m c) (no_index (Proc.devRef .tc main_arg21)) = (m ((c.tc : Thread nD τ).loc main_arg21)) :=
  (cPool_keep _ main_arg21 (by decide)).trans (P5_main_arg21 m c)
theorem P6_main_v60 (m : (ℓ : Loc nD τ sig) → Buf (Elt F) ℓ) (c : Dev nD) : P6 (launchContents m c) (no_index (Proc.devRef .tc main_v60)) = H0 m c :=
  (cPool_keep _ main_v60 (by decide)).trans (P5_main_v60 m c)
theorem P6_main_v117 (m : (ℓ : Loc nD τ sig) → Buf (Elt F) ℓ) (c : Dev nD) : P6 (launchContents m c) (no_index (Proc.devRef .tc main_v117)) = H1 m c :=
  (cPool_keep _ main_v117 (by decide)).trans (P5_main_v117 m c)
theorem P6_main_v174 (m : (ℓ : Loc nD τ sig) → Buf (Elt F) ℓ) (c : Dev nD) : P6 (launchContents m c) (no_index (Proc.devRef .tc main_v174)) = H2 m c :=
  (cPool_keep _ main_v174 (by decide)).trans (P5_main_v174 m c)
theorem P6_main_v231 (m : (ℓ : Loc nD τ sig) → Buf (Elt F) ℓ) (c : Dev nD) : P6 (launchContents m c) (no_index (Proc.devRef .tc main_v231)) = H3 m c :=
  (cPool_keep _ main_v231 (by decide)).trans (P5_main_v231 m c)

/-- The buffer contents after the first 7 stages. -/
def P7 (V : Valuation τ sig (Elt F)) : Valuation τ sig (Elt F) := after cCls (P6 V)
theorem P7_main_v232 (m : (ℓ : Loc nD τ sig) → Buf (Elt F) ℓ) (c : Dev nD) : P7 (launchContents m c) (no_index (Proc.devRef .tc main_v232)) = EMB m c :=
  (cCls_keep _ main_v232 (by decide)).trans (P6_main_v232 m c)
theorem P7_main_arg24 (m : (ℓ : Loc nD τ sig) → Buf (Elt F) ℓ) (c : Dev nD) : P7 (launchContents m c) (no_index (Proc.devRef .tc main_arg24)) = (m ((c.tc : Thread nD τ).loc main_arg24)) :=
  (cCls_keep _ main_arg24 (by decide)).trans (P6_main_arg24 m c)
theorem P7_main_arg16 (m : (ℓ : Loc nD τ sig) → Buf (Elt F) ℓ) (c : Dev nD) : P7 (launchContents m c) (no_index (Proc.devRef .tc main_arg16)) = (m ((c.tc : Thread nD τ).loc main_arg16)) :=
  (cCls_keep _ main_arg16 (by decide)).trans (P6_main_arg16 m c)
theorem P7_main_arg17 (m : (ℓ : Loc nD τ sig) → Buf (Elt F) ℓ) (c : Dev nD) : P7 (launchContents m c) (no_index (Proc.devRef .tc main_arg17)) = (m ((c.tc : Thread nD τ).loc main_arg17)) :=
  (cCls_keep _ main_arg17 (by decide)).trans (P6_main_arg17 m c)
theorem P7_main_arg18 (m : (ℓ : Loc nD τ sig) → Buf (Elt F) ℓ) (c : Dev nD) : P7 (launchContents m c) (no_index (Proc.devRef .tc main_arg18)) = (m ((c.tc : Thread nD τ).loc main_arg18)) :=
  (cCls_keep _ main_arg18 (by decide)).trans (P6_main_arg18 m c)
theorem P7_main_arg19 (m : (ℓ : Loc nD τ sig) → Buf (Elt F) ℓ) (c : Dev nD) : P7 (launchContents m c) (no_index (Proc.devRef .tc main_arg19)) = (m ((c.tc : Thread nD τ).loc main_arg19)) :=
  (cCls_keep _ main_arg19 (by decide)).trans (P6_main_arg19 m c)
theorem P7_main_arg20 (m : (ℓ : Loc nD τ sig) → Buf (Elt F) ℓ) (c : Dev nD) : P7 (launchContents m c) (no_index (Proc.devRef .tc main_arg20)) = (m ((c.tc : Thread nD τ).loc main_arg20)) :=
  (cCls_keep _ main_arg20 (by decide)).trans (P6_main_arg20 m c)
theorem P7_main_arg21 (m : (ℓ : Loc nD τ sig) → Buf (Elt F) ℓ) (c : Dev nD) : P7 (launchContents m c) (no_index (Proc.devRef .tc main_arg21)) = (m ((c.tc : Thread nD τ).loc main_arg21)) :=
  (cCls_keep _ main_arg21 (by decide)).trans (P6_main_arg21 m c)
theorem P7_main_v60 (m : (ℓ : Loc nD τ sig) → Buf (Elt F) ℓ) (c : Dev nD) : P7 (launchContents m c) (no_index (Proc.devRef .tc main_v60)) = H0 m c :=
  (cCls_keep _ main_v60 (by decide)).trans (P6_main_v60 m c)
theorem P7_main_v117 (m : (ℓ : Loc nD τ sig) → Buf (Elt F) ℓ) (c : Dev nD) : P7 (launchContents m c) (no_index (Proc.devRef .tc main_v117)) = H1 m c :=
  (cCls_keep _ main_v117 (by decide)).trans (P6_main_v117 m c)
theorem P7_main_v174 (m : (ℓ : Loc nD τ sig) → Buf (Elt F) ℓ) (c : Dev nD) : P7 (launchContents m c) (no_index (Proc.devRef .tc main_v174)) = H2 m c :=
  (cCls_keep _ main_v174 (by decide)).trans (P6_main_v174 m c)
theorem P7_main_v231 (m : (ℓ : Loc nD τ sig) → Buf (Elt F) ℓ) (c : Dev nD) : P7 (launchContents m c) (no_index (Proc.devRef .tc main_v231)) = H3 m c :=
  (cCls_keep _ main_v231 (by decide)).trans (P6_main_v231 m c)
theorem P7_main_v243 (m : (ℓ : Loc nD τ sig) → Buf (Elt F) ℓ) (c : Dev nD) : P7 (launchContents m c) (no_index (Proc.devRef .tc main_v243)) = GEMB m c :=
  (cCls_keep _ main_v243 (by decide)).trans (P6_main_v243 m c)
theorem P7_main_v263 (m : (ℓ : Loc nD τ sig) → Buf (Elt F) ℓ) (c : Dev nD) : P7 (launchContents m c) (no_index (Proc.devRef .tc main_v263)) = clsRef (GEMB m c) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold P7
  rw [tailCls]
  simp only [P6_main_v243, P6_main_arg8, P6_main_arg9, P6_main_arg10, P6_main_arg11, P6_main_arg12, P6_main_arg13, P6_main_arg14, P6_main_arg15]

/-- The buffer contents after the first 8 stages. -/
def P8 (V : Valuation τ sig (Elt F)) : Valuation τ sig (Elt F) := after cEdge (P7 V)
theorem P8_main_v60 (m : (ℓ : Loc nD τ sig) → Buf (Elt F) ℓ) (c : Dev nD) : P8 (launchContents m c) (no_index (Proc.devRef .tc main_v60)) = H0 m c :=
  (cEdge_keep _ main_v60 (by decide)).trans (P7_main_v60 m c)
theorem P8_main_v117 (m : (ℓ : Loc nD τ sig) → Buf (Elt F) ℓ) (c : Dev nD) : P8 (launchContents m c) (no_index (Proc.devRef .tc main_v117)) = H1 m c :=
  (cEdge_keep _ main_v117 (by decide)).trans (P7_main_v117 m c)
theorem P8_main_v174 (m : (ℓ : Loc nD τ sig) → Buf (Elt F) ℓ) (c : Dev nD) : P8 (launchContents m c) (no_index (Proc.devRef .tc main_v174)) = H2 m c :=
  (cEdge_keep _ main_v174 (by decide)).trans (P7_main_v174 m c)
theorem P8_main_v231 (m : (ℓ : Loc nD τ sig) → Buf (Elt F) ℓ) (c : Dev nD) : P8 (launchContents m c) (no_index (Proc.devRef .tc main_v231)) = H3 m c :=
  (cEdge_keep _ main_v231 (by decide)).trans (P7_main_v231 m c)
theorem P8_main_v232 (m : (ℓ : Loc nD τ sig) → Buf (Elt F) ℓ) (c : Dev nD) : P8 (launchContents m c) (no_index (Proc.devRef .tc main_v232)) = EMB m c :=
  (cEdge_keep _ main_v232 (by decide)).trans (P7_main_v232 m c)
theorem P8_main_v243 (m : (ℓ : Loc nD τ sig) → Buf (Elt F) ℓ) (c : Dev nD) : P8 (launchContents m c) (no_index (Proc.devRef .tc main_v243)) = GEMB m c :=
  (cEdge_keep _ main_v243 (by decide)).trans (P7_main_v243 m c)
theorem P8_main_v263 (m : (ℓ : Loc nD τ sig) → Buf (Elt F) ℓ) (c : Dev nD) : P8 (launchContents m c) (no_index (Proc.devRef .tc main_v263)) = clsRef (GEMB m c) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (cEdge_keep _ main_v263 (by decide)).trans (P7_main_v263 m c)
theorem P8_main_v303 (m : (ℓ : Loc nD τ sig) → Buf (Elt F) ℓ) (c : Dev nD) : P8 (launchContents m c) (no_index (Proc.devRef .tc main_v303)) = edgeRef (EMB m c) (m ((c.tc : Thread nD τ).loc main_arg24)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  unfold P8
  rw [tailEdge]
  simp only [P7_main_v232, P7_main_arg24, P7_main_arg16, P7_main_arg17, P7_main_arg18, P7_main_arg19, P7_main_arg20, P7_main_arg21]

/-- The fold over the whole program is the last stage's contents. -/
theorem after_ops (V : Valuation τ sig (Elt F)) : after ops V = P8 V := by
  simp only [ops, after_app]
  rfl

theorem val_h0 (m : (ℓ : Loc nD τ sig) → Buf (Elt F) ℓ) (c : Dev nD) :
    after ops (launchContents m c) (Proc.devRef .tc main_v60) = H0 m c := by
  rw [after_ops]
  exact P8_main_v60 m c
theorem val_h1 (m : (ℓ : Loc nD τ sig) → Buf (Elt F) ℓ) (c : Dev nD) :
    after ops (launchContents m c) (Proc.devRef .tc main_v117) = H1 m c := by
  rw [after_ops]
  exact P8_main_v117 m c
theorem val_h2 (m : (ℓ : Loc nD τ sig) → Buf (Elt F) ℓ) (c : Dev nD) :
    after ops (launchContents m c) (Proc.devRef .tc main_v174) = H2 m c := by
  rw [after_ops]
  exact P8_main_v174 m c
theorem val_h3 (m : (ℓ : Loc nD τ sig) → Buf (Elt F) ℓ) (c : Dev nD) :
    after ops (launchContents m c) (Proc.devRef .tc main_v231) = H3 m c := by
  rw [after_ops]
  exact P8_main_v231 m c
theorem val_emb (m : (ℓ : Loc nD τ sig) → Buf (Elt F) ℓ) (c : Dev nD) :
    after ops (launchContents m c) (Proc.devRef .tc main_v232) = EMB m c := by
  rw [after_ops]
  exact P8_main_v232 m c
theorem val_gemb (m : (ℓ : Loc nD τ sig) → Buf (Elt F) ℓ) (c : Dev nD) :
    after ops (launchContents m c) (Proc.devRef .tc main_v243) = GEMB m c := by
  rw [after_ops]
  exact P8_main_v243 m c
theorem res263_eq (m : (ℓ : Loc nD τ sig) → Buf (Elt F) ℓ) (c : Dev nD) :
    res263 m c = clsRef (GEMB m c) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold res263
  rw [after_ops]
  exact P8_main_v263 m c
theorem res303_eq (m : (ℓ : Loc nD τ sig) → Buf (Elt F) ℓ) (c : Dev nD) :
    res303 m c = edgeRef (EMB m c) (m ((c.tc : Thread nD τ).loc main_arg24)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  unfold res303
  rw [after_ops]
  exact P8_main_v303 m c

end Cert.ReferenceIdeal.HandRun

end
-- ==== Proof.Ref.Final.lean ====
/- The reference side of the certificate: the run's two results are the network's two outputs as functions of the
   argument arrays; the run restated over them; the reference's frame; and the run from a memory that agrees with
   the kernel's on the arguments, its results as functions of the kernel memory's arguments. -/
import proofs.«118347_j18940805776024_1_alg».proof.Defs
import proofs.«118347_j18940805776024_1_alg».proof.Proof.Gen.Pre_finite_inputs
import proofs.«118347_j18940805776024_1_alg».proof.Proof.Ref.Read
import proofs.«118347_j18940805776024_1_alg».proof.Proof.Alg.Net

noncomputable section

namespace Cert.ReferenceIdeal.HandRun

open Cert.ReferenceIdeal Cert.ReferenceIdeal.Gen Idealize.ShloMosaic Idealize.ShloMosaic.TcCoe Idealize.SL.Sem Idealize.ShloMosaic.StableHlo Cert.Alg.Net

section Generic
variable {F : FTy → Type} [FloatOps F]

theorem H0_net (m : (ℓ : Loc nD τ sig) → Buf (Elt F) ℓ) (c : Dev nD) : H0 m c = netH0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg22)) := rfl
theorem H1_net (m : (ℓ : Loc nD τ sig) → Buf (Elt F) ℓ) (c : Dev nD) : H1 m c = netH1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg22)) := by
  unfold H1 netH1; rw [H0_net]
theorem H2_net (m : (ℓ : Loc nD τ sig) → Buf (Elt F) ℓ) (c : Dev nD) : H2 m c = netH2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg22)) := by
  unfold H2 netH2; rw [H1_net]
theorem H3_net (m : (ℓ : Loc nD τ sig) → Buf (Elt F) ℓ) (c : Dev nD) : H3 m c = netH3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg22)) := by
  unfold H3 netH3; rw [H2_net]
theorem EMB_net (m : (ℓ : Loc nD τ sig) → Buf (Elt F) ℓ) (c : Dev nD) : EMB m c = netEmb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg22)) := by
  unfold EMB netEmb; rw [H0_net, H1_net, H2_net, H3_net]
theorem GEMB_net (m : (ℓ : Loc nD τ sig) → Buf (Elt F) ℓ) (c : Dev nD) : GEMB m c = netGemb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg22)) (m ((c.tc : Thread nD τ).loc main_arg23)) := by
  unfold GEMB netGemb; rw [EMB_net]

/-- The class scores after the run are the network's first output of the argument arrays. -/
theorem res263_net (m : (ℓ : Loc nD τ sig) → Buf (Elt F) ℓ) (c : Dev nD) :
    res263 m c = netOut0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg22)) (m ((c.tc : Thread nD τ).loc main_arg23)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [res263_eq, GEMB_net]; rfl
/-- The edge scores after the run are the network's second output of the argument arrays. -/
theorem res303_net (m : (ℓ : Loc nD τ sig) → Buf (Elt F) ℓ) (c : Dev nD) :
    res303 m c = netOut1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg22)) (m ((c.tc : Thread nD τ).loc main_arg24)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  rw [res303_eq, EMB_net]; rfl

/-- The run, its two results as the network's outputs of the argument arrays. -/
theorem ref_run_net (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v263) = netOut0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg22)) (m ((c.tc : Thread nD τ).loc main_arg23)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v303) = netOut1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg22)) (m ((c.tc : Thread nD τ).loc main_arg24)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c).1.trans (res263_net m c), (h c).2.1.trans (res303_net m c), (h c).2.2⟩) (run m ρ)

end Generic

/-- The reference program runs and its argument arrays end unchanged. -/
theorem frame_ri : Cert.frame_ReferenceIdeal :=
  fun m g _ => (θ_run _ _ _).mono (fun _ h c => (h c).2.2) (run (F := Ideal) m g)

end Cert.ReferenceIdeal.HandRun

end
-- ==== Proof.Ref.Agree.lean ====
/- The reference's run from a memory that agrees with the kernel's on the arguments. -/
import proofs.«118347_j18940805776024_1_alg».proof.Defs
import proofs.«118347_j18940805776024_1_alg».proof.Proof.Gen.Pre_finite_inputs
import proofs.«118347_j18940805776024_1_alg».proof.Proof.Ref.Final

noncomputable section

namespace Cert.ReferenceIdeal.HandRun

open Cert.ReferenceIdeal Cert.ReferenceIdeal.Gen Idealize.ShloMosaic Idealize.ShloMosaic.TcCoe Idealize.SL.Sem Idealize.ShloMosaic.StableHlo Cert.Alg.Net

/-- `netOut0` at equal arguments. -/
theorem netOut0_congr {F : FTy → Type} [FloatOps F] {x0 y0 : (⟨S100000x128, .f32⟩ : BufTy).Contents (Elt F)} {x1 y1 : (⟨S4x128x128, .f32⟩ : BufTy).Contents (Elt F)} {x2 y2 : (⟨S4x128, .f32⟩ : BufTy).Contents (Elt F)} {x3 y3 : (⟨S4x128x128, .f32⟩ : BufTy).Contents (Elt F)} {x4 y4 : (⟨S4x128, .f32⟩ : BufTy).Contents (Elt F)} {x5 y5 : (⟨S4x128, .f32⟩ : BufTy).Contents (Elt F)} {x6 y6 : (⟨S4x128, .f32⟩ : BufTy).Contents (Elt F)} {x7 y7 : (⟨S4, .f32⟩ : BufTy).Contents (Elt F)} {x22 y22 : (⟨S2x1600000, .i32⟩ : BufTy).Contents (Elt F)} {x23 y23 : (⟨S100000, .i32⟩ : BufTy).Contents (Elt F)} {x8 y8 : (⟨S512x256, .f32⟩ : BufTy).Contents (Elt F)} {x9 y9 : (⟨S256, .f32⟩ : BufTy).Contents (Elt F)} {x10 y10 : (⟨S256x128, .f32⟩ : BufTy).Contents (Elt F)} {x11 y11 : (⟨S128, .f32⟩ : BufTy).Contents (Elt F)} {x12 y12 : (⟨S128x128, .f32⟩ : BufTy).Contents (Elt F)} {x13 y13 : (⟨S128, .f32⟩ : BufTy).Contents (Elt F)} {x14 y14 : (⟨S128x16, .f32⟩ : BufTy).Contents (Elt F)} {x15 y15 : (⟨S16, .f32⟩ : BufTy).Contents (Elt F)}
    (e0 : x0 = y0) (e1 : x1 = y1) (e2 : x2 = y2) (e3 : x3 = y3) (e4 : x4 = y4) (e5 : x5 = y5) (e6 : x6 = y6) (e7 : x7 = y7) (e22 : x22 = y22) (e23 : x23 = y23) (e8 : x8 = y8) (e9 : x9 = y9) (e10 : x10 = y10) (e11 : x11 = y11) (e12 : x12 = y12) (e13 : x13 = y13) (e14 : x14 = y14) (e15 : x15 = y15) :
    netOut0 x0 x1 x2 x3 x4 x5 x6 x7 x22 x23 x8 x9 x10 x11 x12 x13 x14 x15 = netOut0 y0 y1 y2 y3 y4 y5 y6 y7 y22 y23 y8 y9 y10 y11 y12 y13 y14 y15 := by
  subst e0; subst e1; subst e2; subst e3; subst e4; subst e5; subst e6; subst e7; subst e22; subst e23; subst e8; subst e9; subst e10; subst e11; subst e12; subst e13; subst e14; subst e15
  rfl

/-- `netOut1` at equal arguments. -/
theorem netOut1_congr {F : FTy → Type} [FloatOps F] {x0 y0 : (⟨S100000x128, .f32⟩ : BufTy).Contents (Elt F)} {x1 y1 : (⟨S4x128x128, .f32⟩ : BufTy).Contents (Elt F)} {x2 y2 : (⟨S4x128, .f32⟩ : BufTy).Contents (Elt F)} {x3 y3 : (⟨S4x128x128, .f32⟩ : BufTy).Contents (Elt F)} {x4 y4 : (⟨S4x128, .f32⟩ : BufTy).Contents (Elt F)} {x5 y5 : (⟨S4x128, .f32⟩ : BufTy).Contents (Elt F)} {x6 y6 : (⟨S4x128, .f32⟩ : BufTy).Contents (Elt F)} {x7 y7 : (⟨S4, .f32⟩ : BufTy).Contents (Elt F)} {x22 y22 : (⟨S2x1600000, .i32⟩ : BufTy).Contents (Elt F)} {x24 y24 : (⟨S2x100000, .i32⟩ : BufTy).Contents (Elt F)} {x16 y16 : (⟨S1024x256, .f32⟩ : BufTy).Contents (Elt F)} {x17 y17 : (⟨S256, .f32⟩ : BufTy).Contents (Elt F)} {x18 y18 : (⟨S256x128, .f32⟩ : BufTy).Contents (Elt F)} {x19 y19 : (⟨S128, .f32⟩ : BufTy).Contents (Elt F)} {x20 y20 : (⟨S128x1, .f32⟩ : BufTy).Contents (Elt F)} {x21 y21 : (⟨S1, .f32⟩ : BufTy).Contents (Elt F)}
    (e0 : x0 = y0) (e1 : x1 = y1) (e2 : x2 = y2) (e3 : x3 = y3) (e4 : x4 = y4) (e5 : x5 = y5) (e6 : x6 = y6) (e7 : x7 = y7) (e22 : x22 = y22) (e24 : x24 = y24) (e16 : x16 = y16) (e17 : x17 = y17) (e18 : x18 = y18) (e19 : x19 = y19) (e20 : x20 = y20) (e21 : x21 = y21) :
    netOut1 x0 x1 x2 x3 x4 x5 x6 x7 x22 x24 x16 x17 x18 x19 x20 x21 = netOut1 y0 y1 y2 y3 y4 y5 y6 y7 y22 y24 y16 y17 y18 y19 y20 y21 := by
  subst e0; subst e1; subst e2; subst e3; subst e4; subst e5; subst e6; subst e7; subst e22; subst e24; subst e16; subst e17; subst e18; subst e19; subst e20; subst e21
  rfl

set_option maxRecDepth 16384 in
/-- The reference's run from a memory agreeing with the kernel memory on the arguments: its two results are the
    network's outputs of the kernel memory's arguments, and its own arguments end unchanged. -/
theorem ref_run_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v263) = netOut0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      ∧ r.2.mem ((c.tc : Thread Cert.ReferenceIdeal.nD Cert.ReferenceIdeal.τ).loc Cert.ReferenceIdeal.main_v303) = netOut1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg22)) (m ((c.tc : Thread Cert.KernelIdeal.nD Cert.KernelIdeal.τ).loc Cert.KernelIdeal.main_arg24)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)) :=
  (θ_run _ _ _).mono (fun _ h c => by
    obtain ⟨e0, e1, e2, e3, e4, e5, e6, e7, e8, e9, e10, e11, e12, e13, e14, e15, e16, e17, e18, e19, e20, e21, e22, e23, e24⟩ := hagree c
    exact ⟨(h c).1.trans (netOut0_congr e0 e1 e2 e3 e4 e5 e6 e7 e22 e23 e8 e9 e10 e11 e12 e13 e14 e15), (h c).2.1.trans (netOut1_congr e0 e1 e2 e3 e4 e5 e6 e7 e22 e24 e16 e17 e18 e19 e20 e21), (h c).2.2⟩)
    (ref_run_net (F := Ideal) m' g')

end Cert.ReferenceIdeal.HandRun

end
-- ==== Proof.lean ====
/-
  A four-layer graph network with two heads, computed once by a sequence of ten kernels among host operations and once
  by a plain array program; the two computations end with equal results.

  Each layer scales the node features by one plus a learned constant, adds to every node the sum of its
  in-neighbours' rows, applies two dense maps each followed by the maximum with zero, and standardises every column by
  its mean and variance over all one hundred thousand nodes.  The four layers' outputs side by side are averaged
  over each graph for a classifier of three dense maps, a fourth, and a logarithm of a softmax; the two end nodes'
  rows of every candidate edge feed two dense maps, a third, and a logistic function.

  The two computations differ in one place only: the kernels accumulate each column's sum and sum of squares and take
  the variance as the mean of squares less the squared mean, where the array program averages the squared deviations
  from the mean.  Over the real numbers these are one number; on the extended reals the identity needs every entry to
  be finite, which the precondition gives for the arguments and which every layer preserves, because sums, products
  and maxima of finite numbers are finite and the reciprocal square root is taken of a positive real.  Everywhere
  else the two computations apply the same exact operations, up to the order of finite sums.

  Both kernel programs terminate without a fault from any memory and leave their arguments as launched, as does the
  array program; on the extended reals both end with the network's two outputs as functions of the argument arrays.
-/
import proofs.«118347_j18940805776024_1_alg».proof.Defs
import proofs.«118347_j18940805776024_1_alg».proof.Proof.Gen.Kernel
import proofs.«118347_j18940805776024_1_alg».proof.Proof.Gen.Kernel.Skeleton
import proofs.«118347_j18940805776024_1_alg».proof.Proof.Gen.Kernel.Launch
import proofs.«118347_j18940805776024_1_alg».proof.Proof.Gen.Kernel.Regions
import proofs.«118347_j18940805776024_1_alg».proof.Proof.Gen.Kernel.Points
import proofs.«118347_j18940805776024_1_alg».proof.Proof.Gen.KernelIdeal
import proofs.«118347_j18940805776024_1_alg».proof.Proof.Gen.KernelIdeal.Skeleton
import proofs.«118347_j18940805776024_1_alg».proof.Proof.Gen.KernelIdeal.Launch
import proofs.«118347_j18940805776024_1_alg».proof.Proof.Gen.KernelIdeal.Regions
import proofs.«118347_j18940805776024_1_alg».proof.Proof.Gen.KernelIdeal.Points
import proofs.«118347_j18940805776024_1_alg».proof.Proof.Gen.ReferenceIdeal
import proofs.«118347_j18940805776024_1_alg».proof.Proof.Gen.Pre_finite_inputs
import Idealize.ShloMosaic.Adequacy
import Idealize.ShloMosaic.Init
import proofs.«118347_j18940805776024_1_alg».proof.Proof.K.Assemble
import proofs.«118347_j18940805776024_1_alg».proof.Proof.KI.Assemble
import proofs.«118347_j18940805776024_1_alg».proof.Proof.KI.KVals
import proofs.«118347_j18940805776024_1_alg».proof.Proof.KI.HeadsA
import proofs.«118347_j18940805776024_1_alg».proof.Proof.Ref.Agree

noncomputable section

namespace Cert.Proof

open Idealize.ShloMosaic Idealize.SL.Sem

/-- The bit-level program terminates without a fault and leaves its arguments as launched. -/
theorem frame_k : Cert.frame_Kernel :=
  fun m ρ _ => Cert.Kernel.Hand.run_frame (F := Bits) m ρ

/-- So does the same program read on the extended reals. -/
theorem frame_ki : Cert.frame_KernelIdeal :=
  fun m ρ _ => Cert.KernelIdeal.Hand.run_frame (F := Ideal) m ρ

/-- On the extended reals, from memories agreeing on the arguments, both programs end with the network's two
    outputs as functions of the arguments: the same functions, so equal results. -/
theorem algebraic : Cert.algebraic_KernelIdeal_ReferenceIdeal :=
  fun m ρ m' ρ' hpre hagree =>
    ⟨fun c => Cert.Alg.Net.netOut0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
     fun c => Cert.Alg.Net.netOut1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg22)) (m ((c.tc : Thread Cert.KernelIdeal.nD Cert.KernelIdeal.τ).loc Cert.KernelIdeal.main_arg24)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)),
     (θ_run _ _ _).mono
       (fun r h c =>
         ⟨(h c).1.trans (Cert.KernelIdeal.KVals.out0_val m c (Cert.KernelIdeal.KVals.finArgs_of_pre m c hpre) (fun g a8 a9 a10 a11 a12 a13 a14 a15 => Cert.HeadsA.cls_bridge g a8 a9 a10 a11 a12 a13 a14 a15 _ _)),
          (h c).2.1.trans (Cert.KernelIdeal.KVals.out1_val m c (Cert.KernelIdeal.KVals.finArgs_of_pre m c hpre) (fun ef a16 a17 a18 a19 a20 a21 => Cert.HeadsA.edge_bridge ef a16 a17 a18 a19 a20 a21 _ _ _)),
          (h c).2.2⟩)
       (Cert.KernelIdeal.Hand.run_res (F := Ideal) m ρ),
     Cert.ReferenceIdeal.HandRun.ref_run_agree m m' ρ' hagree⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.HandRun.frame_ri, trivial, algebraic⟩

end Cert.Proof

end
